-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S_ : Shape := ⟨0, ![]⟩
abbrev S3x128x128 : Shape := ⟨3, ![3, 128, 128]⟩
abbrev S3x128 : Shape := ⟨2, ![3, 128]⟩
abbrev S3 : Shape := ⟨1, ![3]⟩
abbrev S512x256 : Shape := ⟨2, ![512, 256]⟩
abbrev S256 : Shape := ⟨1, ![256]⟩
abbrev S256x128 : Shape := ⟨2, ![256, 128]⟩
abbrev S128x10 : Shape := ⟨2, ![128, 10]⟩
abbrev S10 : Shape := ⟨1, ![10]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S128x10 .f32) (main_arg24 : FVec F S10 .f32) (main_v97 : IVec S_ 1) (main_v101 : IVec S_ 1) : IVec S_ 1 :=
  let main_v102 : IVec S_ 1 := andi main_v97 main_v101
  let main_v103 : FVec F S128x10 .f32 := Host.absf main_arg23
  let main_cst_40 : FVec F S_ .f32 := constant S_ .f32 0x7F800000#32
  let main_v104 : FVec F S128x10 .f32 := broadcastInDim S128x10 ![] bcast_S_S128x10 main_cst_40
  let main_v105 : IVec S128x10 1 := cmpf .olt main_v103 main_v104
  let main_c_41 : IVec S_ 1 := constantI S_ 1 1#1
  let main_v106 : IVec S_ 1 := (fun x v => Host.reduce IntOp.andi x v reducesTo_S128x10_S_d0_1 h_S_) main_v105 main_c_41
  let main_v107 : IVec S_ 1 := andi main_v102 main_v106
  let main_v108 : FVec F S10 .f32 := Host.absf main_arg24
  let main_cst_42 : FVec F S_ .f32 := constant S_ .f32 0x7F800000#32
  let main_v109 : FVec F S10 .f32 := broadcastInDim S10 ![] bcast_S_S10 main_cst_42
  let main_v110 : IVec S10 1 := cmpf .olt main_v108 main_v109
  let main_c_43 : IVec S_ 1 := constantI S_ 1 1#1
  let main_v111 : IVec S_ 1 := (fun x v => Host.reduce IntOp.andi x v reducesTo_S10_S_d0 h_S_) main_v110 main_c_43
  let main_v112 : IVec S_ 1 := andi main_v107 main_v111
  main_v112

def fn_part5 {F : FTy → Type} [FloatOps F] (main_arg20 : FVec F S128 .f32) (main_arg21 : FVec F S128x128 .f32) (main_arg22 : FVec F S128 .f32) (main_arg23 : FVec F S128x10 .f32) (main_arg24 : FVec F S10 .f32) (main_v82 : IVec S_ 1) (main_v83 : FVec F S256x128 .f32) (main_v84 : FVec F S256x128 .f32) : IVec S_ 1 :=
  let main_v85 : IVec S256x128 1 := cmpf .olt main_v83 main_v84
  let main_c_33 : IVec S_ 1 := constantI S_ 1 1#1
  let main_v86 : IVec S_ 1 := (fun x v => Host.reduce IntOp.andi x v reducesTo_S256x128_S_d0_1 h_S_) main_v85 main_c_33
  let main_v87 : IVec S_ 1 := andi main_v82 main_v86
  let main_v88 : FVec F S128 .f32 := Host.absf main_arg20
  let main_cst_34 : FVec F S_ .f32 := constant S_ .f32 0x7F800000#32
  let main_v89 : FVec F S128 .f32 := broadcastInDim S128 ![] bcast_S_S128 main_cst_34
  let main_v90 : IVec S128 1 := cmpf .olt main_v88 main_v89
  let main_c_35 : IVec S_ 1 := constantI S_ 1 1#1
  let main_v91 : IVec S_ 1 := (fun x v => Host.reduce IntOp.andi x v reducesTo_S128_S_d0 h_S_) main_v90 main_c_35
  let main_v92 : IVec S_ 1 := andi main_v87 main_v91
  let main_v93 : FVec F S128x128 .f32 := Host.absf main_arg21
  let main_cst_36 : FVec F S_ .f32 := constant S_ .f32 0x7F800000#32
  let main_v94 : FVec F S128x128 .f32 := broadcastInDim S128x128 ![] bcast_S_S128x128 main_cst_36
  let main_v95 : IVec S128x128 1 := cmpf .olt main_v93 main_v94
  let main_c_37 : IVec S_ 1 := constantI S_ 1 1#1
  let main_v96 : IVec S_ 1 := (fun x v => Host.reduce IntOp.andi x v reducesTo_S128x128_S_d0_1 h_S_) main_v95 main_c_37
  let main_v97 : IVec S_ 1 := andi main_v92 main_v96
  let main_v98 : FVec F S128 .f32 := Host.absf main_arg22
  let main_cst_38 : FVec F S_ .f32 := constant S_ .f32 0x7F800000#32
  let main_v99 : FVec F S128 .f32 := broadcastInDim S128 ![] bcast_S_S128 main_cst_38
  let main_v100 : IVec S128 1 := cmpf .olt main_v98 main_v99
  let main_c_39 : IVec S_ 1 := constantI S_ 1 1#1
  let main_v101 : IVec S_ 1 := (fun x v => Host.reduce IntOp.andi x v reducesTo_S128_S_d0 h_S_) main_v100 main_c_39
  fn_part6 (F := F) main_arg23 main_arg24 main_v97 main_v101

def fn_part4 {F : FTy → Type} [FloatOps F] (main_arg16 : FVec F S3 .f32) (main_arg17 : FVec F S512x256 .f32) (main_arg18 : FVec F S256 .f32) (main_arg19 : FVec F S256x128 .f32) (main_arg20 : FVec F S128 .f32) (main_arg21 : FVec F S128x128 .f32) (main_arg22 : FVec F S128 .f32) (main_arg23 : FVec F S128x10 .f32) (main_arg24 : FVec F S10 .f32) (main_v67 : IVec S_ 1) : IVec S_ 1 :=
  let main_v68 : FVec F S3 .f32 := Host.absf main_arg16
  let main_cst_26 : FVec F S_ .f32 := constant S_ .f32 0x7F800000#32
  let main_v69 : FVec F S3 .f32 := broadcastInDim S3 ![] bcast_S_S3 main_cst_26
  let main_v70 : IVec S3 1 := cmpf .olt main_v68 main_v69
  let main_c_27 : IVec S_ 1 := constantI S_ 1 1#1
  let main_v71 : IVec S_ 1 := (fun x v => Host.reduce IntOp.andi x v reducesTo_S3_S_d0 h_S_) main_v70 main_c_27
  let main_v72 : IVec S_ 1 := andi main_v67 main_v71
  let main_v73 : FVec F S512x256 .f32 := Host.absf main_arg17
  let main_cst_28 : FVec F S_ .f32 := constant S_ .f32 0x7F800000#32
  let main_v74 : FVec F S512x256 .f32 := broadcastInDim S512x256 ![] bcast_S_S512x256 main_cst_28
  let main_v75 : IVec S512x256 1 := cmpf .olt main_v73 main_v74
  let main_c_29 : IVec S_ 1 := constantI S_ 1 1#1
  let main_v76 : IVec S_ 1 := (fun x v => Host.reduce IntOp.andi x v reducesTo_S512x256_S_d0_1 h_S_) main_v75 main_c_29
  let main_v77 : IVec S_ 1 := andi main_v72 main_v76
  let main_v78 : FVec F S256 .f32 := Host.absf main_arg18
  let main_cst_30 : FVec F S_ .f32 := constant S_ .f32 0x7F800000#32
  let main_v79 : FVec F S256 .f32 := broadcastInDim S256 ![] bcast_S_S256 main_cst_30
  let main_v80 : IVec S256 1 := cmpf .olt main_v78 main_v79
  let main_c_31 : IVec S_ 1 := constantI S_ 1 1#1
  let main_v81 : IVec S_ 1 := (fun x v => Host.reduce IntOp.andi x v reducesTo_S256_S_d0 h_S_) main_v80 main_c_31
  let main_v82 : IVec S_ 1 := andi main_v77 main_v81
  let main_v83 : FVec F S256x128 .f32 := Host.absf main_arg19
  let main_cst_32 : FVec F S_ .f32 := constant S_ .f32 0x7F800000#32
  let main_v84 : FVec F S256x128 .f32 := broadcastInDim S256x128 ![] bcast_S_S256x128 main_cst_32
  fn_part5 (F := F) main_arg20 main_arg21 main_arg22 main_arg23 main_arg24 main_v82 main_v83 main_v84

def fn_part3 {F : FTy → Type} [FloatOps F] (main_arg13 : FVec F S3x128 .f32) (main_arg14 : FVec F S3x128 .f32) (main_arg15 : FVec F S3x128 .f32) (main_arg16 : FVec F S3 .f32) (main_arg17 : FVec F S512x256 .f32) (main_arg18 : FVec F S256 .f32) (main_arg19 : FVec F S256x128 .f32) (main_arg20 : FVec F S128 .f32) (main_arg21 : FVec F S128x128 .f32) (main_arg22 : FVec F S128 .f32) (main_arg23 : FVec F S128x10 .f32) (main_arg24 : FVec F S10 .f32) (main_v47 : IVec S_ 1) (main_v50 : IVec S3x128x128 1) : IVec S_ 1 :=
  let main_c_19 : IVec S_ 1 := constantI S_ 1 1#1
  let main_v51 : IVec S_ 1 := (fun x v => Host.reduce IntOp.andi x v reducesTo_S3x128x128_S_d0_1_2 h_S_) main_v50 main_c_19
  let main_v52 : IVec S_ 1 := andi main_v47 main_v51
  let main_v53 : FVec F S3x128 .f32 := Host.absf main_arg13
  let main_cst_20 : FVec F S_ .f32 := constant S_ .f32 0x7F800000#32
  let main_v54 : FVec F S3x128 .f32 := broadcastInDim S3x128 ![] bcast_S_S3x128 main_cst_20
  let main_v55 : IVec S3x128 1 := cmpf .olt main_v53 main_v54
  let main_c_21 : IVec S_ 1 := constantI S_ 1 1#1
  let main_v56 : IVec S_ 1 := (fun x v => Host.reduce IntOp.andi x v reducesTo_S3x128_S_d0_1 h_S_) main_v55 main_c_21
  let main_v57 : IVec S_ 1 := andi main_v52 main_v56
  let main_v58 : FVec F S3x128 .f32 := Host.absf main_arg14
  let main_cst_22 : FVec F S_ .f32 := constant S_ .f32 0x7F800000#32
  let main_v59 : FVec F S3x128 .f32 := broadcastInDim S3x128 ![] bcast_S_S3x128 main_cst_22
  let main_v60 : IVec S3x128 1 := cmpf .olt main_v58 main_v59
  let main_c_23 : IVec S_ 1 := constantI S_ 1 1#1
  let main_v61 : IVec S_ 1 := (fun x v => Host.reduce IntOp.andi x v reducesTo_S3x128_S_d0_1 h_S_) main_v60 main_c_23
  let main_v62 : IVec S_ 1 := andi main_v57 main_v61
  let main_v63 : FVec F S3x128 .f32 := Host.absf main_arg15
  let main_cst_24 : FVec F S_ .f32 := constant S_ .f32 0x7F800000#32
  let main_v64 : FVec F S3x128 .f32 := broadcastInDim S3x128 ![] bcast_S_S3x128 main_cst_24
  let main_v65 : IVec S3x128 1 := cmpf .olt main_v63 main_v64
  let main_c_25 : IVec S_ 1 := constantI S_ 1 1#1
  let main_v66 : IVec S_ 1 := (fun x v => Host.reduce IntOp.andi x v reducesTo_S3x128_S_d0_1 h_S_) main_v65 main_c_25
  let main_v67 : IVec S_ 1 := andi main_v62 main_v66
  fn_part4 (F := F) main_arg16 main_arg17 main_arg18 main_arg19 main_arg20 main_arg21 main_arg22 main_arg23 main_arg24 main_v67

def fn_part2 {F : FTy → Type} [FloatOps F] (main_arg9 : FVec F S_ .f32) (main_arg10 : FVec F S3x128x128 .f32) (main_arg11 : FVec F S3x128 .f32) (main_arg12 : FVec F S3x128x128 .f32) (main_arg13 : FVec F S3x128 .f32) (main_arg14 : FVec F S3x128 .f32) (main_arg15 : FVec F S3x128 .f32) (main_arg16 : FVec F S3 .f32) (main_arg17 : FVec F S512x256 .f32) (main_arg18 : FVec F S256 .f32) (main_arg19 : FVec F S256x128 .f32) (main_arg20 : FVec F S128 .f32) (main_arg21 : FVec F S128x128 .f32) (main_arg22 : FVec F S128 .f32) (main_arg23 : FVec F S128x10 .f32) (main_arg24 : FVec F S10 .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S3x128x128 .f32 := Host.absf main_arg10
  let main_cst_14 : FVec F S_ .f32 := constant S_ .f32 0x7F800000#32
  let main_v39 : FVec F S3x128x128 .f32 := broadcastInDim S3x128x128 ![] bcast_S_S3x128x128 main_cst_14
  let main_v40 : IVec S3x128x128 1 := cmpf .olt main_v38 main_v39
  let main_c_15 : IVec S_ 1 := constantI S_ 1 1#1
  let main_v41 : IVec S_ 1 := (fun x v => Host.reduce IntOp.andi x v reducesTo_S3x128x128_S_d0_1_2 h_S_) main_v40 main_c_15
  let main_v42 : IVec S_ 1 := andi main_v37 main_v41
  let main_v43 : FVec F S3x128 .f32 := Host.absf main_arg11
  let main_cst_16 : FVec F S_ .f32 := constant S_ .f32 0x7F800000#32
  let main_v44 : FVec F S3x128 .f32 := broadcastInDim S3x128 ![] bcast_S_S3x128 main_cst_16
  let main_v45 : IVec S3x128 1 := cmpf .olt main_v43 main_v44
  let main_c_17 : IVec S_ 1 := constantI S_ 1 1#1
  let main_v46 : IVec S_ 1 := (fun x v => Host.reduce IntOp.andi x v reducesTo_S3x128_S_d0_1 h_S_) main_v45 main_c_17
  let main_v47 : IVec S_ 1 := andi main_v42 main_v46
  let main_v48 : FVec F S3x128x128 .f32 := Host.absf main_arg12
  let main_cst_18 : FVec F S_ .f32 := constant S_ .f32 0x7F800000#32
  let main_v49 : FVec F S3x128x128 .f32 := broadcastInDim S3x128x128 ![] bcast_S_S3x128x128 main_cst_18
  let main_v50 : IVec S3x128x128 1 := cmpf .olt main_v48 main_v49
  fn_part3 (F := F) main_arg13 main_arg14 main_arg15 main_arg16 main_arg17 main_arg18 main_arg19 main_arg20 main_arg21 main_arg22 main_arg23 main_arg24 main_v47 main_v50

def fn_part1 {F : FTy → Type} [FloatOps F] (main_arg6 : FVec F S128 .f32) (main_arg7 : FVec F S128 .f32) (main_arg8 : FVec F S128 .f32) (main_arg9 : FVec F S_ .f32) (main_arg10 : FVec F S3x128x128 .f32) (main_arg11 : FVec F S3x128 .f32) (main_arg12 : FVec F S3x128x128 .f32) (main_arg13 : FVec F S3x128 .f32) (main_arg14 : FVec F S3x128 .f32) (main_arg15 : FVec F S3x128 .f32) (main_arg16 : FVec F S3 .f32) (main_arg17 : FVec F S512x256 .f32) (main_arg18 : FVec F S256 .f32) (main_arg19 : FVec F S256x128 .f32) (main_arg20 : FVec F S128 .f32) (main_arg21 : FVec F S128x128 .f32) (main_arg22 : FVec F S128 .f32) (main_arg23 : FVec F S128x10 .f32) (main_arg24 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x16 .f32) (main_arg1 : IVec S2x1600000 32) (main_arg2 : IVec S100000 32) (main_arg3 : FVec F S16x128 .f32) (main_arg4 : FVec F S128 .f32) (main_arg5 : FVec F S128x128 .f32) (main_arg6 : FVec F S128 .f32) (main_arg7 : FVec F S128 .f32) (main_arg8 : FVec F S128 .f32) (main_arg9 : FVec F S_ .f32) (main_arg10 : FVec F S3x128x128 .f32) (main_arg11 : FVec F S3x128 .f32) (main_arg12 : FVec F S3x128x128 .f32) (main_arg13 : FVec F S3x128 .f32) (main_arg14 : FVec F S3x128 .f32) (main_arg15 : FVec F S3x128 .f32) (main_arg16 : FVec F S3 .f32) (main_arg17 : FVec F S512x256 .f32) (main_arg18 : FVec F S256 .f32) (main_arg19 : FVec F S256x128 .f32) (main_arg20 : FVec F S128 .f32) (main_arg21 : FVec F S128x128 .f32) (main_arg22 : FVec F S128 .f32) (main_arg23 : FVec F S128x10 .f32) (main_arg24 : FVec F S10 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S_ : Shape := ⟨0, ![]⟩
abbrev S3x128x128 : Shape := ⟨3, ![3, 128, 128]⟩
abbrev S3x128 : Shape := ⟨2, ![3, 128]⟩
abbrev S3 : Shape := ⟨1, ![3]⟩
abbrev S512x256 : Shape := ⟨2, ![512, 256]⟩
abbrev S256 : Shape := ⟨1, ![256]⟩
abbrev S256x128 : Shape := ⟨2, ![256, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1600000x1 : Shape := ⟨2, ![1600000, 1]⟩
abbrev S1600000x16 : Shape := ⟨2, ![1600000, 16]⟩
abbrev S100000x128 : Shape := ⟨2, ![100000, 128]⟩
abbrev S5000x16 : Shape := ⟨2, ![5000, 16]⟩
abbrev S5000x128 : Shape := ⟨2, ![5000, 128]⟩
abbrev S1x128 : Shape := ⟨2, ![1, 128]⟩
abbrev S1 : Shape := ⟨1, ![1]⟩
abbrev S1x128x128 : Shape := ⟨3, ![1, 128, 128]⟩
abbrev S1600000x128 : Shape := ⟨2, ![1600000, 128]⟩
abbrev S100000x512 : Shape := ⟨2, ![100000, 512]⟩
abbrev S64x512 : Shape := ⟨2, ![64, 512]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S64x256 : Shape := ⟨2, ![64, 256]⟩
abbrev S1x256 : Shape := ⟨2, ![1, 256]⟩
abbrev S64x128 : Shape := ⟨2, ![64, 128]⟩
abbrev S1x10 : Shape := ⟨2, ![1, 10]⟩

abbrev nBuf : Space → Nat
  | .hbm => 281
  | .vmem => 74
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S16x128, .f32⟩
  | 4 => ⟨S128, .f32⟩
  | 5 => ⟨S128x128, .f32⟩
  | 6 => ⟨S128, .f32⟩
  | 7 => ⟨S128, .f32⟩
  | 8 => ⟨S128, .f32⟩
  | 9 => ⟨S_, .f32⟩
  | 10 => ⟨S3x128x128, .f32⟩
  | 11 => ⟨S3x128, .f32⟩
  | 12 => ⟨S3x128x128, .f32⟩
  | 13 => ⟨S3x128, .f32⟩
  | 14 => ⟨S3x128, .f32⟩
  | 15 => ⟨S3x128, .f32⟩
  | 16 => ⟨S3, .f32⟩
  | 17 => ⟨S512x256, .f32⟩
  | 18 => ⟨S256, .f32⟩
  | 19 => ⟨S256x128, .f32⟩
  | 20 => ⟨S128, .f32⟩
  | 21 => ⟨S128x128, .f32⟩
  | 22 => ⟨S128, .f32⟩
  | 23 => ⟨S128x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x16, .f32⟩
  | 38 => ⟨S_, .f32⟩
  | 39 => ⟨S100000x16, .f32⟩
  | 40 => ⟨S1600000x1, .i32⟩
  | 41 => ⟨S100000x16, .f32⟩
  | 42 => ⟨S_, .f32⟩
  | 43 => ⟨S_, .f32⟩
  | 44 => ⟨S100000x16, .f32⟩
  | 45 => ⟨S100000x16, .f32⟩
  | 46 => ⟨S100000x16, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S100000x128, .f32⟩
  | 61 => ⟨S100000x128, .f32⟩
  | 62 => ⟨S100000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S100000x128, .f32⟩
  | 77 => ⟨S1, .f32⟩
  | 78 => ⟨S_, .f32⟩
  | 79 => ⟨S1x128x128, .f32⟩
  | 80 => ⟨S128x128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S_, .f32⟩
  | 105 => ⟨S_, .f32⟩
  | 106 => ⟨S100000x128, .f32⟩
  | 107 => ⟨S100000x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S100000x128, .f32⟩
  | 123 => ⟨S100000x128, .f32⟩
  | 124 => ⟨S100000x128, .f32⟩
  | 125 => ⟨S_, .f32⟩
  | 126 => ⟨S_, .f32⟩
  | 127 => ⟨S_, .f32⟩
  | _ => ⟨S100000x16, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S100000x128, .f32⟩
  | 11 => ⟨S1, .f32⟩
  | 12 => ⟨S_, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .f32⟩
  | 39 => ⟨S_, .f32⟩
  | 40 => ⟨S100000x128, .f32⟩
  | 41 => ⟨S100000x128, .f32⟩
  | 42 => ⟨S100000x128, .f32⟩
  | 43 => ⟨S100000x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S100000x128, .f32⟩
  | 73 => ⟨S1, .f32⟩
  | 74 => ⟨S_, .f32⟩
  | 75 => ⟨S1x128x128, .f32⟩
  | 76 => ⟨S128x128, .f32⟩
  | 77 => ⟨S1x128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S_, .f32⟩
  | 101 => ⟨S_, .f32⟩
  | 102 => ⟨S100000x128, .f32⟩
  | 103 => ⟨S100000x128, .f32⟩
  | 104 => ⟨S100000x128, .f32⟩
  | 105 => ⟨S100000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S100000x16, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S100000x128, .f32⟩
  | 7 => ⟨S100000x512, .f32⟩
  | 8 => ⟨S_, .f32⟩
  | 9 => ⟨S64x512, .f32⟩
  | 10 => ⟨S100000x1, .i32⟩
  | 11 => ⟨S64x512, .f32⟩
  | 12 => ⟨S_, .f32⟩
  | 13 => ⟨S100000, .f32⟩
  | 14 => ⟨S_, .f32⟩
  | 15 => ⟨S64, .f32⟩
  | 16 => ⟨S100000x1, .i32⟩
  | 17 => ⟨S64, .f32⟩
  | 18 => ⟨S_, .f32⟩
  | 19 => ⟨S64, .f32⟩
  | 20 => ⟨S64, .f32⟩
  | 21 => ⟨S64x1, .f32⟩
  | 22 => ⟨S64x512, .f32⟩
  | 23 => ⟨S64x512, .f32⟩
  | 24 => ⟨S64x10, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S128, .f32⟩
  | .local _ .vmem, ⟨52, _⟩ => ⟨S128x128, .f32⟩
  | .local _ .vmem, ⟨53, _⟩ => ⟨S128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128, .f32⟩
  | .local _ .vmem, ⟨59, _⟩ => ⟨S128, .f32⟩
  | .local _ .vmem, ⟨60, _⟩ => ⟨S128, .f32⟩
  | .local _ .vmem, ⟨61, _⟩ => ⟨S128, .f32⟩
  | .local _ .vmem, ⟨62, _⟩ => ⟨S5000x128, .f32⟩
  | .local _ .vmem, ⟨63, _⟩ => ⟨S5000x128, .f32⟩
  | .local _ .vmem, ⟨64, _⟩ => ⟨S64x512, .f32⟩
  | .local _ .vmem, ⟨65, _⟩ => ⟨S512x256, .f32⟩
  | .local _ .vmem, ⟨66, _⟩ => ⟨S256, .f32⟩
  | .local _ .vmem, ⟨67, _⟩ => ⟨S256x128, .f32⟩
  | .local _ .vmem, ⟨68, _⟩ => ⟨S128, .f32⟩
  | .local _ .vmem, ⟨69, _⟩ => ⟨S128x128, .f32⟩
  | .local _ .vmem, ⟨70, _⟩ => ⟨S128, .f32⟩
  | .local _ .vmem, ⟨71, _⟩ => ⟨S128x10, .f32⟩
  | .local _ .vmem, ⟨72, _⟩ => ⟨S10, .f32⟩
  | .local _ .vmem, ⟨73, _⟩ => ⟨S64x10, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_5 : Ref sig .tc := ⟨.hbm, 91, rfl⟩
abbrev main_v38 : Ref sig .tc := ⟨.hbm, 92, rfl⟩
abbrev main_v39 : Ref sig .tc := ⟨.hbm, 93, rfl⟩
abbrev main_c_6 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_7 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_8 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_9 : Ref sig .tc := ⟨.hbm, 110, rfl⟩
abbrev main_v53 : Ref sig .tc := ⟨.hbm, 111, rfl⟩
abbrev main_cst_10 : Ref sig .tc := ⟨.hbm, 112, rfl⟩
abbrev main_v54 : Ref sig .tc := ⟨.hbm, 113, rfl⟩
abbrev main_v55 : Ref sig .tc := ⟨.hbm, 114, rfl⟩
abbrev main_c_11 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_cst_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_cst_1 : Ref sig .tc := ⟨.hbm, 126, rfl⟩
abbrev main_call1_v8 : Ref sig .tc := ⟨.hbm, 127, rfl⟩
abbrev main_call1_cst_2 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_cst_3 : Ref sig .tc := ⟨.hbm, 132, rfl⟩
abbrev main_call1_v12 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_c_12 : Ref sig .tc := ⟨.hbm, 153, rfl⟩
abbrev main_v72 : Ref sig .tc := ⟨.hbm, 154, rfl⟩
abbrev main_v73 : Ref sig .tc := ⟨.hbm, 155, rfl⟩
abbrev main_c_13 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_cst_14 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_cst_15 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_cst_16 : Ref sig .tc := ⟨.hbm, 172, rfl⟩
abbrev main_v87 : Ref sig .tc := ⟨.hbm, 173, rfl⟩
abbrev main_cst_17 : Ref sig .tc := ⟨.hbm, 174, rfl⟩
abbrev main_v88 : Ref sig .tc := ⟨.hbm, 175, rfl⟩
abbrev main_v89 : Ref sig .tc := ⟨.hbm, 176, rfl⟩
abbrev main_c_18 : Ref sig .tc := ⟨.hbm, 177, rfl⟩
abbrev main_call2_cst : Ref sig .tc := ⟨.hbm, 178, rfl⟩
abbrev main_call2_v0 : Ref sig .tc := ⟨.hbm, 179, rfl⟩
abbrev main_call2_v1 : Ref sig .tc := ⟨.hbm, 180, rfl⟩
abbrev main_call2_cst_0 : Ref sig .tc := ⟨.hbm, 181, rfl⟩
abbrev main_call2_v2 : Ref sig .tc := ⟨.hbm, 182, rfl⟩
abbrev main_call2_v3 : Ref sig .tc := ⟨.hbm, 183, rfl⟩
abbrev main_call2_v4 : Ref sig .tc := ⟨.hbm, 184, rfl⟩
abbrev main_call2_v5 : Ref sig .tc := ⟨.hbm, 185, rfl⟩
abbrev main_call2_v6 : Ref sig .tc := ⟨.hbm, 186, rfl⟩
abbrev main_call2_v7 : Ref sig .tc := ⟨.hbm, 187, rfl⟩
abbrev main_call2_cst_1 : Ref sig .tc := ⟨.hbm, 188, rfl⟩
abbrev main_call2_v8 : Ref sig .tc := ⟨.hbm, 189, rfl⟩
abbrev main_call2_cst_2 : Ref sig .tc := ⟨.hbm, 190, rfl⟩
abbrev main_call2_v9 : Ref sig .tc := ⟨.hbm, 191, rfl⟩
abbrev main_call2_v10 : Ref sig .tc := ⟨.hbm, 192, rfl⟩
abbrev main_call2_v11 : Ref sig .tc := ⟨.hbm, 193, rfl⟩
abbrev main_call2_cst_3 : Ref sig .tc := ⟨.hbm, 194, rfl⟩
abbrev main_call2_v12 : Ref sig .tc := ⟨.hbm, 195, rfl⟩
abbrev main_call2_cst_4 : Ref sig .tc := ⟨.hbm, 196, rfl⟩
abbrev main_call2_call0_v0 : Ref sig .tc := ⟨.hbm, 197, rfl⟩
abbrev main_call2_call0_v1 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_c_19 : Ref sig .tc := ⟨.hbm, 215, rfl⟩
abbrev main_v106 : Ref sig .tc := ⟨.hbm, 216, rfl⟩
abbrev main_v107 : Ref sig .tc := ⟨.hbm, 217, rfl⟩
abbrev main_c_20 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_cst_21 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_cst_22 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_cst_23 : Ref sig .tc := ⟨.hbm, 234, rfl⟩
abbrev main_v121 : Ref sig .tc := ⟨.hbm, 235, rfl⟩
abbrev main_cst_24 : Ref sig .tc := ⟨.hbm, 236, rfl⟩
abbrev main_v122 : Ref sig .tc := ⟨.hbm, 237, rfl⟩
abbrev main_v123 : Ref sig .tc := ⟨.hbm, 238, rfl⟩
abbrev main_c_25 : Ref sig .tc := ⟨.hbm, 239, rfl⟩
abbrev main_call3_cst : Ref sig .tc := ⟨.hbm, 240, rfl⟩
abbrev main_call3_v0 : Ref sig .tc := ⟨.hbm, 241, rfl⟩
abbrev main_call3_v1 : Ref sig .tc := ⟨.hbm, 242, rfl⟩
abbrev main_call3_cst_0 : Ref sig .tc := ⟨.hbm, 243, rfl⟩
abbrev main_call3_v2 : Ref sig .tc := ⟨.hbm, 244, rfl⟩
abbrev main_call3_v3 : Ref sig .tc := ⟨.hbm, 245, rfl⟩
abbrev main_call3_v4 : Ref sig .tc := ⟨.hbm, 246, rfl⟩
abbrev main_call3_v5 : Ref sig .tc := ⟨.hbm, 247, rfl⟩
abbrev main_call3_v6 : Ref sig .tc := ⟨.hbm, 248, rfl⟩
abbrev main_call3_v7 : Ref sig .tc := ⟨.hbm, 249, rfl⟩
abbrev main_call3_cst_1 : Ref sig .tc := ⟨.hbm, 250, rfl⟩
abbrev main_call3_v8 : Ref sig .tc := ⟨.hbm, 251, rfl⟩
abbrev main_call3_cst_2 : Ref sig .tc := ⟨.hbm, 252, rfl⟩
abbrev main_call3_v9 : Ref sig .tc := ⟨.hbm, 253, rfl⟩
abbrev main_call3_v10 : Ref sig .tc := ⟨.hbm, 254, rfl⟩
abbrev main_call3_v11 : Ref sig .tc := ⟨.hbm, 255, rfl⟩
abbrev main_call3_cst_3 : Ref sig .tc := ⟨.hbm, 256, rfl⟩
abbrev main_call3_v12 : Ref sig .tc := ⟨.hbm, 257, rfl⟩
abbrev main_call3_cst_4 : Ref sig .tc := ⟨.hbm, 258, rfl⟩
abbrev main_call3_call0_v0 : Ref sig .tc := ⟨.hbm, 259, rfl⟩
abbrev main_call3_call0_v1 : Ref sig .tc := ⟨.hbm, 260, rfl⟩
abbrev main_v124 : Ref sig .tc := ⟨.hbm, 261, rfl⟩
abbrev main_v125 : Ref sig .tc := ⟨.hbm, 262, rfl⟩
abbrev main_v126 : Ref sig .tc := ⟨.hbm, 263, rfl⟩
abbrev main_cst_26 : Ref sig .tc := ⟨.hbm, 264, rfl⟩
abbrev main_v127 : Ref sig .tc := ⟨.hbm, 265, rfl⟩
abbrev main_v128 : Ref sig .tc := ⟨.hbm, 266, rfl⟩
abbrev main_v129 : Ref sig .tc := ⟨.hbm, 267, rfl⟩
abbrev main_cst_27 : Ref sig .tc := ⟨.hbm, 268, rfl⟩
abbrev main_v130 : Ref sig .tc := ⟨.hbm, 269, rfl⟩
abbrev main_cst_28 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_cst_29 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg5_0 : Ref sig .tc := ⟨.vmem, 69, rfl⟩
abbrev cc8_stg6_0 : Ref sig .tc := ⟨.vmem, 70, rfl⟩
abbrev cc8_stg7_0 : Ref sig .tc := ⟨.vmem, 71, rfl⟩
abbrev cc8_stg8_0 : Ref sig .tc := ⟨.vmem, 72, rfl⟩
abbrev cc8_stg9_0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem1_0 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem6_0 : DmaSem sig := 70
abbrev cc8_sem7_0 : DmaSem sig := 71
abbrev cc8_sem8_0 : DmaSem sig := 72
abbrev cc8_sem9_0 : DmaSem sig := 73

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x512 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S512x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x10 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S10 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S64x10 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S128_S128 : S128.ShapeCasts S128
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  shapeCasts_S128x128_S128x128 : S128x128.ShapeCasts S128x128
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S100000x128_S100000x128_S100000x128_S100000x128_S100000x512_d1 : Shape.Concatenates [S100000x128, S100000x128, S100000x128, S100000x128] S100000x512 1
  bcast_S_S64x512 : S_.BroadcastsInDim S64x512 (![] : Fin 0 → Fin S64x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S256x128_S256x128_0_0 : ∀ a, (![0, 0] : Fin 2 → Nat) a + S256x128.size a ≤ S256x128.size a
  h_S256x128 : 0 < S256x128.numel
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x512_S100000x1_S100000x512_1_0_0_1_wf : ScatterDims.WF S64x512 S100000x1 S100000x512 [1] [0] [0] 1
  scatter_S64_S100000x1_S100000_n_0_0_1_wf : ScatterDims.WF S64 S100000x1 S100000 [] [0] [0] 1
  dot_S64x512_S512x256_S64x256_1_0_0_1_n_n_wf : DotDims.WF S64x512 S512x256 S64x256 [1] [0] [0] [1] [] []
  dot_S64x256_S256x128_S64x128_1_0_0_1_n_n_wf : DotDims.WF S64x256 S256x128 S64x128 [1] [0] [0] [1] [] []
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x512.size a ≤ S64x512.size a
  hwx8_0 : ∀ i : grid8.Coords, EltTy.bits .f32 = 32 ∨ (Rect.block (s := S64x512) S64x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S512x256.size a
  hwx8_1 : ∀ i : grid8.Coords, EltTy.bits .f32 = 32 ∨ (Rect.block (s := S512x256) S512x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256.size a ≤ S256.size a
  hwx8_2 : ∀ i : grid8.Coords, EltTy.bits .f32 = 32 ∨ (Rect.block (s := S256) S256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x128.size a ≤ S256x128.size a
  hwx8_3 : ∀ i : grid8.Coords, EltTy.bits .f32 = 32 ∨ (Rect.block (s := S256x128) S256x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128.size a ≤ S128.size a
  hwx8_6 : ∀ i : grid8.Coords, EltTy.bits .f32 = 32 ∨ (Rect.block (s := S128) S128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x10.size a ≤ S128x10.size a
  hwx8_7 : ∀ i : grid8.Coords, EltTy.bits .f32 = 32 ∨ (Rect.block (s := S128x10) S128x10.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S10.size a ≤ S10.size a
  hwx8_8 : ∀ i : grid8.Coords, EltTy.bits .f32 = 32 ∨ (Rect.block (s := S10) S10.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S64x10.size a ≤ S64x10.size a
  hwx8_9 : ∀ i : grid8.Coords, EltTy.bits .f32 = 32 ∨ (Rect.block (s := S64x10) S64x10.size (cc8_transform_9 i) (hinb8_9 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x512_S100000x1_S100000x512_1_0_0_1 : ScatterDims S64x512 S100000x1 S100000x512 where
  updateWindowDims := [1]
  insertedWindowDims := [0]
  scatterDimsToOperandDims := [0]
  indexVectorDim := 1
  wf := scatter_S64x512_S100000x1_S100000x512_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v17) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v86) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v119) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v120) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v120) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v123) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v124) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v103) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v105) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v125) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v138) S64x512.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S512x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg18) S256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg19) S256x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg20) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg21) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg22) S128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg23) S128x10.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_arg24) S10.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v139) S64x10.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S_ : Shape := ⟨0, ![]⟩
abbrev S3x128x128 : Shape := ⟨3, ![3, 128, 128]⟩
abbrev S3x128 : Shape := ⟨2, ![3, 128]⟩
abbrev S3 : Shape := ⟨1, ![3]⟩
abbrev S512x256 : Shape := ⟨2, ![512, 256]⟩
abbrev S256 : Shape := ⟨1, ![256]⟩
abbrev S256x128 : Shape := ⟨2, ![256, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1600000x1 : Shape := ⟨2, ![1600000, 1]⟩
abbrev S1600000x16 : Shape := ⟨2, ![1600000, 16]⟩
abbrev S100000x128 : Shape := ⟨2, ![100000, 128]⟩
abbrev S1x128 : Shape := ⟨2, ![1, 128]⟩
abbrev S1 : Shape := ⟨1, ![1]⟩
abbrev S1x128x128 : Shape := ⟨3, ![1, 128, 128]⟩
abbrev S1600000x128 : Shape := ⟨2, ![1600000, 128]⟩
abbrev S100000x512 : Shape := ⟨2, ![100000, 512]⟩
abbrev S64x512 : Shape := ⟨2, ![64, 512]⟩
abbrev S100000x1 : Shape := ⟨2, ![100000, 1]⟩
abbrev S64 : Shape := ⟨1, ![64]⟩
abbrev S64x1 : Shape := ⟨2, ![64, 1]⟩
abbrev S64x256 : Shape := ⟨2, ![64, 256]⟩
abbrev S1x256 : Shape := ⟨2, ![1, 256]⟩
abbrev S64x128 : Shape := ⟨2, ![64, 128]⟩
abbrev S64x10 : Shape := ⟨2, ![64, 10]⟩
abbrev S1x10 : Shape := ⟨2, ![1, 10]⟩

abbrev nBuf : Space → Nat
  | .hbm => 432
  | .vmem => 0
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S16x128, .f32⟩
  | 4 => ⟨S128, .f32⟩
  | 5 => ⟨S128x128, .f32⟩
  | 6 => ⟨S128, .f32⟩
  | 7 => ⟨S128, .f32⟩
  | 8 => ⟨S128, .f32⟩
  | 9 => ⟨S_, .f32⟩
  | 10 => ⟨S3x128x128, .f32⟩
  | 11 => ⟨S3x128, .f32⟩
  | 12 => ⟨S3x128x128, .f32⟩
  | 13 => ⟨S3x128, .f32⟩
  | 14 => ⟨S3x128, .f32⟩
  | 15 => ⟨S3x128, .f32⟩
  | 16 => ⟨S3, .f32⟩
  | 17 => ⟨S512x256, .f32⟩
  | 18 => ⟨S256, .f32⟩
  | 19 => ⟨S256x128, .f32⟩
  | 20 => ⟨S128, .f32⟩
  | 21 => ⟨S128x128, .f32⟩
  | 22 => ⟨S128, .f32⟩
  | 23 => ⟨S128x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x16, .f32⟩
  | 38 => ⟨S_, .f32⟩
  | 39 => ⟨S100000x16, .f32⟩
  | 40 => ⟨S1600000x1, .i32⟩
  | 41 => ⟨S100000x16, .f32⟩
  | 42 => ⟨S_, .f32⟩
  | 43 => ⟨S_, .f32⟩
  | 44 => ⟨S100000x16, .f32⟩
  | 45 => ⟨S100000x16, .f32⟩
  | 46 => ⟨S100000x16, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S100000x128, .f32⟩
  | 74 => ⟨S100000x128, .f32⟩
  | 75 => ⟨S100000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1, .f32⟩
  | 106 => ⟨S_, .f32⟩
  | 107 => ⟨S1x128x128, .f32⟩
  | 108 => ⟨S128x128, .f32⟩
  | 109 => ⟨S1x128, .f32⟩
  | 110 => ⟨S128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x16, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S_, .f32⟩
  | 5 => ⟨S_, .f32⟩
  | 6 => ⟨S100000x128, .f32⟩
  | 7 => ⟨S100000x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S1, .f32⟩
  | 68 => ⟨S_, .f32⟩
  | 69 => ⟨S1x128x128, .f32⟩
  | 70 => ⟨S128x128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S_, .f32⟩
  | 95 => ⟨S_, .f32⟩
  | 96 => ⟨S100000x128, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S100000x128, .f32⟩
  | 126 => ⟨S100000x128, .f32⟩
  | 127 => ⟨S100000x128, .f32⟩
  | _ => ⟨S100000x16, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S128, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S1, .f32⟩
  | 30 => ⟨S_, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S_, .f32⟩
  | 57 => ⟨S_, .f32⟩
  | 58 => ⟨S100000x128, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S100000x128, .f32⟩
  | 88 => ⟨S100000x128, .f32⟩
  | 89 => ⟨S100000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S128, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S100000x512, .f32⟩
  | 120 => ⟨S_, .f32⟩
  | 121 => ⟨S64x512, .f32⟩
  | 122 => ⟨S100000x1, .i32⟩
  | 123 => ⟨S64x512, .f32⟩
  | 124 => ⟨S_, .f32⟩
  | 125 => ⟨S100000, .f32⟩
  | 126 => ⟨S_, .f32⟩
  | 127 => ⟨S64, .f32⟩
  | _ => ⟨S100000x16, .f32⟩

abbrev hbmTy0_3 (i : Nat) : BufTy := match i % 128 with
  | 0 => ⟨S100000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x512, .f32⟩
  | 7 => ⟨S64x512, .f32⟩
  | 8 => ⟨S64x256, .f32⟩
  | 9 => ⟨S1x256, .f32⟩
  | 10 => ⟨S64x256, .f32⟩
  | 11 => ⟨S64x256, .f32⟩
  | 12 => ⟨S_, .f32⟩
  | 13 => ⟨S64x256, .f32⟩
  | 14 => ⟨S64x256, .f32⟩
  | 15 => ⟨S64x128, .f32⟩
  | 16 => ⟨S1x128, .f32⟩
  | 17 => ⟨S64x128, .f32⟩
  | 18 => ⟨S64x128, .f32⟩
  | 19 => ⟨S_, .f32⟩
  | 20 => ⟨S64x128, .f32⟩
  | 21 => ⟨S64x128, .f32⟩
  | 22 => ⟨S64x128, .f32⟩
  | 23 => ⟨S1x128, .f32⟩
  | 24 => ⟨S64x128, .f32⟩
  | 25 => ⟨S64x128, .f32⟩
  | 26 => ⟨S_, .f32⟩
  | 27 => ⟨S64x128, .f32⟩
  | 28 => ⟨S64x128, .f32⟩
  | 29 => ⟨S64x10, .f32⟩
  | 30 => ⟨S1x10, .f32⟩
  | 31 => ⟨S64x10, .f32⟩
  | 32 => ⟨S64x10, .f32⟩
  | 33 => ⟨S_, .f32⟩
  | 34 => ⟨S64, .f32⟩
  | 35 => ⟨S_, .f32⟩
  | 36 => ⟨S64, .f32⟩
  | 37 => ⟨S64, .f32⟩
  | 38 => ⟨S64x1, .f32⟩
  | 39 => ⟨S64x10, .f32⟩
  | 40 => ⟨S64x10, .f32⟩
  | 41 => ⟨S64x10, .f32⟩
  | 42 => ⟨S_, .f32⟩
  | 43 => ⟨S64, .f32⟩
  | 44 => ⟨S64x1, .f32⟩
  | 45 => ⟨S64x1, .f32⟩
  | 46 => ⟨S64x10, .f32⟩
  | 47 => ⟨S64x10, .f32⟩
  | _ => ⟨S100000x16, .f32⟩

abbrev hbmTy (i : Nat) : BufTy := match i / 128 with
  | 0 => hbmTy0_0 i
  | 1 => hbmTy0_1 i
  | 2 => hbmTy0_2 i
  | 3 => hbmTy0_3 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call0_cst : Ref sig .tc := ⟨.hbm, 51, rfl⟩
abbrev main_call0_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_cst : Ref sig .tc := ⟨.hbm, 58, rfl⟩
abbrev main_call1_v0 : Ref sig .tc := ⟨.hbm, 59, rfl⟩
abbrev main_v27 : Ref sig .tc := ⟨.hbm, 60, rfl⟩
abbrev main_cst_2 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_c_4 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_cst_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_cst_1 : Ref sig .tc := ⟨.hbm, 77, rfl⟩
abbrev main_call2_v8 : Ref sig .tc := ⟨.hbm, 78, rfl⟩
abbrev main_call2_cst_2 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_cst_3 : Ref sig .tc := ⟨.hbm, 83, rfl⟩
abbrev main_call2_v12 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_cst_5 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_c_6 : Ref sig .tc := ⟨.hbm, 119, rfl⟩
abbrev main_v61 : Ref sig .tc := ⟨.hbm, 120, rfl⟩
abbrev main_v62 : Ref sig .tc := ⟨.hbm, 121, rfl⟩
abbrev main_c_7 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_8 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_9 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_call3_cst : Ref sig .tc := ⟨.hbm, 141, rfl⟩
abbrev main_call3_v0 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_call4_cst : Ref sig .tc := ⟨.hbm, 148, rfl⟩
abbrev main_call4_v0 : Ref sig .tc := ⟨.hbm, 149, rfl⟩
abbrev main_v84 : Ref sig .tc := ⟨.hbm, 150, rfl⟩
abbrev main_cst_10 : Ref sig .tc := ⟨.hbm, 151, rfl⟩
abbrev main_v85 : Ref sig .tc := ⟨.hbm, 152, rfl⟩
abbrev main_cst_11 : Ref sig .tc := ⟨.hbm, 153, rfl⟩
abbrev main_v86 : Ref sig .tc := ⟨.hbm, 154, rfl⟩
abbrev main_v87 : Ref sig .tc := ⟨.hbm, 155, rfl⟩
abbrev main_c_12 : Ref sig .tc := ⟨.hbm, 156, rfl⟩
abbrev main_call5_cst : Ref sig .tc := ⟨.hbm, 157, rfl⟩
abbrev main_call5_v0 : Ref sig .tc := ⟨.hbm, 158, rfl⟩
abbrev main_call5_v1 : Ref sig .tc := ⟨.hbm, 159, rfl⟩
abbrev main_call5_cst_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_v6 : Ref sig .tc := ⟨.hbm, 165, rfl⟩
abbrev main_call5_v7 : Ref sig .tc := ⟨.hbm, 166, rfl⟩
abbrev main_call5_cst_1 : Ref sig .tc := ⟨.hbm, 167, rfl⟩
abbrev main_call5_v8 : Ref sig .tc := ⟨.hbm, 168, rfl⟩
abbrev main_call5_cst_2 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_cst_3 : Ref sig .tc := ⟨.hbm, 173, rfl⟩
abbrev main_call5_v12 : Ref sig .tc := ⟨.hbm, 174, rfl⟩
abbrev main_call5_cst_4 : Ref sig .tc := ⟨.hbm, 175, rfl⟩
abbrev main_call5_call0_v0 : Ref sig .tc := ⟨.hbm, 176, rfl⟩
abbrev main_call5_call0_v1 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_cst_13 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_c_14 : Ref sig .tc := ⟨.hbm, 209, rfl⟩
abbrev main_v118 : Ref sig .tc := ⟨.hbm, 210, rfl⟩
abbrev main_v119 : Ref sig .tc := ⟨.hbm, 211, rfl⟩
abbrev main_c_15 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_cst_16 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_cst_17 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_call6_cst : Ref sig .tc := ⟨.hbm, 231, rfl⟩
abbrev main_call6_v0 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_call7_cst : Ref sig .tc := ⟨.hbm, 238, rfl⟩
abbrev main_call7_v0 : Ref sig .tc := ⟨.hbm, 239, rfl⟩
abbrev main_v141 : Ref sig .tc := ⟨.hbm, 240, rfl⟩
abbrev main_cst_18 : Ref sig .tc := ⟨.hbm, 241, rfl⟩
abbrev main_v142 : Ref sig .tc := ⟨.hbm, 242, rfl⟩
abbrev main_cst_19 : Ref sig .tc := ⟨.hbm, 243, rfl⟩
abbrev main_v143 : Ref sig .tc := ⟨.hbm, 244, rfl⟩
abbrev main_v144 : Ref sig .tc := ⟨.hbm, 245, rfl⟩
abbrev main_c_20 : Ref sig .tc := ⟨.hbm, 246, rfl⟩
abbrev main_call8_cst : Ref sig .tc := ⟨.hbm, 247, rfl⟩
abbrev main_call8_v0 : Ref sig .tc := ⟨.hbm, 248, rfl⟩
abbrev main_call8_v1 : Ref sig .tc := ⟨.hbm, 249, rfl⟩
abbrev main_call8_cst_0 : Ref sig .tc := ⟨.hbm, 250, rfl⟩
abbrev main_call8_v2 : Ref sig .tc := ⟨.hbm, 251, rfl⟩
abbrev main_call8_v3 : Ref sig .tc := ⟨.hbm, 252, rfl⟩
abbrev main_call8_v4 : Ref sig .tc := ⟨.hbm, 253, rfl⟩
abbrev main_call8_v5 : Ref sig .tc := ⟨.hbm, 254, rfl⟩
abbrev main_call8_v6 : Ref sig .tc := ⟨.hbm, 255, rfl⟩
abbrev main_call8_v7 : Ref sig .tc := ⟨.hbm, 256, rfl⟩
abbrev main_call8_cst_1 : Ref sig .tc := ⟨.hbm, 257, rfl⟩
abbrev main_call8_v8 : Ref sig .tc := ⟨.hbm, 258, rfl⟩
abbrev main_call8_cst_2 : Ref sig .tc := ⟨.hbm, 259, rfl⟩
abbrev main_call8_v9 : Ref sig .tc := ⟨.hbm, 260, rfl⟩
abbrev main_call8_v10 : Ref sig .tc := ⟨.hbm, 261, rfl⟩
abbrev main_call8_v11 : Ref sig .tc := ⟨.hbm, 262, rfl⟩
abbrev main_call8_cst_3 : Ref sig .tc := ⟨.hbm, 263, rfl⟩
abbrev main_call8_v12 : Ref sig .tc := ⟨.hbm, 264, rfl⟩
abbrev main_call8_cst_4 : Ref sig .tc := ⟨.hbm, 265, rfl⟩
abbrev main_call8_call0_v0 : Ref sig .tc := ⟨.hbm, 266, rfl⟩
abbrev main_call8_call0_v1 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_cst_21 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_c_22 : Ref sig .tc := ⟨.hbm, 299, rfl⟩
abbrev main_v175 : Ref sig .tc := ⟨.hbm, 300, rfl⟩
abbrev main_v176 : Ref sig .tc := ⟨.hbm, 301, rfl⟩
abbrev main_c_23 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_cst_24 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_cst_25 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_call9_cst : Ref sig .tc := ⟨.hbm, 321, rfl⟩
abbrev main_call9_v0 : Ref sig .tc := ⟨.hbm, 322, rfl⟩
abbrev main_v193 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩
abbrev main_call10_cst : Ref sig .tc := ⟨.hbm, 328, rfl⟩
abbrev main_call10_v0 : Ref sig .tc := ⟨.hbm, 329, rfl⟩
abbrev main_v198 : Ref sig .tc := ⟨.hbm, 330, rfl⟩
abbrev main_cst_26 : Ref sig .tc := ⟨.hbm, 331, rfl⟩
abbrev main_v199 : Ref sig .tc := ⟨.hbm, 332, rfl⟩
abbrev main_cst_27 : Ref sig .tc := ⟨.hbm, 333, rfl⟩
abbrev main_v200 : Ref sig .tc := ⟨.hbm, 334, rfl⟩
abbrev main_v201 : Ref sig .tc := ⟨.hbm, 335, rfl⟩
abbrev main_c_28 : Ref sig .tc := ⟨.hbm, 336, rfl⟩
abbrev main_call11_cst : Ref sig .tc := ⟨.hbm, 337, rfl⟩
abbrev main_call11_v0 : Ref sig .tc := ⟨.hbm, 338, rfl⟩
abbrev main_call11_v1 : Ref sig .tc := ⟨.hbm, 339, rfl⟩
abbrev main_call11_cst_0 : Ref sig .tc := ⟨.hbm, 340, rfl⟩
abbrev main_call11_v2 : Ref sig .tc := ⟨.hbm, 341, rfl⟩
abbrev main_call11_v3 : Ref sig .tc := ⟨.hbm, 342, rfl⟩
abbrev main_call11_v4 : Ref sig .tc := ⟨.hbm, 343, rfl⟩
abbrev main_call11_v5 : Ref sig .tc := ⟨.hbm, 344, rfl⟩
abbrev main_call11_v6 : Ref sig .tc := ⟨.hbm, 345, rfl⟩
abbrev main_call11_v7 : Ref sig .tc := ⟨.hbm, 346, rfl⟩
abbrev main_call11_cst_1 : Ref sig .tc := ⟨.hbm, 347, rfl⟩
abbrev main_call11_v8 : Ref sig .tc := ⟨.hbm, 348, rfl⟩
abbrev main_call11_cst_2 : Ref sig .tc := ⟨.hbm, 349, rfl⟩
abbrev main_call11_v9 : Ref sig .tc := ⟨.hbm, 350, rfl⟩
abbrev main_call11_v10 : Ref sig .tc := ⟨.hbm, 351, rfl⟩
abbrev main_call11_v11 : Ref sig .tc := ⟨.hbm, 352, rfl⟩
abbrev main_call11_cst_3 : Ref sig .tc := ⟨.hbm, 353, rfl⟩
abbrev main_call11_v12 : Ref sig .tc := ⟨.hbm, 354, rfl⟩
abbrev main_call11_cst_4 : Ref sig .tc := ⟨.hbm, 355, rfl⟩
abbrev main_call11_call0_v0 : Ref sig .tc := ⟨.hbm, 356, rfl⟩
abbrev main_call11_call0_v1 : Ref sig .tc := ⟨.hbm, 357, rfl⟩
abbrev main_v202 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩
abbrev main_v206 : Ref sig .tc := ⟨.hbm, 362, rfl⟩
abbrev main_v207 : Ref sig .tc := ⟨.hbm, 363, rfl⟩
abbrev main_v208 : Ref sig .tc := ⟨.hbm, 364, rfl⟩
abbrev main_cst_29 : Ref sig .tc := ⟨.hbm, 365, rfl⟩
abbrev main_v209 : Ref sig .tc := ⟨.hbm, 366, rfl⟩
abbrev main_v210 : Ref sig .tc := ⟨.hbm, 367, rfl⟩
abbrev main_v211 : Ref sig .tc := ⟨.hbm, 368, rfl⟩
abbrev main_v212 : Ref sig .tc := ⟨.hbm, 369, rfl⟩
abbrev main_v213 : Ref sig .tc := ⟨.hbm, 370, rfl⟩
abbrev main_v214 : Ref sig .tc := ⟨.hbm, 371, rfl⟩
abbrev main_v215 : Ref sig .tc := ⟨.hbm, 372, rfl⟩
abbrev main_v216 : Ref sig .tc := ⟨.hbm, 373, rfl⟩
abbrev main_v217 : Ref sig .tc := ⟨.hbm, 374, rfl⟩
abbrev main_v218 : Ref sig .tc := ⟨.hbm, 375, rfl⟩
abbrev main_cst_30 : Ref sig .tc := ⟨.hbm, 376, rfl⟩
abbrev main_v219 : Ref sig .tc := ⟨.hbm, 377, rfl⟩
abbrev main_v220 : Ref sig .tc := ⟨.hbm, 378, rfl⟩
abbrev main_v221 : Ref sig .tc := ⟨.hbm, 379, rfl⟩
abbrev main_cst_31 : Ref sig .tc := ⟨.hbm, 380, rfl⟩
abbrev main_v222 : Ref sig .tc := ⟨.hbm, 381, rfl⟩
abbrev main_cst_32 : Ref sig .tc := ⟨.hbm, 382, rfl⟩
abbrev main_v223 : Ref sig .tc := ⟨.hbm, 383, rfl⟩
abbrev main_v224 : Ref sig .tc := ⟨.hbm, 384, rfl⟩
abbrev main_v225 : Ref sig .tc := ⟨.hbm, 385, rfl⟩
abbrev main_cst_33 : Ref sig .tc := ⟨.hbm, 386, rfl⟩
abbrev main_v226 : Ref sig .tc := ⟨.hbm, 387, rfl⟩
abbrev main_v227 : Ref sig .tc := ⟨.hbm, 388, rfl⟩
abbrev main_v228 : Ref sig .tc := ⟨.hbm, 389, rfl⟩
abbrev main_v229 : Ref sig .tc := ⟨.hbm, 390, rfl⟩
abbrev main_v230 : Ref sig .tc := ⟨.hbm, 391, rfl⟩
abbrev main_v231 : Ref sig .tc := ⟨.hbm, 392, rfl⟩
abbrev main_v232 : Ref sig .tc := ⟨.hbm, 393, rfl⟩
abbrev main_v233 : Ref sig .tc := ⟨.hbm, 394, rfl⟩
abbrev main_v234 : Ref sig .tc := ⟨.hbm, 395, rfl⟩
abbrev main_call12_cst : Ref sig .tc := ⟨.hbm, 396, rfl⟩
abbrev main_call12_v0 : Ref sig .tc := ⟨.hbm, 397, rfl⟩
abbrev main_v235 : Ref sig .tc := ⟨.hbm, 398, rfl⟩
abbrev main_v236 : Ref sig .tc := ⟨.hbm, 399, rfl⟩
abbrev main_v237 : Ref sig .tc := ⟨.hbm, 400, rfl⟩
abbrev main_v238 : Ref sig .tc := ⟨.hbm, 401, rfl⟩
abbrev main_v239 : Ref sig .tc := ⟨.hbm, 402, rfl⟩
abbrev main_call13_cst : Ref sig .tc := ⟨.hbm, 403, rfl⟩
abbrev main_call13_v0 : Ref sig .tc := ⟨.hbm, 404, rfl⟩
abbrev main_v240 : Ref sig .tc := ⟨.hbm, 405, rfl⟩
abbrev main_v241 : Ref sig .tc := ⟨.hbm, 406, rfl⟩
abbrev main_v242 : Ref sig .tc := ⟨.hbm, 407, rfl⟩
abbrev main_v243 : Ref sig .tc := ⟨.hbm, 408, rfl⟩
abbrev main_v244 : Ref sig .tc := ⟨.hbm, 409, rfl⟩
abbrev main_call14_cst : Ref sig .tc := ⟨.hbm, 410, rfl⟩
abbrev main_call14_v0 : Ref sig .tc := ⟨.hbm, 411, rfl⟩
abbrev main_v245 : Ref sig .tc := ⟨.hbm, 412, rfl⟩
abbrev main_v246 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_call15_cst : Ref sig .tc := ⟨.hbm, 417, rfl⟩
abbrev main_call15_v0 : Ref sig .tc := ⟨.hbm, 418, rfl⟩
abbrev main_call15_cst_0 : Ref sig .tc := ⟨.hbm, 419, rfl⟩
abbrev main_call15_v1 : Ref sig .tc := ⟨.hbm, 420, rfl⟩
abbrev main_call15_v2 : Ref sig .tc := ⟨.hbm, 421, rfl⟩
abbrev main_call15_v3 : Ref sig .tc := ⟨.hbm, 422, rfl⟩
abbrev main_call15_v4 : Ref sig .tc := ⟨.hbm, 423, rfl⟩
abbrev main_call15_v5 : Ref sig .tc := ⟨.hbm, 424, rfl⟩
abbrev main_call15_v6 : Ref sig .tc := ⟨.hbm, 425, rfl⟩
abbrev main_call15_cst_1 : Ref sig .tc := ⟨.hbm, 426, rfl⟩
abbrev main_call15_v7 : Ref sig .tc := ⟨.hbm, 427, rfl⟩
abbrev main_call15_v8 : Ref sig .tc := ⟨.hbm, 428, rfl⟩
abbrev main_call15_v9 : Ref sig .tc := ⟨.hbm, 429, rfl⟩
abbrev main_call15_v10 : Ref sig .tc := ⟨.hbm, 430, rfl⟩
abbrev main_v250 : Ref sig .tc := ⟨.hbm, 431, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S100000x128_S100000x128_S100000x128_S100000x128_S100000x512_d1 : Shape.Concatenates [S100000x128, S100000x128, S100000x128, S100000x128] S100000x512 1
  bcast_S_S64x512 : S_.BroadcastsInDim S64x512 (![] : Fin 0 → Fin S64x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  bcast_S64x1_S64x10_0_1 : S64x1.BroadcastsInDim S64x10 (![0, 1] : Fin 2 → Fin S64x10.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x512_S100000x1_S100000x512_1_0_0_1_wf : ScatterDims.WF S64x512 S100000x1 S100000x512 [1] [0] [0] 1
  scatter_S64_S100000x1_S100000_n_0_0_1_wf : ScatterDims.WF S64 S100000x1 S100000 [] [0] [0] 1
  dot_S64x512_S512x256_S64x256_1_0_0_1_n_n_wf : DotDims.WF S64x512 S512x256 S64x256 [1] [0] [0] [1] [] []
  dot_S64x256_S256x128_S64x128_1_0_0_1_n_n_wf : DotDims.WF S64x256 S256x128 S64x128 [1] [0] [0] [1] [] []
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x512_S100000x1_S100000x512_1_0_0_1 : ScatterDims S64x512 S100000x1 S100000x512 where
  updateWindowDims := [1]
  insertedWindowDims := [0]
  scatterDimsToOperandDims := [0]
  indexVectorDim := 1
  wf := scatter_S64x512_S100000x1_S100000x512_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KReg0.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: rows 5000·t … 5000·t+4999 of the two-layer perceptron of the first layer

Every input window's block stays in its staging buffer through the body, so at every grid point the buffer holds the
block of the array as the region found it; the one output window's buffer ends at the body's single store. -/

/-- Window `w`'s block at point `t`, read off the array the region finds at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x16 := Rect.unit (s := S5000x16) ![0, 0] S5000x16.size inb_S5000x16_S5000x16_0_0
abbrev r0_1 : Rect S16x128 := Rect.unit (s := S16x128) ![0, 0] S16x128.size inb_S16x128_S16x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S5000x128 := Rect.unit (s := S5000x128) ![0, 0] S5000x128.size inb_S5000x128_S5000x128_0_0

/-- The output buffer after the body: the one whole-block store of the body's value of the five loaded blocks. -/
def out0_5 (x0 : Vec F S5000x16 .f32) (x1 : Vec F S16x128 .f32) (x2 : Vec F S128 .f32) (x3 : Vec F S128x128 .f32) (x4 : Vec F S128 .f32) : Vec F S5000x128 .f32 :=
  View.canon [⟨r0_5, k0_pay1 (View.ld x0 r0_0) (View.ld x1 r0_1) (View.ld x2 r0_2) (View.ld x3 r0_3) (View.ld x4 r0_4)⟩]

/-- The one store covers the whole buffer. -/
theorem cover0_5 (p0 : Vec F S5000x128 .f32) (y : S5000x128.Idx) :
    ∃ pc ∈ ([⟨r0_5, p0⟩] : List (View.Piece (Elt F) S5000x128 .f32)), y ∈ pc.1.set :=
  View.cover_of_tiled [⟨r0_5, p0⟩] S5000x128.size (by rfl) y

set_option maxHeartbeats 1000000 in
/-- The body on whole staging buffers: the inputs' contents are read and left as they were, the output's ends at `out0_5`. -/
theorem sound_kernel0 (c : Dev nD) (E : Set ℕ) (i : grid0.Coords)
    (arg0 : Memref sig .tc .vmem S5000x16 .f32) (harg0 : arg0.IsWhole) (arg1 : Memref sig .tc .vmem S16x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x16 .f32) (x1 : Vec F S16x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline: the arrays as the region finds them; after the body at point `t` each input's buffer
    at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128 := Rect.unit (s := S128) ![0] S128.size inb_S128_S128_0
abbrev r1_2 : Rect S128 := Rect.unit (s := S128) ![0] S128.size inb_S128_S128_0
abbrev r1_3 : Rect S128 := Rect.unit (s := S128) ![0] S128.size inb_S128_S128_0
abbrev r1_4 : Rect S128 := Rect.unit (s := S128) ![0] S128.size inb_S128_S128_0
abbrev r1_5 : Rect S5000x128 := Rect.unit (s := S5000x128) ![0, 0] S5000x128.size inb_S5000x128_S5000x128_0_0

/-- The output buffer after the body: the one whole-block store of the body's value of the five loaded blocks. -/
def out1_5 (x0 : Vec F S5000x128 .f32) (x1 : Vec F S128 .f32) (x2 : Vec F S128 .f32) (x3 : Vec F S128 .f32) (x4 : Vec F S128 .f32) : Vec F S5000x128 .f32 :=
  View.canon [⟨r1_5, k1_pay1 (View.ld x0 r1_0) (View.ld x1 r1_1) (View.ld x2 r1_2) (View.ld x3 r1_3) (View.ld x4 r1_4)⟩]

/-- The one store covers the whole buffer. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

set_option maxHeartbeats 1000000 in
/-- The body on whole staging buffers: the inputs' contents are read and left as they were, the output's ends at `out1_5`. -/
theorem sound_kernel1 (c : Dev nD) (E : Set ℕ) (i : grid1.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline: the arrays as the region finds them; after the body at point `t` each input's buffer
    at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: rows 5000·t … 5000·t+4999 of a two-layer perceptron of width 128

Every input window's block stays in its staging buffer through the body, so at every grid point the buffer holds the
block of the array as the region found it; the one output window's buffer ends at the body's single store. -/

/-- Window `w`'s block at point `t`, read off the array the region finds at entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0
abbrev r2_3 : Rect S128x128 := Rect.unit (s := S128x128) ![0, 0] S128x128.size inb_S128x128_S128x128_0_0
abbrev r2_4 : Rect S128 := Rect.unit (s := S128) ![0] S128.size inb_S128_S128_0
abbrev r2_5 : Rect S5000x128 := Rect.unit (s := S5000x128) ![0, 0] S5000x128.size inb_S5000x128_S5000x128_0_0

/-- The output buffer after the body: the one whole-block store of the body's value of the five loaded blocks. -/
def out2_5 (x0 : Vec F S5000x128 .f32) (x1 : Vec F S128x128 .f32) (x2 : Vec F S128 .f32) (x3 : Vec F S128x128 .f32) (x4 : Vec F S128 .f32) : Vec F S5000x128 .f32 :=
  View.canon [⟨r2_5, k2_pay1 (View.ld x0 r2_0) (View.ld x1 r2_1) (View.ld x2 r2_2) (View.ld x3 r2_3) (View.ld x4 r2_4)⟩]

/-- The one store covers the whole buffer. -/
theorem cover2_5 (p0 : Vec F S5000x128 .f32) (y : S5000x128.Idx) :
    ∃ pc ∈ ([⟨r2_5, p0⟩] : List (View.Piece (Elt F) S5000x128 .f32)), y ∈ pc.1.set :=
  View.cover_of_tiled [⟨r2_5, p0⟩] S5000x128.size (by rfl) y

set_option maxHeartbeats 1000000 in
/-- The body on whole staging buffers: the inputs' contents are read and left as they were, the output's ends at `out2_5`. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__mlp_kernel i arg0 harg0 arg1 harg1 arg2 harg2 arg3 harg3 arg4 harg4 arg5 harg5) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this pipeline: the arrays as the region finds them; after the body at point `t` each input's buffer
    at its block and the output's at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x128 := Rect.unit (s := S5000x128) ![0, 0] S5000x128.size inb_S5000x128_S5000x128_0_0
abbrev r3_1 : Rect S128 := Rect.unit (s := S128) ![0] S128.size inb_S128_S128_0
abbrev r3_2 : Rect S128 := Rect.unit (s := S128) ![0] S128.size inb_S128_S128_0
abbrev r3_3 : Rect S128 := Rect.unit (s := S128) ![0] S128.size inb_S128_S128_0
abbrev r3_4 : Rect S128 := Rect.unit (s := S128) ![0] S128.size inb_S128_S128_0
abbrev r3_5 : Rect S5000x128 := Rect.unit (s := S5000x128) ![0, 0] S5000x128.size inb_S5000x128_S5000x128_0_0

/-- The output buffer after the body: the one whole-block store of the body's value of the five loaded blocks. -/
def out3_5 (x0 : Vec F S5000x128 .f32) (x1 : Vec F S128 .f32) (x2 : Vec F S128 .f32) (x3 : Vec F S128 .f32) (x4 : Vec F S128 .f32) : Vec F S5000x128 .f32 :=
  View.canon [⟨r3_5, k3_pay1 (View.ld x0 r3_0) (View.ld x1 r3_1) (View.ld x2 r3_2) (View.ld x3 r3_3) (View.ld x4 r3_4)⟩]

/-- The one store covers the whole buffer. -/
theorem cover3_5 (p0 : Vec F S5000x128 .f32) (y : S5000x128.Idx) :
    ∃ pc ∈ ([⟨r3_5, p0⟩] : List (View.Piece (Elt F) S5000x128 .f32)), y ∈ pc.1.set :=
  View.cover_of_tiled [⟨r3_5, p0⟩] S5000x128.size (by rfl) y

set_option maxHeartbeats 1000000 in
/-- The body on whole staging buffers: the inputs' contents are read and left as they were, the output's ends at `out3_5`. -/
theorem sound_kernel3 (c : Dev nD) (E : Set ℕ) (i : grid3.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline: the arrays as the region finds them; after the body at point `t` each input's buffer
    at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: rows 5000·t … 5000·t+4999 of a two-layer perceptron of width 128

Every input window's block stays in its staging buffer through the body, so at every grid point the buffer holds the
block of the array as the region found it; the one output window's buffer ends at the body's single store. -/

/-- Window `w`'s block at point `t`, read off the array the region finds at entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S128 := Rect.unit (s := S128) ![0] S128.size inb_S128_S128_0
abbrev r4_3 : Rect S128x128 := Rect.unit (s := S128x128) ![0, 0] S128x128.size inb_S128x128_S128x128_0_0
abbrev r4_4 : Rect S128 := Rect.unit (s := S128) ![0] S128.size inb_S128_S128_0
abbrev r4_5 : Rect S5000x128 := Rect.unit (s := S5000x128) ![0, 0] S5000x128.size inb_S5000x128_S5000x128_0_0

/-- The output buffer after the body: the one whole-block store of the body's value of the five loaded blocks. -/
def out4_5 (x0 : Vec F S5000x128 .f32) (x1 : Vec F S128x128 .f32) (x2 : Vec F S128 .f32) (x3 : Vec F S128x128 .f32) (x4 : Vec F S128 .f32) : Vec F S5000x128 .f32 :=
  View.canon [⟨r4_5, k4_pay1 (View.ld x0 r4_0) (View.ld x1 r4_1) (View.ld x2 r4_2) (View.ld x3 r4_3) (View.ld x4 r4_4)⟩]

/-- The one store covers the whole buffer. -/
theorem cover4_5 (p0 : Vec F S5000x128 .f32) (y : S5000x128.Idx) :
    ∃ pc ∈ ([⟨r4_5, p0⟩] : List (View.Piece (Elt F) S5000x128 .f32)), y ∈ pc.1.set :=
  View.cover_of_tiled [⟨r4_5, p0⟩] S5000x128.size (by rfl) y

set_option maxHeartbeats 1000000 in
/-- The body on whole staging buffers: the inputs' contents are read and left as they were, the output's ends at `out4_5`. -/
theorem sound_kernel4 (c : Dev nD) (E : Set ℕ) (i : grid4.Coords)
    (arg0 : Memref sig .tc .vmem S5000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__mlp_kernel i arg0 harg0 arg1 harg1 arg2 harg2 arg3 harg3 arg4 harg4 arg5 harg5) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of this pipeline: the arrays as the region finds them; after the body at point `t` each input's buffer
    at its block and the output's at `out4_5` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KReg5.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S5000x128 := Rect.unit (s := S5000x128) ![0, 0] S5000x128.size inb_S5000x128_S5000x128_0_0
abbrev r5_1 : Rect S128 := Rect.unit (s := S128) ![0] S128.size inb_S128_S128_0
abbrev r5_2 : Rect S128 := Rect.unit (s := S128) ![0] S128.size inb_S128_S128_0
abbrev r5_3 : Rect S128 := Rect.unit (s := S128) ![0] S128.size inb_S128_S128_0
abbrev r5_4 : Rect S128 := Rect.unit (s := S128) ![0] S128.size inb_S128_S128_0
abbrev r5_5 : Rect S5000x128 := Rect.unit (s := S5000x128) ![0, 0] S5000x128.size inb_S5000x128_S5000x128_0_0

/-- The output buffer after the body: the one whole-block store of the body's value of the five loaded blocks. -/
def out5_5 (x0 : Vec F S5000x128 .f32) (x1 : Vec F S128 .f32) (x2 : Vec F S128 .f32) (x3 : Vec F S128 .f32) (x4 : Vec F S128 .f32) : Vec F S5000x128 .f32 :=
  View.canon [⟨r5_5, k5_pay1 (View.ld x0 r5_0) (View.ld x1 r5_1) (View.ld x2 r5_2) (View.ld x3 r5_3) (View.ld x4 r5_4)⟩]

/-- The one store covers the whole buffer. -/
theorem cover5_5 (p0 : Vec F S5000x128 .f32) (y : S5000x128.Idx) :
    ∃ pc ∈ ([⟨r5_5, p0⟩] : List (View.Piece (Elt F) S5000x128 .f32)), y ∈ pc.1.set :=
  View.cover_of_tiled [⟨r5_5, p0⟩] S5000x128.size (by rfl) y

set_option maxHeartbeats 1000000 in
/-- The body on whole staging buffers: the inputs' contents are read and left as they were, the output's ends at `out5_5`. -/
theorem sound_kernel5 (c : Dev nD) (E : Set ℕ) (i : grid5.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E (cc5__bn_kernel i arg0 harg0 arg1 harg1 arg2 harg2 arg3 harg3 arg4 harg4 arg5 harg5) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline: the arrays as the region finds them; after the body at point `t` each input's buffer
    at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KReg6.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: rows 5000·t … 5000·t+4999 of a two-layer perceptron of width 128

Every input window's block stays in its staging buffer through the body, so at every grid point the buffer holds the
block of the array as the region found it; the one output window's buffer ends at the body's single store. -/

/-- Window `w`'s block at point `t`, read off the array the region finds at entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S128 := Rect.unit (s := S128) ![0] S128.size inb_S128_S128_0
abbrev r6_3 : Rect S128x128 := Rect.unit (s := S128x128) ![0, 0] S128x128.size inb_S128x128_S128x128_0_0
abbrev r6_4 : Rect S128 := Rect.unit (s := S128) ![0] S128.size inb_S128_S128_0
abbrev r6_5 : Rect S5000x128 := Rect.unit (s := S5000x128) ![0, 0] S5000x128.size inb_S5000x128_S5000x128_0_0

/-- The output buffer after the body: the one whole-block store of the body's value of the five loaded blocks. -/
def out6_5 (x0 : Vec F S5000x128 .f32) (x1 : Vec F S128x128 .f32) (x2 : Vec F S128 .f32) (x3 : Vec F S128x128 .f32) (x4 : Vec F S128 .f32) : Vec F S5000x128 .f32 :=
  View.canon [⟨r6_5, k6_pay1 (View.ld x0 r6_0) (View.ld x1 r6_1) (View.ld x2 r6_2) (View.ld x3 r6_3) (View.ld x4 r6_4)⟩]

/-- The one store covers the whole buffer. -/
theorem cover6_5 (p0 : Vec F S5000x128 .f32) (y : S5000x128.Idx) :
    ∃ pc ∈ ([⟨r6_5, p0⟩] : List (View.Piece (Elt F) S5000x128 .f32)), y ∈ pc.1.set :=
  View.cover_of_tiled [⟨r6_5, p0⟩] S5000x128.size (by rfl) y

set_option maxHeartbeats 1000000 in
/-- The body on whole staging buffers: the inputs' contents are read and left as they were, the output's ends at `out6_5`. -/
theorem sound_kernel6 (c : Dev nD) (E : Set ℕ) (i : grid6.Coords)
    (arg0 : Memref sig .tc .vmem S5000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out6_5 x0 x1 x2 x3 x4)) -∗ K ⟨⟩))
      ⊢ wp frame (wpE (defs₀ (F := F)) Variants.none c none) E (cc6__mlp_kernel i arg0 harg0 arg1 harg1 arg2 harg2 arg3 harg3 arg4 harg4 arg5 harg5) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of this pipeline: the arrays as the region finds them; after the body at point `t` each input's buffer
    at its block and the output's at `out6_5` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so `sound_kernel6` applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KReg7.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x128 := Rect.unit (s := S5000x128) ![0, 0] S5000x128.size inb_S5000x128_S5000x128_0_0
abbrev r7_1 : Rect S128 := Rect.unit (s := S128) ![0] S128.size inb_S128_S128_0
abbrev r7_2 : Rect S128 := Rect.unit (s := S128) ![0] S128.size inb_S128_S128_0
abbrev r7_3 : Rect S128 := Rect.unit (s := S128) ![0] S128.size inb_S128_S128_0
abbrev r7_4 : Rect S128 := Rect.unit (s := S128) ![0] S128.size inb_S128_S128_0
abbrev r7_5 : Rect S5000x128 := Rect.unit (s := S5000x128) ![0, 0] S5000x128.size inb_S5000x128_S5000x128_0_0

/-- The output buffer after the body: the one whole-block store of the body's value of the five loaded blocks. -/
def out7_5 (x0 : Vec F S5000x128 .f32) (x1 : Vec F S128 .f32) (x2 : Vec F S128 .f32) (x3 : Vec F S128 .f32) (x4 : Vec F S128 .f32) : Vec F S5000x128 .f32 :=
  View.canon [⟨r7_5, k7_pay1 (View.ld x0 r7_0) (View.ld x1 r7_1) (View.ld x2 r7_2) (View.ld x3 r7_3) (View.ld x4 r7_4)⟩]

/-- The one store covers the whole buffer. -/
theorem cover7_5 (p0 : Vec F S5000x128 .f32) (y : S5000x128.Idx) :
    ∃ pc ∈ ([⟨r7_5, p0⟩] : List (View.Piece (Elt F) S5000x128 .f32)), y ∈ pc.1.set :=
  View.cover_of_tiled [⟨r7_5, p0⟩] S5000x128.size (by rfl) y

set_option maxHeartbeats 1000000 in
/-- The body on whole staging buffers: the inputs' contents are read and left as they were, the output's ends at `out7_5`. -/
theorem sound_kernel7 (c : Dev nD) (E : Set ℕ) (i : grid7.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out7_5 x0 x1 x2 x3 x4)) -∗ K ⟨⟩))
      ⊢ wp frame (wpE (defs₀ (F := F)) Variants.none c none) E (cc7__bn_kernel i arg0 harg0 arg1 harg1 arg2 harg2 arg3 harg3 arg4 harg4 arg5 harg5) K := by
  simp only [cc7__bn_kernel_eq_skeleton]; unfold cc7__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The proof data of this pipeline: the arrays as the region finds them; after the body at point `t` each input's buffer
    at its block and the output's at `out7_5` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so `sound_kernel7` applies. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KReg8.lean ====
import proofs.«168812_j9088150798767_1_alg».proof.Proof.Gen.Kernel.Launch
import proofs.«168812_j9088150798767_1_alg».proof.Proof.Gen.Kernel.Skeleton
import proofs.«168812_j9088150798767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the classifier on the pooled features, one block

Every input window's block stays in its staging buffer through the body, so at every grid point the buffer holds the
block of the array as the region found it; the one output window's buffer ends at the body's single store. -/

/-- Window `w`'s block at point `t`, read off the array the region finds at entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds its block at every point, fetched there or not. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's staging buffer holds its block at every point, fetched there or not. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's staging buffer holds its block at every point, fetched there or not. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's staging buffer holds its block at every point, fetched there or not. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S64x512 := Rect.unit (s := S64x512) ![0, 0] S64x512.size inb_S64x512_S64x512_0_0
abbrev r8_1 : Rect S512x256 := Rect.unit (s := S512x256) ![0, 0] S512x256.size inb_S512x256_S512x256_0_0
abbrev r8_2 : Rect S256 := Rect.unit (s := S256) ![0] S256.size inb_S256_S256_0
abbrev r8_3 : Rect S256x128 := Rect.unit (s := S256x128) ![0, 0] S256x128.size inb_S256x128_S256x128_0_0
abbrev r8_4 : Rect S128 := Rect.unit (s := S128) ![0] S128.size inb_S128_S128_0
abbrev r8_5 : Rect S128x128 := Rect.unit (s := S128x128) ![0, 0] S128x128.size inb_S128x128_S128x128_0_0
abbrev r8_6 : Rect S128 := Rect.unit (s := S128) ![0] S128.size inb_S128_S128_0
abbrev r8_7 : Rect S128x10 := Rect.unit (s := S128x10) ![0, 0] S128x10.size inb_S128x10_S128x10_0_0
abbrev r8_8 : Rect S10 := Rect.unit (s := S10) ![0] S10.size inb_S10_S10_0
abbrev r8_9 : Rect S64x10 := Rect.unit (s := S64x10) ![0, 0] S64x10.size inb_S64x10_S64x10_0_0

/-- The output buffer after the body: the one whole-block store of the body's value of the loaded blocks. -/
def out8_9 (x0 : Vec F S64x512 .f32) (x1 : Vec F S512x256 .f32) (x2 : Vec F S256 .f32) (x3 : Vec F S256x128 .f32) (x4 : Vec F S128 .f32) (x5 : Vec F S128x128 .f32) (x6 : Vec F S128 .f32) (x7 : Vec F S128x10 .f32) (x8 : Vec F S10 .f32) : Vec F S64x10 .f32 :=
  View.canon [⟨r8_9, k8_pay1 (k8_pay2 (View.ld x0 r8_0) (View.ld x1 r8_1) (View.ld x2 r8_2) (View.ld x3 r8_3) (View.ld x4 r8_4) (View.ld x5 r8_5) (View.ld x6 r8_6) (View.ld x7 r8_7)) (k8_pay3 (View.ld x8 r8_8))⟩]

/-- The one store covers the whole buffer. -/
theorem cover8_9 (p0 : Vec F S64x10 .f32) (y : S64x10.Idx) :
    ∃ pc ∈ ([⟨r8_9, p0⟩] : List (View.Piece (Elt F) S64x10 .f32)), y ∈ pc.1.set :=
  View.cover_of_tiled [⟨r8_9, p0⟩] S64x10.size (by rfl) y

set_option maxHeartbeats 1000000 in
/-- The body on whole staging buffers: the inputs' contents are read and left as they were, the output's ends at `out8_9`. -/
theorem sound_kernel8 (c : Dev nD) (E : Set ℕ) (i : grid8.Coords)
    (arg0 : Memref sig .tc .vmem S64x512 .f32) (harg0 : arg0.IsWhole)
    (arg1 : Memref sig .tc .vmem S512x256 .f32) (harg1 : arg1.IsWhole)
    (arg2 : Memref sig .tc .vmem S256 .f32) (harg2 : arg2.IsWhole)
    (arg3 : Memref sig .tc .vmem S256x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S128 .f32) (harg6 : arg6.IsWhole)
    (arg7 : Memref sig .tc .vmem S128x10 .f32) (harg7 : arg7.IsWhole)
    (arg8 : Memref sig .tc .vmem S10 .f32) (harg8 : arg8.IsWhole)
    (arg9 : Memref sig .tc .vmem S64x10 .f32) (harg9 : arg9.IsWhole)
    (x0 : Vec F S64x512 .f32) (x1 : Vec F S512x256 .f32) (x2 : Vec F S256 .f32) (x3 : Vec F S256x128 .f32) (x4 : Vec F S128 .f32) (x5 : Vec F S128x128 .f32) (x6 : Vec F S128 .f32) (x7 : Vec F S128x10 .f32) (x8 : Vec F S10 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (out8_9 x0 x1 x2 x3 x4 x5 x6 x7 x8)) -∗ K ⟨⟩))
      ⊢ wp frame (wpE (defs₀ (F := F)) Variants.none c none) E (cc8__cls_kernel i arg0 harg0 arg1 harg1 arg2 harg2 arg3 harg3 arg4 harg4 arg5 harg5 arg6 harg6 arg7 harg7 arg8 harg8 arg9 harg9) K := by
  simp only [cc8__cls_kernel_eq_skeleton]; unfold cc8__cls_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover8_9 _)

/-- The proof data of this pipeline: the arrays as the region finds them; after the body at point `t` each input's buffer
    at its block and the output's at `out8_9` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' buffers hold their blocks, so `sound_kernel8` applies. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KFold.lean ====
import proofs.«168812_j9088150798767_1_alg».proof.Proof.Gen.Kernel.Regions
import proofs.«168812_j9088150798767_1_alg».proof.Proof.KReg0
import proofs.«168812_j9088150798767_1_alg».proof.Proof.KReg1
import proofs.«168812_j9088150798767_1_alg».proof.Proof.KReg2
import proofs.«168812_j9088150798767_1_alg».proof.Proof.KReg3
import proofs.«168812_j9088150798767_1_alg».proof.Proof.KReg4
import proofs.«168812_j9088150798767_1_alg».proof.Proof.KReg5
import proofs.«168812_j9088150798767_1_alg».proof.Proof.KReg6
import proofs.«168812_j9088150798767_1_alg».proof.Proof.KReg7
import proofs.«168812_j9088150798767_1_alg».proof.Proof.KReg8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of the program

A fold from the launch memory: a stretch of host operations applies them in order; a kernel region leaves its input
arrays as it found them and its output array at what the write-backs of all grid points leave; every other buffer is
untouched. -/

/-- Core `c`'s buffers at launch. -/
abbrev W0 : Dev nD → Valuation τ sig (Elt F) := fun c b => m (c, b)
/-- After the host operations `hostOps0`. -/
abbrev W1 : Dev nD → Valuation τ sig (Elt F) := fun c => StableHlo.after hostOps0 (W0 m c)
theorem W1_keep (c : Dev nD) (b : Ref sig .tc) (h : b ∉ hostOps0_W) : W1 m c (Proc.devRef .tc b) = W0 m c (Proc.devRef .tc b) :=
  StableHlo.after_of_writes_sub hostOps0 _ hostOps0_writes h
/-- The same contents read at the TensorCore's references: what region 0 is entered with. -/
abbrev U1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- Region 0 changes no buffer but its output array `main_v18`: an input window's array is written back as found. -/
theorem W2_keep (c : Dev nD) (b : Ref sig .tc) (hb : b ≠ main_v18) : W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (U1 m) c).arrAt_in 0 rfl _).trans (A_eq0 (U1 m) c 0)
    | ⟨1, _⟩ => exact ((dat0 (U1 m) c).arrAt_in 1 rfl _).trans (A_eq0 (U1 m) c 1)
    | ⟨2, _⟩ => exact ((dat0 (U1 m) c).arrAt_in 2 rfl _).trans (A_eq0 (U1 m) c 2)
    | ⟨3, _⟩ => exact ((dat0 (U1 m) c).arrAt_in 3 rfl _).trans (A_eq0 (U1 m) c 3)
    | ⟨4, _⟩ => exact ((dat0 (U1 m) c).arrAt_in 4 rfl _).trans (A_eq0 (U1 m) c 4)
    | ⟨5, _⟩ => exact absurd rfl hb
  · exact W2_of_ne m c b fun w e => h ⟨w, e⟩
/-- After the host operations `hostOps1`. -/
abbrev W3 : Dev nD → Valuation τ sig (Elt F) := fun c => StableHlo.after hostOps1 (W2 m c)
theorem W3_keep (c : Dev nD) (b : Ref sig .tc) (h : b ∉ hostOps1_W) : W3 m c (Proc.devRef .tc b) = W2 m c (Proc.devRef .tc b) :=
  StableHlo.after_of_writes_sub hostOps1 _ hostOps1_writes h
/-- After the host operations `hostOps1_1`. -/
abbrev W4 : Dev nD → Valuation τ sig (Elt F) := fun c => StableHlo.after hostOps1_1 (W3 m c)
theorem W4_keep (c : Dev nD) (b : Ref sig .tc) (h : b ∉ hostOps1_1_W) : W4 m c (Proc.devRef .tc b) = W3 m c (Proc.devRef .tc b) :=
  StableHlo.after_of_writes_sub hostOps1_1 _ hostOps1_1_writes h
/-- The same contents read at the TensorCore's references: what region 1 is entered with. -/
abbrev U4 : (c : Dev nD) → (b : Ref sig .tc) → Buf (Elt F) ((c : Thread nD τ).loc b) := fun c b => W4 m c b
/-- After region 1: its arrays at what the pipeline leaves, every other buffer as entered. -/
def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)
/-- Region 1 changes no buffer but its output array `main_v23`: an input window's array is written back as found. -/
theorem W5_keep (c : Dev nD) (b : Ref sig .tc) (hb : b ≠ main_v23) : W5 m c (Proc.devRef .tc b) = W4 m c (Proc.devRef .tc b) := by
  by_cases h : ∃ w, Pipeline.arrRef spec1 w = b
  · obtain ⟨w, rfl⟩ := h
    rw [W5_arr]
    match w with
    | ⟨0, _⟩ => exact ((dat1 (U4 m) c).arrAt_in 0 rfl _).trans (A_eq1 (U4 m) c 0)
    | ⟨1, _⟩ => exact ((dat1 (U4 m) c).arrAt_in 1 rfl _).trans (A_eq1 (U4 m) c 1)
    | ⟨2, _⟩ => exact ((dat1 (U4 m) c).arrAt_in 2 rfl _).trans (A_eq1 (U4 m) c 2)
    | ⟨3, _⟩ => exact ((dat1 (U4 m) c).arrAt_in 3 rfl _).trans (A_eq1 (U4 m) c 3)
    | ⟨4, _⟩ => exact ((dat1 (U4 m) c).arrAt_in 4 rfl _).trans (A_eq1 (U4 m) c 4)
    | ⟨5, _⟩ => exact absurd rfl hb
  · exact W5_of_ne m c b fun w e => h ⟨w, e⟩
/-- After the host operations `hostOps2`. -/
abbrev W6 : Dev nD → Valuation τ sig (Elt F) := fun c => StableHlo.after hostOps2 (W5 m c)
theorem W6_keep (c : Dev nD) (b : Ref sig .tc) (h : b ∉ hostOps2_W) : W6 m c (Proc.devRef .tc b) = W5 m c (Proc.devRef .tc b) :=
  StableHlo.after_of_writes_sub hostOps2 _ hostOps2_writes h
/-- The same contents read at the TensorCore's references: what region 2 is entered with. -/
abbrev U6 : (c : Dev nD) → (b : Ref sig .tc) → Buf (Elt F) ((c : Thread nD τ).loc b) := fun c b => W6 m c b
/-- After region 2: its arrays at what the pipeline leaves, every other buffer as entered. -/
def W7 (c : Dev nD) : Valuation τ sig (Elt F) :=
  Pipeline.withArrays spec2 c (W6 m c) fun w => (dat2 (U6 m) c).arrAt w cfg2.N
theorem W7_arr (c : Dev nD) (w : Fin cfg2.W) :
    W7 m c (Proc.devRef .tc (Pipeline.arrRef spec2 w)) = (dat2 (U6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev U7 : (c : Dev nD) → (b : Ref sig .tc) → Buf (Elt F) ((c : Thread nD τ).loc b) := fun c b => W7 m c b
theorem hF2 (c : Dev nD) (w : Fin cfg2.W) : (dat2 (U6 m) c).arrAt w cfg2.N = U7 m c (Pipeline.arrRef spec2 w) :=
  (W7_arr m c w).symm
theorem hrest2 (c : Dev nD) : ∀ b, b ∉ Finset.univ.image (Pipeline.arrRef spec2) → U7 m c b = U6 m c b :=
  fun b hb => W7_of_ne m c b fun w e => hb (Finset.mem_image.mpr ⟨w, Finset.mem_univ _, e⟩)
/-- Region 2 changes no buffer but its output array `main_v52`: an input window's array is written back as found. -/
theorem W7_keep (c : Dev nD) (b : Ref sig .tc) (hb : b ≠ main_v52) : W7 m c (Proc.devRef .tc b) = W6 m c (Proc.devRef .tc b) := by
  by_cases h : ∃ w, Pipeline.arrRef spec2 w = b
  · obtain ⟨w, rfl⟩ := h
    rw [W7_arr]
    match w with
    | ⟨0, _⟩ => exact ((dat2 (U6 m) c).arrAt_in 0 rfl _).trans (A_eq2 (U6 m) c 0)
    | ⟨1, _⟩ => exact ((dat2 (U6 m) c).arrAt_in 1 rfl _).trans (A_eq2 (U6 m) c 1)
    | ⟨2, _⟩ => exact ((dat2 (U6 m) c).arrAt_in 2 rfl _).trans (A_eq2 (U6 m) c 2)
    | ⟨3, _⟩ => exact ((dat2 (U6 m) c).arrAt_in 3 rfl _).trans (A_eq2 (U6 m) c 3)
    | ⟨4, _⟩ => exact ((dat2 (U6 m) c).arrAt_in 4 rfl _).trans (A_eq2 (U6 m) c 4)
    | ⟨5, _⟩ => exact absurd rfl hb
  · exact W7_of_ne m c b fun w e => h ⟨w, e⟩
/-- After the host operations `hostOps3`. -/
abbrev W8 : Dev nD → Valuation τ sig (Elt F) := fun c => StableHlo.after hostOps3 (W7 m c)
theorem W8_keep (c : Dev nD) (b : Ref sig .tc) (h : b ∉ hostOps3_W) : W8 m c (Proc.devRef .tc b) = W7 m c (Proc.devRef .tc b) :=
  StableHlo.after_of_writes_sub hostOps3 _ hostOps3_writes h
/-- After the host operations `hostOps3_1`. -/
abbrev W9 : Dev nD → Valuation τ sig (Elt F) := fun c => StableHlo.after hostOps3_1 (W8 m c)
theorem W9_keep (c : Dev nD) (b : Ref sig .tc) (h : b ∉ hostOps3_1_W) : W9 m c (Proc.devRef .tc b) = W8 m c (Proc.devRef .tc b) :=
  StableHlo.after_of_writes_sub hostOps3_1 _ hostOps3_1_writes h
/-- The same contents read at the TensorCore's references: what region 3 is entered with. -/
abbrev U9 : (c : Dev nD) → (b : Ref sig .tc) → Buf (Elt F) ((c : Thread nD τ).loc b) := fun c b => W9 m c b
/-- After region 3: its arrays at what the pipeline leaves, every other buffer as entered. -/
def W10 (c : Dev nD) : Valuation τ sig (Elt F) :=
  Pipeline.withArrays spec3 c (W9 m c) fun w => (dat3 (U9 m) c).arrAt w cfg3.N
theorem W10_arr (c : Dev nD) (w : Fin cfg3.W) :
    W10 m c (Proc.devRef .tc (Pipeline.arrRef spec3 w)) = (dat3 (U9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev U10 : (c : Dev nD) → (b : Ref sig .tc) → Buf (Elt F) ((c : Thread nD τ).loc b) := fun c b => W10 m c b
theorem hF3 (c : Dev nD) (w : Fin cfg3.W) : (dat3 (U9 m) c).arrAt w cfg3.N = U10 m c (Pipeline.arrRef spec3 w) :=
  (W10_arr m c w).symm
theorem hrest3 (c : Dev nD) : ∀ b, b ∉ Finset.univ.image (Pipeline.arrRef spec3) → U10 m c b = U9 m c b :=
  fun b hb => W10_of_ne m c b fun w e => hb (Finset.mem_image.mpr ⟨w, Finset.mem_univ _, e⟩)
/-- Region 3 changes no buffer but its output array `main_v57`: an input window's array is written back as found. -/
theorem W10_keep (c : Dev nD) (b : Ref sig .tc) (hb : b ≠ main_v57) : W10 m c (Proc.devRef .tc b) = W9 m c (Proc.devRef .tc b) := by
  by_cases h : ∃ w, Pipeline.arrRef spec3 w = b
  · obtain ⟨w, rfl⟩ := h
    rw [W10_arr]
    match w with
    | ⟨0, _⟩ => exact ((dat3 (U9 m) c).arrAt_in 0 rfl _).trans (A_eq3 (U9 m) c 0)
    | ⟨1, _⟩ => exact ((dat3 (U9 m) c).arrAt_in 1 rfl _).trans (A_eq3 (U9 m) c 1)
    | ⟨2, _⟩ => exact ((dat3 (U9 m) c).arrAt_in 2 rfl _).trans (A_eq3 (U9 m) c 2)
    | ⟨3, _⟩ => exact ((dat3 (U9 m) c).arrAt_in 3 rfl _).trans (A_eq3 (U9 m) c 3)
    | ⟨4, _⟩ => exact ((dat3 (U9 m) c).arrAt_in 4 rfl _).trans (A_eq3 (U9 m) c 4)
    | ⟨5, _⟩ => exact absurd rfl hb
  · exact W10_of_ne m c b fun w e => h ⟨w, e⟩
/-- After the host operations `hostOps4`. -/
abbrev W11 : Dev nD → Valuation τ sig (Elt F) := fun c => StableHlo.after hostOps4 (W10 m c)
theorem W11_keep (c : Dev nD) (b : Ref sig .tc) (h : b ∉ hostOps4_W) : W11 m c (Proc.devRef .tc b) = W10 m c (Proc.devRef .tc b) :=
  StableHlo.after_of_writes_sub hostOps4 _ hostOps4_writes h
/-- The same contents read at the TensorCore's references: what region 4 is entered with. -/
abbrev U11 : (c : Dev nD) → (b : Ref sig .tc) → Buf (Elt F) ((c : Thread nD τ).loc b) := fun c b => W11 m c b
/-- After region 4: its arrays at what the pipeline leaves, every other buffer as entered. -/
def W12 (c : Dev nD) : Valuation τ sig (Elt F) :=
  Pipeline.withArrays spec4 c (W11 m c) fun w => (dat4 (U11 m) c).arrAt w cfg4.N
theorem W12_arr (c : Dev nD) (w : Fin cfg4.W) :
    W12 m c (Proc.devRef .tc (Pipeline.arrRef spec4 w)) = (dat4 (U11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev U12 : (c : Dev nD) → (b : Ref sig .tc) → Buf (Elt F) ((c : Thread nD τ).loc b) := fun c b => W12 m c b
theorem hF4 (c : Dev nD) (w : Fin cfg4.W) : (dat4 (U11 m) c).arrAt w cfg4.N = U12 m c (Pipeline.arrRef spec4 w) :=
  (W12_arr m c w).symm
theorem hrest4 (c : Dev nD) : ∀ b, b ∉ Finset.univ.image (Pipeline.arrRef spec4) → U12 m c b = U11 m c b :=
  fun b hb => W12_of_ne m c b fun w e => hb (Finset.mem_image.mpr ⟨w, Finset.mem_univ _, e⟩)
/-- Region 4 changes no buffer but its output array `main_v86`: an input window's array is written back as found. -/
theorem W12_keep (c : Dev nD) (b : Ref sig .tc) (hb : b ≠ main_v86) : W12 m c (Proc.devRef .tc b) = W11 m c (Proc.devRef .tc b) := by
  by_cases h : ∃ w, Pipeline.arrRef spec4 w = b
  · obtain ⟨w, rfl⟩ := h
    rw [W12_arr]
    match w with
    | ⟨0, _⟩ => exact ((dat4 (U11 m) c).arrAt_in 0 rfl _).trans (A_eq4 (U11 m) c 0)
    | ⟨1, _⟩ => exact ((dat4 (U11 m) c).arrAt_in 1 rfl _).trans (A_eq4 (U11 m) c 1)
    | ⟨2, _⟩ => exact ((dat4 (U11 m) c).arrAt_in 2 rfl _).trans (A_eq4 (U11 m) c 2)
    | ⟨3, _⟩ => exact ((dat4 (U11 m) c).arrAt_in 3 rfl _).trans (A_eq4 (U11 m) c 3)
    | ⟨4, _⟩ => exact ((dat4 (U11 m) c).arrAt_in 4 rfl _).trans (A_eq4 (U11 m) c 4)
    | ⟨5, _⟩ => exact absurd rfl hb
  · exact W12_of_ne m c b fun w e => h ⟨w, e⟩
/-- After the host operations `hostOps5`. -/
abbrev W13 : Dev nD → Valuation τ sig (Elt F) := fun c => StableHlo.after hostOps5 (W12 m c)
theorem W13_keep (c : Dev nD) (b : Ref sig .tc) (h : b ∉ hostOps5_W) : W13 m c (Proc.devRef .tc b) = W12 m c (Proc.devRef .tc b) :=
  StableHlo.after_of_writes_sub hostOps5 _ hostOps5_writes h
/-- After the host operations `hostOps5_1`. -/
abbrev W14 : Dev nD → Valuation τ sig (Elt F) := fun c => StableHlo.after hostOps5_1 (W13 m c)
theorem W14_keep (c : Dev nD) (b : Ref sig .tc) (h : b ∉ hostOps5_1_W) : W14 m c (Proc.devRef .tc b) = W13 m c (Proc.devRef .tc b) :=
  StableHlo.after_of_writes_sub hostOps5_1 _ hostOps5_1_writes h
/-- The same contents read at the TensorCore's references: what region 5 is entered with. -/
abbrev U14 : (c : Dev nD) → (b : Ref sig .tc) → Buf (Elt F) ((c : Thread nD τ).loc b) := fun c b => W14 m c b
/-- After region 5: its arrays at what the pipeline leaves, every other buffer as entered. -/
def W15 (c : Dev nD) : Valuation τ sig (Elt F) :=
  Pipeline.withArrays spec5 c (W14 m c) fun w => (dat5 (U14 m) c).arrAt w cfg5.N
theorem W15_arr (c : Dev nD) (w : Fin cfg5.W) :
    W15 m c (Proc.devRef .tc (Pipeline.arrRef spec5 w)) = (dat5 (U14 m) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m c (Proc.devRef .tc b) = W14 m c (Proc.devRef .tc b) := by
  unfold W15; exact Pipeline.withArrays_of_ne spec5 c _ _ b hb
abbrev U15 : (c : Dev nD) → (b : Ref sig .tc) → Buf (Elt F) ((c : Thread nD τ).loc b) := fun c b => W15 m c b
theorem hF5 (c : Dev nD) (w : Fin cfg5.W) : (dat5 (U14 m) c).arrAt w cfg5.N = U15 m c (Pipeline.arrRef spec5 w) :=
  (W15_arr m c w).symm
theorem hrest5 (c : Dev nD) : ∀ b, b ∉ Finset.univ.image (Pipeline.arrRef spec5) → U15 m c b = U14 m c b :=
  fun b hb => W15_of_ne m c b fun w e => hb (Finset.mem_image.mpr ⟨w, Finset.mem_univ _, e⟩)
/-- Region 5 changes no buffer but its output array `main_v91`: an input window's array is written back as found. -/
theorem W15_keep (c : Dev nD) (b : Ref sig .tc) (hb : b ≠ main_v91) : W15 m c (Proc.devRef .tc b) = W14 m c (Proc.devRef .tc b) := by
  by_cases h : ∃ w, Pipeline.arrRef spec5 w = b
  · obtain ⟨w, rfl⟩ := h
    rw [W15_arr]
    match w with
    | ⟨0, _⟩ => exact ((dat5 (U14 m) c).arrAt_in 0 rfl _).trans (A_eq5 (U14 m) c 0)
    | ⟨1, _⟩ => exact ((dat5 (U14 m) c).arrAt_in 1 rfl _).trans (A_eq5 (U14 m) c 1)
    | ⟨2, _⟩ => exact ((dat5 (U14 m) c).arrAt_in 2 rfl _).trans (A_eq5 (U14 m) c 2)
    | ⟨3, _⟩ => exact ((dat5 (U14 m) c).arrAt_in 3 rfl _).trans (A_eq5 (U14 m) c 3)
    | ⟨4, _⟩ => exact ((dat5 (U14 m) c).arrAt_in 4 rfl _).trans (A_eq5 (U14 m) c 4)
    | ⟨5, _⟩ => exact absurd rfl hb
  · exact W15_of_ne m c b fun w e => h ⟨w, e⟩
/-- After the host operations `hostOps6`. -/
abbrev W16 : Dev nD → Valuation τ sig (Elt F) := fun c => StableHlo.after hostOps6 (W15 m c)
theorem W16_keep (c : Dev nD) (b : Ref sig .tc) (h : b ∉ hostOps6_W) : W16 m c (Proc.devRef .tc b) = W15 m c (Proc.devRef .tc b) :=
  StableHlo.after_of_writes_sub hostOps6 _ hostOps6_writes h
/-- The same contents read at the TensorCore's references: what region 6 is entered with. -/
abbrev U16 : (c : Dev nD) → (b : Ref sig .tc) → Buf (Elt F) ((c : Thread nD τ).loc b) := fun c b => W16 m c b
/-- After region 6: its arrays at what the pipeline leaves, every other buffer as entered. -/
def W17 (c : Dev nD) : Valuation τ sig (Elt F) :=
  Pipeline.withArrays spec6 c (W16 m c) fun w => (dat6 (U16 m) c).arrAt w cfg6.N
theorem W17_arr (c : Dev nD) (w : Fin cfg6.W) :
    W17 m c (Proc.devRef .tc (Pipeline.arrRef spec6 w)) = (dat6 (U16 m) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m c (Proc.devRef .tc b) = W16 m c (Proc.devRef .tc b) := by
  unfold W17; exact Pipeline.withArrays_of_ne spec6 c _ _ b hb
abbrev U17 : (c : Dev nD) → (b : Ref sig .tc) → Buf (Elt F) ((c : Thread nD τ).loc b) := fun c b => W17 m c b
theorem hF6 (c : Dev nD) (w : Fin cfg6.W) : (dat6 (U16 m) c).arrAt w cfg6.N = U17 m c (Pipeline.arrRef spec6 w) :=
  (W17_arr m c w).symm
theorem hrest6 (c : Dev nD) : ∀ b, b ∉ Finset.univ.image (Pipeline.arrRef spec6) → U17 m c b = U16 m c b :=
  fun b hb => W17_of_ne m c b fun w e => hb (Finset.mem_image.mpr ⟨w, Finset.mem_univ _, e⟩)
/-- Region 6 changes no buffer but its output array `main_v120`: an input window's array is written back as found. -/
theorem W17_keep (c : Dev nD) (b : Ref sig .tc) (hb : b ≠ main_v120) : W17 m c (Proc.devRef .tc b) = W16 m c (Proc.devRef .tc b) := by
  by_cases h : ∃ w, Pipeline.arrRef spec6 w = b
  · obtain ⟨w, rfl⟩ := h
    rw [W17_arr]
    match w with
    | ⟨0, _⟩ => exact ((dat6 (U16 m) c).arrAt_in 0 rfl _).trans (A_eq6 (U16 m) c 0)
    | ⟨1, _⟩ => exact ((dat6 (U16 m) c).arrAt_in 1 rfl _).trans (A_eq6 (U16 m) c 1)
    | ⟨2, _⟩ => exact ((dat6 (U16 m) c).arrAt_in 2 rfl _).trans (A_eq6 (U16 m) c 2)
    | ⟨3, _⟩ => exact ((dat6 (U16 m) c).arrAt_in 3 rfl _).trans (A_eq6 (U16 m) c 3)
    | ⟨4, _⟩ => exact ((dat6 (U16 m) c).arrAt_in 4 rfl _).trans (A_eq6 (U16 m) c 4)
    | ⟨5, _⟩ => exact absurd rfl hb
  · exact W17_of_ne m c b fun w e => h ⟨w, e⟩
/-- After the host operations `hostOps7`. -/
abbrev W18 : Dev nD → Valuation τ sig (Elt F) := fun c => StableHlo.after hostOps7 (W17 m c)
theorem W18_keep (c : Dev nD) (b : Ref sig .tc) (h : b ∉ hostOps7_W) : W18 m c (Proc.devRef .tc b) = W17 m c (Proc.devRef .tc b) :=
  StableHlo.after_of_writes_sub hostOps7 _ hostOps7_writes h
/-- After the host operations `hostOps7_1`. -/
abbrev W19 : Dev nD → Valuation τ sig (Elt F) := fun c => StableHlo.after hostOps7_1 (W18 m c)
theorem W19_keep (c : Dev nD) (b : Ref sig .tc) (h : b ∉ hostOps7_1_W) : W19 m c (Proc.devRef .tc b) = W18 m c (Proc.devRef .tc b) :=
  StableHlo.after_of_writes_sub hostOps7_1 _ hostOps7_1_writes h
/-- The same contents read at the TensorCore's references: what region 7 is entered with. -/
abbrev U19 : (c : Dev nD) → (b : Ref sig .tc) → Buf (Elt F) ((c : Thread nD τ).loc b) := fun c b => W19 m c b
/-- After region 7: its arrays at what the pipeline leaves, every other buffer as entered. -/
def W20 (c : Dev nD) : Valuation τ sig (Elt F) :=
  Pipeline.withArrays spec7 c (W19 m c) fun w => (dat7 (U19 m) c).arrAt w cfg7.N
theorem W20_arr (c : Dev nD) (w : Fin cfg7.W) :
    W20 m c (Proc.devRef .tc (Pipeline.arrRef spec7 w)) = (dat7 (U19 m) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m c (Proc.devRef .tc b) = W19 m c (Proc.devRef .tc b) := by
  unfold W20; exact Pipeline.withArrays_of_ne spec7 c _ _ b hb
abbrev U20 : (c : Dev nD) → (b : Ref sig .tc) → Buf (Elt F) ((c : Thread nD τ).loc b) := fun c b => W20 m c b
theorem hF7 (c : Dev nD) (w : Fin cfg7.W) : (dat7 (U19 m) c).arrAt w cfg7.N = U20 m c (Pipeline.arrRef spec7 w) :=
  (W20_arr m c w).symm
theorem hrest7 (c : Dev nD) : ∀ b, b ∉ Finset.univ.image (Pipeline.arrRef spec7) → U20 m c b = U19 m c b :=
  fun b hb => W20_of_ne m c b fun w e => hb (Finset.mem_image.mpr ⟨w, Finset.mem_univ _, e⟩)
/-- Region 7 changes no buffer but its output array `main_v125`: an input window's array is written back as found. -/
theorem W20_keep (c : Dev nD) (b : Ref sig .tc) (hb : b ≠ main_v125) : W20 m c (Proc.devRef .tc b) = W19 m c (Proc.devRef .tc b) := by
  by_cases h : ∃ w, Pipeline.arrRef spec7 w = b
  · obtain ⟨w, rfl⟩ := h
    rw [W20_arr]
    match w with
    | ⟨0, _⟩ => exact ((dat7 (U19 m) c).arrAt_in 0 rfl _).trans (A_eq7 (U19 m) c 0)
    | ⟨1, _⟩ => exact ((dat7 (U19 m) c).arrAt_in 1 rfl _).trans (A_eq7 (U19 m) c 1)
    | ⟨2, _⟩ => exact ((dat7 (U19 m) c).arrAt_in 2 rfl _).trans (A_eq7 (U19 m) c 2)
    | ⟨3, _⟩ => exact ((dat7 (U19 m) c).arrAt_in 3 rfl _).trans (A_eq7 (U19 m) c 3)
    | ⟨4, _⟩ => exact ((dat7 (U19 m) c).arrAt_in 4 rfl _).trans (A_eq7 (U19 m) c 4)
    | ⟨5, _⟩ => exact absurd rfl hb
  · exact W20_of_ne m c b fun w e => h ⟨w, e⟩
/-- After the host operations `hostOps8`. -/
abbrev W21 : Dev nD → Valuation τ sig (Elt F) := fun c => StableHlo.after hostOps8 (W20 m c)
theorem W21_keep (c : Dev nD) (b : Ref sig .tc) (h : b ∉ hostOps8_W) : W21 m c (Proc.devRef .tc b) = W20 m c (Proc.devRef .tc b) :=
  StableHlo.after_of_writes_sub hostOps8 _ hostOps8_writes h
/-- The same contents read at the TensorCore's references: what region 8 is entered with. -/
abbrev U21 : (c : Dev nD) → (b : Ref sig .tc) → Buf (Elt F) ((c : Thread nD τ).loc b) := fun c b => W21 m c b
/-- After region 8: its arrays at what the pipeline leaves, every other buffer as entered. -/
def W22 (c : Dev nD) : Valuation τ sig (Elt F) :=
  Pipeline.withArrays spec8 c (W21 m c) fun w => (dat8 (U21 m) c).arrAt w cfg8.N
theorem W22_arr (c : Dev nD) (w : Fin cfg8.W) :
    W22 m c (Proc.devRef .tc (Pipeline.arrRef spec8 w)) = (dat8 (U21 m) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m c (Proc.devRef .tc b) = W21 m c (Proc.devRef .tc b) := by
  unfold W22; exact Pipeline.withArrays_of_ne spec8 c _ _ b hb
abbrev U22 : (c : Dev nD) → (b : Ref sig .tc) → Buf (Elt F) ((c : Thread nD τ).loc b) := fun c b => W22 m c b
theorem hF8 (c : Dev nD) (w : Fin cfg8.W) : (dat8 (U21 m) c).arrAt w cfg8.N = U22 m c (Pipeline.arrRef spec8 w) :=
  (W22_arr m c w).symm
theorem hrest8 (c : Dev nD) : ∀ b, b ∉ Finset.univ.image (Pipeline.arrRef spec8) → U22 m c b = U21 m c b :=
  fun b hb => W22_of_ne m c b fun w e => hb (Finset.mem_image.mpr ⟨w, Finset.mem_univ _, e⟩)
/-- Region 8 changes no buffer but its output array `main_v139`: an input window's array is written back as found. -/
theorem W22_keep (c : Dev nD) (b : Ref sig .tc) (hb : b ≠ main_v139) : W22 m c (Proc.devRef .tc b) = W21 m c (Proc.devRef .tc b) := by
  by_cases h : ∃ w, Pipeline.arrRef spec8 w = b
  · obtain ⟨w, rfl⟩ := h
    rw [W22_arr]
    match w with
    | ⟨0, _⟩ => exact ((dat8 (U21 m) c).arrAt_in 0 rfl _).trans (A_eq8 (U21 m) c 0)
    | ⟨1, _⟩ => exact ((dat8 (U21 m) c).arrAt_in 1 rfl _).trans (A_eq8 (U21 m) c 1)
    | ⟨2, _⟩ => exact ((dat8 (U21 m) c).arrAt_in 2 rfl _).trans (A_eq8 (U21 m) c 2)
    | ⟨3, _⟩ => exact ((dat8 (U21 m) c).arrAt_in 3 rfl _).trans (A_eq8 (U21 m) c 3)
    | ⟨4, _⟩ => exact ((dat8 (U21 m) c).arrAt_in 4 rfl _).trans (A_eq8 (U21 m) c 4)
    | ⟨5, _⟩ => exact ((dat8 (U21 m) c).arrAt_in 5 rfl _).trans (A_eq8 (U21 m) c 5)
    | ⟨6, _⟩ => exact ((dat8 (U21 m) c).arrAt_in 6 rfl _).trans (A_eq8 (U21 m) c 6)
    | ⟨7, _⟩ => exact ((dat8 (U21 m) c).arrAt_in 7 rfl _).trans (A_eq8 (U21 m) c 7)
    | ⟨8, _⟩ => exact ((dat8 (U21 m) c).arrAt_in 8 rfl _).trans (A_eq8 (U21 m) c 8)
    | ⟨9, _⟩ => exact absurd rfl hb
  · exact W22_of_ne m c b fun w e => h ⟨w, e⟩

/-- A buffer that no host operation writes and that is no region's output ends as launched. -/
theorem W22_launch (c : Dev nD) (b : Ref sig .tc) (h0 : b ∉ hostOps0_W) (h1 : b ≠ main_v18) (h2 : b ∉ hostOps1_W) (h3 : b ∉ hostOps1_1_W) (h4 : b ≠ main_v23) (h5 : b ∉ hostOps2_W) (h6 : b ≠ main_v52) (h7 : b ∉ hostOps3_W) (h8 : b ∉ hostOps3_1_W) (h9 : b ≠ main_v57) (h10 : b ∉ hostOps4_W) (h11 : b ≠ main_v86) (h12 : b ∉ hostOps5_W) (h13 : b ∉ hostOps5_1_W) (h14 : b ≠ main_v91) (h15 : b ∉ hostOps6_W) (h16 : b ≠ main_v120) (h17 : b ∉ hostOps7_W) (h18 : b ∉ hostOps7_1_W) (h19 : b ≠ main_v125) (h20 : b ∉ hostOps8_W) (h21 : b ≠ main_v139) :
    W22 m c (Proc.devRef .tc b) = m ((c : Thread nD τ).loc b) :=
  (W22_keep m c b h21).trans <| (W21_keep m c b h20).trans <| (W20_keep m c b h19).trans <| (W19_keep m c b h18).trans <| (W18_keep m c b h17).trans <| (W17_keep m c b h16).trans <| (W16_keep m c b h15).trans <| (W15_keep m c b h14).trans <| (W14_keep m c b h13).trans <| (W13_keep m c b h12).trans <| (W12_keep m c b h11).trans <| (W11_keep m c b h10).trans <| (W10_keep m c b h9).trans <| (W9_keep m c b h8).trans <| (W8_keep m c b h7).trans <| (W7_keep m c b h6).trans <| (W6_keep m c b h5).trans <| (W5_keep m c b h4).trans <| (W4_keep m c b h3).trans <| (W3_keep m c b h2).trans <| (W2_keep m c b h1).trans <| (W1_keep m c b h0)

/-! ## The proof data of every pipeline, and what rides beside the buffers -/

/-- Every pipeline's proof data, each at its region's entry contents. -/
def pd : (p : Fin 9) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U4 m) c
  | ⟨2, _⟩ => fun c => dat2 (U6 m) c
  | ⟨3, _⟩ => fun c => dat3 (U9 m) c
  | ⟨4, _⟩ => fun c => dat4 (U11 m) c
  | ⟨5, _⟩ => fun c => dat5 (U14 m) c
  | ⟨6, _⟩ => fun c => dat6 (U16 m) c
  | ⟨7, _⟩ => fun c => dat7 (U19 m) c
  | ⟨8, _⟩ => fun c => dat8 (U21 m) c

abbrev 𝒱n : Variants := Variants.none
/-- No core owes another anything: no level is assigned. -/
abbrev Ln : GSem nD τ sig → Finset Unit := fun _ => ∅
abbrev lvn : GSem nD τ sig → Unit → ℕ := fun _ _ => 0
/-- Beside the buffers through every item: the core's generator register at some state, and nothing owed. -/
abbrev Rst (c : Dev nD) : sProp 𝕄 := iprop((∃ r, prngReg c r) ∗ ∃ W, owes (c : Thread nD τ) (0 : CellTallies nD τ sig Unit) W)
/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tlast (c : Dev nD) : sProp 𝕄 := iprop(StableHlo.held (c : Thread nD τ) (Pipeline.ucRefs τ sig) (W22 m c) ∗ ∃ r, prngReg c r)

end Cert.Kernel.Hand

end
-- ==== Proof.KSeg0.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 0 as a segment of the program: entered with every unscoped buffer at `W1`, left with them at `W2`.
    Its arrays are split out of the unscoped buffers at entry and put back, at what the pipeline leaves, at exit; the
    generator register passes through the pipeline's invariant; nothing is owed; the kernel has no semaphore of its own. -/
def rseg0 : Pipeline.RegionSeg (pcfgs (F := F)) adm (pd m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Ln lvn 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pd m) launch0.win launch0.arr_whole c
      ((pd m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (U1 m c) (U2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg1.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 as a segment of the program: entered with every unscoped buffer at `W4`, left with them at `W5`.
    Its arrays are split out of the unscoped buffers at entry and put back, at what the pipeline leaves, at exit; the
    generator register passes through the pipeline's invariant; nothing is owed; the kernel has no semaphore of its own. -/
def rseg1 : Pipeline.RegionSeg (pcfgs (F := F)) adm (pd m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (U4 m) c).loose
  hwaits := Pipeline.hwaits_of_owed_zero _ _ _ _ Ln lvn 1 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pd m) launch1.win launch1.arr_whole c
      ((pd m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (U4 m c) (U5 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg2.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 2 as a segment of the program: entered with every unscoped buffer at `W6`, left with them at `W7`.
    Its arrays are split out of the unscoped buffers at entry and put back, at what the pipeline leaves, at exit; the
    generator register passes through the pipeline's invariant; nothing is owed; the kernel has no semaphore of its own. -/
def rseg2 : Pipeline.RegionSeg (pcfgs (F := F)) adm (pd m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (U6 m) c).loose
  hwaits := Pipeline.hwaits_of_owed_zero _ _ _ _ Ln lvn 2 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec2 c (U6 m c)
  hentry c := by
    rw [Pipeline.ownSems0_none]
    have hsplit := Pipeline.arrays_of_unscopedBufs (p := 2) (pcfgs (F := F)) adm (pd m) launch2.win launch2.arr_whole c
      ((pd m 2 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pd m) ((pd m 2 c).share_full fun _ => rfl)
      (U6 m c) (U7 m c) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg3.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 3 as a segment of the program: entered with every unscoped buffer at `W9`, left with them at `W10`.
    Its arrays are split out of the unscoped buffers at entry and put back, at what the pipeline leaves, at exit; the
    generator register passes through the pipeline's invariant; nothing is owed; the kernel has no semaphore of its own. -/
def rseg3 : Pipeline.RegionSeg (pcfgs (F := F)) adm (pd m) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ Ln lvn 3 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec3 c (U9 m c)
  hentry c := by
    rw [Pipeline.ownSems0_none]
    have hsplit := Pipeline.arrays_of_unscopedBufs (p := 3) (pcfgs (F := F)) adm (pd m) launch3.win launch3.arr_whole c
      ((pd m 3 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pd m) ((pd m 3 c).share_full fun _ => rfl)
      (U9 m c) (U10 m c) ((pd m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg4.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 4 as a segment of the program: entered with every unscoped buffer at `W11`, left with them at `W12`.
    Its arrays are split out of the unscoped buffers at entry and put back, at what the pipeline leaves, at exit; the
    generator register passes through the pipeline's invariant; nothing is owed; the kernel has no semaphore of its own. -/
def rseg4 : Pipeline.RegionSeg (pcfgs (F := F)) adm (pd m) () defs₀ 𝒱n Ln lvn 4 where
  win := launch4.win.to₀
  block_pos := launch4.block_pos
  stage_whole := launch4.stage_whole
  K := PEmpty
  osem k := k.elim
  ho := Pipeline.OwnSemFacts.none _
  hbody c := (body_obligation4 (U11 m) c).loose
  hwaits := Pipeline.hwaits_of_owed_zero _ _ _ _ Ln lvn 4 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec4 c (U11 m c)
  hentry c := by
    rw [Pipeline.ownSems0_none]
    have hsplit := Pipeline.arrays_of_unscopedBufs (p := 4) (pcfgs (F := F)) adm (pd m) launch4.win launch4.arr_whole c
      ((pd m 4 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 4 c).Φ 0 = Pipeline.ΦA spec4 c from rfl]; unfold Pipeline.ΦA
    iintro ⟨Hp, -, Hr⟩
    isplitl [Hr]; · iexact Hr
    iexact Hp
  hout c := by
    rw [Pipeline.ownSems0_none, show (pd m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pd m) ((pd m 4 c).share_full fun _ => rfl)
      (U11 m c) (U12 m c) ((pd m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg5.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 5 as a segment of the program: entered with every unscoped buffer at `W14`, left with them at `W15`.
    Its arrays are split out of the unscoped buffers at entry and put back, at what the pipeline leaves, at exit; the
    generator register passes through the pipeline's invariant; nothing is owed; the kernel has no semaphore of its own. -/
def rseg5 : Pipeline.RegionSeg (pcfgs (F := F)) adm (pd m) () defs₀ 𝒱n Ln lvn 5 where
  win := launch5.win.to₀
  block_pos := launch5.block_pos
  stage_whole := launch5.stage_whole
  K := PEmpty
  osem k := k.elim
  ho := Pipeline.OwnSemFacts.none _
  hbody c := (body_obligation5 (U14 m) c).loose
  hwaits := Pipeline.hwaits_of_owed_zero _ _ _ _ Ln lvn 5 fun _ _ => rfl
  pre c := iprop(StableHlo.held (c : Thread nD τ) (Pipeline.ucRefs τ sig) (W14 m c) ∗ Rst c)
  post c := iprop(StableHlo.held (c : Thread nD τ) (Pipeline.ucRefs τ sig) (W15 m c) ∗ Rst c)
  X c := iprop(∃ r, prngReg c r)
  Y c := iprop(∃ r, prngReg c r)
  Z c := Pipeline.unscopedRest (Ix := Unit) (Name := ℕ) (U := UR sig nD τ) (Lvl := ℕ) spec5 c (U14 m c)
  hentry c := by
    rw [Pipeline.ownSems0_none]
    have hsplit := Pipeline.arrays_of_unscopedBufs (p := 5) (pcfgs (F := F)) adm (pd m) launch5.win launch5.arr_whole c
      ((pd m 5 c).share_full fun _ => rfl) (U14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 5 c).Φ 0 = Pipeline.ΦA spec5 c from rfl]; unfold Pipeline.ΦA
    iintro ⟨Hp, -, Hr⟩
    isplitl [Hr]; · iexact Hr
    iexact Hp
  hout c := by
    rw [Pipeline.ownSems0_none, show (pd m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pd m) ((pd m 5 c).share_full fun _ => rfl)
      (U14 m c) (U15 m c) ((pd m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg6.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 6 as a segment of the program: entered with every unscoped buffer at `W16`, left with them at `W17`.
    Its arrays are split out of the unscoped buffers at entry and put back, at what the pipeline leaves, at exit; the
    generator register passes through the pipeline's invariant; nothing is owed; the kernel has no semaphore of its own. -/
def rseg6 : Pipeline.RegionSeg (pcfgs (F := F)) adm (pd m) () defs₀ 𝒱n Ln lvn 6 where
  win := launch6.win.to₀
  block_pos := launch6.block_pos
  stage_whole := launch6.stage_whole
  K := PEmpty
  osem k := k.elim
  ho := Pipeline.OwnSemFacts.none _
  hbody c := (body_obligation6 (U16 m) c).loose
  hwaits := Pipeline.hwaits_of_owed_zero _ _ _ _ Ln lvn 6 fun _ _ => rfl
  pre c := iprop(StableHlo.held (c : Thread nD τ) (Pipeline.ucRefs τ sig) (W16 m c) ∗ Rst c)
  post c := iprop(StableHlo.held (c : Thread nD τ) (Pipeline.ucRefs τ sig) (W17 m c) ∗ Rst c)
  X c := iprop(∃ r, prngReg c r)
  Y c := iprop(∃ r, prngReg c r)
  Z c := Pipeline.unscopedRest (Ix := Unit) (Name := ℕ) (U := UR sig nD τ) (Lvl := ℕ) spec6 c (U16 m c)
  hentry c := by
    rw [Pipeline.ownSems0_none]
    have hsplit := Pipeline.arrays_of_unscopedBufs (p := 6) (pcfgs (F := F)) adm (pd m) launch6.win launch6.arr_whole c
      ((pd m 6 c).share_full fun _ => rfl) (U16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 6 c).Φ 0 = Pipeline.ΦA spec6 c from rfl]; unfold Pipeline.ΦA
    iintro ⟨Hp, -, Hr⟩
    isplitl [Hr]; · iexact Hr
    iexact Hp
  hout c := by
    rw [Pipeline.ownSems0_none, show (pd m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pd m) ((pd m 6 c).share_full fun _ => rfl)
      (U16 m c) (U17 m c) ((pd m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg7.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 7 as a segment of the program: entered with every unscoped buffer at `W19`, left with them at `W20`.
    Its arrays are split out of the unscoped buffers at entry and put back, at what the pipeline leaves, at exit; the
    generator register passes through the pipeline's invariant; nothing is owed; the kernel has no semaphore of its own. -/
def rseg7 : Pipeline.RegionSeg (pcfgs (F := F)) adm (pd m) () defs₀ 𝒱n Ln lvn 7 where
  win := launch7.win.to₀
  block_pos := launch7.block_pos
  stage_whole := launch7.stage_whole
  K := PEmpty
  osem k := k.elim
  ho := Pipeline.OwnSemFacts.none _
  hbody c := (body_obligation7 (U19 m) c).loose
  hwaits := Pipeline.hwaits_of_owed_zero _ _ _ _ Ln lvn 7 fun _ _ => rfl
  pre c := iprop(StableHlo.held (c : Thread nD τ) (Pipeline.ucRefs τ sig) (W19 m c) ∗ Rst c)
  post c := iprop(StableHlo.held (c : Thread nD τ) (Pipeline.ucRefs τ sig) (W20 m c) ∗ Rst c)
  X c := iprop(∃ r, prngReg c r)
  Y c := iprop(∃ r, prngReg c r)
  Z c := Pipeline.unscopedRest (Ix := Unit) (Name := ℕ) (U := UR sig nD τ) (Lvl := ℕ) spec7 c (U19 m c)
  hentry c := by
    rw [Pipeline.ownSems0_none]
    have hsplit := Pipeline.arrays_of_unscopedBufs (p := 7) (pcfgs (F := F)) adm (pd m) launch7.win launch7.arr_whole c
      ((pd m 7 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 7 c).Φ 0 = Pipeline.ΦA spec7 c from rfl]; unfold Pipeline.ΦA
    iintro ⟨Hp, -, Hr⟩
    isplitl [Hr]; · iexact Hr
    iexact Hp
  hout c := by
    rw [Pipeline.ownSems0_none, show (pd m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pd m) ((pd m 7 c).share_full fun _ => rfl)
      (U19 m c) (U20 m c) ((pd m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg8.lean ====
import proofs.«168812_j9088150798767_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 8 as a segment of the program: entered with every unscoped buffer at `W21`, left with them at `W22`.
    Its arrays are split out of the unscoped buffers at entry and put back, at what the pipeline leaves, at exit; the
    generator register passes through the pipeline's invariant; nothing is owed; the kernel has no semaphore of its own. -/
def rseg8 : Pipeline.RegionSeg (pcfgs (F := F)) adm (pd m) () defs₀ 𝒱n Ln lvn 8 where
  win := launch8.win.to₀
  block_pos := launch8.block_pos
  stage_whole := launch8.stage_whole
  K := PEmpty
  osem k := k.elim
  ho := Pipeline.OwnSemFacts.none _
  hbody c := (body_obligation8 (U21 m) c).loose
  hwaits := Pipeline.hwaits_of_owed_zero _ _ _ _ Ln lvn 8 fun _ _ => rfl
  pre c := iprop(StableHlo.held (c : Thread nD τ) (Pipeline.ucRefs τ sig) (W21 m c) ∗ Rst c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (U21 m c)
  hentry c := by
    rw [Pipeline.ownSems0_none]
    have hsplit := Pipeline.arrays_of_unscopedBufs (p := 8) (pcfgs (F := F)) adm (pd m) launch8.win launch8.arr_whole c
      ((pd m 8 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 8 c).Φ 0 = Pipeline.ΦA spec8 c from rfl]; unfold Pipeline.ΦA
    iintro ⟨Hp, -, Hr⟩
    isplitl [Hr]; · iexact Hr
    iexact Hp
  hout c := by
    rw [Pipeline.ownSems0_none, show (pd m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pd m) ((pd m 8 c).share_full fun _ => rfl)
      (U21 m c) (U22 m c) ((pd m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KRun.lean ====
import proofs.«168812_j9088150798767_1_alg».proof.Proof.KSeg0
import proofs.«168812_j9088150798767_1_alg».proof.Proof.KSeg1
import proofs.«168812_j9088150798767_1_alg».proof.Proof.KSeg2
import proofs.«168812_j9088150798767_1_alg».proof.Proof.KSeg3
import proofs.«168812_j9088150798767_1_alg».proof.Proof.KSeg4
import proofs.«168812_j9088150798767_1_alg».proof.Proof.KSeg5
import proofs.«168812_j9088150798767_1_alg».proof.Proof.KSeg6
import proofs.«168812_j9088150798767_1_alg».proof.Proof.KSeg7
import proofs.«168812_j9088150798767_1_alg».proof.Proof.KSeg8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program's items in order: a host segment per stretch of host operations from the contents before it, a region per kernel launch. -/
abbrev mainSegs : List (Pipeline.Seg (pcfgs (F := F)) adm (pd m) () defs₀ 𝒱n Ln lvn) :=
  [ .host (hostSeg hostOps0 hostOps0_sub hostOps0_fresh (W0 m)),
    .region (rseg0 m),
    .host (hostSeg hostOps1 hostOps1_sub hostOps1_fresh (W2 m)),
    .host (hostSeg hostOps1_1 hostOps1_1_sub hostOps1_1_fresh (W3 m)),
    .region (rseg1 m),
    .host (hostSeg hostOps2 hostOps2_sub hostOps2_fresh (W5 m)),
    .region (rseg2 m),
    .host (hostSeg hostOps3 hostOps3_sub hostOps3_fresh (W7 m)),
    .host (hostSeg hostOps3_1 hostOps3_1_sub hostOps3_1_fresh (W8 m)),
    .region (rseg3 m),
    .host (hostSeg hostOps4 hostOps4_sub hostOps4_fresh (W10 m)),
    .region (rseg4 m),
    .host (hostSeg hostOps5 hostOps5_sub hostOps5_fresh (W12 m)),
    .host (hostSeg hostOps5_1 hostOps5_1_sub hostOps5_1_fresh (W13 m)),
    .region (rseg5 m),
    .host (hostSeg hostOps6 hostOps6_sub hostOps6_fresh (W15 m)),
    .region (rseg6 m),
    .host (hostSeg hostOps7 hostOps7_sub hostOps7_fresh (W17 m)),
    .host (hostSeg hostOps7_1 hostOps7_1_sub hostOps7_1_fresh (W18 m)),
    .region (rseg7 m),
    .host (hostSeg hostOps8 hostOps8_sub hostOps8_fresh (W20 m)),
    .region (rseg8 m) ]

-- the library theorem's implicit arguments are found by unifying its conclusion with this one, which takes unfolding
-- plain definitions in a metavariable's type
set_option backward.isDefEq.respectTransparency.types false in
/-- THE RUN. From any memory with zero counters, every weakly fair execution of the program on the TensorCores terminates,
    nothing faulting; in every final state the result buffer holds what the fold of the items leaves in it (`W22`: the last
    region's output array after all its write-backs) and every argument array is as launched. -/
theorem run_main (ρ : Dev nD → PrngReg) : θ_run defs (onTc (τ := τ) (main (F := F))) ⟨m, fun _ => 0, ρ⟩ (fun r => ∀ c : Dev nD,
      r.2.mem ((c.tc : Thread nD τ).loc main_v139) = W22 m c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) := by
  refine Pipeline.θ_run_regions_kit_dev (pcfgs (F := F)) adm (pd m) () cellOf_inj emb₁ defs₀ 𝒱n Ln lvn m ρ main (fun _ => mainSegs m)
    (fun c Q => by
      rewrite [main_chain c, Pipeline.Seg.run_eq_chain,
        show (mainSegs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()),
          StableHlo.seq hostOps5,
          StableHlo.seq hostOps5_1,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()) ] from rfl]
      exact .rfl)
    (fun c => by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c =>
      ⟨h c _ (mem_uc main_v139 (by decide)),
       (h c _ (mem_uc main_arg0 (by decide))).trans (W22_launch m c main_arg0 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg1 (by decide))).trans (W22_launch m c main_arg1 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg2 (by decide))).trans (W22_launch m c main_arg2 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg3 (by decide))).trans (W22_launch m c main_arg3 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg4 (by decide))).trans (W22_launch m c main_arg4 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg5 (by decide))).trans (W22_launch m c main_arg5 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg6 (by decide))).trans (W22_launch m c main_arg6 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg7 (by decide))).trans (W22_launch m c main_arg7 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg8 (by decide))).trans (W22_launch m c main_arg8 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg9 (by decide))).trans (W22_launch m c main_arg9 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg10 (by decide))).trans (W22_launch m c main_arg10 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg11 (by decide))).trans (W22_launch m c main_arg11 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg12 (by decide))).trans (W22_launch m c main_arg12 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg13 (by decide))).trans (W22_launch m c main_arg13 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg14 (by decide))).trans (W22_launch m c main_arg14 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg15 (by decide))).trans (W22_launch m c main_arg15 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg16 (by decide))).trans (W22_launch m c main_arg16 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg17 (by decide))).trans (W22_launch m c main_arg17 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg18 (by decide))).trans (W22_launch m c main_arg18 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg19 (by decide))).trans (W22_launch m c main_arg19 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg20 (by decide))).trans (W22_launch m c main_arg20 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg21 (by decide))).trans (W22_launch m c main_arg21 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg22 (by decide))).trans (W22_launch m c main_arg22 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg23 (by decide))).trans (W22_launch m c main_arg23 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg24 (by decide))).trans (W22_launch m c main_arg24 (by decide) (by decide) (by decide) (by decide) (by decide) (by decide) (by decide) (by decide) (by decide) (by decide) (by decide) (by decide) (by decide) (by decide) (by decide) (by decide) (by decide) (by decide) (by decide) (by decide) (by decide) (by decide))⟩)

end Cert.Kernel.Hand

end
-- ==== Proof.KIReg0.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: rows 5000·t … 5000·t+4999 of the two-layer perceptron of the first layer

Every input window's block stays in its staging buffer through the body, so at every grid point the buffer holds the
block of the array as the region found it; the one output window's buffer ends at the body's single store. -/

/-- Window `w`'s block at point `t`, read off the array the region finds at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x16 := Rect.unit (s := S5000x16) ![0, 0] S5000x16.size inb_S5000x16_S5000x16_0_0
abbrev r0_1 : Rect S16x128 := Rect.unit (s := S16x128) ![0, 0] S16x128.size inb_S16x128_S16x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S5000x128 := Rect.unit (s := S5000x128) ![0, 0] S5000x128.size inb_S5000x128_S5000x128_0_0

/-- The output buffer after the body: the one whole-block store of the body's value of the five loaded blocks. -/
def out0_5 (x0 : Vec F S5000x16 .f32) (x1 : Vec F S16x128 .f32) (x2 : Vec F S128 .f32) (x3 : Vec F S128x128 .f32) (x4 : Vec F S128 .f32) : Vec F S5000x128 .f32 :=
  View.canon [⟨r0_5, k0_pay1 (View.ld x0 r0_0) (View.ld x1 r0_1) (View.ld x2 r0_2) (View.ld x3 r0_3) (View.ld x4 r0_4)⟩]

/-- The one store covers the whole buffer. -/
theorem cover0_5 (p0 : Vec F S5000x128 .f32) (y : S5000x128.Idx) :
    ∃ pc ∈ ([⟨r0_5, p0⟩] : List (View.Piece (Elt F) S5000x128 .f32)), y ∈ pc.1.set :=
  View.cover_of_tiled [⟨r0_5, p0⟩] S5000x128.size (by rfl) y

set_option maxHeartbeats 1000000 in
/-- The body on whole staging buffers: the inputs' contents are read and left as they were, the output's ends at `out0_5`. -/
theorem sound_kernel0 (c : Dev nD) (E : Set ℕ) (i : grid0.Coords)
    (arg0 : Memref sig .tc .vmem S5000x16 .f32) (harg0 : arg0.IsWhole) (arg1 : Memref sig .tc .vmem S16x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x16 .f32) (x1 : Vec F S16x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline: the arrays as the region finds them; after the body at point `t` each input's buffer
    at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128 := Rect.unit (s := S128) ![0] S128.size inb_S128_S128_0
abbrev r1_2 : Rect S128 := Rect.unit (s := S128) ![0] S128.size inb_S128_S128_0
abbrev r1_3 : Rect S128 := Rect.unit (s := S128) ![0] S128.size inb_S128_S128_0
abbrev r1_4 : Rect S128 := Rect.unit (s := S128) ![0] S128.size inb_S128_S128_0
abbrev r1_5 : Rect S5000x128 := Rect.unit (s := S5000x128) ![0, 0] S5000x128.size inb_S5000x128_S5000x128_0_0

/-- The output buffer after the body: the one whole-block store of the body's value of the five loaded blocks. -/
def out1_5 (x0 : Vec F S5000x128 .f32) (x1 : Vec F S128 .f32) (x2 : Vec F S128 .f32) (x3 : Vec F S128 .f32) (x4 : Vec F S128 .f32) : Vec F S5000x128 .f32 :=
  View.canon [⟨r1_5, k1_pay1 (View.ld x0 r1_0) (View.ld x1 r1_1) (View.ld x2 r1_2) (View.ld x3 r1_3) (View.ld x4 r1_4)⟩]

/-- The one store covers the whole buffer. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

set_option maxHeartbeats 1000000 in
/-- The body on whole staging buffers: the inputs' contents are read and left as they were, the output's ends at `out1_5`. -/
theorem sound_kernel1 (c : Dev nD) (E : Set ℕ) (i : grid1.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline: the arrays as the region finds them; after the body at point `t` each input's buffer
    at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: rows 5000·t … 5000·t+4999 of a two-layer perceptron of width 128

Every input window's block stays in its staging buffer through the body, so at every grid point the buffer holds the
block of the array as the region found it; the one output window's buffer ends at the body's single store. -/

/-- Window `w`'s block at point `t`, read off the array the region finds at entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0
abbrev r2_3 : Rect S128x128 := Rect.unit (s := S128x128) ![0, 0] S128x128.size inb_S128x128_S128x128_0_0
abbrev r2_4 : Rect S128 := Rect.unit (s := S128) ![0] S128.size inb_S128_S128_0
abbrev r2_5 : Rect S5000x128 := Rect.unit (s := S5000x128) ![0, 0] S5000x128.size inb_S5000x128_S5000x128_0_0

/-- The output buffer after the body: the one whole-block store of the body's value of the five loaded blocks. -/
def out2_5 (x0 : Vec F S5000x128 .f32) (x1 : Vec F S128x128 .f32) (x2 : Vec F S128 .f32) (x3 : Vec F S128x128 .f32) (x4 : Vec F S128 .f32) : Vec F S5000x128 .f32 :=
  View.canon [⟨r2_5, k2_pay1 (View.ld x0 r2_0) (View.ld x1 r2_1) (View.ld x2 r2_2) (View.ld x3 r2_3) (View.ld x4 r2_4)⟩]

/-- The one store covers the whole buffer. -/
theorem cover2_5 (p0 : Vec F S5000x128 .f32) (y : S5000x128.Idx) :
    ∃ pc ∈ ([⟨r2_5, p0⟩] : List (View.Piece (Elt F) S5000x128 .f32)), y ∈ pc.1.set :=
  View.cover_of_tiled [⟨r2_5, p0⟩] S5000x128.size (by rfl) y

set_option maxHeartbeats 1000000 in
/-- The body on whole staging buffers: the inputs' contents are read and left as they were, the output's ends at `out2_5`. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__mlp_kernel i arg0 harg0 arg1 harg1 arg2 harg2 arg3 harg3 arg4 harg4 arg5 harg5) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this pipeline: the arrays as the region finds them; after the body at point `t` each input's buffer
    at its block and the output's at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x128 := Rect.unit (s := S5000x128) ![0, 0] S5000x128.size inb_S5000x128_S5000x128_0_0
abbrev r3_1 : Rect S128 := Rect.unit (s := S128) ![0] S128.size inb_S128_S128_0
abbrev r3_2 : Rect S128 := Rect.unit (s := S128) ![0] S128.size inb_S128_S128_0
abbrev r3_3 : Rect S128 := Rect.unit (s := S128) ![0] S128.size inb_S128_S128_0
abbrev r3_4 : Rect S128 := Rect.unit (s := S128) ![0] S128.size inb_S128_S128_0
abbrev r3_5 : Rect S5000x128 := Rect.unit (s := S5000x128) ![0, 0] S5000x128.size inb_S5000x128_S5000x128_0_0

/-- The output buffer after the body: the one whole-block store of the body's value of the five loaded blocks. -/
def out3_5 (x0 : Vec F S5000x128 .f32) (x1 : Vec F S128 .f32) (x2 : Vec F S128 .f32) (x3 : Vec F S128 .f32) (x4 : Vec F S128 .f32) : Vec F S5000x128 .f32 :=
  View.canon [⟨r3_5, k3_pay1 (View.ld x0 r3_0) (View.ld x1 r3_1) (View.ld x2 r3_2) (View.ld x3 r3_3) (View.ld x4 r3_4)⟩]

/-- The one store covers the whole buffer. -/
theorem cover3_5 (p0 : Vec F S5000x128 .f32) (y : S5000x128.Idx) :
    ∃ pc ∈ ([⟨r3_5, p0⟩] : List (View.Piece (Elt F) S5000x128 .f32)), y ∈ pc.1.set :=
  View.cover_of_tiled [⟨r3_5, p0⟩] S5000x128.size (by rfl) y

set_option maxHeartbeats 1000000 in
/-- The body on whole staging buffers: the inputs' contents are read and left as they were, the output's ends at `out3_5`. -/
theorem sound_kernel3 (c : Dev nD) (E : Set ℕ) (i : grid3.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline: the arrays as the region finds them; after the body at point `t` each input's buffer
    at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: rows 5000·t … 5000·t+4999 of a two-layer perceptron of width 128

Every input window's block stays in its staging buffer through the body, so at every grid point the buffer holds the
block of the array as the region found it; the one output window's buffer ends at the body's single store. -/

/-- Window `w`'s block at point `t`, read off the array the region finds at entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S128 := Rect.unit (s := S128) ![0] S128.size inb_S128_S128_0
abbrev r4_3 : Rect S128x128 := Rect.unit (s := S128x128) ![0, 0] S128x128.size inb_S128x128_S128x128_0_0
abbrev r4_4 : Rect S128 := Rect.unit (s := S128) ![0] S128.size inb_S128_S128_0
abbrev r4_5 : Rect S5000x128 := Rect.unit (s := S5000x128) ![0, 0] S5000x128.size inb_S5000x128_S5000x128_0_0

/-- The output buffer after the body: the one whole-block store of the body's value of the five loaded blocks. -/
def out4_5 (x0 : Vec F S5000x128 .f32) (x1 : Vec F S128x128 .f32) (x2 : Vec F S128 .f32) (x3 : Vec F S128x128 .f32) (x4 : Vec F S128 .f32) : Vec F S5000x128 .f32 :=
  View.canon [⟨r4_5, k4_pay1 (View.ld x0 r4_0) (View.ld x1 r4_1) (View.ld x2 r4_2) (View.ld x3 r4_3) (View.ld x4 r4_4)⟩]

/-- The one store covers the whole buffer. -/
theorem cover4_5 (p0 : Vec F S5000x128 .f32) (y : S5000x128.Idx) :
    ∃ pc ∈ ([⟨r4_5, p0⟩] : List (View.Piece (Elt F) S5000x128 .f32)), y ∈ pc.1.set :=
  View.cover_of_tiled [⟨r4_5, p0⟩] S5000x128.size (by rfl) y

set_option maxHeartbeats 1000000 in
/-- The body on whole staging buffers: the inputs' contents are read and left as they were, the output's ends at `out4_5`. -/
theorem sound_kernel4 (c : Dev nD) (E : Set ℕ) (i : grid4.Coords)
    (arg0 : Memref sig .tc .vmem S5000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__mlp_kernel i arg0 harg0 arg1 harg1 arg2 harg2 arg3 harg3 arg4 harg4 arg5 harg5) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of this pipeline: the arrays as the region finds them; after the body at point `t` each input's buffer
    at its block and the output's at `out4_5` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIReg5.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S5000x128 := Rect.unit (s := S5000x128) ![0, 0] S5000x128.size inb_S5000x128_S5000x128_0_0
abbrev r5_1 : Rect S128 := Rect.unit (s := S128) ![0] S128.size inb_S128_S128_0
abbrev r5_2 : Rect S128 := Rect.unit (s := S128) ![0] S128.size inb_S128_S128_0
abbrev r5_3 : Rect S128 := Rect.unit (s := S128) ![0] S128.size inb_S128_S128_0
abbrev r5_4 : Rect S128 := Rect.unit (s := S128) ![0] S128.size inb_S128_S128_0
abbrev r5_5 : Rect S5000x128 := Rect.unit (s := S5000x128) ![0, 0] S5000x128.size inb_S5000x128_S5000x128_0_0

/-- The output buffer after the body: the one whole-block store of the body's value of the five loaded blocks. -/
def out5_5 (x0 : Vec F S5000x128 .f32) (x1 : Vec F S128 .f32) (x2 : Vec F S128 .f32) (x3 : Vec F S128 .f32) (x4 : Vec F S128 .f32) : Vec F S5000x128 .f32 :=
  View.canon [⟨r5_5, k5_pay1 (View.ld x0 r5_0) (View.ld x1 r5_1) (View.ld x2 r5_2) (View.ld x3 r5_3) (View.ld x4 r5_4)⟩]

/-- The one store covers the whole buffer. -/
theorem cover5_5 (p0 : Vec F S5000x128 .f32) (y : S5000x128.Idx) :
    ∃ pc ∈ ([⟨r5_5, p0⟩] : List (View.Piece (Elt F) S5000x128 .f32)), y ∈ pc.1.set :=
  View.cover_of_tiled [⟨r5_5, p0⟩] S5000x128.size (by rfl) y

set_option maxHeartbeats 1000000 in
/-- The body on whole staging buffers: the inputs' contents are read and left as they were, the output's ends at `out5_5`. -/
theorem sound_kernel5 (c : Dev nD) (E : Set ℕ) (i : grid5.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E (cc5__bn_kernel i arg0 harg0 arg1 harg1 arg2 harg2 arg3 harg3 arg4 harg4 arg5 harg5) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline: the arrays as the region finds them; after the body at point `t` each input's buffer
    at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIReg6.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: rows 5000·t … 5000·t+4999 of a two-layer perceptron of width 128

Every input window's block stays in its staging buffer through the body, so at every grid point the buffer holds the
block of the array as the region found it; the one output window's buffer ends at the body's single store. -/

/-- Window `w`'s block at point `t`, read off the array the region finds at entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S128 := Rect.unit (s := S128) ![0] S128.size inb_S128_S128_0
abbrev r6_3 : Rect S128x128 := Rect.unit (s := S128x128) ![0, 0] S128x128.size inb_S128x128_S128x128_0_0
abbrev r6_4 : Rect S128 := Rect.unit (s := S128) ![0] S128.size inb_S128_S128_0
abbrev r6_5 : Rect S5000x128 := Rect.unit (s := S5000x128) ![0, 0] S5000x128.size inb_S5000x128_S5000x128_0_0

/-- The output buffer after the body: the one whole-block store of the body's value of the five loaded blocks. -/
def out6_5 (x0 : Vec F S5000x128 .f32) (x1 : Vec F S128x128 .f32) (x2 : Vec F S128 .f32) (x3 : Vec F S128x128 .f32) (x4 : Vec F S128 .f32) : Vec F S5000x128 .f32 :=
  View.canon [⟨r6_5, k6_pay1 (View.ld x0 r6_0) (View.ld x1 r6_1) (View.ld x2 r6_2) (View.ld x3 r6_3) (View.ld x4 r6_4)⟩]

/-- The one store covers the whole buffer. -/
theorem cover6_5 (p0 : Vec F S5000x128 .f32) (y : S5000x128.Idx) :
    ∃ pc ∈ ([⟨r6_5, p0⟩] : List (View.Piece (Elt F) S5000x128 .f32)), y ∈ pc.1.set :=
  View.cover_of_tiled [⟨r6_5, p0⟩] S5000x128.size (by rfl) y

set_option maxHeartbeats 1000000 in
/-- The body on whole staging buffers: the inputs' contents are read and left as they were, the output's ends at `out6_5`. -/
theorem sound_kernel6 (c : Dev nD) (E : Set ℕ) (i : grid6.Coords)
    (arg0 : Memref sig .tc .vmem S5000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128x128 .f32) (x2 : Vec F S128 .f32) (x3 : Vec F S128x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out6_5 x0 x1 x2 x3 x4)) -∗ K ⟨⟩))
      ⊢ wp frame (wpE (defs₀ (F := F)) Variants.none c none) E (cc6__mlp_kernel i arg0 harg0 arg1 harg1 arg2 harg2 arg3 harg3 arg4 harg4 arg5 harg5) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of this pipeline: the arrays as the region finds them; after the body at point `t` each input's buffer
    at its block and the output's at `out6_5` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so `sound_kernel6` applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIReg7.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: rows 5000·t … 5000·t+4999 of the normalisation by the column statistics

Every input window's block stays in its staging buffer through the body, so at every grid point the buffer holds the
block of the array as the region found it; the one output window's buffer ends at the body's single store. -/

/-- Window `w`'s block at point `t`, read off the array the region finds at entry. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x128 := Rect.unit (s := S5000x128) ![0, 0] S5000x128.size inb_S5000x128_S5000x128_0_0
abbrev r7_1 : Rect S128 := Rect.unit (s := S128) ![0] S128.size inb_S128_S128_0
abbrev r7_2 : Rect S128 := Rect.unit (s := S128) ![0] S128.size inb_S128_S128_0
abbrev r7_3 : Rect S128 := Rect.unit (s := S128) ![0] S128.size inb_S128_S128_0
abbrev r7_4 : Rect S128 := Rect.unit (s := S128) ![0] S128.size inb_S128_S128_0
abbrev r7_5 : Rect S5000x128 := Rect.unit (s := S5000x128) ![0, 0] S5000x128.size inb_S5000x128_S5000x128_0_0

/-- The output buffer after the body: the one whole-block store of the body's value of the five loaded blocks. -/
def out7_5 (x0 : Vec F S5000x128 .f32) (x1 : Vec F S128 .f32) (x2 : Vec F S128 .f32) (x3 : Vec F S128 .f32) (x4 : Vec F S128 .f32) : Vec F S5000x128 .f32 :=
  View.canon [⟨r7_5, k7_pay1 (View.ld x0 r7_0) (View.ld x1 r7_1) (View.ld x2 r7_2) (View.ld x3 r7_3) (View.ld x4 r7_4)⟩]

/-- The one store covers the whole buffer. -/
theorem cover7_5 (p0 : Vec F S5000x128 .f32) (y : S5000x128.Idx) :
    ∃ pc ∈ ([⟨r7_5, p0⟩] : List (View.Piece (Elt F) S5000x128 .f32)), y ∈ pc.1.set :=
  View.cover_of_tiled [⟨r7_5, p0⟩] S5000x128.size (by rfl) y

set_option maxHeartbeats 1000000 in
/-- The body on whole staging buffers: the inputs' contents are read and left as they were, the output's ends at `out7_5`. -/
theorem sound_kernel7 (c : Dev nD) (E : Set ℕ) (i : grid7.Coords)
    (arg0 : Memref sig .tc .vmem S5000x128 .f32) (harg0 : arg0.IsWhole) (arg1 : Memref sig .tc .vmem S128 .f32) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S5000x128 .f32) (harg5 : arg5.IsWhole)
    (x0 : Vec F S5000x128 .f32) (x1 : Vec F S128 .f32) (x2 : Vec F S128 .f32) (x3 : Vec F S128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out7_5 x0 x1 x2 x3 x4)) -∗ K ⟨⟩))
      ⊢ wp frame (wpE (defs₀ (F := F)) Variants.none c none) E (cc7__bn_kernel i arg0 harg0 arg1 harg1 arg2 harg2 arg3 harg3 arg4 harg4 arg5 harg5) K := by
  simp only [cc7__bn_kernel_eq_skeleton]; unfold cc7__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The proof data of this pipeline: the arrays as the region finds them; after the body at point `t` each input's buffer
    at its block and the output's at `out7_5` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so `sound_kernel7` applies. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KIReg8.lean ====
import proofs.«168812_j9088150798767_1_alg».proof.Proof.Gen.KernelIdeal.Launch
import proofs.«168812_j9088150798767_1_alg».proof.Proof.Gen.KernelIdeal.Skeleton
import proofs.«168812_j9088150798767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the classifier on the pooled features, one block

Every input window's block stays in its staging buffer through the body, so at every grid point the buffer holds the
block of the array as the region found it; the one output window's buffer ends at the body's single store. -/

/-- Window `w`'s block at point `t`, read off the array the region finds at entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds its block at every point, fetched there or not. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's staging buffer holds its block at every point, fetched there or not. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's staging buffer holds its block at every point, fetched there or not. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's staging buffer holds its block at every point, fetched there or not. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S64x512 := Rect.unit (s := S64x512) ![0, 0] S64x512.size inb_S64x512_S64x512_0_0
abbrev r8_1 : Rect S512x256 := Rect.unit (s := S512x256) ![0, 0] S512x256.size inb_S512x256_S512x256_0_0
abbrev r8_2 : Rect S256 := Rect.unit (s := S256) ![0] S256.size inb_S256_S256_0
abbrev r8_3 : Rect S256x128 := Rect.unit (s := S256x128) ![0, 0] S256x128.size inb_S256x128_S256x128_0_0
abbrev r8_4 : Rect S128 := Rect.unit (s := S128) ![0] S128.size inb_S128_S128_0
abbrev r8_5 : Rect S128x128 := Rect.unit (s := S128x128) ![0, 0] S128x128.size inb_S128x128_S128x128_0_0
abbrev r8_6 : Rect S128 := Rect.unit (s := S128) ![0] S128.size inb_S128_S128_0
abbrev r8_7 : Rect S128x10 := Rect.unit (s := S128x10) ![0, 0] S128x10.size inb_S128x10_S128x10_0_0
abbrev r8_8 : Rect S10 := Rect.unit (s := S10) ![0] S10.size inb_S10_S10_0
abbrev r8_9 : Rect S64x10 := Rect.unit (s := S64x10) ![0, 0] S64x10.size inb_S64x10_S64x10_0_0

/-- The output buffer after the body: the one whole-block store of the body's value of the loaded blocks. -/
def out8_9 (x0 : Vec F S64x512 .f32) (x1 : Vec F S512x256 .f32) (x2 : Vec F S256 .f32) (x3 : Vec F S256x128 .f32) (x4 : Vec F S128 .f32) (x5 : Vec F S128x128 .f32) (x6 : Vec F S128 .f32) (x7 : Vec F S128x10 .f32) (x8 : Vec F S10 .f32) : Vec F S64x10 .f32 :=
  View.canon [⟨r8_9, k8_pay1 (k8_pay2 (View.ld x0 r8_0) (View.ld x1 r8_1) (View.ld x2 r8_2) (View.ld x3 r8_3) (View.ld x4 r8_4) (View.ld x5 r8_5) (View.ld x6 r8_6) (View.ld x7 r8_7)) (k8_pay3 (View.ld x8 r8_8))⟩]

/-- The one store covers the whole buffer. -/
theorem cover8_9 (p0 : Vec F S64x10 .f32) (y : S64x10.Idx) :
    ∃ pc ∈ ([⟨r8_9, p0⟩] : List (View.Piece (Elt F) S64x10 .f32)), y ∈ pc.1.set :=
  View.cover_of_tiled [⟨r8_9, p0⟩] S64x10.size (by rfl) y

set_option maxHeartbeats 1000000 in
/-- The body on whole staging buffers: the inputs' contents are read and left as they were, the output's ends at `out8_9`. -/
theorem sound_kernel8 (c : Dev nD) (E : Set ℕ) (i : grid8.Coords)
    (arg0 : Memref sig .tc .vmem S64x512 .f32) (harg0 : arg0.IsWhole)
    (arg1 : Memref sig .tc .vmem S512x256 .f32) (harg1 : arg1.IsWhole)
    (arg2 : Memref sig .tc .vmem S256 .f32) (harg2 : arg2.IsWhole)
    (arg3 : Memref sig .tc .vmem S256x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S128 .f32) (harg6 : arg6.IsWhole)
    (arg7 : Memref sig .tc .vmem S128x10 .f32) (harg7 : arg7.IsWhole)
    (arg8 : Memref sig .tc .vmem S10 .f32) (harg8 : arg8.IsWhole)
    (arg9 : Memref sig .tc .vmem S64x10 .f32) (harg9 : arg9.IsWhole)
    (x0 : Vec F S64x512 .f32) (x1 : Vec F S512x256 .f32) (x2 : Vec F S256 .f32) (x3 : Vec F S256x128 .f32) (x4 : Vec F S128 .f32) (x5 : Vec F S128x128 .f32) (x6 : Vec F S128 .f32) (x7 : Vec F S128x10 .f32) (x8 : Vec F S10 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (out8_9 x0 x1 x2 x3 x4 x5 x6 x7 x8)) -∗ K ⟨⟩))
      ⊢ wp frame (wpE (defs₀ (F := F)) Variants.none c none) E (cc8__cls_kernel i arg0 harg0 arg1 harg1 arg2 harg2 arg3 harg3 arg4 harg4 arg5 harg5 arg6 harg6 arg7 harg7 arg8 harg8 arg9 harg9) K := by
  simp only [cc8__cls_kernel_eq_skeleton]; unfold cc8__cls_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover8_9 _)

/-- The proof data of this pipeline: the arrays as the region finds them; after the body at point `t` each input's buffer
    at its block and the output's at `out8_9` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' buffers hold their blocks, so `sound_kernel8` applies. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KIFold.lean ====
import proofs.«168812_j9088150798767_1_alg».proof.Proof.Gen.KernelIdeal.Regions
import proofs.«168812_j9088150798767_1_alg».proof.Proof.KIReg0
import proofs.«168812_j9088150798767_1_alg».proof.Proof.KIReg1
import proofs.«168812_j9088150798767_1_alg».proof.Proof.KIReg2
import proofs.«168812_j9088150798767_1_alg».proof.Proof.KIReg3
import proofs.«168812_j9088150798767_1_alg».proof.Proof.KIReg4
import proofs.«168812_j9088150798767_1_alg».proof.Proof.KIReg5
import proofs.«168812_j9088150798767_1_alg».proof.Proof.KIReg6
import proofs.«168812_j9088150798767_1_alg».proof.Proof.KIReg7
import proofs.«168812_j9088150798767_1_alg».proof.Proof.KIReg8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of the program

A fold from the launch memory: a stretch of host operations applies them in order; a kernel region leaves its input
arrays as it found them and its output array at what the write-backs of all grid points leave; every other buffer is
untouched. -/

/-- Core `c`'s buffers at launch. -/
abbrev W0 : Dev nD → Valuation τ sig (Elt F) := fun c b => m (c, b)
/-- After the host operations `hostOps0`. -/
abbrev W1 : Dev nD → Valuation τ sig (Elt F) := fun c => StableHlo.after hostOps0 (W0 m c)
theorem W1_keep (c : Dev nD) (b : Ref sig .tc) (h : b ∉ hostOps0_W) : W1 m c (Proc.devRef .tc b) = W0 m c (Proc.devRef .tc b) :=
  StableHlo.after_of_writes_sub hostOps0 _ hostOps0_writes h
/-- The same contents read at the TensorCore's references: what region 0 is entered with. -/
abbrev U1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- Region 0 changes no buffer but its output array `main_v18`: an input window's array is written back as found. -/
theorem W2_keep (c : Dev nD) (b : Ref sig .tc) (hb : b ≠ main_v18) : W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (U1 m) c).arrAt_in 0 rfl _).trans (A_eq0 (U1 m) c 0)
    | ⟨1, _⟩ => exact ((dat0 (U1 m) c).arrAt_in 1 rfl _).trans (A_eq0 (U1 m) c 1)
    | ⟨2, _⟩ => exact ((dat0 (U1 m) c).arrAt_in 2 rfl _).trans (A_eq0 (U1 m) c 2)
    | ⟨3, _⟩ => exact ((dat0 (U1 m) c).arrAt_in 3 rfl _).trans (A_eq0 (U1 m) c 3)
    | ⟨4, _⟩ => exact ((dat0 (U1 m) c).arrAt_in 4 rfl _).trans (A_eq0 (U1 m) c 4)
    | ⟨5, _⟩ => exact absurd rfl hb
  · exact W2_of_ne m c b fun w e => h ⟨w, e⟩
/-- After the host operations `hostOps1`. -/
abbrev W3 : Dev nD → Valuation τ sig (Elt F) := fun c => StableHlo.after hostOps1 (W2 m c)
theorem W3_keep (c : Dev nD) (b : Ref sig .tc) (h : b ∉ hostOps1_W) : W3 m c (Proc.devRef .tc b) = W2 m c (Proc.devRef .tc b) :=
  StableHlo.after_of_writes_sub hostOps1 _ hostOps1_writes h
/-- After the host operations `hostOps1_1`. -/
abbrev W4 : Dev nD → Valuation τ sig (Elt F) := fun c => StableHlo.after hostOps1_1 (W3 m c)
theorem W4_keep (c : Dev nD) (b : Ref sig .tc) (h : b ∉ hostOps1_1_W) : W4 m c (Proc.devRef .tc b) = W3 m c (Proc.devRef .tc b) :=
  StableHlo.after_of_writes_sub hostOps1_1 _ hostOps1_1_writes h
/-- The same contents read at the TensorCore's references: what region 1 is entered with. -/
abbrev U4 : (c : Dev nD) → (b : Ref sig .tc) → Buf (Elt F) ((c : Thread nD τ).loc b) := fun c b => W4 m c b
/-- After region 1: its arrays at what the pipeline leaves, every other buffer as entered. -/
def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)
/-- Region 1 changes no buffer but its output array `main_v23`: an input window's array is written back as found. -/
theorem W5_keep (c : Dev nD) (b : Ref sig .tc) (hb : b ≠ main_v23) : W5 m c (Proc.devRef .tc b) = W4 m c (Proc.devRef .tc b) := by
  by_cases h : ∃ w, Pipeline.arrRef spec1 w = b
  · obtain ⟨w, rfl⟩ := h
    rw [W5_arr]
    match w with
    | ⟨0, _⟩ => exact ((dat1 (U4 m) c).arrAt_in 0 rfl _).trans (A_eq1 (U4 m) c 0)
    | ⟨1, _⟩ => exact ((dat1 (U4 m) c).arrAt_in 1 rfl _).trans (A_eq1 (U4 m) c 1)
    | ⟨2, _⟩ => exact ((dat1 (U4 m) c).arrAt_in 2 rfl _).trans (A_eq1 (U4 m) c 2)
    | ⟨3, _⟩ => exact ((dat1 (U4 m) c).arrAt_in 3 rfl _).trans (A_eq1 (U4 m) c 3)
    | ⟨4, _⟩ => exact ((dat1 (U4 m) c).arrAt_in 4 rfl _).trans (A_eq1 (U4 m) c 4)
    | ⟨5, _⟩ => exact absurd rfl hb
  · exact W5_of_ne m c b fun w e => h ⟨w, e⟩
/-- After the host operations `hostOps2`. -/
abbrev W6 : Dev nD → Valuation τ sig (Elt F) := fun c => StableHlo.after hostOps2 (W5 m c)
theorem W6_keep (c : Dev nD) (b : Ref sig .tc) (h : b ∉ hostOps2_W) : W6 m c (Proc.devRef .tc b) = W5 m c (Proc.devRef .tc b) :=
  StableHlo.after_of_writes_sub hostOps2 _ hostOps2_writes h
/-- The same contents read at the TensorCore's references: what region 2 is entered with. -/
abbrev U6 : (c : Dev nD) → (b : Ref sig .tc) → Buf (Elt F) ((c : Thread nD τ).loc b) := fun c b => W6 m c b
/-- After region 2: its arrays at what the pipeline leaves, every other buffer as entered. -/
def W7 (c : Dev nD) : Valuation τ sig (Elt F) :=
  Pipeline.withArrays spec2 c (W6 m c) fun w => (dat2 (U6 m) c).arrAt w cfg2.N
theorem W7_arr (c : Dev nD) (w : Fin cfg2.W) :
    W7 m c (Proc.devRef .tc (Pipeline.arrRef spec2 w)) = (dat2 (U6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev U7 : (c : Dev nD) → (b : Ref sig .tc) → Buf (Elt F) ((c : Thread nD τ).loc b) := fun c b => W7 m c b
theorem hF2 (c : Dev nD) (w : Fin cfg2.W) : (dat2 (U6 m) c).arrAt w cfg2.N = U7 m c (Pipeline.arrRef spec2 w) :=
  (W7_arr m c w).symm
theorem hrest2 (c : Dev nD) : ∀ b, b ∉ Finset.univ.image (Pipeline.arrRef spec2) → U7 m c b = U6 m c b :=
  fun b hb => W7_of_ne m c b fun w e => hb (Finset.mem_image.mpr ⟨w, Finset.mem_univ _, e⟩)
/-- Region 2 changes no buffer but its output array `main_v52`: an input window's array is written back as found. -/
theorem W7_keep (c : Dev nD) (b : Ref sig .tc) (hb : b ≠ main_v52) : W7 m c (Proc.devRef .tc b) = W6 m c (Proc.devRef .tc b) := by
  by_cases h : ∃ w, Pipeline.arrRef spec2 w = b
  · obtain ⟨w, rfl⟩ := h
    rw [W7_arr]
    match w with
    | ⟨0, _⟩ => exact ((dat2 (U6 m) c).arrAt_in 0 rfl _).trans (A_eq2 (U6 m) c 0)
    | ⟨1, _⟩ => exact ((dat2 (U6 m) c).arrAt_in 1 rfl _).trans (A_eq2 (U6 m) c 1)
    | ⟨2, _⟩ => exact ((dat2 (U6 m) c).arrAt_in 2 rfl _).trans (A_eq2 (U6 m) c 2)
    | ⟨3, _⟩ => exact ((dat2 (U6 m) c).arrAt_in 3 rfl _).trans (A_eq2 (U6 m) c 3)
    | ⟨4, _⟩ => exact ((dat2 (U6 m) c).arrAt_in 4 rfl _).trans (A_eq2 (U6 m) c 4)
    | ⟨5, _⟩ => exact absurd rfl hb
  · exact W7_of_ne m c b fun w e => h ⟨w, e⟩
/-- After the host operations `hostOps3`. -/
abbrev W8 : Dev nD → Valuation τ sig (Elt F) := fun c => StableHlo.after hostOps3 (W7 m c)
theorem W8_keep (c : Dev nD) (b : Ref sig .tc) (h : b ∉ hostOps3_W) : W8 m c (Proc.devRef .tc b) = W7 m c (Proc.devRef .tc b) :=
  StableHlo.after_of_writes_sub hostOps3 _ hostOps3_writes h
/-- After the host operations `hostOps3_1`. -/
abbrev W9 : Dev nD → Valuation τ sig (Elt F) := fun c => StableHlo.after hostOps3_1 (W8 m c)
theorem W9_keep (c : Dev nD) (b : Ref sig .tc) (h : b ∉ hostOps3_1_W) : W9 m c (Proc.devRef .tc b) = W8 m c (Proc.devRef .tc b) :=
  StableHlo.after_of_writes_sub hostOps3_1 _ hostOps3_1_writes h
/-- The same contents read at the TensorCore's references: what region 3 is entered with. -/
abbrev U9 : (c : Dev nD) → (b : Ref sig .tc) → Buf (Elt F) ((c : Thread nD τ).loc b) := fun c b => W9 m c b
/-- After region 3: its arrays at what the pipeline leaves, every other buffer as entered. -/
def W10 (c : Dev nD) : Valuation τ sig (Elt F) :=
  Pipeline.withArrays spec3 c (W9 m c) fun w => (dat3 (U9 m) c).arrAt w cfg3.N
theorem W10_arr (c : Dev nD) (w : Fin cfg3.W) :
    W10 m c (Proc.devRef .tc (Pipeline.arrRef spec3 w)) = (dat3 (U9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev U10 : (c : Dev nD) → (b : Ref sig .tc) → Buf (Elt F) ((c : Thread nD τ).loc b) := fun c b => W10 m c b
theorem hF3 (c : Dev nD) (w : Fin cfg3.W) : (dat3 (U9 m) c).arrAt w cfg3.N = U10 m c (Pipeline.arrRef spec3 w) :=
  (W10_arr m c w).symm
theorem hrest3 (c : Dev nD) : ∀ b, b ∉ Finset.univ.image (Pipeline.arrRef spec3) → U10 m c b = U9 m c b :=
  fun b hb => W10_of_ne m c b fun w e => hb (Finset.mem_image.mpr ⟨w, Finset.mem_univ _, e⟩)
/-- Region 3 changes no buffer but its output array `main_v57`: an input window's array is written back as found. -/
theorem W10_keep (c : Dev nD) (b : Ref sig .tc) (hb : b ≠ main_v57) : W10 m c (Proc.devRef .tc b) = W9 m c (Proc.devRef .tc b) := by
  by_cases h : ∃ w, Pipeline.arrRef spec3 w = b
  · obtain ⟨w, rfl⟩ := h
    rw [W10_arr]
    match w with
    | ⟨0, _⟩ => exact ((dat3 (U9 m) c).arrAt_in 0 rfl _).trans (A_eq3 (U9 m) c 0)
    | ⟨1, _⟩ => exact ((dat3 (U9 m) c).arrAt_in 1 rfl _).trans (A_eq3 (U9 m) c 1)
    | ⟨2, _⟩ => exact ((dat3 (U9 m) c).arrAt_in 2 rfl _).trans (A_eq3 (U9 m) c 2)
    | ⟨3, _⟩ => exact ((dat3 (U9 m) c).arrAt_in 3 rfl _).trans (A_eq3 (U9 m) c 3)
    | ⟨4, _⟩ => exact ((dat3 (U9 m) c).arrAt_in 4 rfl _).trans (A_eq3 (U9 m) c 4)
    | ⟨5, _⟩ => exact absurd rfl hb
  · exact W10_of_ne m c b fun w e => h ⟨w, e⟩
/-- After the host operations `hostOps4`. -/
abbrev W11 : Dev nD → Valuation τ sig (Elt F) := fun c => StableHlo.after hostOps4 (W10 m c)
theorem W11_keep (c : Dev nD) (b : Ref sig .tc) (h : b ∉ hostOps4_W) : W11 m c (Proc.devRef .tc b) = W10 m c (Proc.devRef .tc b) :=
  StableHlo.after_of_writes_sub hostOps4 _ hostOps4_writes h
/-- The same contents read at the TensorCore's references: what region 4 is entered with. -/
abbrev U11 : (c : Dev nD) → (b : Ref sig .tc) → Buf (Elt F) ((c : Thread nD τ).loc b) := fun c b => W11 m c b
/-- After region 4: its arrays at what the pipeline leaves, every other buffer as entered. -/
def W12 (c : Dev nD) : Valuation τ sig (Elt F) :=
  Pipeline.withArrays spec4 c (W11 m c) fun w => (dat4 (U11 m) c).arrAt w cfg4.N
theorem W12_arr (c : Dev nD) (w : Fin cfg4.W) :
    W12 m c (Proc.devRef .tc (Pipeline.arrRef spec4 w)) = (dat4 (U11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev U12 : (c : Dev nD) → (b : Ref sig .tc) → Buf (Elt F) ((c : Thread nD τ).loc b) := fun c b => W12 m c b
theorem hF4 (c : Dev nD) (w : Fin cfg4.W) : (dat4 (U11 m) c).arrAt w cfg4.N = U12 m c (Pipeline.arrRef spec4 w) :=
  (W12_arr m c w).symm
theorem hrest4 (c : Dev nD) : ∀ b, b ∉ Finset.univ.image (Pipeline.arrRef spec4) → U12 m c b = U11 m c b :=
  fun b hb => W12_of_ne m c b fun w e => hb (Finset.mem_image.mpr ⟨w, Finset.mem_univ _, e⟩)
/-- Region 4 changes no buffer but its output array `main_v86`: an input window's array is written back as found. -/
theorem W12_keep (c : Dev nD) (b : Ref sig .tc) (hb : b ≠ main_v86) : W12 m c (Proc.devRef .tc b) = W11 m c (Proc.devRef .tc b) := by
  by_cases h : ∃ w, Pipeline.arrRef spec4 w = b
  · obtain ⟨w, rfl⟩ := h
    rw [W12_arr]
    match w with
    | ⟨0, _⟩ => exact ((dat4 (U11 m) c).arrAt_in 0 rfl _).trans (A_eq4 (U11 m) c 0)
    | ⟨1, _⟩ => exact ((dat4 (U11 m) c).arrAt_in 1 rfl _).trans (A_eq4 (U11 m) c 1)
    | ⟨2, _⟩ => exact ((dat4 (U11 m) c).arrAt_in 2 rfl _).trans (A_eq4 (U11 m) c 2)
    | ⟨3, _⟩ => exact ((dat4 (U11 m) c).arrAt_in 3 rfl _).trans (A_eq4 (U11 m) c 3)
    | ⟨4, _⟩ => exact ((dat4 (U11 m) c).arrAt_in 4 rfl _).trans (A_eq4 (U11 m) c 4)
    | ⟨5, _⟩ => exact absurd rfl hb
  · exact W12_of_ne m c b fun w e => h ⟨w, e⟩
/-- After the host operations `hostOps5`. -/
abbrev W13 : Dev nD → Valuation τ sig (Elt F) := fun c => StableHlo.after hostOps5 (W12 m c)
theorem W13_keep (c : Dev nD) (b : Ref sig .tc) (h : b ∉ hostOps5_W) : W13 m c (Proc.devRef .tc b) = W12 m c (Proc.devRef .tc b) :=
  StableHlo.after_of_writes_sub hostOps5 _ hostOps5_writes h
/-- After the host operations `hostOps5_1`. -/
abbrev W14 : Dev nD → Valuation τ sig (Elt F) := fun c => StableHlo.after hostOps5_1 (W13 m c)
theorem W14_keep (c : Dev nD) (b : Ref sig .tc) (h : b ∉ hostOps5_1_W) : W14 m c (Proc.devRef .tc b) = W13 m c (Proc.devRef .tc b) :=
  StableHlo.after_of_writes_sub hostOps5_1 _ hostOps5_1_writes h
/-- The same contents read at the TensorCore's references: what region 5 is entered with. -/
abbrev U14 : (c : Dev nD) → (b : Ref sig .tc) → Buf (Elt F) ((c : Thread nD τ).loc b) := fun c b => W14 m c b
/-- After region 5: its arrays at what the pipeline leaves, every other buffer as entered. -/
def W15 (c : Dev nD) : Valuation τ sig (Elt F) :=
  Pipeline.withArrays spec5 c (W14 m c) fun w => (dat5 (U14 m) c).arrAt w cfg5.N
theorem W15_arr (c : Dev nD) (w : Fin cfg5.W) :
    W15 m c (Proc.devRef .tc (Pipeline.arrRef spec5 w)) = (dat5 (U14 m) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m c (Proc.devRef .tc b) = W14 m c (Proc.devRef .tc b) := by
  unfold W15; exact Pipeline.withArrays_of_ne spec5 c _ _ b hb
abbrev U15 : (c : Dev nD) → (b : Ref sig .tc) → Buf (Elt F) ((c : Thread nD τ).loc b) := fun c b => W15 m c b
theorem hF5 (c : Dev nD) (w : Fin cfg5.W) : (dat5 (U14 m) c).arrAt w cfg5.N = U15 m c (Pipeline.arrRef spec5 w) :=
  (W15_arr m c w).symm
theorem hrest5 (c : Dev nD) : ∀ b, b ∉ Finset.univ.image (Pipeline.arrRef spec5) → U15 m c b = U14 m c b :=
  fun b hb => W15_of_ne m c b fun w e => hb (Finset.mem_image.mpr ⟨w, Finset.mem_univ _, e⟩)
/-- Region 5 changes no buffer but its output array `main_v91`: an input window's array is written back as found. -/
theorem W15_keep (c : Dev nD) (b : Ref sig .tc) (hb : b ≠ main_v91) : W15 m c (Proc.devRef .tc b) = W14 m c (Proc.devRef .tc b) := by
  by_cases h : ∃ w, Pipeline.arrRef spec5 w = b
  · obtain ⟨w, rfl⟩ := h
    rw [W15_arr]
    match w with
    | ⟨0, _⟩ => exact ((dat5 (U14 m) c).arrAt_in 0 rfl _).trans (A_eq5 (U14 m) c 0)
    | ⟨1, _⟩ => exact ((dat5 (U14 m) c).arrAt_in 1 rfl _).trans (A_eq5 (U14 m) c 1)
    | ⟨2, _⟩ => exact ((dat5 (U14 m) c).arrAt_in 2 rfl _).trans (A_eq5 (U14 m) c 2)
    | ⟨3, _⟩ => exact ((dat5 (U14 m) c).arrAt_in 3 rfl _).trans (A_eq5 (U14 m) c 3)
    | ⟨4, _⟩ => exact ((dat5 (U14 m) c).arrAt_in 4 rfl _).trans (A_eq5 (U14 m) c 4)
    | ⟨5, _⟩ => exact absurd rfl hb
  · exact W15_of_ne m c b fun w e => h ⟨w, e⟩
/-- After the host operations `hostOps6`. -/
abbrev W16 : Dev nD → Valuation τ sig (Elt F) := fun c => StableHlo.after hostOps6 (W15 m c)
theorem W16_keep (c : Dev nD) (b : Ref sig .tc) (h : b ∉ hostOps6_W) : W16 m c (Proc.devRef .tc b) = W15 m c (Proc.devRef .tc b) :=
  StableHlo.after_of_writes_sub hostOps6 _ hostOps6_writes h
/-- The same contents read at the TensorCore's references: what region 6 is entered with. -/
abbrev U16 : (c : Dev nD) → (b : Ref sig .tc) → Buf (Elt F) ((c : Thread nD τ).loc b) := fun c b => W16 m c b
/-- After region 6: its arrays at what the pipeline leaves, every other buffer as entered. -/
def W17 (c : Dev nD) : Valuation τ sig (Elt F) :=
  Pipeline.withArrays spec6 c (W16 m c) fun w => (dat6 (U16 m) c).arrAt w cfg6.N
theorem W17_arr (c : Dev nD) (w : Fin cfg6.W) :
    W17 m c (Proc.devRef .tc (Pipeline.arrRef spec6 w)) = (dat6 (U16 m) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m c (Proc.devRef .tc b) = W16 m c (Proc.devRef .tc b) := by
  unfold W17; exact Pipeline.withArrays_of_ne spec6 c _ _ b hb
abbrev U17 : (c : Dev nD) → (b : Ref sig .tc) → Buf (Elt F) ((c : Thread nD τ).loc b) := fun c b => W17 m c b
theorem hF6 (c : Dev nD) (w : Fin cfg6.W) : (dat6 (U16 m) c).arrAt w cfg6.N = U17 m c (Pipeline.arrRef spec6 w) :=
  (W17_arr m c w).symm
theorem hrest6 (c : Dev nD) : ∀ b, b ∉ Finset.univ.image (Pipeline.arrRef spec6) → U17 m c b = U16 m c b :=
  fun b hb => W17_of_ne m c b fun w e => hb (Finset.mem_image.mpr ⟨w, Finset.mem_univ _, e⟩)
/-- Region 6 changes no buffer but its output array `main_v120`: an input window's array is written back as found. -/
theorem W17_keep (c : Dev nD) (b : Ref sig .tc) (hb : b ≠ main_v120) : W17 m c (Proc.devRef .tc b) = W16 m c (Proc.devRef .tc b) := by
  by_cases h : ∃ w, Pipeline.arrRef spec6 w = b
  · obtain ⟨w, rfl⟩ := h
    rw [W17_arr]
    match w with
    | ⟨0, _⟩ => exact ((dat6 (U16 m) c).arrAt_in 0 rfl _).trans (A_eq6 (U16 m) c 0)
    | ⟨1, _⟩ => exact ((dat6 (U16 m) c).arrAt_in 1 rfl _).trans (A_eq6 (U16 m) c 1)
    | ⟨2, _⟩ => exact ((dat6 (U16 m) c).arrAt_in 2 rfl _).trans (A_eq6 (U16 m) c 2)
    | ⟨3, _⟩ => exact ((dat6 (U16 m) c).arrAt_in 3 rfl _).trans (A_eq6 (U16 m) c 3)
    | ⟨4, _⟩ => exact ((dat6 (U16 m) c).arrAt_in 4 rfl _).trans (A_eq6 (U16 m) c 4)
    | ⟨5, _⟩ => exact absurd rfl hb
  · exact W17_of_ne m c b fun w e => h ⟨w, e⟩
/-- After the host operations `hostOps7`. -/
abbrev W18 : Dev nD → Valuation τ sig (Elt F) := fun c => StableHlo.after hostOps7 (W17 m c)
theorem W18_keep (c : Dev nD) (b : Ref sig .tc) (h : b ∉ hostOps7_W) : W18 m c (Proc.devRef .tc b) = W17 m c (Proc.devRef .tc b) :=
  StableHlo.after_of_writes_sub hostOps7 _ hostOps7_writes h
/-- After the host operations `hostOps7_1`. -/
abbrev W19 : Dev nD → Valuation τ sig (Elt F) := fun c => StableHlo.after hostOps7_1 (W18 m c)
theorem W19_keep (c : Dev nD) (b : Ref sig .tc) (h : b ∉ hostOps7_1_W) : W19 m c (Proc.devRef .tc b) = W18 m c (Proc.devRef .tc b) :=
  StableHlo.after_of_writes_sub hostOps7_1 _ hostOps7_1_writes h
/-- The same contents read at the TensorCore's references: what region 7 is entered with. -/
abbrev U19 : (c : Dev nD) → (b : Ref sig .tc) → Buf (Elt F) ((c : Thread nD τ).loc b) := fun c b => W19 m c b
/-- After region 7: its arrays at what the pipeline leaves, every other buffer as entered. -/
def W20 (c : Dev nD) : Valuation τ sig (Elt F) :=
  Pipeline.withArrays spec7 c (W19 m c) fun w => (dat7 (U19 m) c).arrAt w cfg7.N
theorem W20_arr (c : Dev nD) (w : Fin cfg7.W) :
    W20 m c (Proc.devRef .tc (Pipeline.arrRef spec7 w)) = (dat7 (U19 m) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m c (Proc.devRef .tc b) = W19 m c (Proc.devRef .tc b) := by
  unfold W20; exact Pipeline.withArrays_of_ne spec7 c _ _ b hb
abbrev U20 : (c : Dev nD) → (b : Ref sig .tc) → Buf (Elt F) ((c : Thread nD τ).loc b) := fun c b => W20 m c b
theorem hF7 (c : Dev nD) (w : Fin cfg7.W) : (dat7 (U19 m) c).arrAt w cfg7.N = U20 m c (Pipeline.arrRef spec7 w) :=
  (W20_arr m c w).symm
theorem hrest7 (c : Dev nD) : ∀ b, b ∉ Finset.univ.image (Pipeline.arrRef spec7) → U20 m c b = U19 m c b :=
  fun b hb => W20_of_ne m c b fun w e => hb (Finset.mem_image.mpr ⟨w, Finset.mem_univ _, e⟩)
/-- Region 7 changes no buffer but its output array `main_v125`: an input window's array is written back as found. -/
theorem W20_keep (c : Dev nD) (b : Ref sig .tc) (hb : b ≠ main_v125) : W20 m c (Proc.devRef .tc b) = W19 m c (Proc.devRef .tc b) := by
  by_cases h : ∃ w, Pipeline.arrRef spec7 w = b
  · obtain ⟨w, rfl⟩ := h
    rw [W20_arr]
    match w with
    | ⟨0, _⟩ => exact ((dat7 (U19 m) c).arrAt_in 0 rfl _).trans (A_eq7 (U19 m) c 0)
    | ⟨1, _⟩ => exact ((dat7 (U19 m) c).arrAt_in 1 rfl _).trans (A_eq7 (U19 m) c 1)
    | ⟨2, _⟩ => exact ((dat7 (U19 m) c).arrAt_in 2 rfl _).trans (A_eq7 (U19 m) c 2)
    | ⟨3, _⟩ => exact ((dat7 (U19 m) c).arrAt_in 3 rfl _).trans (A_eq7 (U19 m) c 3)
    | ⟨4, _⟩ => exact ((dat7 (U19 m) c).arrAt_in 4 rfl _).trans (A_eq7 (U19 m) c 4)
    | ⟨5, _⟩ => exact absurd rfl hb
  · exact W20_of_ne m c b fun w e => h ⟨w, e⟩
/-- After the host operations `hostOps8`. -/
abbrev W21 : Dev nD → Valuation τ sig (Elt F) := fun c => StableHlo.after hostOps8 (W20 m c)
theorem W21_keep (c : Dev nD) (b : Ref sig .tc) (h : b ∉ hostOps8_W) : W21 m c (Proc.devRef .tc b) = W20 m c (Proc.devRef .tc b) :=
  StableHlo.after_of_writes_sub hostOps8 _ hostOps8_writes h
/-- The same contents read at the TensorCore's references: what region 8 is entered with. -/
abbrev U21 : (c : Dev nD) → (b : Ref sig .tc) → Buf (Elt F) ((c : Thread nD τ).loc b) := fun c b => W21 m c b
/-- After region 8: its arrays at what the pipeline leaves, every other buffer as entered. -/
def W22 (c : Dev nD) : Valuation τ sig (Elt F) :=
  Pipeline.withArrays spec8 c (W21 m c) fun w => (dat8 (U21 m) c).arrAt w cfg8.N
theorem W22_arr (c : Dev nD) (w : Fin cfg8.W) :
    W22 m c (Proc.devRef .tc (Pipeline.arrRef spec8 w)) = (dat8 (U21 m) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m c (Proc.devRef .tc b) = W21 m c (Proc.devRef .tc b) := by
  unfold W22; exact Pipeline.withArrays_of_ne spec8 c _ _ b hb
abbrev U22 : (c : Dev nD) → (b : Ref sig .tc) → Buf (Elt F) ((c : Thread nD τ).loc b) := fun c b => W22 m c b
theorem hF8 (c : Dev nD) (w : Fin cfg8.W) : (dat8 (U21 m) c).arrAt w cfg8.N = U22 m c (Pipeline.arrRef spec8 w) :=
  (W22_arr m c w).symm
theorem hrest8 (c : Dev nD) : ∀ b, b ∉ Finset.univ.image (Pipeline.arrRef spec8) → U22 m c b = U21 m c b :=
  fun b hb => W22_of_ne m c b fun w e => hb (Finset.mem_image.mpr ⟨w, Finset.mem_univ _, e⟩)
/-- Region 8 changes no buffer but its output array `main_v139`: an input window's array is written back as found. -/
theorem W22_keep (c : Dev nD) (b : Ref sig .tc) (hb : b ≠ main_v139) : W22 m c (Proc.devRef .tc b) = W21 m c (Proc.devRef .tc b) := by
  by_cases h : ∃ w, Pipeline.arrRef spec8 w = b
  · obtain ⟨w, rfl⟩ := h
    rw [W22_arr]
    match w with
    | ⟨0, _⟩ => exact ((dat8 (U21 m) c).arrAt_in 0 rfl _).trans (A_eq8 (U21 m) c 0)
    | ⟨1, _⟩ => exact ((dat8 (U21 m) c).arrAt_in 1 rfl _).trans (A_eq8 (U21 m) c 1)
    | ⟨2, _⟩ => exact ((dat8 (U21 m) c).arrAt_in 2 rfl _).trans (A_eq8 (U21 m) c 2)
    | ⟨3, _⟩ => exact ((dat8 (U21 m) c).arrAt_in 3 rfl _).trans (A_eq8 (U21 m) c 3)
    | ⟨4, _⟩ => exact ((dat8 (U21 m) c).arrAt_in 4 rfl _).trans (A_eq8 (U21 m) c 4)
    | ⟨5, _⟩ => exact ((dat8 (U21 m) c).arrAt_in 5 rfl _).trans (A_eq8 (U21 m) c 5)
    | ⟨6, _⟩ => exact ((dat8 (U21 m) c).arrAt_in 6 rfl _).trans (A_eq8 (U21 m) c 6)
    | ⟨7, _⟩ => exact ((dat8 (U21 m) c).arrAt_in 7 rfl _).trans (A_eq8 (U21 m) c 7)
    | ⟨8, _⟩ => exact ((dat8 (U21 m) c).arrAt_in 8 rfl _).trans (A_eq8 (U21 m) c 8)
    | ⟨9, _⟩ => exact absurd rfl hb
  · exact W22_of_ne m c b fun w e => h ⟨w, e⟩

/-- A buffer that no host operation writes and that is no region's output ends as launched. -/
theorem W22_launch (c : Dev nD) (b : Ref sig .tc) (h0 : b ∉ hostOps0_W) (h1 : b ≠ main_v18) (h2 : b ∉ hostOps1_W) (h3 : b ∉ hostOps1_1_W) (h4 : b ≠ main_v23) (h5 : b ∉ hostOps2_W) (h6 : b ≠ main_v52) (h7 : b ∉ hostOps3_W) (h8 : b ∉ hostOps3_1_W) (h9 : b ≠ main_v57) (h10 : b ∉ hostOps4_W) (h11 : b ≠ main_v86) (h12 : b ∉ hostOps5_W) (h13 : b ∉ hostOps5_1_W) (h14 : b ≠ main_v91) (h15 : b ∉ hostOps6_W) (h16 : b ≠ main_v120) (h17 : b ∉ hostOps7_W) (h18 : b ∉ hostOps7_1_W) (h19 : b ≠ main_v125) (h20 : b ∉ hostOps8_W) (h21 : b ≠ main_v139) :
    W22 m c (Proc.devRef .tc b) = m ((c : Thread nD τ).loc b) :=
  (W22_keep m c b h21).trans <| (W21_keep m c b h20).trans <| (W20_keep m c b h19).trans <| (W19_keep m c b h18).trans <| (W18_keep m c b h17).trans <| (W17_keep m c b h16).trans <| (W16_keep m c b h15).trans <| (W15_keep m c b h14).trans <| (W14_keep m c b h13).trans <| (W13_keep m c b h12).trans <| (W12_keep m c b h11).trans <| (W11_keep m c b h10).trans <| (W10_keep m c b h9).trans <| (W9_keep m c b h8).trans <| (W8_keep m c b h7).trans <| (W7_keep m c b h6).trans <| (W6_keep m c b h5).trans <| (W5_keep m c b h4).trans <| (W4_keep m c b h3).trans <| (W3_keep m c b h2).trans <| (W2_keep m c b h1).trans <| (W1_keep m c b h0)

/-! ## The proof data of every pipeline, and what rides beside the buffers -/

/-- Every pipeline's proof data, each at its region's entry contents. -/
def pd : (p : Fin 9) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U4 m) c
  | ⟨2, _⟩ => fun c => dat2 (U6 m) c
  | ⟨3, _⟩ => fun c => dat3 (U9 m) c
  | ⟨4, _⟩ => fun c => dat4 (U11 m) c
  | ⟨5, _⟩ => fun c => dat5 (U14 m) c
  | ⟨6, _⟩ => fun c => dat6 (U16 m) c
  | ⟨7, _⟩ => fun c => dat7 (U19 m) c
  | ⟨8, _⟩ => fun c => dat8 (U21 m) c

abbrev 𝒱n : Variants := Variants.none
/-- No core owes another anything: no level is assigned. -/
abbrev Ln : GSem nD τ sig → Finset Unit := fun _ => ∅
abbrev lvn : GSem nD τ sig → Unit → ℕ := fun _ _ => 0
/-- Beside the buffers through every item: the core's generator register at some state, and nothing owed. -/
abbrev Rst (c : Dev nD) : sProp 𝕄 := iprop((∃ r, prngReg c r) ∗ ∃ W, owes (c : Thread nD τ) (0 : CellTallies nD τ sig Unit) W)
/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tlast (c : Dev nD) : sProp 𝕄 := iprop(StableHlo.held (c : Thread nD τ) (Pipeline.ucRefs τ sig) (W22 m c) ∗ ∃ r, prngReg c r)

end Cert.KernelIdeal.Hand

end
-- ==== Proof.KISeg0.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 0 as a segment of the program: entered with every unscoped buffer at `W1`, left with them at `W2`.
    Its arrays are split out of the unscoped buffers at entry and put back, at what the pipeline leaves, at exit; the
    generator register passes through the pipeline's invariant; nothing is owed; the kernel has no semaphore of its own. -/
def rseg0 : Pipeline.RegionSeg (pcfgs (F := F)) adm (pd m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Ln lvn 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pd m) launch0.win launch0.arr_whole c
      ((pd m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (U1 m c) (U2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg1.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 as a segment of the program: entered with every unscoped buffer at `W4`, left with them at `W5`.
    Its arrays are split out of the unscoped buffers at entry and put back, at what the pipeline leaves, at exit; the
    generator register passes through the pipeline's invariant; nothing is owed; the kernel has no semaphore of its own. -/
def rseg1 : Pipeline.RegionSeg (pcfgs (F := F)) adm (pd m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (U4 m) c).loose
  hwaits := Pipeline.hwaits_of_owed_zero _ _ _ _ Ln lvn 1 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pd m) launch1.win launch1.arr_whole c
      ((pd m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (U4 m c) (U5 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg2.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 2 as a segment of the program: entered with every unscoped buffer at `W6`, left with them at `W7`.
    Its arrays are split out of the unscoped buffers at entry and put back, at what the pipeline leaves, at exit; the
    generator register passes through the pipeline's invariant; nothing is owed; the kernel has no semaphore of its own. -/
def rseg2 : Pipeline.RegionSeg (pcfgs (F := F)) adm (pd m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (U6 m) c).loose
  hwaits := Pipeline.hwaits_of_owed_zero _ _ _ _ Ln lvn 2 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec2 c (U6 m c)
  hentry c := by
    rw [Pipeline.ownSems0_none]
    have hsplit := Pipeline.arrays_of_unscopedBufs (p := 2) (pcfgs (F := F)) adm (pd m) launch2.win launch2.arr_whole c
      ((pd m 2 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pd m) ((pd m 2 c).share_full fun _ => rfl)
      (U6 m c) (U7 m c) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg3.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 3 as a segment of the program: entered with every unscoped buffer at `W9`, left with them at `W10`.
    Its arrays are split out of the unscoped buffers at entry and put back, at what the pipeline leaves, at exit; the
    generator register passes through the pipeline's invariant; nothing is owed; the kernel has no semaphore of its own. -/
def rseg3 : Pipeline.RegionSeg (pcfgs (F := F)) adm (pd m) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ Ln lvn 3 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec3 c (U9 m c)
  hentry c := by
    rw [Pipeline.ownSems0_none]
    have hsplit := Pipeline.arrays_of_unscopedBufs (p := 3) (pcfgs (F := F)) adm (pd m) launch3.win launch3.arr_whole c
      ((pd m 3 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pd m) ((pd m 3 c).share_full fun _ => rfl)
      (U9 m c) (U10 m c) ((pd m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg4.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 4 as a segment of the program: entered with every unscoped buffer at `W11`, left with them at `W12`.
    Its arrays are split out of the unscoped buffers at entry and put back, at what the pipeline leaves, at exit; the
    generator register passes through the pipeline's invariant; nothing is owed; the kernel has no semaphore of its own. -/
def rseg4 : Pipeline.RegionSeg (pcfgs (F := F)) adm (pd m) () defs₀ 𝒱n Ln lvn 4 where
  win := launch4.win.to₀
  block_pos := launch4.block_pos
  stage_whole := launch4.stage_whole
  K := PEmpty
  osem k := k.elim
  ho := Pipeline.OwnSemFacts.none _
  hbody c := (body_obligation4 (U11 m) c).loose
  hwaits := Pipeline.hwaits_of_owed_zero _ _ _ _ Ln lvn 4 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec4 c (U11 m c)
  hentry c := by
    rw [Pipeline.ownSems0_none]
    have hsplit := Pipeline.arrays_of_unscopedBufs (p := 4) (pcfgs (F := F)) adm (pd m) launch4.win launch4.arr_whole c
      ((pd m 4 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 4 c).Φ 0 = Pipeline.ΦA spec4 c from rfl]; unfold Pipeline.ΦA
    iintro ⟨Hp, -, Hr⟩
    isplitl [Hr]; · iexact Hr
    iexact Hp
  hout c := by
    rw [Pipeline.ownSems0_none, show (pd m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pd m) ((pd m 4 c).share_full fun _ => rfl)
      (U11 m c) (U12 m c) ((pd m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg5.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 5 as a segment of the program: entered with every unscoped buffer at `W14`, left with them at `W15`.
    Its arrays are split out of the unscoped buffers at entry and put back, at what the pipeline leaves, at exit; the
    generator register passes through the pipeline's invariant; nothing is owed; the kernel has no semaphore of its own. -/
def rseg5 : Pipeline.RegionSeg (pcfgs (F := F)) adm (pd m) () defs₀ 𝒱n Ln lvn 5 where
  win := launch5.win.to₀
  block_pos := launch5.block_pos
  stage_whole := launch5.stage_whole
  K := PEmpty
  osem k := k.elim
  ho := Pipeline.OwnSemFacts.none _
  hbody c := (body_obligation5 (U14 m) c).loose
  hwaits := Pipeline.hwaits_of_owed_zero _ _ _ _ Ln lvn 5 fun _ _ => rfl
  pre c := iprop(StableHlo.held (c : Thread nD τ) (Pipeline.ucRefs τ sig) (W14 m c) ∗ Rst c)
  post c := iprop(StableHlo.held (c : Thread nD τ) (Pipeline.ucRefs τ sig) (W15 m c) ∗ Rst c)
  X c := iprop(∃ r, prngReg c r)
  Y c := iprop(∃ r, prngReg c r)
  Z c := Pipeline.unscopedRest (Ix := Unit) (Name := ℕ) (U := UR sig nD τ) (Lvl := ℕ) spec5 c (U14 m c)
  hentry c := by
    rw [Pipeline.ownSems0_none]
    have hsplit := Pipeline.arrays_of_unscopedBufs (p := 5) (pcfgs (F := F)) adm (pd m) launch5.win launch5.arr_whole c
      ((pd m 5 c).share_full fun _ => rfl) (U14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 5 c).Φ 0 = Pipeline.ΦA spec5 c from rfl]; unfold Pipeline.ΦA
    iintro ⟨Hp, -, Hr⟩
    isplitl [Hr]; · iexact Hr
    iexact Hp
  hout c := by
    rw [Pipeline.ownSems0_none, show (pd m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pd m) ((pd m 5 c).share_full fun _ => rfl)
      (U14 m c) (U15 m c) ((pd m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg6.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 6 as a segment of the program: entered with every unscoped buffer at `W16`, left with them at `W17`.
    Its arrays are split out of the unscoped buffers at entry and put back, at what the pipeline leaves, at exit; the
    generator register passes through the pipeline's invariant; nothing is owed; the kernel has no semaphore of its own. -/
def rseg6 : Pipeline.RegionSeg (pcfgs (F := F)) adm (pd m) () defs₀ 𝒱n Ln lvn 6 where
  win := launch6.win.to₀
  block_pos := launch6.block_pos
  stage_whole := launch6.stage_whole
  K := PEmpty
  osem k := k.elim
  ho := Pipeline.OwnSemFacts.none _
  hbody c := (body_obligation6 (U16 m) c).loose
  hwaits := Pipeline.hwaits_of_owed_zero _ _ _ _ Ln lvn 6 fun _ _ => rfl
  pre c := iprop(StableHlo.held (c : Thread nD τ) (Pipeline.ucRefs τ sig) (W16 m c) ∗ Rst c)
  post c := iprop(StableHlo.held (c : Thread nD τ) (Pipeline.ucRefs τ sig) (W17 m c) ∗ Rst c)
  X c := iprop(∃ r, prngReg c r)
  Y c := iprop(∃ r, prngReg c r)
  Z c := Pipeline.unscopedRest (Ix := Unit) (Name := ℕ) (U := UR sig nD τ) (Lvl := ℕ) spec6 c (U16 m c)
  hentry c := by
    rw [Pipeline.ownSems0_none]
    have hsplit := Pipeline.arrays_of_unscopedBufs (p := 6) (pcfgs (F := F)) adm (pd m) launch6.win launch6.arr_whole c
      ((pd m 6 c).share_full fun _ => rfl) (U16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 6 c).Φ 0 = Pipeline.ΦA spec6 c from rfl]; unfold Pipeline.ΦA
    iintro ⟨Hp, -, Hr⟩
    isplitl [Hr]; · iexact Hr
    iexact Hp
  hout c := by
    rw [Pipeline.ownSems0_none, show (pd m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pd m) ((pd m 6 c).share_full fun _ => rfl)
      (U16 m c) (U17 m c) ((pd m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg7.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 7 as a segment of the program: entered with every unscoped buffer at `W19`, left with them at `W20`.
    Its arrays are split out of the unscoped buffers at entry and put back, at what the pipeline leaves, at exit; the
    generator register passes through the pipeline's invariant; nothing is owed; the kernel has no semaphore of its own. -/
def rseg7 : Pipeline.RegionSeg (pcfgs (F := F)) adm (pd m) () defs₀ 𝒱n Ln lvn 7 where
  win := launch7.win.to₀
  block_pos := launch7.block_pos
  stage_whole := launch7.stage_whole
  K := PEmpty
  osem k := k.elim
  ho := Pipeline.OwnSemFacts.none _
  hbody c := (body_obligation7 (U19 m) c).loose
  hwaits := Pipeline.hwaits_of_owed_zero _ _ _ _ Ln lvn 7 fun _ _ => rfl
  pre c := iprop(StableHlo.held (c : Thread nD τ) (Pipeline.ucRefs τ sig) (W19 m c) ∗ Rst c)
  post c := iprop(StableHlo.held (c : Thread nD τ) (Pipeline.ucRefs τ sig) (W20 m c) ∗ Rst c)
  X c := iprop(∃ r, prngReg c r)
  Y c := iprop(∃ r, prngReg c r)
  Z c := Pipeline.unscopedRest (Ix := Unit) (Name := ℕ) (U := UR sig nD τ) (Lvl := ℕ) spec7 c (U19 m c)
  hentry c := by
    rw [Pipeline.ownSems0_none]
    have hsplit := Pipeline.arrays_of_unscopedBufs (p := 7) (pcfgs (F := F)) adm (pd m) launch7.win launch7.arr_whole c
      ((pd m 7 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 7 c).Φ 0 = Pipeline.ΦA spec7 c from rfl]; unfold Pipeline.ΦA
    iintro ⟨Hp, -, Hr⟩
    isplitl [Hr]; · iexact Hr
    iexact Hp
  hout c := by
    rw [Pipeline.ownSems0_none, show (pd m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pd m) ((pd m 7 c).share_full fun _ => rfl)
      (U19 m c) (U20 m c) ((pd m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg8.lean ====
import proofs.«168812_j9088150798767_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 8 as a segment of the program: entered with every unscoped buffer at `W21`, left with them at `W22`.
    Its arrays are split out of the unscoped buffers at entry and put back, at what the pipeline leaves, at exit; the
    generator register passes through the pipeline's invariant; nothing is owed; the kernel has no semaphore of its own. -/
def rseg8 : Pipeline.RegionSeg (pcfgs (F := F)) adm (pd m) () defs₀ 𝒱n Ln lvn 8 where
  win := launch8.win.to₀
  block_pos := launch8.block_pos
  stage_whole := launch8.stage_whole
  K := PEmpty
  osem k := k.elim
  ho := Pipeline.OwnSemFacts.none _
  hbody c := (body_obligation8 (U21 m) c).loose
  hwaits := Pipeline.hwaits_of_owed_zero _ _ _ _ Ln lvn 8 fun _ _ => rfl
  pre c := iprop(StableHlo.held (c : Thread nD τ) (Pipeline.ucRefs τ sig) (W21 m c) ∗ Rst c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (U21 m c)
  hentry c := by
    rw [Pipeline.ownSems0_none]
    have hsplit := Pipeline.arrays_of_unscopedBufs (p := 8) (pcfgs (F := F)) adm (pd m) launch8.win launch8.arr_whole c
      ((pd m 8 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 8 c).Φ 0 = Pipeline.ΦA spec8 c from rfl]; unfold Pipeline.ΦA
    iintro ⟨Hp, -, Hr⟩
    isplitl [Hr]; · iexact Hr
    iexact Hp
  hout c := by
    rw [Pipeline.ownSems0_none, show (pd m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pd m) ((pd m 8 c).share_full fun _ => rfl)
      (U21 m c) (U22 m c) ((pd m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KIRun.lean ====
import proofs.«168812_j9088150798767_1_alg».proof.Proof.KISeg0
import proofs.«168812_j9088150798767_1_alg».proof.Proof.KISeg1
import proofs.«168812_j9088150798767_1_alg».proof.Proof.KISeg2
import proofs.«168812_j9088150798767_1_alg».proof.Proof.KISeg3
import proofs.«168812_j9088150798767_1_alg».proof.Proof.KISeg4
import proofs.«168812_j9088150798767_1_alg».proof.Proof.KISeg5
import proofs.«168812_j9088150798767_1_alg».proof.Proof.KISeg6
import proofs.«168812_j9088150798767_1_alg».proof.Proof.KISeg7
import proofs.«168812_j9088150798767_1_alg».proof.Proof.KISeg8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program's items in order: a host segment per stretch of host operations from the contents before it, a region per kernel launch. -/
abbrev mainSegs : List (Pipeline.Seg (pcfgs (F := F)) adm (pd m) () defs₀ 𝒱n Ln lvn) :=
  [ .host (hostSeg hostOps0 hostOps0_sub hostOps0_fresh (W0 m)),
    .region (rseg0 m),
    .host (hostSeg hostOps1 hostOps1_sub hostOps1_fresh (W2 m)),
    .host (hostSeg hostOps1_1 hostOps1_1_sub hostOps1_1_fresh (W3 m)),
    .region (rseg1 m),
    .host (hostSeg hostOps2 hostOps2_sub hostOps2_fresh (W5 m)),
    .region (rseg2 m),
    .host (hostSeg hostOps3 hostOps3_sub hostOps3_fresh (W7 m)),
    .host (hostSeg hostOps3_1 hostOps3_1_sub hostOps3_1_fresh (W8 m)),
    .region (rseg3 m),
    .host (hostSeg hostOps4 hostOps4_sub hostOps4_fresh (W10 m)),
    .region (rseg4 m),
    .host (hostSeg hostOps5 hostOps5_sub hostOps5_fresh (W12 m)),
    .host (hostSeg hostOps5_1 hostOps5_1_sub hostOps5_1_fresh (W13 m)),
    .region (rseg5 m),
    .host (hostSeg hostOps6 hostOps6_sub hostOps6_fresh (W15 m)),
    .region (rseg6 m),
    .host (hostSeg hostOps7 hostOps7_sub hostOps7_fresh (W17 m)),
    .host (hostSeg hostOps7_1 hostOps7_1_sub hostOps7_1_fresh (W18 m)),
    .region (rseg7 m),
    .host (hostSeg hostOps8 hostOps8_sub hostOps8_fresh (W20 m)),
    .region (rseg8 m) ]

-- the library theorem's implicit arguments are found by unifying its conclusion with this one, which takes unfolding
-- plain definitions in a metavariable's type
set_option backward.isDefEq.respectTransparency.types false in
/-- THE RUN. From any memory with zero counters, every weakly fair execution of the program on the TensorCores terminates,
    nothing faulting; in every final state the result buffer holds what the fold of the items leaves in it (`W22`: the last
    region's output array after all its write-backs) and every argument array is as launched. -/
theorem run_main (ρ : Dev nD → PrngReg) : θ_run defs (onTc (τ := τ) (main (F := F))) ⟨m, fun _ => 0, ρ⟩ (fun r => ∀ c : Dev nD,
      r.2.mem ((c.tc : Thread nD τ).loc main_v139) = W22 m c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) := by
  refine Pipeline.θ_run_regions_kit_dev (pcfgs (F := F)) adm (pd m) () cellOf_inj emb₁ defs₀ 𝒱n Ln lvn m ρ main (fun _ => mainSegs m)
    (fun c Q => by
      rewrite [main_chain c, Pipeline.Seg.run_eq_chain,
        show (mainSegs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()),
          StableHlo.seq hostOps5,
          StableHlo.seq hostOps5_1,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()) ] from rfl]
      exact .rfl)
    (fun c => by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c =>
      ⟨h c _ (mem_uc main_v139 (by decide)),
       (h c _ (mem_uc main_arg0 (by decide))).trans (W22_launch m c main_arg0 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg1 (by decide))).trans (W22_launch m c main_arg1 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg2 (by decide))).trans (W22_launch m c main_arg2 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg3 (by decide))).trans (W22_launch m c main_arg3 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg4 (by decide))).trans (W22_launch m c main_arg4 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg5 (by decide))).trans (W22_launch m c main_arg5 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg6 (by decide))).trans (W22_launch m c main_arg6 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg7 (by decide))).trans (W22_launch m c main_arg7 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg8 (by decide))).trans (W22_launch m c main_arg8 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg9 (by decide))).trans (W22_launch m c main_arg9 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg10 (by decide))).trans (W22_launch m c main_arg10 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg11 (by decide))).trans (W22_launch m c main_arg11 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg12 (by decide))).trans (W22_launch m c main_arg12 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg13 (by decide))).trans (W22_launch m c main_arg13 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg14 (by decide))).trans (W22_launch m c main_arg14 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg15 (by decide))).trans (W22_launch m c main_arg15 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg16 (by decide))).trans (W22_launch m c main_arg16 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg17 (by decide))).trans (W22_launch m c main_arg17 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg18 (by decide))).trans (W22_launch m c main_arg18 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg19 (by decide))).trans (W22_launch m c main_arg19 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg20 (by decide))).trans (W22_launch m c main_arg20 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg21 (by decide))).trans (W22_launch m c main_arg21 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg22 (by decide))).trans (W22_launch m c main_arg22 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg23 (by decide))).trans (W22_launch m c main_arg23 (by decide) (by decide) (by decide) (by decide) (by decide) (by decide) (by decide) (by decide) (by decide) (by decide) (by decide) (by decide) (by decide) (by decide) (by decide) (by decide) (by decide) (by decide) (by decide) (by decide) (by decide) (by decide)),
       (h c _ (mem_uc main_arg24 (by decide))).trans (W22_launch m c main_arg24 (by decide) (by decide) (by decide) (by decide) (by decide) (by decide) (by decide) (by decide) (by decide) (by decide) (by decide) (by decide) (by decide) (by decide) (by decide) (by decide) (by decide) (by decide) (by decide) (by decide) (by decide) (by decide))⟩)

end Cert.KernelIdeal.Hand

end
-- ==== Proof.RefRunDefs.lean ====
/- The reference's result as one pure term of its 25 argument arrays, built from named pieces: each piece is the
   composition of the host operations of one part of the network (the edge indices, their wrap, the aggregation input of
   a layer, a dense layer with its rectifier, the batch mean and variance, the normalisation, the parameter slices, the
   pooling, the classifier's layers, the log-softmax), as a function of that part's inputs, for any float values `F`;
   `res_<buffer>` is the value of a buffer as a function of the arguments, each the piece applied to the earlier ones;
   `result` is the last, at the ideal instance. -/
import proofs.«168812_j9088150798767_1_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
def src (x0 : (⟨S2x1600000, .i32⟩ : BufTy).Contents (Elt F)) :
    (⟨S1600000, .i32⟩ : BufTy).Contents (Elt F) :=
  shapeCast S1600000 (extractStridedSlice S1x1600000 ![0, 0] x0 slices_S2x1600000_S1x1600000_0_0) shapeCasts_S1x1600000_S1600000

def dst (x0 : (⟨S2x1600000, .i32⟩ : BufTy).Contents (Elt F)) :
    (⟨S1600000, .i32⟩ : BufTy).Contents (Elt F) :=
  shapeCast S1600000 (extractStridedSlice S1x1600000 ![1, 0] x0 slices_S2x1600000_S1x1600000_1_0) shapeCasts_S1x1600000_S1600000

def aggIn16 (x0 : (⟨S_, .f32⟩ : BufTy).Contents (Elt F)) (x1 : (⟨S100000x16, .f32⟩ : BufTy).Contents (Elt F)) (x2 : (⟨S1600000, .i32⟩ : BufTy).Contents (Elt F)) (x3 : (⟨S1600000, .i32⟩ : BufTy).Contents (Elt F)) :
    (⟨S100000x16, .f32⟩ : BufTy).Contents (Elt F) :=
  addf (mulf (broadcastInDim S100000x16 ![] bcast_S_S100000x16 (addf (constant (F := F) S_ .f32 0x3F800000#32) x0)) x1) (Host.scatterAdd scatter_S100000x16_S1600000x1_S1600000x16_1_0_0_1 (broadcastInDim S100000x16 ![] bcast_S_S100000x16 (constant (F := F) S_ .f32 0x00000000#32)) (broadcastInDim S1600000x1 ![0] bcast_S1600000_S1600000x1_0 x2) (Host.gather gather_S100000x16_S1600000x1_S1600000x16_1_0_n_n_0_1_116 x1 (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 100000#32))) x3))))

def dense16 (x0 : (⟨S100000x16, .f32⟩ : BufTy).Contents (Elt F)) (x1 : (⟨S16x128, .f32⟩ : BufTy).Contents (Elt F)) (x2 : (⟨S128, .f32⟩ : BufTy).Contents (Elt F)) :
    (⟨S100000x128, .f32⟩ : BufTy).Contents (Elt F) :=
  maximumf (addf (Host.dotGeneral dot_S100000x16_S16x128_S100000x128_1_0_0_1_n_n none x0 x1) (broadcastInDim S100000x128 ![0, 1] bcast_S1x128_S100000x128_0_1 (broadcastInDim S1x128 ![1] bcast_S128_S1x128_1 x2))) (broadcastInDim S100000x128 ![] bcast_S_S100000x128 (constant (F := F) S_ .f32 0x00000000#32))

def dense128 (x0 : (⟨S100000x128, .f32⟩ : BufTy).Contents (Elt F)) (x1 : (⟨S128x128, .f32⟩ : BufTy).Contents (Elt F)) (x2 : (⟨S128, .f32⟩ : BufTy).Contents (Elt F)) :
    (⟨S100000x128, .f32⟩ : BufTy).Contents (Elt F) :=
  maximumf (addf (Host.dotGeneral dot_S100000x128_S128x128_S100000x128_1_0_0_1_n_n none x0 x1) (broadcastInDim S100000x128 ![0, 1] bcast_S1x128_S100000x128_0_1 (broadcastInDim S1x128 ![1] bcast_S128_S1x128_1 x2))) (broadcastInDim S100000x128 ![] bcast_S_S100000x128 (constant (F := F) S_ .f32 0x00000000#32))

def colMean (x0 : (⟨S100000x128, .f32⟩ : BufTy).Contents (Elt F)) :
    (⟨S128, .f32⟩ : BufTy).Contents (Elt F) :=
  Host.divf (Host.reduceAdd x0 (constant (F := F) S_ .f32 0x00000000#32) reducesTo_S100000x128_S128_d0 h_S_) (broadcastInDim S128 ![] bcast_S_S128 (constant (F := F) S_ .f32 0x47C35000#32))

def colVar (x0 : (⟨S100000x128, .f32⟩ : BufTy).Contents (Elt F)) :
    (⟨S128, .f32⟩ : BufTy).Contents (Elt F) :=
  select (broadcastInDim S128 ![] bcast_S_S128 (cmpf .ogt (subf (constant (F := F) S_ .f32 0x47C35000#32) (sitofp (F := F) .f32 (constantI S_ 32 0#32))) (constant (F := F) S_ .f32 0x00000000#32))) (Host.divf (Host.reduceAdd (mulf (subf x0 (broadcastInDim S100000x128 ![0, 1] bcast_S1x128_S100000x128_0_1 (Host.divf (broadcastInDim S1x128 ![1] bcast_S128_S1x128_1 (Host.reduceAdd x0 (constant (F := F) S_ .f32 0x00000000#32) reducesTo_S100000x128_S128_d0 h_S_)) (broadcastInDim S1x128 ![] bcast_S_S1x128 (constant (F := F) S_ .f32 0x47C35000#32))))) (subf x0 (broadcastInDim S100000x128 ![0, 1] bcast_S1x128_S100000x128_0_1 (Host.divf (broadcastInDim S1x128 ![1] bcast_S128_S1x128_1 (Host.reduceAdd x0 (constant (F := F) S_ .f32 0x00000000#32) reducesTo_S100000x128_S128_d0 h_S_)) (broadcastInDim S1x128 ![] bcast_S_S1x128 (constant (F := F) S_ .f32 0x47C35000#32)))))) (constant (F := F) S_ .f32 0x00000000#32) reducesTo_S100000x128_S128_d0 h_S_) (broadcastInDim S128 ![] bcast_S_S128 (subf (constant (F := F) S_ .f32 0x47C35000#32) (sitofp (F := F) .f32 (constantI S_ 32 0#32))))) (broadcastInDim S128 ![] bcast_S_S128 (constant (F := F) S_ .f32 0x7FC00000#32))

def normalize (x0 : (⟨S128, .f32⟩ : BufTy).Contents (Elt F)) (x1 : (⟨S100000x128, .f32⟩ : BufTy).Contents (Elt F)) (x2 : (⟨S128, .f32⟩ : BufTy).Contents (Elt F)) (x3 : (⟨S128, .f32⟩ : BufTy).Contents (Elt F)) (x4 : (⟨S128, .f32⟩ : BufTy).Contents (Elt F)) :
    (⟨S100000x128, .f32⟩ : BufTy).Contents (Elt F) :=
  addf (mulf (mulf (broadcastInDim S100000x128 ![0, 1] bcast_S1x128_S100000x128_0_1 (broadcastInDim S1x128 ![1] bcast_S128_S1x128_1 x0)) (subf x1 (broadcastInDim S100000x128 ![0, 1] bcast_S1x128_S100000x128_0_1 (broadcastInDim S1x128 ![1] bcast_S128_S1x128_1 x2)))) (broadcastInDim S100000x128 ![0, 1] bcast_S1x128_S100000x128_0_1 (broadcastInDim S1x128 ![1] bcast_S128_S1x128_1 (Host.rsqrt (addf x3 (broadcastInDim S128 ![] bcast_S_S128 (constant (F := F) S_ .f32 0x3727C5AC#32))))))) (broadcastInDim S100000x128 ![0, 1] bcast_S1x128_S100000x128_0_1 (broadcastInDim S1x128 ![1] bcast_S128_S1x128_1 x4))

def epsOf1 (x0 : (⟨S3, .f32⟩ : BufTy).Contents (Elt F)) :
    (⟨S_, .f32⟩ : BufTy).Contents (Elt F) :=
  shapeCast S_ (extractStridedSlice S1 ![0] x0 slices_S3_S1_0) shapeCasts_S1_S_

def matOf1 (x0 : (⟨S3x128x128, .f32⟩ : BufTy).Contents (Elt F)) :
    (⟨S128x128, .f32⟩ : BufTy).Contents (Elt F) :=
  shapeCast S128x128 (extractStridedSlice S1x128x128 ![0, 0, 0] x0 slices_S3x128x128_S1x128x128_0_0_0) shapeCasts_S1x128x128_S128x128

def rowOf1 (x0 : (⟨S3x128, .f32⟩ : BufTy).Contents (Elt F)) :
    (⟨S128, .f32⟩ : BufTy).Contents (Elt F) :=
  shapeCast S128 (extractStridedSlice S1x128 ![0, 0] x0 slices_S3x128_S1x128_0_0) shapeCasts_S1x128_S128

def aggIn128 (x0 : (⟨S_, .f32⟩ : BufTy).Contents (Elt F)) (x1 : (⟨S100000x128, .f32⟩ : BufTy).Contents (Elt F)) (x2 : (⟨S1600000, .i32⟩ : BufTy).Contents (Elt F)) (x3 : (⟨S1600000, .i32⟩ : BufTy).Contents (Elt F)) :
    (⟨S100000x128, .f32⟩ : BufTy).Contents (Elt F) :=
  addf (mulf (broadcastInDim S100000x128 ![] bcast_S_S100000x128 (addf (constant (F := F) S_ .f32 0x3F800000#32) x0)) x1) (Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 x2) (Host.gather gather_S100000x128_S1600000x1_S1600000x128_1_0_n_n_0_1_1128 x1 (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 100000#32))) x3))))

def epsOf2 (x0 : (⟨S3, .f32⟩ : BufTy).Contents (Elt F)) :
    (⟨S_, .f32⟩ : BufTy).Contents (Elt F) :=
  shapeCast S_ (extractStridedSlice S1 ![1] x0 slices_S3_S1_1) shapeCasts_S1_S_

def matOf2 (x0 : (⟨S3x128x128, .f32⟩ : BufTy).Contents (Elt F)) :
    (⟨S128x128, .f32⟩ : BufTy).Contents (Elt F) :=
  shapeCast S128x128 (extractStridedSlice S1x128x128 ![1, 0, 0] x0 slices_S3x128x128_S1x128x128_1_0_0) shapeCasts_S1x128x128_S128x128

def rowOf2 (x0 : (⟨S3x128, .f32⟩ : BufTy).Contents (Elt F)) :
    (⟨S128, .f32⟩ : BufTy).Contents (Elt F) :=
  shapeCast S128 (extractStridedSlice S1x128 ![1, 0] x0 slices_S3x128_S1x128_1_0) shapeCasts_S1x128_S128

def epsOf3 (x0 : (⟨S3, .f32⟩ : BufTy).Contents (Elt F)) :
    (⟨S_, .f32⟩ : BufTy).Contents (Elt F) :=
  shapeCast S_ (extractStridedSlice S1 ![2] x0 slices_S3_S1_2) shapeCasts_S1_S_

def matOf3 (x0 : (⟨S3x128x128, .f32⟩ : BufTy).Contents (Elt F)) :
    (⟨S128x128, .f32⟩ : BufTy).Contents (Elt F) :=
  shapeCast S128x128 (extractStridedSlice S1x128x128 ![2, 0, 0] x0 slices_S3x128x128_S1x128x128_2_0_0) shapeCasts_S1x128x128_S128x128

def rowOf3 (x0 : (⟨S3x128, .f32⟩ : BufTy).Contents (Elt F)) :
    (⟨S128, .f32⟩ : BufTy).Contents (Elt F) :=
  shapeCast S128 (extractStridedSlice S1x128 ![2, 0] x0 slices_S3x128_S1x128_2_0) shapeCasts_S1x128_S128

def concat (x0 : (⟨S100000x128, .f32⟩ : BufTy).Contents (Elt F)) (x1 : (⟨S100000x128, .f32⟩ : BufTy).Contents (Elt F)) (x2 : (⟨S100000x128, .f32⟩ : BufTy).Contents (Elt F)) (x3 : (⟨S100000x128, .f32⟩ : BufTy).Contents (Elt F)) :
    (⟨S100000x512, .f32⟩ : BufTy).Contents (Elt F) :=
  concatenate S100000x512 1 [⟨S100000x128, x0⟩, ⟨S100000x128, x1⟩, ⟨S100000x128, x2⟩, ⟨S100000x128, x3⟩] concatenates_S100000x128_S100000x128_S100000x128_S100000x128_S100000x512_d1

def poolSums (x0 : (⟨S100000, .i32⟩ : BufTy).Contents (Elt F)) (x1 : (⟨S100000x512, .f32⟩ : BufTy).Contents (Elt F)) :
    (⟨S64x512, .f32⟩ : BufTy).Contents (Elt F) :=
  Host.scatterAdd scatter_S64x512_S100000x1_S100000x512_1_0_0_1 (broadcastInDim S64x512 ![] bcast_S_S64x512 (constant (F := F) S_ .f32 0x00000000#32)) (broadcastInDim S100000x1 ![0] bcast_S100000_S100000x1_0 x0) x1

def poolCounts (x0 : (⟨S100000, .i32⟩ : BufTy).Contents (Elt F)) :
    (⟨S64, .f32⟩ : BufTy).Contents (Elt F) :=
  maximumf (Host.scatterAdd scatter_S64_S100000x1_S100000_n_0_0_1 (broadcastInDim S64 ![] bcast_S_S64 (constant (F := F) S_ .f32 0x00000000#32)) (broadcastInDim S100000x1 ![0] bcast_S100000_S100000x1_0 x0) (broadcastInDim S100000 ![] bcast_S_S100000 (constant (F := F) S_ .f32 0x3F800000#32))) (broadcastInDim S64 ![] bcast_S_S64 (constant (F := F) S_ .f32 0x3F800000#32))

def pooled (x0 : (⟨S64x512, .f32⟩ : BufTy).Contents (Elt F)) (x1 : (⟨S64, .f32⟩ : BufTy).Contents (Elt F)) :
    (⟨S64x512, .f32⟩ : BufTy).Contents (Elt F) :=
  Host.divf x0 (broadcastInDim S64x512 ![0, 1] bcast_S64x1_S64x512_0_1 (broadcastInDim S64x1 ![0] bcast_S64_S64x1_0 x1))

def cls1 (x0 : (⟨S64x512, .f32⟩ : BufTy).Contents (Elt F)) (x1 : (⟨S512x256, .f32⟩ : BufTy).Contents (Elt F)) (x2 : (⟨S256, .f32⟩ : BufTy).Contents (Elt F)) :
    (⟨S64x256, .f32⟩ : BufTy).Contents (Elt F) :=
  maximumf (addf (Host.dotGeneral dot_S64x512_S512x256_S64x256_1_0_0_1_n_n none x0 x1) (broadcastInDim S64x256 ![0, 1] bcast_S1x256_S64x256_0_1 (broadcastInDim S1x256 ![1] bcast_S256_S1x256_1 x2))) (broadcastInDim S64x256 ![] bcast_S_S64x256 (constant (F := F) S_ .f32 0x00000000#32))

def cls2 (x0 : (⟨S64x256, .f32⟩ : BufTy).Contents (Elt F)) (x1 : (⟨S256x128, .f32⟩ : BufTy).Contents (Elt F)) (x2 : (⟨S128, .f32⟩ : BufTy).Contents (Elt F)) :
    (⟨S64x128, .f32⟩ : BufTy).Contents (Elt F) :=
  maximumf (addf (Host.dotGeneral dot_S64x256_S256x128_S64x128_1_0_0_1_n_n none x0 x1) (broadcastInDim S64x128 ![0, 1] bcast_S1x128_S64x128_0_1 (broadcastInDim S1x128 ![1] bcast_S128_S1x128_1 x2))) (broadcastInDim S64x128 ![] bcast_S_S64x128 (constant (F := F) S_ .f32 0x00000000#32))

def cls3 (x0 : (⟨S64x128, .f32⟩ : BufTy).Contents (Elt F)) (x1 : (⟨S128x128, .f32⟩ : BufTy).Contents (Elt F)) (x2 : (⟨S128, .f32⟩ : BufTy).Contents (Elt F)) :
    (⟨S64x128, .f32⟩ : BufTy).Contents (Elt F) :=
  maximumf (addf (Host.dotGeneral dot_S64x128_S128x128_S64x128_1_0_0_1_n_n none x0 x1) (broadcastInDim S64x128 ![0, 1] bcast_S1x128_S64x128_0_1 (broadcastInDim S1x128 ![1] bcast_S128_S1x128_1 x2))) (broadcastInDim S64x128 ![] bcast_S_S64x128 (constant (F := F) S_ .f32 0x00000000#32))

def cls4 (x0 : (⟨S64x128, .f32⟩ : BufTy).Contents (Elt F)) (x1 : (⟨S128x10, .f32⟩ : BufTy).Contents (Elt F)) (x2 : (⟨S10, .f32⟩ : BufTy).Contents (Elt F)) :
    (⟨S64x10, .f32⟩ : BufTy).Contents (Elt F) :=
  addf (Host.dotGeneral dot_S64x128_S128x10_S64x10_1_0_0_1_n_n none x0 x1) (broadcastInDim S64x10 ![0, 1] bcast_S1x10_S64x10_0_1 (broadcastInDim S1x10 ![1] bcast_S10_S1x10_1 x2))

def logSoftmax (x0 : (⟨S64x10, .f32⟩ : BufTy).Contents (Elt F)) :
    (⟨S64x10, .f32⟩ : BufTy).Contents (Elt F) :=
  subf (subf x0 (broadcastInDim S64x10 ![0, 1] bcast_S64x1_S64x10_0_1 (broadcastInDim S64x1 ![0] bcast_S64_S64x1_0 (maximumf (broadcastInDim S64 ![] bcast_S_S64 (constant (F := F) S_ .f32 0xFF800000#32)) (Host.reduce FloatOps.maximumf x0 (constant (F := F) S_ .f32 0xFF800000#32) reducesTo_S64x10_S64_d1 h_S_))))) (broadcastInDim S64x10 ![0, 1] bcast_S64x1_S64x10_0_1 (Host.log (broadcastInDim S64x1 ![0] bcast_S64_S64x1_0 (Host.reduceAdd (Host.exp (subf x0 (broadcastInDim S64x10 ![0, 1] bcast_S64x1_S64x10_0_1 (broadcastInDim S64x1 ![0] bcast_S64_S64x1_0 (maximumf (broadcastInDim S64 ![] bcast_S_S64 (constant (F := F) S_ .f32 0xFF800000#32)) (Host.reduce FloatOps.maximumf x0 (constant (F := F) S_ .f32 0xFF800000#32) reducesTo_S64x10_S64_d1 h_S_)))))) (constant (F := F) S_ .f32 0x00000000#32) reducesTo_S64x10_S64_d1 h_S_))))

def res_main_v1 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S1600000, .i32⟩ : BufTy).Contents (Elt F) :=
  src (F := F) a1

def res_main_v3 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S1600000, .i32⟩ : BufTy).Contents (Elt F) :=
  dst (F := F) a1

def res_main_v17 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x16, .f32⟩ : BufTy).Contents (Elt F) :=
  aggIn16 (F := F) a9 a0 (res_main_v3 (F := F) a0 a1 a2 a3 a4 a5 a6 a7 a8 a9 a10 a11 a12 a13 a14 a15 a16 a17 a18 a19 a20 a21 a22 a23 a24) (res_main_v1 (F := F) a0 a1 a2 a3 a4 a5 a6 a7 a8 a9 a10 a11 a12 a13 a14 a15 a16 a17 a18 a19 a20 a21 a22 a23 a24)

def res_main_v22 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense16 (F := F) (res_main_v17 (F := F) a0 a1 a2 a3 a4 a5 a6 a7 a8 a9 a10 a11 a12 a13 a14 a15 a16 a17 a18 a19 a20 a21 a22 a23 a24) a3 a4

def res_main_v27 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense128 (F := F) (res_main_v22 (F := F) a0 a1 a2 a3 a4 a5 a6 a7 a8 a9 a10 a11 a12 a13 a14 a15 a16 a17 a18 a19 a20 a21 a22 a23 a24) a5 a6

def res_main_v30 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colMean (F := F) (res_main_v27 (F := F) a0 a1 a2 a3 a4 a5 a6 a7 a8 a9 a10 a11 a12 a13 a14 a15 a16 a17 a18 a19 a20 a21 a22 a23 a24)

def res_main_v31 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colVar (F := F) (res_main_v27 (F := F) a0 a1 a2 a3 a4 a5 a6 a7 a8 a9 a10 a11 a12 a13 a14 a15 a16 a17 a18 a19 a20 a21 a22 a23 a24)

def res_main_v46 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  normalize (F := F) a7 (res_main_v27 (F := F) a0 a1 a2 a3 a4 a5 a6 a7 a8 a9 a10 a11 a12 a13 a14 a15 a16 a17 a18 a19 a20 a21 a22 a23 a24) (res_main_v30 (F := F) a0 a1 a2 a3 a4 a5 a6 a7 a8 a9 a10 a11 a12 a13 a14 a15 a16 a17 a18 a19 a20 a21 a22 a23 a24) (res_main_v31 (F := F) a0 a1 a2 a3 a4 a5 a6 a7 a8 a9 a10 a11 a12 a13 a14 a15 a16 a17 a18 a19 a20 a21 a22 a23 a24) a8

def res_main_v48 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S_, .f32⟩ : BufTy).Contents (Elt F) :=
  epsOf1 (F := F) a16

def res_main_v50 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128x128, .f32⟩ : BufTy).Contents (Elt F) :=
  matOf1 (F := F) a10

def res_main_v52 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf1 (F := F) a11

def res_main_v54 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128x128, .f32⟩ : BufTy).Contents (Elt F) :=
  matOf1 (F := F) a12

def res_main_v56 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf1 (F := F) a13

def res_main_v58 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf1 (F := F) a14

def res_main_v60 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf1 (F := F) a15

def res_main_v74 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  aggIn128 (F := F) (res_main_v48 (F := F) a0 a1 a2 a3 a4 a5 a6 a7 a8 a9 a10 a11 a12 a13 a14 a15 a16 a17 a18 a19 a20 a21 a22 a23 a24) (res_main_v46 (F := F) a0 a1 a2 a3 a4 a5 a6 a7 a8 a9 a10 a11 a12 a13 a14 a15 a16 a17 a18 a19 a20 a21 a22 a23 a24) (res_main_v3 (F := F) a0 a1 a2 a3 a4 a5 a6 a7 a8 a9 a10 a11 a12 a13 a14 a15 a16 a17 a18 a19 a20 a21 a22 a23 a24) (res_main_v1 (F := F) a0 a1 a2 a3 a4 a5 a6 a7 a8 a9 a10 a11 a12 a13 a14 a15 a16 a17 a18 a19 a20 a21 a22 a23 a24)

def res_main_v79 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense128 (F := F) (res_main_v74 (F := F) a0 a1 a2 a3 a4 a5 a6 a7 a8 a9 a10 a11 a12 a13 a14 a15 a16 a17 a18 a19 a20 a21 a22 a23 a24) (res_main_v50 (F := F) a0 a1 a2 a3 a4 a5 a6 a7 a8 a9 a10 a11 a12 a13 a14 a15 a16 a17 a18 a19 a20 a21 a22 a23 a24) (res_main_v52 (F := F) a0 a1 a2 a3 a4 a5 a6 a7 a8 a9 a10 a11 a12 a13 a14 a15 a16 a17 a18 a19 a20 a21 a22 a23 a24)

def res_main_v84 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense128 (F := F) (res_main_v79 (F := F) a0 a1 a2 a3 a4 a5 a6 a7 a8 a9 a10 a11 a12 a13 a14 a15 a16 a17 a18 a19 a20 a21 a22 a23 a24) (res_main_v54 (F := F) a0 a1 a2 a3 a4 a5 a6 a7 a8 a9 a10 a11 a12 a13 a14 a15 a16 a17 a18 a19 a20 a21 a22 a23 a24) (res_main_v56 (F := F) a0 a1 a2 a3 a4 a5 a6 a7 a8 a9 a10 a11 a12 a13 a14 a15 a16 a17 a18 a19 a20 a21 a22 a23 a24)

def res_main_v87 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colMean (F := F) (res_main_v84 (F := F) a0 a1 a2 a3 a4 a5 a6 a7 a8 a9 a10 a11 a12 a13 a14 a15 a16 a17 a18 a19 a20 a21 a22 a23 a24)

def res_main_v88 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colVar (F := F) (res_main_v84 (F := F) a0 a1 a2 a3 a4 a5 a6 a7 a8 a9 a10 a11 a12 a13 a14 a15 a16 a17 a18 a19 a20 a21 a22 a23 a24)

def res_main_v103 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  normalize (F := F) (res_main_v58 (F := F) a0 a1 a2 a3 a4 a5 a6 a7 a8 a9 a10 a11 a12 a13 a14 a15 a16 a17 a18 a19 a20 a21 a22 a23 a24) (res_main_v84 (F := F) a0 a1 a2 a3 a4 a5 a6 a7 a8 a9 a10 a11 a12 a13 a14 a15 a16 a17 a18 a19 a20 a21 a22 a23 a24) (res_main_v87 (F := F) a0 a1 a2 a3 a4 a5 a6 a7 a8 a9 a10 a11 a12 a13 a14 a15 a16 a17 a18 a19 a20 a21 a22 a23 a24) (res_main_v88 (F := F) a0 a1 a2 a3 a4 a5 a6 a7 a8 a9 a10 a11 a12 a13 a14 a15 a16 a17 a18 a19 a20 a21 a22 a23 a24) (res_main_v60 (F := F) a0 a1 a2 a3 a4 a5 a6 a7 a8 a9 a10 a11 a12 a13 a14 a15 a16 a17 a18 a19 a20 a21 a22 a23 a24)

def res_main_v105 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S_, .f32⟩ : BufTy).Contents (Elt F) :=
  epsOf2 (F := F) a16

def res_main_v107 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128x128, .f32⟩ : BufTy).Contents (Elt F) :=
  matOf2 (F := F) a10

def res_main_v109 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf2 (F := F) a11

def res_main_v111 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128x128, .f32⟩ : BufTy).Contents (Elt F) :=
  matOf2 (F := F) a12

def res_main_v113 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf2 (F := F) a13

def res_main_v115 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf2 (F := F) a14

def res_main_v117 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf2 (F := F) a15

def res_main_v131 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  aggIn128 (F := F) (res_main_v105 (F := F) a0 a1 a2 a3 a4 a5 a6 a7 a8 a9 a10 a11 a12 a13 a14 a15 a16 a17 a18 a19 a20 a21 a22 a23 a24) (res_main_v103 (F := F) a0 a1 a2 a3 a4 a5 a6 a7 a8 a9 a10 a11 a12 a13 a14 a15 a16 a17 a18 a19 a20 a21 a22 a23 a24) (res_main_v3 (F := F) a0 a1 a2 a3 a4 a5 a6 a7 a8 a9 a10 a11 a12 a13 a14 a15 a16 a17 a18 a19 a20 a21 a22 a23 a24) (res_main_v1 (F := F) a0 a1 a2 a3 a4 a5 a6 a7 a8 a9 a10 a11 a12 a13 a14 a15 a16 a17 a18 a19 a20 a21 a22 a23 a24)

def res_main_v136 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense128 (F := F) (res_main_v131 (F := F) a0 a1 a2 a3 a4 a5 a6 a7 a8 a9 a10 a11 a12 a13 a14 a15 a16 a17 a18 a19 a20 a21 a22 a23 a24) (res_main_v107 (F := F) a0 a1 a2 a3 a4 a5 a6 a7 a8 a9 a10 a11 a12 a13 a14 a15 a16 a17 a18 a19 a20 a21 a22 a23 a24) (res_main_v109 (F := F) a0 a1 a2 a3 a4 a5 a6 a7 a8 a9 a10 a11 a12 a13 a14 a15 a16 a17 a18 a19 a20 a21 a22 a23 a24)

def res_main_v141 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense128 (F := F) (res_main_v136 (F := F) a0 a1 a2 a3 a4 a5 a6 a7 a8 a9 a10 a11 a12 a13 a14 a15 a16 a17 a18 a19 a20 a21 a22 a23 a24) (res_main_v111 (F := F) a0 a1 a2 a3 a4 a5 a6 a7 a8 a9 a10 a11 a12 a13 a14 a15 a16 a17 a18 a19 a20 a21 a22 a23 a24) (res_main_v113 (F := F) a0 a1 a2 a3 a4 a5 a6 a7 a8 a9 a10 a11 a12 a13 a14 a15 a16 a17 a18 a19 a20 a21 a22 a23 a24)

def res_main_v144 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colMean (F := F) (res_main_v141 (F := F) a0 a1 a2 a3 a4 a5 a6 a7 a8 a9 a10 a11 a12 a13 a14 a15 a16 a17 a18 a19 a20 a21 a22 a23 a24)

def res_main_v145 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colVar (F := F) (res_main_v141 (F := F) a0 a1 a2 a3 a4 a5 a6 a7 a8 a9 a10 a11 a12 a13 a14 a15 a16 a17 a18 a19 a20 a21 a22 a23 a24)

def res_main_v160 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  normalize (F := F) (res_main_v115 (F := F) a0 a1 a2 a3 a4 a5 a6 a7 a8 a9 a10 a11 a12 a13 a14 a15 a16 a17 a18 a19 a20 a21 a22 a23 a24) (res_main_v141 (F := F) a0 a1 a2 a3 a4 a5 a6 a7 a8 a9 a10 a11 a12 a13 a14 a15 a16 a17 a18 a19 a20 a21 a22 a23 a24) (res_main_v144 (F := F) a0 a1 a2 a3 a4 a5 a6 a7 a8 a9 a10 a11 a12 a13 a14 a15 a16 a17 a18 a19 a20 a21 a22 a23 a24) (res_main_v145 (F := F) a0 a1 a2 a3 a4 a5 a6 a7 a8 a9 a10 a11 a12 a13 a14 a15 a16 a17 a18 a19 a20 a21 a22 a23 a24) (res_main_v117 (F := F) a0 a1 a2 a3 a4 a5 a6 a7 a8 a9 a10 a11 a12 a13 a14 a15 a16 a17 a18 a19 a20 a21 a22 a23 a24)

def res_main_v162 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S_, .f32⟩ : BufTy).Contents (Elt F) :=
  epsOf3 (F := F) a16

def res_main_v164 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128x128, .f32⟩ : BufTy).Contents (Elt F) :=
  matOf3 (F := F) a10

def res_main_v166 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf3 (F := F) a11

def res_main_v168 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128x128, .f32⟩ : BufTy).Contents (Elt F) :=
  matOf3 (F := F) a12

def res_main_v170 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf3 (F := F) a13

def res_main_v172 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf3 (F := F) a14

def res_main_v174 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  rowOf3 (F := F) a15

def res_main_v188 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  aggIn128 (F := F) (res_main_v162 (F := F) a0 a1 a2 a3 a4 a5 a6 a7 a8 a9 a10 a11 a12 a13 a14 a15 a16 a17 a18 a19 a20 a21 a22 a23 a24) (res_main_v160 (F := F) a0 a1 a2 a3 a4 a5 a6 a7 a8 a9 a10 a11 a12 a13 a14 a15 a16 a17 a18 a19 a20 a21 a22 a23 a24) (res_main_v3 (F := F) a0 a1 a2 a3 a4 a5 a6 a7 a8 a9 a10 a11 a12 a13 a14 a15 a16 a17 a18 a19 a20 a21 a22 a23 a24) (res_main_v1 (F := F) a0 a1 a2 a3 a4 a5 a6 a7 a8 a9 a10 a11 a12 a13 a14 a15 a16 a17 a18 a19 a20 a21 a22 a23 a24)

def res_main_v193 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense128 (F := F) (res_main_v188 (F := F) a0 a1 a2 a3 a4 a5 a6 a7 a8 a9 a10 a11 a12 a13 a14 a15 a16 a17 a18 a19 a20 a21 a22 a23 a24) (res_main_v164 (F := F) a0 a1 a2 a3 a4 a5 a6 a7 a8 a9 a10 a11 a12 a13 a14 a15 a16 a17 a18 a19 a20 a21 a22 a23 a24) (res_main_v166 (F := F) a0 a1 a2 a3 a4 a5 a6 a7 a8 a9 a10 a11 a12 a13 a14 a15 a16 a17 a18 a19 a20 a21 a22 a23 a24)

def res_main_v198 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  dense128 (F := F) (res_main_v193 (F := F) a0 a1 a2 a3 a4 a5 a6 a7 a8 a9 a10 a11 a12 a13 a14 a15 a16 a17 a18 a19 a20 a21 a22 a23 a24) (res_main_v168 (F := F) a0 a1 a2 a3 a4 a5 a6 a7 a8 a9 a10 a11 a12 a13 a14 a15 a16 a17 a18 a19 a20 a21 a22 a23 a24) (res_main_v170 (F := F) a0 a1 a2 a3 a4 a5 a6 a7 a8 a9 a10 a11 a12 a13 a14 a15 a16 a17 a18 a19 a20 a21 a22 a23 a24)

def res_main_v201 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colMean (F := F) (res_main_v198 (F := F) a0 a1 a2 a3 a4 a5 a6 a7 a8 a9 a10 a11 a12 a13 a14 a15 a16 a17 a18 a19 a20 a21 a22 a23 a24)

def res_main_v202 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S128, .f32⟩ : BufTy).Contents (Elt F) :=
  colVar (F := F) (res_main_v198 (F := F) a0 a1 a2 a3 a4 a5 a6 a7 a8 a9 a10 a11 a12 a13 a14 a15 a16 a17 a18 a19 a20 a21 a22 a23 a24)

def res_main_v217 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x128, .f32⟩ : BufTy).Contents (Elt F) :=
  normalize (F := F) (res_main_v172 (F := F) a0 a1 a2 a3 a4 a5 a6 a7 a8 a9 a10 a11 a12 a13 a14 a15 a16 a17 a18 a19 a20 a21 a22 a23 a24) (res_main_v198 (F := F) a0 a1 a2 a3 a4 a5 a6 a7 a8 a9 a10 a11 a12 a13 a14 a15 a16 a17 a18 a19 a20 a21 a22 a23 a24) (res_main_v201 (F := F) a0 a1 a2 a3 a4 a5 a6 a7 a8 a9 a10 a11 a12 a13 a14 a15 a16 a17 a18 a19 a20 a21 a22 a23 a24) (res_main_v202 (F := F) a0 a1 a2 a3 a4 a5 a6 a7 a8 a9 a10 a11 a12 a13 a14 a15 a16 a17 a18 a19 a20 a21 a22 a23 a24) (res_main_v174 (F := F) a0 a1 a2 a3 a4 a5 a6 a7 a8 a9 a10 a11 a12 a13 a14 a15 a16 a17 a18 a19 a20 a21 a22 a23 a24)

def res_main_v218 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S100000x512, .f32⟩ : BufTy).Contents (Elt F) :=
  concat (F := F) (res_main_v46 (F := F) a0 a1 a2 a3 a4 a5 a6 a7 a8 a9 a10 a11 a12 a13 a14 a15 a16 a17 a18 a19 a20 a21 a22 a23 a24) (res_main_v103 (F := F) a0 a1 a2 a3 a4 a5 a6 a7 a8 a9 a10 a11 a12 a13 a14 a15 a16 a17 a18 a19 a20 a21 a22 a23 a24) (res_main_v160 (F := F) a0 a1 a2 a3 a4 a5 a6 a7 a8 a9 a10 a11 a12 a13 a14 a15 a16 a17 a18 a19 a20 a21 a22 a23 a24) (res_main_v217 (F := F) a0 a1 a2 a3 a4 a5 a6 a7 a8 a9 a10 a11 a12 a13 a14 a15 a16 a17 a18 a19 a20 a21 a22 a23 a24)

def res_main_v221 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64x512, .f32⟩ : BufTy).Contents (Elt F) :=
  poolSums (F := F) a2 (res_main_v218 (F := F) a0 a1 a2 a3 a4 a5 a6 a7 a8 a9 a10 a11 a12 a13 a14 a15 a16 a17 a18 a19 a20 a21 a22 a23 a24)

def res_main_v227 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64, .f32⟩ : BufTy).Contents (Elt F) :=
  poolCounts (F := F) a2

def res_main_v230 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64x512, .f32⟩ : BufTy).Contents (Elt F) :=
  pooled (F := F) (res_main_v221 (F := F) a0 a1 a2 a3 a4 a5 a6 a7 a8 a9 a10 a11 a12 a13 a14 a15 a16 a17 a18 a19 a20 a21 a22 a23 a24) (res_main_v227 (F := F) a0 a1 a2 a3 a4 a5 a6 a7 a8 a9 a10 a11 a12 a13 a14 a15 a16 a17 a18 a19 a20 a21 a22 a23 a24)

def res_main_v235 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64x256, .f32⟩ : BufTy).Contents (Elt F) :=
  cls1 (F := F) (res_main_v230 (F := F) a0 a1 a2 a3 a4 a5 a6 a7 a8 a9 a10 a11 a12 a13 a14 a15 a16 a17 a18 a19 a20 a21 a22 a23 a24) a17 a18

def res_main_v240 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64x128, .f32⟩ : BufTy).Contents (Elt F) :=
  cls2 (F := F) (res_main_v235 (F := F) a0 a1 a2 a3 a4 a5 a6 a7 a8 a9 a10 a11 a12 a13 a14 a15 a16 a17 a18 a19 a20 a21 a22 a23 a24) a19 a20

def res_main_v245 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64x128, .f32⟩ : BufTy).Contents (Elt F) :=
  cls3 (F := F) (res_main_v240 (F := F) a0 a1 a2 a3 a4 a5 a6 a7 a8 a9 a10 a11 a12 a13 a14 a15 a16 a17 a18 a19 a20 a21 a22 a23 a24) a21 a22

def res_main_v249 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64x10, .f32⟩ : BufTy).Contents (Elt F) :=
  cls4 (F := F) (res_main_v245 (F := F) a0 a1 a2 a3 a4 a5 a6 a7 a8 a9 a10 a11 a12 a13 a14 a15 a16 a17 a18 a19 a20 a21 a22 a23 a24) a23 a24

def res_main_v250 (a0 : (⟨S100000x16, .f32⟩ : BufTy).Contents (Elt F)) (a1 : (⟨S2x1600000, .i32⟩ : BufTy).Contents (Elt F)) (a2 : (⟨S100000, .i32⟩ : BufTy).Contents (Elt F)) (a3 : (⟨S16x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) (a9 : (⟨S_, .f32⟩ : BufTy).Contents (Elt F)) (a10 : (⟨S3x128x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x128, .f32⟩ : BufTy).Contents (Elt F)) (a15 : (⟨S3x128, .f32⟩ : BufTy).Contents (Elt F)) (a16 : (⟨S3, .f32⟩ : BufTy).Contents (Elt F)) (a17 : (⟨S512x256, .f32⟩ : BufTy).Contents (Elt F)) (a18 : (⟨S256, .f32⟩ : BufTy).Contents (Elt F)) (a19 : (⟨S256x128, .f32⟩ : BufTy).Contents (Elt F)) (a20 : (⟨S128, .f32⟩ : BufTy).Contents (Elt F)) (a21 : (⟨S128x128, .f32⟩ : BufTy).Contents (Elt F)) (a22 : (⟨S128, .f32⟩ : BufTy).Contents (Elt F)) (a23 : (⟨S128x10, .f32⟩ : BufTy).Contents (Elt F)) (a24 : (⟨S10, .f32⟩ : BufTy).Contents (Elt F)) :
    (⟨S64x10, .f32⟩ : BufTy).Contents (Elt F) :=
  logSoftmax (F := F) (res_main_v249 (F := F) a0 a1 a2 a3 a4 a5 a6 a7 a8 a9 a10 a11 a12 a13 a14 a15 a16 a17 a18 a19 a20 a21 a22 a23 a24)

/-- The reference's result at the ideal instance, as a function of the 25 argument arrays. -/
def result (a0 : (⟨S100000x16, .f32⟩ : BufTy).Contents (Elt Ideal)) (a1 : (⟨S2x1600000, .i32⟩ : BufTy).Contents (Elt Ideal)) (a2 : (⟨S100000, .i32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S_, .f32⟩ : BufTy).Contents (Elt Ideal)) (a10 : (⟨S3x128x128, .f32⟩ : BufTy).Contents (Elt Ideal)) (a11 : (⟨S3x128, .f32⟩ : BufTy).Contents (Elt Ideal)) (a12 : (⟨S3x128x128, .f32⟩ : BufTy).Contents (Elt Ideal)) (a13 : (⟨S3x128, .f32⟩ : BufTy).Contents (Elt Ideal)) (a14 : (⟨S3x128, .f32⟩ : BufTy).Contents (Elt Ideal)) (a15 : (⟨S3x128, .f32⟩ : BufTy).Contents (Elt Ideal)) (a16 : (⟨S3, .f32⟩ : BufTy).Contents (Elt Ideal)) (a17 : (⟨S512x256, .f32⟩ : BufTy).Contents (Elt Ideal)) (a18 : (⟨S256, .f32⟩ : BufTy).Contents (Elt Ideal)) (a19 : (⟨S256x128, .f32⟩ : BufTy).Contents (Elt Ideal)) (a20 : (⟨S128, .f32⟩ : BufTy).Contents (Elt Ideal)) (a21 : (⟨S128x128, .f32⟩ : BufTy).Contents (Elt Ideal)) (a22 : (⟨S128, .f32⟩ : BufTy).Contents (Elt Ideal)) (a23 : (⟨S128x10, .f32⟩ : BufTy).Contents (Elt Ideal)) (a24 : (⟨S10, .f32⟩ : BufTy).Contents (Elt Ideal)) :
    (⟨S64x10, .f32⟩ : BufTy).Contents (Elt Ideal) :=
  res_main_v250 (F := Ideal) a0 a1 a2 a3 a4 a5 a6 a7 a8 a9 a10 a11 a12 a13 a14 a15 a16 a17 a18 a19 a20 a21 a22 a23 a24

end Cert.ReferenceIdeal.RefRun

end
-- ==== Proof.RefRunStages0.lean ====
/- The operations of some parts of the reference, each part a list, and what each part leaves in the buffers later
   parts read: the part's pure function of the contents it reads; and which buffers a part writes. -/
import proofs.«168812_j9088150798767_1_alg».proof.Proof.RefRunDefs
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of part 0 (edges). -/
abbrev st0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

theorem st0_main_v1 (V : Valuation τ sig (Elt Ideal)) :
    after (st0 (F := Ideal)) V (no_index (Proc.devRef .tc main_v1)) = src (F := Ideal) (V (Proc.devRef .tc main_arg1)) := by
  simp only [st0]
  after_results_simp
  rfl

theorem st0_main_v3 (V : Valuation τ sig (Elt Ideal)) :
    after (st0 (F := Ideal)) V (no_index (Proc.devRef .tc main_v3)) = dst (F := Ideal) (V (Proc.devRef .tc main_arg1)) := by
  simp only [st0]
  after_results_simp
  rfl

abbrev st0_W : List (Ref sig .tc) := [main_v0, main_v1, main_v2, main_v3]
theorem st0_writes : (st0 (F := Ideal)).Forall fun op => op.writes ⊆ (st0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st0_keep (V : Valuation τ sig (Elt Ideal)) (r : Ref sig .tc) (h : r ∉ st0_W) :
    after (st0 (F := Ideal)) V (Proc.devRef .tc r) = V (Proc.devRef .tc r) :=
  after_of_writes_sub st0 _ st0_writes h

/-- The operations of part 1 (aggIn0). -/
abbrev st1 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.nullary main_cst (constant S_ .f32 0x00000000#32),
    StableHlo.unary main_cst main_v11 (broadcastInDim S100000x16 ![] bcast_S_S100000x16 : (⟨S_, .f32⟩ : BufTy).Contents (Elt F) → (⟨S100000x16, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    StableHlo.nullary main_cst_1 (constant S_ .f32 0x3F800000#32),
    StableHlo.binary main_cst_1 main_arg9 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S100000x16 ![] bcast_S_S100000x16 : (⟨S_, .f32⟩ : BufTy).Contents (Elt F) → (⟨S100000x16, .f32⟩ : BufTy).Contents (Elt F)),
    StableHlo.binary main_v15 main_arg0 main_v16 (mulf : (⟨S100000x16, .f32⟩ : BufTy).Contents (Elt F) → (⟨S100000x16, .f32⟩ : BufTy).Contents (Elt F) → (⟨S100000x16, .f32⟩ : BufTy).Contents (Elt F)),
    StableHlo.binary main_v16 main_v13 main_v17 (addf : (⟨S100000x16, .f32⟩ : BufTy).Contents (Elt F) → (⟨S100000x16, .f32⟩ : BufTy).Contents (Elt F) → (⟨S100000x16, .f32⟩ : BufTy).Contents (Elt F)) ]

theorem st1_main_v17 (V : Valuation τ sig (Elt Ideal)) :
    after (st1 (F := Ideal)) V (no_index (Proc.devRef .tc main_v17)) = aggIn16 (F := Ideal) (V (Proc.devRef .tc main_arg9)) (V (Proc.devRef .tc main_arg0)) (V (Proc.devRef .tc main_v3)) (V (Proc.devRef .tc main_v1)) := by
  simp only [st1]
  after_results_simp
  rfl

abbrev st1_W : List (Ref sig .tc) := [main_c, main_v4, main_v5, main_c_0, main_v6, main_v7, main_v8, main_v9, main_v10, main_cst, main_v11, main_v12, main_v13, main_cst_1, main_v14, main_v15, main_v16, main_v17]
theorem st1_writes : (st1 (F := Ideal)).Forall fun op => op.writes ⊆ (st1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st1_keep (V : Valuation τ sig (Elt Ideal)) (r : Ref sig .tc) (h : r ∉ st1_W) :
    after (st1 (F := Ideal)) V (Proc.devRef .tc r) = V (Proc.devRef .tc r) :=
  after_of_writes_sub st1 _ st1_writes h

/-- The operations of part 2 (denseA0). -/
abbrev st2 : List (HloOp τ sig (Elt F)) :=
  [ StableHlo.binary main_v17 main_arg3 main_v18 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v21 : StableHlo.TRef sig ⟨S100000x128, .f32⟩) main_call0.v0 main_call0.v1 maximumf ]

theorem st2_main_v22 (V : Valuation τ sig (Elt Ideal)) :
    after (st2 (F := Ideal)) V (no_index (Proc.devRef .tc main_v22)) = dense16 (F := Ideal) (V (Proc.devRef .tc main_v17)) (V (Proc.devRef .tc main_arg3)) (V (Proc.devRef .tc main_arg4)) := by
  simp only [st2]
  after_results_simp
  rfl

abbrev st2_W : List (Ref sig .tc) := [main_v18, main_v19, main_v20, main_v21, main_call0_cst, main_call0_v0, main_v22]
theorem st2_writes : (st2 (F := Ideal)).Forall fun op => op.writes ⊆ (st2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st2_keep (V : Valuation τ sig (Elt Ideal)) (r : Ref sig .tc) (h : r ∉ st2_W) :
    after (st2 (F := Ideal)) V (Proc.devRef .tc r) = V (Proc.devRef .tc r) :=
  after_of_writes_sub st2 _ st2_writes h

/-- The operations of part 3 (denseB0). -/
abbrev st3 : List (HloOp τ sig (Elt F)) :=
  [ StableHlo.binary main_v22 main_arg5 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v26 : StableHlo.TRef sig ⟨S100000x128, .f32⟩) main_call1.v0 main_call1.v1 maximumf ]

theorem st3_main_v27 (V : Valuation τ sig (Elt Ideal)) :
    after (st3 (F := Ideal)) V (no_index (Proc.devRef .tc main_v27)) = dense128 (F := Ideal) (V (Proc.devRef .tc main_v22)) (V (Proc.devRef .tc main_arg5)) (V (Proc.devRef .tc main_arg6)) := by
  simp only [st3]
  after_results_simp
  rfl

abbrev st3_W : List (Ref sig .tc) := [main_v23, main_v24, main_v25, main_v26, main_call1_cst, main_call1_v0, main_v27]
theorem st3_writes : (st3 (F := Ideal)).Forall fun op => op.writes ⊆ (st3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st3_keep (V : Valuation τ sig (Elt Ideal)) (r : Ref sig .tc) (h : r ∉ st3_W) :
    after (st3 (F := Ideal)) V (Proc.devRef .tc r) = V (Proc.devRef .tc r) :=
  after_of_writes_sub st3 _ st3_writes h

/-- The operations of part 4 (mean0). -/
abbrev st4 : List (HloOp τ sig (Elt F)) :=
  [ StableHlo.nullary main_cst_2 (constant S_ .f32 0x00000000#32),
    StableHlo.binary main_v27 main_cst_2 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)) ]

theorem st4_main_v30 (V : Valuation τ sig (Elt Ideal)) :
    after (st4 (F := Ideal)) V (no_index (Proc.devRef .tc main_v30)) = colMean (F := Ideal) (V (Proc.devRef .tc main_v27)) := by
  simp only [st4]
  after_results_simp
  rfl

abbrev st4_W : List (Ref sig .tc) := [main_cst_2, main_v28, main_cst_3, main_v29, main_v30]
theorem st4_writes : (st4 (F := Ideal)).Forall fun op => op.writes ⊆ (st4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st4_keep (V : Valuation τ sig (Elt Ideal)) (r : Ref sig .tc) (h : r ∉ st4_W) :
    after (st4 (F := Ideal)) V (Proc.devRef .tc r) = V (Proc.devRef .tc r) :=
  after_of_writes_sub st4 _ st4_writes h

/-- The operations of part 5 (var0). -/
abbrev st5 : List (HloOp τ sig (Elt F)) :=
  [ StableHlo.nullary main_c_4 (constantI S_ 32 0#32),
    StableHlo.TRef.nullary main_call2.cst (constant S_ .f32 0x00000000#32),
    StableHlo.TRef.binary (.of main_v27 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v27 : StableHlo.TRef sig ⟨S100000x128, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

theorem st5_main_v31 (V : Valuation τ sig (Elt Ideal)) :
    after (st5 (F := Ideal)) V (no_index (Proc.devRef .tc main_v31)) = colVar (F := Ideal) (V (Proc.devRef .tc main_v27)) := by
  simp only [st5]
  after_results_simp
  rfl

abbrev st5_W : List (Ref sig .tc) := [main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v31]
theorem st5_writes : (st5 (F := Ideal)).Forall fun op => op.writes ⊆ (st5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st5_keep (V : Valuation τ sig (Elt Ideal)) (r : Ref sig .tc) (h : r ∉ st5_W) :
    after (st5 (F := Ideal)) V (Proc.devRef .tc r) = V (Proc.devRef .tc r) :=
  after_of_writes_sub st5 _ st5_writes h

/-- The operations of part 6 (norm0). -/
abbrev st6 : List (HloOp τ sig (Elt F)) :=
  [ StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v33 main_v34 (subf : (⟨S100000x128, .f32⟩ : BufTy).Contents (Elt F) → (⟨S100000x128, .f32⟩ : BufTy).Contents (Elt F) → (⟨S100000x128, .f32⟩ : BufTy).Contents (Elt F)),
    StableHlo.unary main_arg7 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v34 main_v37 (mulf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v38 (broadcastInDim S128 ![] bcast_S_S128 : (⟨S_, .f32⟩ : BufTy).Contents (Elt F) → (⟨S128, .f32⟩ : BufTy).Contents (Elt F)),
    StableHlo.binary main_v31 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_arg8 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)) ]

theorem st6_main_v46 (V : Valuation τ sig (Elt Ideal)) :
    after (st6 (F := Ideal)) V (no_index (Proc.devRef .tc main_v46)) = normalize (F := Ideal) (V (Proc.devRef .tc main_arg7)) (V (Proc.devRef .tc main_v27)) (V (Proc.devRef .tc main_v30)) (V (Proc.devRef .tc main_v31)) (V (Proc.devRef .tc main_arg8)) := by
  simp only [st6]
  after_results_simp
  rfl

abbrev st6_W : List (Ref sig .tc) := [main_v32, main_v33, main_v34, main_v35, main_v36, main_v37, main_cst_5, main_v38, main_v39, main_v40, main_v41, main_v42, main_v43, main_v44, main_v45, main_v46]
theorem st6_writes : (st6 (F := Ideal)).Forall fun op => op.writes ⊆ (st6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st6_keep (V : Valuation τ sig (Elt Ideal)) (r : Ref sig .tc) (h : r ∉ st6_W) :
    after (st6 (F := Ideal)) V (Proc.devRef .tc r) = V (Proc.devRef .tc r) :=
  after_of_writes_sub st6 _ st6_writes h

/-- The operations of part 7 (params1). -/
abbrev st7 : List (HloOp τ sig (Elt F)) :=
  [ StableHlo.unary main_arg16 main_v47 ((extractStridedSlice S1 ![0] · slices_S3_S1_0) : (⟨S3, .f32⟩ : BufTy).Contents (Elt F) → (⟨S1, .f32⟩ : BufTy).Contents (Elt F)),
    StableHlo.reshape main_v47 main_v48 rfl shapeCasts_S1_S_,
    StableHlo.unary main_arg10 main_v49 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v49 main_v50 rfl shapeCasts_S1x128x128_S128x128,
    StableHlo.unary main_arg11 main_v51 ((extractStridedSlice S1x128 ![0, 0] · slices_S3x128_S1x128_0_0) : (⟨S3x128, .f32⟩ : BufTy).Contents (Elt F) → (⟨S1x128, .f32⟩ : BufTy).Contents (Elt F)),
    StableHlo.reshape main_v51 main_v52 rfl shapeCasts_S1x128_S128,
    StableHlo.unary main_arg12 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v53 main_v54 rfl shapeCasts_S1x128x128_S128x128,
    StableHlo.unary main_arg13 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_arg14 main_v57 ((extractStridedSlice S1x128 ![0, 0] · slices_S3x128_S1x128_0_0) : (⟨S3x128, .f32⟩ : BufTy).Contents (Elt F) → (⟨S1x128, .f32⟩ : BufTy).Contents (Elt F)),
    StableHlo.reshape main_v57 main_v58 rfl shapeCasts_S1x128_S128,
    StableHlo.unary main_arg15 main_v59 ((extractStridedSlice S1x128 ![0, 0] · slices_S3x128_S1x128_0_0) : (⟨S3x128, .f32⟩ : BufTy).Contents (Elt F) → (⟨S1x128, .f32⟩ : BufTy).Contents (Elt F)),
    StableHlo.reshape main_v59 main_v60 rfl shapeCasts_S1x128_S128 ]

theorem st7_main_v48 (V : Valuation τ sig (Elt Ideal)) :
    after (st7 (F := Ideal)) V (no_index (Proc.devRef .tc main_v48)) = epsOf1 (F := Ideal) (V (Proc.devRef .tc main_arg16)) := by
  simp only [st7]
  after_results_simp
  rfl

theorem st7_main_v50 (V : Valuation τ sig (Elt Ideal)) :
    after (st7 (F := Ideal)) V (no_index (Proc.devRef .tc main_v50)) = matOf1 (F := Ideal) (V (Proc.devRef .tc main_arg10)) := by
  simp only [st7]
  after_results_simp
  rfl

theorem st7_main_v52 (V : Valuation τ sig (Elt Ideal)) :
    after (st7 (F := Ideal)) V (no_index (Proc.devRef .tc main_v52)) = rowOf1 (F := Ideal) (V (Proc.devRef .tc main_arg11)) := by
  simp only [st7]
  after_results_simp
  rfl

theorem st7_main_v54 (V : Valuation τ sig (Elt Ideal)) :
    after (st7 (F := Ideal)) V (no_index (Proc.devRef .tc main_v54)) = matOf1 (F := Ideal) (V (Proc.devRef .tc main_arg12)) := by
  simp only [st7]
  after_results_simp
  rfl

theorem st7_main_v56 (V : Valuation τ sig (Elt Ideal)) :
    after (st7 (F := Ideal)) V (no_index (Proc.devRef .tc main_v56)) = rowOf1 (F := Ideal) (V (Proc.devRef .tc main_arg13)) := by
  simp only [st7]
  after_results_simp
  rfl

theorem st7_main_v58 (V : Valuation τ sig (Elt Ideal)) :
    after (st7 (F := Ideal)) V (no_index (Proc.devRef .tc main_v58)) = rowOf1 (F := Ideal) (V (Proc.devRef .tc main_arg14)) := by
  simp only [st7]
  after_results_simp
  rfl

theorem st7_main_v60 (V : Valuation τ sig (Elt Ideal)) :
    after (st7 (F := Ideal)) V (no_index (Proc.devRef .tc main_v60)) = rowOf1 (F := Ideal) (V (Proc.devRef .tc main_arg15)) := by
  simp only [st7]
  after_results_simp
  rfl

abbrev st7_W : List (Ref sig .tc) := [main_v47, main_v48, main_v49, main_v50, main_v51, main_v52, main_v53, main_v54, main_v55, main_v56, main_v57, main_v58, main_v59, main_v60]
theorem st7_writes : (st7 (F := Ideal)).Forall fun op => op.writes ⊆ (st7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st7_keep (V : Valuation τ sig (Elt Ideal)) (r : Ref sig .tc) (h : r ∉ st7_W) :
    after (st7 (F := Ideal)) V (Proc.devRef .tc r) = V (Proc.devRef .tc r) :=
  after_of_writes_sub st7 _ st7_writes h

end Cert.ReferenceIdeal.RefRun

end
-- ==== Proof.RefRunStages1.lean ====
/- The operations of some parts of the reference, each part a list, and what each part leaves in the buffers later
   parts read: the part's pure function of the contents it reads; and which buffers a part writes. -/
import proofs.«168812_j9088150798767_1_alg».proof.Proof.RefRunDefs
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of part 8 (aggIn1). -/
abbrev st8 : List (HloOp τ sig (Elt F)) :=
  [ StableHlo.nullary main_c_6 (constantI S_ 32 0#32),
    StableHlo.unary main_c_6 main_v61 (broadcastInDim S1600000 ![] bcast_S_S1600000 : (⟨S_, .i32⟩ : BufTy).Contents (Elt F) → (⟨S1600000, .i32⟩ : BufTy).Contents (Elt F)),
    StableHlo.binary main_v1 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v63 (broadcastInDim S1600000 ![] bcast_S_S1600000 : (⟨S_, .i32⟩ : BufTy).Contents (Elt F) → (⟨S1600000, .i32⟩ : BufTy).Contents (Elt F)),
    StableHlo.binary main_v1 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.binary main_v46 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v68 (broadcastInDim S100000x128 ![] bcast_S_S100000x128 : (⟨S_, .f32⟩ : BufTy).Contents (Elt F) → (⟨S100000x128, .f32⟩ : BufTy).Contents (Elt F)),
    StableHlo.unary main_v3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_9 (constant S_ .f32 0x3F800000#32),
    StableHlo.binary main_cst_9 main_v48 main_v71 (addf : (⟨S_, .f32⟩ : BufTy).Contents (Elt F) → (⟨S_, .f32⟩ : BufTy).Contents (Elt F) → (⟨S_, .f32⟩ : BufTy).Contents (Elt F)),
    StableHlo.unary main_v71 main_v72 (broadcastInDim S100000x128 ![] bcast_S_S100000x128 : (⟨S_, .f32⟩ : BufTy).Contents (Elt F) → (⟨S100000x128, .f32⟩ : BufTy).Contents (Elt F)),
    StableHlo.binary main_v72 main_v46 main_v73 (mulf : (⟨S100000x128, .f32⟩ : BufTy).Contents (Elt F) → (⟨S100000x128, .f32⟩ : BufTy).Contents (Elt F) → (⟨S100000x128, .f32⟩ : BufTy).Contents (Elt F)),
    StableHlo.binary main_v73 main_v70 main_v74 (addf : (⟨S100000x128, .f32⟩ : BufTy).Contents (Elt F) → (⟨S100000x128, .f32⟩ : BufTy).Contents (Elt F) → (⟨S100000x128, .f32⟩ : BufTy).Contents (Elt F)) ]

theorem st8_main_v74 (V : Valuation τ sig (Elt Ideal)) :
    after (st8 (F := Ideal)) V (no_index (Proc.devRef .tc main_v74)) = aggIn128 (F := Ideal) (V (Proc.devRef .tc main_v48)) (V (Proc.devRef .tc main_v46)) (V (Proc.devRef .tc main_v3)) (V (Proc.devRef .tc main_v1)) := by
  simp only [st8]
  after_results_simp
  rfl

abbrev st8_W : List (Ref sig .tc) := [main_c_6, main_v61, main_v62, main_c_7, main_v63, main_v64, main_v65, main_v66, main_v67, main_cst_8, main_v68, main_v69, main_v70, main_cst_9, main_v71, main_v72, main_v73, main_v74]
theorem st8_writes : (st8 (F := Ideal)).Forall fun op => op.writes ⊆ (st8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st8_keep (V : Valuation τ sig (Elt Ideal)) (r : Ref sig .tc) (h : r ∉ st8_W) :
    after (st8 (F := Ideal)) V (Proc.devRef .tc r) = V (Proc.devRef .tc r) :=
  after_of_writes_sub st8 _ st8_writes h

/-- The operations of part 9 (denseA1). -/
abbrev st9 : List (HloOp τ sig (Elt F)) :=
  [ StableHlo.binary main_v74 main_v50 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v52 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v78 : StableHlo.TRef sig ⟨S100000x128, .f32⟩) main_call3.v0 main_call3.v1 maximumf ]

theorem st9_main_v79 (V : Valuation τ sig (Elt Ideal)) :
    after (st9 (F := Ideal)) V (no_index (Proc.devRef .tc main_v79)) = dense128 (F := Ideal) (V (Proc.devRef .tc main_v74)) (V (Proc.devRef .tc main_v50)) (V (Proc.devRef .tc main_v52)) := by
  simp only [st9]
  after_results_simp
  rfl

abbrev st9_W : List (Ref sig .tc) := [main_v75, main_v76, main_v77, main_v78, main_call3_cst, main_call3_v0, main_v79]
theorem st9_writes : (st9 (F := Ideal)).Forall fun op => op.writes ⊆ (st9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st9_keep (V : Valuation τ sig (Elt Ideal)) (r : Ref sig .tc) (h : r ∉ st9_W) :
    after (st9 (F := Ideal)) V (Proc.devRef .tc r) = V (Proc.devRef .tc r) :=
  after_of_writes_sub st9 _ st9_writes h

/-- The operations of part 10 (denseB1). -/
abbrev st10 : List (HloOp τ sig (Elt F)) :=
  [ StableHlo.binary main_v79 main_v54 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v56 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v83 : StableHlo.TRef sig ⟨S100000x128, .f32⟩) main_call4.v0 main_call4.v1 maximumf ]

theorem st10_main_v84 (V : Valuation τ sig (Elt Ideal)) :
    after (st10 (F := Ideal)) V (no_index (Proc.devRef .tc main_v84)) = dense128 (F := Ideal) (V (Proc.devRef .tc main_v79)) (V (Proc.devRef .tc main_v54)) (V (Proc.devRef .tc main_v56)) := by
  simp only [st10]
  after_results_simp
  rfl

abbrev st10_W : List (Ref sig .tc) := [main_v80, main_v81, main_v82, main_v83, main_call4_cst, main_call4_v0, main_v84]
theorem st10_writes : (st10 (F := Ideal)).Forall fun op => op.writes ⊆ (st10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st10_keep (V : Valuation τ sig (Elt Ideal)) (r : Ref sig .tc) (h : r ∉ st10_W) :
    after (st10 (F := Ideal)) V (Proc.devRef .tc r) = V (Proc.devRef .tc r) :=
  after_of_writes_sub st10 _ st10_writes h

/-- The operations of part 11 (mean1). -/
abbrev st11 : List (HloOp τ sig (Elt F)) :=
  [ StableHlo.nullary main_cst_10 (constant S_ .f32 0x00000000#32),
    StableHlo.binary main_v84 main_cst_10 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)) ]

theorem st11_main_v87 (V : Valuation τ sig (Elt Ideal)) :
    after (st11 (F := Ideal)) V (no_index (Proc.devRef .tc main_v87)) = colMean (F := Ideal) (V (Proc.devRef .tc main_v84)) := by
  simp only [st11]
  after_results_simp
  rfl

abbrev st11_W : List (Ref sig .tc) := [main_cst_10, main_v85, main_cst_11, main_v86, main_v87]
theorem st11_writes : (st11 (F := Ideal)).Forall fun op => op.writes ⊆ (st11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st11_keep (V : Valuation τ sig (Elt Ideal)) (r : Ref sig .tc) (h : r ∉ st11_W) :
    after (st11 (F := Ideal)) V (Proc.devRef .tc r) = V (Proc.devRef .tc r) :=
  after_of_writes_sub st11 _ st11_writes h

/-- The operations of part 12 (var1). -/
abbrev st12 : List (HloOp τ sig (Elt F)) :=
  [ StableHlo.nullary main_c_12 (constantI S_ 32 0#32),
    StableHlo.TRef.nullary main_call5.cst (constant S_ .f32 0x00000000#32),
    StableHlo.TRef.binary (.of main_v84 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v84 : StableHlo.TRef sig ⟨S100000x128, .f32⟩) main_call5.v4 main_call5.v5 subf,
    StableHlo.TRef.binary main_call5.v5 main_call5.v5 main_call5.v6 mulf,
    StableHlo.TRef.unary (.of main_c_12 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

theorem st12_main_v88 (V : Valuation τ sig (Elt Ideal)) :
    after (st12 (F := Ideal)) V (no_index (Proc.devRef .tc main_v88)) = colVar (F := Ideal) (V (Proc.devRef .tc main_v84)) := by
  simp only [st12]
  after_results_simp
  rfl

abbrev st12_W : List (Ref sig .tc) := [main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v88]
theorem st12_writes : (st12 (F := Ideal)).Forall fun op => op.writes ⊆ (st12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st12_keep (V : Valuation τ sig (Elt Ideal)) (r : Ref sig .tc) (h : r ∉ st12_W) :
    after (st12 (F := Ideal)) V (Proc.devRef .tc r) = V (Proc.devRef .tc r) :=
  after_of_writes_sub st12 _ st12_writes h

/-- The operations of part 13 (norm1). -/
abbrev st13 : List (HloOp τ sig (Elt F)) :=
  [ StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v90 main_v91 (subf : (⟨S100000x128, .f32⟩ : BufTy).Contents (Elt F) → (⟨S100000x128, .f32⟩ : BufTy).Contents (Elt F) → (⟨S100000x128, .f32⟩ : BufTy).Contents (Elt F)),
    StableHlo.unary main_v58 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v91 main_v94 (mulf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v95 (broadcastInDim S128 ![] bcast_S_S128 : (⟨S_, .f32⟩ : BufTy).Contents (Elt F) → (⟨S128, .f32⟩ : BufTy).Contents (Elt F)),
    StableHlo.binary main_v88 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v99 main_v100 (mulf : (⟨S100000x128, .f32⟩ : BufTy).Contents (Elt F) → (⟨S100000x128, .f32⟩ : BufTy).Contents (Elt F) → (⟨S100000x128, .f32⟩ : BufTy).Contents (Elt F)),
    StableHlo.unary main_v60 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)) ]

theorem st13_main_v103 (V : Valuation τ sig (Elt Ideal)) :
    after (st13 (F := Ideal)) V (no_index (Proc.devRef .tc main_v103)) = normalize (F := Ideal) (V (Proc.devRef .tc main_v58)) (V (Proc.devRef .tc main_v84)) (V (Proc.devRef .tc main_v87)) (V (Proc.devRef .tc main_v88)) (V (Proc.devRef .tc main_v60)) := by
  simp only [st13]
  after_results_simp
  rfl

abbrev st13_W : List (Ref sig .tc) := [main_v89, main_v90, main_v91, main_v92, main_v93, main_v94, main_cst_13, main_v95, main_v96, main_v97, main_v98, main_v99, main_v100, main_v101, main_v102, main_v103]
theorem st13_writes : (st13 (F := Ideal)).Forall fun op => op.writes ⊆ (st13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st13_keep (V : Valuation τ sig (Elt Ideal)) (r : Ref sig .tc) (h : r ∉ st13_W) :
    after (st13 (F := Ideal)) V (Proc.devRef .tc r) = V (Proc.devRef .tc r) :=
  after_of_writes_sub st13 _ st13_writes h

/-- The operations of part 14 (params2). -/
abbrev st14 : List (HloOp τ sig (Elt F)) :=
  [ StableHlo.unary main_arg16 main_v104 ((extractStridedSlice S1 ![1] · slices_S3_S1_1) : (⟨S3, .f32⟩ : BufTy).Contents (Elt F) → (⟨S1, .f32⟩ : BufTy).Contents (Elt F)),
    StableHlo.reshape main_v104 main_v105 rfl shapeCasts_S1_S_,
    StableHlo.unary main_arg10 main_v106 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v106 main_v107 rfl shapeCasts_S1x128x128_S128x128,
    StableHlo.unary main_arg11 main_v108 ((extractStridedSlice S1x128 ![1, 0] · slices_S3x128_S1x128_1_0) : (⟨S3x128, .f32⟩ : BufTy).Contents (Elt F) → (⟨S1x128, .f32⟩ : BufTy).Contents (Elt F)),
    StableHlo.reshape main_v108 main_v109 rfl shapeCasts_S1x128_S128,
    StableHlo.unary main_arg12 main_v110 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v110 main_v111 rfl shapeCasts_S1x128x128_S128x128,
    StableHlo.unary main_arg13 main_v112 ((extractStridedSlice S1x128 ![1, 0] · slices_S3x128_S1x128_1_0) : (⟨S3x128, .f32⟩ : BufTy).Contents (Elt F) → (⟨S1x128, .f32⟩ : BufTy).Contents (Elt F)),
    StableHlo.reshape main_v112 main_v113 rfl shapeCasts_S1x128_S128,
    StableHlo.unary main_arg14 main_v114 ((extractStridedSlice S1x128 ![1, 0] · slices_S3x128_S1x128_1_0) : (⟨S3x128, .f32⟩ : BufTy).Contents (Elt F) → (⟨S1x128, .f32⟩ : BufTy).Contents (Elt F)),
    StableHlo.reshape main_v114 main_v115 rfl shapeCasts_S1x128_S128,
    StableHlo.unary main_arg15 main_v116 ((extractStridedSlice S1x128 ![1, 0] · slices_S3x128_S1x128_1_0) : (⟨S3x128, .f32⟩ : BufTy).Contents (Elt F) → (⟨S1x128, .f32⟩ : BufTy).Contents (Elt F)),
    StableHlo.reshape main_v116 main_v117 rfl shapeCasts_S1x128_S128 ]

theorem st14_main_v105 (V : Valuation τ sig (Elt Ideal)) :
    after (st14 (F := Ideal)) V (no_index (Proc.devRef .tc main_v105)) = epsOf2 (F := Ideal) (V (Proc.devRef .tc main_arg16)) := by
  simp only [st14]
  after_results_simp
  rfl

theorem st14_main_v107 (V : Valuation τ sig (Elt Ideal)) :
    after (st14 (F := Ideal)) V (no_index (Proc.devRef .tc main_v107)) = matOf2 (F := Ideal) (V (Proc.devRef .tc main_arg10)) := by
  simp only [st14]
  after_results_simp
  rfl

theorem st14_main_v109 (V : Valuation τ sig (Elt Ideal)) :
    after (st14 (F := Ideal)) V (no_index (Proc.devRef .tc main_v109)) = rowOf2 (F := Ideal) (V (Proc.devRef .tc main_arg11)) := by
  simp only [st14]
  after_results_simp
  rfl

theorem st14_main_v111 (V : Valuation τ sig (Elt Ideal)) :
    after (st14 (F := Ideal)) V (no_index (Proc.devRef .tc main_v111)) = matOf2 (F := Ideal) (V (Proc.devRef .tc main_arg12)) := by
  simp only [st14]
  after_results_simp
  rfl

theorem st14_main_v113 (V : Valuation τ sig (Elt Ideal)) :
    after (st14 (F := Ideal)) V (no_index (Proc.devRef .tc main_v113)) = rowOf2 (F := Ideal) (V (Proc.devRef .tc main_arg13)) := by
  simp only [st14]
  after_results_simp
  rfl

theorem st14_main_v115 (V : Valuation τ sig (Elt Ideal)) :
    after (st14 (F := Ideal)) V (no_index (Proc.devRef .tc main_v115)) = rowOf2 (F := Ideal) (V (Proc.devRef .tc main_arg14)) := by
  simp only [st14]
  after_results_simp
  rfl

theorem st14_main_v117 (V : Valuation τ sig (Elt Ideal)) :
    after (st14 (F := Ideal)) V (no_index (Proc.devRef .tc main_v117)) = rowOf2 (F := Ideal) (V (Proc.devRef .tc main_arg15)) := by
  simp only [st14]
  after_results_simp
  rfl

abbrev st14_W : List (Ref sig .tc) := [main_v104, main_v105, main_v106, main_v107, main_v108, main_v109, main_v110, main_v111, main_v112, main_v113, main_v114, main_v115, main_v116, main_v117]
theorem st14_writes : (st14 (F := Ideal)).Forall fun op => op.writes ⊆ (st14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st14_keep (V : Valuation τ sig (Elt Ideal)) (r : Ref sig .tc) (h : r ∉ st14_W) :
    after (st14 (F := Ideal)) V (Proc.devRef .tc r) = V (Proc.devRef .tc r) :=
  after_of_writes_sub st14 _ st14_writes h

/-- The operations of part 15 (aggIn2). -/
abbrev st15 : List (HloOp τ sig (Elt F)) :=
  [ StableHlo.nullary main_c_14 (constantI S_ 32 0#32),
    StableHlo.unary main_c_14 main_v118 (broadcastInDim S1600000 ![] bcast_S_S1600000 : (⟨S_, .i32⟩ : BufTy).Contents (Elt F) → (⟨S1600000, .i32⟩ : BufTy).Contents (Elt F)),
    StableHlo.binary main_v1 main_v118 main_v119 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v120 (broadcastInDim S1600000 ![] bcast_S_S1600000 : (⟨S_, .i32⟩ : BufTy).Contents (Elt F) → (⟨S1600000, .i32⟩ : BufTy).Contents (Elt F)),
    StableHlo.binary main_v1 main_v120 main_v121 (addi : (⟨S1600000, .i32⟩ : BufTy).Contents (Elt F) → (⟨S1600000, .i32⟩ : BufTy).Contents (Elt F) → (⟨S1600000, .i32⟩ : BufTy).Contents (Elt F)),
    StableHlo.ternary main_v119 main_v121 main_v1 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v122 main_v123 (broadcastInDim S1600000x1 ![0] bcast_S1600000_S1600000x1_0 : (⟨S1600000, .i32⟩ : BufTy).Contents (Elt F) → (⟨S1600000x1, .i32⟩ : BufTy).Contents (Elt F)),
    StableHlo.binary main_v103 main_v123 main_v124 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v125 (broadcastInDim S100000x128 ![] bcast_S_S100000x128 : (⟨S_, .f32⟩ : BufTy).Contents (Elt F) → (⟨S100000x128, .f32⟩ : BufTy).Contents (Elt F)),
    StableHlo.unary main_v3 main_v126 (broadcastInDim S1600000x1 ![0] bcast_S1600000_S1600000x1_0 : (⟨S1600000, .i32⟩ : BufTy).Contents (Elt F) → (⟨S1600000x1, .i32⟩ : BufTy).Contents (Elt F)),
    StableHlo.ternary main_v125 main_v126 main_v124 main_v127 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_17 (constant S_ .f32 0x3F800000#32),
    StableHlo.binary main_cst_17 main_v105 main_v128 (addf : (⟨S_, .f32⟩ : BufTy).Contents (Elt F) → (⟨S_, .f32⟩ : BufTy).Contents (Elt F) → (⟨S_, .f32⟩ : BufTy).Contents (Elt F)),
    StableHlo.unary main_v128 main_v129 (broadcastInDim S100000x128 ![] bcast_S_S100000x128 : (⟨S_, .f32⟩ : BufTy).Contents (Elt F) → (⟨S100000x128, .f32⟩ : BufTy).Contents (Elt F)),
    StableHlo.binary main_v129 main_v103 main_v130 (mulf : (⟨S100000x128, .f32⟩ : BufTy).Contents (Elt F) → (⟨S100000x128, .f32⟩ : BufTy).Contents (Elt F) → (⟨S100000x128, .f32⟩ : BufTy).Contents (Elt F)),
    StableHlo.binary main_v130 main_v127 main_v131 (addf : (⟨S100000x128, .f32⟩ : BufTy).Contents (Elt F) → (⟨S100000x128, .f32⟩ : BufTy).Contents (Elt F) → (⟨S100000x128, .f32⟩ : BufTy).Contents (Elt F)) ]

theorem st15_main_v131 (V : Valuation τ sig (Elt Ideal)) :
    after (st15 (F := Ideal)) V (no_index (Proc.devRef .tc main_v131)) = aggIn128 (F := Ideal) (V (Proc.devRef .tc main_v105)) (V (Proc.devRef .tc main_v103)) (V (Proc.devRef .tc main_v3)) (V (Proc.devRef .tc main_v1)) := by
  simp only [st15]
  after_results_simp
  rfl

abbrev st15_W : List (Ref sig .tc) := [main_c_14, main_v118, main_v119, main_c_15, main_v120, main_v121, main_v122, main_v123, main_v124, main_cst_16, main_v125, main_v126, main_v127, main_cst_17, main_v128, main_v129, main_v130, main_v131]
theorem st15_writes : (st15 (F := Ideal)).Forall fun op => op.writes ⊆ (st15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st15_keep (V : Valuation τ sig (Elt Ideal)) (r : Ref sig .tc) (h : r ∉ st15_W) :
    after (st15 (F := Ideal)) V (Proc.devRef .tc r) = V (Proc.devRef .tc r) :=
  after_of_writes_sub st15 _ st15_writes h

end Cert.ReferenceIdeal.RefRun

end
-- ==== Proof.RefRunStages2.lean ====
/- The operations of some parts of the reference, each part a list, and what each part leaves in the buffers later
   parts read: the part's pure function of the contents it reads; and which buffers a part writes. -/
import proofs.«168812_j9088150798767_1_alg».proof.Proof.RefRunDefs
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of part 16 (denseA2). -/
abbrev st16 : List (HloOp τ sig (Elt F)) :=
  [ StableHlo.binary main_v131 main_v107 main_v132 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v109 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v134 main_v135 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v135 : StableHlo.TRef sig ⟨S100000x128, .f32⟩) main_call6.v0 main_call6.v1 maximumf ]

theorem st16_main_v136 (V : Valuation τ sig (Elt Ideal)) :
    after (st16 (F := Ideal)) V (no_index (Proc.devRef .tc main_v136)) = dense128 (F := Ideal) (V (Proc.devRef .tc main_v131)) (V (Proc.devRef .tc main_v107)) (V (Proc.devRef .tc main_v109)) := by
  simp only [st16]
  after_results_simp
  rfl

abbrev st16_W : List (Ref sig .tc) := [main_v132, main_v133, main_v134, main_v135, main_call6_cst, main_call6_v0, main_v136]
theorem st16_writes : (st16 (F := Ideal)).Forall fun op => op.writes ⊆ (st16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st16_keep (V : Valuation τ sig (Elt Ideal)) (r : Ref sig .tc) (h : r ∉ st16_W) :
    after (st16 (F := Ideal)) V (Proc.devRef .tc r) = V (Proc.devRef .tc r) :=
  after_of_writes_sub st16 _ st16_writes h

/-- The operations of part 17 (denseB2). -/
abbrev st17 : List (HloOp τ sig (Elt F)) :=
  [ StableHlo.binary main_v136 main_v111 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v113 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v139 main_v140 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v140 : StableHlo.TRef sig ⟨S100000x128, .f32⟩) main_call7.v0 main_call7.v1 maximumf ]

theorem st17_main_v141 (V : Valuation τ sig (Elt Ideal)) :
    after (st17 (F := Ideal)) V (no_index (Proc.devRef .tc main_v141)) = dense128 (F := Ideal) (V (Proc.devRef .tc main_v136)) (V (Proc.devRef .tc main_v111)) (V (Proc.devRef .tc main_v113)) := by
  simp only [st17]
  after_results_simp
  rfl

abbrev st17_W : List (Ref sig .tc) := [main_v137, main_v138, main_v139, main_v140, main_call7_cst, main_call7_v0, main_v141]
theorem st17_writes : (st17 (F := Ideal)).Forall fun op => op.writes ⊆ (st17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st17_keep (V : Valuation τ sig (Elt Ideal)) (r : Ref sig .tc) (h : r ∉ st17_W) :
    after (st17 (F := Ideal)) V (Proc.devRef .tc r) = V (Proc.devRef .tc r) :=
  after_of_writes_sub st17 _ st17_writes h

/-- The operations of part 18 (mean2). -/
abbrev st18 : List (HloOp τ sig (Elt F)) :=
  [ StableHlo.nullary main_cst_18 (constant S_ .f32 0x00000000#32),
    StableHlo.binary main_v141 main_cst_18 main_v142 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v143 (broadcastInDim S128 ![] bcast_S_S128 : (⟨S_, .f32⟩ : BufTy).Contents (Elt F) → (⟨S128, .f32⟩ : BufTy).Contents (Elt F)),
    StableHlo.binary main_v142 main_v143 main_v144 (Host.divf : (⟨S128, .f32⟩ : BufTy).Contents (Elt F) → (⟨S128, .f32⟩ : BufTy).Contents (Elt F) → (⟨S128, .f32⟩ : BufTy).Contents (Elt F)) ]

theorem st18_main_v144 (V : Valuation τ sig (Elt Ideal)) :
    after (st18 (F := Ideal)) V (no_index (Proc.devRef .tc main_v144)) = colMean (F := Ideal) (V (Proc.devRef .tc main_v141)) := by
  simp only [st18]
  after_results_simp
  rfl

abbrev st18_W : List (Ref sig .tc) := [main_cst_18, main_v142, main_cst_19, main_v143, main_v144]
theorem st18_writes : (st18 (F := Ideal)).Forall fun op => op.writes ⊆ (st18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st18_keep (V : Valuation τ sig (Elt Ideal)) (r : Ref sig .tc) (h : r ∉ st18_W) :
    after (st18 (F := Ideal)) V (Proc.devRef .tc r) = V (Proc.devRef .tc r) :=
  after_of_writes_sub st18 _ st18_writes h

/-- The operations of part 19 (var2). -/
abbrev st19 : List (HloOp τ sig (Elt F)) :=
  [ StableHlo.nullary main_c_20 (constantI S_ 32 0#32),
    StableHlo.TRef.nullary main_call8.cst (constant S_ .f32 0x00000000#32),
    StableHlo.TRef.binary (.of main_v141 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v141 : StableHlo.TRef sig ⟨S100000x128, .f32⟩) main_call8.v4 main_call8.v5 subf,
    StableHlo.TRef.binary main_call8.v5 main_call8.v5 main_call8.v6 mulf,
    StableHlo.TRef.unary (.of main_c_20 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b) ]

theorem st19_main_v145 (V : Valuation τ sig (Elt Ideal)) :
    after (st19 (F := Ideal)) V (no_index (Proc.devRef .tc main_v145)) = colVar (F := Ideal) (V (Proc.devRef .tc main_v141)) := by
  simp only [st19]
  after_results_simp
  rfl

abbrev st19_W : List (Ref sig .tc) := [main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v145]
theorem st19_writes : (st19 (F := Ideal)).Forall fun op => op.writes ⊆ (st19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st19_keep (V : Valuation τ sig (Elt Ideal)) (r : Ref sig .tc) (h : r ∉ st19_W) :
    after (st19 (F := Ideal)) V (Proc.devRef .tc r) = V (Proc.devRef .tc r) :=
  after_of_writes_sub st19 _ st19_writes h

/-- The operations of part 20 (norm2). -/
abbrev st20 : List (HloOp τ sig (Elt F)) :=
  [ StableHlo.unary main_v144 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v141 main_v147 main_v148 (subf : (⟨S100000x128, .f32⟩ : BufTy).Contents (Elt F) → (⟨S100000x128, .f32⟩ : BufTy).Contents (Elt F) → (⟨S100000x128, .f32⟩ : BufTy).Contents (Elt F)),
    StableHlo.unary main_v115 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v148 main_v151 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v152 (broadcastInDim S128 ![] bcast_S_S128 : (⟨S_, .f32⟩ : BufTy).Contents (Elt F) → (⟨S128, .f32⟩ : BufTy).Contents (Elt F)),
    StableHlo.binary main_v145 main_v152 main_v153 (addf : (⟨S128, .f32⟩ : BufTy).Contents (Elt F) → (⟨S128, .f32⟩ : BufTy).Contents (Elt F) → (⟨S128, .f32⟩ : BufTy).Contents (Elt F)),
    StableHlo.unary main_v153 main_v154 (Host.rsqrt : (⟨S128, .f32⟩ : BufTy).Contents (Elt F) → (⟨S128, .f32⟩ : BufTy).Contents (Elt F)),
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v156 main_v157 (mulf : (⟨S100000x128, .f32⟩ : BufTy).Contents (Elt F) → (⟨S100000x128, .f32⟩ : BufTy).Contents (Elt F) → (⟨S100000x128, .f32⟩ : BufTy).Contents (Elt F)),
    StableHlo.unary main_v117 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v159 main_v160 (addf : (⟨S100000x128, .f32⟩ : BufTy).Contents (Elt F) → (⟨S100000x128, .f32⟩ : BufTy).Contents (Elt F) → (⟨S100000x128, .f32⟩ : BufTy).Contents (Elt F)) ]

theorem st20_main_v160 (V : Valuation τ sig (Elt Ideal)) :
    after (st20 (F := Ideal)) V (no_index (Proc.devRef .tc main_v160)) = normalize (F := Ideal) (V (Proc.devRef .tc main_v115)) (V (Proc.devRef .tc main_v141)) (V (Proc.devRef .tc main_v144)) (V (Proc.devRef .tc main_v145)) (V (Proc.devRef .tc main_v117)) := by
  simp only [st20]
  after_results_simp
  rfl

abbrev st20_W : List (Ref sig .tc) := [main_v146, main_v147, main_v148, main_v149, main_v150, main_v151, main_cst_21, main_v152, main_v153, main_v154, main_v155, main_v156, main_v157, main_v158, main_v159, main_v160]
theorem st20_writes : (st20 (F := Ideal)).Forall fun op => op.writes ⊆ (st20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st20_keep (V : Valuation τ sig (Elt Ideal)) (r : Ref sig .tc) (h : r ∉ st20_W) :
    after (st20 (F := Ideal)) V (Proc.devRef .tc r) = V (Proc.devRef .tc r) :=
  after_of_writes_sub st20 _ st20_writes h

/-- The operations of part 21 (params3). -/
abbrev st21 : List (HloOp τ sig (Elt F)) :=
  [ StableHlo.unary main_arg16 main_v161 ((extractStridedSlice S1 ![2] · slices_S3_S1_2) : (⟨S3, .f32⟩ : BufTy).Contents (Elt F) → (⟨S1, .f32⟩ : BufTy).Contents (Elt F)),
    StableHlo.reshape main_v161 main_v162 rfl shapeCasts_S1_S_,
    StableHlo.unary main_arg10 main_v163 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v163 main_v164 rfl shapeCasts_S1x128x128_S128x128,
    StableHlo.unary main_arg11 main_v165 ((extractStridedSlice S1x128 ![2, 0] · slices_S3x128_S1x128_2_0) : (⟨S3x128, .f32⟩ : BufTy).Contents (Elt F) → (⟨S1x128, .f32⟩ : BufTy).Contents (Elt F)),
    StableHlo.reshape main_v165 main_v166 rfl shapeCasts_S1x128_S128,
    StableHlo.unary main_arg12 main_v167 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v167 main_v168 rfl shapeCasts_S1x128x128_S128x128,
    StableHlo.unary main_arg13 main_v169 ((extractStridedSlice S1x128 ![2, 0] · slices_S3x128_S1x128_2_0) : (⟨S3x128, .f32⟩ : BufTy).Contents (Elt F) → (⟨S1x128, .f32⟩ : BufTy).Contents (Elt F)),
    StableHlo.reshape main_v169 main_v170 rfl shapeCasts_S1x128_S128,
    StableHlo.unary main_arg14 main_v171 ((extractStridedSlice S1x128 ![2, 0] · slices_S3x128_S1x128_2_0) : (⟨S3x128, .f32⟩ : BufTy).Contents (Elt F) → (⟨S1x128, .f32⟩ : BufTy).Contents (Elt F)),
    StableHlo.reshape main_v171 main_v172 rfl shapeCasts_S1x128_S128,
    StableHlo.unary main_arg15 main_v173 ((extractStridedSlice S1x128 ![2, 0] · slices_S3x128_S1x128_2_0) : (⟨S3x128, .f32⟩ : BufTy).Contents (Elt F) → (⟨S1x128, .f32⟩ : BufTy).Contents (Elt F)),
    StableHlo.reshape main_v173 main_v174 rfl shapeCasts_S1x128_S128 ]

theorem st21_main_v162 (V : Valuation τ sig (Elt Ideal)) :
    after (st21 (F := Ideal)) V (no_index (Proc.devRef .tc main_v162)) = epsOf3 (F := Ideal) (V (Proc.devRef .tc main_arg16)) := by
  simp only [st21]
  after_results_simp
  rfl

theorem st21_main_v164 (V : Valuation τ sig (Elt Ideal)) :
    after (st21 (F := Ideal)) V (no_index (Proc.devRef .tc main_v164)) = matOf3 (F := Ideal) (V (Proc.devRef .tc main_arg10)) := by
  simp only [st21]
  after_results_simp
  rfl

theorem st21_main_v166 (V : Valuation τ sig (Elt Ideal)) :
    after (st21 (F := Ideal)) V (no_index (Proc.devRef .tc main_v166)) = rowOf3 (F := Ideal) (V (Proc.devRef .tc main_arg11)) := by
  simp only [st21]
  after_results_simp
  rfl

theorem st21_main_v168 (V : Valuation τ sig (Elt Ideal)) :
    after (st21 (F := Ideal)) V (no_index (Proc.devRef .tc main_v168)) = matOf3 (F := Ideal) (V (Proc.devRef .tc main_arg12)) := by
  simp only [st21]
  after_results_simp
  rfl

theorem st21_main_v170 (V : Valuation τ sig (Elt Ideal)) :
    after (st21 (F := Ideal)) V (no_index (Proc.devRef .tc main_v170)) = rowOf3 (F := Ideal) (V (Proc.devRef .tc main_arg13)) := by
  simp only [st21]
  after_results_simp
  rfl

theorem st21_main_v172 (V : Valuation τ sig (Elt Ideal)) :
    after (st21 (F := Ideal)) V (no_index (Proc.devRef .tc main_v172)) = rowOf3 (F := Ideal) (V (Proc.devRef .tc main_arg14)) := by
  simp only [st21]
  after_results_simp
  rfl

theorem st21_main_v174 (V : Valuation τ sig (Elt Ideal)) :
    after (st21 (F := Ideal)) V (no_index (Proc.devRef .tc main_v174)) = rowOf3 (F := Ideal) (V (Proc.devRef .tc main_arg15)) := by
  simp only [st21]
  after_results_simp
  rfl

abbrev st21_W : List (Ref sig .tc) := [main_v161, main_v162, main_v163, main_v164, main_v165, main_v166, main_v167, main_v168, main_v169, main_v170, main_v171, main_v172, main_v173, main_v174]
theorem st21_writes : (st21 (F := Ideal)).Forall fun op => op.writes ⊆ (st21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st21_keep (V : Valuation τ sig (Elt Ideal)) (r : Ref sig .tc) (h : r ∉ st21_W) :
    after (st21 (F := Ideal)) V (Proc.devRef .tc r) = V (Proc.devRef .tc r) :=
  after_of_writes_sub st21 _ st21_writes h

/-- The operations of part 22 (aggIn3). -/
abbrev st22 : List (HloOp τ sig (Elt F)) :=
  [ StableHlo.nullary main_c_22 (constantI S_ 32 0#32),
    StableHlo.unary main_c_22 main_v175 (broadcastInDim S1600000 ![] bcast_S_S1600000 : (⟨S_, .i32⟩ : BufTy).Contents (Elt F) → (⟨S1600000, .i32⟩ : BufTy).Contents (Elt F)),
    StableHlo.binary main_v1 main_v175 main_v176 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v177 (broadcastInDim S1600000 ![] bcast_S_S1600000 : (⟨S_, .i32⟩ : BufTy).Contents (Elt F) → (⟨S1600000, .i32⟩ : BufTy).Contents (Elt F)),
    StableHlo.binary main_v1 main_v177 main_v178 (addi : (⟨S1600000, .i32⟩ : BufTy).Contents (Elt F) → (⟨S1600000, .i32⟩ : BufTy).Contents (Elt F) → (⟨S1600000, .i32⟩ : BufTy).Contents (Elt F)),
    StableHlo.ternary main_v176 main_v178 main_v1 main_v179 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v179 main_v180 (broadcastInDim S1600000x1 ![0] bcast_S1600000_S1600000x1_0 : (⟨S1600000, .i32⟩ : BufTy).Contents (Elt F) → (⟨S1600000x1, .i32⟩ : BufTy).Contents (Elt F)),
    StableHlo.binary main_v160 main_v180 main_v181 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v182 (broadcastInDim S100000x128 ![] bcast_S_S100000x128 : (⟨S_, .f32⟩ : BufTy).Contents (Elt F) → (⟨S100000x128, .f32⟩ : BufTy).Contents (Elt F)),
    StableHlo.unary main_v3 main_v183 (broadcastInDim S1600000x1 ![0] bcast_S1600000_S1600000x1_0 : (⟨S1600000, .i32⟩ : BufTy).Contents (Elt F) → (⟨S1600000x1, .i32⟩ : BufTy).Contents (Elt F)),
    StableHlo.ternary main_v182 main_v183 main_v181 main_v184 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_25 (constant S_ .f32 0x3F800000#32),
    StableHlo.binary main_cst_25 main_v162 main_v185 (addf : (⟨S_, .f32⟩ : BufTy).Contents (Elt F) → (⟨S_, .f32⟩ : BufTy).Contents (Elt F) → (⟨S_, .f32⟩ : BufTy).Contents (Elt F)),
    StableHlo.unary main_v185 main_v186 (broadcastInDim S100000x128 ![] bcast_S_S100000x128 : (⟨S_, .f32⟩ : BufTy).Contents (Elt F) → (⟨S100000x128, .f32⟩ : BufTy).Contents (Elt F)),
    StableHlo.binary main_v186 main_v160 main_v187 (mulf : (⟨S100000x128, .f32⟩ : BufTy).Contents (Elt F) → (⟨S100000x128, .f32⟩ : BufTy).Contents (Elt F) → (⟨S100000x128, .f32⟩ : BufTy).Contents (Elt F)),
    StableHlo.binary main_v187 main_v184 main_v188 (addf : (⟨S100000x128, .f32⟩ : BufTy).Contents (Elt F) → (⟨S100000x128, .f32⟩ : BufTy).Contents (Elt F) → (⟨S100000x128, .f32⟩ : BufTy).Contents (Elt F)) ]

theorem st22_main_v188 (V : Valuation τ sig (Elt Ideal)) :
    after (st22 (F := Ideal)) V (no_index (Proc.devRef .tc main_v188)) = aggIn128 (F := Ideal) (V (Proc.devRef .tc main_v162)) (V (Proc.devRef .tc main_v160)) (V (Proc.devRef .tc main_v3)) (V (Proc.devRef .tc main_v1)) := by
  simp only [st22]
  after_results_simp
  rfl

abbrev st22_W : List (Ref sig .tc) := [main_c_22, main_v175, main_v176, main_c_23, main_v177, main_v178, main_v179, main_v180, main_v181, main_cst_24, main_v182, main_v183, main_v184, main_cst_25, main_v185, main_v186, main_v187, main_v188]
theorem st22_writes : (st22 (F := Ideal)).Forall fun op => op.writes ⊆ (st22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st22_keep (V : Valuation τ sig (Elt Ideal)) (r : Ref sig .tc) (h : r ∉ st22_W) :
    after (st22 (F := Ideal)) V (Proc.devRef .tc r) = V (Proc.devRef .tc r) :=
  after_of_writes_sub st22 _ st22_writes h

/-- The operations of part 23 (denseA3). -/
abbrev st23 : List (HloOp τ sig (Elt F)) :=
  [ StableHlo.binary main_v188 main_v164 main_v189 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v166 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v191 main_v192 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v192 : StableHlo.TRef sig ⟨S100000x128, .f32⟩) main_call9.v0 main_call9.v1 maximumf ]

theorem st23_main_v193 (V : Valuation τ sig (Elt Ideal)) :
    after (st23 (F := Ideal)) V (no_index (Proc.devRef .tc main_v193)) = dense128 (F := Ideal) (V (Proc.devRef .tc main_v188)) (V (Proc.devRef .tc main_v164)) (V (Proc.devRef .tc main_v166)) := by
  simp only [st23]
  after_results_simp
  rfl

abbrev st23_W : List (Ref sig .tc) := [main_v189, main_v190, main_v191, main_v192, main_call9_cst, main_call9_v0, main_v193]
theorem st23_writes : (st23 (F := Ideal)).Forall fun op => op.writes ⊆ (st23_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st23_keep (V : Valuation τ sig (Elt Ideal)) (r : Ref sig .tc) (h : r ∉ st23_W) :
    after (st23 (F := Ideal)) V (Proc.devRef .tc r) = V (Proc.devRef .tc r) :=
  after_of_writes_sub st23 _ st23_writes h

end Cert.ReferenceIdeal.RefRun

end
-- ==== Proof.RefRunStages3.lean ====
/- The operations of some parts of the reference, each part a list, and what each part leaves in the buffers later
   parts read: the part's pure function of the contents it reads; and which buffers a part writes. -/
import proofs.«168812_j9088150798767_1_alg».proof.Proof.RefRunDefs
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of part 24 (denseB3). -/
abbrev st24 : List (HloOp τ sig (Elt F)) :=
  [ StableHlo.binary main_v193 main_v168 main_v194 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v170 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S100000x128 ![0, 1] bcast_S1x128_S100000x128_0_1 : (⟨S1x128, .f32⟩ : BufTy).Contents (Elt F) → (⟨S100000x128, .f32⟩ : BufTy).Contents (Elt F)),
    StableHlo.binary main_v194 main_v196 main_v197 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v197 : StableHlo.TRef sig ⟨S100000x128, .f32⟩) main_call10.v0 main_call10.v1 maximumf ]

theorem st24_main_v198 (V : Valuation τ sig (Elt Ideal)) :
    after (st24 (F := Ideal)) V (no_index (Proc.devRef .tc main_v198)) = dense128 (F := Ideal) (V (Proc.devRef .tc main_v193)) (V (Proc.devRef .tc main_v168)) (V (Proc.devRef .tc main_v170)) := by
  simp only [st24]
  after_results_simp
  rfl

abbrev st24_W : List (Ref sig .tc) := [main_v194, main_v195, main_v196, main_v197, main_call10_cst, main_call10_v0, main_v198]
theorem st24_writes : (st24 (F := Ideal)).Forall fun op => op.writes ⊆ (st24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st24_keep (V : Valuation τ sig (Elt Ideal)) (r : Ref sig .tc) (h : r ∉ st24_W) :
    after (st24 (F := Ideal)) V (Proc.devRef .tc r) = V (Proc.devRef .tc r) :=
  after_of_writes_sub st24 _ st24_writes h

/-- The operations of part 25 (mean3). -/
abbrev st25 : List (HloOp τ sig (Elt F)) :=
  [ StableHlo.nullary main_cst_26 (constant S_ .f32 0x00000000#32),
    StableHlo.binary main_v198 main_cst_26 main_v199 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v200 (broadcastInDim S128 ![] bcast_S_S128 : (⟨S_, .f32⟩ : BufTy).Contents (Elt F) → (⟨S128, .f32⟩ : BufTy).Contents (Elt F)),
    StableHlo.binary main_v199 main_v200 main_v201 (Host.divf : (⟨S128, .f32⟩ : BufTy).Contents (Elt F) → (⟨S128, .f32⟩ : BufTy).Contents (Elt F) → (⟨S128, .f32⟩ : BufTy).Contents (Elt F)) ]

theorem st25_main_v201 (V : Valuation τ sig (Elt Ideal)) :
    after (st25 (F := Ideal)) V (no_index (Proc.devRef .tc main_v201)) = colMean (F := Ideal) (V (Proc.devRef .tc main_v198)) := by
  simp only [st25]
  after_results_simp
  rfl

abbrev st25_W : List (Ref sig .tc) := [main_cst_26, main_v199, main_cst_27, main_v200, main_v201]
theorem st25_writes : (st25 (F := Ideal)).Forall fun op => op.writes ⊆ (st25_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st25_keep (V : Valuation τ sig (Elt Ideal)) (r : Ref sig .tc) (h : r ∉ st25_W) :
    after (st25 (F := Ideal)) V (Proc.devRef .tc r) = V (Proc.devRef .tc r) :=
  after_of_writes_sub st25 _ st25_writes h

/-- The operations of part 26 (var3). -/
abbrev st26 : List (HloOp τ sig (Elt F)) :=
  [ StableHlo.nullary main_c_28 (constantI S_ 32 0#32),
    StableHlo.TRef.nullary main_call11.cst (constant S_ .f32 0x00000000#32),
    StableHlo.TRef.binary (.of main_v198 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v198 : StableHlo.TRef sig ⟨S100000x128, .f32⟩) main_call11.v4 main_call11.v5 subf,
    StableHlo.TRef.binary main_call11.v5 main_call11.v5 main_call11.v6 mulf,
    StableHlo.TRef.unary (.of main_c_28 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b) ]

theorem st26_main_v202 (V : Valuation τ sig (Elt Ideal)) :
    after (st26 (F := Ideal)) V (no_index (Proc.devRef .tc main_v202)) = colVar (F := Ideal) (V (Proc.devRef .tc main_v198)) := by
  simp only [st26]
  after_results_simp
  rfl

abbrev st26_W : List (Ref sig .tc) := [main_c_28, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v202]
theorem st26_writes : (st26 (F := Ideal)).Forall fun op => op.writes ⊆ (st26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st26_keep (V : Valuation τ sig (Elt Ideal)) (r : Ref sig .tc) (h : r ∉ st26_W) :
    after (st26 (F := Ideal)) V (Proc.devRef .tc r) = V (Proc.devRef .tc r) :=
  after_of_writes_sub st26 _ st26_writes h

/-- The operations of part 27 (norm3). -/
abbrev st27 : List (HloOp τ sig (Elt F)) :=
  [ StableHlo.unary main_v201 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S100000x128 ![0, 1] bcast_S1x128_S100000x128_0_1 : (⟨S1x128, .f32⟩ : BufTy).Contents (Elt F) → (⟨S100000x128, .f32⟩ : BufTy).Contents (Elt F)),
    StableHlo.binary main_v198 main_v204 main_v205 (subf : (⟨S100000x128, .f32⟩ : BufTy).Contents (Elt F) → (⟨S100000x128, .f32⟩ : BufTy).Contents (Elt F) → (⟨S100000x128, .f32⟩ : BufTy).Contents (Elt F)),
    StableHlo.unary main_v172 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v205 main_v208 (mulf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v209 (broadcastInDim S128 ![] bcast_S_S128 : (⟨S_, .f32⟩ : BufTy).Contents (Elt F) → (⟨S128, .f32⟩ : BufTy).Contents (Elt F)),
    StableHlo.binary main_v202 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v213 main_v214 (mulf : (⟨S100000x128, .f32⟩ : BufTy).Contents (Elt F) → (⟨S100000x128, .f32⟩ : BufTy).Contents (Elt F) → (⟨S100000x128, .f32⟩ : BufTy).Contents (Elt F)),
    StableHlo.unary main_v174 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S100000x128 ![0, 1] bcast_S1x128_S100000x128_0_1 : (⟨S1x128, .f32⟩ : BufTy).Contents (Elt F) → (⟨S100000x128, .f32⟩ : BufTy).Contents (Elt F)),
    StableHlo.binary main_v214 main_v216 main_v217 (addf : (⟨S100000x128, .f32⟩ : BufTy).Contents (Elt F) → (⟨S100000x128, .f32⟩ : BufTy).Contents (Elt F) → (⟨S100000x128, .f32⟩ : BufTy).Contents (Elt F)) ]

theorem st27_main_v217 (V : Valuation τ sig (Elt Ideal)) :
    after (st27 (F := Ideal)) V (no_index (Proc.devRef .tc main_v217)) = normalize (F := Ideal) (V (Proc.devRef .tc main_v172)) (V (Proc.devRef .tc main_v198)) (V (Proc.devRef .tc main_v201)) (V (Proc.devRef .tc main_v202)) (V (Proc.devRef .tc main_v174)) := by
  simp only [st27]
  after_results_simp
  rfl

abbrev st27_W : List (Ref sig .tc) := [main_v203, main_v204, main_v205, main_v206, main_v207, main_v208, main_cst_29, main_v209, main_v210, main_v211, main_v212, main_v213, main_v214, main_v215, main_v216, main_v217]
theorem st27_writes : (st27 (F := Ideal)).Forall fun op => op.writes ⊆ (st27_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st27_keep (V : Valuation τ sig (Elt Ideal)) (r : Ref sig .tc) (h : r ∉ st27_W) :
    after (st27 (F := Ideal)) V (Proc.devRef .tc r) = V (Proc.devRef .tc r) :=
  after_of_writes_sub st27 _ st27_writes h

/-- The operations of part 28 (concat). -/
abbrev st28 : List (HloOp τ sig (Elt F)) :=
  [ StableHlo.nary ![main_v46, main_v103, main_v160, main_v217] main_v218 (fun u => concatenate S100000x512 1 [⟨S100000x128, u 0⟩, ⟨S100000x128, u 1⟩, ⟨S100000x128, u 2⟩, ⟨S100000x128, u 3⟩] concatenates_S100000x128_S100000x128_S100000x128_S100000x128_S100000x512_d1) ]

theorem st28_main_v218 (V : Valuation τ sig (Elt Ideal)) :
    after (st28 (F := Ideal)) V (no_index (Proc.devRef .tc main_v218)) = concat (F := Ideal) (V (Proc.devRef .tc main_v46)) (V (Proc.devRef .tc main_v103)) (V (Proc.devRef .tc main_v160)) (V (Proc.devRef .tc main_v217)) := by
  simp only [st28]
  after_results_simp
  rfl

abbrev st28_W : List (Ref sig .tc) := [main_v218]
theorem st28_writes : (st28 (F := Ideal)).Forall fun op => op.writes ⊆ (st28_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem st28_keep (V : Valuation τ sig (Elt Ideal)) (r : Ref sig .tc) (h : r ∉ st28_W) :
    after (st28 (F := Ideal)) V (Proc.devRef .tc r) = V (Proc.devRef .tc r) :=
  after_of_writes_sub st28 _ st28_writes h

/-- The operations of part 29 (poolSums). -/
abbrev st29 : List (HloOp τ sig (Elt F)) :=
  [ StableHlo.nullary main_cst_30 (constant S_ .f32 0x00000000#32),
    StableHlo.unary main_cst_30 main_v219 (broadcastInDim S64x512 ![] bcast_S_S64x512 : (⟨S_, .f32⟩ : BufTy).Contents (Elt F) → (⟨S64x512, .f32⟩ : BufTy).Contents (Elt F)),
    StableHlo.unary main_arg2 main_v220 (broadcastInDim S100000x1 ![0] bcast_S100000_S100000x1_0 : (⟨S100000, .i32⟩ : BufTy).Contents (Elt F) → (⟨S100000x1, .i32⟩ : BufTy).Contents (Elt F)),
    StableHlo.ternary main_v219 main_v220 main_v218 main_v221 ((fun x i u => Host.scatterAdd scatter_S64x512_S100000x1_S100000x512_1_0_0_1 x i u) : (⟨S64x512, .f32⟩ : BufTy).Contents (Elt F) → (⟨S100000x1, .i32⟩ : BufTy).Contents (Elt F) → (⟨S100000x512, .f32⟩ : BufTy).Contents (Elt F) → (⟨S64x512, .f32⟩ : BufTy).Contents (Elt F)) ]

theorem st29_main_v221 (V : Valuation τ sig (Elt Ideal)) :
    after (st29 (F := Ideal)) V (no_index (Proc.devRef .tc main_v221)) = poolSums (F := Ideal) (V (Proc.devRef .tc main_arg2)) (V (Proc.devRef .tc main_v218)) := by
  simp only [st29]
  after_results_simp
  rfl

abbrev st29_W : List (Ref sig .tc) := [main_cst_30, main_v219, main_v220, main_v221]
theorem st29_writes : (st29 (F := Ideal)).Forall fun op => op.writes ⊆ (st29_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st29_keep (V : Valuation τ sig (Elt Ideal)) (r : Ref sig .tc) (h : r ∉ st29_W) :
    after (st29 (F := Ideal)) V (Proc.devRef .tc r) = V (Proc.devRef .tc r) :=
  after_of_writes_sub st29 _ st29_writes h

/-- The operations of part 30 (poolCounts). -/
abbrev st30 : List (HloOp τ sig (Elt F)) :=
  [ StableHlo.nullary main_cst_31 (constant S_ .f32 0x3F800000#32),
    StableHlo.unary main_cst_31 main_v222 (broadcastInDim S100000 ![] bcast_S_S100000 : (⟨S_, .f32⟩ : BufTy).Contents (Elt F) → (⟨S100000, .f32⟩ : BufTy).Contents (Elt F)),
    StableHlo.nullary main_cst_32 (constant S_ .f32 0x00000000#32),
    StableHlo.unary main_cst_32 main_v223 (broadcastInDim S64 ![] bcast_S_S64 : (⟨S_, .f32⟩ : BufTy).Contents (Elt F) → (⟨S64, .f32⟩ : BufTy).Contents (Elt F)),
    StableHlo.unary main_arg2 main_v224 (broadcastInDim S100000x1 ![0] bcast_S100000_S100000x1_0 : (⟨S100000, .i32⟩ : BufTy).Contents (Elt F) → (⟨S100000x1, .i32⟩ : BufTy).Contents (Elt F)),
    StableHlo.ternary main_v223 main_v224 main_v222 main_v225 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_33 (constant S_ .f32 0x3F800000#32),
    StableHlo.unary main_cst_33 main_v226 (broadcastInDim S64 ![] bcast_S_S64 : (⟨S_, .f32⟩ : BufTy).Contents (Elt F) → (⟨S64, .f32⟩ : BufTy).Contents (Elt F)),
    StableHlo.binary main_v225 main_v226 main_v227 (maximumf : (⟨S64, .f32⟩ : BufTy).Contents (Elt F) → (⟨S64, .f32⟩ : BufTy).Contents (Elt F) → (⟨S64, .f32⟩ : BufTy).Contents (Elt F)) ]

theorem st30_main_v227 (V : Valuation τ sig (Elt Ideal)) :
    after (st30 (F := Ideal)) V (no_index (Proc.devRef .tc main_v227)) = poolCounts (F := Ideal) (V (Proc.devRef .tc main_arg2)) := by
  simp only [st30]
  after_results_simp
  rfl

abbrev st30_W : List (Ref sig .tc) := [main_cst_31, main_v222, main_cst_32, main_v223, main_v224, main_v225, main_cst_33, main_v226, main_v227]
theorem st30_writes : (st30 (F := Ideal)).Forall fun op => op.writes ⊆ (st30_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st30_keep (V : Valuation τ sig (Elt Ideal)) (r : Ref sig .tc) (h : r ∉ st30_W) :
    after (st30 (F := Ideal)) V (Proc.devRef .tc r) = V (Proc.devRef .tc r) :=
  after_of_writes_sub st30 _ st30_writes h

/-- The operations of part 31 (pooled). -/
abbrev st31 : List (HloOp τ sig (Elt F)) :=
  [ StableHlo.unary main_v227 main_v228 (broadcastInDim S64x1 ![0] bcast_S64_S64x1_0 : (⟨S64, .f32⟩ : BufTy).Contents (Elt F) → (⟨S64x1, .f32⟩ : BufTy).Contents (Elt F)),
    StableHlo.unary main_v228 main_v229 (broadcastInDim S64x512 ![0, 1] bcast_S64x1_S64x512_0_1 : (⟨S64x1, .f32⟩ : BufTy).Contents (Elt F) → (⟨S64x512, .f32⟩ : BufTy).Contents (Elt F)),
    StableHlo.binary main_v221 main_v229 main_v230 (Host.divf : (⟨S64x512, .f32⟩ : BufTy).Contents (Elt F) → (⟨S64x512, .f32⟩ : BufTy).Contents (Elt F) → (⟨S64x512, .f32⟩ : BufTy).Contents (Elt F)) ]

theorem st31_main_v230 (V : Valuation τ sig (Elt Ideal)) :
    after (st31 (F := Ideal)) V (no_index (Proc.devRef .tc main_v230)) = pooled (F := Ideal) (V (Proc.devRef .tc main_v221)) (V (Proc.devRef .tc main_v227)) := by
  simp only [st31]
  after_results_simp
  rfl

abbrev st31_W : List (Ref sig .tc) := [main_v228, main_v229, main_v230]
theorem st31_writes : (st31 (F := Ideal)).Forall fun op => op.writes ⊆ (st31_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st31_keep (V : Valuation τ sig (Elt Ideal)) (r : Ref sig .tc) (h : r ∉ st31_W) :
    after (st31 (F := Ideal)) V (Proc.devRef .tc r) = V (Proc.devRef .tc r) :=
  after_of_writes_sub st31 _ st31_writes h

end Cert.ReferenceIdeal.RefRun

end
-- ==== Proof.RefRunStages4.lean ====
/- The operations of some parts of the reference, each part a list, and what each part leaves in the buffers later
   parts read: the part's pure function of the contents it reads; and which buffers a part writes. -/
import proofs.«168812_j9088150798767_1_alg».proof.Proof.RefRunDefs
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of part 32 (cls1). -/
abbrev st32 : List (HloOp τ sig (Elt F)) :=
  [ StableHlo.binary main_v230 main_arg17 main_v231 ((fun l r => Host.dotGeneral dot_S64x512_S512x256_S64x256_1_0_0_1_n_n none l r) : (⟨S64x512, .f32⟩ : BufTy).Contents (Elt F) → (⟨S512x256, .f32⟩ : BufTy).Contents (Elt F) → (⟨S64x256, .f32⟩ : BufTy).Contents (Elt F)),
    StableHlo.unary main_arg18 main_v232 (broadcastInDim S1x256 ![1] bcast_S256_S1x256_1 : (⟨S256, .f32⟩ : BufTy).Contents (Elt F) → (⟨S1x256, .f32⟩ : BufTy).Contents (Elt F)),
    StableHlo.unary main_v232 main_v233 (broadcastInDim S64x256 ![0, 1] bcast_S1x256_S64x256_0_1 : (⟨S1x256, .f32⟩ : BufTy).Contents (Elt F) → (⟨S64x256, .f32⟩ : BufTy).Contents (Elt F)),
    StableHlo.binary main_v231 main_v233 main_v234 (addf : (⟨S64x256, .f32⟩ : BufTy).Contents (Elt F) → (⟨S64x256, .f32⟩ : BufTy).Contents (Elt F) → (⟨S64x256, .f32⟩ : BufTy).Contents (Elt F)),
    StableHlo.TRef.nullary main_call12.cst (constant S_ .f32 0x00000000#32),
    StableHlo.TRef.unary main_call12.cst main_call12.v0 (broadcastInDim S64x256 ![] bcast_S_S64x256),
    StableHlo.TRef.binary (.of main_v234 : StableHlo.TRef sig ⟨S64x256, .f32⟩) main_call12.v0 main_call12.v1 maximumf ]

theorem st32_main_v235 (V : Valuation τ sig (Elt Ideal)) :
    after (st32 (F := Ideal)) V (no_index (Proc.devRef .tc main_v235)) = cls1 (F := Ideal) (V (Proc.devRef .tc main_v230)) (V (Proc.devRef .tc main_arg17)) (V (Proc.devRef .tc main_arg18)) := by
  simp only [st32]
  after_results_simp
  rfl

abbrev st32_W : List (Ref sig .tc) := [main_v231, main_v232, main_v233, main_v234, main_call12_cst, main_call12_v0, main_v235]
theorem st32_writes : (st32 (F := Ideal)).Forall fun op => op.writes ⊆ (st32_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st32_keep (V : Valuation τ sig (Elt Ideal)) (r : Ref sig .tc) (h : r ∉ st32_W) :
    after (st32 (F := Ideal)) V (Proc.devRef .tc r) = V (Proc.devRef .tc r) :=
  after_of_writes_sub st32 _ st32_writes h

/-- The operations of part 33 (cls2). -/
abbrev st33 : List (HloOp τ sig (Elt F)) :=
  [ StableHlo.binary main_v235 main_arg19 main_v236 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    StableHlo.unary main_arg20 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S64x128 ![0, 1] bcast_S1x128_S64x128_0_1 : (⟨S1x128, .f32⟩ : BufTy).Contents (Elt F) → (⟨S64x128, .f32⟩ : BufTy).Contents (Elt F)),
    StableHlo.binary main_v236 main_v238 main_v239 (addf : (⟨S64x128, .f32⟩ : BufTy).Contents (Elt F) → (⟨S64x128, .f32⟩ : BufTy).Contents (Elt F) → (⟨S64x128, .f32⟩ : BufTy).Contents (Elt F)),
    StableHlo.TRef.nullary main_call13.cst (constant S_ .f32 0x00000000#32),
    StableHlo.TRef.unary main_call13.cst main_call13.v0 (broadcastInDim S64x128 ![] bcast_S_S64x128),
    StableHlo.TRef.binary (.of main_v239 : StableHlo.TRef sig ⟨S64x128, .f32⟩) main_call13.v0 main_call13.v1 maximumf ]

theorem st33_main_v240 (V : Valuation τ sig (Elt Ideal)) :
    after (st33 (F := Ideal)) V (no_index (Proc.devRef .tc main_v240)) = cls2 (F := Ideal) (V (Proc.devRef .tc main_v235)) (V (Proc.devRef .tc main_arg19)) (V (Proc.devRef .tc main_arg20)) := by
  simp only [st33]
  after_results_simp
  rfl

abbrev st33_W : List (Ref sig .tc) := [main_v236, main_v237, main_v238, main_v239, main_call13_cst, main_call13_v0, main_v240]
theorem st33_writes : (st33 (F := Ideal)).Forall fun op => op.writes ⊆ (st33_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st33_keep (V : Valuation τ sig (Elt Ideal)) (r : Ref sig .tc) (h : r ∉ st33_W) :
    after (st33 (F := Ideal)) V (Proc.devRef .tc r) = V (Proc.devRef .tc r) :=
  after_of_writes_sub st33 _ st33_writes h

/-- The operations of part 34 (cls3). -/
abbrev st34 : List (HloOp τ sig (Elt F)) :=
  [ StableHlo.binary main_v240 main_arg21 main_v241 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg22 main_v242 (broadcastInDim S1x128 ![1] bcast_S128_S1x128_1 : (⟨S128, .f32⟩ : BufTy).Contents (Elt F) → (⟨S1x128, .f32⟩ : BufTy).Contents (Elt F)),
    StableHlo.unary main_v242 main_v243 (broadcastInDim S64x128 ![0, 1] bcast_S1x128_S64x128_0_1 : (⟨S1x128, .f32⟩ : BufTy).Contents (Elt F) → (⟨S64x128, .f32⟩ : BufTy).Contents (Elt F)),
    StableHlo.binary main_v241 main_v243 main_v244 (addf : (⟨S64x128, .f32⟩ : BufTy).Contents (Elt F) → (⟨S64x128, .f32⟩ : BufTy).Contents (Elt F) → (⟨S64x128, .f32⟩ : BufTy).Contents (Elt F)),
    StableHlo.TRef.nullary main_call14.cst (constant S_ .f32 0x00000000#32),
    StableHlo.TRef.unary main_call14.cst main_call14.v0 (broadcastInDim S64x128 ![] bcast_S_S64x128),
    StableHlo.TRef.binary (.of main_v244 : StableHlo.TRef sig ⟨S64x128, .f32⟩) main_call14.v0 main_call14.v1 maximumf ]

theorem st34_main_v245 (V : Valuation τ sig (Elt Ideal)) :
    after (st34 (F := Ideal)) V (no_index (Proc.devRef .tc main_v245)) = cls3 (F := Ideal) (V (Proc.devRef .tc main_v240)) (V (Proc.devRef .tc main_arg21)) (V (Proc.devRef .tc main_arg22)) := by
  simp only [st34]
  after_results_simp
  rfl

abbrev st34_W : List (Ref sig .tc) := [main_v241, main_v242, main_v243, main_v244, main_call14_cst, main_call14_v0, main_v245]
theorem st34_writes : (st34 (F := Ideal)).Forall fun op => op.writes ⊆ (st34_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st34_keep (V : Valuation τ sig (Elt Ideal)) (r : Ref sig .tc) (h : r ∉ st34_W) :
    after (st34 (F := Ideal)) V (Proc.devRef .tc r) = V (Proc.devRef .tc r) :=
  after_of_writes_sub st34 _ st34_writes h

/-- The operations of part 35 (cls4). -/
abbrev st35 : List (HloOp τ sig (Elt F)) :=
  [ StableHlo.binary main_v245 main_arg23 main_v246 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    StableHlo.unary main_arg24 main_v247 (broadcastInDim S1x10 ![1] bcast_S10_S1x10_1 : (⟨S10, .f32⟩ : BufTy).Contents (Elt F) → (⟨S1x10, .f32⟩ : BufTy).Contents (Elt F)),
    StableHlo.unary main_v247 main_v248 (broadcastInDim S64x10 ![0, 1] bcast_S1x10_S64x10_0_1 : (⟨S1x10, .f32⟩ : BufTy).Contents (Elt F) → (⟨S64x10, .f32⟩ : BufTy).Contents (Elt F)),
    StableHlo.binary main_v246 main_v248 main_v249 (addf : (⟨S64x10, .f32⟩ : BufTy).Contents (Elt F) → (⟨S64x10, .f32⟩ : BufTy).Contents (Elt F) → (⟨S64x10, .f32⟩ : BufTy).Contents (Elt F)) ]

theorem st35_main_v249 (V : Valuation τ sig (Elt Ideal)) :
    after (st35 (F := Ideal)) V (no_index (Proc.devRef .tc main_v249)) = cls4 (F := Ideal) (V (Proc.devRef .tc main_v245)) (V (Proc.devRef .tc main_arg23)) (V (Proc.devRef .tc main_arg24)) := by
  simp only [st35]
  after_results_simp
  rfl

abbrev st35_W : List (Ref sig .tc) := [main_v246, main_v247, main_v248, main_v249]
theorem st35_writes : (st35 (F := Ideal)).Forall fun op => op.writes ⊆ (st35_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st35_keep (V : Valuation τ sig (Elt Ideal)) (r : Ref sig .tc) (h : r ∉ st35_W) :
    after (st35 (F := Ideal)) V (Proc.devRef .tc r) = V (Proc.devRef .tc r) :=
  after_of_writes_sub st35 _ st35_writes h

/-- The operations of part 36 (logSoftmaxOut). -/
abbrev st36 : List (HloOp τ sig (Elt F)) :=
  [ StableHlo.TRef.nullary main_call15.cst (constant S_ .f32 0xFF800000#32),
    StableHlo.TRef.binary (.of main_v249 : StableHlo.TRef sig ⟨S64x10, .f32⟩) main_call15.cst main_call15.v0 (fun x v => Host.reduce FloatOps.maximumf x v reducesTo_S64x10_S64_d1 h_S_),
    StableHlo.TRef.nullary main_call15.cst_0 (constant S_ .f32 0xFF800000#32),
    StableHlo.TRef.unary main_call15.cst_0 main_call15.v1 (broadcastInDim S64 ![] bcast_S_S64),
    StableHlo.TRef.binary main_call15.v1 main_call15.v0 main_call15.v2 maximumf,
    StableHlo.TRef.unary main_call15.v2 main_call15.v3 (broadcastInDim S64x1 ![0] bcast_S64_S64x1_0),
    StableHlo.TRef.unary main_call15.v3 main_call15.v4 (broadcastInDim S64x10 ![0, 1] bcast_S64x1_S64x10_0_1),
    StableHlo.TRef.binary (.of main_v249 : StableHlo.TRef sig ⟨S64x10, .f32⟩) main_call15.v4 main_call15.v5 subf,
    StableHlo.TRef.unary main_call15.v5 main_call15.v6 Host.exp,
    StableHlo.TRef.nullary main_call15.cst_1 (constant S_ .f32 0x00000000#32),
    StableHlo.TRef.binary main_call15.v6 main_call15.cst_1 main_call15.v7 (fun x v => Host.reduceAdd x v reducesTo_S64x10_S64_d1 h_S_),
    StableHlo.TRef.unary main_call15.v7 main_call15.v8 (broadcastInDim S64x1 ![0] bcast_S64_S64x1_0),
    StableHlo.TRef.unary main_call15.v8 main_call15.v9 Host.log,
    StableHlo.TRef.unary main_call15.v9 main_call15.v10 (broadcastInDim S64x10 ![0, 1] bcast_S64x1_S64x10_0_1),
    StableHlo.TRef.binary main_call15.v5 main_call15.v10 main_call15.v11 subf ]

theorem st36_main_v250 (V : Valuation τ sig (Elt Ideal)) :
    after (st36 (F := Ideal)) V (no_index (Proc.devRef .tc main_v250)) = logSoftmax (F := Ideal) (V (Proc.devRef .tc main_v249)) := by
  simp only [st36]
  after_results_simp
  rfl

abbrev st36_W : List (Ref sig .tc) := [main_call15_cst, main_call15_v0, main_call15_cst_0, main_call15_v1, main_call15_v2, main_call15_v3, main_call15_v4, main_call15_v5, main_call15_v6, main_call15_cst_1, main_call15_v7, main_call15_v8, main_call15_v9, main_call15_v10, main_v250]
theorem st36_writes : (st36 (F := Ideal)).Forall fun op => op.writes ⊆ (st36_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem st36_keep (V : Valuation τ sig (Elt Ideal)) (r : Ref sig .tc) (h : r ∉ st36_W) :
    after (st36 (F := Ideal)) V (Proc.devRef .tc r) = V (Proc.devRef .tc r) :=
  after_of_writes_sub st36 _ st36_writes h

end Cert.ReferenceIdeal.RefRun

end
-- ==== Proof.RefRunChain.lean ====
/- The buffer contents after the first k parts of the reference, from any contents `V`, and for every buffer still read
   later (and every argument) its value as the named term of the arguments. -/
import proofs.«168812_j9088150798767_1_alg».proof.Proof.RefRunStages0
import proofs.«168812_j9088150798767_1_alg».proof.Proof.RefRunStages1
import proofs.«168812_j9088150798767_1_alg».proof.Proof.RefRunStages2
import proofs.«168812_j9088150798767_1_alg».proof.Proof.RefRunStages3
import proofs.«168812_j9088150798767_1_alg».proof.Proof.RefRunStages4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- A function of the 25 argument arrays, at the arguments' contents in `V`. -/
abbrev at25 {α : Type} (f : ∀ (a0 : (⟨S100000x16, .f32⟩ : BufTy).Contents (Elt Ideal)) (a1 : (⟨S2x1600000, .i32⟩ : BufTy).Contents (Elt Ideal)) (a2 : (⟨S100000, .i32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S_, .f32⟩ : BufTy).Contents (Elt Ideal)) (a10 : (⟨S3x128x128, .f32⟩ : BufTy).Contents (Elt Ideal)) (a11 : (⟨S3x128, .f32⟩ : BufTy).Contents (Elt Ideal)) (a12 : (⟨S3x128x128, .f32⟩ : BufTy).Contents (Elt Ideal)) (a13 : (⟨S3x128, .f32⟩ : BufTy).Contents (Elt Ideal)) (a14 : (⟨S3x128, .f32⟩ : BufTy).Contents (Elt Ideal)) (a15 : (⟨S3x128, .f32⟩ : BufTy).Contents (Elt Ideal)) (a16 : (⟨S3, .f32⟩ : BufTy).Contents (Elt Ideal)) (a17 : (⟨S512x256, .f32⟩ : BufTy).Contents (Elt Ideal)) (a18 : (⟨S256, .f32⟩ : BufTy).Contents (Elt Ideal)) (a19 : (⟨S256x128, .f32⟩ : BufTy).Contents (Elt Ideal)) (a20 : (⟨S128, .f32⟩ : BufTy).Contents (Elt Ideal)) (a21 : (⟨S128x128, .f32⟩ : BufTy).Contents (Elt Ideal)) (a22 : (⟨S128, .f32⟩ : BufTy).Contents (Elt Ideal)) (a23 : (⟨S128x10, .f32⟩ : BufTy).Contents (Elt Ideal)) (a24 : (⟨S10, .f32⟩ : BufTy).Contents (Elt Ideal)), α) (V : Valuation τ sig (Elt Ideal)) : α :=
  f (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24))

/-- The contents before the first part. -/
def val0 (V : Valuation τ sig (Elt Ideal)) : Valuation τ sig (Elt Ideal) := V
theorem val0_main_arg0 (V : Valuation τ sig (Elt Ideal)) : val0 V (no_index (Proc.devRef .tc main_arg0)) = V (Proc.devRef .tc main_arg0) := rfl
theorem val0_main_arg1 (V : Valuation τ sig (Elt Ideal)) : val0 V (no_index (Proc.devRef .tc main_arg1)) = V (Proc.devRef .tc main_arg1) := rfl
theorem val0_main_arg2 (V : Valuation τ sig (Elt Ideal)) : val0 V (no_index (Proc.devRef .tc main_arg2)) = V (Proc.devRef .tc main_arg2) := rfl
theorem val0_main_arg3 (V : Valuation τ sig (Elt Ideal)) : val0 V (no_index (Proc.devRef .tc main_arg3)) = V (Proc.devRef .tc main_arg3) := rfl
theorem val0_main_arg4 (V : Valuation τ sig (Elt Ideal)) : val0 V (no_index (Proc.devRef .tc main_arg4)) = V (Proc.devRef .tc main_arg4) := rfl
theorem val0_main_arg5 (V : Valuation τ sig (Elt Ideal)) : val0 V (no_index (Proc.devRef .tc main_arg5)) = V (Proc.devRef .tc main_arg5) := rfl
theorem val0_main_arg6 (V : Valuation τ sig (Elt Ideal)) : val0 V (no_index (Proc.devRef .tc main_arg6)) = V (Proc.devRef .tc main_arg6) := rfl
theorem val0_main_arg7 (V : Valuation τ sig (Elt Ideal)) : val0 V (no_index (Proc.devRef .tc main_arg7)) = V (Proc.devRef .tc main_arg7) := rfl
theorem val0_main_arg8 (V : Valuation τ sig (Elt Ideal)) : val0 V (no_index (Proc.devRef .tc main_arg8)) = V (Proc.devRef .tc main_arg8) := rfl
theorem val0_main_arg9 (V : Valuation τ sig (Elt Ideal)) : val0 V (no_index (Proc.devRef .tc main_arg9)) = V (Proc.devRef .tc main_arg9) := rfl
theorem val0_main_arg10 (V : Valuation τ sig (Elt Ideal)) : val0 V (no_index (Proc.devRef .tc main_arg10)) = V (Proc.devRef .tc main_arg10) := rfl
theorem val0_main_arg11 (V : Valuation τ sig (Elt Ideal)) : val0 V (no_index (Proc.devRef .tc main_arg11)) = V (Proc.devRef .tc main_arg11) := rfl
theorem val0_main_arg12 (V : Valuation τ sig (Elt Ideal)) : val0 V (no_index (Proc.devRef .tc main_arg12)) = V (Proc.devRef .tc main_arg12) := rfl
theorem val0_main_arg13 (V : Valuation τ sig (Elt Ideal)) : val0 V (no_index (Proc.devRef .tc main_arg13)) = V (Proc.devRef .tc main_arg13) := rfl
theorem val0_main_arg14 (V : Valuation τ sig (Elt Ideal)) : val0 V (no_index (Proc.devRef .tc main_arg14)) = V (Proc.devRef .tc main_arg14) := rfl
theorem val0_main_arg15 (V : Valuation τ sig (Elt Ideal)) : val0 V (no_index (Proc.devRef .tc main_arg15)) = V (Proc.devRef .tc main_arg15) := rfl
theorem val0_main_arg16 (V : Valuation τ sig (Elt Ideal)) : val0 V (no_index (Proc.devRef .tc main_arg16)) = V (Proc.devRef .tc main_arg16) := rfl
theorem val0_main_arg17 (V : Valuation τ sig (Elt Ideal)) : val0 V (no_index (Proc.devRef .tc main_arg17)) = V (Proc.devRef .tc main_arg17) := rfl
theorem val0_main_arg18 (V : Valuation τ sig (Elt Ideal)) : val0 V (no_index (Proc.devRef .tc main_arg18)) = V (Proc.devRef .tc main_arg18) := rfl
theorem val0_main_arg19 (V : Valuation τ sig (Elt Ideal)) : val0 V (no_index (Proc.devRef .tc main_arg19)) = V (Proc.devRef .tc main_arg19) := rfl
theorem val0_main_arg20 (V : Valuation τ sig (Elt Ideal)) : val0 V (no_index (Proc.devRef .tc main_arg20)) = V (Proc.devRef .tc main_arg20) := rfl
theorem val0_main_arg21 (V : Valuation τ sig (Elt Ideal)) : val0 V (no_index (Proc.devRef .tc main_arg21)) = V (Proc.devRef .tc main_arg21) := rfl
theorem val0_main_arg22 (V : Valuation τ sig (Elt Ideal)) : val0 V (no_index (Proc.devRef .tc main_arg22)) = V (Proc.devRef .tc main_arg22) := rfl
theorem val0_main_arg23 (V : Valuation τ sig (Elt Ideal)) : val0 V (no_index (Proc.devRef .tc main_arg23)) = V (Proc.devRef .tc main_arg23) := rfl
theorem val0_main_arg24 (V : Valuation τ sig (Elt Ideal)) : val0 V (no_index (Proc.devRef .tc main_arg24)) = V (Proc.devRef .tc main_arg24) := rfl

/-- The contents after the first 1 part. -/
def val1 (V : Valuation τ sig (Elt Ideal)) : Valuation τ sig (Elt Ideal) := after (st0 (F := Ideal)) (val0 V)
theorem val1_main_arg0 (V : Valuation τ sig (Elt Ideal)) : val1 V (no_index (Proc.devRef .tc main_arg0)) = V (Proc.devRef .tc main_arg0) :=
  (st0_keep (val0 V) main_arg0 (by decide)).trans (val0_main_arg0 V)
theorem val1_main_arg1 (V : Valuation τ sig (Elt Ideal)) : val1 V (no_index (Proc.devRef .tc main_arg1)) = V (Proc.devRef .tc main_arg1) :=
  (st0_keep (val0 V) main_arg1 (by decide)).trans (val0_main_arg1 V)
theorem val1_main_arg2 (V : Valuation τ sig (Elt Ideal)) : val1 V (no_index (Proc.devRef .tc main_arg2)) = V (Proc.devRef .tc main_arg2) :=
  (st0_keep (val0 V) main_arg2 (by decide)).trans (val0_main_arg2 V)
theorem val1_main_arg3 (V : Valuation τ sig (Elt Ideal)) : val1 V (no_index (Proc.devRef .tc main_arg3)) = V (Proc.devRef .tc main_arg3) :=
  (st0_keep (val0 V) main_arg3 (by decide)).trans (val0_main_arg3 V)
theorem val1_main_arg4 (V : Valuation τ sig (Elt Ideal)) : val1 V (no_index (Proc.devRef .tc main_arg4)) = V (Proc.devRef .tc main_arg4) :=
  (st0_keep (val0 V) main_arg4 (by decide)).trans (val0_main_arg4 V)
theorem val1_main_arg5 (V : Valuation τ sig (Elt Ideal)) : val1 V (no_index (Proc.devRef .tc main_arg5)) = V (Proc.devRef .tc main_arg5) :=
  (st0_keep (val0 V) main_arg5 (by decide)).trans (val0_main_arg5 V)
theorem val1_main_arg6 (V : Valuation τ sig (Elt Ideal)) : val1 V (no_index (Proc.devRef .tc main_arg6)) = V (Proc.devRef .tc main_arg6) :=
  (st0_keep (val0 V) main_arg6 (by decide)).trans (val0_main_arg6 V)
theorem val1_main_arg7 (V : Valuation τ sig (Elt Ideal)) : val1 V (no_index (Proc.devRef .tc main_arg7)) = V (Proc.devRef .tc main_arg7) :=
  (st0_keep (val0 V) main_arg7 (by decide)).trans (val0_main_arg7 V)
theorem val1_main_arg8 (V : Valuation τ sig (Elt Ideal)) : val1 V (no_index (Proc.devRef .tc main_arg8)) = V (Proc.devRef .tc main_arg8) :=
  (st0_keep (val0 V) main_arg8 (by decide)).trans (val0_main_arg8 V)
theorem val1_main_arg9 (V : Valuation τ sig (Elt Ideal)) : val1 V (no_index (Proc.devRef .tc main_arg9)) = V (Proc.devRef .tc main_arg9) :=
  (st0_keep (val0 V) main_arg9 (by decide)).trans (val0_main_arg9 V)
theorem val1_main_arg10 (V : Valuation τ sig (Elt Ideal)) : val1 V (no_index (Proc.devRef .tc main_arg10)) = V (Proc.devRef .tc main_arg10) :=
  (st0_keep (val0 V) main_arg10 (by decide)).trans (val0_main_arg10 V)
theorem val1_main_arg11 (V : Valuation τ sig (Elt Ideal)) : val1 V (no_index (Proc.devRef .tc main_arg11)) = V (Proc.devRef .tc main_arg11) :=
  (st0_keep (val0 V) main_arg11 (by decide)).trans (val0_main_arg11 V)
theorem val1_main_arg12 (V : Valuation τ sig (Elt Ideal)) : val1 V (no_index (Proc.devRef .tc main_arg12)) = V (Proc.devRef .tc main_arg12) :=
  (st0_keep (val0 V) main_arg12 (by decide)).trans (val0_main_arg12 V)
theorem val1_main_arg13 (V : Valuation τ sig (Elt Ideal)) : val1 V (no_index (Proc.devRef .tc main_arg13)) = V (Proc.devRef .tc main_arg13) :=
  (st0_keep (val0 V) main_arg13 (by decide)).trans (val0_main_arg13 V)
theorem val1_main_arg14 (V : Valuation τ sig (Elt Ideal)) : val1 V (no_index (Proc.devRef .tc main_arg14)) = V (Proc.devRef .tc main_arg14) :=
  (st0_keep (val0 V) main_arg14 (by decide)).trans (val0_main_arg14 V)
theorem val1_main_arg15 (V : Valuation τ sig (Elt Ideal)) : val1 V (no_index (Proc.devRef .tc main_arg15)) = V (Proc.devRef .tc main_arg15) :=
  (st0_keep (val0 V) main_arg15 (by decide)).trans (val0_main_arg15 V)
theorem val1_main_arg16 (V : Valuation τ sig (Elt Ideal)) : val1 V (no_index (Proc.devRef .tc main_arg16)) = V (Proc.devRef .tc main_arg16) :=
  (st0_keep (val0 V) main_arg16 (by decide)).trans (val0_main_arg16 V)
theorem val1_main_arg17 (V : Valuation τ sig (Elt Ideal)) : val1 V (no_index (Proc.devRef .tc main_arg17)) = V (Proc.devRef .tc main_arg17) :=
  (st0_keep (val0 V) main_arg17 (by decide)).trans (val0_main_arg17 V)
theorem val1_main_arg18 (V : Valuation τ sig (Elt Ideal)) : val1 V (no_index (Proc.devRef .tc main_arg18)) = V (Proc.devRef .tc main_arg18) :=
  (st0_keep (val0 V) main_arg18 (by decide)).trans (val0_main_arg18 V)
theorem val1_main_arg19 (V : Valuation τ sig (Elt Ideal)) : val1 V (no_index (Proc.devRef .tc main_arg19)) = V (Proc.devRef .tc main_arg19) :=
  (st0_keep (val0 V) main_arg19 (by decide)).trans (val0_main_arg19 V)
theorem val1_main_arg20 (V : Valuation τ sig (Elt Ideal)) : val1 V (no_index (Proc.devRef .tc main_arg20)) = V (Proc.devRef .tc main_arg20) :=
  (st0_keep (val0 V) main_arg20 (by decide)).trans (val0_main_arg20 V)
theorem val1_main_arg21 (V : Valuation τ sig (Elt Ideal)) : val1 V (no_index (Proc.devRef .tc main_arg21)) = V (Proc.devRef .tc main_arg21) :=
  (st0_keep (val0 V) main_arg21 (by decide)).trans (val0_main_arg21 V)
theorem val1_main_arg22 (V : Valuation τ sig (Elt Ideal)) : val1 V (no_index (Proc.devRef .tc main_arg22)) = V (Proc.devRef .tc main_arg22) :=
  (st0_keep (val0 V) main_arg22 (by decide)).trans (val0_main_arg22 V)
theorem val1_main_arg23 (V : Valuation τ sig (Elt Ideal)) : val1 V (no_index (Proc.devRef .tc main_arg23)) = V (Proc.devRef .tc main_arg23) :=
  (st0_keep (val0 V) main_arg23 (by decide)).trans (val0_main_arg23 V)
theorem val1_main_arg24 (V : Valuation τ sig (Elt Ideal)) : val1 V (no_index (Proc.devRef .tc main_arg24)) = V (Proc.devRef .tc main_arg24) :=
  (st0_keep (val0 V) main_arg24 (by decide)).trans (val0_main_arg24 V)
theorem val1_main_v1 (V : Valuation τ sig (Elt Ideal)) : val1 V (no_index (Proc.devRef .tc main_v1)) = at25 (res_main_v1 (F := Ideal)) V := by
  unfold val1
  rw [st0_main_v1]
  rw [val0_main_arg1 V]
  rfl
theorem val1_main_v3 (V : Valuation τ sig (Elt Ideal)) : val1 V (no_index (Proc.devRef .tc main_v3)) = at25 (res_main_v3 (F := Ideal)) V := by
  unfold val1
  rw [st0_main_v3]
  rw [val0_main_arg1 V]
  rfl

/-- The contents after the first 2 parts. -/
def val2 (V : Valuation τ sig (Elt Ideal)) : Valuation τ sig (Elt Ideal) := after (st1 (F := Ideal)) (val1 V)
theorem val2_main_arg0 (V : Valuation τ sig (Elt Ideal)) : val2 V (no_index (Proc.devRef .tc main_arg0)) = V (Proc.devRef .tc main_arg0) :=
  (st1_keep (val1 V) main_arg0 (by decide)).trans (val1_main_arg0 V)
theorem val2_main_arg1 (V : Valuation τ sig (Elt Ideal)) : val2 V (no_index (Proc.devRef .tc main_arg1)) = V (Proc.devRef .tc main_arg1) :=
  (st1_keep (val1 V) main_arg1 (by decide)).trans (val1_main_arg1 V)
theorem val2_main_arg2 (V : Valuation τ sig (Elt Ideal)) : val2 V (no_index (Proc.devRef .tc main_arg2)) = V (Proc.devRef .tc main_arg2) :=
  (st1_keep (val1 V) main_arg2 (by decide)).trans (val1_main_arg2 V)
theorem val2_main_arg3 (V : Valuation τ sig (Elt Ideal)) : val2 V (no_index (Proc.devRef .tc main_arg3)) = V (Proc.devRef .tc main_arg3) :=
  (st1_keep (val1 V) main_arg3 (by decide)).trans (val1_main_arg3 V)
theorem val2_main_arg4 (V : Valuation τ sig (Elt Ideal)) : val2 V (no_index (Proc.devRef .tc main_arg4)) = V (Proc.devRef .tc main_arg4) :=
  (st1_keep (val1 V) main_arg4 (by decide)).trans (val1_main_arg4 V)
theorem val2_main_arg5 (V : Valuation τ sig (Elt Ideal)) : val2 V (no_index (Proc.devRef .tc main_arg5)) = V (Proc.devRef .tc main_arg5) :=
  (st1_keep (val1 V) main_arg5 (by decide)).trans (val1_main_arg5 V)
theorem val2_main_arg6 (V : Valuation τ sig (Elt Ideal)) : val2 V (no_index (Proc.devRef .tc main_arg6)) = V (Proc.devRef .tc main_arg6) :=
  (st1_keep (val1 V) main_arg6 (by decide)).trans (val1_main_arg6 V)
theorem val2_main_arg7 (V : Valuation τ sig (Elt Ideal)) : val2 V (no_index (Proc.devRef .tc main_arg7)) = V (Proc.devRef .tc main_arg7) :=
  (st1_keep (val1 V) main_arg7 (by decide)).trans (val1_main_arg7 V)
theorem val2_main_arg8 (V : Valuation τ sig (Elt Ideal)) : val2 V (no_index (Proc.devRef .tc main_arg8)) = V (Proc.devRef .tc main_arg8) :=
  (st1_keep (val1 V) main_arg8 (by decide)).trans (val1_main_arg8 V)
theorem val2_main_arg9 (V : Valuation τ sig (Elt Ideal)) : val2 V (no_index (Proc.devRef .tc main_arg9)) = V (Proc.devRef .tc main_arg9) :=
  (st1_keep (val1 V) main_arg9 (by decide)).trans (val1_main_arg9 V)
theorem val2_main_arg10 (V : Valuation τ sig (Elt Ideal)) : val2 V (no_index (Proc.devRef .tc main_arg10)) = V (Proc.devRef .tc main_arg10) :=
  (st1_keep (val1 V) main_arg10 (by decide)).trans (val1_main_arg10 V)
theorem val2_main_arg11 (V : Valuation τ sig (Elt Ideal)) : val2 V (no_index (Proc.devRef .tc main_arg11)) = V (Proc.devRef .tc main_arg11) :=
  (st1_keep (val1 V) main_arg11 (by decide)).trans (val1_main_arg11 V)
theorem val2_main_arg12 (V : Valuation τ sig (Elt Ideal)) : val2 V (no_index (Proc.devRef .tc main_arg12)) = V (Proc.devRef .tc main_arg12) :=
  (st1_keep (val1 V) main_arg12 (by decide)).trans (val1_main_arg12 V)
theorem val2_main_arg13 (V : Valuation τ sig (Elt Ideal)) : val2 V (no_index (Proc.devRef .tc main_arg13)) = V (Proc.devRef .tc main_arg13) :=
  (st1_keep (val1 V) main_arg13 (by decide)).trans (val1_main_arg13 V)
theorem val2_main_arg14 (V : Valuation τ sig (Elt Ideal)) : val2 V (no_index (Proc.devRef .tc main_arg14)) = V (Proc.devRef .tc main_arg14) :=
  (st1_keep (val1 V) main_arg14 (by decide)).trans (val1_main_arg14 V)
theorem val2_main_arg15 (V : Valuation τ sig (Elt Ideal)) : val2 V (no_index (Proc.devRef .tc main_arg15)) = V (Proc.devRef .tc main_arg15) :=
  (st1_keep (val1 V) main_arg15 (by decide)).trans (val1_main_arg15 V)
theorem val2_main_arg16 (V : Valuation τ sig (Elt Ideal)) : val2 V (no_index (Proc.devRef .tc main_arg16)) = V (Proc.devRef .tc main_arg16) :=
  (st1_keep (val1 V) main_arg16 (by decide)).trans (val1_main_arg16 V)
theorem val2_main_arg17 (V : Valuation τ sig (Elt Ideal)) : val2 V (no_index (Proc.devRef .tc main_arg17)) = V (Proc.devRef .tc main_arg17) :=
  (st1_keep (val1 V) main_arg17 (by decide)).trans (val1_main_arg17 V)
theorem val2_main_arg18 (V : Valuation τ sig (Elt Ideal)) : val2 V (no_index (Proc.devRef .tc main_arg18)) = V (Proc.devRef .tc main_arg18) :=
  (st1_keep (val1 V) main_arg18 (by decide)).trans (val1_main_arg18 V)
theorem val2_main_arg19 (V : Valuation τ sig (Elt Ideal)) : val2 V (no_index (Proc.devRef .tc main_arg19)) = V (Proc.devRef .tc main_arg19) :=
  (st1_keep (val1 V) main_arg19 (by decide)).trans (val1_main_arg19 V)
theorem val2_main_arg20 (V : Valuation τ sig (Elt Ideal)) : val2 V (no_index (Proc.devRef .tc main_arg20)) = V (Proc.devRef .tc main_arg20) :=
  (st1_keep (val1 V) main_arg20 (by decide)).trans (val1_main_arg20 V)
theorem val2_main_arg21 (V : Valuation τ sig (Elt Ideal)) : val2 V (no_index (Proc.devRef .tc main_arg21)) = V (Proc.devRef .tc main_arg21) :=
  (st1_keep (val1 V) main_arg21 (by decide)).trans (val1_main_arg21 V)
theorem val2_main_arg22 (V : Valuation τ sig (Elt Ideal)) : val2 V (no_index (Proc.devRef .tc main_arg22)) = V (Proc.devRef .tc main_arg22) :=
  (st1_keep (val1 V) main_arg22 (by decide)).trans (val1_main_arg22 V)
theorem val2_main_arg23 (V : Valuation τ sig (Elt Ideal)) : val2 V (no_index (Proc.devRef .tc main_arg23)) = V (Proc.devRef .tc main_arg23) :=
  (st1_keep (val1 V) main_arg23 (by decide)).trans (val1_main_arg23 V)
theorem val2_main_arg24 (V : Valuation τ sig (Elt Ideal)) : val2 V (no_index (Proc.devRef .tc main_arg24)) = V (Proc.devRef .tc main_arg24) :=
  (st1_keep (val1 V) main_arg24 (by decide)).trans (val1_main_arg24 V)
theorem val2_main_v1 (V : Valuation τ sig (Elt Ideal)) : val2 V (no_index (Proc.devRef .tc main_v1)) = at25 (res_main_v1 (F := Ideal)) V :=
  (st1_keep (val1 V) main_v1 (by decide)).trans (val1_main_v1 V)
theorem val2_main_v3 (V : Valuation τ sig (Elt Ideal)) : val2 V (no_index (Proc.devRef .tc main_v3)) = at25 (res_main_v3 (F := Ideal)) V :=
  (st1_keep (val1 V) main_v3 (by decide)).trans (val1_main_v3 V)
theorem val2_main_v17 (V : Valuation τ sig (Elt Ideal)) : val2 V (no_index (Proc.devRef .tc main_v17)) = at25 (res_main_v17 (F := Ideal)) V := by
  unfold val2
  rw [st1_main_v17]
  rw [val1_main_arg9 V, val1_main_arg0 V, val1_main_v3 V, val1_main_v1 V]
  rfl

/-- The contents after the first 3 parts. -/
def val3 (V : Valuation τ sig (Elt Ideal)) : Valuation τ sig (Elt Ideal) := after (st2 (F := Ideal)) (val2 V)
theorem val3_main_arg0 (V : Valuation τ sig (Elt Ideal)) : val3 V (no_index (Proc.devRef .tc main_arg0)) = V (Proc.devRef .tc main_arg0) :=
  (st2_keep (val2 V) main_arg0 (by decide)).trans (val2_main_arg0 V)
theorem val3_main_arg1 (V : Valuation τ sig (Elt Ideal)) : val3 V (no_index (Proc.devRef .tc main_arg1)) = V (Proc.devRef .tc main_arg1) :=
  (st2_keep (val2 V) main_arg1 (by decide)).trans (val2_main_arg1 V)
theorem val3_main_arg2 (V : Valuation τ sig (Elt Ideal)) : val3 V (no_index (Proc.devRef .tc main_arg2)) = V (Proc.devRef .tc main_arg2) :=
  (st2_keep (val2 V) main_arg2 (by decide)).trans (val2_main_arg2 V)
theorem val3_main_arg3 (V : Valuation τ sig (Elt Ideal)) : val3 V (no_index (Proc.devRef .tc main_arg3)) = V (Proc.devRef .tc main_arg3) :=
  (st2_keep (val2 V) main_arg3 (by decide)).trans (val2_main_arg3 V)
theorem val3_main_arg4 (V : Valuation τ sig (Elt Ideal)) : val3 V (no_index (Proc.devRef .tc main_arg4)) = V (Proc.devRef .tc main_arg4) :=
  (st2_keep (val2 V) main_arg4 (by decide)).trans (val2_main_arg4 V)
theorem val3_main_arg5 (V : Valuation τ sig (Elt Ideal)) : val3 V (no_index (Proc.devRef .tc main_arg5)) = V (Proc.devRef .tc main_arg5) :=
  (st2_keep (val2 V) main_arg5 (by decide)).trans (val2_main_arg5 V)
theorem val3_main_arg6 (V : Valuation τ sig (Elt Ideal)) : val3 V (no_index (Proc.devRef .tc main_arg6)) = V (Proc.devRef .tc main_arg6) :=
  (st2_keep (val2 V) main_arg6 (by decide)).trans (val2_main_arg6 V)
theorem val3_main_arg7 (V : Valuation τ sig (Elt Ideal)) : val3 V (no_index (Proc.devRef .tc main_arg7)) = V (Proc.devRef .tc main_arg7) :=
  (st2_keep (val2 V) main_arg7 (by decide)).trans (val2_main_arg7 V)
theorem val3_main_arg8 (V : Valuation τ sig (Elt Ideal)) : val3 V (no_index (Proc.devRef .tc main_arg8)) = V (Proc.devRef .tc main_arg8) :=
  (st2_keep (val2 V) main_arg8 (by decide)).trans (val2_main_arg8 V)
theorem val3_main_arg9 (V : Valuation τ sig (Elt Ideal)) : val3 V (no_index (Proc.devRef .tc main_arg9)) = V (Proc.devRef .tc main_arg9) :=
  (st2_keep (val2 V) main_arg9 (by decide)).trans (val2_main_arg9 V)
theorem val3_main_arg10 (V : Valuation τ sig (Elt Ideal)) : val3 V (no_index (Proc.devRef .tc main_arg10)) = V (Proc.devRef .tc main_arg10) :=
  (st2_keep (val2 V) main_arg10 (by decide)).trans (val2_main_arg10 V)
theorem val3_main_arg11 (V : Valuation τ sig (Elt Ideal)) : val3 V (no_index (Proc.devRef .tc main_arg11)) = V (Proc.devRef .tc main_arg11) :=
  (st2_keep (val2 V) main_arg11 (by decide)).trans (val2_main_arg11 V)
theorem val3_main_arg12 (V : Valuation τ sig (Elt Ideal)) : val3 V (no_index (Proc.devRef .tc main_arg12)) = V (Proc.devRef .tc main_arg12) :=
  (st2_keep (val2 V) main_arg12 (by decide)).trans (val2_main_arg12 V)
theorem val3_main_arg13 (V : Valuation τ sig (Elt Ideal)) : val3 V (no_index (Proc.devRef .tc main_arg13)) = V (Proc.devRef .tc main_arg13) :=
  (st2_keep (val2 V) main_arg13 (by decide)).trans (val2_main_arg13 V)
theorem val3_main_arg14 (V : Valuation τ sig (Elt Ideal)) : val3 V (no_index (Proc.devRef .tc main_arg14)) = V (Proc.devRef .tc main_arg14) :=
  (st2_keep (val2 V) main_arg14 (by decide)).trans (val2_main_arg14 V)
theorem val3_main_arg15 (V : Valuation τ sig (Elt Ideal)) : val3 V (no_index (Proc.devRef .tc main_arg15)) = V (Proc.devRef .tc main_arg15) :=
  (st2_keep (val2 V) main_arg15 (by decide)).trans (val2_main_arg15 V)
theorem val3_main_arg16 (V : Valuation τ sig (Elt Ideal)) : val3 V (no_index (Proc.devRef .tc main_arg16)) = V (Proc.devRef .tc main_arg16) :=
  (st2_keep (val2 V) main_arg16 (by decide)).trans (val2_main_arg16 V)
theorem val3_main_arg17 (V : Valuation τ sig (Elt Ideal)) : val3 V (no_index (Proc.devRef .tc main_arg17)) = V (Proc.devRef .tc main_arg17) :=
  (st2_keep (val2 V) main_arg17 (by decide)).trans (val2_main_arg17 V)
theorem val3_main_arg18 (V : Valuation τ sig (Elt Ideal)) : val3 V (no_index (Proc.devRef .tc main_arg18)) = V (Proc.devRef .tc main_arg18) :=
  (st2_keep (val2 V) main_arg18 (by decide)).trans (val2_main_arg18 V)
theorem val3_main_arg19 (V : Valuation τ sig (Elt Ideal)) : val3 V (no_index (Proc.devRef .tc main_arg19)) = V (Proc.devRef .tc main_arg19) :=
  (st2_keep (val2 V) main_arg19 (by decide)).trans (val2_main_arg19 V)
theorem val3_main_arg20 (V : Valuation τ sig (Elt Ideal)) : val3 V (no_index (Proc.devRef .tc main_arg20)) = V (Proc.devRef .tc main_arg20) :=
  (st2_keep (val2 V) main_arg20 (by decide)).trans (val2_main_arg20 V)
theorem val3_main_arg21 (V : Valuation τ sig (Elt Ideal)) : val3 V (no_index (Proc.devRef .tc main_arg21)) = V (Proc.devRef .tc main_arg21) :=
  (st2_keep (val2 V) main_arg21 (by decide)).trans (val2_main_arg21 V)
theorem val3_main_arg22 (V : Valuation τ sig (Elt Ideal)) : val3 V (no_index (Proc.devRef .tc main_arg22)) = V (Proc.devRef .tc main_arg22) :=
  (st2_keep (val2 V) main_arg22 (by decide)).trans (val2_main_arg22 V)
theorem val3_main_arg23 (V : Valuation τ sig (Elt Ideal)) : val3 V (no_index (Proc.devRef .tc main_arg23)) = V (Proc.devRef .tc main_arg23) :=
  (st2_keep (val2 V) main_arg23 (by decide)).trans (val2_main_arg23 V)
theorem val3_main_arg24 (V : Valuation τ sig (Elt Ideal)) : val3 V (no_index (Proc.devRef .tc main_arg24)) = V (Proc.devRef .tc main_arg24) :=
  (st2_keep (val2 V) main_arg24 (by decide)).trans (val2_main_arg24 V)
theorem val3_main_v1 (V : Valuation τ sig (Elt Ideal)) : val3 V (no_index (Proc.devRef .tc main_v1)) = at25 (res_main_v1 (F := Ideal)) V :=
  (st2_keep (val2 V) main_v1 (by decide)).trans (val2_main_v1 V)
theorem val3_main_v3 (V : Valuation τ sig (Elt Ideal)) : val3 V (no_index (Proc.devRef .tc main_v3)) = at25 (res_main_v3 (F := Ideal)) V :=
  (st2_keep (val2 V) main_v3 (by decide)).trans (val2_main_v3 V)
theorem val3_main_v22 (V : Valuation τ sig (Elt Ideal)) : val3 V (no_index (Proc.devRef .tc main_v22)) = at25 (res_main_v22 (F := Ideal)) V := by
  unfold val3
  rw [st2_main_v22]
  rw [val2_main_v17 V, val2_main_arg3 V, val2_main_arg4 V]
  rfl

/-- The contents after the first 4 parts. -/
def val4 (V : Valuation τ sig (Elt Ideal)) : Valuation τ sig (Elt Ideal) := after (st3 (F := Ideal)) (val3 V)
theorem val4_main_arg0 (V : Valuation τ sig (Elt Ideal)) : val4 V (no_index (Proc.devRef .tc main_arg0)) = V (Proc.devRef .tc main_arg0) :=
  (st3_keep (val3 V) main_arg0 (by decide)).trans (val3_main_arg0 V)
theorem val4_main_arg1 (V : Valuation τ sig (Elt Ideal)) : val4 V (no_index (Proc.devRef .tc main_arg1)) = V (Proc.devRef .tc main_arg1) :=
  (st3_keep (val3 V) main_arg1 (by decide)).trans (val3_main_arg1 V)
theorem val4_main_arg2 (V : Valuation τ sig (Elt Ideal)) : val4 V (no_index (Proc.devRef .tc main_arg2)) = V (Proc.devRef .tc main_arg2) :=
  (st3_keep (val3 V) main_arg2 (by decide)).trans (val3_main_arg2 V)
theorem val4_main_arg3 (V : Valuation τ sig (Elt Ideal)) : val4 V (no_index (Proc.devRef .tc main_arg3)) = V (Proc.devRef .tc main_arg3) :=
  (st3_keep (val3 V) main_arg3 (by decide)).trans (val3_main_arg3 V)
theorem val4_main_arg4 (V : Valuation τ sig (Elt Ideal)) : val4 V (no_index (Proc.devRef .tc main_arg4)) = V (Proc.devRef .tc main_arg4) :=
  (st3_keep (val3 V) main_arg4 (by decide)).trans (val3_main_arg4 V)
theorem val4_main_arg5 (V : Valuation τ sig (Elt Ideal)) : val4 V (no_index (Proc.devRef .tc main_arg5)) = V (Proc.devRef .tc main_arg5) :=
  (st3_keep (val3 V) main_arg5 (by decide)).trans (val3_main_arg5 V)
theorem val4_main_arg6 (V : Valuation τ sig (Elt Ideal)) : val4 V (no_index (Proc.devRef .tc main_arg6)) = V (Proc.devRef .tc main_arg6) :=
  (st3_keep (val3 V) main_arg6 (by decide)).trans (val3_main_arg6 V)
theorem val4_main_arg7 (V : Valuation τ sig (Elt Ideal)) : val4 V (no_index (Proc.devRef .tc main_arg7)) = V (Proc.devRef .tc main_arg7) :=
  (st3_keep (val3 V) main_arg7 (by decide)).trans (val3_main_arg7 V)
theorem val4_main_arg8 (V : Valuation τ sig (Elt Ideal)) : val4 V (no_index (Proc.devRef .tc main_arg8)) = V (Proc.devRef .tc main_arg8) :=
  (st3_keep (val3 V) main_arg8 (by decide)).trans (val3_main_arg8 V)
theorem val4_main_arg9 (V : Valuation τ sig (Elt Ideal)) : val4 V (no_index (Proc.devRef .tc main_arg9)) = V (Proc.devRef .tc main_arg9) :=
  (st3_keep (val3 V) main_arg9 (by decide)).trans (val3_main_arg9 V)
theorem val4_main_arg10 (V : Valuation τ sig (Elt Ideal)) : val4 V (no_index (Proc.devRef .tc main_arg10)) = V (Proc.devRef .tc main_arg10) :=
  (st3_keep (val3 V) main_arg10 (by decide)).trans (val3_main_arg10 V)
theorem val4_main_arg11 (V : Valuation τ sig (Elt Ideal)) : val4 V (no_index (Proc.devRef .tc main_arg11)) = V (Proc.devRef .tc main_arg11) :=
  (st3_keep (val3 V) main_arg11 (by decide)).trans (val3_main_arg11 V)
theorem val4_main_arg12 (V : Valuation τ sig (Elt Ideal)) : val4 V (no_index (Proc.devRef .tc main_arg12)) = V (Proc.devRef .tc main_arg12) :=
  (st3_keep (val3 V) main_arg12 (by decide)).trans (val3_main_arg12 V)
theorem val4_main_arg13 (V : Valuation τ sig (Elt Ideal)) : val4 V (no_index (Proc.devRef .tc main_arg13)) = V (Proc.devRef .tc main_arg13) :=
  (st3_keep (val3 V) main_arg13 (by decide)).trans (val3_main_arg13 V)
theorem val4_main_arg14 (V : Valuation τ sig (Elt Ideal)) : val4 V (no_index (Proc.devRef .tc main_arg14)) = V (Proc.devRef .tc main_arg14) :=
  (st3_keep (val3 V) main_arg14 (by decide)).trans (val3_main_arg14 V)
theorem val4_main_arg15 (V : Valuation τ sig (Elt Ideal)) : val4 V (no_index (Proc.devRef .tc main_arg15)) = V (Proc.devRef .tc main_arg15) :=
  (st3_keep (val3 V) main_arg15 (by decide)).trans (val3_main_arg15 V)
theorem val4_main_arg16 (V : Valuation τ sig (Elt Ideal)) : val4 V (no_index (Proc.devRef .tc main_arg16)) = V (Proc.devRef .tc main_arg16) :=
  (st3_keep (val3 V) main_arg16 (by decide)).trans (val3_main_arg16 V)
theorem val4_main_arg17 (V : Valuation τ sig (Elt Ideal)) : val4 V (no_index (Proc.devRef .tc main_arg17)) = V (Proc.devRef .tc main_arg17) :=
  (st3_keep (val3 V) main_arg17 (by decide)).trans (val3_main_arg17 V)
theorem val4_main_arg18 (V : Valuation τ sig (Elt Ideal)) : val4 V (no_index (Proc.devRef .tc main_arg18)) = V (Proc.devRef .tc main_arg18) :=
  (st3_keep (val3 V) main_arg18 (by decide)).trans (val3_main_arg18 V)
theorem val4_main_arg19 (V : Valuation τ sig (Elt Ideal)) : val4 V (no_index (Proc.devRef .tc main_arg19)) = V (Proc.devRef .tc main_arg19) :=
  (st3_keep (val3 V) main_arg19 (by decide)).trans (val3_main_arg19 V)
theorem val4_main_arg20 (V : Valuation τ sig (Elt Ideal)) : val4 V (no_index (Proc.devRef .tc main_arg20)) = V (Proc.devRef .tc main_arg20) :=
  (st3_keep (val3 V) main_arg20 (by decide)).trans (val3_main_arg20 V)
theorem val4_main_arg21 (V : Valuation τ sig (Elt Ideal)) : val4 V (no_index (Proc.devRef .tc main_arg21)) = V (Proc.devRef .tc main_arg21) :=
  (st3_keep (val3 V) main_arg21 (by decide)).trans (val3_main_arg21 V)
theorem val4_main_arg22 (V : Valuation τ sig (Elt Ideal)) : val4 V (no_index (Proc.devRef .tc main_arg22)) = V (Proc.devRef .tc main_arg22) :=
  (st3_keep (val3 V) main_arg22 (by decide)).trans (val3_main_arg22 V)
theorem val4_main_arg23 (V : Valuation τ sig (Elt Ideal)) : val4 V (no_index (Proc.devRef .tc main_arg23)) = V (Proc.devRef .tc main_arg23) :=
  (st3_keep (val3 V) main_arg23 (by decide)).trans (val3_main_arg23 V)
theorem val4_main_arg24 (V : Valuation τ sig (Elt Ideal)) : val4 V (no_index (Proc.devRef .tc main_arg24)) = V (Proc.devRef .tc main_arg24) :=
  (st3_keep (val3 V) main_arg24 (by decide)).trans (val3_main_arg24 V)
theorem val4_main_v1 (V : Valuation τ sig (Elt Ideal)) : val4 V (no_index (Proc.devRef .tc main_v1)) = at25 (res_main_v1 (F := Ideal)) V :=
  (st3_keep (val3 V) main_v1 (by decide)).trans (val3_main_v1 V)
theorem val4_main_v3 (V : Valuation τ sig (Elt Ideal)) : val4 V (no_index (Proc.devRef .tc main_v3)) = at25 (res_main_v3 (F := Ideal)) V :=
  (st3_keep (val3 V) main_v3 (by decide)).trans (val3_main_v3 V)
theorem val4_main_v27 (V : Valuation τ sig (Elt Ideal)) : val4 V (no_index (Proc.devRef .tc main_v27)) = at25 (res_main_v27 (F := Ideal)) V := by
  unfold val4
  rw [st3_main_v27]
  rw [val3_main_v22 V, val3_main_arg5 V, val3_main_arg6 V]
  rfl

/-- The contents after the first 5 parts. -/
def val5 (V : Valuation τ sig (Elt Ideal)) : Valuation τ sig (Elt Ideal) := after (st4 (F := Ideal)) (val4 V)
theorem val5_main_arg0 (V : Valuation τ sig (Elt Ideal)) : val5 V (no_index (Proc.devRef .tc main_arg0)) = V (Proc.devRef .tc main_arg0) :=
  (st4_keep (val4 V) main_arg0 (by decide)).trans (val4_main_arg0 V)
theorem val5_main_arg1 (V : Valuation τ sig (Elt Ideal)) : val5 V (no_index (Proc.devRef .tc main_arg1)) = V (Proc.devRef .tc main_arg1) :=
  (st4_keep (val4 V) main_arg1 (by decide)).trans (val4_main_arg1 V)
theorem val5_main_arg2 (V : Valuation τ sig (Elt Ideal)) : val5 V (no_index (Proc.devRef .tc main_arg2)) = V (Proc.devRef .tc main_arg2) :=
  (st4_keep (val4 V) main_arg2 (by decide)).trans (val4_main_arg2 V)
theorem val5_main_arg3 (V : Valuation τ sig (Elt Ideal)) : val5 V (no_index (Proc.devRef .tc main_arg3)) = V (Proc.devRef .tc main_arg3) :=
  (st4_keep (val4 V) main_arg3 (by decide)).trans (val4_main_arg3 V)
theorem val5_main_arg4 (V : Valuation τ sig (Elt Ideal)) : val5 V (no_index (Proc.devRef .tc main_arg4)) = V (Proc.devRef .tc main_arg4) :=
  (st4_keep (val4 V) main_arg4 (by decide)).trans (val4_main_arg4 V)
theorem val5_main_arg5 (V : Valuation τ sig (Elt Ideal)) : val5 V (no_index (Proc.devRef .tc main_arg5)) = V (Proc.devRef .tc main_arg5) :=
  (st4_keep (val4 V) main_arg5 (by decide)).trans (val4_main_arg5 V)
theorem val5_main_arg6 (V : Valuation τ sig (Elt Ideal)) : val5 V (no_index (Proc.devRef .tc main_arg6)) = V (Proc.devRef .tc main_arg6) :=
  (st4_keep (val4 V) main_arg6 (by decide)).trans (val4_main_arg6 V)
theorem val5_main_arg7 (V : Valuation τ sig (Elt Ideal)) : val5 V (no_index (Proc.devRef .tc main_arg7)) = V (Proc.devRef .tc main_arg7) :=
  (st4_keep (val4 V) main_arg7 (by decide)).trans (val4_main_arg7 V)
theorem val5_main_arg8 (V : Valuation τ sig (Elt Ideal)) : val5 V (no_index (Proc.devRef .tc main_arg8)) = V (Proc.devRef .tc main_arg8) :=
  (st4_keep (val4 V) main_arg8 (by decide)).trans (val4_main_arg8 V)
theorem val5_main_arg9 (V : Valuation τ sig (Elt Ideal)) : val5 V (no_index (Proc.devRef .tc main_arg9)) = V (Proc.devRef .tc main_arg9) :=
  (st4_keep (val4 V) main_arg9 (by decide)).trans (val4_main_arg9 V)
theorem val5_main_arg10 (V : Valuation τ sig (Elt Ideal)) : val5 V (no_index (Proc.devRef .tc main_arg10)) = V (Proc.devRef .tc main_arg10) :=
  (st4_keep (val4 V) main_arg10 (by decide)).trans (val4_main_arg10 V)
theorem val5_main_arg11 (V : Valuation τ sig (Elt Ideal)) : val5 V (no_index (Proc.devRef .tc main_arg11)) = V (Proc.devRef .tc main_arg11) :=
  (st4_keep (val4 V) main_arg11 (by decide)).trans (val4_main_arg11 V)
theorem val5_main_arg12 (V : Valuation τ sig (Elt Ideal)) : val5 V (no_index (Proc.devRef .tc main_arg12)) = V (Proc.devRef .tc main_arg12) :=
  (st4_keep (val4 V) main_arg12 (by decide)).trans (val4_main_arg12 V)
theorem val5_main_arg13 (V : Valuation τ sig (Elt Ideal)) : val5 V (no_index (Proc.devRef .tc main_arg13)) = V (Proc.devRef .tc main_arg13) :=
  (st4_keep (val4 V) main_arg13 (by decide)).trans (val4_main_arg13 V)
theorem val5_main_arg14 (V : Valuation τ sig (Elt Ideal)) : val5 V (no_index (Proc.devRef .tc main_arg14)) = V (Proc.devRef .tc main_arg14) :=
  (st4_keep (val4 V) main_arg14 (by decide)).trans (val4_main_arg14 V)
theorem val5_main_arg15 (V : Valuation τ sig (Elt Ideal)) : val5 V (no_index (Proc.devRef .tc main_arg15)) = V (Proc.devRef .tc main_arg15) :=
  (st4_keep (val4 V) main_arg15 (by decide)).trans (val4_main_arg15 V)
theorem val5_main_arg16 (V : Valuation τ sig (Elt Ideal)) : val5 V (no_index (Proc.devRef .tc main_arg16)) = V (Proc.devRef .tc main_arg16) :=
  (st4_keep (val4 V) main_arg16 (by decide)).trans (val4_main_arg16 V)
theorem val5_main_arg17 (V : Valuation τ sig (Elt Ideal)) : val5 V (no_index (Proc.devRef .tc main_arg17)) = V (Proc.devRef .tc main_arg17) :=
  (st4_keep (val4 V) main_arg17 (by decide)).trans (val4_main_arg17 V)
theorem val5_main_arg18 (V : Valuation τ sig (Elt Ideal)) : val5 V (no_index (Proc.devRef .tc main_arg18)) = V (Proc.devRef .tc main_arg18) :=
  (st4_keep (val4 V) main_arg18 (by decide)).trans (val4_main_arg18 V)
theorem val5_main_arg19 (V : Valuation τ sig (Elt Ideal)) : val5 V (no_index (Proc.devRef .tc main_arg19)) = V (Proc.devRef .tc main_arg19) :=
  (st4_keep (val4 V) main_arg19 (by decide)).trans (val4_main_arg19 V)
theorem val5_main_arg20 (V : Valuation τ sig (Elt Ideal)) : val5 V (no_index (Proc.devRef .tc main_arg20)) = V (Proc.devRef .tc main_arg20) :=
  (st4_keep (val4 V) main_arg20 (by decide)).trans (val4_main_arg20 V)
theorem val5_main_arg21 (V : Valuation τ sig (Elt Ideal)) : val5 V (no_index (Proc.devRef .tc main_arg21)) = V (Proc.devRef .tc main_arg21) :=
  (st4_keep (val4 V) main_arg21 (by decide)).trans (val4_main_arg21 V)
theorem val5_main_arg22 (V : Valuation τ sig (Elt Ideal)) : val5 V (no_index (Proc.devRef .tc main_arg22)) = V (Proc.devRef .tc main_arg22) :=
  (st4_keep (val4 V) main_arg22 (by decide)).trans (val4_main_arg22 V)
theorem val5_main_arg23 (V : Valuation τ sig (Elt Ideal)) : val5 V (no_index (Proc.devRef .tc main_arg23)) = V (Proc.devRef .tc main_arg23) :=
  (st4_keep (val4 V) main_arg23 (by decide)).trans (val4_main_arg23 V)
theorem val5_main_arg24 (V : Valuation τ sig (Elt Ideal)) : val5 V (no_index (Proc.devRef .tc main_arg24)) = V (Proc.devRef .tc main_arg24) :=
  (st4_keep (val4 V) main_arg24 (by decide)).trans (val4_main_arg24 V)
theorem val5_main_v1 (V : Valuation τ sig (Elt Ideal)) : val5 V (no_index (Proc.devRef .tc main_v1)) = at25 (res_main_v1 (F := Ideal)) V :=
  (st4_keep (val4 V) main_v1 (by decide)).trans (val4_main_v1 V)
theorem val5_main_v3 (V : Valuation τ sig (Elt Ideal)) : val5 V (no_index (Proc.devRef .tc main_v3)) = at25 (res_main_v3 (F := Ideal)) V :=
  (st4_keep (val4 V) main_v3 (by decide)).trans (val4_main_v3 V)
theorem val5_main_v27 (V : Valuation τ sig (Elt Ideal)) : val5 V (no_index (Proc.devRef .tc main_v27)) = at25 (res_main_v27 (F := Ideal)) V :=
  (st4_keep (val4 V) main_v27 (by decide)).trans (val4_main_v27 V)
theorem val5_main_v30 (V : Valuation τ sig (Elt Ideal)) : val5 V (no_index (Proc.devRef .tc main_v30)) = at25 (res_main_v30 (F := Ideal)) V := by
  unfold val5
  rw [st4_main_v30]
  rw [val4_main_v27 V]
  rfl

/-- The contents after the first 6 parts. -/
def val6 (V : Valuation τ sig (Elt Ideal)) : Valuation τ sig (Elt Ideal) := after (st5 (F := Ideal)) (val5 V)
theorem val6_main_arg0 (V : Valuation τ sig (Elt Ideal)) : val6 V (no_index (Proc.devRef .tc main_arg0)) = V (Proc.devRef .tc main_arg0) :=
  (st5_keep (val5 V) main_arg0 (by decide)).trans (val5_main_arg0 V)
theorem val6_main_arg1 (V : Valuation τ sig (Elt Ideal)) : val6 V (no_index (Proc.devRef .tc main_arg1)) = V (Proc.devRef .tc main_arg1) :=
  (st5_keep (val5 V) main_arg1 (by decide)).trans (val5_main_arg1 V)
theorem val6_main_arg2 (V : Valuation τ sig (Elt Ideal)) : val6 V (no_index (Proc.devRef .tc main_arg2)) = V (Proc.devRef .tc main_arg2) :=
  (st5_keep (val5 V) main_arg2 (by decide)).trans (val5_main_arg2 V)
theorem val6_main_arg3 (V : Valuation τ sig (Elt Ideal)) : val6 V (no_index (Proc.devRef .tc main_arg3)) = V (Proc.devRef .tc main_arg3) :=
  (st5_keep (val5 V) main_arg3 (by decide)).trans (val5_main_arg3 V)
theorem val6_main_arg4 (V : Valuation τ sig (Elt Ideal)) : val6 V (no_index (Proc.devRef .tc main_arg4)) = V (Proc.devRef .tc main_arg4) :=
  (st5_keep (val5 V) main_arg4 (by decide)).trans (val5_main_arg4 V)
theorem val6_main_arg5 (V : Valuation τ sig (Elt Ideal)) : val6 V (no_index (Proc.devRef .tc main_arg5)) = V (Proc.devRef .tc main_arg5) :=
  (st5_keep (val5 V) main_arg5 (by decide)).trans (val5_main_arg5 V)
theorem val6_main_arg6 (V : Valuation τ sig (Elt Ideal)) : val6 V (no_index (Proc.devRef .tc main_arg6)) = V (Proc.devRef .tc main_arg6) :=
  (st5_keep (val5 V) main_arg6 (by decide)).trans (val5_main_arg6 V)
theorem val6_main_arg7 (V : Valuation τ sig (Elt Ideal)) : val6 V (no_index (Proc.devRef .tc main_arg7)) = V (Proc.devRef .tc main_arg7) :=
  (st5_keep (val5 V) main_arg7 (by decide)).trans (val5_main_arg7 V)
theorem val6_main_arg8 (V : Valuation τ sig (Elt Ideal)) : val6 V (no_index (Proc.devRef .tc main_arg8)) = V (Proc.devRef .tc main_arg8) :=
  (st5_keep (val5 V) main_arg8 (by decide)).trans (val5_main_arg8 V)
theorem val6_main_arg9 (V : Valuation τ sig (Elt Ideal)) : val6 V (no_index (Proc.devRef .tc main_arg9)) = V (Proc.devRef .tc main_arg9) :=
  (st5_keep (val5 V) main_arg9 (by decide)).trans (val5_main_arg9 V)
theorem val6_main_arg10 (V : Valuation τ sig (Elt Ideal)) : val6 V (no_index (Proc.devRef .tc main_arg10)) = V (Proc.devRef .tc main_arg10) :=
  (st5_keep (val5 V) main_arg10 (by decide)).trans (val5_main_arg10 V)
theorem val6_main_arg11 (V : Valuation τ sig (Elt Ideal)) : val6 V (no_index (Proc.devRef .tc main_arg11)) = V (Proc.devRef .tc main_arg11) :=
  (st5_keep (val5 V) main_arg11 (by decide)).trans (val5_main_arg11 V)
theorem val6_main_arg12 (V : Valuation τ sig (Elt Ideal)) : val6 V (no_index (Proc.devRef .tc main_arg12)) = V (Proc.devRef .tc main_arg12) :=
  (st5_keep (val5 V) main_arg12 (by decide)).trans (val5_main_arg12 V)
theorem val6_main_arg13 (V : Valuation τ sig (Elt Ideal)) : val6 V (no_index (Proc.devRef .tc main_arg13)) = V (Proc.devRef .tc main_arg13) :=
  (st5_keep (val5 V) main_arg13 (by decide)).trans (val5_main_arg13 V)
theorem val6_main_arg14 (V : Valuation τ sig (Elt Ideal)) : val6 V (no_index (Proc.devRef .tc main_arg14)) = V (Proc.devRef .tc main_arg14) :=
  (st5_keep (val5 V) main_arg14 (by decide)).trans (val5_main_arg14 V)
theorem val6_main_arg15 (V : Valuation τ sig (Elt Ideal)) : val6 V (no_index (Proc.devRef .tc main_arg15)) = V (Proc.devRef .tc main_arg15) :=
  (st5_keep (val5 V) main_arg15 (by decide)).trans (val5_main_arg15 V)
theorem val6_main_arg16 (V : Valuation τ sig (Elt Ideal)) : val6 V (no_index (Proc.devRef .tc main_arg16)) = V (Proc.devRef .tc main_arg16) :=
  (st5_keep (val5 V) main_arg16 (by decide)).trans (val5_main_arg16 V)
theorem val6_main_arg17 (V : Valuation τ sig (Elt Ideal)) : val6 V (no_index (Proc.devRef .tc main_arg17)) = V (Proc.devRef .tc main_arg17) :=
  (st5_keep (val5 V) main_arg17 (by decide)).trans (val5_main_arg17 V)
theorem val6_main_arg18 (V : Valuation τ sig (Elt Ideal)) : val6 V (no_index (Proc.devRef .tc main_arg18)) = V (Proc.devRef .tc main_arg18) :=
  (st5_keep (val5 V) main_arg18 (by decide)).trans (val5_main_arg18 V)
theorem val6_main_arg19 (V : Valuation τ sig (Elt Ideal)) : val6 V (no_index (Proc.devRef .tc main_arg19)) = V (Proc.devRef .tc main_arg19) :=
  (st5_keep (val5 V) main_arg19 (by decide)).trans (val5_main_arg19 V)
theorem val6_main_arg20 (V : Valuation τ sig (Elt Ideal)) : val6 V (no_index (Proc.devRef .tc main_arg20)) = V (Proc.devRef .tc main_arg20) :=
  (st5_keep (val5 V) main_arg20 (by decide)).trans (val5_main_arg20 V)
theorem val6_main_arg21 (V : Valuation τ sig (Elt Ideal)) : val6 V (no_index (Proc.devRef .tc main_arg21)) = V (Proc.devRef .tc main_arg21) :=
  (st5_keep (val5 V) main_arg21 (by decide)).trans (val5_main_arg21 V)
theorem val6_main_arg22 (V : Valuation τ sig (Elt Ideal)) : val6 V (no_index (Proc.devRef .tc main_arg22)) = V (Proc.devRef .tc main_arg22) :=
  (st5_keep (val5 V) main_arg22 (by decide)).trans (val5_main_arg22 V)
theorem val6_main_arg23 (V : Valuation τ sig (Elt Ideal)) : val6 V (no_index (Proc.devRef .tc main_arg23)) = V (Proc.devRef .tc main_arg23) :=
  (st5_keep (val5 V) main_arg23 (by decide)).trans (val5_main_arg23 V)
theorem val6_main_arg24 (V : Valuation τ sig (Elt Ideal)) : val6 V (no_index (Proc.devRef .tc main_arg24)) = V (Proc.devRef .tc main_arg24) :=
  (st5_keep (val5 V) main_arg24 (by decide)).trans (val5_main_arg24 V)
theorem val6_main_v1 (V : Valuation τ sig (Elt Ideal)) : val6 V (no_index (Proc.devRef .tc main_v1)) = at25 (res_main_v1 (F := Ideal)) V :=
  (st5_keep (val5 V) main_v1 (by decide)).trans (val5_main_v1 V)
theorem val6_main_v3 (V : Valuation τ sig (Elt Ideal)) : val6 V (no_index (Proc.devRef .tc main_v3)) = at25 (res_main_v3 (F := Ideal)) V :=
  (st5_keep (val5 V) main_v3 (by decide)).trans (val5_main_v3 V)
theorem val6_main_v27 (V : Valuation τ sig (Elt Ideal)) : val6 V (no_index (Proc.devRef .tc main_v27)) = at25 (res_main_v27 (F := Ideal)) V :=
  (st5_keep (val5 V) main_v27 (by decide)).trans (val5_main_v27 V)
theorem val6_main_v30 (V : Valuation τ sig (Elt Ideal)) : val6 V (no_index (Proc.devRef .tc main_v30)) = at25 (res_main_v30 (F := Ideal)) V :=
  (st5_keep (val5 V) main_v30 (by decide)).trans (val5_main_v30 V)
theorem val6_main_v31 (V : Valuation τ sig (Elt Ideal)) : val6 V (no_index (Proc.devRef .tc main_v31)) = at25 (res_main_v31 (F := Ideal)) V := by
  unfold val6
  rw [st5_main_v31]
  rw [val5_main_v27 V]
  rfl

/-- The contents after the first 7 parts. -/
def val7 (V : Valuation τ sig (Elt Ideal)) : Valuation τ sig (Elt Ideal) := after (st6 (F := Ideal)) (val6 V)
theorem val7_main_arg0 (V : Valuation τ sig (Elt Ideal)) : val7 V (no_index (Proc.devRef .tc main_arg0)) = V (Proc.devRef .tc main_arg0) :=
  (st6_keep (val6 V) main_arg0 (by decide)).trans (val6_main_arg0 V)
theorem val7_main_arg1 (V : Valuation τ sig (Elt Ideal)) : val7 V (no_index (Proc.devRef .tc main_arg1)) = V (Proc.devRef .tc main_arg1) :=
  (st6_keep (val6 V) main_arg1 (by decide)).trans (val6_main_arg1 V)
theorem val7_main_arg2 (V : Valuation τ sig (Elt Ideal)) : val7 V (no_index (Proc.devRef .tc main_arg2)) = V (Proc.devRef .tc main_arg2) :=
  (st6_keep (val6 V) main_arg2 (by decide)).trans (val6_main_arg2 V)
theorem val7_main_arg3 (V : Valuation τ sig (Elt Ideal)) : val7 V (no_index (Proc.devRef .tc main_arg3)) = V (Proc.devRef .tc main_arg3) :=
  (st6_keep (val6 V) main_arg3 (by decide)).trans (val6_main_arg3 V)
theorem val7_main_arg4 (V : Valuation τ sig (Elt Ideal)) : val7 V (no_index (Proc.devRef .tc main_arg4)) = V (Proc.devRef .tc main_arg4) :=
  (st6_keep (val6 V) main_arg4 (by decide)).trans (val6_main_arg4 V)
theorem val7_main_arg5 (V : Valuation τ sig (Elt Ideal)) : val7 V (no_index (Proc.devRef .tc main_arg5)) = V (Proc.devRef .tc main_arg5) :=
  (st6_keep (val6 V) main_arg5 (by decide)).trans (val6_main_arg5 V)
theorem val7_main_arg6 (V : Valuation τ sig (Elt Ideal)) : val7 V (no_index (Proc.devRef .tc main_arg6)) = V (Proc.devRef .tc main_arg6) :=
  (st6_keep (val6 V) main_arg6 (by decide)).trans (val6_main_arg6 V)
theorem val7_main_arg7 (V : Valuation τ sig (Elt Ideal)) : val7 V (no_index (Proc.devRef .tc main_arg7)) = V (Proc.devRef .tc main_arg7) :=
  (st6_keep (val6 V) main_arg7 (by decide)).trans (val6_main_arg7 V)
theorem val7_main_arg8 (V : Valuation τ sig (Elt Ideal)) : val7 V (no_index (Proc.devRef .tc main_arg8)) = V (Proc.devRef .tc main_arg8) :=
  (st6_keep (val6 V) main_arg8 (by decide)).trans (val6_main_arg8 V)
theorem val7_main_arg9 (V : Valuation τ sig (Elt Ideal)) : val7 V (no_index (Proc.devRef .tc main_arg9)) = V (Proc.devRef .tc main_arg9) :=
  (st6_keep (val6 V) main_arg9 (by decide)).trans (val6_main_arg9 V)
theorem val7_main_arg10 (V : Valuation τ sig (Elt Ideal)) : val7 V (no_index (Proc.devRef .tc main_arg10)) = V (Proc.devRef .tc main_arg10) :=
  (st6_keep (val6 V) main_arg10 (by decide)).trans (val6_main_arg10 V)
theorem val7_main_arg11 (V : Valuation τ sig (Elt Ideal)) : val7 V (no_index (Proc.devRef .tc main_arg11)) = V (Proc.devRef .tc main_arg11) :=
  (st6_keep (val6 V) main_arg11 (by decide)).trans (val6_main_arg11 V)
theorem val7_main_arg12 (V : Valuation τ sig (Elt Ideal)) : val7 V (no_index (Proc.devRef .tc main_arg12)) = V (Proc.devRef .tc main_arg12) :=
  (st6_keep (val6 V) main_arg12 (by decide)).trans (val6_main_arg12 V)
theorem val7_main_arg13 (V : Valuation τ sig (Elt Ideal)) : val7 V (no_index (Proc.devRef .tc main_arg13)) = V (Proc.devRef .tc main_arg13) :=
  (st6_keep (val6 V) main_arg13 (by decide)).trans (val6_main_arg13 V)
theorem val7_main_arg14 (V : Valuation τ sig (Elt Ideal)) : val7 V (no_index (Proc.devRef .tc main_arg14)) = V (Proc.devRef .tc main_arg14) :=
  (st6_keep (val6 V) main_arg14 (by decide)).trans (val6_main_arg14 V)
theorem val7_main_arg15 (V : Valuation τ sig (Elt Ideal)) : val7 V (no_index (Proc.devRef .tc main_arg15)) = V (Proc.devRef .tc main_arg15) :=
  (st6_keep (val6 V) main_arg15 (by decide)).trans (val6_main_arg15 V)
theorem val7_main_arg16 (V : Valuation τ sig (Elt Ideal)) : val7 V (no_index (Proc.devRef .tc main_arg16)) = V (Proc.devRef .tc main_arg16) :=
  (st6_keep (val6 V) main_arg16 (by decide)).trans (val6_main_arg16 V)
theorem val7_main_arg17 (V : Valuation τ sig (Elt Ideal)) : val7 V (no_index (Proc.devRef .tc main_arg17)) = V (Proc.devRef .tc main_arg17) :=
  (st6_keep (val6 V) main_arg17 (by decide)).trans (val6_main_arg17 V)
theorem val7_main_arg18 (V : Valuation τ sig (Elt Ideal)) : val7 V (no_index (Proc.devRef .tc main_arg18)) = V (Proc.devRef .tc main_arg18) :=
  (st6_keep (val6 V) main_arg18 (by decide)).trans (val6_main_arg18 V)
theorem val7_main_arg19 (V : Valuation τ sig (Elt Ideal)) : val7 V (no_index (Proc.devRef .tc main_arg19)) = V (Proc.devRef .tc main_arg19) :=
  (st6_keep (val6 V) main_arg19 (by decide)).trans (val6_main_arg19 V)
theorem val7_main_arg20 (V : Valuation τ sig (Elt Ideal)) : val7 V (no_index (Proc.devRef .tc main_arg20)) = V (Proc.devRef .tc main_arg20) :=
  (st6_keep (val6 V) main_arg20 (by decide)).trans (val6_main_arg20 V)
theorem val7_main_arg21 (V : Valuation τ sig (Elt Ideal)) : val7 V (no_index (Proc.devRef .tc main_arg21)) = V (Proc.devRef .tc main_arg21) :=
  (st6_keep (val6 V) main_arg21 (by decide)).trans (val6_main_arg21 V)
theorem val7_main_arg22 (V : Valuation τ sig (Elt Ideal)) : val7 V (no_index (Proc.devRef .tc main_arg22)) = V (Proc.devRef .tc main_arg22) :=
  (st6_keep (val6 V) main_arg22 (by decide)).trans (val6_main_arg22 V)
theorem val7_main_arg23 (V : Valuation τ sig (Elt Ideal)) : val7 V (no_index (Proc.devRef .tc main_arg23)) = V (Proc.devRef .tc main_arg23) :=
  (st6_keep (val6 V) main_arg23 (by decide)).trans (val6_main_arg23 V)
theorem val7_main_arg24 (V : Valuation τ sig (Elt Ideal)) : val7 V (no_index (Proc.devRef .tc main_arg24)) = V (Proc.devRef .tc main_arg24) :=
  (st6_keep (val6 V) main_arg24 (by decide)).trans (val6_main_arg24 V)
theorem val7_main_v1 (V : Valuation τ sig (Elt Ideal)) : val7 V (no_index (Proc.devRef .tc main_v1)) = at25 (res_main_v1 (F := Ideal)) V :=
  (st6_keep (val6 V) main_v1 (by decide)).trans (val6_main_v1 V)
theorem val7_main_v3 (V : Valuation τ sig (Elt Ideal)) : val7 V (no_index (Proc.devRef .tc main_v3)) = at25 (res_main_v3 (F := Ideal)) V :=
  (st6_keep (val6 V) main_v3 (by decide)).trans (val6_main_v3 V)
theorem val7_main_v46 (V : Valuation τ sig (Elt Ideal)) : val7 V (no_index (Proc.devRef .tc main_v46)) = at25 (res_main_v46 (F := Ideal)) V := by
  unfold val7
  rw [st6_main_v46]
  rw [val6_main_arg7 V, val6_main_v27 V, val6_main_v30 V, val6_main_v31 V, val6_main_arg8 V]
  rfl

/-- The contents after the first 8 parts. -/
def val8 (V : Valuation τ sig (Elt Ideal)) : Valuation τ sig (Elt Ideal) := after (st7 (F := Ideal)) (val7 V)
theorem val8_main_arg0 (V : Valuation τ sig (Elt Ideal)) : val8 V (no_index (Proc.devRef .tc main_arg0)) = V (Proc.devRef .tc main_arg0) :=
  (st7_keep (val7 V) main_arg0 (by decide)).trans (val7_main_arg0 V)
theorem val8_main_arg1 (V : Valuation τ sig (Elt Ideal)) : val8 V (no_index (Proc.devRef .tc main_arg1)) = V (Proc.devRef .tc main_arg1) :=
  (st7_keep (val7 V) main_arg1 (by decide)).trans (val7_main_arg1 V)
theorem val8_main_arg2 (V : Valuation τ sig (Elt Ideal)) : val8 V (no_index (Proc.devRef .tc main_arg2)) = V (Proc.devRef .tc main_arg2) :=
  (st7_keep (val7 V) main_arg2 (by decide)).trans (val7_main_arg2 V)
theorem val8_main_arg3 (V : Valuation τ sig (Elt Ideal)) : val8 V (no_index (Proc.devRef .tc main_arg3)) = V (Proc.devRef .tc main_arg3) :=
  (st7_keep (val7 V) main_arg3 (by decide)).trans (val7_main_arg3 V)
theorem val8_main_arg4 (V : Valuation τ sig (Elt Ideal)) : val8 V (no_index (Proc.devRef .tc main_arg4)) = V (Proc.devRef .tc main_arg4) :=
  (st7_keep (val7 V) main_arg4 (by decide)).trans (val7_main_arg4 V)
theorem val8_main_arg5 (V : Valuation τ sig (Elt Ideal)) : val8 V (no_index (Proc.devRef .tc main_arg5)) = V (Proc.devRef .tc main_arg5) :=
  (st7_keep (val7 V) main_arg5 (by decide)).trans (val7_main_arg5 V)
theorem val8_main_arg6 (V : Valuation τ sig (Elt Ideal)) : val8 V (no_index (Proc.devRef .tc main_arg6)) = V (Proc.devRef .tc main_arg6) :=
  (st7_keep (val7 V) main_arg6 (by decide)).trans (val7_main_arg6 V)
theorem val8_main_arg7 (V : Valuation τ sig (Elt Ideal)) : val8 V (no_index (Proc.devRef .tc main_arg7)) = V (Proc.devRef .tc main_arg7) :=
  (st7_keep (val7 V) main_arg7 (by decide)).trans (val7_main_arg7 V)
theorem val8_main_arg8 (V : Valuation τ sig (Elt Ideal)) : val8 V (no_index (Proc.devRef .tc main_arg8)) = V (Proc.devRef .tc main_arg8) :=
  (st7_keep (val7 V) main_arg8 (by decide)).trans (val7_main_arg8 V)
theorem val8_main_arg9 (V : Valuation τ sig (Elt Ideal)) : val8 V (no_index (Proc.devRef .tc main_arg9)) = V (Proc.devRef .tc main_arg9) :=
  (st7_keep (val7 V) main_arg9 (by decide)).trans (val7_main_arg9 V)
theorem val8_main_arg10 (V : Valuation τ sig (Elt Ideal)) : val8 V (no_index (Proc.devRef .tc main_arg10)) = V (Proc.devRef .tc main_arg10) :=
  (st7_keep (val7 V) main_arg10 (by decide)).trans (val7_main_arg10 V)
theorem val8_main_arg11 (V : Valuation τ sig (Elt Ideal)) : val8 V (no_index (Proc.devRef .tc main_arg11)) = V (Proc.devRef .tc main_arg11) :=
  (st7_keep (val7 V) main_arg11 (by decide)).trans (val7_main_arg11 V)
theorem val8_main_arg12 (V : Valuation τ sig (Elt Ideal)) : val8 V (no_index (Proc.devRef .tc main_arg12)) = V (Proc.devRef .tc main_arg12) :=
  (st7_keep (val7 V) main_arg12 (by decide)).trans (val7_main_arg12 V)
theorem val8_main_arg13 (V : Valuation τ sig (Elt Ideal)) : val8 V (no_index (Proc.devRef .tc main_arg13)) = V (Proc.devRef .tc main_arg13) :=
  (st7_keep (val7 V) main_arg13 (by decide)).trans (val7_main_arg13 V)
theorem val8_main_arg14 (V : Valuation τ sig (Elt Ideal)) : val8 V (no_index (Proc.devRef .tc main_arg14)) = V (Proc.devRef .tc main_arg14) :=
  (st7_keep (val7 V) main_arg14 (by decide)).trans (val7_main_arg14 V)
theorem val8_main_arg15 (V : Valuation τ sig (Elt Ideal)) : val8 V (no_index (Proc.devRef .tc main_arg15)) = V (Proc.devRef .tc main_arg15) :=
  (st7_keep (val7 V) main_arg15 (by decide)).trans (val7_main_arg15 V)
theorem val8_main_arg16 (V : Valuation τ sig (Elt Ideal)) : val8 V (no_index (Proc.devRef .tc main_arg16)) = V (Proc.devRef .tc main_arg16) :=
  (st7_keep (val7 V) main_arg16 (by decide)).trans (val7_main_arg16 V)
theorem val8_main_arg17 (V : Valuation τ sig (Elt Ideal)) : val8 V (no_index (Proc.devRef .tc main_arg17)) = V (Proc.devRef .tc main_arg17) :=
  (st7_keep (val7 V) main_arg17 (by decide)).trans (val7_main_arg17 V)
theorem val8_main_arg18 (V : Valuation τ sig (Elt Ideal)) : val8 V (no_index (Proc.devRef .tc main_arg18)) = V (Proc.devRef .tc main_arg18) :=
  (st7_keep (val7 V) main_arg18 (by decide)).trans (val7_main_arg18 V)
theorem val8_main_arg19 (V : Valuation τ sig (Elt Ideal)) : val8 V (no_index (Proc.devRef .tc main_arg19)) = V (Proc.devRef .tc main_arg19) :=
  (st7_keep (val7 V) main_arg19 (by decide)).trans (val7_main_arg19 V)
theorem val8_main_arg20 (V : Valuation τ sig (Elt Ideal)) : val8 V (no_index (Proc.devRef .tc main_arg20)) = V (Proc.devRef .tc main_arg20) :=
  (st7_keep (val7 V) main_arg20 (by decide)).trans (val7_main_arg20 V)
theorem val8_main_arg21 (V : Valuation τ sig (Elt Ideal)) : val8 V (no_index (Proc.devRef .tc main_arg21)) = V (Proc.devRef .tc main_arg21) :=
  (st7_keep (val7 V) main_arg21 (by decide)).trans (val7_main_arg21 V)
theorem val8_main_arg22 (V : Valuation τ sig (Elt Ideal)) : val8 V (no_index (Proc.devRef .tc main_arg22)) = V (Proc.devRef .tc main_arg22) :=
  (st7_keep (val7 V) main_arg22 (by decide)).trans (val7_main_arg22 V)
theorem val8_main_arg23 (V : Valuation τ sig (Elt Ideal)) : val8 V (no_index (Proc.devRef .tc main_arg23)) = V (Proc.devRef .tc main_arg23) :=
  (st7_keep (val7 V) main_arg23 (by decide)).trans (val7_main_arg23 V)
theorem val8_main_arg24 (V : Valuation τ sig (Elt Ideal)) : val8 V (no_index (Proc.devRef .tc main_arg24)) = V (Proc.devRef .tc main_arg24) :=
  (st7_keep (val7 V) main_arg24 (by decide)).trans (val7_main_arg24 V)
theorem val8_main_v1 (V : Valuation τ sig (Elt Ideal)) : val8 V (no_index (Proc.devRef .tc main_v1)) = at25 (res_main_v1 (F := Ideal)) V :=
  (st7_keep (val7 V) main_v1 (by decide)).trans (val7_main_v1 V)
theorem val8_main_v3 (V : Valuation τ sig (Elt Ideal)) : val8 V (no_index (Proc.devRef .tc main_v3)) = at25 (res_main_v3 (F := Ideal)) V :=
  (st7_keep (val7 V) main_v3 (by decide)).trans (val7_main_v3 V)
theorem val8_main_v46 (V : Valuation τ sig (Elt Ideal)) : val8 V (no_index (Proc.devRef .tc main_v46)) = at25 (res_main_v46 (F := Ideal)) V :=
  (st7_keep (val7 V) main_v46 (by decide)).trans (val7_main_v46 V)
theorem val8_main_v48 (V : Valuation τ sig (Elt Ideal)) : val8 V (no_index (Proc.devRef .tc main_v48)) = at25 (res_main_v48 (F := Ideal)) V := by
  unfold val8
  rw [st7_main_v48]
  rw [val7_main_arg16 V]
  rfl
theorem val8_main_v50 (V : Valuation τ sig (Elt Ideal)) : val8 V (no_index (Proc.devRef .tc main_v50)) = at25 (res_main_v50 (F := Ideal)) V := by
  unfold val8
  rw [st7_main_v50]
  rw [val7_main_arg10 V]
  rfl
theorem val8_main_v52 (V : Valuation τ sig (Elt Ideal)) : val8 V (no_index (Proc.devRef .tc main_v52)) = at25 (res_main_v52 (F := Ideal)) V := by
  unfold val8
  rw [st7_main_v52]
  rw [val7_main_arg11 V]
  rfl
theorem val8_main_v54 (V : Valuation τ sig (Elt Ideal)) : val8 V (no_index (Proc.devRef .tc main_v54)) = at25 (res_main_v54 (F := Ideal)) V := by
  unfold val8
  rw [st7_main_v54]
  rw [val7_main_arg12 V]
  rfl
theorem val8_main_v56 (V : Valuation τ sig (Elt Ideal)) : val8 V (no_index (Proc.devRef .tc main_v56)) = at25 (res_main_v56 (F := Ideal)) V := by
  unfold val8
  rw [st7_main_v56]
  rw [val7_main_arg13 V]
  rfl
theorem val8_main_v58 (V : Valuation τ sig (Elt Ideal)) : val8 V (no_index (Proc.devRef .tc main_v58)) = at25 (res_main_v58 (F := Ideal)) V := by
  unfold val8
  rw [st7_main_v58]
  rw [val7_main_arg14 V]
  rfl
theorem val8_main_v60 (V : Valuation τ sig (Elt Ideal)) : val8 V (no_index (Proc.devRef .tc main_v60)) = at25 (res_main_v60 (F := Ideal)) V := by
  unfold val8
  rw [st7_main_v60]
  rw [val7_main_arg15 V]
  rfl

/-- The contents after the first 9 parts. -/
def val9 (V : Valuation τ sig (Elt Ideal)) : Valuation τ sig (Elt Ideal) := after (st8 (F := Ideal)) (val8 V)
theorem val9_main_arg0 (V : Valuation τ sig (Elt Ideal)) : val9 V (no_index (Proc.devRef .tc main_arg0)) = V (Proc.devRef .tc main_arg0) :=
  (st8_keep (val8 V) main_arg0 (by decide)).trans (val8_main_arg0 V)
theorem val9_main_arg1 (V : Valuation τ sig (Elt Ideal)) : val9 V (no_index (Proc.devRef .tc main_arg1)) = V (Proc.devRef .tc main_arg1) :=
  (st8_keep (val8 V) main_arg1 (by decide)).trans (val8_main_arg1 V)
theorem val9_main_arg2 (V : Valuation τ sig (Elt Ideal)) : val9 V (no_index (Proc.devRef .tc main_arg2)) = V (Proc.devRef .tc main_arg2) :=
  (st8_keep (val8 V) main_arg2 (by decide)).trans (val8_main_arg2 V)
theorem val9_main_arg3 (V : Valuation τ sig (Elt Ideal)) : val9 V (no_index (Proc.devRef .tc main_arg3)) = V (Proc.devRef .tc main_arg3) :=
  (st8_keep (val8 V) main_arg3 (by decide)).trans (val8_main_arg3 V)
theorem val9_main_arg4 (V : Valuation τ sig (Elt Ideal)) : val9 V (no_index (Proc.devRef .tc main_arg4)) = V (Proc.devRef .tc main_arg4) :=
  (st8_keep (val8 V) main_arg4 (by decide)).trans (val8_main_arg4 V)
theorem val9_main_arg5 (V : Valuation τ sig (Elt Ideal)) : val9 V (no_index (Proc.devRef .tc main_arg5)) = V (Proc.devRef .tc main_arg5) :=
  (st8_keep (val8 V) main_arg5 (by decide)).trans (val8_main_arg5 V)
theorem val9_main_arg6 (V : Valuation τ sig (Elt Ideal)) : val9 V (no_index (Proc.devRef .tc main_arg6)) = V (Proc.devRef .tc main_arg6) :=
  (st8_keep (val8 V) main_arg6 (by decide)).trans (val8_main_arg6 V)
theorem val9_main_arg7 (V : Valuation τ sig (Elt Ideal)) : val9 V (no_index (Proc.devRef .tc main_arg7)) = V (Proc.devRef .tc main_arg7) :=
  (st8_keep (val8 V) main_arg7 (by decide)).trans (val8_main_arg7 V)
theorem val9_main_arg8 (V : Valuation τ sig (Elt Ideal)) : val9 V (no_index (Proc.devRef .tc main_arg8)) = V (Proc.devRef .tc main_arg8) :=
  (st8_keep (val8 V) main_arg8 (by decide)).trans (val8_main_arg8 V)
theorem val9_main_arg9 (V : Valuation τ sig (Elt Ideal)) : val9 V (no_index (Proc.devRef .tc main_arg9)) = V (Proc.devRef .tc main_arg9) :=
  (st8_keep (val8 V) main_arg9 (by decide)).trans (val8_main_arg9 V)
theorem val9_main_arg10 (V : Valuation τ sig (Elt Ideal)) : val9 V (no_index (Proc.devRef .tc main_arg10)) = V (Proc.devRef .tc main_arg10) :=
  (st8_keep (val8 V) main_arg10 (by decide)).trans (val8_main_arg10 V)
theorem val9_main_arg11 (V : Valuation τ sig (Elt Ideal)) : val9 V (no_index (Proc.devRef .tc main_arg11)) = V (Proc.devRef .tc main_arg11) :=
  (st8_keep (val8 V) main_arg11 (by decide)).trans (val8_main_arg11 V)
theorem val9_main_arg12 (V : Valuation τ sig (Elt Ideal)) : val9 V (no_index (Proc.devRef .tc main_arg12)) = V (Proc.devRef .tc main_arg12) :=
  (st8_keep (val8 V) main_arg12 (by decide)).trans (val8_main_arg12 V)
theorem val9_main_arg13 (V : Valuation τ sig (Elt Ideal)) : val9 V (no_index (Proc.devRef .tc main_arg13)) = V (Proc.devRef .tc main_arg13) :=
  (st8_keep (val8 V) main_arg13 (by decide)).trans (val8_main_arg13 V)
theorem val9_main_arg14 (V : Valuation τ sig (Elt Ideal)) : val9 V (no_index (Proc.devRef .tc main_arg14)) = V (Proc.devRef .tc main_arg14) :=
  (st8_keep (val8 V) main_arg14 (by decide)).trans (val8_main_arg14 V)
theorem val9_main_arg15 (V : Valuation τ sig (Elt Ideal)) : val9 V (no_index (Proc.devRef .tc main_arg15)) = V (Proc.devRef .tc main_arg15) :=
  (st8_keep (val8 V) main_arg15 (by decide)).trans (val8_main_arg15 V)
theorem val9_main_arg16 (V : Valuation τ sig (Elt Ideal)) : val9 V (no_index (Proc.devRef .tc main_arg16)) = V (Proc.devRef .tc main_arg16) :=
  (st8_keep (val8 V) main_arg16 (by decide)).trans (val8_main_arg16 V)
theorem val9_main_arg17 (V : Valuation τ sig (Elt Ideal)) : val9 V (no_index (Proc.devRef .tc main_arg17)) = V (Proc.devRef .tc main_arg17) :=
  (st8_keep (val8 V) main_arg17 (by decide)).trans (val8_main_arg17 V)
theorem val9_main_arg18 (V : Valuation τ sig (Elt Ideal)) : val9 V (no_index (Proc.devRef .tc main_arg18)) = V (Proc.devRef .tc main_arg18) :=
  (st8_keep (val8 V) main_arg18 (by decide)).trans (val8_main_arg18 V)
theorem val9_main_arg19 (V : Valuation τ sig (Elt Ideal)) : val9 V (no_index (Proc.devRef .tc main_arg19)) = V (Proc.devRef .tc main_arg19) :=
  (st8_keep (val8 V) main_arg19 (by decide)).trans (val8_main_arg19 V)
theorem val9_main_arg20 (V : Valuation τ sig (Elt Ideal)) : val9 V (no_index (Proc.devRef .tc main_arg20)) = V (Proc.devRef .tc main_arg20) :=
  (st8_keep (val8 V) main_arg20 (by decide)).trans (val8_main_arg20 V)
theorem val9_main_arg21 (V : Valuation τ sig (Elt Ideal)) : val9 V (no_index (Proc.devRef .tc main_arg21)) = V (Proc.devRef .tc main_arg21) :=
  (st8_keep (val8 V) main_arg21 (by decide)).trans (val8_main_arg21 V)
theorem val9_main_arg22 (V : Valuation τ sig (Elt Ideal)) : val9 V (no_index (Proc.devRef .tc main_arg22)) = V (Proc.devRef .tc main_arg22) :=
  (st8_keep (val8 V) main_arg22 (by decide)).trans (val8_main_arg22 V)
theorem val9_main_arg23 (V : Valuation τ sig (Elt Ideal)) : val9 V (no_index (Proc.devRef .tc main_arg23)) = V (Proc.devRef .tc main_arg23) :=
  (st8_keep (val8 V) main_arg23 (by decide)).trans (val8_main_arg23 V)
theorem val9_main_arg24 (V : Valuation τ sig (Elt Ideal)) : val9 V (no_index (Proc.devRef .tc main_arg24)) = V (Proc.devRef .tc main_arg24) :=
  (st8_keep (val8 V) main_arg24 (by decide)).trans (val8_main_arg24 V)
theorem val9_main_v1 (V : Valuation τ sig (Elt Ideal)) : val9 V (no_index (Proc.devRef .tc main_v1)) = at25 (res_main_v1 (F := Ideal)) V :=
  (st8_keep (val8 V) main_v1 (by decide)).trans (val8_main_v1 V)
theorem val9_main_v3 (V : Valuation τ sig (Elt Ideal)) : val9 V (no_index (Proc.devRef .tc main_v3)) = at25 (res_main_v3 (F := Ideal)) V :=
  (st8_keep (val8 V) main_v3 (by decide)).trans (val8_main_v3 V)
theorem val9_main_v46 (V : Valuation τ sig (Elt Ideal)) : val9 V (no_index (Proc.devRef .tc main_v46)) = at25 (res_main_v46 (F := Ideal)) V :=
  (st8_keep (val8 V) main_v46 (by decide)).trans (val8_main_v46 V)
theorem val9_main_v50 (V : Valuation τ sig (Elt Ideal)) : val9 V (no_index (Proc.devRef .tc main_v50)) = at25 (res_main_v50 (F := Ideal)) V :=
  (st8_keep (val8 V) main_v50 (by decide)).trans (val8_main_v50 V)
theorem val9_main_v52 (V : Valuation τ sig (Elt Ideal)) : val9 V (no_index (Proc.devRef .tc main_v52)) = at25 (res_main_v52 (F := Ideal)) V :=
  (st8_keep (val8 V) main_v52 (by decide)).trans (val8_main_v52 V)
theorem val9_main_v54 (V : Valuation τ sig (Elt Ideal)) : val9 V (no_index (Proc.devRef .tc main_v54)) = at25 (res_main_v54 (F := Ideal)) V :=
  (st8_keep (val8 V) main_v54 (by decide)).trans (val8_main_v54 V)
theorem val9_main_v56 (V : Valuation τ sig (Elt Ideal)) : val9 V (no_index (Proc.devRef .tc main_v56)) = at25 (res_main_v56 (F := Ideal)) V :=
  (st8_keep (val8 V) main_v56 (by decide)).trans (val8_main_v56 V)
theorem val9_main_v58 (V : Valuation τ sig (Elt Ideal)) : val9 V (no_index (Proc.devRef .tc main_v58)) = at25 (res_main_v58 (F := Ideal)) V :=
  (st8_keep (val8 V) main_v58 (by decide)).trans (val8_main_v58 V)
theorem val9_main_v60 (V : Valuation τ sig (Elt Ideal)) : val9 V (no_index (Proc.devRef .tc main_v60)) = at25 (res_main_v60 (F := Ideal)) V :=
  (st8_keep (val8 V) main_v60 (by decide)).trans (val8_main_v60 V)
theorem val9_main_v74 (V : Valuation τ sig (Elt Ideal)) : val9 V (no_index (Proc.devRef .tc main_v74)) = at25 (res_main_v74 (F := Ideal)) V := by
  unfold val9
  rw [st8_main_v74]
  rw [val8_main_v48 V, val8_main_v46 V, val8_main_v3 V, val8_main_v1 V]
  rfl

/-- The contents after the first 10 parts. -/
def val10 (V : Valuation τ sig (Elt Ideal)) : Valuation τ sig (Elt Ideal) := after (st9 (F := Ideal)) (val9 V)
theorem val10_main_arg0 (V : Valuation τ sig (Elt Ideal)) : val10 V (no_index (Proc.devRef .tc main_arg0)) = V (Proc.devRef .tc main_arg0) :=
  (st9_keep (val9 V) main_arg0 (by decide)).trans (val9_main_arg0 V)
theorem val10_main_arg1 (V : Valuation τ sig (Elt Ideal)) : val10 V (no_index (Proc.devRef .tc main_arg1)) = V (Proc.devRef .tc main_arg1) :=
  (st9_keep (val9 V) main_arg1 (by decide)).trans (val9_main_arg1 V)
theorem val10_main_arg2 (V : Valuation τ sig (Elt Ideal)) : val10 V (no_index (Proc.devRef .tc main_arg2)) = V (Proc.devRef .tc main_arg2) :=
  (st9_keep (val9 V) main_arg2 (by decide)).trans (val9_main_arg2 V)
theorem val10_main_arg3 (V : Valuation τ sig (Elt Ideal)) : val10 V (no_index (Proc.devRef .tc main_arg3)) = V (Proc.devRef .tc main_arg3) :=
  (st9_keep (val9 V) main_arg3 (by decide)).trans (val9_main_arg3 V)
theorem val10_main_arg4 (V : Valuation τ sig (Elt Ideal)) : val10 V (no_index (Proc.devRef .tc main_arg4)) = V (Proc.devRef .tc main_arg4) :=
  (st9_keep (val9 V) main_arg4 (by decide)).trans (val9_main_arg4 V)
theorem val10_main_arg5 (V : Valuation τ sig (Elt Ideal)) : val10 V (no_index (Proc.devRef .tc main_arg5)) = V (Proc.devRef .tc main_arg5) :=
  (st9_keep (val9 V) main_arg5 (by decide)).trans (val9_main_arg5 V)
theorem val10_main_arg6 (V : Valuation τ sig (Elt Ideal)) : val10 V (no_index (Proc.devRef .tc main_arg6)) = V (Proc.devRef .tc main_arg6) :=
  (st9_keep (val9 V) main_arg6 (by decide)).trans (val9_main_arg6 V)
theorem val10_main_arg7 (V : Valuation τ sig (Elt Ideal)) : val10 V (no_index (Proc.devRef .tc main_arg7)) = V (Proc.devRef .tc main_arg7) :=
  (st9_keep (val9 V) main_arg7 (by decide)).trans (val9_main_arg7 V)
theorem val10_main_arg8 (V : Valuation τ sig (Elt Ideal)) : val10 V (no_index (Proc.devRef .tc main_arg8)) = V (Proc.devRef .tc main_arg8) :=
  (st9_keep (val9 V) main_arg8 (by decide)).trans (val9_main_arg8 V)
theorem val10_main_arg9 (V : Valuation τ sig (Elt Ideal)) : val10 V (no_index (Proc.devRef .tc main_arg9)) = V (Proc.devRef .tc main_arg9) :=
  (st9_keep (val9 V) main_arg9 (by decide)).trans (val9_main_arg9 V)
theorem val10_main_arg10 (V : Valuation τ sig (Elt Ideal)) : val10 V (no_index (Proc.devRef .tc main_arg10)) = V (Proc.devRef .tc main_arg10) :=
  (st9_keep (val9 V) main_arg10 (by decide)).trans (val9_main_arg10 V)
theorem val10_main_arg11 (V : Valuation τ sig (Elt Ideal)) : val10 V (no_index (Proc.devRef .tc main_arg11)) = V (Proc.devRef .tc main_arg11) :=
  (st9_keep (val9 V) main_arg11 (by decide)).trans (val9_main_arg11 V)
theorem val10_main_arg12 (V : Valuation τ sig (Elt Ideal)) : val10 V (no_index (Proc.devRef .tc main_arg12)) = V (Proc.devRef .tc main_arg12) :=
  (st9_keep (val9 V) main_arg12 (by decide)).trans (val9_main_arg12 V)
theorem val10_main_arg13 (V : Valuation τ sig (Elt Ideal)) : val10 V (no_index (Proc.devRef .tc main_arg13)) = V (Proc.devRef .tc main_arg13) :=
  (st9_keep (val9 V) main_arg13 (by decide)).trans (val9_main_arg13 V)
theorem val10_main_arg14 (V : Valuation τ sig (Elt Ideal)) : val10 V (no_index (Proc.devRef .tc main_arg14)) = V (Proc.devRef .tc main_arg14) :=
  (st9_keep (val9 V) main_arg14 (by decide)).trans (val9_main_arg14 V)
theorem val10_main_arg15 (V : Valuation τ sig (Elt Ideal)) : val10 V (no_index (Proc.devRef .tc main_arg15)) = V (Proc.devRef .tc main_arg15) :=
  (st9_keep (val9 V) main_arg15 (by decide)).trans (val9_main_arg15 V)
theorem val10_main_arg16 (V : Valuation τ sig (Elt Ideal)) : val10 V (no_index (Proc.devRef .tc main_arg16)) = V (Proc.devRef .tc main_arg16) :=
  (st9_keep (val9 V) main_arg16 (by decide)).trans (val9_main_arg16 V)
theorem val10_main_arg17 (V : Valuation τ sig (Elt Ideal)) : val10 V (no_index (Proc.devRef .tc main_arg17)) = V (Proc.devRef .tc main_arg17) :=
  (st9_keep (val9 V) main_arg17 (by decide)).trans (val9_main_arg17 V)
theorem val10_main_arg18 (V : Valuation τ sig (Elt Ideal)) : val10 V (no_index (Proc.devRef .tc main_arg18)) = V (Proc.devRef .tc main_arg18) :=
  (st9_keep (val9 V) main_arg18 (by decide)).trans (val9_main_arg18 V)
theorem val10_main_arg19 (V : Valuation τ sig (Elt Ideal)) : val10 V (no_index (Proc.devRef .tc main_arg19)) = V (Proc.devRef .tc main_arg19) :=
  (st9_keep (val9 V) main_arg19 (by decide)).trans (val9_main_arg19 V)
theorem val10_main_arg20 (V : Valuation τ sig (Elt Ideal)) : val10 V (no_index (Proc.devRef .tc main_arg20)) = V (Proc.devRef .tc main_arg20) :=
  (st9_keep (val9 V) main_arg20 (by decide)).trans (val9_main_arg20 V)
theorem val10_main_arg21 (V : Valuation τ sig (Elt Ideal)) : val10 V (no_index (Proc.devRef .tc main_arg21)) = V (Proc.devRef .tc main_arg21) :=
  (st9_keep (val9 V) main_arg21 (by decide)).trans (val9_main_arg21 V)
theorem val10_main_arg22 (V : Valuation τ sig (Elt Ideal)) : val10 V (no_index (Proc.devRef .tc main_arg22)) = V (Proc.devRef .tc main_arg22) :=
  (st9_keep (val9 V) main_arg22 (by decide)).trans (val9_main_arg22 V)
theorem val10_main_arg23 (V : Valuation τ sig (Elt Ideal)) : val10 V (no_index (Proc.devRef .tc main_arg23)) = V (Proc.devRef .tc main_arg23) :=
  (st9_keep (val9 V) main_arg23 (by decide)).trans (val9_main_arg23 V)
theorem val10_main_arg24 (V : Valuation τ sig (Elt Ideal)) : val10 V (no_index (Proc.devRef .tc main_arg24)) = V (Proc.devRef .tc main_arg24) :=
  (st9_keep (val9 V) main_arg24 (by decide)).trans (val9_main_arg24 V)
theorem val10_main_v1 (V : Valuation τ sig (Elt Ideal)) : val10 V (no_index (Proc.devRef .tc main_v1)) = at25 (res_main_v1 (F := Ideal)) V :=
  (st9_keep (val9 V) main_v1 (by decide)).trans (val9_main_v1 V)
theorem val10_main_v3 (V : Valuation τ sig (Elt Ideal)) : val10 V (no_index (Proc.devRef .tc main_v3)) = at25 (res_main_v3 (F := Ideal)) V :=
  (st9_keep (val9 V) main_v3 (by decide)).trans (val9_main_v3 V)
theorem val10_main_v46 (V : Valuation τ sig (Elt Ideal)) : val10 V (no_index (Proc.devRef .tc main_v46)) = at25 (res_main_v46 (F := Ideal)) V :=
  (st9_keep (val9 V) main_v46 (by decide)).trans (val9_main_v46 V)
theorem val10_main_v54 (V : Valuation τ sig (Elt Ideal)) : val10 V (no_index (Proc.devRef .tc main_v54)) = at25 (res_main_v54 (F := Ideal)) V :=
  (st9_keep (val9 V) main_v54 (by decide)).trans (val9_main_v54 V)
theorem val10_main_v56 (V : Valuation τ sig (Elt Ideal)) : val10 V (no_index (Proc.devRef .tc main_v56)) = at25 (res_main_v56 (F := Ideal)) V :=
  (st9_keep (val9 V) main_v56 (by decide)).trans (val9_main_v56 V)
theorem val10_main_v58 (V : Valuation τ sig (Elt Ideal)) : val10 V (no_index (Proc.devRef .tc main_v58)) = at25 (res_main_v58 (F := Ideal)) V :=
  (st9_keep (val9 V) main_v58 (by decide)).trans (val9_main_v58 V)
theorem val10_main_v60 (V : Valuation τ sig (Elt Ideal)) : val10 V (no_index (Proc.devRef .tc main_v60)) = at25 (res_main_v60 (F := Ideal)) V :=
  (st9_keep (val9 V) main_v60 (by decide)).trans (val9_main_v60 V)
theorem val10_main_v79 (V : Valuation τ sig (Elt Ideal)) : val10 V (no_index (Proc.devRef .tc main_v79)) = at25 (res_main_v79 (F := Ideal)) V := by
  unfold val10
  rw [st9_main_v79]
  rw [val9_main_v74 V, val9_main_v50 V, val9_main_v52 V]
  rfl

/-- The contents after the first 11 parts. -/
def val11 (V : Valuation τ sig (Elt Ideal)) : Valuation τ sig (Elt Ideal) := after (st10 (F := Ideal)) (val10 V)
theorem val11_main_arg0 (V : Valuation τ sig (Elt Ideal)) : val11 V (no_index (Proc.devRef .tc main_arg0)) = V (Proc.devRef .tc main_arg0) :=
  (st10_keep (val10 V) main_arg0 (by decide)).trans (val10_main_arg0 V)
theorem val11_main_arg1 (V : Valuation τ sig (Elt Ideal)) : val11 V (no_index (Proc.devRef .tc main_arg1)) = V (Proc.devRef .tc main_arg1) :=
  (st10_keep (val10 V) main_arg1 (by decide)).trans (val10_main_arg1 V)
theorem val11_main_arg2 (V : Valuation τ sig (Elt Ideal)) : val11 V (no_index (Proc.devRef .tc main_arg2)) = V (Proc.devRef .tc main_arg2) :=
  (st10_keep (val10 V) main_arg2 (by decide)).trans (val10_main_arg2 V)
theorem val11_main_arg3 (V : Valuation τ sig (Elt Ideal)) : val11 V (no_index (Proc.devRef .tc main_arg3)) = V (Proc.devRef .tc main_arg3) :=
  (st10_keep (val10 V) main_arg3 (by decide)).trans (val10_main_arg3 V)
theorem val11_main_arg4 (V : Valuation τ sig (Elt Ideal)) : val11 V (no_index (Proc.devRef .tc main_arg4)) = V (Proc.devRef .tc main_arg4) :=
  (st10_keep (val10 V) main_arg4 (by decide)).trans (val10_main_arg4 V)
theorem val11_main_arg5 (V : Valuation τ sig (Elt Ideal)) : val11 V (no_index (Proc.devRef .tc main_arg5)) = V (Proc.devRef .tc main_arg5) :=
  (st10_keep (val10 V) main_arg5 (by decide)).trans (val10_main_arg5 V)
theorem val11_main_arg6 (V : Valuation τ sig (Elt Ideal)) : val11 V (no_index (Proc.devRef .tc main_arg6)) = V (Proc.devRef .tc main_arg6) :=
  (st10_keep (val10 V) main_arg6 (by decide)).trans (val10_main_arg6 V)
theorem val11_main_arg7 (V : Valuation τ sig (Elt Ideal)) : val11 V (no_index (Proc.devRef .tc main_arg7)) = V (Proc.devRef .tc main_arg7) :=
  (st10_keep (val10 V) main_arg7 (by decide)).trans (val10_main_arg7 V)
theorem val11_main_arg8 (V : Valuation τ sig (Elt Ideal)) : val11 V (no_index (Proc.devRef .tc main_arg8)) = V (Proc.devRef .tc main_arg8) :=
  (st10_keep (val10 V) main_arg8 (by decide)).trans (val10_main_arg8 V)
theorem val11_main_arg9 (V : Valuation τ sig (Elt Ideal)) : val11 V (no_index (Proc.devRef .tc main_arg9)) = V (Proc.devRef .tc main_arg9) :=
  (st10_keep (val10 V) main_arg9 (by decide)).trans (val10_main_arg9 V)
theorem val11_main_arg10 (V : Valuation τ sig (Elt Ideal)) : val11 V (no_index (Proc.devRef .tc main_arg10)) = V (Proc.devRef .tc main_arg10) :=
  (st10_keep (val10 V) main_arg10 (by decide)).trans (val10_main_arg10 V)
theorem val11_main_arg11 (V : Valuation τ sig (Elt Ideal)) : val11 V (no_index (Proc.devRef .tc main_arg11)) = V (Proc.devRef .tc main_arg11) :=
  (st10_keep (val10 V) main_arg11 (by decide)).trans (val10_main_arg11 V)
theorem val11_main_arg12 (V : Valuation τ sig (Elt Ideal)) : val11 V (no_index (Proc.devRef .tc main_arg12)) = V (Proc.devRef .tc main_arg12) :=
  (st10_keep (val10 V) main_arg12 (by decide)).trans (val10_main_arg12 V)
theorem val11_main_arg13 (V : Valuation τ sig (Elt Ideal)) : val11 V (no_index (Proc.devRef .tc main_arg13)) = V (Proc.devRef .tc main_arg13) :=
  (st10_keep (val10 V) main_arg13 (by decide)).trans (val10_main_arg13 V)
theorem val11_main_arg14 (V : Valuation τ sig (Elt Ideal)) : val11 V (no_index (Proc.devRef .tc main_arg14)) = V (Proc.devRef .tc main_arg14) :=
  (st10_keep (val10 V) main_arg14 (by decide)).trans (val10_main_arg14 V)
theorem val11_main_arg15 (V : Valuation τ sig (Elt Ideal)) : val11 V (no_index (Proc.devRef .tc main_arg15)) = V (Proc.devRef .tc main_arg15) :=
  (st10_keep (val10 V) main_arg15 (by decide)).trans (val10_main_arg15 V)
theorem val11_main_arg16 (V : Valuation τ sig (Elt Ideal)) : val11 V (no_index (Proc.devRef .tc main_arg16)) = V (Proc.devRef .tc main_arg16) :=
  (st10_keep (val10 V) main_arg16 (by decide)).trans (val10_main_arg16 V)
theorem val11_main_arg17 (V : Valuation τ sig (Elt Ideal)) : val11 V (no_index (Proc.devRef .tc main_arg17)) = V (Proc.devRef .tc main_arg17) :=
  (st10_keep (val10 V) main_arg17 (by decide)).trans (val10_main_arg17 V)
theorem val11_main_arg18 (V : Valuation τ sig (Elt Ideal)) : val11 V (no_index (Proc.devRef .tc main_arg18)) = V (Proc.devRef .tc main_arg18) :=
  (st10_keep (val10 V) main_arg18 (by decide)).trans (val10_main_arg18 V)
theorem val11_main_arg19 (V : Valuation τ sig (Elt Ideal)) : val11 V (no_index (Proc.devRef .tc main_arg19)) = V (Proc.devRef .tc main_arg19) :=
  (st10_keep (val10 V) main_arg19 (by decide)).trans (val10_main_arg19 V)
theorem val11_main_arg20 (V : Valuation τ sig (Elt Ideal)) : val11 V (no_index (Proc.devRef .tc main_arg20)) = V (Proc.devRef .tc main_arg20) :=
  (st10_keep (val10 V) main_arg20 (by decide)).trans (val10_main_arg20 V)
theorem val11_main_arg21 (V : Valuation τ sig (Elt Ideal)) : val11 V (no_index (Proc.devRef .tc main_arg21)) = V (Proc.devRef .tc main_arg21) :=
  (st10_keep (val10 V) main_arg21 (by decide)).trans (val10_main_arg21 V)
theorem val11_main_arg22 (V : Valuation τ sig (Elt Ideal)) : val11 V (no_index (Proc.devRef .tc main_arg22)) = V (Proc.devRef .tc main_arg22) :=
  (st10_keep (val10 V) main_arg22 (by decide)).trans (val10_main_arg22 V)
theorem val11_main_arg23 (V : Valuation τ sig (Elt Ideal)) : val11 V (no_index (Proc.devRef .tc main_arg23)) = V (Proc.devRef .tc main_arg23) :=
  (st10_keep (val10 V) main_arg23 (by decide)).trans (val10_main_arg23 V)
theorem val11_main_arg24 (V : Valuation τ sig (Elt Ideal)) : val11 V (no_index (Proc.devRef .tc main_arg24)) = V (Proc.devRef .tc main_arg24) :=
  (st10_keep (val10 V) main_arg24 (by decide)).trans (val10_main_arg24 V)
theorem val11_main_v1 (V : Valuation τ sig (Elt Ideal)) : val11 V (no_index (Proc.devRef .tc main_v1)) = at25 (res_main_v1 (F := Ideal)) V :=
  (st10_keep (val10 V) main_v1 (by decide)).trans (val10_main_v1 V)
theorem val11_main_v3 (V : Valuation τ sig (Elt Ideal)) : val11 V (no_index (Proc.devRef .tc main_v3)) = at25 (res_main_v3 (F := Ideal)) V :=
  (st10_keep (val10 V) main_v3 (by decide)).trans (val10_main_v3 V)
theorem val11_main_v46 (V : Valuation τ sig (Elt Ideal)) : val11 V (no_index (Proc.devRef .tc main_v46)) = at25 (res_main_v46 (F := Ideal)) V :=
  (st10_keep (val10 V) main_v46 (by decide)).trans (val10_main_v46 V)
theorem val11_main_v58 (V : Valuation τ sig (Elt Ideal)) : val11 V (no_index (Proc.devRef .tc main_v58)) = at25 (res_main_v58 (F := Ideal)) V :=
  (st10_keep (val10 V) main_v58 (by decide)).trans (val10_main_v58 V)
theorem val11_main_v60 (V : Valuation τ sig (Elt Ideal)) : val11 V (no_index (Proc.devRef .tc main_v60)) = at25 (res_main_v60 (F := Ideal)) V :=
  (st10_keep (val10 V) main_v60 (by decide)).trans (val10_main_v60 V)
theorem val11_main_v84 (V : Valuation τ sig (Elt Ideal)) : val11 V (no_index (Proc.devRef .tc main_v84)) = at25 (res_main_v84 (F := Ideal)) V := by
  unfold val11
  rw [st10_main_v84]
  rw [val10_main_v79 V, val10_main_v54 V, val10_main_v56 V]
  rfl

/-- The contents after the first 12 parts. -/
def val12 (V : Valuation τ sig (Elt Ideal)) : Valuation τ sig (Elt Ideal) := after (st11 (F := Ideal)) (val11 V)
theorem val12_main_arg0 (V : Valuation τ sig (Elt Ideal)) : val12 V (no_index (Proc.devRef .tc main_arg0)) = V (Proc.devRef .tc main_arg0) :=
  (st11_keep (val11 V) main_arg0 (by decide)).trans (val11_main_arg0 V)
theorem val12_main_arg1 (V : Valuation τ sig (Elt Ideal)) : val12 V (no_index (Proc.devRef .tc main_arg1)) = V (Proc.devRef .tc main_arg1) :=
  (st11_keep (val11 V) main_arg1 (by decide)).trans (val11_main_arg1 V)
theorem val12_main_arg2 (V : Valuation τ sig (Elt Ideal)) : val12 V (no_index (Proc.devRef .tc main_arg2)) = V (Proc.devRef .tc main_arg2) :=
  (st11_keep (val11 V) main_arg2 (by decide)).trans (val11_main_arg2 V)
theorem val12_main_arg3 (V : Valuation τ sig (Elt Ideal)) : val12 V (no_index (Proc.devRef .tc main_arg3)) = V (Proc.devRef .tc main_arg3) :=
  (st11_keep (val11 V) main_arg3 (by decide)).trans (val11_main_arg3 V)
theorem val12_main_arg4 (V : Valuation τ sig (Elt Ideal)) : val12 V (no_index (Proc.devRef .tc main_arg4)) = V (Proc.devRef .tc main_arg4) :=
  (st11_keep (val11 V) main_arg4 (by decide)).trans (val11_main_arg4 V)
theorem val12_main_arg5 (V : Valuation τ sig (Elt Ideal)) : val12 V (no_index (Proc.devRef .tc main_arg5)) = V (Proc.devRef .tc main_arg5) :=
  (st11_keep (val11 V) main_arg5 (by decide)).trans (val11_main_arg5 V)
theorem val12_main_arg6 (V : Valuation τ sig (Elt Ideal)) : val12 V (no_index (Proc.devRef .tc main_arg6)) = V (Proc.devRef .tc main_arg6) :=
  (st11_keep (val11 V) main_arg6 (by decide)).trans (val11_main_arg6 V)
theorem val12_main_arg7 (V : Valuation τ sig (Elt Ideal)) : val12 V (no_index (Proc.devRef .tc main_arg7)) = V (Proc.devRef .tc main_arg7) :=
  (st11_keep (val11 V) main_arg7 (by decide)).trans (val11_main_arg7 V)
theorem val12_main_arg8 (V : Valuation τ sig (Elt Ideal)) : val12 V (no_index (Proc.devRef .tc main_arg8)) = V (Proc.devRef .tc main_arg8) :=
  (st11_keep (val11 V) main_arg8 (by decide)).trans (val11_main_arg8 V)
theorem val12_main_arg9 (V : Valuation τ sig (Elt Ideal)) : val12 V (no_index (Proc.devRef .tc main_arg9)) = V (Proc.devRef .tc main_arg9) :=
  (st11_keep (val11 V) main_arg9 (by decide)).trans (val11_main_arg9 V)
theorem val12_main_arg10 (V : Valuation τ sig (Elt Ideal)) : val12 V (no_index (Proc.devRef .tc main_arg10)) = V (Proc.devRef .tc main_arg10) :=
  (st11_keep (val11 V) main_arg10 (by decide)).trans (val11_main_arg10 V)
theorem val12_main_arg11 (V : Valuation τ sig (Elt Ideal)) : val12 V (no_index (Proc.devRef .tc main_arg11)) = V (Proc.devRef .tc main_arg11) :=
  (st11_keep (val11 V) main_arg11 (by decide)).trans (val11_main_arg11 V)
theorem val12_main_arg12 (V : Valuation τ sig (Elt Ideal)) : val12 V (no_index (Proc.devRef .tc main_arg12)) = V (Proc.devRef .tc main_arg12) :=
  (st11_keep (val11 V) main_arg12 (by decide)).trans (val11_main_arg12 V)
theorem val12_main_arg13 (V : Valuation τ sig (Elt Ideal)) : val12 V (no_index (Proc.devRef .tc main_arg13)) = V (Proc.devRef .tc main_arg13) :=
  (st11_keep (val11 V) main_arg13 (by decide)).trans (val11_main_arg13 V)
theorem val12_main_arg14 (V : Valuation τ sig (Elt Ideal)) : val12 V (no_index (Proc.devRef .tc main_arg14)) = V (Proc.devRef .tc main_arg14) :=
  (st11_keep (val11 V) main_arg14 (by decide)).trans (val11_main_arg14 V)
theorem val12_main_arg15 (V : Valuation τ sig (Elt Ideal)) : val12 V (no_index (Proc.devRef .tc main_arg15)) = V (Proc.devRef .tc main_arg15) :=
  (st11_keep (val11 V) main_arg15 (by decide)).trans (val11_main_arg15 V)
theorem val12_main_arg16 (V : Valuation τ sig (Elt Ideal)) : val12 V (no_index (Proc.devRef .tc main_arg16)) = V (Proc.devRef .tc main_arg16) :=
  (st11_keep (val11 V) main_arg16 (by decide)).trans (val11_main_arg16 V)
theorem val12_main_arg17 (V : Valuation τ sig (Elt Ideal)) : val12 V (no_index (Proc.devRef .tc main_arg17)) = V (Proc.devRef .tc main_arg17) :=
  (st11_keep (val11 V) main_arg17 (by decide)).trans (val11_main_arg17 V)
theorem val12_main_arg18 (V : Valuation τ sig (Elt Ideal)) : val12 V (no_index (Proc.devRef .tc main_arg18)) = V (Proc.devRef .tc main_arg18) :=
  (st11_keep (val11 V) main_arg18 (by decide)).trans (val11_main_arg18 V)
theorem val12_main_arg19 (V : Valuation τ sig (Elt Ideal)) : val12 V (no_index (Proc.devRef .tc main_arg19)) = V (Proc.devRef .tc main_arg19) :=
  (st11_keep (val11 V) main_arg19 (by decide)).trans (val11_main_arg19 V)
theorem val12_main_arg20 (V : Valuation τ sig (Elt Ideal)) : val12 V (no_index (Proc.devRef .tc main_arg20)) = V (Proc.devRef .tc main_arg20) :=
  (st11_keep (val11 V) main_arg20 (by decide)).trans (val11_main_arg20 V)
theorem val12_main_arg21 (V : Valuation τ sig (Elt Ideal)) : val12 V (no_index (Proc.devRef .tc main_arg21)) = V (Proc.devRef .tc main_arg21) :=
  (st11_keep (val11 V) main_arg21 (by decide)).trans (val11_main_arg21 V)
theorem val12_main_arg22 (V : Valuation τ sig (Elt Ideal)) : val12 V (no_index (Proc.devRef .tc main_arg22)) = V (Proc.devRef .tc main_arg22) :=
  (st11_keep (val11 V) main_arg22 (by decide)).trans (val11_main_arg22 V)
theorem val12_main_arg23 (V : Valuation τ sig (Elt Ideal)) : val12 V (no_index (Proc.devRef .tc main_arg23)) = V (Proc.devRef .tc main_arg23) :=
  (st11_keep (val11 V) main_arg23 (by decide)).trans (val11_main_arg23 V)
theorem val12_main_arg24 (V : Valuation τ sig (Elt Ideal)) : val12 V (no_index (Proc.devRef .tc main_arg24)) = V (Proc.devRef .tc main_arg24) :=
  (st11_keep (val11 V) main_arg24 (by decide)).trans (val11_main_arg24 V)
theorem val12_main_v1 (V : Valuation τ sig (Elt Ideal)) : val12 V (no_index (Proc.devRef .tc main_v1)) = at25 (res_main_v1 (F := Ideal)) V :=
  (st11_keep (val11 V) main_v1 (by decide)).trans (val11_main_v1 V)
theorem val12_main_v3 (V : Valuation τ sig (Elt Ideal)) : val12 V (no_index (Proc.devRef .tc main_v3)) = at25 (res_main_v3 (F := Ideal)) V :=
  (st11_keep (val11 V) main_v3 (by decide)).trans (val11_main_v3 V)
theorem val12_main_v46 (V : Valuation τ sig (Elt Ideal)) : val12 V (no_index (Proc.devRef .tc main_v46)) = at25 (res_main_v46 (F := Ideal)) V :=
  (st11_keep (val11 V) main_v46 (by decide)).trans (val11_main_v46 V)
theorem val12_main_v58 (V : Valuation τ sig (Elt Ideal)) : val12 V (no_index (Proc.devRef .tc main_v58)) = at25 (res_main_v58 (F := Ideal)) V :=
  (st11_keep (val11 V) main_v58 (by decide)).trans (val11_main_v58 V)
theorem val12_main_v60 (V : Valuation τ sig (Elt Ideal)) : val12 V (no_index (Proc.devRef .tc main_v60)) = at25 (res_main_v60 (F := Ideal)) V :=
  (st11_keep (val11 V) main_v60 (by decide)).trans (val11_main_v60 V)
theorem val12_main_v84 (V : Valuation τ sig (Elt Ideal)) : val12 V (no_index (Proc.devRef .tc main_v84)) = at25 (res_main_v84 (F := Ideal)) V :=
  (st11_keep (val11 V) main_v84 (by decide)).trans (val11_main_v84 V)
theorem val12_main_v87 (V : Valuation τ sig (Elt Ideal)) : val12 V (no_index (Proc.devRef .tc main_v87)) = at25 (res_main_v87 (F := Ideal)) V := by
  unfold val12
  rw [st11_main_v87]
  rw [val11_main_v84 V]
  rfl

/-- The contents after the first 13 parts. -/
def val13 (V : Valuation τ sig (Elt Ideal)) : Valuation τ sig (Elt Ideal) := after (st12 (F := Ideal)) (val12 V)
theorem val13_main_arg0 (V : Valuation τ sig (Elt Ideal)) : val13 V (no_index (Proc.devRef .tc main_arg0)) = V (Proc.devRef .tc main_arg0) :=
  (st12_keep (val12 V) main_arg0 (by decide)).trans (val12_main_arg0 V)
theorem val13_main_arg1 (V : Valuation τ sig (Elt Ideal)) : val13 V (no_index (Proc.devRef .tc main_arg1)) = V (Proc.devRef .tc main_arg1) :=
  (st12_keep (val12 V) main_arg1 (by decide)).trans (val12_main_arg1 V)
theorem val13_main_arg2 (V : Valuation τ sig (Elt Ideal)) : val13 V (no_index (Proc.devRef .tc main_arg2)) = V (Proc.devRef .tc main_arg2) :=
  (st12_keep (val12 V) main_arg2 (by decide)).trans (val12_main_arg2 V)
theorem val13_main_arg3 (V : Valuation τ sig (Elt Ideal)) : val13 V (no_index (Proc.devRef .tc main_arg3)) = V (Proc.devRef .tc main_arg3) :=
  (st12_keep (val12 V) main_arg3 (by decide)).trans (val12_main_arg3 V)
theorem val13_main_arg4 (V : Valuation τ sig (Elt Ideal)) : val13 V (no_index (Proc.devRef .tc main_arg4)) = V (Proc.devRef .tc main_arg4) :=
  (st12_keep (val12 V) main_arg4 (by decide)).trans (val12_main_arg4 V)
theorem val13_main_arg5 (V : Valuation τ sig (Elt Ideal)) : val13 V (no_index (Proc.devRef .tc main_arg5)) = V (Proc.devRef .tc main_arg5) :=
  (st12_keep (val12 V) main_arg5 (by decide)).trans (val12_main_arg5 V)
theorem val13_main_arg6 (V : Valuation τ sig (Elt Ideal)) : val13 V (no_index (Proc.devRef .tc main_arg6)) = V (Proc.devRef .tc main_arg6) :=
  (st12_keep (val12 V) main_arg6 (by decide)).trans (val12_main_arg6 V)
theorem val13_main_arg7 (V : Valuation τ sig (Elt Ideal)) : val13 V (no_index (Proc.devRef .tc main_arg7)) = V (Proc.devRef .tc main_arg7) :=
  (st12_keep (val12 V) main_arg7 (by decide)).trans (val12_main_arg7 V)
theorem val13_main_arg8 (V : Valuation τ sig (Elt Ideal)) : val13 V (no_index (Proc.devRef .tc main_arg8)) = V (Proc.devRef .tc main_arg8) :=
  (st12_keep (val12 V) main_arg8 (by decide)).trans (val12_main_arg8 V)
theorem val13_main_arg9 (V : Valuation τ sig (Elt Ideal)) : val13 V (no_index (Proc.devRef .tc main_arg9)) = V (Proc.devRef .tc main_arg9) :=
  (st12_keep (val12 V) main_arg9 (by decide)).trans (val12_main_arg9 V)
theorem val13_main_arg10 (V : Valuation τ sig (Elt Ideal)) : val13 V (no_index (Proc.devRef .tc main_arg10)) = V (Proc.devRef .tc main_arg10) :=
  (st12_keep (val12 V) main_arg10 (by decide)).trans (val12_main_arg10 V)
theorem val13_main_arg11 (V : Valuation τ sig (Elt Ideal)) : val13 V (no_index (Proc.devRef .tc main_arg11)) = V (Proc.devRef .tc main_arg11) :=
  (st12_keep (val12 V) main_arg11 (by decide)).trans (val12_main_arg11 V)
theorem val13_main_arg12 (V : Valuation τ sig (Elt Ideal)) : val13 V (no_index (Proc.devRef .tc main_arg12)) = V (Proc.devRef .tc main_arg12) :=
  (st12_keep (val12 V) main_arg12 (by decide)).trans (val12_main_arg12 V)
theorem val13_main_arg13 (V : Valuation τ sig (Elt Ideal)) : val13 V (no_index (Proc.devRef .tc main_arg13)) = V (Proc.devRef .tc main_arg13) :=
  (st12_keep (val12 V) main_arg13 (by decide)).trans (val12_main_arg13 V)
theorem val13_main_arg14 (V : Valuation τ sig (Elt Ideal)) : val13 V (no_index (Proc.devRef .tc main_arg14)) = V (Proc.devRef .tc main_arg14) :=
  (st12_keep (val12 V) main_arg14 (by decide)).trans (val12_main_arg14 V)
theorem val13_main_arg15 (V : Valuation τ sig (Elt Ideal)) : val13 V (no_index (Proc.devRef .tc main_arg15)) = V (Proc.devRef .tc main_arg15) :=
  (st12_keep (val12 V) main_arg15 (by decide)).trans (val12_main_arg15 V)
theorem val13_main_arg16 (V : Valuation τ sig (Elt Ideal)) : val13 V (no_index (Proc.devRef .tc main_arg16)) = V (Proc.devRef .tc main_arg16) :=
  (st12_keep (val12 V) main_arg16 (by decide)).trans (val12_main_arg16 V)
theorem val13_main_arg17 (V : Valuation τ sig (Elt Ideal)) : val13 V (no_index (Proc.devRef .tc main_arg17)) = V (Proc.devRef .tc main_arg17) :=
  (st12_keep (val12 V) main_arg17 (by decide)).trans (val12_main_arg17 V)
theorem val13_main_arg18 (V : Valuation τ sig (Elt Ideal)) : val13 V (no_index (Proc.devRef .tc main_arg18)) = V (Proc.devRef .tc main_arg18) :=
  (st12_keep (val12 V) main_arg18 (by decide)).trans (val12_main_arg18 V)
theorem val13_main_arg19 (V : Valuation τ sig (Elt Ideal)) : val13 V (no_index (Proc.devRef .tc main_arg19)) = V (Proc.devRef .tc main_arg19) :=
  (st12_keep (val12 V) main_arg19 (by decide)).trans (val12_main_arg19 V)
theorem val13_main_arg20 (V : Valuation τ sig (Elt Ideal)) : val13 V (no_index (Proc.devRef .tc main_arg20)) = V (Proc.devRef .tc main_arg20) :=
  (st12_keep (val12 V) main_arg20 (by decide)).trans (val12_main_arg20 V)
theorem val13_main_arg21 (V : Valuation τ sig (Elt Ideal)) : val13 V (no_index (Proc.devRef .tc main_arg21)) = V (Proc.devRef .tc main_arg21) :=
  (st12_keep (val12 V) main_arg21 (by decide)).trans (val12_main_arg21 V)
theorem val13_main_arg22 (V : Valuation τ sig (Elt Ideal)) : val13 V (no_index (Proc.devRef .tc main_arg22)) = V (Proc.devRef .tc main_arg22) :=
  (st12_keep (val12 V) main_arg22 (by decide)).trans (val12_main_arg22 V)
theorem val13_main_arg23 (V : Valuation τ sig (Elt Ideal)) : val13 V (no_index (Proc.devRef .tc main_arg23)) = V (Proc.devRef .tc main_arg23) :=
  (st12_keep (val12 V) main_arg23 (by decide)).trans (val12_main_arg23 V)
theorem val13_main_arg24 (V : Valuation τ sig (Elt Ideal)) : val13 V (no_index (Proc.devRef .tc main_arg24)) = V (Proc.devRef .tc main_arg24) :=
  (st12_keep (val12 V) main_arg24 (by decide)).trans (val12_main_arg24 V)
theorem val13_main_v1 (V : Valuation τ sig (Elt Ideal)) : val13 V (no_index (Proc.devRef .tc main_v1)) = at25 (res_main_v1 (F := Ideal)) V :=
  (st12_keep (val12 V) main_v1 (by decide)).trans (val12_main_v1 V)
theorem val13_main_v3 (V : Valuation τ sig (Elt Ideal)) : val13 V (no_index (Proc.devRef .tc main_v3)) = at25 (res_main_v3 (F := Ideal)) V :=
  (st12_keep (val12 V) main_v3 (by decide)).trans (val12_main_v3 V)
theorem val13_main_v46 (V : Valuation τ sig (Elt Ideal)) : val13 V (no_index (Proc.devRef .tc main_v46)) = at25 (res_main_v46 (F := Ideal)) V :=
  (st12_keep (val12 V) main_v46 (by decide)).trans (val12_main_v46 V)
theorem val13_main_v58 (V : Valuation τ sig (Elt Ideal)) : val13 V (no_index (Proc.devRef .tc main_v58)) = at25 (res_main_v58 (F := Ideal)) V :=
  (st12_keep (val12 V) main_v58 (by decide)).trans (val12_main_v58 V)
theorem val13_main_v60 (V : Valuation τ sig (Elt Ideal)) : val13 V (no_index (Proc.devRef .tc main_v60)) = at25 (res_main_v60 (F := Ideal)) V :=
  (st12_keep (val12 V) main_v60 (by decide)).trans (val12_main_v60 V)
theorem val13_main_v84 (V : Valuation τ sig (Elt Ideal)) : val13 V (no_index (Proc.devRef .tc main_v84)) = at25 (res_main_v84 (F := Ideal)) V :=
  (st12_keep (val12 V) main_v84 (by decide)).trans (val12_main_v84 V)
theorem val13_main_v87 (V : Valuation τ sig (Elt Ideal)) : val13 V (no_index (Proc.devRef .tc main_v87)) = at25 (res_main_v87 (F := Ideal)) V :=
  (st12_keep (val12 V) main_v87 (by decide)).trans (val12_main_v87 V)
theorem val13_main_v88 (V : Valuation τ sig (Elt Ideal)) : val13 V (no_index (Proc.devRef .tc main_v88)) = at25 (res_main_v88 (F := Ideal)) V := by
  unfold val13
  rw [st12_main_v88]
  rw [val12_main_v84 V]
  rfl

/-- The contents after the first 14 parts. -/
def val14 (V : Valuation τ sig (Elt Ideal)) : Valuation τ sig (Elt Ideal) := after (st13 (F := Ideal)) (val13 V)
theorem val14_main_arg0 (V : Valuation τ sig (Elt Ideal)) : val14 V (no_index (Proc.devRef .tc main_arg0)) = V (Proc.devRef .tc main_arg0) :=
  (st13_keep (val13 V) main_arg0 (by decide)).trans (val13_main_arg0 V)
theorem val14_main_arg1 (V : Valuation τ sig (Elt Ideal)) : val14 V (no_index (Proc.devRef .tc main_arg1)) = V (Proc.devRef .tc main_arg1) :=
  (st13_keep (val13 V) main_arg1 (by decide)).trans (val13_main_arg1 V)
theorem val14_main_arg2 (V : Valuation τ sig (Elt Ideal)) : val14 V (no_index (Proc.devRef .tc main_arg2)) = V (Proc.devRef .tc main_arg2) :=
  (st13_keep (val13 V) main_arg2 (by decide)).trans (val13_main_arg2 V)
theorem val14_main_arg3 (V : Valuation τ sig (Elt Ideal)) : val14 V (no_index (Proc.devRef .tc main_arg3)) = V (Proc.devRef .tc main_arg3) :=
  (st13_keep (val13 V) main_arg3 (by decide)).trans (val13_main_arg3 V)
theorem val14_main_arg4 (V : Valuation τ sig (Elt Ideal)) : val14 V (no_index (Proc.devRef .tc main_arg4)) = V (Proc.devRef .tc main_arg4) :=
  (st13_keep (val13 V) main_arg4 (by decide)).trans (val13_main_arg4 V)
theorem val14_main_arg5 (V : Valuation τ sig (Elt Ideal)) : val14 V (no_index (Proc.devRef .tc main_arg5)) = V (Proc.devRef .tc main_arg5) :=
  (st13_keep (val13 V) main_arg5 (by decide)).trans (val13_main_arg5 V)
theorem val14_main_arg6 (V : Valuation τ sig (Elt Ideal)) : val14 V (no_index (Proc.devRef .tc main_arg6)) = V (Proc.devRef .tc main_arg6) :=
  (st13_keep (val13 V) main_arg6 (by decide)).trans (val13_main_arg6 V)
theorem val14_main_arg7 (V : Valuation τ sig (Elt Ideal)) : val14 V (no_index (Proc.devRef .tc main_arg7)) = V (Proc.devRef .tc main_arg7) :=
  (st13_keep (val13 V) main_arg7 (by decide)).trans (val13_main_arg7 V)
theorem val14_main_arg8 (V : Valuation τ sig (Elt Ideal)) : val14 V (no_index (Proc.devRef .tc main_arg8)) = V (Proc.devRef .tc main_arg8) :=
  (st13_keep (val13 V) main_arg8 (by decide)).trans (val13_main_arg8 V)
theorem val14_main_arg9 (V : Valuation τ sig (Elt Ideal)) : val14 V (no_index (Proc.devRef .tc main_arg9)) = V (Proc.devRef .tc main_arg9) :=
  (st13_keep (val13 V) main_arg9 (by decide)).trans (val13_main_arg9 V)
theorem val14_main_arg10 (V : Valuation τ sig (Elt Ideal)) : val14 V (no_index (Proc.devRef .tc main_arg10)) = V (Proc.devRef .tc main_arg10) :=
  (st13_keep (val13 V) main_arg10 (by decide)).trans (val13_main_arg10 V)
theorem val14_main_arg11 (V : Valuation τ sig (Elt Ideal)) : val14 V (no_index (Proc.devRef .tc main_arg11)) = V (Proc.devRef .tc main_arg11) :=
  (st13_keep (val13 V) main_arg11 (by decide)).trans (val13_main_arg11 V)
theorem val14_main_arg12 (V : Valuation τ sig (Elt Ideal)) : val14 V (no_index (Proc.devRef .tc main_arg12)) = V (Proc.devRef .tc main_arg12) :=
  (st13_keep (val13 V) main_arg12 (by decide)).trans (val13_main_arg12 V)
theorem val14_main_arg13 (V : Valuation τ sig (Elt Ideal)) : val14 V (no_index (Proc.devRef .tc main_arg13)) = V (Proc.devRef .tc main_arg13) :=
  (st13_keep (val13 V) main_arg13 (by decide)).trans (val13_main_arg13 V)
theorem val14_main_arg14 (V : Valuation τ sig (Elt Ideal)) : val14 V (no_index (Proc.devRef .tc main_arg14)) = V (Proc.devRef .tc main_arg14) :=
  (st13_keep (val13 V) main_arg14 (by decide)).trans (val13_main_arg14 V)
theorem val14_main_arg15 (V : Valuation τ sig (Elt Ideal)) : val14 V (no_index (Proc.devRef .tc main_arg15)) = V (Proc.devRef .tc main_arg15) :=
  (st13_keep (val13 V) main_arg15 (by decide)).trans (val13_main_arg15 V)
theorem val14_main_arg16 (V : Valuation τ sig (Elt Ideal)) : val14 V (no_index (Proc.devRef .tc main_arg16)) = V (Proc.devRef .tc main_arg16) :=
  (st13_keep (val13 V) main_arg16 (by decide)).trans (val13_main_arg16 V)
theorem val14_main_arg17 (V : Valuation τ sig (Elt Ideal)) : val14 V (no_index (Proc.devRef .tc main_arg17)) = V (Proc.devRef .tc main_arg17) :=
  (st13_keep (val13 V) main_arg17 (by decide)).trans (val13_main_arg17 V)
theorem val14_main_arg18 (V : Valuation τ sig (Elt Ideal)) : val14 V (no_index (Proc.devRef .tc main_arg18)) = V (Proc.devRef .tc main_arg18) :=
  (st13_keep (val13 V) main_arg18 (by decide)).trans (val13_main_arg18 V)
theorem val14_main_arg19 (V : Valuation τ sig (Elt Ideal)) : val14 V (no_index (Proc.devRef .tc main_arg19)) = V (Proc.devRef .tc main_arg19) :=
  (st13_keep (val13 V) main_arg19 (by decide)).trans (val13_main_arg19 V)
theorem val14_main_arg20 (V : Valuation τ sig (Elt Ideal)) : val14 V (no_index (Proc.devRef .tc main_arg20)) = V (Proc.devRef .tc main_arg20) :=
  (st13_keep (val13 V) main_arg20 (by decide)).trans (val13_main_arg20 V)
theorem val14_main_arg21 (V : Valuation τ sig (Elt Ideal)) : val14 V (no_index (Proc.devRef .tc main_arg21)) = V (Proc.devRef .tc main_arg21) :=
  (st13_keep (val13 V) main_arg21 (by decide)).trans (val13_main_arg21 V)
theorem val14_main_arg22 (V : Valuation τ sig (Elt Ideal)) : val14 V (no_index (Proc.devRef .tc main_arg22)) = V (Proc.devRef .tc main_arg22) :=
  (st13_keep (val13 V) main_arg22 (by decide)).trans (val13_main_arg22 V)
theorem val14_main_arg23 (V : Valuation τ sig (Elt Ideal)) : val14 V (no_index (Proc.devRef .tc main_arg23)) = V (Proc.devRef .tc main_arg23) :=
  (st13_keep (val13 V) main_arg23 (by decide)).trans (val13_main_arg23 V)
theorem val14_main_arg24 (V : Valuation τ sig (Elt Ideal)) : val14 V (no_index (Proc.devRef .tc main_arg24)) = V (Proc.devRef .tc main_arg24) :=
  (st13_keep (val13 V) main_arg24 (by decide)).trans (val13_main_arg24 V)
theorem val14_main_v1 (V : Valuation τ sig (Elt Ideal)) : val14 V (no_index (Proc.devRef .tc main_v1)) = at25 (res_main_v1 (F := Ideal)) V :=
  (st13_keep (val13 V) main_v1 (by decide)).trans (val13_main_v1 V)
theorem val14_main_v3 (V : Valuation τ sig (Elt Ideal)) : val14 V (no_index (Proc.devRef .tc main_v3)) = at25 (res_main_v3 (F := Ideal)) V :=
  (st13_keep (val13 V) main_v3 (by decide)).trans (val13_main_v3 V)
theorem val14_main_v46 (V : Valuation τ sig (Elt Ideal)) : val14 V (no_index (Proc.devRef .tc main_v46)) = at25 (res_main_v46 (F := Ideal)) V :=
  (st13_keep (val13 V) main_v46 (by decide)).trans (val13_main_v46 V)
theorem val14_main_v103 (V : Valuation τ sig (Elt Ideal)) : val14 V (no_index (Proc.devRef .tc main_v103)) = at25 (res_main_v103 (F := Ideal)) V := by
  unfold val14
  rw [st13_main_v103]
  rw [val13_main_v58 V, val13_main_v84 V, val13_main_v87 V, val13_main_v88 V, val13_main_v60 V]
  rfl

/-- The contents after the first 15 parts. -/
def val15 (V : Valuation τ sig (Elt Ideal)) : Valuation τ sig (Elt Ideal) := after (st14 (F := Ideal)) (val14 V)
theorem val15_main_arg0 (V : Valuation τ sig (Elt Ideal)) : val15 V (no_index (Proc.devRef .tc main_arg0)) = V (Proc.devRef .tc main_arg0) :=
  (st14_keep (val14 V) main_arg0 (by decide)).trans (val14_main_arg0 V)
theorem val15_main_arg1 (V : Valuation τ sig (Elt Ideal)) : val15 V (no_index (Proc.devRef .tc main_arg1)) = V (Proc.devRef .tc main_arg1) :=
  (st14_keep (val14 V) main_arg1 (by decide)).trans (val14_main_arg1 V)
theorem val15_main_arg2 (V : Valuation τ sig (Elt Ideal)) : val15 V (no_index (Proc.devRef .tc main_arg2)) = V (Proc.devRef .tc main_arg2) :=
  (st14_keep (val14 V) main_arg2 (by decide)).trans (val14_main_arg2 V)
theorem val15_main_arg3 (V : Valuation τ sig (Elt Ideal)) : val15 V (no_index (Proc.devRef .tc main_arg3)) = V (Proc.devRef .tc main_arg3) :=
  (st14_keep (val14 V) main_arg3 (by decide)).trans (val14_main_arg3 V)
theorem val15_main_arg4 (V : Valuation τ sig (Elt Ideal)) : val15 V (no_index (Proc.devRef .tc main_arg4)) = V (Proc.devRef .tc main_arg4) :=
  (st14_keep (val14 V) main_arg4 (by decide)).trans (val14_main_arg4 V)
theorem val15_main_arg5 (V : Valuation τ sig (Elt Ideal)) : val15 V (no_index (Proc.devRef .tc main_arg5)) = V (Proc.devRef .tc main_arg5) :=
  (st14_keep (val14 V) main_arg5 (by decide)).trans (val14_main_arg5 V)
theorem val15_main_arg6 (V : Valuation τ sig (Elt Ideal)) : val15 V (no_index (Proc.devRef .tc main_arg6)) = V (Proc.devRef .tc main_arg6) :=
  (st14_keep (val14 V) main_arg6 (by decide)).trans (val14_main_arg6 V)
theorem val15_main_arg7 (V : Valuation τ sig (Elt Ideal)) : val15 V (no_index (Proc.devRef .tc main_arg7)) = V (Proc.devRef .tc main_arg7) :=
  (st14_keep (val14 V) main_arg7 (by decide)).trans (val14_main_arg7 V)
theorem val15_main_arg8 (V : Valuation τ sig (Elt Ideal)) : val15 V (no_index (Proc.devRef .tc main_arg8)) = V (Proc.devRef .tc main_arg8) :=
  (st14_keep (val14 V) main_arg8 (by decide)).trans (val14_main_arg8 V)
theorem val15_main_arg9 (V : Valuation τ sig (Elt Ideal)) : val15 V (no_index (Proc.devRef .tc main_arg9)) = V (Proc.devRef .tc main_arg9) :=
  (st14_keep (val14 V) main_arg9 (by decide)).trans (val14_main_arg9 V)
theorem val15_main_arg10 (V : Valuation τ sig (Elt Ideal)) : val15 V (no_index (Proc.devRef .tc main_arg10)) = V (Proc.devRef .tc main_arg10) :=
  (st14_keep (val14 V) main_arg10 (by decide)).trans (val14_main_arg10 V)
theorem val15_main_arg11 (V : Valuation τ sig (Elt Ideal)) : val15 V (no_index (Proc.devRef .tc main_arg11)) = V (Proc.devRef .tc main_arg11) :=
  (st14_keep (val14 V) main_arg11 (by decide)).trans (val14_main_arg11 V)
theorem val15_main_arg12 (V : Valuation τ sig (Elt Ideal)) : val15 V (no_index (Proc.devRef .tc main_arg12)) = V (Proc.devRef .tc main_arg12) :=
  (st14_keep (val14 V) main_arg12 (by decide)).trans (val14_main_arg12 V)
theorem val15_main_arg13 (V : Valuation τ sig (Elt Ideal)) : val15 V (no_index (Proc.devRef .tc main_arg13)) = V (Proc.devRef .tc main_arg13) :=
  (st14_keep (val14 V) main_arg13 (by decide)).trans (val14_main_arg13 V)
theorem val15_main_arg14 (V : Valuation τ sig (Elt Ideal)) : val15 V (no_index (Proc.devRef .tc main_arg14)) = V (Proc.devRef .tc main_arg14) :=
  (st14_keep (val14 V) main_arg14 (by decide)).trans (val14_main_arg14 V)
theorem val15_main_arg15 (V : Valuation τ sig (Elt Ideal)) : val15 V (no_index (Proc.devRef .tc main_arg15)) = V (Proc.devRef .tc main_arg15) :=
  (st14_keep (val14 V) main_arg15 (by decide)).trans (val14_main_arg15 V)
theorem val15_main_arg16 (V : Valuation τ sig (Elt Ideal)) : val15 V (no_index (Proc.devRef .tc main_arg16)) = V (Proc.devRef .tc main_arg16) :=
  (st14_keep (val14 V) main_arg16 (by decide)).trans (val14_main_arg16 V)
theorem val15_main_arg17 (V : Valuation τ sig (Elt Ideal)) : val15 V (no_index (Proc.devRef .tc main_arg17)) = V (Proc.devRef .tc main_arg17) :=
  (st14_keep (val14 V) main_arg17 (by decide)).trans (val14_main_arg17 V)
theorem val15_main_arg18 (V : Valuation τ sig (Elt Ideal)) : val15 V (no_index (Proc.devRef .tc main_arg18)) = V (Proc.devRef .tc main_arg18) :=
  (st14_keep (val14 V) main_arg18 (by decide)).trans (val14_main_arg18 V)
theorem val15_main_arg19 (V : Valuation τ sig (Elt Ideal)) : val15 V (no_index (Proc.devRef .tc main_arg19)) = V (Proc.devRef .tc main_arg19) :=
  (st14_keep (val14 V) main_arg19 (by decide)).trans (val14_main_arg19 V)
theorem val15_main_arg20 (V : Valuation τ sig (Elt Ideal)) : val15 V (no_index (Proc.devRef .tc main_arg20)) = V (Proc.devRef .tc main_arg20) :=
  (st14_keep (val14 V) main_arg20 (by decide)).trans (val14_main_arg20 V)
theorem val15_main_arg21 (V : Valuation τ sig (Elt Ideal)) : val15 V (no_index (Proc.devRef .tc main_arg21)) = V (Proc.devRef .tc main_arg21) :=
  (st14_keep (val14 V) main_arg21 (by decide)).trans (val14_main_arg21 V)
theorem val15_main_arg22 (V : Valuation τ sig (Elt Ideal)) : val15 V (no_index (Proc.devRef .tc main_arg22)) = V (Proc.devRef .tc main_arg22) :=
  (st14_keep (val14 V) main_arg22 (by decide)).trans (val14_main_arg22 V)
theorem val15_main_arg23 (V : Valuation τ sig (Elt Ideal)) : val15 V (no_index (Proc.devRef .tc main_arg23)) = V (Proc.devRef .tc main_arg23) :=
  (st14_keep (val14 V) main_arg23 (by decide)).trans (val14_main_arg23 V)
theorem val15_main_arg24 (V : Valuation τ sig (Elt Ideal)) : val15 V (no_index (Proc.devRef .tc main_arg24)) = V (Proc.devRef .tc main_arg24) :=
  (st14_keep (val14 V) main_arg24 (by decide)).trans (val14_main_arg24 V)
theorem val15_main_v1 (V : Valuation τ sig (Elt Ideal)) : val15 V (no_index (Proc.devRef .tc main_v1)) = at25 (res_main_v1 (F := Ideal)) V :=
  (st14_keep (val14 V) main_v1 (by decide)).trans (val14_main_v1 V)
theorem val15_main_v3 (V : Valuation τ sig (Elt Ideal)) : val15 V (no_index (Proc.devRef .tc main_v3)) = at25 (res_main_v3 (F := Ideal)) V :=
  (st14_keep (val14 V) main_v3 (by decide)).trans (val14_main_v3 V)
theorem val15_main_v46 (V : Valuation τ sig (Elt Ideal)) : val15 V (no_index (Proc.devRef .tc main_v46)) = at25 (res_main_v46 (F := Ideal)) V :=
  (st14_keep (val14 V) main_v46 (by decide)).trans (val14_main_v46 V)
theorem val15_main_v103 (V : Valuation τ sig (Elt Ideal)) : val15 V (no_index (Proc.devRef .tc main_v103)) = at25 (res_main_v103 (F := Ideal)) V :=
  (st14_keep (val14 V) main_v103 (by decide)).trans (val14_main_v103 V)
theorem val15_main_v105 (V : Valuation τ sig (Elt Ideal)) : val15 V (no_index (Proc.devRef .tc main_v105)) = at25 (res_main_v105 (F := Ideal)) V := by
  unfold val15
  rw [st14_main_v105]
  rw [val14_main_arg16 V]
  rfl
theorem val15_main_v107 (V : Valuation τ sig (Elt Ideal)) : val15 V (no_index (Proc.devRef .tc main_v107)) = at25 (res_main_v107 (F := Ideal)) V := by
  unfold val15
  rw [st14_main_v107]
  rw [val14_main_arg10 V]
  rfl
theorem val15_main_v109 (V : Valuation τ sig (Elt Ideal)) : val15 V (no_index (Proc.devRef .tc main_v109)) = at25 (res_main_v109 (F := Ideal)) V := by
  unfold val15
  rw [st14_main_v109]
  rw [val14_main_arg11 V]
  rfl
theorem val15_main_v111 (V : Valuation τ sig (Elt Ideal)) : val15 V (no_index (Proc.devRef .tc main_v111)) = at25 (res_main_v111 (F := Ideal)) V := by
  unfold val15
  rw [st14_main_v111]
  rw [val14_main_arg12 V]
  rfl
theorem val15_main_v113 (V : Valuation τ sig (Elt Ideal)) : val15 V (no_index (Proc.devRef .tc main_v113)) = at25 (res_main_v113 (F := Ideal)) V := by
  unfold val15
  rw [st14_main_v113]
  rw [val14_main_arg13 V]
  rfl
theorem val15_main_v115 (V : Valuation τ sig (Elt Ideal)) : val15 V (no_index (Proc.devRef .tc main_v115)) = at25 (res_main_v115 (F := Ideal)) V := by
  unfold val15
  rw [st14_main_v115]
  rw [val14_main_arg14 V]
  rfl
theorem val15_main_v117 (V : Valuation τ sig (Elt Ideal)) : val15 V (no_index (Proc.devRef .tc main_v117)) = at25 (res_main_v117 (F := Ideal)) V := by
  unfold val15
  rw [st14_main_v117]
  rw [val14_main_arg15 V]
  rfl

/-- The contents after the first 16 parts. -/
def val16 (V : Valuation τ sig (Elt Ideal)) : Valuation τ sig (Elt Ideal) := after (st15 (F := Ideal)) (val15 V)
theorem val16_main_arg0 (V : Valuation τ sig (Elt Ideal)) : val16 V (no_index (Proc.devRef .tc main_arg0)) = V (Proc.devRef .tc main_arg0) :=
  (st15_keep (val15 V) main_arg0 (by decide)).trans (val15_main_arg0 V)
theorem val16_main_arg1 (V : Valuation τ sig (Elt Ideal)) : val16 V (no_index (Proc.devRef .tc main_arg1)) = V (Proc.devRef .tc main_arg1) :=
  (st15_keep (val15 V) main_arg1 (by decide)).trans (val15_main_arg1 V)
theorem val16_main_arg2 (V : Valuation τ sig (Elt Ideal)) : val16 V (no_index (Proc.devRef .tc main_arg2)) = V (Proc.devRef .tc main_arg2) :=
  (st15_keep (val15 V) main_arg2 (by decide)).trans (val15_main_arg2 V)
theorem val16_main_arg3 (V : Valuation τ sig (Elt Ideal)) : val16 V (no_index (Proc.devRef .tc main_arg3)) = V (Proc.devRef .tc main_arg3) :=
  (st15_keep (val15 V) main_arg3 (by decide)).trans (val15_main_arg3 V)
theorem val16_main_arg4 (V : Valuation τ sig (Elt Ideal)) : val16 V (no_index (Proc.devRef .tc main_arg4)) = V (Proc.devRef .tc main_arg4) :=
  (st15_keep (val15 V) main_arg4 (by decide)).trans (val15_main_arg4 V)
theorem val16_main_arg5 (V : Valuation τ sig (Elt Ideal)) : val16 V (no_index (Proc.devRef .tc main_arg5)) = V (Proc.devRef .tc main_arg5) :=
  (st15_keep (val15 V) main_arg5 (by decide)).trans (val15_main_arg5 V)
theorem val16_main_arg6 (V : Valuation τ sig (Elt Ideal)) : val16 V (no_index (Proc.devRef .tc main_arg6)) = V (Proc.devRef .tc main_arg6) :=
  (st15_keep (val15 V) main_arg6 (by decide)).trans (val15_main_arg6 V)
theorem val16_main_arg7 (V : Valuation τ sig (Elt Ideal)) : val16 V (no_index (Proc.devRef .tc main_arg7)) = V (Proc.devRef .tc main_arg7) :=
  (st15_keep (val15 V) main_arg7 (by decide)).trans (val15_main_arg7 V)
theorem val16_main_arg8 (V : Valuation τ sig (Elt Ideal)) : val16 V (no_index (Proc.devRef .tc main_arg8)) = V (Proc.devRef .tc main_arg8) :=
  (st15_keep (val15 V) main_arg8 (by decide)).trans (val15_main_arg8 V)
theorem val16_main_arg9 (V : Valuation τ sig (Elt Ideal)) : val16 V (no_index (Proc.devRef .tc main_arg9)) = V (Proc.devRef .tc main_arg9) :=
  (st15_keep (val15 V) main_arg9 (by decide)).trans (val15_main_arg9 V)
theorem val16_main_arg10 (V : Valuation τ sig (Elt Ideal)) : val16 V (no_index (Proc.devRef .tc main_arg10)) = V (Proc.devRef .tc main_arg10) :=
  (st15_keep (val15 V) main_arg10 (by decide)).trans (val15_main_arg10 V)
theorem val16_main_arg11 (V : Valuation τ sig (Elt Ideal)) : val16 V (no_index (Proc.devRef .tc main_arg11)) = V (Proc.devRef .tc main_arg11) :=
  (st15_keep (val15 V) main_arg11 (by decide)).trans (val15_main_arg11 V)
theorem val16_main_arg12 (V : Valuation τ sig (Elt Ideal)) : val16 V (no_index (Proc.devRef .tc main_arg12)) = V (Proc.devRef .tc main_arg12) :=
  (st15_keep (val15 V) main_arg12 (by decide)).trans (val15_main_arg12 V)
theorem val16_main_arg13 (V : Valuation τ sig (Elt Ideal)) : val16 V (no_index (Proc.devRef .tc main_arg13)) = V (Proc.devRef .tc main_arg13) :=
  (st15_keep (val15 V) main_arg13 (by decide)).trans (val15_main_arg13 V)
theorem val16_main_arg14 (V : Valuation τ sig (Elt Ideal)) : val16 V (no_index (Proc.devRef .tc main_arg14)) = V (Proc.devRef .tc main_arg14) :=
  (st15_keep (val15 V) main_arg14 (by decide)).trans (val15_main_arg14 V)
theorem val16_main_arg15 (V : Valuation τ sig (Elt Ideal)) : val16 V (no_index (Proc.devRef .tc main_arg15)) = V (Proc.devRef .tc main_arg15) :=
  (st15_keep (val15 V) main_arg15 (by decide)).trans (val15_main_arg15 V)
theorem val16_main_arg16 (V : Valuation τ sig (Elt Ideal)) : val16 V (no_index (Proc.devRef .tc main_arg16)) = V (Proc.devRef .tc main_arg16) :=
  (st15_keep (val15 V) main_arg16 (by decide)).trans (val15_main_arg16 V)
theorem val16_main_arg17 (V : Valuation τ sig (Elt Ideal)) : val16 V (no_index (Proc.devRef .tc main_arg17)) = V (Proc.devRef .tc main_arg17) :=
  (st15_keep (val15 V) main_arg17 (by decide)).trans (val15_main_arg17 V)
theorem val16_main_arg18 (V : Valuation τ sig (Elt Ideal)) : val16 V (no_index (Proc.devRef .tc main_arg18)) = V (Proc.devRef .tc main_arg18) :=
  (st15_keep (val15 V) main_arg18 (by decide)).trans (val15_main_arg18 V)
theorem val16_main_arg19 (V : Valuation τ sig (Elt Ideal)) : val16 V (no_index (Proc.devRef .tc main_arg19)) = V (Proc.devRef .tc main_arg19) :=
  (st15_keep (val15 V) main_arg19 (by decide)).trans (val15_main_arg19 V)
theorem val16_main_arg20 (V : Valuation τ sig (Elt Ideal)) : val16 V (no_index (Proc.devRef .tc main_arg20)) = V (Proc.devRef .tc main_arg20) :=
  (st15_keep (val15 V) main_arg20 (by decide)).trans (val15_main_arg20 V)
theorem val16_main_arg21 (V : Valuation τ sig (Elt Ideal)) : val16 V (no_index (Proc.devRef .tc main_arg21)) = V (Proc.devRef .tc main_arg21) :=
  (st15_keep (val15 V) main_arg21 (by decide)).trans (val15_main_arg21 V)
theorem val16_main_arg22 (V : Valuation τ sig (Elt Ideal)) : val16 V (no_index (Proc.devRef .tc main_arg22)) = V (Proc.devRef .tc main_arg22) :=
  (st15_keep (val15 V) main_arg22 (by decide)).trans (val15_main_arg22 V)
theorem val16_main_arg23 (V : Valuation τ sig (Elt Ideal)) : val16 V (no_index (Proc.devRef .tc main_arg23)) = V (Proc.devRef .tc main_arg23) :=
  (st15_keep (val15 V) main_arg23 (by decide)).trans (val15_main_arg23 V)
theorem val16_main_arg24 (V : Valuation τ sig (Elt Ideal)) : val16 V (no_index (Proc.devRef .tc main_arg24)) = V (Proc.devRef .tc main_arg24) :=
  (st15_keep (val15 V) main_arg24 (by decide)).trans (val15_main_arg24 V)
theorem val16_main_v1 (V : Valuation τ sig (Elt Ideal)) : val16 V (no_index (Proc.devRef .tc main_v1)) = at25 (res_main_v1 (F := Ideal)) V :=
  (st15_keep (val15 V) main_v1 (by decide)).trans (val15_main_v1 V)
theorem val16_main_v3 (V : Valuation τ sig (Elt Ideal)) : val16 V (no_index (Proc.devRef .tc main_v3)) = at25 (res_main_v3 (F := Ideal)) V :=
  (st15_keep (val15 V) main_v3 (by decide)).trans (val15_main_v3 V)
theorem val16_main_v46 (V : Valuation τ sig (Elt Ideal)) : val16 V (no_index (Proc.devRef .tc main_v46)) = at25 (res_main_v46 (F := Ideal)) V :=
  (st15_keep (val15 V) main_v46 (by decide)).trans (val15_main_v46 V)
theorem val16_main_v103 (V : Valuation τ sig (Elt Ideal)) : val16 V (no_index (Proc.devRef .tc main_v103)) = at25 (res_main_v103 (F := Ideal)) V :=
  (st15_keep (val15 V) main_v103 (by decide)).trans (val15_main_v103 V)
theorem val16_main_v107 (V : Valuation τ sig (Elt Ideal)) : val16 V (no_index (Proc.devRef .tc main_v107)) = at25 (res_main_v107 (F := Ideal)) V :=
  (st15_keep (val15 V) main_v107 (by decide)).trans (val15_main_v107 V)
theorem val16_main_v109 (V : Valuation τ sig (Elt Ideal)) : val16 V (no_index (Proc.devRef .tc main_v109)) = at25 (res_main_v109 (F := Ideal)) V :=
  (st15_keep (val15 V) main_v109 (by decide)).trans (val15_main_v109 V)
theorem val16_main_v111 (V : Valuation τ sig (Elt Ideal)) : val16 V (no_index (Proc.devRef .tc main_v111)) = at25 (res_main_v111 (F := Ideal)) V :=
  (st15_keep (val15 V) main_v111 (by decide)).trans (val15_main_v111 V)
theorem val16_main_v113 (V : Valuation τ sig (Elt Ideal)) : val16 V (no_index (Proc.devRef .tc main_v113)) = at25 (res_main_v113 (F := Ideal)) V :=
  (st15_keep (val15 V) main_v113 (by decide)).trans (val15_main_v113 V)
theorem val16_main_v115 (V : Valuation τ sig (Elt Ideal)) : val16 V (no_index (Proc.devRef .tc main_v115)) = at25 (res_main_v115 (F := Ideal)) V :=
  (st15_keep (val15 V) main_v115 (by decide)).trans (val15_main_v115 V)
theorem val16_main_v117 (V : Valuation τ sig (Elt Ideal)) : val16 V (no_index (Proc.devRef .tc main_v117)) = at25 (res_main_v117 (F := Ideal)) V :=
  (st15_keep (val15 V) main_v117 (by decide)).trans (val15_main_v117 V)
theorem val16_main_v131 (V : Valuation τ sig (Elt Ideal)) : val16 V (no_index (Proc.devRef .tc main_v131)) = at25 (res_main_v131 (F := Ideal)) V := by
  unfold val16
  rw [st15_main_v131]
  rw [val15_main_v105 V, val15_main_v103 V, val15_main_v3 V, val15_main_v1 V]
  rfl

/-- The contents after the first 17 parts. -/
def val17 (V : Valuation τ sig (Elt Ideal)) : Valuation τ sig (Elt Ideal) := after (st16 (F := Ideal)) (val16 V)
theorem val17_main_arg0 (V : Valuation τ sig (Elt Ideal)) : val17 V (no_index (Proc.devRef .tc main_arg0)) = V (Proc.devRef .tc main_arg0) :=
  (st16_keep (val16 V) main_arg0 (by decide)).trans (val16_main_arg0 V)
theorem val17_main_arg1 (V : Valuation τ sig (Elt Ideal)) : val17 V (no_index (Proc.devRef .tc main_arg1)) = V (Proc.devRef .tc main_arg1) :=
  (st16_keep (val16 V) main_arg1 (by decide)).trans (val16_main_arg1 V)
theorem val17_main_arg2 (V : Valuation τ sig (Elt Ideal)) : val17 V (no_index (Proc.devRef .tc main_arg2)) = V (Proc.devRef .tc main_arg2) :=
  (st16_keep (val16 V) main_arg2 (by decide)).trans (val16_main_arg2 V)
theorem val17_main_arg3 (V : Valuation τ sig (Elt Ideal)) : val17 V (no_index (Proc.devRef .tc main_arg3)) = V (Proc.devRef .tc main_arg3) :=
  (st16_keep (val16 V) main_arg3 (by decide)).trans (val16_main_arg3 V)
theorem val17_main_arg4 (V : Valuation τ sig (Elt Ideal)) : val17 V (no_index (Proc.devRef .tc main_arg4)) = V (Proc.devRef .tc main_arg4) :=
  (st16_keep (val16 V) main_arg4 (by decide)).trans (val16_main_arg4 V)
theorem val17_main_arg5 (V : Valuation τ sig (Elt Ideal)) : val17 V (no_index (Proc.devRef .tc main_arg5)) = V (Proc.devRef .tc main_arg5) :=
  (st16_keep (val16 V) main_arg5 (by decide)).trans (val16_main_arg5 V)
theorem val17_main_arg6 (V : Valuation τ sig (Elt Ideal)) : val17 V (no_index (Proc.devRef .tc main_arg6)) = V (Proc.devRef .tc main_arg6) :=
  (st16_keep (val16 V) main_arg6 (by decide)).trans (val16_main_arg6 V)
theorem val17_main_arg7 (V : Valuation τ sig (Elt Ideal)) : val17 V (no_index (Proc.devRef .tc main_arg7)) = V (Proc.devRef .tc main_arg7) :=
  (st16_keep (val16 V) main_arg7 (by decide)).trans (val16_main_arg7 V)
theorem val17_main_arg8 (V : Valuation τ sig (Elt Ideal)) : val17 V (no_index (Proc.devRef .tc main_arg8)) = V (Proc.devRef .tc main_arg8) :=
  (st16_keep (val16 V) main_arg8 (by decide)).trans (val16_main_arg8 V)
theorem val17_main_arg9 (V : Valuation τ sig (Elt Ideal)) : val17 V (no_index (Proc.devRef .tc main_arg9)) = V (Proc.devRef .tc main_arg9) :=
  (st16_keep (val16 V) main_arg9 (by decide)).trans (val16_main_arg9 V)
theorem val17_main_arg10 (V : Valuation τ sig (Elt Ideal)) : val17 V (no_index (Proc.devRef .tc main_arg10)) = V (Proc.devRef .tc main_arg10) :=
  (st16_keep (val16 V) main_arg10 (by decide)).trans (val16_main_arg10 V)
theorem val17_main_arg11 (V : Valuation τ sig (Elt Ideal)) : val17 V (no_index (Proc.devRef .tc main_arg11)) = V (Proc.devRef .tc main_arg11) :=
  (st16_keep (val16 V) main_arg11 (by decide)).trans (val16_main_arg11 V)
theorem val17_main_arg12 (V : Valuation τ sig (Elt Ideal)) : val17 V (no_index (Proc.devRef .tc main_arg12)) = V (Proc.devRef .tc main_arg12) :=
  (st16_keep (val16 V) main_arg12 (by decide)).trans (val16_main_arg12 V)
theorem val17_main_arg13 (V : Valuation τ sig (Elt Ideal)) : val17 V (no_index (Proc.devRef .tc main_arg13)) = V (Proc.devRef .tc main_arg13) :=
  (st16_keep (val16 V) main_arg13 (by decide)).trans (val16_main_arg13 V)
theorem val17_main_arg14 (V : Valuation τ sig (Elt Ideal)) : val17 V (no_index (Proc.devRef .tc main_arg14)) = V (Proc.devRef .tc main_arg14) :=
  (st16_keep (val16 V) main_arg14 (by decide)).trans (val16_main_arg14 V)
theorem val17_main_arg15 (V : Valuation τ sig (Elt Ideal)) : val17 V (no_index (Proc.devRef .tc main_arg15)) = V (Proc.devRef .tc main_arg15) :=
  (st16_keep (val16 V) main_arg15 (by decide)).trans (val16_main_arg15 V)
theorem val17_main_arg16 (V : Valuation τ sig (Elt Ideal)) : val17 V (no_index (Proc.devRef .tc main_arg16)) = V (Proc.devRef .tc main_arg16) :=
  (st16_keep (val16 V) main_arg16 (by decide)).trans (val16_main_arg16 V)
theorem val17_main_arg17 (V : Valuation τ sig (Elt Ideal)) : val17 V (no_index (Proc.devRef .tc main_arg17)) = V (Proc.devRef .tc main_arg17) :=
  (st16_keep (val16 V) main_arg17 (by decide)).trans (val16_main_arg17 V)
theorem val17_main_arg18 (V : Valuation τ sig (Elt Ideal)) : val17 V (no_index (Proc.devRef .tc main_arg18)) = V (Proc.devRef .tc main_arg18) :=
  (st16_keep (val16 V) main_arg18 (by decide)).trans (val16_main_arg18 V)
theorem val17_main_arg19 (V : Valuation τ sig (Elt Ideal)) : val17 V (no_index (Proc.devRef .tc main_arg19)) = V (Proc.devRef .tc main_arg19) :=
  (st16_keep (val16 V) main_arg19 (by decide)).trans (val16_main_arg19 V)
theorem val17_main_arg20 (V : Valuation τ sig (Elt Ideal)) : val17 V (no_index (Proc.devRef .tc main_arg20)) = V (Proc.devRef .tc main_arg20) :=
  (st16_keep (val16 V) main_arg20 (by decide)).trans (val16_main_arg20 V)
theorem val17_main_arg21 (V : Valuation τ sig (Elt Ideal)) : val17 V (no_index (Proc.devRef .tc main_arg21)) = V (Proc.devRef .tc main_arg21) :=
  (st16_keep (val16 V) main_arg21 (by decide)).trans (val16_main_arg21 V)
theorem val17_main_arg22 (V : Valuation τ sig (Elt Ideal)) : val17 V (no_index (Proc.devRef .tc main_arg22)) = V (Proc.devRef .tc main_arg22) :=
  (st16_keep (val16 V) main_arg22 (by decide)).trans (val16_main_arg22 V)
theorem val17_main_arg23 (V : Valuation τ sig (Elt Ideal)) : val17 V (no_index (Proc.devRef .tc main_arg23)) = V (Proc.devRef .tc main_arg23) :=
  (st16_keep (val16 V) main_arg23 (by decide)).trans (val16_main_arg23 V)
theorem val17_main_arg24 (V : Valuation τ sig (Elt Ideal)) : val17 V (no_index (Proc.devRef .tc main_arg24)) = V (Proc.devRef .tc main_arg24) :=
  (st16_keep (val16 V) main_arg24 (by decide)).trans (val16_main_arg24 V)
theorem val17_main_v1 (V : Valuation τ sig (Elt Ideal)) : val17 V (no_index (Proc.devRef .tc main_v1)) = at25 (res_main_v1 (F := Ideal)) V :=
  (st16_keep (val16 V) main_v1 (by decide)).trans (val16_main_v1 V)
theorem val17_main_v3 (V : Valuation τ sig (Elt Ideal)) : val17 V (no_index (Proc.devRef .tc main_v3)) = at25 (res_main_v3 (F := Ideal)) V :=
  (st16_keep (val16 V) main_v3 (by decide)).trans (val16_main_v3 V)
theorem val17_main_v46 (V : Valuation τ sig (Elt Ideal)) : val17 V (no_index (Proc.devRef .tc main_v46)) = at25 (res_main_v46 (F := Ideal)) V :=
  (st16_keep (val16 V) main_v46 (by decide)).trans (val16_main_v46 V)
theorem val17_main_v103 (V : Valuation τ sig (Elt Ideal)) : val17 V (no_index (Proc.devRef .tc main_v103)) = at25 (res_main_v103 (F := Ideal)) V :=
  (st16_keep (val16 V) main_v103 (by decide)).trans (val16_main_v103 V)
theorem val17_main_v111 (V : Valuation τ sig (Elt Ideal)) : val17 V (no_index (Proc.devRef .tc main_v111)) = at25 (res_main_v111 (F := Ideal)) V :=
  (st16_keep (val16 V) main_v111 (by decide)).trans (val16_main_v111 V)
theorem val17_main_v113 (V : Valuation τ sig (Elt Ideal)) : val17 V (no_index (Proc.devRef .tc main_v113)) = at25 (res_main_v113 (F := Ideal)) V :=
  (st16_keep (val16 V) main_v113 (by decide)).trans (val16_main_v113 V)
theorem val17_main_v115 (V : Valuation τ sig (Elt Ideal)) : val17 V (no_index (Proc.devRef .tc main_v115)) = at25 (res_main_v115 (F := Ideal)) V :=
  (st16_keep (val16 V) main_v115 (by decide)).trans (val16_main_v115 V)
theorem val17_main_v117 (V : Valuation τ sig (Elt Ideal)) : val17 V (no_index (Proc.devRef .tc main_v117)) = at25 (res_main_v117 (F := Ideal)) V :=
  (st16_keep (val16 V) main_v117 (by decide)).trans (val16_main_v117 V)
theorem val17_main_v136 (V : Valuation τ sig (Elt Ideal)) : val17 V (no_index (Proc.devRef .tc main_v136)) = at25 (res_main_v136 (F := Ideal)) V := by
  unfold val17
  rw [st16_main_v136]
  rw [val16_main_v131 V, val16_main_v107 V, val16_main_v109 V]
  rfl

/-- The contents after the first 18 parts. -/
def val18 (V : Valuation τ sig (Elt Ideal)) : Valuation τ sig (Elt Ideal) := after (st17 (F := Ideal)) (val17 V)
theorem val18_main_arg0 (V : Valuation τ sig (Elt Ideal)) : val18 V (no_index (Proc.devRef .tc main_arg0)) = V (Proc.devRef .tc main_arg0) :=
  (st17_keep (val17 V) main_arg0 (by decide)).trans (val17_main_arg0 V)
theorem val18_main_arg1 (V : Valuation τ sig (Elt Ideal)) : val18 V (no_index (Proc.devRef .tc main_arg1)) = V (Proc.devRef .tc main_arg1) :=
  (st17_keep (val17 V) main_arg1 (by decide)).trans (val17_main_arg1 V)
theorem val18_main_arg2 (V : Valuation τ sig (Elt Ideal)) : val18 V (no_index (Proc.devRef .tc main_arg2)) = V (Proc.devRef .tc main_arg2) :=
  (st17_keep (val17 V) main_arg2 (by decide)).trans (val17_main_arg2 V)
theorem val18_main_arg3 (V : Valuation τ sig (Elt Ideal)) : val18 V (no_index (Proc.devRef .tc main_arg3)) = V (Proc.devRef .tc main_arg3) :=
  (st17_keep (val17 V) main_arg3 (by decide)).trans (val17_main_arg3 V)
theorem val18_main_arg4 (V : Valuation τ sig (Elt Ideal)) : val18 V (no_index (Proc.devRef .tc main_arg4)) = V (Proc.devRef .tc main_arg4) :=
  (st17_keep (val17 V) main_arg4 (by decide)).trans (val17_main_arg4 V)
theorem val18_main_arg5 (V : Valuation τ sig (Elt Ideal)) : val18 V (no_index (Proc.devRef .tc main_arg5)) = V (Proc.devRef .tc main_arg5) :=
  (st17_keep (val17 V) main_arg5 (by decide)).trans (val17_main_arg5 V)
theorem val18_main_arg6 (V : Valuation τ sig (Elt Ideal)) : val18 V (no_index (Proc.devRef .tc main_arg6)) = V (Proc.devRef .tc main_arg6) :=
  (st17_keep (val17 V) main_arg6 (by decide)).trans (val17_main_arg6 V)
theorem val18_main_arg7 (V : Valuation τ sig (Elt Ideal)) : val18 V (no_index (Proc.devRef .tc main_arg7)) = V (Proc.devRef .tc main_arg7) :=
  (st17_keep (val17 V) main_arg7 (by decide)).trans (val17_main_arg7 V)
theorem val18_main_arg8 (V : Valuation τ sig (Elt Ideal)) : val18 V (no_index (Proc.devRef .tc main_arg8)) = V (Proc.devRef .tc main_arg8) :=
  (st17_keep (val17 V) main_arg8 (by decide)).trans (val17_main_arg8 V)
theorem val18_main_arg9 (V : Valuation τ sig (Elt Ideal)) : val18 V (no_index (Proc.devRef .tc main_arg9)) = V (Proc.devRef .tc main_arg9) :=
  (st17_keep (val17 V) main_arg9 (by decide)).trans (val17_main_arg9 V)
theorem val18_main_arg10 (V : Valuation τ sig (Elt Ideal)) : val18 V (no_index (Proc.devRef .tc main_arg10)) = V (Proc.devRef .tc main_arg10) :=
  (st17_keep (val17 V) main_arg10 (by decide)).trans (val17_main_arg10 V)
theorem val18_main_arg11 (V : Valuation τ sig (Elt Ideal)) : val18 V (no_index (Proc.devRef .tc main_arg11)) = V (Proc.devRef .tc main_arg11) :=
  (st17_keep (val17 V) main_arg11 (by decide)).trans (val17_main_arg11 V)
theorem val18_main_arg12 (V : Valuation τ sig (Elt Ideal)) : val18 V (no_index (Proc.devRef .tc main_arg12)) = V (Proc.devRef .tc main_arg12) :=
  (st17_keep (val17 V) main_arg12 (by decide)).trans (val17_main_arg12 V)
theorem val18_main_arg13 (V : Valuation τ sig (Elt Ideal)) : val18 V (no_index (Proc.devRef .tc main_arg13)) = V (Proc.devRef .tc main_arg13) :=
  (st17_keep (val17 V) main_arg13 (by decide)).trans (val17_main_arg13 V)
theorem val18_main_arg14 (V : Valuation τ sig (Elt Ideal)) : val18 V (no_index (Proc.devRef .tc main_arg14)) = V (Proc.devRef .tc main_arg14) :=
  (st17_keep (val17 V) main_arg14 (by decide)).trans (val17_main_arg14 V)
theorem val18_main_arg15 (V : Valuation τ sig (Elt Ideal)) : val18 V (no_index (Proc.devRef .tc main_arg15)) = V (Proc.devRef .tc main_arg15) :=
  (st17_keep (val17 V) main_arg15 (by decide)).trans (val17_main_arg15 V)
theorem val18_main_arg16 (V : Valuation τ sig (Elt Ideal)) : val18 V (no_index (Proc.devRef .tc main_arg16)) = V (Proc.devRef .tc main_arg16) :=
  (st17_keep (val17 V) main_arg16 (by decide)).trans (val17_main_arg16 V)
theorem val18_main_arg17 (V : Valuation τ sig (Elt Ideal)) : val18 V (no_index (Proc.devRef .tc main_arg17)) = V (Proc.devRef .tc main_arg17) :=
  (st17_keep (val17 V) main_arg17 (by decide)).trans (val17_main_arg17 V)
theorem val18_main_arg18 (V : Valuation τ sig (Elt Ideal)) : val18 V (no_index (Proc.devRef .tc main_arg18)) = V (Proc.devRef .tc main_arg18) :=
  (st17_keep (val17 V) main_arg18 (by decide)).trans (val17_main_arg18 V)
theorem val18_main_arg19 (V : Valuation τ sig (Elt Ideal)) : val18 V (no_index (Proc.devRef .tc main_arg19)) = V (Proc.devRef .tc main_arg19) :=
  (st17_keep (val17 V) main_arg19 (by decide)).trans (val17_main_arg19 V)
theorem val18_main_arg20 (V : Valuation τ sig (Elt Ideal)) : val18 V (no_index (Proc.devRef .tc main_arg20)) = V (Proc.devRef .tc main_arg20) :=
  (st17_keep (val17 V) main_arg20 (by decide)).trans (val17_main_arg20 V)
theorem val18_main_arg21 (V : Valuation τ sig (Elt Ideal)) : val18 V (no_index (Proc.devRef .tc main_arg21)) = V (Proc.devRef .tc main_arg21) :=
  (st17_keep (val17 V) main_arg21 (by decide)).trans (val17_main_arg21 V)
theorem val18_main_arg22 (V : Valuation τ sig (Elt Ideal)) : val18 V (no_index (Proc.devRef .tc main_arg22)) = V (Proc.devRef .tc main_arg22) :=
  (st17_keep (val17 V) main_arg22 (by decide)).trans (val17_main_arg22 V)
theorem val18_main_arg23 (V : Valuation τ sig (Elt Ideal)) : val18 V (no_index (Proc.devRef .tc main_arg23)) = V (Proc.devRef .tc main_arg23) :=
  (st17_keep (val17 V) main_arg23 (by decide)).trans (val17_main_arg23 V)
theorem val18_main_arg24 (V : Valuation τ sig (Elt Ideal)) : val18 V (no_index (Proc.devRef .tc main_arg24)) = V (Proc.devRef .tc main_arg24) :=
  (st17_keep (val17 V) main_arg24 (by decide)).trans (val17_main_arg24 V)
theorem val18_main_v1 (V : Valuation τ sig (Elt Ideal)) : val18 V (no_index (Proc.devRef .tc main_v1)) = at25 (res_main_v1 (F := Ideal)) V :=
  (st17_keep (val17 V) main_v1 (by decide)).trans (val17_main_v1 V)
theorem val18_main_v3 (V : Valuation τ sig (Elt Ideal)) : val18 V (no_index (Proc.devRef .tc main_v3)) = at25 (res_main_v3 (F := Ideal)) V :=
  (st17_keep (val17 V) main_v3 (by decide)).trans (val17_main_v3 V)
theorem val18_main_v46 (V : Valuation τ sig (Elt Ideal)) : val18 V (no_index (Proc.devRef .tc main_v46)) = at25 (res_main_v46 (F := Ideal)) V :=
  (st17_keep (val17 V) main_v46 (by decide)).trans (val17_main_v46 V)
theorem val18_main_v103 (V : Valuation τ sig (Elt Ideal)) : val18 V (no_index (Proc.devRef .tc main_v103)) = at25 (res_main_v103 (F := Ideal)) V :=
  (st17_keep (val17 V) main_v103 (by decide)).trans (val17_main_v103 V)
theorem val18_main_v115 (V : Valuation τ sig (Elt Ideal)) : val18 V (no_index (Proc.devRef .tc main_v115)) = at25 (res_main_v115 (F := Ideal)) V :=
  (st17_keep (val17 V) main_v115 (by decide)).trans (val17_main_v115 V)
theorem val18_main_v117 (V : Valuation τ sig (Elt Ideal)) : val18 V (no_index (Proc.devRef .tc main_v117)) = at25 (res_main_v117 (F := Ideal)) V :=
  (st17_keep (val17 V) main_v117 (by decide)).trans (val17_main_v117 V)
theorem val18_main_v141 (V : Valuation τ sig (Elt Ideal)) : val18 V (no_index (Proc.devRef .tc main_v141)) = at25 (res_main_v141 (F := Ideal)) V := by
  unfold val18
  rw [st17_main_v141]
  rw [val17_main_v136 V, val17_main_v111 V, val17_main_v113 V]
  rfl

/-- The contents after the first 19 parts. -/
def val19 (V : Valuation τ sig (Elt Ideal)) : Valuation τ sig (Elt Ideal) := after (st18 (F := Ideal)) (val18 V)
theorem val19_main_arg0 (V : Valuation τ sig (Elt Ideal)) : val19 V (no_index (Proc.devRef .tc main_arg0)) = V (Proc.devRef .tc main_arg0) :=
  (st18_keep (val18 V) main_arg0 (by decide)).trans (val18_main_arg0 V)
theorem val19_main_arg1 (V : Valuation τ sig (Elt Ideal)) : val19 V (no_index (Proc.devRef .tc main_arg1)) = V (Proc.devRef .tc main_arg1) :=
  (st18_keep (val18 V) main_arg1 (by decide)).trans (val18_main_arg1 V)
theorem val19_main_arg2 (V : Valuation τ sig (Elt Ideal)) : val19 V (no_index (Proc.devRef .tc main_arg2)) = V (Proc.devRef .tc main_arg2) :=
  (st18_keep (val18 V) main_arg2 (by decide)).trans (val18_main_arg2 V)
theorem val19_main_arg3 (V : Valuation τ sig (Elt Ideal)) : val19 V (no_index (Proc.devRef .tc main_arg3)) = V (Proc.devRef .tc main_arg3) :=
  (st18_keep (val18 V) main_arg3 (by decide)).trans (val18_main_arg3 V)
theorem val19_main_arg4 (V : Valuation τ sig (Elt Ideal)) : val19 V (no_index (Proc.devRef .tc main_arg4)) = V (Proc.devRef .tc main_arg4) :=
  (st18_keep (val18 V) main_arg4 (by decide)).trans (val18_main_arg4 V)
theorem val19_main_arg5 (V : Valuation τ sig (Elt Ideal)) : val19 V (no_index (Proc.devRef .tc main_arg5)) = V (Proc.devRef .tc main_arg5) :=
  (st18_keep (val18 V) main_arg5 (by decide)).trans (val18_main_arg5 V)
theorem val19_main_arg6 (V : Valuation τ sig (Elt Ideal)) : val19 V (no_index (Proc.devRef .tc main_arg6)) = V (Proc.devRef .tc main_arg6) :=
  (st18_keep (val18 V) main_arg6 (by decide)).trans (val18_main_arg6 V)
theorem val19_main_arg7 (V : Valuation τ sig (Elt Ideal)) : val19 V (no_index (Proc.devRef .tc main_arg7)) = V (Proc.devRef .tc main_arg7) :=
  (st18_keep (val18 V) main_arg7 (by decide)).trans (val18_main_arg7 V)
theorem val19_main_arg8 (V : Valuation τ sig (Elt Ideal)) : val19 V (no_index (Proc.devRef .tc main_arg8)) = V (Proc.devRef .tc main_arg8) :=
  (st18_keep (val18 V) main_arg8 (by decide)).trans (val18_main_arg8 V)
theorem val19_main_arg9 (V : Valuation τ sig (Elt Ideal)) : val19 V (no_index (Proc.devRef .tc main_arg9)) = V (Proc.devRef .tc main_arg9) :=
  (st18_keep (val18 V) main_arg9 (by decide)).trans (val18_main_arg9 V)
theorem val19_main_arg10 (V : Valuation τ sig (Elt Ideal)) : val19 V (no_index (Proc.devRef .tc main_arg10)) = V (Proc.devRef .tc main_arg10) :=
  (st18_keep (val18 V) main_arg10 (by decide)).trans (val18_main_arg10 V)
theorem val19_main_arg11 (V : Valuation τ sig (Elt Ideal)) : val19 V (no_index (Proc.devRef .tc main_arg11)) = V (Proc.devRef .tc main_arg11) :=
  (st18_keep (val18 V) main_arg11 (by decide)).trans (val18_main_arg11 V)
theorem val19_main_arg12 (V : Valuation τ sig (Elt Ideal)) : val19 V (no_index (Proc.devRef .tc main_arg12)) = V (Proc.devRef .tc main_arg12) :=
  (st18_keep (val18 V) main_arg12 (by decide)).trans (val18_main_arg12 V)
theorem val19_main_arg13 (V : Valuation τ sig (Elt Ideal)) : val19 V (no_index (Proc.devRef .tc main_arg13)) = V (Proc.devRef .tc main_arg13) :=
  (st18_keep (val18 V) main_arg13 (by decide)).trans (val18_main_arg13 V)
theorem val19_main_arg14 (V : Valuation τ sig (Elt Ideal)) : val19 V (no_index (Proc.devRef .tc main_arg14)) = V (Proc.devRef .tc main_arg14) :=
  (st18_keep (val18 V) main_arg14 (by decide)).trans (val18_main_arg14 V)
theorem val19_main_arg15 (V : Valuation τ sig (Elt Ideal)) : val19 V (no_index (Proc.devRef .tc main_arg15)) = V (Proc.devRef .tc main_arg15) :=
  (st18_keep (val18 V) main_arg15 (by decide)).trans (val18_main_arg15 V)
theorem val19_main_arg16 (V : Valuation τ sig (Elt Ideal)) : val19 V (no_index (Proc.devRef .tc main_arg16)) = V (Proc.devRef .tc main_arg16) :=
  (st18_keep (val18 V) main_arg16 (by decide)).trans (val18_main_arg16 V)
theorem val19_main_arg17 (V : Valuation τ sig (Elt Ideal)) : val19 V (no_index (Proc.devRef .tc main_arg17)) = V (Proc.devRef .tc main_arg17) :=
  (st18_keep (val18 V) main_arg17 (by decide)).trans (val18_main_arg17 V)
theorem val19_main_arg18 (V : Valuation τ sig (Elt Ideal)) : val19 V (no_index (Proc.devRef .tc main_arg18)) = V (Proc.devRef .tc main_arg18) :=
  (st18_keep (val18 V) main_arg18 (by decide)).trans (val18_main_arg18 V)
theorem val19_main_arg19 (V : Valuation τ sig (Elt Ideal)) : val19 V (no_index (Proc.devRef .tc main_arg19)) = V (Proc.devRef .tc main_arg19) :=
  (st18_keep (val18 V) main_arg19 (by decide)).trans (val18_main_arg19 V)
theorem val19_main_arg20 (V : Valuation τ sig (Elt Ideal)) : val19 V (no_index (Proc.devRef .tc main_arg20)) = V (Proc.devRef .tc main_arg20) :=
  (st18_keep (val18 V) main_arg20 (by decide)).trans (val18_main_arg20 V)
theorem val19_main_arg21 (V : Valuation τ sig (Elt Ideal)) : val19 V (no_index (Proc.devRef .tc main_arg21)) = V (Proc.devRef .tc main_arg21) :=
  (st18_keep (val18 V) main_arg21 (by decide)).trans (val18_main_arg21 V)
theorem val19_main_arg22 (V : Valuation τ sig (Elt Ideal)) : val19 V (no_index (Proc.devRef .tc main_arg22)) = V (Proc.devRef .tc main_arg22) :=
  (st18_keep (val18 V) main_arg22 (by decide)).trans (val18_main_arg22 V)
theorem val19_main_arg23 (V : Valuation τ sig (Elt Ideal)) : val19 V (no_index (Proc.devRef .tc main_arg23)) = V (Proc.devRef .tc main_arg23) :=
  (st18_keep (val18 V) main_arg23 (by decide)).trans (val18_main_arg23 V)
theorem val19_main_arg24 (V : Valuation τ sig (Elt Ideal)) : val19 V (no_index (Proc.devRef .tc main_arg24)) = V (Proc.devRef .tc main_arg24) :=
  (st18_keep (val18 V) main_arg24 (by decide)).trans (val18_main_arg24 V)
theorem val19_main_v1 (V : Valuation τ sig (Elt Ideal)) : val19 V (no_index (Proc.devRef .tc main_v1)) = at25 (res_main_v1 (F := Ideal)) V :=
  (st18_keep (val18 V) main_v1 (by decide)).trans (val18_main_v1 V)
theorem val19_main_v3 (V : Valuation τ sig (Elt Ideal)) : val19 V (no_index (Proc.devRef .tc main_v3)) = at25 (res_main_v3 (F := Ideal)) V :=
  (st18_keep (val18 V) main_v3 (by decide)).trans (val18_main_v3 V)
theorem val19_main_v46 (V : Valuation τ sig (Elt Ideal)) : val19 V (no_index (Proc.devRef .tc main_v46)) = at25 (res_main_v46 (F := Ideal)) V :=
  (st18_keep (val18 V) main_v46 (by decide)).trans (val18_main_v46 V)
theorem val19_main_v103 (V : Valuation τ sig (Elt Ideal)) : val19 V (no_index (Proc.devRef .tc main_v103)) = at25 (res_main_v103 (F := Ideal)) V :=
  (st18_keep (val18 V) main_v103 (by decide)).trans (val18_main_v103 V)
theorem val19_main_v115 (V : Valuation τ sig (Elt Ideal)) : val19 V (no_index (Proc.devRef .tc main_v115)) = at25 (res_main_v115 (F := Ideal)) V :=
  (st18_keep (val18 V) main_v115 (by decide)).trans (val18_main_v115 V)
theorem val19_main_v117 (V : Valuation τ sig (Elt Ideal)) : val19 V (no_index (Proc.devRef .tc main_v117)) = at25 (res_main_v117 (F := Ideal)) V :=
  (st18_keep (val18 V) main_v117 (by decide)).trans (val18_main_v117 V)
theorem val19_main_v141 (V : Valuation τ sig (Elt Ideal)) : val19 V (no_index (Proc.devRef .tc main_v141)) = at25 (res_main_v141 (F := Ideal)) V :=
  (st18_keep (val18 V) main_v141 (by decide)).trans (val18_main_v141 V)
theorem val19_main_v144 (V : Valuation τ sig (Elt Ideal)) : val19 V (no_index (Proc.devRef .tc main_v144)) = at25 (res_main_v144 (F := Ideal)) V := by
  unfold val19
  rw [st18_main_v144]
  rw [val18_main_v141 V]
  rfl

/-- The contents after the first 20 parts. -/
def val20 (V : Valuation τ sig (Elt Ideal)) : Valuation τ sig (Elt Ideal) := after (st19 (F := Ideal)) (val19 V)
theorem val20_main_arg0 (V : Valuation τ sig (Elt Ideal)) : val20 V (no_index (Proc.devRef .tc main_arg0)) = V (Proc.devRef .tc main_arg0) :=
  (st19_keep (val19 V) main_arg0 (by decide)).trans (val19_main_arg0 V)
theorem val20_main_arg1 (V : Valuation τ sig (Elt Ideal)) : val20 V (no_index (Proc.devRef .tc main_arg1)) = V (Proc.devRef .tc main_arg1) :=
  (st19_keep (val19 V) main_arg1 (by decide)).trans (val19_main_arg1 V)
theorem val20_main_arg2 (V : Valuation τ sig (Elt Ideal)) : val20 V (no_index (Proc.devRef .tc main_arg2)) = V (Proc.devRef .tc main_arg2) :=
  (st19_keep (val19 V) main_arg2 (by decide)).trans (val19_main_arg2 V)
theorem val20_main_arg3 (V : Valuation τ sig (Elt Ideal)) : val20 V (no_index (Proc.devRef .tc main_arg3)) = V (Proc.devRef .tc main_arg3) :=
  (st19_keep (val19 V) main_arg3 (by decide)).trans (val19_main_arg3 V)
theorem val20_main_arg4 (V : Valuation τ sig (Elt Ideal)) : val20 V (no_index (Proc.devRef .tc main_arg4)) = V (Proc.devRef .tc main_arg4) :=
  (st19_keep (val19 V) main_arg4 (by decide)).trans (val19_main_arg4 V)
theorem val20_main_arg5 (V : Valuation τ sig (Elt Ideal)) : val20 V (no_index (Proc.devRef .tc main_arg5)) = V (Proc.devRef .tc main_arg5) :=
  (st19_keep (val19 V) main_arg5 (by decide)).trans (val19_main_arg5 V)
theorem val20_main_arg6 (V : Valuation τ sig (Elt Ideal)) : val20 V (no_index (Proc.devRef .tc main_arg6)) = V (Proc.devRef .tc main_arg6) :=
  (st19_keep (val19 V) main_arg6 (by decide)).trans (val19_main_arg6 V)
theorem val20_main_arg7 (V : Valuation τ sig (Elt Ideal)) : val20 V (no_index (Proc.devRef .tc main_arg7)) = V (Proc.devRef .tc main_arg7) :=
  (st19_keep (val19 V) main_arg7 (by decide)).trans (val19_main_arg7 V)
theorem val20_main_arg8 (V : Valuation τ sig (Elt Ideal)) : val20 V (no_index (Proc.devRef .tc main_arg8)) = V (Proc.devRef .tc main_arg8) :=
  (st19_keep (val19 V) main_arg8 (by decide)).trans (val19_main_arg8 V)
theorem val20_main_arg9 (V : Valuation τ sig (Elt Ideal)) : val20 V (no_index (Proc.devRef .tc main_arg9)) = V (Proc.devRef .tc main_arg9) :=
  (st19_keep (val19 V) main_arg9 (by decide)).trans (val19_main_arg9 V)
theorem val20_main_arg10 (V : Valuation τ sig (Elt Ideal)) : val20 V (no_index (Proc.devRef .tc main_arg10)) = V (Proc.devRef .tc main_arg10) :=
  (st19_keep (val19 V) main_arg10 (by decide)).trans (val19_main_arg10 V)
theorem val20_main_arg11 (V : Valuation τ sig (Elt Ideal)) : val20 V (no_index (Proc.devRef .tc main_arg11)) = V (Proc.devRef .tc main_arg11) :=
  (st19_keep (val19 V) main_arg11 (by decide)).trans (val19_main_arg11 V)
theorem val20_main_arg12 (V : Valuation τ sig (Elt Ideal)) : val20 V (no_index (Proc.devRef .tc main_arg12)) = V (Proc.devRef .tc main_arg12) :=
  (st19_keep (val19 V) main_arg12 (by decide)).trans (val19_main_arg12 V)
theorem val20_main_arg13 (V : Valuation τ sig (Elt Ideal)) : val20 V (no_index (Proc.devRef .tc main_arg13)) = V (Proc.devRef .tc main_arg13) :=
  (st19_keep (val19 V) main_arg13 (by decide)).trans (val19_main_arg13 V)
theorem val20_main_arg14 (V : Valuation τ sig (Elt Ideal)) : val20 V (no_index (Proc.devRef .tc main_arg14)) = V (Proc.devRef .tc main_arg14) :=
  (st19_keep (val19 V) main_arg14 (by decide)).trans (val19_main_arg14 V)
theorem val20_main_arg15 (V : Valuation τ sig (Elt Ideal)) : val20 V (no_index (Proc.devRef .tc main_arg15)) = V (Proc.devRef .tc main_arg15) :=
  (st19_keep (val19 V) main_arg15 (by decide)).trans (val19_main_arg15 V)
theorem val20_main_arg16 (V : Valuation τ sig (Elt Ideal)) : val20 V (no_index (Proc.devRef .tc main_arg16)) = V (Proc.devRef .tc main_arg16) :=
  (st19_keep (val19 V) main_arg16 (by decide)).trans (val19_main_arg16 V)
theorem val20_main_arg17 (V : Valuation τ sig (Elt Ideal)) : val20 V (no_index (Proc.devRef .tc main_arg17)) = V (Proc.devRef .tc main_arg17) :=
  (st19_keep (val19 V) main_arg17 (by decide)).trans (val19_main_arg17 V)
theorem val20_main_arg18 (V : Valuation τ sig (Elt Ideal)) : val20 V (no_index (Proc.devRef .tc main_arg18)) = V (Proc.devRef .tc main_arg18) :=
  (st19_keep (val19 V) main_arg18 (by decide)).trans (val19_main_arg18 V)
theorem val20_main_arg19 (V : Valuation τ sig (Elt Ideal)) : val20 V (no_index (Proc.devRef .tc main_arg19)) = V (Proc.devRef .tc main_arg19) :=
  (st19_keep (val19 V) main_arg19 (by decide)).trans (val19_main_arg19 V)
theorem val20_main_arg20 (V : Valuation τ sig (Elt Ideal)) : val20 V (no_index (Proc.devRef .tc main_arg20)) = V (Proc.devRef .tc main_arg20) :=
  (st19_keep (val19 V) main_arg20 (by decide)).trans (val19_main_arg20 V)
theorem val20_main_arg21 (V : Valuation τ sig (Elt Ideal)) : val20 V (no_index (Proc.devRef .tc main_arg21)) = V (Proc.devRef .tc main_arg21) :=
  (st19_keep (val19 V) main_arg21 (by decide)).trans (val19_main_arg21 V)
theorem val20_main_arg22 (V : Valuation τ sig (Elt Ideal)) : val20 V (no_index (Proc.devRef .tc main_arg22)) = V (Proc.devRef .tc main_arg22) :=
  (st19_keep (val19 V) main_arg22 (by decide)).trans (val19_main_arg22 V)
theorem val20_main_arg23 (V : Valuation τ sig (Elt Ideal)) : val20 V (no_index (Proc.devRef .tc main_arg23)) = V (Proc.devRef .tc main_arg23) :=
  (st19_keep (val19 V) main_arg23 (by decide)).trans (val19_main_arg23 V)
theorem val20_main_arg24 (V : Valuation τ sig (Elt Ideal)) : val20 V (no_index (Proc.devRef .tc main_arg24)) = V (Proc.devRef .tc main_arg24) :=
  (st19_keep (val19 V) main_arg24 (by decide)).trans (val19_main_arg24 V)
theorem val20_main_v1 (V : Valuation τ sig (Elt Ideal)) : val20 V (no_index (Proc.devRef .tc main_v1)) = at25 (res_main_v1 (F := Ideal)) V :=
  (st19_keep (val19 V) main_v1 (by decide)).trans (val19_main_v1 V)
theorem val20_main_v3 (V : Valuation τ sig (Elt Ideal)) : val20 V (no_index (Proc.devRef .tc main_v3)) = at25 (res_main_v3 (F := Ideal)) V :=
  (st19_keep (val19 V) main_v3 (by decide)).trans (val19_main_v3 V)
theorem val20_main_v46 (V : Valuation τ sig (Elt Ideal)) : val20 V (no_index (Proc.devRef .tc main_v46)) = at25 (res_main_v46 (F := Ideal)) V :=
  (st19_keep (val19 V) main_v46 (by decide)).trans (val19_main_v46 V)
theorem val20_main_v103 (V : Valuation τ sig (Elt Ideal)) : val20 V (no_index (Proc.devRef .tc main_v103)) = at25 (res_main_v103 (F := Ideal)) V :=
  (st19_keep (val19 V) main_v103 (by decide)).trans (val19_main_v103 V)
theorem val20_main_v115 (V : Valuation τ sig (Elt Ideal)) : val20 V (no_index (Proc.devRef .tc main_v115)) = at25 (res_main_v115 (F := Ideal)) V :=
  (st19_keep (val19 V) main_v115 (by decide)).trans (val19_main_v115 V)
theorem val20_main_v117 (V : Valuation τ sig (Elt Ideal)) : val20 V (no_index (Proc.devRef .tc main_v117)) = at25 (res_main_v117 (F := Ideal)) V :=
  (st19_keep (val19 V) main_v117 (by decide)).trans (val19_main_v117 V)
theorem val20_main_v141 (V : Valuation τ sig (Elt Ideal)) : val20 V (no_index (Proc.devRef .tc main_v141)) = at25 (res_main_v141 (F := Ideal)) V :=
  (st19_keep (val19 V) main_v141 (by decide)).trans (val19_main_v141 V)
theorem val20_main_v144 (V : Valuation τ sig (Elt Ideal)) : val20 V (no_index (Proc.devRef .tc main_v144)) = at25 (res_main_v144 (F := Ideal)) V :=
  (st19_keep (val19 V) main_v144 (by decide)).trans (val19_main_v144 V)
theorem val20_main_v145 (V : Valuation τ sig (Elt Ideal)) : val20 V (no_index (Proc.devRef .tc main_v145)) = at25 (res_main_v145 (F := Ideal)) V := by
  unfold val20
  rw [st19_main_v145]
  rw [val19_main_v141 V]
  rfl

/-- The contents after the first 21 parts. -/
def val21 (V : Valuation τ sig (Elt Ideal)) : Valuation τ sig (Elt Ideal) := after (st20 (F := Ideal)) (val20 V)
theorem val21_main_arg0 (V : Valuation τ sig (Elt Ideal)) : val21 V (no_index (Proc.devRef .tc main_arg0)) = V (Proc.devRef .tc main_arg0) :=
  (st20_keep (val20 V) main_arg0 (by decide)).trans (val20_main_arg0 V)
theorem val21_main_arg1 (V : Valuation τ sig (Elt Ideal)) : val21 V (no_index (Proc.devRef .tc main_arg1)) = V (Proc.devRef .tc main_arg1) :=
  (st20_keep (val20 V) main_arg1 (by decide)).trans (val20_main_arg1 V)
theorem val21_main_arg2 (V : Valuation τ sig (Elt Ideal)) : val21 V (no_index (Proc.devRef .tc main_arg2)) = V (Proc.devRef .tc main_arg2) :=
  (st20_keep (val20 V) main_arg2 (by decide)).trans (val20_main_arg2 V)
theorem val21_main_arg3 (V : Valuation τ sig (Elt Ideal)) : val21 V (no_index (Proc.devRef .tc main_arg3)) = V (Proc.devRef .tc main_arg3) :=
  (st20_keep (val20 V) main_arg3 (by decide)).trans (val20_main_arg3 V)
theorem val21_main_arg4 (V : Valuation τ sig (Elt Ideal)) : val21 V (no_index (Proc.devRef .tc main_arg4)) = V (Proc.devRef .tc main_arg4) :=
  (st20_keep (val20 V) main_arg4 (by decide)).trans (val20_main_arg4 V)
theorem val21_main_arg5 (V : Valuation τ sig (Elt Ideal)) : val21 V (no_index (Proc.devRef .tc main_arg5)) = V (Proc.devRef .tc main_arg5) :=
  (st20_keep (val20 V) main_arg5 (by decide)).trans (val20_main_arg5 V)
theorem val21_main_arg6 (V : Valuation τ sig (Elt Ideal)) : val21 V (no_index (Proc.devRef .tc main_arg6)) = V (Proc.devRef .tc main_arg6) :=
  (st20_keep (val20 V) main_arg6 (by decide)).trans (val20_main_arg6 V)
theorem val21_main_arg7 (V : Valuation τ sig (Elt Ideal)) : val21 V (no_index (Proc.devRef .tc main_arg7)) = V (Proc.devRef .tc main_arg7) :=
  (st20_keep (val20 V) main_arg7 (by decide)).trans (val20_main_arg7 V)
theorem val21_main_arg8 (V : Valuation τ sig (Elt Ideal)) : val21 V (no_index (Proc.devRef .tc main_arg8)) = V (Proc.devRef .tc main_arg8) :=
  (st20_keep (val20 V) main_arg8 (by decide)).trans (val20_main_arg8 V)
theorem val21_main_arg9 (V : Valuation τ sig (Elt Ideal)) : val21 V (no_index (Proc.devRef .tc main_arg9)) = V (Proc.devRef .tc main_arg9) :=
  (st20_keep (val20 V) main_arg9 (by decide)).trans (val20_main_arg9 V)
theorem val21_main_arg10 (V : Valuation τ sig (Elt Ideal)) : val21 V (no_index (Proc.devRef .tc main_arg10)) = V (Proc.devRef .tc main_arg10) :=
  (st20_keep (val20 V) main_arg10 (by decide)).trans (val20_main_arg10 V)
theorem val21_main_arg11 (V : Valuation τ sig (Elt Ideal)) : val21 V (no_index (Proc.devRef .tc main_arg11)) = V (Proc.devRef .tc main_arg11) :=
  (st20_keep (val20 V) main_arg11 (by decide)).trans (val20_main_arg11 V)
theorem val21_main_arg12 (V : Valuation τ sig (Elt Ideal)) : val21 V (no_index (Proc.devRef .tc main_arg12)) = V (Proc.devRef .tc main_arg12) :=
  (st20_keep (val20 V) main_arg12 (by decide)).trans (val20_main_arg12 V)
theorem val21_main_arg13 (V : Valuation τ sig (Elt Ideal)) : val21 V (no_index (Proc.devRef .tc main_arg13)) = V (Proc.devRef .tc main_arg13) :=
  (st20_keep (val20 V) main_arg13 (by decide)).trans (val20_main_arg13 V)
theorem val21_main_arg14 (V : Valuation τ sig (Elt Ideal)) : val21 V (no_index (Proc.devRef .tc main_arg14)) = V (Proc.devRef .tc main_arg14) :=
  (st20_keep (val20 V) main_arg14 (by decide)).trans (val20_main_arg14 V)
theorem val21_main_arg15 (V : Valuation τ sig (Elt Ideal)) : val21 V (no_index (Proc.devRef .tc main_arg15)) = V (Proc.devRef .tc main_arg15) :=
  (st20_keep (val20 V) main_arg15 (by decide)).trans (val20_main_arg15 V)
theorem val21_main_arg16 (V : Valuation τ sig (Elt Ideal)) : val21 V (no_index (Proc.devRef .tc main_arg16)) = V (Proc.devRef .tc main_arg16) :=
  (st20_keep (val20 V) main_arg16 (by decide)).trans (val20_main_arg16 V)
theorem val21_main_arg17 (V : Valuation τ sig (Elt Ideal)) : val21 V (no_index (Proc.devRef .tc main_arg17)) = V (Proc.devRef .tc main_arg17) :=
  (st20_keep (val20 V) main_arg17 (by decide)).trans (val20_main_arg17 V)
theorem val21_main_arg18 (V : Valuation τ sig (Elt Ideal)) : val21 V (no_index (Proc.devRef .tc main_arg18)) = V (Proc.devRef .tc main_arg18) :=
  (st20_keep (val20 V) main_arg18 (by decide)).trans (val20_main_arg18 V)
theorem val21_main_arg19 (V : Valuation τ sig (Elt Ideal)) : val21 V (no_index (Proc.devRef .tc main_arg19)) = V (Proc.devRef .tc main_arg19) :=
  (st20_keep (val20 V) main_arg19 (by decide)).trans (val20_main_arg19 V)
theorem val21_main_arg20 (V : Valuation τ sig (Elt Ideal)) : val21 V (no_index (Proc.devRef .tc main_arg20)) = V (Proc.devRef .tc main_arg20) :=
  (st20_keep (val20 V) main_arg20 (by decide)).trans (val20_main_arg20 V)
theorem val21_main_arg21 (V : Valuation τ sig (Elt Ideal)) : val21 V (no_index (Proc.devRef .tc main_arg21)) = V (Proc.devRef .tc main_arg21) :=
  (st20_keep (val20 V) main_arg21 (by decide)).trans (val20_main_arg21 V)
theorem val21_main_arg22 (V : Valuation τ sig (Elt Ideal)) : val21 V (no_index (Proc.devRef .tc main_arg22)) = V (Proc.devRef .tc main_arg22) :=
  (st20_keep (val20 V) main_arg22 (by decide)).trans (val20_main_arg22 V)
theorem val21_main_arg23 (V : Valuation τ sig (Elt Ideal)) : val21 V (no_index (Proc.devRef .tc main_arg23)) = V (Proc.devRef .tc main_arg23) :=
  (st20_keep (val20 V) main_arg23 (by decide)).trans (val20_main_arg23 V)
theorem val21_main_arg24 (V : Valuation τ sig (Elt Ideal)) : val21 V (no_index (Proc.devRef .tc main_arg24)) = V (Proc.devRef .tc main_arg24) :=
  (st20_keep (val20 V) main_arg24 (by decide)).trans (val20_main_arg24 V)
theorem val21_main_v1 (V : Valuation τ sig (Elt Ideal)) : val21 V (no_index (Proc.devRef .tc main_v1)) = at25 (res_main_v1 (F := Ideal)) V :=
  (st20_keep (val20 V) main_v1 (by decide)).trans (val20_main_v1 V)
theorem val21_main_v3 (V : Valuation τ sig (Elt Ideal)) : val21 V (no_index (Proc.devRef .tc main_v3)) = at25 (res_main_v3 (F := Ideal)) V :=
  (st20_keep (val20 V) main_v3 (by decide)).trans (val20_main_v3 V)
theorem val21_main_v46 (V : Valuation τ sig (Elt Ideal)) : val21 V (no_index (Proc.devRef .tc main_v46)) = at25 (res_main_v46 (F := Ideal)) V :=
  (st20_keep (val20 V) main_v46 (by decide)).trans (val20_main_v46 V)
theorem val21_main_v103 (V : Valuation τ sig (Elt Ideal)) : val21 V (no_index (Proc.devRef .tc main_v103)) = at25 (res_main_v103 (F := Ideal)) V :=
  (st20_keep (val20 V) main_v103 (by decide)).trans (val20_main_v103 V)
theorem val21_main_v160 (V : Valuation τ sig (Elt Ideal)) : val21 V (no_index (Proc.devRef .tc main_v160)) = at25 (res_main_v160 (F := Ideal)) V := by
  unfold val21
  rw [st20_main_v160]
  rw [val20_main_v115 V, val20_main_v141 V, val20_main_v144 V, val20_main_v145 V, val20_main_v117 V]
  rfl

/-- The contents after the first 22 parts. -/
def val22 (V : Valuation τ sig (Elt Ideal)) : Valuation τ sig (Elt Ideal) := after (st21 (F := Ideal)) (val21 V)
theorem val22_main_arg0 (V : Valuation τ sig (Elt Ideal)) : val22 V (no_index (Proc.devRef .tc main_arg0)) = V (Proc.devRef .tc main_arg0) :=
  (st21_keep (val21 V) main_arg0 (by decide)).trans (val21_main_arg0 V)
theorem val22_main_arg1 (V : Valuation τ sig (Elt Ideal)) : val22 V (no_index (Proc.devRef .tc main_arg1)) = V (Proc.devRef .tc main_arg1) :=
  (st21_keep (val21 V) main_arg1 (by decide)).trans (val21_main_arg1 V)
theorem val22_main_arg2 (V : Valuation τ sig (Elt Ideal)) : val22 V (no_index (Proc.devRef .tc main_arg2)) = V (Proc.devRef .tc main_arg2) :=
  (st21_keep (val21 V) main_arg2 (by decide)).trans (val21_main_arg2 V)
theorem val22_main_arg3 (V : Valuation τ sig (Elt Ideal)) : val22 V (no_index (Proc.devRef .tc main_arg3)) = V (Proc.devRef .tc main_arg3) :=
  (st21_keep (val21 V) main_arg3 (by decide)).trans (val21_main_arg3 V)
theorem val22_main_arg4 (V : Valuation τ sig (Elt Ideal)) : val22 V (no_index (Proc.devRef .tc main_arg4)) = V (Proc.devRef .tc main_arg4) :=
  (st21_keep (val21 V) main_arg4 (by decide)).trans (val21_main_arg4 V)
theorem val22_main_arg5 (V : Valuation τ sig (Elt Ideal)) : val22 V (no_index (Proc.devRef .tc main_arg5)) = V (Proc.devRef .tc main_arg5) :=
  (st21_keep (val21 V) main_arg5 (by decide)).trans (val21_main_arg5 V)
theorem val22_main_arg6 (V : Valuation τ sig (Elt Ideal)) : val22 V (no_index (Proc.devRef .tc main_arg6)) = V (Proc.devRef .tc main_arg6) :=
  (st21_keep (val21 V) main_arg6 (by decide)).trans (val21_main_arg6 V)
theorem val22_main_arg7 (V : Valuation τ sig (Elt Ideal)) : val22 V (no_index (Proc.devRef .tc main_arg7)) = V (Proc.devRef .tc main_arg7) :=
  (st21_keep (val21 V) main_arg7 (by decide)).trans (val21_main_arg7 V)
theorem val22_main_arg8 (V : Valuation τ sig (Elt Ideal)) : val22 V (no_index (Proc.devRef .tc main_arg8)) = V (Proc.devRef .tc main_arg8) :=
  (st21_keep (val21 V) main_arg8 (by decide)).trans (val21_main_arg8 V)
theorem val22_main_arg9 (V : Valuation τ sig (Elt Ideal)) : val22 V (no_index (Proc.devRef .tc main_arg9)) = V (Proc.devRef .tc main_arg9) :=
  (st21_keep (val21 V) main_arg9 (by decide)).trans (val21_main_arg9 V)
theorem val22_main_arg10 (V : Valuation τ sig (Elt Ideal)) : val22 V (no_index (Proc.devRef .tc main_arg10)) = V (Proc.devRef .tc main_arg10) :=
  (st21_keep (val21 V) main_arg10 (by decide)).trans (val21_main_arg10 V)
theorem val22_main_arg11 (V : Valuation τ sig (Elt Ideal)) : val22 V (no_index (Proc.devRef .tc main_arg11)) = V (Proc.devRef .tc main_arg11) :=
  (st21_keep (val21 V) main_arg11 (by decide)).trans (val21_main_arg11 V)
theorem val22_main_arg12 (V : Valuation τ sig (Elt Ideal)) : val22 V (no_index (Proc.devRef .tc main_arg12)) = V (Proc.devRef .tc main_arg12) :=
  (st21_keep (val21 V) main_arg12 (by decide)).trans (val21_main_arg12 V)
theorem val22_main_arg13 (V : Valuation τ sig (Elt Ideal)) : val22 V (no_index (Proc.devRef .tc main_arg13)) = V (Proc.devRef .tc main_arg13) :=
  (st21_keep (val21 V) main_arg13 (by decide)).trans (val21_main_arg13 V)
theorem val22_main_arg14 (V : Valuation τ sig (Elt Ideal)) : val22 V (no_index (Proc.devRef .tc main_arg14)) = V (Proc.devRef .tc main_arg14) :=
  (st21_keep (val21 V) main_arg14 (by decide)).trans (val21_main_arg14 V)
theorem val22_main_arg15 (V : Valuation τ sig (Elt Ideal)) : val22 V (no_index (Proc.devRef .tc main_arg15)) = V (Proc.devRef .tc main_arg15) :=
  (st21_keep (val21 V) main_arg15 (by decide)).trans (val21_main_arg15 V)
theorem val22_main_arg16 (V : Valuation τ sig (Elt Ideal)) : val22 V (no_index (Proc.devRef .tc main_arg16)) = V (Proc.devRef .tc main_arg16) :=
  (st21_keep (val21 V) main_arg16 (by decide)).trans (val21_main_arg16 V)
theorem val22_main_arg17 (V : Valuation τ sig (Elt Ideal)) : val22 V (no_index (Proc.devRef .tc main_arg17)) = V (Proc.devRef .tc main_arg17) :=
  (st21_keep (val21 V) main_arg17 (by decide)).trans (val21_main_arg17 V)
theorem val22_main_arg18 (V : Valuation τ sig (Elt Ideal)) : val22 V (no_index (Proc.devRef .tc main_arg18)) = V (Proc.devRef .tc main_arg18) :=
  (st21_keep (val21 V) main_arg18 (by decide)).trans (val21_main_arg18 V)
theorem val22_main_arg19 (V : Valuation τ sig (Elt Ideal)) : val22 V (no_index (Proc.devRef .tc main_arg19)) = V (Proc.devRef .tc main_arg19) :=
  (st21_keep (val21 V) main_arg19 (by decide)).trans (val21_main_arg19 V)
theorem val22_main_arg20 (V : Valuation τ sig (Elt Ideal)) : val22 V (no_index (Proc.devRef .tc main_arg20)) = V (Proc.devRef .tc main_arg20) :=
  (st21_keep (val21 V) main_arg20 (by decide)).trans (val21_main_arg20 V)
theorem val22_main_arg21 (V : Valuation τ sig (Elt Ideal)) : val22 V (no_index (Proc.devRef .tc main_arg21)) = V (Proc.devRef .tc main_arg21) :=
  (st21_keep (val21 V) main_arg21 (by decide)).trans (val21_main_arg21 V)
theorem val22_main_arg22 (V : Valuation τ sig (Elt Ideal)) : val22 V (no_index (Proc.devRef .tc main_arg22)) = V (Proc.devRef .tc main_arg22) :=
  (st21_keep (val21 V) main_arg22 (by decide)).trans (val21_main_arg22 V)
theorem val22_main_arg23 (V : Valuation τ sig (Elt Ideal)) : val22 V (no_index (Proc.devRef .tc main_arg23)) = V (Proc.devRef .tc main_arg23) :=
  (st21_keep (val21 V) main_arg23 (by decide)).trans (val21_main_arg23 V)
theorem val22_main_arg24 (V : Valuation τ sig (Elt Ideal)) : val22 V (no_index (Proc.devRef .tc main_arg24)) = V (Proc.devRef .tc main_arg24) :=
  (st21_keep (val21 V) main_arg24 (by decide)).trans (val21_main_arg24 V)
theorem val22_main_v1 (V : Valuation τ sig (Elt Ideal)) : val22 V (no_index (Proc.devRef .tc main_v1)) = at25 (res_main_v1 (F := Ideal)) V :=
  (st21_keep (val21 V) main_v1 (by decide)).trans (val21_main_v1 V)
theorem val22_main_v3 (V : Valuation τ sig (Elt Ideal)) : val22 V (no_index (Proc.devRef .tc main_v3)) = at25 (res_main_v3 (F := Ideal)) V :=
  (st21_keep (val21 V) main_v3 (by decide)).trans (val21_main_v3 V)
theorem val22_main_v46 (V : Valuation τ sig (Elt Ideal)) : val22 V (no_index (Proc.devRef .tc main_v46)) = at25 (res_main_v46 (F := Ideal)) V :=
  (st21_keep (val21 V) main_v46 (by decide)).trans (val21_main_v46 V)
theorem val22_main_v103 (V : Valuation τ sig (Elt Ideal)) : val22 V (no_index (Proc.devRef .tc main_v103)) = at25 (res_main_v103 (F := Ideal)) V :=
  (st21_keep (val21 V) main_v103 (by decide)).trans (val21_main_v103 V)
theorem val22_main_v160 (V : Valuation τ sig (Elt Ideal)) : val22 V (no_index (Proc.devRef .tc main_v160)) = at25 (res_main_v160 (F := Ideal)) V :=
  (st21_keep (val21 V) main_v160 (by decide)).trans (val21_main_v160 V)
theorem val22_main_v162 (V : Valuation τ sig (Elt Ideal)) : val22 V (no_index (Proc.devRef .tc main_v162)) = at25 (res_main_v162 (F := Ideal)) V := by
  unfold val22
  rw [st21_main_v162]
  rw [val21_main_arg16 V]
  rfl
theorem val22_main_v164 (V : Valuation τ sig (Elt Ideal)) : val22 V (no_index (Proc.devRef .tc main_v164)) = at25 (res_main_v164 (F := Ideal)) V := by
  unfold val22
  rw [st21_main_v164]
  rw [val21_main_arg10 V]
  rfl
theorem val22_main_v166 (V : Valuation τ sig (Elt Ideal)) : val22 V (no_index (Proc.devRef .tc main_v166)) = at25 (res_main_v166 (F := Ideal)) V := by
  unfold val22
  rw [st21_main_v166]
  rw [val21_main_arg11 V]
  rfl
theorem val22_main_v168 (V : Valuation τ sig (Elt Ideal)) : val22 V (no_index (Proc.devRef .tc main_v168)) = at25 (res_main_v168 (F := Ideal)) V := by
  unfold val22
  rw [st21_main_v168]
  rw [val21_main_arg12 V]
  rfl
theorem val22_main_v170 (V : Valuation τ sig (Elt Ideal)) : val22 V (no_index (Proc.devRef .tc main_v170)) = at25 (res_main_v170 (F := Ideal)) V := by
  unfold val22
  rw [st21_main_v170]
  rw [val21_main_arg13 V]
  rfl
theorem val22_main_v172 (V : Valuation τ sig (Elt Ideal)) : val22 V (no_index (Proc.devRef .tc main_v172)) = at25 (res_main_v172 (F := Ideal)) V := by
  unfold val22
  rw [st21_main_v172]
  rw [val21_main_arg14 V]
  rfl
theorem val22_main_v174 (V : Valuation τ sig (Elt Ideal)) : val22 V (no_index (Proc.devRef .tc main_v174)) = at25 (res_main_v174 (F := Ideal)) V := by
  unfold val22
  rw [st21_main_v174]
  rw [val21_main_arg15 V]
  rfl

/-- The contents after the first 23 parts. -/
def val23 (V : Valuation τ sig (Elt Ideal)) : Valuation τ sig (Elt Ideal) := after (st22 (F := Ideal)) (val22 V)
theorem val23_main_arg0 (V : Valuation τ sig (Elt Ideal)) : val23 V (no_index (Proc.devRef .tc main_arg0)) = V (Proc.devRef .tc main_arg0) :=
  (st22_keep (val22 V) main_arg0 (by decide)).trans (val22_main_arg0 V)
theorem val23_main_arg1 (V : Valuation τ sig (Elt Ideal)) : val23 V (no_index (Proc.devRef .tc main_arg1)) = V (Proc.devRef .tc main_arg1) :=
  (st22_keep (val22 V) main_arg1 (by decide)).trans (val22_main_arg1 V)
theorem val23_main_arg2 (V : Valuation τ sig (Elt Ideal)) : val23 V (no_index (Proc.devRef .tc main_arg2)) = V (Proc.devRef .tc main_arg2) :=
  (st22_keep (val22 V) main_arg2 (by decide)).trans (val22_main_arg2 V)
theorem val23_main_arg3 (V : Valuation τ sig (Elt Ideal)) : val23 V (no_index (Proc.devRef .tc main_arg3)) = V (Proc.devRef .tc main_arg3) :=
  (st22_keep (val22 V) main_arg3 (by decide)).trans (val22_main_arg3 V)
theorem val23_main_arg4 (V : Valuation τ sig (Elt Ideal)) : val23 V (no_index (Proc.devRef .tc main_arg4)) = V (Proc.devRef .tc main_arg4) :=
  (st22_keep (val22 V) main_arg4 (by decide)).trans (val22_main_arg4 V)
theorem val23_main_arg5 (V : Valuation τ sig (Elt Ideal)) : val23 V (no_index (Proc.devRef .tc main_arg5)) = V (Proc.devRef .tc main_arg5) :=
  (st22_keep (val22 V) main_arg5 (by decide)).trans (val22_main_arg5 V)
theorem val23_main_arg6 (V : Valuation τ sig (Elt Ideal)) : val23 V (no_index (Proc.devRef .tc main_arg6)) = V (Proc.devRef .tc main_arg6) :=
  (st22_keep (val22 V) main_arg6 (by decide)).trans (val22_main_arg6 V)
theorem val23_main_arg7 (V : Valuation τ sig (Elt Ideal)) : val23 V (no_index (Proc.devRef .tc main_arg7)) = V (Proc.devRef .tc main_arg7) :=
  (st22_keep (val22 V) main_arg7 (by decide)).trans (val22_main_arg7 V)
theorem val23_main_arg8 (V : Valuation τ sig (Elt Ideal)) : val23 V (no_index (Proc.devRef .tc main_arg8)) = V (Proc.devRef .tc main_arg8) :=
  (st22_keep (val22 V) main_arg8 (by decide)).trans (val22_main_arg8 V)
theorem val23_main_arg9 (V : Valuation τ sig (Elt Ideal)) : val23 V (no_index (Proc.devRef .tc main_arg9)) = V (Proc.devRef .tc main_arg9) :=
  (st22_keep (val22 V) main_arg9 (by decide)).trans (val22_main_arg9 V)
theorem val23_main_arg10 (V : Valuation τ sig (Elt Ideal)) : val23 V (no_index (Proc.devRef .tc main_arg10)) = V (Proc.devRef .tc main_arg10) :=
  (st22_keep (val22 V) main_arg10 (by decide)).trans (val22_main_arg10 V)
theorem val23_main_arg11 (V : Valuation τ sig (Elt Ideal)) : val23 V (no_index (Proc.devRef .tc main_arg11)) = V (Proc.devRef .tc main_arg11) :=
  (st22_keep (val22 V) main_arg11 (by decide)).trans (val22_main_arg11 V)
theorem val23_main_arg12 (V : Valuation τ sig (Elt Ideal)) : val23 V (no_index (Proc.devRef .tc main_arg12)) = V (Proc.devRef .tc main_arg12) :=
  (st22_keep (val22 V) main_arg12 (by decide)).trans (val22_main_arg12 V)
theorem val23_main_arg13 (V : Valuation τ sig (Elt Ideal)) : val23 V (no_index (Proc.devRef .tc main_arg13)) = V (Proc.devRef .tc main_arg13) :=
  (st22_keep (val22 V) main_arg13 (by decide)).trans (val22_main_arg13 V)
theorem val23_main_arg14 (V : Valuation τ sig (Elt Ideal)) : val23 V (no_index (Proc.devRef .tc main_arg14)) = V (Proc.devRef .tc main_arg14) :=
  (st22_keep (val22 V) main_arg14 (by decide)).trans (val22_main_arg14 V)
theorem val23_main_arg15 (V : Valuation τ sig (Elt Ideal)) : val23 V (no_index (Proc.devRef .tc main_arg15)) = V (Proc.devRef .tc main_arg15) :=
  (st22_keep (val22 V) main_arg15 (by decide)).trans (val22_main_arg15 V)
theorem val23_main_arg16 (V : Valuation τ sig (Elt Ideal)) : val23 V (no_index (Proc.devRef .tc main_arg16)) = V (Proc.devRef .tc main_arg16) :=
  (st22_keep (val22 V) main_arg16 (by decide)).trans (val22_main_arg16 V)
theorem val23_main_arg17 (V : Valuation τ sig (Elt Ideal)) : val23 V (no_index (Proc.devRef .tc main_arg17)) = V (Proc.devRef .tc main_arg17) :=
  (st22_keep (val22 V) main_arg17 (by decide)).trans (val22_main_arg17 V)
theorem val23_main_arg18 (V : Valuation τ sig (Elt Ideal)) : val23 V (no_index (Proc.devRef .tc main_arg18)) = V (Proc.devRef .tc main_arg18) :=
  (st22_keep (val22 V) main_arg18 (by decide)).trans (val22_main_arg18 V)
theorem val23_main_arg19 (V : Valuation τ sig (Elt Ideal)) : val23 V (no_index (Proc.devRef .tc main_arg19)) = V (Proc.devRef .tc main_arg19) :=
  (st22_keep (val22 V) main_arg19 (by decide)).trans (val22_main_arg19 V)
theorem val23_main_arg20 (V : Valuation τ sig (Elt Ideal)) : val23 V (no_index (Proc.devRef .tc main_arg20)) = V (Proc.devRef .tc main_arg20) :=
  (st22_keep (val22 V) main_arg20 (by decide)).trans (val22_main_arg20 V)
theorem val23_main_arg21 (V : Valuation τ sig (Elt Ideal)) : val23 V (no_index (Proc.devRef .tc main_arg21)) = V (Proc.devRef .tc main_arg21) :=
  (st22_keep (val22 V) main_arg21 (by decide)).trans (val22_main_arg21 V)
theorem val23_main_arg22 (V : Valuation τ sig (Elt Ideal)) : val23 V (no_index (Proc.devRef .tc main_arg22)) = V (Proc.devRef .tc main_arg22) :=
  (st22_keep (val22 V) main_arg22 (by decide)).trans (val22_main_arg22 V)
theorem val23_main_arg23 (V : Valuation τ sig (Elt Ideal)) : val23 V (no_index (Proc.devRef .tc main_arg23)) = V (Proc.devRef .tc main_arg23) :=
  (st22_keep (val22 V) main_arg23 (by decide)).trans (val22_main_arg23 V)
theorem val23_main_arg24 (V : Valuation τ sig (Elt Ideal)) : val23 V (no_index (Proc.devRef .tc main_arg24)) = V (Proc.devRef .tc main_arg24) :=
  (st22_keep (val22 V) main_arg24 (by decide)).trans (val22_main_arg24 V)
theorem val23_main_v46 (V : Valuation τ sig (Elt Ideal)) : val23 V (no_index (Proc.devRef .tc main_v46)) = at25 (res_main_v46 (F := Ideal)) V :=
  (st22_keep (val22 V) main_v46 (by decide)).trans (val22_main_v46 V)
theorem val23_main_v103 (V : Valuation τ sig (Elt Ideal)) : val23 V (no_index (Proc.devRef .tc main_v103)) = at25 (res_main_v103 (F := Ideal)) V :=
  (st22_keep (val22 V) main_v103 (by decide)).trans (val22_main_v103 V)
theorem val23_main_v160 (V : Valuation τ sig (Elt Ideal)) : val23 V (no_index (Proc.devRef .tc main_v160)) = at25 (res_main_v160 (F := Ideal)) V :=
  (st22_keep (val22 V) main_v160 (by decide)).trans (val22_main_v160 V)
theorem val23_main_v164 (V : Valuation τ sig (Elt Ideal)) : val23 V (no_index (Proc.devRef .tc main_v164)) = at25 (res_main_v164 (F := Ideal)) V :=
  (st22_keep (val22 V) main_v164 (by decide)).trans (val22_main_v164 V)
theorem val23_main_v166 (V : Valuation τ sig (Elt Ideal)) : val23 V (no_index (Proc.devRef .tc main_v166)) = at25 (res_main_v166 (F := Ideal)) V :=
  (st22_keep (val22 V) main_v166 (by decide)).trans (val22_main_v166 V)
theorem val23_main_v168 (V : Valuation τ sig (Elt Ideal)) : val23 V (no_index (Proc.devRef .tc main_v168)) = at25 (res_main_v168 (F := Ideal)) V :=
  (st22_keep (val22 V) main_v168 (by decide)).trans (val22_main_v168 V)
theorem val23_main_v170 (V : Valuation τ sig (Elt Ideal)) : val23 V (no_index (Proc.devRef .tc main_v170)) = at25 (res_main_v170 (F := Ideal)) V :=
  (st22_keep (val22 V) main_v170 (by decide)).trans (val22_main_v170 V)
theorem val23_main_v172 (V : Valuation τ sig (Elt Ideal)) : val23 V (no_index (Proc.devRef .tc main_v172)) = at25 (res_main_v172 (F := Ideal)) V :=
  (st22_keep (val22 V) main_v172 (by decide)).trans (val22_main_v172 V)
theorem val23_main_v174 (V : Valuation τ sig (Elt Ideal)) : val23 V (no_index (Proc.devRef .tc main_v174)) = at25 (res_main_v174 (F := Ideal)) V :=
  (st22_keep (val22 V) main_v174 (by decide)).trans (val22_main_v174 V)
theorem val23_main_v188 (V : Valuation τ sig (Elt Ideal)) : val23 V (no_index (Proc.devRef .tc main_v188)) = at25 (res_main_v188 (F := Ideal)) V := by
  unfold val23
  rw [st22_main_v188]
  rw [val22_main_v162 V, val22_main_v160 V, val22_main_v3 V, val22_main_v1 V]
  rfl

/-- The contents after the first 24 parts. -/
def val24 (V : Valuation τ sig (Elt Ideal)) : Valuation τ sig (Elt Ideal) := after (st23 (F := Ideal)) (val23 V)
theorem val24_main_arg0 (V : Valuation τ sig (Elt Ideal)) : val24 V (no_index (Proc.devRef .tc main_arg0)) = V (Proc.devRef .tc main_arg0) :=
  (st23_keep (val23 V) main_arg0 (by decide)).trans (val23_main_arg0 V)
theorem val24_main_arg1 (V : Valuation τ sig (Elt Ideal)) : val24 V (no_index (Proc.devRef .tc main_arg1)) = V (Proc.devRef .tc main_arg1) :=
  (st23_keep (val23 V) main_arg1 (by decide)).trans (val23_main_arg1 V)
theorem val24_main_arg2 (V : Valuation τ sig (Elt Ideal)) : val24 V (no_index (Proc.devRef .tc main_arg2)) = V (Proc.devRef .tc main_arg2) :=
  (st23_keep (val23 V) main_arg2 (by decide)).trans (val23_main_arg2 V)
theorem val24_main_arg3 (V : Valuation τ sig (Elt Ideal)) : val24 V (no_index (Proc.devRef .tc main_arg3)) = V (Proc.devRef .tc main_arg3) :=
  (st23_keep (val23 V) main_arg3 (by decide)).trans (val23_main_arg3 V)
theorem val24_main_arg4 (V : Valuation τ sig (Elt Ideal)) : val24 V (no_index (Proc.devRef .tc main_arg4)) = V (Proc.devRef .tc main_arg4) :=
  (st23_keep (val23 V) main_arg4 (by decide)).trans (val23_main_arg4 V)
theorem val24_main_arg5 (V : Valuation τ sig (Elt Ideal)) : val24 V (no_index (Proc.devRef .tc main_arg5)) = V (Proc.devRef .tc main_arg5) :=
  (st23_keep (val23 V) main_arg5 (by decide)).trans (val23_main_arg5 V)
theorem val24_main_arg6 (V : Valuation τ sig (Elt Ideal)) : val24 V (no_index (Proc.devRef .tc main_arg6)) = V (Proc.devRef .tc main_arg6) :=
  (st23_keep (val23 V) main_arg6 (by decide)).trans (val23_main_arg6 V)
theorem val24_main_arg7 (V : Valuation τ sig (Elt Ideal)) : val24 V (no_index (Proc.devRef .tc main_arg7)) = V (Proc.devRef .tc main_arg7) :=
  (st23_keep (val23 V) main_arg7 (by decide)).trans (val23_main_arg7 V)
theorem val24_main_arg8 (V : Valuation τ sig (Elt Ideal)) : val24 V (no_index (Proc.devRef .tc main_arg8)) = V (Proc.devRef .tc main_arg8) :=
  (st23_keep (val23 V) main_arg8 (by decide)).trans (val23_main_arg8 V)
theorem val24_main_arg9 (V : Valuation τ sig (Elt Ideal)) : val24 V (no_index (Proc.devRef .tc main_arg9)) = V (Proc.devRef .tc main_arg9) :=
  (st23_keep (val23 V) main_arg9 (by decide)).trans (val23_main_arg9 V)
theorem val24_main_arg10 (V : Valuation τ sig (Elt Ideal)) : val24 V (no_index (Proc.devRef .tc main_arg10)) = V (Proc.devRef .tc main_arg10) :=
  (st23_keep (val23 V) main_arg10 (by decide)).trans (val23_main_arg10 V)
theorem val24_main_arg11 (V : Valuation τ sig (Elt Ideal)) : val24 V (no_index (Proc.devRef .tc main_arg11)) = V (Proc.devRef .tc main_arg11) :=
  (st23_keep (val23 V) main_arg11 (by decide)).trans (val23_main_arg11 V)
theorem val24_main_arg12 (V : Valuation τ sig (Elt Ideal)) : val24 V (no_index (Proc.devRef .tc main_arg12)) = V (Proc.devRef .tc main_arg12) :=
  (st23_keep (val23 V) main_arg12 (by decide)).trans (val23_main_arg12 V)
theorem val24_main_arg13 (V : Valuation τ sig (Elt Ideal)) : val24 V (no_index (Proc.devRef .tc main_arg13)) = V (Proc.devRef .tc main_arg13) :=
  (st23_keep (val23 V) main_arg13 (by decide)).trans (val23_main_arg13 V)
theorem val24_main_arg14 (V : Valuation τ sig (Elt Ideal)) : val24 V (no_index (Proc.devRef .tc main_arg14)) = V (Proc.devRef .tc main_arg14) :=
  (st23_keep (val23 V) main_arg14 (by decide)).trans (val23_main_arg14 V)
theorem val24_main_arg15 (V : Valuation τ sig (Elt Ideal)) : val24 V (no_index (Proc.devRef .tc main_arg15)) = V (Proc.devRef .tc main_arg15) :=
  (st23_keep (val23 V) main_arg15 (by decide)).trans (val23_main_arg15 V)
theorem val24_main_arg16 (V : Valuation τ sig (Elt Ideal)) : val24 V (no_index (Proc.devRef .tc main_arg16)) = V (Proc.devRef .tc main_arg16) :=
  (st23_keep (val23 V) main_arg16 (by decide)).trans (val23_main_arg16 V)
theorem val24_main_arg17 (V : Valuation τ sig (Elt Ideal)) : val24 V (no_index (Proc.devRef .tc main_arg17)) = V (Proc.devRef .tc main_arg17) :=
  (st23_keep (val23 V) main_arg17 (by decide)).trans (val23_main_arg17 V)
theorem val24_main_arg18 (V : Valuation τ sig (Elt Ideal)) : val24 V (no_index (Proc.devRef .tc main_arg18)) = V (Proc.devRef .tc main_arg18) :=
  (st23_keep (val23 V) main_arg18 (by decide)).trans (val23_main_arg18 V)
theorem val24_main_arg19 (V : Valuation τ sig (Elt Ideal)) : val24 V (no_index (Proc.devRef .tc main_arg19)) = V (Proc.devRef .tc main_arg19) :=
  (st23_keep (val23 V) main_arg19 (by decide)).trans (val23_main_arg19 V)
theorem val24_main_arg20 (V : Valuation τ sig (Elt Ideal)) : val24 V (no_index (Proc.devRef .tc main_arg20)) = V (Proc.devRef .tc main_arg20) :=
  (st23_keep (val23 V) main_arg20 (by decide)).trans (val23_main_arg20 V)
theorem val24_main_arg21 (V : Valuation τ sig (Elt Ideal)) : val24 V (no_index (Proc.devRef .tc main_arg21)) = V (Proc.devRef .tc main_arg21) :=
  (st23_keep (val23 V) main_arg21 (by decide)).trans (val23_main_arg21 V)
theorem val24_main_arg22 (V : Valuation τ sig (Elt Ideal)) : val24 V (no_index (Proc.devRef .tc main_arg22)) = V (Proc.devRef .tc main_arg22) :=
  (st23_keep (val23 V) main_arg22 (by decide)).trans (val23_main_arg22 V)
theorem val24_main_arg23 (V : Valuation τ sig (Elt Ideal)) : val24 V (no_index (Proc.devRef .tc main_arg23)) = V (Proc.devRef .tc main_arg23) :=
  (st23_keep (val23 V) main_arg23 (by decide)).trans (val23_main_arg23 V)
theorem val24_main_arg24 (V : Valuation τ sig (Elt Ideal)) : val24 V (no_index (Proc.devRef .tc main_arg24)) = V (Proc.devRef .tc main_arg24) :=
  (st23_keep (val23 V) main_arg24 (by decide)).trans (val23_main_arg24 V)
theorem val24_main_v46 (V : Valuation τ sig (Elt Ideal)) : val24 V (no_index (Proc.devRef .tc main_v46)) = at25 (res_main_v46 (F := Ideal)) V :=
  (st23_keep (val23 V) main_v46 (by decide)).trans (val23_main_v46 V)
theorem val24_main_v103 (V : Valuation τ sig (Elt Ideal)) : val24 V (no_index (Proc.devRef .tc main_v103)) = at25 (res_main_v103 (F := Ideal)) V :=
  (st23_keep (val23 V) main_v103 (by decide)).trans (val23_main_v103 V)
theorem val24_main_v160 (V : Valuation τ sig (Elt Ideal)) : val24 V (no_index (Proc.devRef .tc main_v160)) = at25 (res_main_v160 (F := Ideal)) V :=
  (st23_keep (val23 V) main_v160 (by decide)).trans (val23_main_v160 V)
theorem val24_main_v168 (V : Valuation τ sig (Elt Ideal)) : val24 V (no_index (Proc.devRef .tc main_v168)) = at25 (res_main_v168 (F := Ideal)) V :=
  (st23_keep (val23 V) main_v168 (by decide)).trans (val23_main_v168 V)
theorem val24_main_v170 (V : Valuation τ sig (Elt Ideal)) : val24 V (no_index (Proc.devRef .tc main_v170)) = at25 (res_main_v170 (F := Ideal)) V :=
  (st23_keep (val23 V) main_v170 (by decide)).trans (val23_main_v170 V)
theorem val24_main_v172 (V : Valuation τ sig (Elt Ideal)) : val24 V (no_index (Proc.devRef .tc main_v172)) = at25 (res_main_v172 (F := Ideal)) V :=
  (st23_keep (val23 V) main_v172 (by decide)).trans (val23_main_v172 V)
theorem val24_main_v174 (V : Valuation τ sig (Elt Ideal)) : val24 V (no_index (Proc.devRef .tc main_v174)) = at25 (res_main_v174 (F := Ideal)) V :=
  (st23_keep (val23 V) main_v174 (by decide)).trans (val23_main_v174 V)
theorem val24_main_v193 (V : Valuation τ sig (Elt Ideal)) : val24 V (no_index (Proc.devRef .tc main_v193)) = at25 (res_main_v193 (F := Ideal)) V := by
  unfold val24
  rw [st23_main_v193]
  rw [val23_main_v188 V, val23_main_v164 V, val23_main_v166 V]
  rfl

/-- The contents after the first 25 parts. -/
def val25 (V : Valuation τ sig (Elt Ideal)) : Valuation τ sig (Elt Ideal) := after (st24 (F := Ideal)) (val24 V)
theorem val25_main_arg0 (V : Valuation τ sig (Elt Ideal)) : val25 V (no_index (Proc.devRef .tc main_arg0)) = V (Proc.devRef .tc main_arg0) :=
  (st24_keep (val24 V) main_arg0 (by decide)).trans (val24_main_arg0 V)
theorem val25_main_arg1 (V : Valuation τ sig (Elt Ideal)) : val25 V (no_index (Proc.devRef .tc main_arg1)) = V (Proc.devRef .tc main_arg1) :=
  (st24_keep (val24 V) main_arg1 (by decide)).trans (val24_main_arg1 V)
theorem val25_main_arg2 (V : Valuation τ sig (Elt Ideal)) : val25 V (no_index (Proc.devRef .tc main_arg2)) = V (Proc.devRef .tc main_arg2) :=
  (st24_keep (val24 V) main_arg2 (by decide)).trans (val24_main_arg2 V)
theorem val25_main_arg3 (V : Valuation τ sig (Elt Ideal)) : val25 V (no_index (Proc.devRef .tc main_arg3)) = V (Proc.devRef .tc main_arg3) :=
  (st24_keep (val24 V) main_arg3 (by decide)).trans (val24_main_arg3 V)
theorem val25_main_arg4 (V : Valuation τ sig (Elt Ideal)) : val25 V (no_index (Proc.devRef .tc main_arg4)) = V (Proc.devRef .tc main_arg4) :=
  (st24_keep (val24 V) main_arg4 (by decide)).trans (val24_main_arg4 V)
theorem val25_main_arg5 (V : Valuation τ sig (Elt Ideal)) : val25 V (no_index (Proc.devRef .tc main_arg5)) = V (Proc.devRef .tc main_arg5) :=
  (st24_keep (val24 V) main_arg5 (by decide)).trans (val24_main_arg5 V)
theorem val25_main_arg6 (V : Valuation τ sig (Elt Ideal)) : val25 V (no_index (Proc.devRef .tc main_arg6)) = V (Proc.devRef .tc main_arg6) :=
  (st24_keep (val24 V) main_arg6 (by decide)).trans (val24_main_arg6 V)
theorem val25_main_arg7 (V : Valuation τ sig (Elt Ideal)) : val25 V (no_index (Proc.devRef .tc main_arg7)) = V (Proc.devRef .tc main_arg7) :=
  (st24_keep (val24 V) main_arg7 (by decide)).trans (val24_main_arg7 V)
theorem val25_main_arg8 (V : Valuation τ sig (Elt Ideal)) : val25 V (no_index (Proc.devRef .tc main_arg8)) = V (Proc.devRef .tc main_arg8) :=
  (st24_keep (val24 V) main_arg8 (by decide)).trans (val24_main_arg8 V)
theorem val25_main_arg9 (V : Valuation τ sig (Elt Ideal)) : val25 V (no_index (Proc.devRef .tc main_arg9)) = V (Proc.devRef .tc main_arg9) :=
  (st24_keep (val24 V) main_arg9 (by decide)).trans (val24_main_arg9 V)
theorem val25_main_arg10 (V : Valuation τ sig (Elt Ideal)) : val25 V (no_index (Proc.devRef .tc main_arg10)) = V (Proc.devRef .tc main_arg10) :=
  (st24_keep (val24 V) main_arg10 (by decide)).trans (val24_main_arg10 V)
theorem val25_main_arg11 (V : Valuation τ sig (Elt Ideal)) : val25 V (no_index (Proc.devRef .tc main_arg11)) = V (Proc.devRef .tc main_arg11) :=
  (st24_keep (val24 V) main_arg11 (by decide)).trans (val24_main_arg11 V)
theorem val25_main_arg12 (V : Valuation τ sig (Elt Ideal)) : val25 V (no_index (Proc.devRef .tc main_arg12)) = V (Proc.devRef .tc main_arg12) :=
  (st24_keep (val24 V) main_arg12 (by decide)).trans (val24_main_arg12 V)
theorem val25_main_arg13 (V : Valuation τ sig (Elt Ideal)) : val25 V (no_index (Proc.devRef .tc main_arg13)) = V (Proc.devRef .tc main_arg13) :=
  (st24_keep (val24 V) main_arg13 (by decide)).trans (val24_main_arg13 V)
theorem val25_main_arg14 (V : Valuation τ sig (Elt Ideal)) : val25 V (no_index (Proc.devRef .tc main_arg14)) = V (Proc.devRef .tc main_arg14) :=
  (st24_keep (val24 V) main_arg14 (by decide)).trans (val24_main_arg14 V)
theorem val25_main_arg15 (V : Valuation τ sig (Elt Ideal)) : val25 V (no_index (Proc.devRef .tc main_arg15)) = V (Proc.devRef .tc main_arg15) :=
  (st24_keep (val24 V) main_arg15 (by decide)).trans (val24_main_arg15 V)
theorem val25_main_arg16 (V : Valuation τ sig (Elt Ideal)) : val25 V (no_index (Proc.devRef .tc main_arg16)) = V (Proc.devRef .tc main_arg16) :=
  (st24_keep (val24 V) main_arg16 (by decide)).trans (val24_main_arg16 V)
theorem val25_main_arg17 (V : Valuation τ sig (Elt Ideal)) : val25 V (no_index (Proc.devRef .tc main_arg17)) = V (Proc.devRef .tc main_arg17) :=
  (st24_keep (val24 V) main_arg17 (by decide)).trans (val24_main_arg17 V)
theorem val25_main_arg18 (V : Valuation τ sig (Elt Ideal)) : val25 V (no_index (Proc.devRef .tc main_arg18)) = V (Proc.devRef .tc main_arg18) :=
  (st24_keep (val24 V) main_arg18 (by decide)).trans (val24_main_arg18 V)
theorem val25_main_arg19 (V : Valuation τ sig (Elt Ideal)) : val25 V (no_index (Proc.devRef .tc main_arg19)) = V (Proc.devRef .tc main_arg19) :=
  (st24_keep (val24 V) main_arg19 (by decide)).trans (val24_main_arg19 V)
theorem val25_main_arg20 (V : Valuation τ sig (Elt Ideal)) : val25 V (no_index (Proc.devRef .tc main_arg20)) = V (Proc.devRef .tc main_arg20) :=
  (st24_keep (val24 V) main_arg20 (by decide)).trans (val24_main_arg20 V)
theorem val25_main_arg21 (V : Valuation τ sig (Elt Ideal)) : val25 V (no_index (Proc.devRef .tc main_arg21)) = V (Proc.devRef .tc main_arg21) :=
  (st24_keep (val24 V) main_arg21 (by decide)).trans (val24_main_arg21 V)
theorem val25_main_arg22 (V : Valuation τ sig (Elt Ideal)) : val25 V (no_index (Proc.devRef .tc main_arg22)) = V (Proc.devRef .tc main_arg22) :=
  (st24_keep (val24 V) main_arg22 (by decide)).trans (val24_main_arg22 V)
theorem val25_main_arg23 (V : Valuation τ sig (Elt Ideal)) : val25 V (no_index (Proc.devRef .tc main_arg23)) = V (Proc.devRef .tc main_arg23) :=
  (st24_keep (val24 V) main_arg23 (by decide)).trans (val24_main_arg23 V)
theorem val25_main_arg24 (V : Valuation τ sig (Elt Ideal)) : val25 V (no_index (Proc.devRef .tc main_arg24)) = V (Proc.devRef .tc main_arg24) :=
  (st24_keep (val24 V) main_arg24 (by decide)).trans (val24_main_arg24 V)
theorem val25_main_v46 (V : Valuation τ sig (Elt Ideal)) : val25 V (no_index (Proc.devRef .tc main_v46)) = at25 (res_main_v46 (F := Ideal)) V :=
  (st24_keep (val24 V) main_v46 (by decide)).trans (val24_main_v46 V)
theorem val25_main_v103 (V : Valuation τ sig (Elt Ideal)) : val25 V (no_index (Proc.devRef .tc main_v103)) = at25 (res_main_v103 (F := Ideal)) V :=
  (st24_keep (val24 V) main_v103 (by decide)).trans (val24_main_v103 V)
theorem val25_main_v160 (V : Valuation τ sig (Elt Ideal)) : val25 V (no_index (Proc.devRef .tc main_v160)) = at25 (res_main_v160 (F := Ideal)) V :=
  (st24_keep (val24 V) main_v160 (by decide)).trans (val24_main_v160 V)
theorem val25_main_v172 (V : Valuation τ sig (Elt Ideal)) : val25 V (no_index (Proc.devRef .tc main_v172)) = at25 (res_main_v172 (F := Ideal)) V :=
  (st24_keep (val24 V) main_v172 (by decide)).trans (val24_main_v172 V)
theorem val25_main_v174 (V : Valuation τ sig (Elt Ideal)) : val25 V (no_index (Proc.devRef .tc main_v174)) = at25 (res_main_v174 (F := Ideal)) V :=
  (st24_keep (val24 V) main_v174 (by decide)).trans (val24_main_v174 V)
theorem val25_main_v198 (V : Valuation τ sig (Elt Ideal)) : val25 V (no_index (Proc.devRef .tc main_v198)) = at25 (res_main_v198 (F := Ideal)) V := by
  unfold val25
  rw [st24_main_v198]
  rw [val24_main_v193 V, val24_main_v168 V, val24_main_v170 V]
  rfl

/-- The contents after the first 26 parts. -/
def val26 (V : Valuation τ sig (Elt Ideal)) : Valuation τ sig (Elt Ideal) := after (st25 (F := Ideal)) (val25 V)
theorem val26_main_arg0 (V : Valuation τ sig (Elt Ideal)) : val26 V (no_index (Proc.devRef .tc main_arg0)) = V (Proc.devRef .tc main_arg0) :=
  (st25_keep (val25 V) main_arg0 (by decide)).trans (val25_main_arg0 V)
theorem val26_main_arg1 (V : Valuation τ sig (Elt Ideal)) : val26 V (no_index (Proc.devRef .tc main_arg1)) = V (Proc.devRef .tc main_arg1) :=
  (st25_keep (val25 V) main_arg1 (by decide)).trans (val25_main_arg1 V)
theorem val26_main_arg2 (V : Valuation τ sig (Elt Ideal)) : val26 V (no_index (Proc.devRef .tc main_arg2)) = V (Proc.devRef .tc main_arg2) :=
  (st25_keep (val25 V) main_arg2 (by decide)).trans (val25_main_arg2 V)
theorem val26_main_arg3 (V : Valuation τ sig (Elt Ideal)) : val26 V (no_index (Proc.devRef .tc main_arg3)) = V (Proc.devRef .tc main_arg3) :=
  (st25_keep (val25 V) main_arg3 (by decide)).trans (val25_main_arg3 V)
theorem val26_main_arg4 (V : Valuation τ sig (Elt Ideal)) : val26 V (no_index (Proc.devRef .tc main_arg4)) = V (Proc.devRef .tc main_arg4) :=
  (st25_keep (val25 V) main_arg4 (by decide)).trans (val25_main_arg4 V)
theorem val26_main_arg5 (V : Valuation τ sig (Elt Ideal)) : val26 V (no_index (Proc.devRef .tc main_arg5)) = V (Proc.devRef .tc main_arg5) :=
  (st25_keep (val25 V) main_arg5 (by decide)).trans (val25_main_arg5 V)
theorem val26_main_arg6 (V : Valuation τ sig (Elt Ideal)) : val26 V (no_index (Proc.devRef .tc main_arg6)) = V (Proc.devRef .tc main_arg6) :=
  (st25_keep (val25 V) main_arg6 (by decide)).trans (val25_main_arg6 V)
theorem val26_main_arg7 (V : Valuation τ sig (Elt Ideal)) : val26 V (no_index (Proc.devRef .tc main_arg7)) = V (Proc.devRef .tc main_arg7) :=
  (st25_keep (val25 V) main_arg7 (by decide)).trans (val25_main_arg7 V)
theorem val26_main_arg8 (V : Valuation τ sig (Elt Ideal)) : val26 V (no_index (Proc.devRef .tc main_arg8)) = V (Proc.devRef .tc main_arg8) :=
  (st25_keep (val25 V) main_arg8 (by decide)).trans (val25_main_arg8 V)
theorem val26_main_arg9 (V : Valuation τ sig (Elt Ideal)) : val26 V (no_index (Proc.devRef .tc main_arg9)) = V (Proc.devRef .tc main_arg9) :=
  (st25_keep (val25 V) main_arg9 (by decide)).trans (val25_main_arg9 V)
theorem val26_main_arg10 (V : Valuation τ sig (Elt Ideal)) : val26 V (no_index (Proc.devRef .tc main_arg10)) = V (Proc.devRef .tc main_arg10) :=
  (st25_keep (val25 V) main_arg10 (by decide)).trans (val25_main_arg10 V)
theorem val26_main_arg11 (V : Valuation τ sig (Elt Ideal)) : val26 V (no_index (Proc.devRef .tc main_arg11)) = V (Proc.devRef .tc main_arg11) :=
  (st25_keep (val25 V) main_arg11 (by decide)).trans (val25_main_arg11 V)
theorem val26_main_arg12 (V : Valuation τ sig (Elt Ideal)) : val26 V (no_index (Proc.devRef .tc main_arg12)) = V (Proc.devRef .tc main_arg12) :=
  (st25_keep (val25 V) main_arg12 (by decide)).trans (val25_main_arg12 V)
theorem val26_main_arg13 (V : Valuation τ sig (Elt Ideal)) : val26 V (no_index (Proc.devRef .tc main_arg13)) = V (Proc.devRef .tc main_arg13) :=
  (st25_keep (val25 V) main_arg13 (by decide)).trans (val25_main_arg13 V)
theorem val26_main_arg14 (V : Valuation τ sig (Elt Ideal)) : val26 V (no_index (Proc.devRef .tc main_arg14)) = V (Proc.devRef .tc main_arg14) :=
  (st25_keep (val25 V) main_arg14 (by decide)).trans (val25_main_arg14 V)
theorem val26_main_arg15 (V : Valuation τ sig (Elt Ideal)) : val26 V (no_index (Proc.devRef .tc main_arg15)) = V (Proc.devRef .tc main_arg15) :=
  (st25_keep (val25 V) main_arg15 (by decide)).trans (val25_main_arg15 V)
theorem val26_main_arg16 (V : Valuation τ sig (Elt Ideal)) : val26 V (no_index (Proc.devRef .tc main_arg16)) = V (Proc.devRef .tc main_arg16) :=
  (st25_keep (val25 V) main_arg16 (by decide)).trans (val25_main_arg16 V)
theorem val26_main_arg17 (V : Valuation τ sig (Elt Ideal)) : val26 V (no_index (Proc.devRef .tc main_arg17)) = V (Proc.devRef .tc main_arg17) :=
  (st25_keep (val25 V) main_arg17 (by decide)).trans (val25_main_arg17 V)
theorem val26_main_arg18 (V : Valuation τ sig (Elt Ideal)) : val26 V (no_index (Proc.devRef .tc main_arg18)) = V (Proc.devRef .tc main_arg18) :=
  (st25_keep (val25 V) main_arg18 (by decide)).trans (val25_main_arg18 V)
theorem val26_main_arg19 (V : Valuation τ sig (Elt Ideal)) : val26 V (no_index (Proc.devRef .tc main_arg19)) = V (Proc.devRef .tc main_arg19) :=
  (st25_keep (val25 V) main_arg19 (by decide)).trans (val25_main_arg19 V)
theorem val26_main_arg20 (V : Valuation τ sig (Elt Ideal)) : val26 V (no_index (Proc.devRef .tc main_arg20)) = V (Proc.devRef .tc main_arg20) :=
  (st25_keep (val25 V) main_arg20 (by decide)).trans (val25_main_arg20 V)
theorem val26_main_arg21 (V : Valuation τ sig (Elt Ideal)) : val26 V (no_index (Proc.devRef .tc main_arg21)) = V (Proc.devRef .tc main_arg21) :=
  (st25_keep (val25 V) main_arg21 (by decide)).trans (val25_main_arg21 V)
theorem val26_main_arg22 (V : Valuation τ sig (Elt Ideal)) : val26 V (no_index (Proc.devRef .tc main_arg22)) = V (Proc.devRef .tc main_arg22) :=
  (st25_keep (val25 V) main_arg22 (by decide)).trans (val25_main_arg22 V)
theorem val26_main_arg23 (V : Valuation τ sig (Elt Ideal)) : val26 V (no_index (Proc.devRef .tc main_arg23)) = V (Proc.devRef .tc main_arg23) :=
  (st25_keep (val25 V) main_arg23 (by decide)).trans (val25_main_arg23 V)
theorem val26_main_arg24 (V : Valuation τ sig (Elt Ideal)) : val26 V (no_index (Proc.devRef .tc main_arg24)) = V (Proc.devRef .tc main_arg24) :=
  (st25_keep (val25 V) main_arg24 (by decide)).trans (val25_main_arg24 V)
theorem val26_main_v46 (V : Valuation τ sig (Elt Ideal)) : val26 V (no_index (Proc.devRef .tc main_v46)) = at25 (res_main_v46 (F := Ideal)) V :=
  (st25_keep (val25 V) main_v46 (by decide)).trans (val25_main_v46 V)
theorem val26_main_v103 (V : Valuation τ sig (Elt Ideal)) : val26 V (no_index (Proc.devRef .tc main_v103)) = at25 (res_main_v103 (F := Ideal)) V :=
  (st25_keep (val25 V) main_v103 (by decide)).trans (val25_main_v103 V)
theorem val26_main_v160 (V : Valuation τ sig (Elt Ideal)) : val26 V (no_index (Proc.devRef .tc main_v160)) = at25 (res_main_v160 (F := Ideal)) V :=
  (st25_keep (val25 V) main_v160 (by decide)).trans (val25_main_v160 V)
theorem val26_main_v172 (V : Valuation τ sig (Elt Ideal)) : val26 V (no_index (Proc.devRef .tc main_v172)) = at25 (res_main_v172 (F := Ideal)) V :=
  (st25_keep (val25 V) main_v172 (by decide)).trans (val25_main_v172 V)
theorem val26_main_v174 (V : Valuation τ sig (Elt Ideal)) : val26 V (no_index (Proc.devRef .tc main_v174)) = at25 (res_main_v174 (F := Ideal)) V :=
  (st25_keep (val25 V) main_v174 (by decide)).trans (val25_main_v174 V)
theorem val26_main_v198 (V : Valuation τ sig (Elt Ideal)) : val26 V (no_index (Proc.devRef .tc main_v198)) = at25 (res_main_v198 (F := Ideal)) V :=
  (st25_keep (val25 V) main_v198 (by decide)).trans (val25_main_v198 V)
theorem val26_main_v201 (V : Valuation τ sig (Elt Ideal)) : val26 V (no_index (Proc.devRef .tc main_v201)) = at25 (res_main_v201 (F := Ideal)) V := by
  unfold val26
  rw [st25_main_v201]
  rw [val25_main_v198 V]
  rfl

/-- The contents after the first 27 parts. -/
def val27 (V : Valuation τ sig (Elt Ideal)) : Valuation τ sig (Elt Ideal) := after (st26 (F := Ideal)) (val26 V)
theorem val27_main_arg0 (V : Valuation τ sig (Elt Ideal)) : val27 V (no_index (Proc.devRef .tc main_arg0)) = V (Proc.devRef .tc main_arg0) :=
  (st26_keep (val26 V) main_arg0 (by decide)).trans (val26_main_arg0 V)
theorem val27_main_arg1 (V : Valuation τ sig (Elt Ideal)) : val27 V (no_index (Proc.devRef .tc main_arg1)) = V (Proc.devRef .tc main_arg1) :=
  (st26_keep (val26 V) main_arg1 (by decide)).trans (val26_main_arg1 V)
theorem val27_main_arg2 (V : Valuation τ sig (Elt Ideal)) : val27 V (no_index (Proc.devRef .tc main_arg2)) = V (Proc.devRef .tc main_arg2) :=
  (st26_keep (val26 V) main_arg2 (by decide)).trans (val26_main_arg2 V)
theorem val27_main_arg3 (V : Valuation τ sig (Elt Ideal)) : val27 V (no_index (Proc.devRef .tc main_arg3)) = V (Proc.devRef .tc main_arg3) :=
  (st26_keep (val26 V) main_arg3 (by decide)).trans (val26_main_arg3 V)
theorem val27_main_arg4 (V : Valuation τ sig (Elt Ideal)) : val27 V (no_index (Proc.devRef .tc main_arg4)) = V (Proc.devRef .tc main_arg4) :=
  (st26_keep (val26 V) main_arg4 (by decide)).trans (val26_main_arg4 V)
theorem val27_main_arg5 (V : Valuation τ sig (Elt Ideal)) : val27 V (no_index (Proc.devRef .tc main_arg5)) = V (Proc.devRef .tc main_arg5) :=
  (st26_keep (val26 V) main_arg5 (by decide)).trans (val26_main_arg5 V)
theorem val27_main_arg6 (V : Valuation τ sig (Elt Ideal)) : val27 V (no_index (Proc.devRef .tc main_arg6)) = V (Proc.devRef .tc main_arg6) :=
  (st26_keep (val26 V) main_arg6 (by decide)).trans (val26_main_arg6 V)
theorem val27_main_arg7 (V : Valuation τ sig (Elt Ideal)) : val27 V (no_index (Proc.devRef .tc main_arg7)) = V (Proc.devRef .tc main_arg7) :=
  (st26_keep (val26 V) main_arg7 (by decide)).trans (val26_main_arg7 V)
theorem val27_main_arg8 (V : Valuation τ sig (Elt Ideal)) : val27 V (no_index (Proc.devRef .tc main_arg8)) = V (Proc.devRef .tc main_arg8) :=
  (st26_keep (val26 V) main_arg8 (by decide)).trans (val26_main_arg8 V)
theorem val27_main_arg9 (V : Valuation τ sig (Elt Ideal)) : val27 V (no_index (Proc.devRef .tc main_arg9)) = V (Proc.devRef .tc main_arg9) :=
  (st26_keep (val26 V) main_arg9 (by decide)).trans (val26_main_arg9 V)
theorem val27_main_arg10 (V : Valuation τ sig (Elt Ideal)) : val27 V (no_index (Proc.devRef .tc main_arg10)) = V (Proc.devRef .tc main_arg10) :=
  (st26_keep (val26 V) main_arg10 (by decide)).trans (val26_main_arg10 V)
theorem val27_main_arg11 (V : Valuation τ sig (Elt Ideal)) : val27 V (no_index (Proc.devRef .tc main_arg11)) = V (Proc.devRef .tc main_arg11) :=
  (st26_keep (val26 V) main_arg11 (by decide)).trans (val26_main_arg11 V)
theorem val27_main_arg12 (V : Valuation τ sig (Elt Ideal)) : val27 V (no_index (Proc.devRef .tc main_arg12)) = V (Proc.devRef .tc main_arg12) :=
  (st26_keep (val26 V) main_arg12 (by decide)).trans (val26_main_arg12 V)
theorem val27_main_arg13 (V : Valuation τ sig (Elt Ideal)) : val27 V (no_index (Proc.devRef .tc main_arg13)) = V (Proc.devRef .tc main_arg13) :=
  (st26_keep (val26 V) main_arg13 (by decide)).trans (val26_main_arg13 V)
theorem val27_main_arg14 (V : Valuation τ sig (Elt Ideal)) : val27 V (no_index (Proc.devRef .tc main_arg14)) = V (Proc.devRef .tc main_arg14) :=
  (st26_keep (val26 V) main_arg14 (by decide)).trans (val26_main_arg14 V)
theorem val27_main_arg15 (V : Valuation τ sig (Elt Ideal)) : val27 V (no_index (Proc.devRef .tc main_arg15)) = V (Proc.devRef .tc main_arg15) :=
  (st26_keep (val26 V) main_arg15 (by decide)).trans (val26_main_arg15 V)
theorem val27_main_arg16 (V : Valuation τ sig (Elt Ideal)) : val27 V (no_index (Proc.devRef .tc main_arg16)) = V (Proc.devRef .tc main_arg16) :=
  (st26_keep (val26 V) main_arg16 (by decide)).trans (val26_main_arg16 V)
theorem val27_main_arg17 (V : Valuation τ sig (Elt Ideal)) : val27 V (no_index (Proc.devRef .tc main_arg17)) = V (Proc.devRef .tc main_arg17) :=
  (st26_keep (val26 V) main_arg17 (by decide)).trans (val26_main_arg17 V)
theorem val27_main_arg18 (V : Valuation τ sig (Elt Ideal)) : val27 V (no_index (Proc.devRef .tc main_arg18)) = V (Proc.devRef .tc main_arg18) :=
  (st26_keep (val26 V) main_arg18 (by decide)).trans (val26_main_arg18 V)
theorem val27_main_arg19 (V : Valuation τ sig (Elt Ideal)) : val27 V (no_index (Proc.devRef .tc main_arg19)) = V (Proc.devRef .tc main_arg19) :=
  (st26_keep (val26 V) main_arg19 (by decide)).trans (val26_main_arg19 V)
theorem val27_main_arg20 (V : Valuation τ sig (Elt Ideal)) : val27 V (no_index (Proc.devRef .tc main_arg20)) = V (Proc.devRef .tc main_arg20) :=
  (st26_keep (val26 V) main_arg20 (by decide)).trans (val26_main_arg20 V)
theorem val27_main_arg21 (V : Valuation τ sig (Elt Ideal)) : val27 V (no_index (Proc.devRef .tc main_arg21)) = V (Proc.devRef .tc main_arg21) :=
  (st26_keep (val26 V) main_arg21 (by decide)).trans (val26_main_arg21 V)
theorem val27_main_arg22 (V : Valuation τ sig (Elt Ideal)) : val27 V (no_index (Proc.devRef .tc main_arg22)) = V (Proc.devRef .tc main_arg22) :=
  (st26_keep (val26 V) main_arg22 (by decide)).trans (val26_main_arg22 V)
theorem val27_main_arg23 (V : Valuation τ sig (Elt Ideal)) : val27 V (no_index (Proc.devRef .tc main_arg23)) = V (Proc.devRef .tc main_arg23) :=
  (st26_keep (val26 V) main_arg23 (by decide)).trans (val26_main_arg23 V)
theorem val27_main_arg24 (V : Valuation τ sig (Elt Ideal)) : val27 V (no_index (Proc.devRef .tc main_arg24)) = V (Proc.devRef .tc main_arg24) :=
  (st26_keep (val26 V) main_arg24 (by decide)).trans (val26_main_arg24 V)
theorem val27_main_v46 (V : Valuation τ sig (Elt Ideal)) : val27 V (no_index (Proc.devRef .tc main_v46)) = at25 (res_main_v46 (F := Ideal)) V :=
  (st26_keep (val26 V) main_v46 (by decide)).trans (val26_main_v46 V)
theorem val27_main_v103 (V : Valuation τ sig (Elt Ideal)) : val27 V (no_index (Proc.devRef .tc main_v103)) = at25 (res_main_v103 (F := Ideal)) V :=
  (st26_keep (val26 V) main_v103 (by decide)).trans (val26_main_v103 V)
theorem val27_main_v160 (V : Valuation τ sig (Elt Ideal)) : val27 V (no_index (Proc.devRef .tc main_v160)) = at25 (res_main_v160 (F := Ideal)) V :=
  (st26_keep (val26 V) main_v160 (by decide)).trans (val26_main_v160 V)
theorem val27_main_v172 (V : Valuation τ sig (Elt Ideal)) : val27 V (no_index (Proc.devRef .tc main_v172)) = at25 (res_main_v172 (F := Ideal)) V :=
  (st26_keep (val26 V) main_v172 (by decide)).trans (val26_main_v172 V)
theorem val27_main_v174 (V : Valuation τ sig (Elt Ideal)) : val27 V (no_index (Proc.devRef .tc main_v174)) = at25 (res_main_v174 (F := Ideal)) V :=
  (st26_keep (val26 V) main_v174 (by decide)).trans (val26_main_v174 V)
theorem val27_main_v198 (V : Valuation τ sig (Elt Ideal)) : val27 V (no_index (Proc.devRef .tc main_v198)) = at25 (res_main_v198 (F := Ideal)) V :=
  (st26_keep (val26 V) main_v198 (by decide)).trans (val26_main_v198 V)
theorem val27_main_v201 (V : Valuation τ sig (Elt Ideal)) : val27 V (no_index (Proc.devRef .tc main_v201)) = at25 (res_main_v201 (F := Ideal)) V :=
  (st26_keep (val26 V) main_v201 (by decide)).trans (val26_main_v201 V)
theorem val27_main_v202 (V : Valuation τ sig (Elt Ideal)) : val27 V (no_index (Proc.devRef .tc main_v202)) = at25 (res_main_v202 (F := Ideal)) V := by
  unfold val27
  rw [st26_main_v202]
  rw [val26_main_v198 V]
  rfl

/-- The contents after the first 28 parts. -/
def val28 (V : Valuation τ sig (Elt Ideal)) : Valuation τ sig (Elt Ideal) := after (st27 (F := Ideal)) (val27 V)
theorem val28_main_arg0 (V : Valuation τ sig (Elt Ideal)) : val28 V (no_index (Proc.devRef .tc main_arg0)) = V (Proc.devRef .tc main_arg0) :=
  (st27_keep (val27 V) main_arg0 (by decide)).trans (val27_main_arg0 V)
theorem val28_main_arg1 (V : Valuation τ sig (Elt Ideal)) : val28 V (no_index (Proc.devRef .tc main_arg1)) = V (Proc.devRef .tc main_arg1) :=
  (st27_keep (val27 V) main_arg1 (by decide)).trans (val27_main_arg1 V)
theorem val28_main_arg2 (V : Valuation τ sig (Elt Ideal)) : val28 V (no_index (Proc.devRef .tc main_arg2)) = V (Proc.devRef .tc main_arg2) :=
  (st27_keep (val27 V) main_arg2 (by decide)).trans (val27_main_arg2 V)
theorem val28_main_arg3 (V : Valuation τ sig (Elt Ideal)) : val28 V (no_index (Proc.devRef .tc main_arg3)) = V (Proc.devRef .tc main_arg3) :=
  (st27_keep (val27 V) main_arg3 (by decide)).trans (val27_main_arg3 V)
theorem val28_main_arg4 (V : Valuation τ sig (Elt Ideal)) : val28 V (no_index (Proc.devRef .tc main_arg4)) = V (Proc.devRef .tc main_arg4) :=
  (st27_keep (val27 V) main_arg4 (by decide)).trans (val27_main_arg4 V)
theorem val28_main_arg5 (V : Valuation τ sig (Elt Ideal)) : val28 V (no_index (Proc.devRef .tc main_arg5)) = V (Proc.devRef .tc main_arg5) :=
  (st27_keep (val27 V) main_arg5 (by decide)).trans (val27_main_arg5 V)
theorem val28_main_arg6 (V : Valuation τ sig (Elt Ideal)) : val28 V (no_index (Proc.devRef .tc main_arg6)) = V (Proc.devRef .tc main_arg6) :=
  (st27_keep (val27 V) main_arg6 (by decide)).trans (val27_main_arg6 V)
theorem val28_main_arg7 (V : Valuation τ sig (Elt Ideal)) : val28 V (no_index (Proc.devRef .tc main_arg7)) = V (Proc.devRef .tc main_arg7) :=
  (st27_keep (val27 V) main_arg7 (by decide)).trans (val27_main_arg7 V)
theorem val28_main_arg8 (V : Valuation τ sig (Elt Ideal)) : val28 V (no_index (Proc.devRef .tc main_arg8)) = V (Proc.devRef .tc main_arg8) :=
  (st27_keep (val27 V) main_arg8 (by decide)).trans (val27_main_arg8 V)
theorem val28_main_arg9 (V : Valuation τ sig (Elt Ideal)) : val28 V (no_index (Proc.devRef .tc main_arg9)) = V (Proc.devRef .tc main_arg9) :=
  (st27_keep (val27 V) main_arg9 (by decide)).trans (val27_main_arg9 V)
theorem val28_main_arg10 (V : Valuation τ sig (Elt Ideal)) : val28 V (no_index (Proc.devRef .tc main_arg10)) = V (Proc.devRef .tc main_arg10) :=
  (st27_keep (val27 V) main_arg10 (by decide)).trans (val27_main_arg10 V)
theorem val28_main_arg11 (V : Valuation τ sig (Elt Ideal)) : val28 V (no_index (Proc.devRef .tc main_arg11)) = V (Proc.devRef .tc main_arg11) :=
  (st27_keep (val27 V) main_arg11 (by decide)).trans (val27_main_arg11 V)
theorem val28_main_arg12 (V : Valuation τ sig (Elt Ideal)) : val28 V (no_index (Proc.devRef .tc main_arg12)) = V (Proc.devRef .tc main_arg12) :=
  (st27_keep (val27 V) main_arg12 (by decide)).trans (val27_main_arg12 V)
theorem val28_main_arg13 (V : Valuation τ sig (Elt Ideal)) : val28 V (no_index (Proc.devRef .tc main_arg13)) = V (Proc.devRef .tc main_arg13) :=
  (st27_keep (val27 V) main_arg13 (by decide)).trans (val27_main_arg13 V)
theorem val28_main_arg14 (V : Valuation τ sig (Elt Ideal)) : val28 V (no_index (Proc.devRef .tc main_arg14)) = V (Proc.devRef .tc main_arg14) :=
  (st27_keep (val27 V) main_arg14 (by decide)).trans (val27_main_arg14 V)
theorem val28_main_arg15 (V : Valuation τ sig (Elt Ideal)) : val28 V (no_index (Proc.devRef .tc main_arg15)) = V (Proc.devRef .tc main_arg15) :=
  (st27_keep (val27 V) main_arg15 (by decide)).trans (val27_main_arg15 V)
theorem val28_main_arg16 (V : Valuation τ sig (Elt Ideal)) : val28 V (no_index (Proc.devRef .tc main_arg16)) = V (Proc.devRef .tc main_arg16) :=
  (st27_keep (val27 V) main_arg16 (by decide)).trans (val27_main_arg16 V)
theorem val28_main_arg17 (V : Valuation τ sig (Elt Ideal)) : val28 V (no_index (Proc.devRef .tc main_arg17)) = V (Proc.devRef .tc main_arg17) :=
  (st27_keep (val27 V) main_arg17 (by decide)).trans (val27_main_arg17 V)
theorem val28_main_arg18 (V : Valuation τ sig (Elt Ideal)) : val28 V (no_index (Proc.devRef .tc main_arg18)) = V (Proc.devRef .tc main_arg18) :=
  (st27_keep (val27 V) main_arg18 (by decide)).trans (val27_main_arg18 V)
theorem val28_main_arg19 (V : Valuation τ sig (Elt Ideal)) : val28 V (no_index (Proc.devRef .tc main_arg19)) = V (Proc.devRef .tc main_arg19) :=
  (st27_keep (val27 V) main_arg19 (by decide)).trans (val27_main_arg19 V)
theorem val28_main_arg20 (V : Valuation τ sig (Elt Ideal)) : val28 V (no_index (Proc.devRef .tc main_arg20)) = V (Proc.devRef .tc main_arg20) :=
  (st27_keep (val27 V) main_arg20 (by decide)).trans (val27_main_arg20 V)
theorem val28_main_arg21 (V : Valuation τ sig (Elt Ideal)) : val28 V (no_index (Proc.devRef .tc main_arg21)) = V (Proc.devRef .tc main_arg21) :=
  (st27_keep (val27 V) main_arg21 (by decide)).trans (val27_main_arg21 V)
theorem val28_main_arg22 (V : Valuation τ sig (Elt Ideal)) : val28 V (no_index (Proc.devRef .tc main_arg22)) = V (Proc.devRef .tc main_arg22) :=
  (st27_keep (val27 V) main_arg22 (by decide)).trans (val27_main_arg22 V)
theorem val28_main_arg23 (V : Valuation τ sig (Elt Ideal)) : val28 V (no_index (Proc.devRef .tc main_arg23)) = V (Proc.devRef .tc main_arg23) :=
  (st27_keep (val27 V) main_arg23 (by decide)).trans (val27_main_arg23 V)
theorem val28_main_arg24 (V : Valuation τ sig (Elt Ideal)) : val28 V (no_index (Proc.devRef .tc main_arg24)) = V (Proc.devRef .tc main_arg24) :=
  (st27_keep (val27 V) main_arg24 (by decide)).trans (val27_main_arg24 V)
theorem val28_main_v46 (V : Valuation τ sig (Elt Ideal)) : val28 V (no_index (Proc.devRef .tc main_v46)) = at25 (res_main_v46 (F := Ideal)) V :=
  (st27_keep (val27 V) main_v46 (by decide)).trans (val27_main_v46 V)
theorem val28_main_v103 (V : Valuation τ sig (Elt Ideal)) : val28 V (no_index (Proc.devRef .tc main_v103)) = at25 (res_main_v103 (F := Ideal)) V :=
  (st27_keep (val27 V) main_v103 (by decide)).trans (val27_main_v103 V)
theorem val28_main_v160 (V : Valuation τ sig (Elt Ideal)) : val28 V (no_index (Proc.devRef .tc main_v160)) = at25 (res_main_v160 (F := Ideal)) V :=
  (st27_keep (val27 V) main_v160 (by decide)).trans (val27_main_v160 V)
theorem val28_main_v217 (V : Valuation τ sig (Elt Ideal)) : val28 V (no_index (Proc.devRef .tc main_v217)) = at25 (res_main_v217 (F := Ideal)) V := by
  unfold val28
  rw [st27_main_v217]
  rw [val27_main_v172 V, val27_main_v198 V, val27_main_v201 V, val27_main_v202 V, val27_main_v174 V]
  rfl

/-- The contents after the first 29 parts. -/
def val29 (V : Valuation τ sig (Elt Ideal)) : Valuation τ sig (Elt Ideal) := after (st28 (F := Ideal)) (val28 V)
theorem val29_main_arg0 (V : Valuation τ sig (Elt Ideal)) : val29 V (no_index (Proc.devRef .tc main_arg0)) = V (Proc.devRef .tc main_arg0) :=
  (st28_keep (val28 V) main_arg0 (by decide)).trans (val28_main_arg0 V)
theorem val29_main_arg1 (V : Valuation τ sig (Elt Ideal)) : val29 V (no_index (Proc.devRef .tc main_arg1)) = V (Proc.devRef .tc main_arg1) :=
  (st28_keep (val28 V) main_arg1 (by decide)).trans (val28_main_arg1 V)
theorem val29_main_arg2 (V : Valuation τ sig (Elt Ideal)) : val29 V (no_index (Proc.devRef .tc main_arg2)) = V (Proc.devRef .tc main_arg2) :=
  (st28_keep (val28 V) main_arg2 (by decide)).trans (val28_main_arg2 V)
theorem val29_main_arg3 (V : Valuation τ sig (Elt Ideal)) : val29 V (no_index (Proc.devRef .tc main_arg3)) = V (Proc.devRef .tc main_arg3) :=
  (st28_keep (val28 V) main_arg3 (by decide)).trans (val28_main_arg3 V)
theorem val29_main_arg4 (V : Valuation τ sig (Elt Ideal)) : val29 V (no_index (Proc.devRef .tc main_arg4)) = V (Proc.devRef .tc main_arg4) :=
  (st28_keep (val28 V) main_arg4 (by decide)).trans (val28_main_arg4 V)
theorem val29_main_arg5 (V : Valuation τ sig (Elt Ideal)) : val29 V (no_index (Proc.devRef .tc main_arg5)) = V (Proc.devRef .tc main_arg5) :=
  (st28_keep (val28 V) main_arg5 (by decide)).trans (val28_main_arg5 V)
theorem val29_main_arg6 (V : Valuation τ sig (Elt Ideal)) : val29 V (no_index (Proc.devRef .tc main_arg6)) = V (Proc.devRef .tc main_arg6) :=
  (st28_keep (val28 V) main_arg6 (by decide)).trans (val28_main_arg6 V)
theorem val29_main_arg7 (V : Valuation τ sig (Elt Ideal)) : val29 V (no_index (Proc.devRef .tc main_arg7)) = V (Proc.devRef .tc main_arg7) :=
  (st28_keep (val28 V) main_arg7 (by decide)).trans (val28_main_arg7 V)
theorem val29_main_arg8 (V : Valuation τ sig (Elt Ideal)) : val29 V (no_index (Proc.devRef .tc main_arg8)) = V (Proc.devRef .tc main_arg8) :=
  (st28_keep (val28 V) main_arg8 (by decide)).trans (val28_main_arg8 V)
theorem val29_main_arg9 (V : Valuation τ sig (Elt Ideal)) : val29 V (no_index (Proc.devRef .tc main_arg9)) = V (Proc.devRef .tc main_arg9) :=
  (st28_keep (val28 V) main_arg9 (by decide)).trans (val28_main_arg9 V)
theorem val29_main_arg10 (V : Valuation τ sig (Elt Ideal)) : val29 V (no_index (Proc.devRef .tc main_arg10)) = V (Proc.devRef .tc main_arg10) :=
  (st28_keep (val28 V) main_arg10 (by decide)).trans (val28_main_arg10 V)
theorem val29_main_arg11 (V : Valuation τ sig (Elt Ideal)) : val29 V (no_index (Proc.devRef .tc main_arg11)) = V (Proc.devRef .tc main_arg11) :=
  (st28_keep (val28 V) main_arg11 (by decide)).trans (val28_main_arg11 V)
theorem val29_main_arg12 (V : Valuation τ sig (Elt Ideal)) : val29 V (no_index (Proc.devRef .tc main_arg12)) = V (Proc.devRef .tc main_arg12) :=
  (st28_keep (val28 V) main_arg12 (by decide)).trans (val28_main_arg12 V)
theorem val29_main_arg13 (V : Valuation τ sig (Elt Ideal)) : val29 V (no_index (Proc.devRef .tc main_arg13)) = V (Proc.devRef .tc main_arg13) :=
  (st28_keep (val28 V) main_arg13 (by decide)).trans (val28_main_arg13 V)
theorem val29_main_arg14 (V : Valuation τ sig (Elt Ideal)) : val29 V (no_index (Proc.devRef .tc main_arg14)) = V (Proc.devRef .tc main_arg14) :=
  (st28_keep (val28 V) main_arg14 (by decide)).trans (val28_main_arg14 V)
theorem val29_main_arg15 (V : Valuation τ sig (Elt Ideal)) : val29 V (no_index (Proc.devRef .tc main_arg15)) = V (Proc.devRef .tc main_arg15) :=
  (st28_keep (val28 V) main_arg15 (by decide)).trans (val28_main_arg15 V)
theorem val29_main_arg16 (V : Valuation τ sig (Elt Ideal)) : val29 V (no_index (Proc.devRef .tc main_arg16)) = V (Proc.devRef .tc main_arg16) :=
  (st28_keep (val28 V) main_arg16 (by decide)).trans (val28_main_arg16 V)
theorem val29_main_arg17 (V : Valuation τ sig (Elt Ideal)) : val29 V (no_index (Proc.devRef .tc main_arg17)) = V (Proc.devRef .tc main_arg17) :=
  (st28_keep (val28 V) main_arg17 (by decide)).trans (val28_main_arg17 V)
theorem val29_main_arg18 (V : Valuation τ sig (Elt Ideal)) : val29 V (no_index (Proc.devRef .tc main_arg18)) = V (Proc.devRef .tc main_arg18) :=
  (st28_keep (val28 V) main_arg18 (by decide)).trans (val28_main_arg18 V)
theorem val29_main_arg19 (V : Valuation τ sig (Elt Ideal)) : val29 V (no_index (Proc.devRef .tc main_arg19)) = V (Proc.devRef .tc main_arg19) :=
  (st28_keep (val28 V) main_arg19 (by decide)).trans (val28_main_arg19 V)
theorem val29_main_arg20 (V : Valuation τ sig (Elt Ideal)) : val29 V (no_index (Proc.devRef .tc main_arg20)) = V (Proc.devRef .tc main_arg20) :=
  (st28_keep (val28 V) main_arg20 (by decide)).trans (val28_main_arg20 V)
theorem val29_main_arg21 (V : Valuation τ sig (Elt Ideal)) : val29 V (no_index (Proc.devRef .tc main_arg21)) = V (Proc.devRef .tc main_arg21) :=
  (st28_keep (val28 V) main_arg21 (by decide)).trans (val28_main_arg21 V)
theorem val29_main_arg22 (V : Valuation τ sig (Elt Ideal)) : val29 V (no_index (Proc.devRef .tc main_arg22)) = V (Proc.devRef .tc main_arg22) :=
  (st28_keep (val28 V) main_arg22 (by decide)).trans (val28_main_arg22 V)
theorem val29_main_arg23 (V : Valuation τ sig (Elt Ideal)) : val29 V (no_index (Proc.devRef .tc main_arg23)) = V (Proc.devRef .tc main_arg23) :=
  (st28_keep (val28 V) main_arg23 (by decide)).trans (val28_main_arg23 V)
theorem val29_main_arg24 (V : Valuation τ sig (Elt Ideal)) : val29 V (no_index (Proc.devRef .tc main_arg24)) = V (Proc.devRef .tc main_arg24) :=
  (st28_keep (val28 V) main_arg24 (by decide)).trans (val28_main_arg24 V)
theorem val29_main_v218 (V : Valuation τ sig (Elt Ideal)) : val29 V (no_index (Proc.devRef .tc main_v218)) = at25 (res_main_v218 (F := Ideal)) V := by
  unfold val29
  rw [st28_main_v218]
  rw [val28_main_v46 V, val28_main_v103 V, val28_main_v160 V, val28_main_v217 V]
  rfl

/-- The contents after the first 30 parts. -/
def val30 (V : Valuation τ sig (Elt Ideal)) : Valuation τ sig (Elt Ideal) := after (st29 (F := Ideal)) (val29 V)
theorem val30_main_arg0 (V : Valuation τ sig (Elt Ideal)) : val30 V (no_index (Proc.devRef .tc main_arg0)) = V (Proc.devRef .tc main_arg0) :=
  (st29_keep (val29 V) main_arg0 (by decide)).trans (val29_main_arg0 V)
theorem val30_main_arg1 (V : Valuation τ sig (Elt Ideal)) : val30 V (no_index (Proc.devRef .tc main_arg1)) = V (Proc.devRef .tc main_arg1) :=
  (st29_keep (val29 V) main_arg1 (by decide)).trans (val29_main_arg1 V)
theorem val30_main_arg2 (V : Valuation τ sig (Elt Ideal)) : val30 V (no_index (Proc.devRef .tc main_arg2)) = V (Proc.devRef .tc main_arg2) :=
  (st29_keep (val29 V) main_arg2 (by decide)).trans (val29_main_arg2 V)
theorem val30_main_arg3 (V : Valuation τ sig (Elt Ideal)) : val30 V (no_index (Proc.devRef .tc main_arg3)) = V (Proc.devRef .tc main_arg3) :=
  (st29_keep (val29 V) main_arg3 (by decide)).trans (val29_main_arg3 V)
theorem val30_main_arg4 (V : Valuation τ sig (Elt Ideal)) : val30 V (no_index (Proc.devRef .tc main_arg4)) = V (Proc.devRef .tc main_arg4) :=
  (st29_keep (val29 V) main_arg4 (by decide)).trans (val29_main_arg4 V)
theorem val30_main_arg5 (V : Valuation τ sig (Elt Ideal)) : val30 V (no_index (Proc.devRef .tc main_arg5)) = V (Proc.devRef .tc main_arg5) :=
  (st29_keep (val29 V) main_arg5 (by decide)).trans (val29_main_arg5 V)
theorem val30_main_arg6 (V : Valuation τ sig (Elt Ideal)) : val30 V (no_index (Proc.devRef .tc main_arg6)) = V (Proc.devRef .tc main_arg6) :=
  (st29_keep (val29 V) main_arg6 (by decide)).trans (val29_main_arg6 V)
theorem val30_main_arg7 (V : Valuation τ sig (Elt Ideal)) : val30 V (no_index (Proc.devRef .tc main_arg7)) = V (Proc.devRef .tc main_arg7) :=
  (st29_keep (val29 V) main_arg7 (by decide)).trans (val29_main_arg7 V)
theorem val30_main_arg8 (V : Valuation τ sig (Elt Ideal)) : val30 V (no_index (Proc.devRef .tc main_arg8)) = V (Proc.devRef .tc main_arg8) :=
  (st29_keep (val29 V) main_arg8 (by decide)).trans (val29_main_arg8 V)
theorem val30_main_arg9 (V : Valuation τ sig (Elt Ideal)) : val30 V (no_index (Proc.devRef .tc main_arg9)) = V (Proc.devRef .tc main_arg9) :=
  (st29_keep (val29 V) main_arg9 (by decide)).trans (val29_main_arg9 V)
theorem val30_main_arg10 (V : Valuation τ sig (Elt Ideal)) : val30 V (no_index (Proc.devRef .tc main_arg10)) = V (Proc.devRef .tc main_arg10) :=
  (st29_keep (val29 V) main_arg10 (by decide)).trans (val29_main_arg10 V)
theorem val30_main_arg11 (V : Valuation τ sig (Elt Ideal)) : val30 V (no_index (Proc.devRef .tc main_arg11)) = V (Proc.devRef .tc main_arg11) :=
  (st29_keep (val29 V) main_arg11 (by decide)).trans (val29_main_arg11 V)
theorem val30_main_arg12 (V : Valuation τ sig (Elt Ideal)) : val30 V (no_index (Proc.devRef .tc main_arg12)) = V (Proc.devRef .tc main_arg12) :=
  (st29_keep (val29 V) main_arg12 (by decide)).trans (val29_main_arg12 V)
theorem val30_main_arg13 (V : Valuation τ sig (Elt Ideal)) : val30 V (no_index (Proc.devRef .tc main_arg13)) = V (Proc.devRef .tc main_arg13) :=
  (st29_keep (val29 V) main_arg13 (by decide)).trans (val29_main_arg13 V)
theorem val30_main_arg14 (V : Valuation τ sig (Elt Ideal)) : val30 V (no_index (Proc.devRef .tc main_arg14)) = V (Proc.devRef .tc main_arg14) :=
  (st29_keep (val29 V) main_arg14 (by decide)).trans (val29_main_arg14 V)
theorem val30_main_arg15 (V : Valuation τ sig (Elt Ideal)) : val30 V (no_index (Proc.devRef .tc main_arg15)) = V (Proc.devRef .tc main_arg15) :=
  (st29_keep (val29 V) main_arg15 (by decide)).trans (val29_main_arg15 V)
theorem val30_main_arg16 (V : Valuation τ sig (Elt Ideal)) : val30 V (no_index (Proc.devRef .tc main_arg16)) = V (Proc.devRef .tc main_arg16) :=
  (st29_keep (val29 V) main_arg16 (by decide)).trans (val29_main_arg16 V)
theorem val30_main_arg17 (V : Valuation τ sig (Elt Ideal)) : val30 V (no_index (Proc.devRef .tc main_arg17)) = V (Proc.devRef .tc main_arg17) :=
  (st29_keep (val29 V) main_arg17 (by decide)).trans (val29_main_arg17 V)
theorem val30_main_arg18 (V : Valuation τ sig (Elt Ideal)) : val30 V (no_index (Proc.devRef .tc main_arg18)) = V (Proc.devRef .tc main_arg18) :=
  (st29_keep (val29 V) main_arg18 (by decide)).trans (val29_main_arg18 V)
theorem val30_main_arg19 (V : Valuation τ sig (Elt Ideal)) : val30 V (no_index (Proc.devRef .tc main_arg19)) = V (Proc.devRef .tc main_arg19) :=
  (st29_keep (val29 V) main_arg19 (by decide)).trans (val29_main_arg19 V)
theorem val30_main_arg20 (V : Valuation τ sig (Elt Ideal)) : val30 V (no_index (Proc.devRef .tc main_arg20)) = V (Proc.devRef .tc main_arg20) :=
  (st29_keep (val29 V) main_arg20 (by decide)).trans (val29_main_arg20 V)
theorem val30_main_arg21 (V : Valuation τ sig (Elt Ideal)) : val30 V (no_index (Proc.devRef .tc main_arg21)) = V (Proc.devRef .tc main_arg21) :=
  (st29_keep (val29 V) main_arg21 (by decide)).trans (val29_main_arg21 V)
theorem val30_main_arg22 (V : Valuation τ sig (Elt Ideal)) : val30 V (no_index (Proc.devRef .tc main_arg22)) = V (Proc.devRef .tc main_arg22) :=
  (st29_keep (val29 V) main_arg22 (by decide)).trans (val29_main_arg22 V)
theorem val30_main_arg23 (V : Valuation τ sig (Elt Ideal)) : val30 V (no_index (Proc.devRef .tc main_arg23)) = V (Proc.devRef .tc main_arg23) :=
  (st29_keep (val29 V) main_arg23 (by decide)).trans (val29_main_arg23 V)
theorem val30_main_arg24 (V : Valuation τ sig (Elt Ideal)) : val30 V (no_index (Proc.devRef .tc main_arg24)) = V (Proc.devRef .tc main_arg24) :=
  (st29_keep (val29 V) main_arg24 (by decide)).trans (val29_main_arg24 V)
theorem val30_main_v221 (V : Valuation τ sig (Elt Ideal)) : val30 V (no_index (Proc.devRef .tc main_v221)) = at25 (res_main_v221 (F := Ideal)) V := by
  unfold val30
  rw [st29_main_v221]
  rw [val29_main_arg2 V, val29_main_v218 V]
  rfl

/-- The contents after the first 31 parts. -/
def val31 (V : Valuation τ sig (Elt Ideal)) : Valuation τ sig (Elt Ideal) := after (st30 (F := Ideal)) (val30 V)
theorem val31_main_arg0 (V : Valuation τ sig (Elt Ideal)) : val31 V (no_index (Proc.devRef .tc main_arg0)) = V (Proc.devRef .tc main_arg0) :=
  (st30_keep (val30 V) main_arg0 (by decide)).trans (val30_main_arg0 V)
theorem val31_main_arg1 (V : Valuation τ sig (Elt Ideal)) : val31 V (no_index (Proc.devRef .tc main_arg1)) = V (Proc.devRef .tc main_arg1) :=
  (st30_keep (val30 V) main_arg1 (by decide)).trans (val30_main_arg1 V)
theorem val31_main_arg2 (V : Valuation τ sig (Elt Ideal)) : val31 V (no_index (Proc.devRef .tc main_arg2)) = V (Proc.devRef .tc main_arg2) :=
  (st30_keep (val30 V) main_arg2 (by decide)).trans (val30_main_arg2 V)
theorem val31_main_arg3 (V : Valuation τ sig (Elt Ideal)) : val31 V (no_index (Proc.devRef .tc main_arg3)) = V (Proc.devRef .tc main_arg3) :=
  (st30_keep (val30 V) main_arg3 (by decide)).trans (val30_main_arg3 V)
theorem val31_main_arg4 (V : Valuation τ sig (Elt Ideal)) : val31 V (no_index (Proc.devRef .tc main_arg4)) = V (Proc.devRef .tc main_arg4) :=
  (st30_keep (val30 V) main_arg4 (by decide)).trans (val30_main_arg4 V)
theorem val31_main_arg5 (V : Valuation τ sig (Elt Ideal)) : val31 V (no_index (Proc.devRef .tc main_arg5)) = V (Proc.devRef .tc main_arg5) :=
  (st30_keep (val30 V) main_arg5 (by decide)).trans (val30_main_arg5 V)
theorem val31_main_arg6 (V : Valuation τ sig (Elt Ideal)) : val31 V (no_index (Proc.devRef .tc main_arg6)) = V (Proc.devRef .tc main_arg6) :=
  (st30_keep (val30 V) main_arg6 (by decide)).trans (val30_main_arg6 V)
theorem val31_main_arg7 (V : Valuation τ sig (Elt Ideal)) : val31 V (no_index (Proc.devRef .tc main_arg7)) = V (Proc.devRef .tc main_arg7) :=
  (st30_keep (val30 V) main_arg7 (by decide)).trans (val30_main_arg7 V)
theorem val31_main_arg8 (V : Valuation τ sig (Elt Ideal)) : val31 V (no_index (Proc.devRef .tc main_arg8)) = V (Proc.devRef .tc main_arg8) :=
  (st30_keep (val30 V) main_arg8 (by decide)).trans (val30_main_arg8 V)
theorem val31_main_arg9 (V : Valuation τ sig (Elt Ideal)) : val31 V (no_index (Proc.devRef .tc main_arg9)) = V (Proc.devRef .tc main_arg9) :=
  (st30_keep (val30 V) main_arg9 (by decide)).trans (val30_main_arg9 V)
theorem val31_main_arg10 (V : Valuation τ sig (Elt Ideal)) : val31 V (no_index (Proc.devRef .tc main_arg10)) = V (Proc.devRef .tc main_arg10) :=
  (st30_keep (val30 V) main_arg10 (by decide)).trans (val30_main_arg10 V)
theorem val31_main_arg11 (V : Valuation τ sig (Elt Ideal)) : val31 V (no_index (Proc.devRef .tc main_arg11)) = V (Proc.devRef .tc main_arg11) :=
  (st30_keep (val30 V) main_arg11 (by decide)).trans (val30_main_arg11 V)
theorem val31_main_arg12 (V : Valuation τ sig (Elt Ideal)) : val31 V (no_index (Proc.devRef .tc main_arg12)) = V (Proc.devRef .tc main_arg12) :=
  (st30_keep (val30 V) main_arg12 (by decide)).trans (val30_main_arg12 V)
theorem val31_main_arg13 (V : Valuation τ sig (Elt Ideal)) : val31 V (no_index (Proc.devRef .tc main_arg13)) = V (Proc.devRef .tc main_arg13) :=
  (st30_keep (val30 V) main_arg13 (by decide)).trans (val30_main_arg13 V)
theorem val31_main_arg14 (V : Valuation τ sig (Elt Ideal)) : val31 V (no_index (Proc.devRef .tc main_arg14)) = V (Proc.devRef .tc main_arg14) :=
  (st30_keep (val30 V) main_arg14 (by decide)).trans (val30_main_arg14 V)
theorem val31_main_arg15 (V : Valuation τ sig (Elt Ideal)) : val31 V (no_index (Proc.devRef .tc main_arg15)) = V (Proc.devRef .tc main_arg15) :=
  (st30_keep (val30 V) main_arg15 (by decide)).trans (val30_main_arg15 V)
theorem val31_main_arg16 (V : Valuation τ sig (Elt Ideal)) : val31 V (no_index (Proc.devRef .tc main_arg16)) = V (Proc.devRef .tc main_arg16) :=
  (st30_keep (val30 V) main_arg16 (by decide)).trans (val30_main_arg16 V)
theorem val31_main_arg17 (V : Valuation τ sig (Elt Ideal)) : val31 V (no_index (Proc.devRef .tc main_arg17)) = V (Proc.devRef .tc main_arg17) :=
  (st30_keep (val30 V) main_arg17 (by decide)).trans (val30_main_arg17 V)
theorem val31_main_arg18 (V : Valuation τ sig (Elt Ideal)) : val31 V (no_index (Proc.devRef .tc main_arg18)) = V (Proc.devRef .tc main_arg18) :=
  (st30_keep (val30 V) main_arg18 (by decide)).trans (val30_main_arg18 V)
theorem val31_main_arg19 (V : Valuation τ sig (Elt Ideal)) : val31 V (no_index (Proc.devRef .tc main_arg19)) = V (Proc.devRef .tc main_arg19) :=
  (st30_keep (val30 V) main_arg19 (by decide)).trans (val30_main_arg19 V)
theorem val31_main_arg20 (V : Valuation τ sig (Elt Ideal)) : val31 V (no_index (Proc.devRef .tc main_arg20)) = V (Proc.devRef .tc main_arg20) :=
  (st30_keep (val30 V) main_arg20 (by decide)).trans (val30_main_arg20 V)
theorem val31_main_arg21 (V : Valuation τ sig (Elt Ideal)) : val31 V (no_index (Proc.devRef .tc main_arg21)) = V (Proc.devRef .tc main_arg21) :=
  (st30_keep (val30 V) main_arg21 (by decide)).trans (val30_main_arg21 V)
theorem val31_main_arg22 (V : Valuation τ sig (Elt Ideal)) : val31 V (no_index (Proc.devRef .tc main_arg22)) = V (Proc.devRef .tc main_arg22) :=
  (st30_keep (val30 V) main_arg22 (by decide)).trans (val30_main_arg22 V)
theorem val31_main_arg23 (V : Valuation τ sig (Elt Ideal)) : val31 V (no_index (Proc.devRef .tc main_arg23)) = V (Proc.devRef .tc main_arg23) :=
  (st30_keep (val30 V) main_arg23 (by decide)).trans (val30_main_arg23 V)
theorem val31_main_arg24 (V : Valuation τ sig (Elt Ideal)) : val31 V (no_index (Proc.devRef .tc main_arg24)) = V (Proc.devRef .tc main_arg24) :=
  (st30_keep (val30 V) main_arg24 (by decide)).trans (val30_main_arg24 V)
theorem val31_main_v221 (V : Valuation τ sig (Elt Ideal)) : val31 V (no_index (Proc.devRef .tc main_v221)) = at25 (res_main_v221 (F := Ideal)) V :=
  (st30_keep (val30 V) main_v221 (by decide)).trans (val30_main_v221 V)
theorem val31_main_v227 (V : Valuation τ sig (Elt Ideal)) : val31 V (no_index (Proc.devRef .tc main_v227)) = at25 (res_main_v227 (F := Ideal)) V := by
  unfold val31
  rw [st30_main_v227]
  rw [val30_main_arg2 V]
  rfl

/-- The contents after the first 32 parts. -/
def val32 (V : Valuation τ sig (Elt Ideal)) : Valuation τ sig (Elt Ideal) := after (st31 (F := Ideal)) (val31 V)
theorem val32_main_arg0 (V : Valuation τ sig (Elt Ideal)) : val32 V (no_index (Proc.devRef .tc main_arg0)) = V (Proc.devRef .tc main_arg0) :=
  (st31_keep (val31 V) main_arg0 (by decide)).trans (val31_main_arg0 V)
theorem val32_main_arg1 (V : Valuation τ sig (Elt Ideal)) : val32 V (no_index (Proc.devRef .tc main_arg1)) = V (Proc.devRef .tc main_arg1) :=
  (st31_keep (val31 V) main_arg1 (by decide)).trans (val31_main_arg1 V)
theorem val32_main_arg2 (V : Valuation τ sig (Elt Ideal)) : val32 V (no_index (Proc.devRef .tc main_arg2)) = V (Proc.devRef .tc main_arg2) :=
  (st31_keep (val31 V) main_arg2 (by decide)).trans (val31_main_arg2 V)
theorem val32_main_arg3 (V : Valuation τ sig (Elt Ideal)) : val32 V (no_index (Proc.devRef .tc main_arg3)) = V (Proc.devRef .tc main_arg3) :=
  (st31_keep (val31 V) main_arg3 (by decide)).trans (val31_main_arg3 V)
theorem val32_main_arg4 (V : Valuation τ sig (Elt Ideal)) : val32 V (no_index (Proc.devRef .tc main_arg4)) = V (Proc.devRef .tc main_arg4) :=
  (st31_keep (val31 V) main_arg4 (by decide)).trans (val31_main_arg4 V)
theorem val32_main_arg5 (V : Valuation τ sig (Elt Ideal)) : val32 V (no_index (Proc.devRef .tc main_arg5)) = V (Proc.devRef .tc main_arg5) :=
  (st31_keep (val31 V) main_arg5 (by decide)).trans (val31_main_arg5 V)
theorem val32_main_arg6 (V : Valuation τ sig (Elt Ideal)) : val32 V (no_index (Proc.devRef .tc main_arg6)) = V (Proc.devRef .tc main_arg6) :=
  (st31_keep (val31 V) main_arg6 (by decide)).trans (val31_main_arg6 V)
theorem val32_main_arg7 (V : Valuation τ sig (Elt Ideal)) : val32 V (no_index (Proc.devRef .tc main_arg7)) = V (Proc.devRef .tc main_arg7) :=
  (st31_keep (val31 V) main_arg7 (by decide)).trans (val31_main_arg7 V)
theorem val32_main_arg8 (V : Valuation τ sig (Elt Ideal)) : val32 V (no_index (Proc.devRef .tc main_arg8)) = V (Proc.devRef .tc main_arg8) :=
  (st31_keep (val31 V) main_arg8 (by decide)).trans (val31_main_arg8 V)
theorem val32_main_arg9 (V : Valuation τ sig (Elt Ideal)) : val32 V (no_index (Proc.devRef .tc main_arg9)) = V (Proc.devRef .tc main_arg9) :=
  (st31_keep (val31 V) main_arg9 (by decide)).trans (val31_main_arg9 V)
theorem val32_main_arg10 (V : Valuation τ sig (Elt Ideal)) : val32 V (no_index (Proc.devRef .tc main_arg10)) = V (Proc.devRef .tc main_arg10) :=
  (st31_keep (val31 V) main_arg10 (by decide)).trans (val31_main_arg10 V)
theorem val32_main_arg11 (V : Valuation τ sig (Elt Ideal)) : val32 V (no_index (Proc.devRef .tc main_arg11)) = V (Proc.devRef .tc main_arg11) :=
  (st31_keep (val31 V) main_arg11 (by decide)).trans (val31_main_arg11 V)
theorem val32_main_arg12 (V : Valuation τ sig (Elt Ideal)) : val32 V (no_index (Proc.devRef .tc main_arg12)) = V (Proc.devRef .tc main_arg12) :=
  (st31_keep (val31 V) main_arg12 (by decide)).trans (val31_main_arg12 V)
theorem val32_main_arg13 (V : Valuation τ sig (Elt Ideal)) : val32 V (no_index (Proc.devRef .tc main_arg13)) = V (Proc.devRef .tc main_arg13) :=
  (st31_keep (val31 V) main_arg13 (by decide)).trans (val31_main_arg13 V)
theorem val32_main_arg14 (V : Valuation τ sig (Elt Ideal)) : val32 V (no_index (Proc.devRef .tc main_arg14)) = V (Proc.devRef .tc main_arg14) :=
  (st31_keep (val31 V) main_arg14 (by decide)).trans (val31_main_arg14 V)
theorem val32_main_arg15 (V : Valuation τ sig (Elt Ideal)) : val32 V (no_index (Proc.devRef .tc main_arg15)) = V (Proc.devRef .tc main_arg15) :=
  (st31_keep (val31 V) main_arg15 (by decide)).trans (val31_main_arg15 V)
theorem val32_main_arg16 (V : Valuation τ sig (Elt Ideal)) : val32 V (no_index (Proc.devRef .tc main_arg16)) = V (Proc.devRef .tc main_arg16) :=
  (st31_keep (val31 V) main_arg16 (by decide)).trans (val31_main_arg16 V)
theorem val32_main_arg17 (V : Valuation τ sig (Elt Ideal)) : val32 V (no_index (Proc.devRef .tc main_arg17)) = V (Proc.devRef .tc main_arg17) :=
  (st31_keep (val31 V) main_arg17 (by decide)).trans (val31_main_arg17 V)
theorem val32_main_arg18 (V : Valuation τ sig (Elt Ideal)) : val32 V (no_index (Proc.devRef .tc main_arg18)) = V (Proc.devRef .tc main_arg18) :=
  (st31_keep (val31 V) main_arg18 (by decide)).trans (val31_main_arg18 V)
theorem val32_main_arg19 (V : Valuation τ sig (Elt Ideal)) : val32 V (no_index (Proc.devRef .tc main_arg19)) = V (Proc.devRef .tc main_arg19) :=
  (st31_keep (val31 V) main_arg19 (by decide)).trans (val31_main_arg19 V)
theorem val32_main_arg20 (V : Valuation τ sig (Elt Ideal)) : val32 V (no_index (Proc.devRef .tc main_arg20)) = V (Proc.devRef .tc main_arg20) :=
  (st31_keep (val31 V) main_arg20 (by decide)).trans (val31_main_arg20 V)
theorem val32_main_arg21 (V : Valuation τ sig (Elt Ideal)) : val32 V (no_index (Proc.devRef .tc main_arg21)) = V (Proc.devRef .tc main_arg21) :=
  (st31_keep (val31 V) main_arg21 (by decide)).trans (val31_main_arg21 V)
theorem val32_main_arg22 (V : Valuation τ sig (Elt Ideal)) : val32 V (no_index (Proc.devRef .tc main_arg22)) = V (Proc.devRef .tc main_arg22) :=
  (st31_keep (val31 V) main_arg22 (by decide)).trans (val31_main_arg22 V)
theorem val32_main_arg23 (V : Valuation τ sig (Elt Ideal)) : val32 V (no_index (Proc.devRef .tc main_arg23)) = V (Proc.devRef .tc main_arg23) :=
  (st31_keep (val31 V) main_arg23 (by decide)).trans (val31_main_arg23 V)
theorem val32_main_arg24 (V : Valuation τ sig (Elt Ideal)) : val32 V (no_index (Proc.devRef .tc main_arg24)) = V (Proc.devRef .tc main_arg24) :=
  (st31_keep (val31 V) main_arg24 (by decide)).trans (val31_main_arg24 V)
theorem val32_main_v230 (V : Valuation τ sig (Elt Ideal)) : val32 V (no_index (Proc.devRef .tc main_v230)) = at25 (res_main_v230 (F := Ideal)) V := by
  unfold val32
  rw [st31_main_v230]
  rw [val31_main_v221 V, val31_main_v227 V]
  rfl

/-- The contents after the first 33 parts. -/
def val33 (V : Valuation τ sig (Elt Ideal)) : Valuation τ sig (Elt Ideal) := after (st32 (F := Ideal)) (val32 V)
theorem val33_main_arg0 (V : Valuation τ sig (Elt Ideal)) : val33 V (no_index (Proc.devRef .tc main_arg0)) = V (Proc.devRef .tc main_arg0) :=
  (st32_keep (val32 V) main_arg0 (by decide)).trans (val32_main_arg0 V)
theorem val33_main_arg1 (V : Valuation τ sig (Elt Ideal)) : val33 V (no_index (Proc.devRef .tc main_arg1)) = V (Proc.devRef .tc main_arg1) :=
  (st32_keep (val32 V) main_arg1 (by decide)).trans (val32_main_arg1 V)
theorem val33_main_arg2 (V : Valuation τ sig (Elt Ideal)) : val33 V (no_index (Proc.devRef .tc main_arg2)) = V (Proc.devRef .tc main_arg2) :=
  (st32_keep (val32 V) main_arg2 (by decide)).trans (val32_main_arg2 V)
theorem val33_main_arg3 (V : Valuation τ sig (Elt Ideal)) : val33 V (no_index (Proc.devRef .tc main_arg3)) = V (Proc.devRef .tc main_arg3) :=
  (st32_keep (val32 V) main_arg3 (by decide)).trans (val32_main_arg3 V)
theorem val33_main_arg4 (V : Valuation τ sig (Elt Ideal)) : val33 V (no_index (Proc.devRef .tc main_arg4)) = V (Proc.devRef .tc main_arg4) :=
  (st32_keep (val32 V) main_arg4 (by decide)).trans (val32_main_arg4 V)
theorem val33_main_arg5 (V : Valuation τ sig (Elt Ideal)) : val33 V (no_index (Proc.devRef .tc main_arg5)) = V (Proc.devRef .tc main_arg5) :=
  (st32_keep (val32 V) main_arg5 (by decide)).trans (val32_main_arg5 V)
theorem val33_main_arg6 (V : Valuation τ sig (Elt Ideal)) : val33 V (no_index (Proc.devRef .tc main_arg6)) = V (Proc.devRef .tc main_arg6) :=
  (st32_keep (val32 V) main_arg6 (by decide)).trans (val32_main_arg6 V)
theorem val33_main_arg7 (V : Valuation τ sig (Elt Ideal)) : val33 V (no_index (Proc.devRef .tc main_arg7)) = V (Proc.devRef .tc main_arg7) :=
  (st32_keep (val32 V) main_arg7 (by decide)).trans (val32_main_arg7 V)
theorem val33_main_arg8 (V : Valuation τ sig (Elt Ideal)) : val33 V (no_index (Proc.devRef .tc main_arg8)) = V (Proc.devRef .tc main_arg8) :=
  (st32_keep (val32 V) main_arg8 (by decide)).trans (val32_main_arg8 V)
theorem val33_main_arg9 (V : Valuation τ sig (Elt Ideal)) : val33 V (no_index (Proc.devRef .tc main_arg9)) = V (Proc.devRef .tc main_arg9) :=
  (st32_keep (val32 V) main_arg9 (by decide)).trans (val32_main_arg9 V)
theorem val33_main_arg10 (V : Valuation τ sig (Elt Ideal)) : val33 V (no_index (Proc.devRef .tc main_arg10)) = V (Proc.devRef .tc main_arg10) :=
  (st32_keep (val32 V) main_arg10 (by decide)).trans (val32_main_arg10 V)
theorem val33_main_arg11 (V : Valuation τ sig (Elt Ideal)) : val33 V (no_index (Proc.devRef .tc main_arg11)) = V (Proc.devRef .tc main_arg11) :=
  (st32_keep (val32 V) main_arg11 (by decide)).trans (val32_main_arg11 V)
theorem val33_main_arg12 (V : Valuation τ sig (Elt Ideal)) : val33 V (no_index (Proc.devRef .tc main_arg12)) = V (Proc.devRef .tc main_arg12) :=
  (st32_keep (val32 V) main_arg12 (by decide)).trans (val32_main_arg12 V)
theorem val33_main_arg13 (V : Valuation τ sig (Elt Ideal)) : val33 V (no_index (Proc.devRef .tc main_arg13)) = V (Proc.devRef .tc main_arg13) :=
  (st32_keep (val32 V) main_arg13 (by decide)).trans (val32_main_arg13 V)
theorem val33_main_arg14 (V : Valuation τ sig (Elt Ideal)) : val33 V (no_index (Proc.devRef .tc main_arg14)) = V (Proc.devRef .tc main_arg14) :=
  (st32_keep (val32 V) main_arg14 (by decide)).trans (val32_main_arg14 V)
theorem val33_main_arg15 (V : Valuation τ sig (Elt Ideal)) : val33 V (no_index (Proc.devRef .tc main_arg15)) = V (Proc.devRef .tc main_arg15) :=
  (st32_keep (val32 V) main_arg15 (by decide)).trans (val32_main_arg15 V)
theorem val33_main_arg16 (V : Valuation τ sig (Elt Ideal)) : val33 V (no_index (Proc.devRef .tc main_arg16)) = V (Proc.devRef .tc main_arg16) :=
  (st32_keep (val32 V) main_arg16 (by decide)).trans (val32_main_arg16 V)
theorem val33_main_arg17 (V : Valuation τ sig (Elt Ideal)) : val33 V (no_index (Proc.devRef .tc main_arg17)) = V (Proc.devRef .tc main_arg17) :=
  (st32_keep (val32 V) main_arg17 (by decide)).trans (val32_main_arg17 V)
theorem val33_main_arg18 (V : Valuation τ sig (Elt Ideal)) : val33 V (no_index (Proc.devRef .tc main_arg18)) = V (Proc.devRef .tc main_arg18) :=
  (st32_keep (val32 V) main_arg18 (by decide)).trans (val32_main_arg18 V)
theorem val33_main_arg19 (V : Valuation τ sig (Elt Ideal)) : val33 V (no_index (Proc.devRef .tc main_arg19)) = V (Proc.devRef .tc main_arg19) :=
  (st32_keep (val32 V) main_arg19 (by decide)).trans (val32_main_arg19 V)
theorem val33_main_arg20 (V : Valuation τ sig (Elt Ideal)) : val33 V (no_index (Proc.devRef .tc main_arg20)) = V (Proc.devRef .tc main_arg20) :=
  (st32_keep (val32 V) main_arg20 (by decide)).trans (val32_main_arg20 V)
theorem val33_main_arg21 (V : Valuation τ sig (Elt Ideal)) : val33 V (no_index (Proc.devRef .tc main_arg21)) = V (Proc.devRef .tc main_arg21) :=
  (st32_keep (val32 V) main_arg21 (by decide)).trans (val32_main_arg21 V)
theorem val33_main_arg22 (V : Valuation τ sig (Elt Ideal)) : val33 V (no_index (Proc.devRef .tc main_arg22)) = V (Proc.devRef .tc main_arg22) :=
  (st32_keep (val32 V) main_arg22 (by decide)).trans (val32_main_arg22 V)
theorem val33_main_arg23 (V : Valuation τ sig (Elt Ideal)) : val33 V (no_index (Proc.devRef .tc main_arg23)) = V (Proc.devRef .tc main_arg23) :=
  (st32_keep (val32 V) main_arg23 (by decide)).trans (val32_main_arg23 V)
theorem val33_main_arg24 (V : Valuation τ sig (Elt Ideal)) : val33 V (no_index (Proc.devRef .tc main_arg24)) = V (Proc.devRef .tc main_arg24) :=
  (st32_keep (val32 V) main_arg24 (by decide)).trans (val32_main_arg24 V)
theorem val33_main_v235 (V : Valuation τ sig (Elt Ideal)) : val33 V (no_index (Proc.devRef .tc main_v235)) = at25 (res_main_v235 (F := Ideal)) V := by
  unfold val33
  rw [st32_main_v235]
  rw [val32_main_v230 V, val32_main_arg17 V, val32_main_arg18 V]
  rfl

/-- The contents after the first 34 parts. -/
def val34 (V : Valuation τ sig (Elt Ideal)) : Valuation τ sig (Elt Ideal) := after (st33 (F := Ideal)) (val33 V)
theorem val34_main_arg0 (V : Valuation τ sig (Elt Ideal)) : val34 V (no_index (Proc.devRef .tc main_arg0)) = V (Proc.devRef .tc main_arg0) :=
  (st33_keep (val33 V) main_arg0 (by decide)).trans (val33_main_arg0 V)
theorem val34_main_arg1 (V : Valuation τ sig (Elt Ideal)) : val34 V (no_index (Proc.devRef .tc main_arg1)) = V (Proc.devRef .tc main_arg1) :=
  (st33_keep (val33 V) main_arg1 (by decide)).trans (val33_main_arg1 V)
theorem val34_main_arg2 (V : Valuation τ sig (Elt Ideal)) : val34 V (no_index (Proc.devRef .tc main_arg2)) = V (Proc.devRef .tc main_arg2) :=
  (st33_keep (val33 V) main_arg2 (by decide)).trans (val33_main_arg2 V)
theorem val34_main_arg3 (V : Valuation τ sig (Elt Ideal)) : val34 V (no_index (Proc.devRef .tc main_arg3)) = V (Proc.devRef .tc main_arg3) :=
  (st33_keep (val33 V) main_arg3 (by decide)).trans (val33_main_arg3 V)
theorem val34_main_arg4 (V : Valuation τ sig (Elt Ideal)) : val34 V (no_index (Proc.devRef .tc main_arg4)) = V (Proc.devRef .tc main_arg4) :=
  (st33_keep (val33 V) main_arg4 (by decide)).trans (val33_main_arg4 V)
theorem val34_main_arg5 (V : Valuation τ sig (Elt Ideal)) : val34 V (no_index (Proc.devRef .tc main_arg5)) = V (Proc.devRef .tc main_arg5) :=
  (st33_keep (val33 V) main_arg5 (by decide)).trans (val33_main_arg5 V)
theorem val34_main_arg6 (V : Valuation τ sig (Elt Ideal)) : val34 V (no_index (Proc.devRef .tc main_arg6)) = V (Proc.devRef .tc main_arg6) :=
  (st33_keep (val33 V) main_arg6 (by decide)).trans (val33_main_arg6 V)
theorem val34_main_arg7 (V : Valuation τ sig (Elt Ideal)) : val34 V (no_index (Proc.devRef .tc main_arg7)) = V (Proc.devRef .tc main_arg7) :=
  (st33_keep (val33 V) main_arg7 (by decide)).trans (val33_main_arg7 V)
theorem val34_main_arg8 (V : Valuation τ sig (Elt Ideal)) : val34 V (no_index (Proc.devRef .tc main_arg8)) = V (Proc.devRef .tc main_arg8) :=
  (st33_keep (val33 V) main_arg8 (by decide)).trans (val33_main_arg8 V)
theorem val34_main_arg9 (V : Valuation τ sig (Elt Ideal)) : val34 V (no_index (Proc.devRef .tc main_arg9)) = V (Proc.devRef .tc main_arg9) :=
  (st33_keep (val33 V) main_arg9 (by decide)).trans (val33_main_arg9 V)
theorem val34_main_arg10 (V : Valuation τ sig (Elt Ideal)) : val34 V (no_index (Proc.devRef .tc main_arg10)) = V (Proc.devRef .tc main_arg10) :=
  (st33_keep (val33 V) main_arg10 (by decide)).trans (val33_main_arg10 V)
theorem val34_main_arg11 (V : Valuation τ sig (Elt Ideal)) : val34 V (no_index (Proc.devRef .tc main_arg11)) = V (Proc.devRef .tc main_arg11) :=
  (st33_keep (val33 V) main_arg11 (by decide)).trans (val33_main_arg11 V)
theorem val34_main_arg12 (V : Valuation τ sig (Elt Ideal)) : val34 V (no_index (Proc.devRef .tc main_arg12)) = V (Proc.devRef .tc main_arg12) :=
  (st33_keep (val33 V) main_arg12 (by decide)).trans (val33_main_arg12 V)
theorem val34_main_arg13 (V : Valuation τ sig (Elt Ideal)) : val34 V (no_index (Proc.devRef .tc main_arg13)) = V (Proc.devRef .tc main_arg13) :=
  (st33_keep (val33 V) main_arg13 (by decide)).trans (val33_main_arg13 V)
theorem val34_main_arg14 (V : Valuation τ sig (Elt Ideal)) : val34 V (no_index (Proc.devRef .tc main_arg14)) = V (Proc.devRef .tc main_arg14) :=
  (st33_keep (val33 V) main_arg14 (by decide)).trans (val33_main_arg14 V)
theorem val34_main_arg15 (V : Valuation τ sig (Elt Ideal)) : val34 V (no_index (Proc.devRef .tc main_arg15)) = V (Proc.devRef .tc main_arg15) :=
  (st33_keep (val33 V) main_arg15 (by decide)).trans (val33_main_arg15 V)
theorem val34_main_arg16 (V : Valuation τ sig (Elt Ideal)) : val34 V (no_index (Proc.devRef .tc main_arg16)) = V (Proc.devRef .tc main_arg16) :=
  (st33_keep (val33 V) main_arg16 (by decide)).trans (val33_main_arg16 V)
theorem val34_main_arg17 (V : Valuation τ sig (Elt Ideal)) : val34 V (no_index (Proc.devRef .tc main_arg17)) = V (Proc.devRef .tc main_arg17) :=
  (st33_keep (val33 V) main_arg17 (by decide)).trans (val33_main_arg17 V)
theorem val34_main_arg18 (V : Valuation τ sig (Elt Ideal)) : val34 V (no_index (Proc.devRef .tc main_arg18)) = V (Proc.devRef .tc main_arg18) :=
  (st33_keep (val33 V) main_arg18 (by decide)).trans (val33_main_arg18 V)
theorem val34_main_arg19 (V : Valuation τ sig (Elt Ideal)) : val34 V (no_index (Proc.devRef .tc main_arg19)) = V (Proc.devRef .tc main_arg19) :=
  (st33_keep (val33 V) main_arg19 (by decide)).trans (val33_main_arg19 V)
theorem val34_main_arg20 (V : Valuation τ sig (Elt Ideal)) : val34 V (no_index (Proc.devRef .tc main_arg20)) = V (Proc.devRef .tc main_arg20) :=
  (st33_keep (val33 V) main_arg20 (by decide)).trans (val33_main_arg20 V)
theorem val34_main_arg21 (V : Valuation τ sig (Elt Ideal)) : val34 V (no_index (Proc.devRef .tc main_arg21)) = V (Proc.devRef .tc main_arg21) :=
  (st33_keep (val33 V) main_arg21 (by decide)).trans (val33_main_arg21 V)
theorem val34_main_arg22 (V : Valuation τ sig (Elt Ideal)) : val34 V (no_index (Proc.devRef .tc main_arg22)) = V (Proc.devRef .tc main_arg22) :=
  (st33_keep (val33 V) main_arg22 (by decide)).trans (val33_main_arg22 V)
theorem val34_main_arg23 (V : Valuation τ sig (Elt Ideal)) : val34 V (no_index (Proc.devRef .tc main_arg23)) = V (Proc.devRef .tc main_arg23) :=
  (st33_keep (val33 V) main_arg23 (by decide)).trans (val33_main_arg23 V)
theorem val34_main_arg24 (V : Valuation τ sig (Elt Ideal)) : val34 V (no_index (Proc.devRef .tc main_arg24)) = V (Proc.devRef .tc main_arg24) :=
  (st33_keep (val33 V) main_arg24 (by decide)).trans (val33_main_arg24 V)
theorem val34_main_v240 (V : Valuation τ sig (Elt Ideal)) : val34 V (no_index (Proc.devRef .tc main_v240)) = at25 (res_main_v240 (F := Ideal)) V := by
  unfold val34
  rw [st33_main_v240]
  rw [val33_main_v235 V, val33_main_arg19 V, val33_main_arg20 V]
  rfl

/-- The contents after the first 35 parts. -/
def val35 (V : Valuation τ sig (Elt Ideal)) : Valuation τ sig (Elt Ideal) := after (st34 (F := Ideal)) (val34 V)
theorem val35_main_arg0 (V : Valuation τ sig (Elt Ideal)) : val35 V (no_index (Proc.devRef .tc main_arg0)) = V (Proc.devRef .tc main_arg0) :=
  (st34_keep (val34 V) main_arg0 (by decide)).trans (val34_main_arg0 V)
theorem val35_main_arg1 (V : Valuation τ sig (Elt Ideal)) : val35 V (no_index (Proc.devRef .tc main_arg1)) = V (Proc.devRef .tc main_arg1) :=
  (st34_keep (val34 V) main_arg1 (by decide)).trans (val34_main_arg1 V)
theorem val35_main_arg2 (V : Valuation τ sig (Elt Ideal)) : val35 V (no_index (Proc.devRef .tc main_arg2)) = V (Proc.devRef .tc main_arg2) :=
  (st34_keep (val34 V) main_arg2 (by decide)).trans (val34_main_arg2 V)
theorem val35_main_arg3 (V : Valuation τ sig (Elt Ideal)) : val35 V (no_index (Proc.devRef .tc main_arg3)) = V (Proc.devRef .tc main_arg3) :=
  (st34_keep (val34 V) main_arg3 (by decide)).trans (val34_main_arg3 V)
theorem val35_main_arg4 (V : Valuation τ sig (Elt Ideal)) : val35 V (no_index (Proc.devRef .tc main_arg4)) = V (Proc.devRef .tc main_arg4) :=
  (st34_keep (val34 V) main_arg4 (by decide)).trans (val34_main_arg4 V)
theorem val35_main_arg5 (V : Valuation τ sig (Elt Ideal)) : val35 V (no_index (Proc.devRef .tc main_arg5)) = V (Proc.devRef .tc main_arg5) :=
  (st34_keep (val34 V) main_arg5 (by decide)).trans (val34_main_arg5 V)
theorem val35_main_arg6 (V : Valuation τ sig (Elt Ideal)) : val35 V (no_index (Proc.devRef .tc main_arg6)) = V (Proc.devRef .tc main_arg6) :=
  (st34_keep (val34 V) main_arg6 (by decide)).trans (val34_main_arg6 V)
theorem val35_main_arg7 (V : Valuation τ sig (Elt Ideal)) : val35 V (no_index (Proc.devRef .tc main_arg7)) = V (Proc.devRef .tc main_arg7) :=
  (st34_keep (val34 V) main_arg7 (by decide)).trans (val34_main_arg7 V)
theorem val35_main_arg8 (V : Valuation τ sig (Elt Ideal)) : val35 V (no_index (Proc.devRef .tc main_arg8)) = V (Proc.devRef .tc main_arg8) :=
  (st34_keep (val34 V) main_arg8 (by decide)).trans (val34_main_arg8 V)
theorem val35_main_arg9 (V : Valuation τ sig (Elt Ideal)) : val35 V (no_index (Proc.devRef .tc main_arg9)) = V (Proc.devRef .tc main_arg9) :=
  (st34_keep (val34 V) main_arg9 (by decide)).trans (val34_main_arg9 V)
theorem val35_main_arg10 (V : Valuation τ sig (Elt Ideal)) : val35 V (no_index (Proc.devRef .tc main_arg10)) = V (Proc.devRef .tc main_arg10) :=
  (st34_keep (val34 V) main_arg10 (by decide)).trans (val34_main_arg10 V)
theorem val35_main_arg11 (V : Valuation τ sig (Elt Ideal)) : val35 V (no_index (Proc.devRef .tc main_arg11)) = V (Proc.devRef .tc main_arg11) :=
  (st34_keep (val34 V) main_arg11 (by decide)).trans (val34_main_arg11 V)
theorem val35_main_arg12 (V : Valuation τ sig (Elt Ideal)) : val35 V (no_index (Proc.devRef .tc main_arg12)) = V (Proc.devRef .tc main_arg12) :=
  (st34_keep (val34 V) main_arg12 (by decide)).trans (val34_main_arg12 V)
theorem val35_main_arg13 (V : Valuation τ sig (Elt Ideal)) : val35 V (no_index (Proc.devRef .tc main_arg13)) = V (Proc.devRef .tc main_arg13) :=
  (st34_keep (val34 V) main_arg13 (by decide)).trans (val34_main_arg13 V)
theorem val35_main_arg14 (V : Valuation τ sig (Elt Ideal)) : val35 V (no_index (Proc.devRef .tc main_arg14)) = V (Proc.devRef .tc main_arg14) :=
  (st34_keep (val34 V) main_arg14 (by decide)).trans (val34_main_arg14 V)
theorem val35_main_arg15 (V : Valuation τ sig (Elt Ideal)) : val35 V (no_index (Proc.devRef .tc main_arg15)) = V (Proc.devRef .tc main_arg15) :=
  (st34_keep (val34 V) main_arg15 (by decide)).trans (val34_main_arg15 V)
theorem val35_main_arg16 (V : Valuation τ sig (Elt Ideal)) : val35 V (no_index (Proc.devRef .tc main_arg16)) = V (Proc.devRef .tc main_arg16) :=
  (st34_keep (val34 V) main_arg16 (by decide)).trans (val34_main_arg16 V)
theorem val35_main_arg17 (V : Valuation τ sig (Elt Ideal)) : val35 V (no_index (Proc.devRef .tc main_arg17)) = V (Proc.devRef .tc main_arg17) :=
  (st34_keep (val34 V) main_arg17 (by decide)).trans (val34_main_arg17 V)
theorem val35_main_arg18 (V : Valuation τ sig (Elt Ideal)) : val35 V (no_index (Proc.devRef .tc main_arg18)) = V (Proc.devRef .tc main_arg18) :=
  (st34_keep (val34 V) main_arg18 (by decide)).trans (val34_main_arg18 V)
theorem val35_main_arg19 (V : Valuation τ sig (Elt Ideal)) : val35 V (no_index (Proc.devRef .tc main_arg19)) = V (Proc.devRef .tc main_arg19) :=
  (st34_keep (val34 V) main_arg19 (by decide)).trans (val34_main_arg19 V)
theorem val35_main_arg20 (V : Valuation τ sig (Elt Ideal)) : val35 V (no_index (Proc.devRef .tc main_arg20)) = V (Proc.devRef .tc main_arg20) :=
  (st34_keep (val34 V) main_arg20 (by decide)).trans (val34_main_arg20 V)
theorem val35_main_arg21 (V : Valuation τ sig (Elt Ideal)) : val35 V (no_index (Proc.devRef .tc main_arg21)) = V (Proc.devRef .tc main_arg21) :=
  (st34_keep (val34 V) main_arg21 (by decide)).trans (val34_main_arg21 V)
theorem val35_main_arg22 (V : Valuation τ sig (Elt Ideal)) : val35 V (no_index (Proc.devRef .tc main_arg22)) = V (Proc.devRef .tc main_arg22) :=
  (st34_keep (val34 V) main_arg22 (by decide)).trans (val34_main_arg22 V)
theorem val35_main_arg23 (V : Valuation τ sig (Elt Ideal)) : val35 V (no_index (Proc.devRef .tc main_arg23)) = V (Proc.devRef .tc main_arg23) :=
  (st34_keep (val34 V) main_arg23 (by decide)).trans (val34_main_arg23 V)
theorem val35_main_arg24 (V : Valuation τ sig (Elt Ideal)) : val35 V (no_index (Proc.devRef .tc main_arg24)) = V (Proc.devRef .tc main_arg24) :=
  (st34_keep (val34 V) main_arg24 (by decide)).trans (val34_main_arg24 V)
theorem val35_main_v245 (V : Valuation τ sig (Elt Ideal)) : val35 V (no_index (Proc.devRef .tc main_v245)) = at25 (res_main_v245 (F := Ideal)) V := by
  unfold val35
  rw [st34_main_v245]
  rw [val34_main_v240 V, val34_main_arg21 V, val34_main_arg22 V]
  rfl

/-- The contents after the first 36 parts. -/
def val36 (V : Valuation τ sig (Elt Ideal)) : Valuation τ sig (Elt Ideal) := after (st35 (F := Ideal)) (val35 V)
theorem val36_main_arg0 (V : Valuation τ sig (Elt Ideal)) : val36 V (no_index (Proc.devRef .tc main_arg0)) = V (Proc.devRef .tc main_arg0) :=
  (st35_keep (val35 V) main_arg0 (by decide)).trans (val35_main_arg0 V)
theorem val36_main_arg1 (V : Valuation τ sig (Elt Ideal)) : val36 V (no_index (Proc.devRef .tc main_arg1)) = V (Proc.devRef .tc main_arg1) :=
  (st35_keep (val35 V) main_arg1 (by decide)).trans (val35_main_arg1 V)
theorem val36_main_arg2 (V : Valuation τ sig (Elt Ideal)) : val36 V (no_index (Proc.devRef .tc main_arg2)) = V (Proc.devRef .tc main_arg2) :=
  (st35_keep (val35 V) main_arg2 (by decide)).trans (val35_main_arg2 V)
theorem val36_main_arg3 (V : Valuation τ sig (Elt Ideal)) : val36 V (no_index (Proc.devRef .tc main_arg3)) = V (Proc.devRef .tc main_arg3) :=
  (st35_keep (val35 V) main_arg3 (by decide)).trans (val35_main_arg3 V)
theorem val36_main_arg4 (V : Valuation τ sig (Elt Ideal)) : val36 V (no_index (Proc.devRef .tc main_arg4)) = V (Proc.devRef .tc main_arg4) :=
  (st35_keep (val35 V) main_arg4 (by decide)).trans (val35_main_arg4 V)
theorem val36_main_arg5 (V : Valuation τ sig (Elt Ideal)) : val36 V (no_index (Proc.devRef .tc main_arg5)) = V (Proc.devRef .tc main_arg5) :=
  (st35_keep (val35 V) main_arg5 (by decide)).trans (val35_main_arg5 V)
theorem val36_main_arg6 (V : Valuation τ sig (Elt Ideal)) : val36 V (no_index (Proc.devRef .tc main_arg6)) = V (Proc.devRef .tc main_arg6) :=
  (st35_keep (val35 V) main_arg6 (by decide)).trans (val35_main_arg6 V)
theorem val36_main_arg7 (V : Valuation τ sig (Elt Ideal)) : val36 V (no_index (Proc.devRef .tc main_arg7)) = V (Proc.devRef .tc main_arg7) :=
  (st35_keep (val35 V) main_arg7 (by decide)).trans (val35_main_arg7 V)
theorem val36_main_arg8 (V : Valuation τ sig (Elt Ideal)) : val36 V (no_index (Proc.devRef .tc main_arg8)) = V (Proc.devRef .tc main_arg8) :=
  (st35_keep (val35 V) main_arg8 (by decide)).trans (val35_main_arg8 V)
theorem val36_main_arg9 (V : Valuation τ sig (Elt Ideal)) : val36 V (no_index (Proc.devRef .tc main_arg9)) = V (Proc.devRef .tc main_arg9) :=
  (st35_keep (val35 V) main_arg9 (by decide)).trans (val35_main_arg9 V)
theorem val36_main_arg10 (V : Valuation τ sig (Elt Ideal)) : val36 V (no_index (Proc.devRef .tc main_arg10)) = V (Proc.devRef .tc main_arg10) :=
  (st35_keep (val35 V) main_arg10 (by decide)).trans (val35_main_arg10 V)
theorem val36_main_arg11 (V : Valuation τ sig (Elt Ideal)) : val36 V (no_index (Proc.devRef .tc main_arg11)) = V (Proc.devRef .tc main_arg11) :=
  (st35_keep (val35 V) main_arg11 (by decide)).trans (val35_main_arg11 V)
theorem val36_main_arg12 (V : Valuation τ sig (Elt Ideal)) : val36 V (no_index (Proc.devRef .tc main_arg12)) = V (Proc.devRef .tc main_arg12) :=
  (st35_keep (val35 V) main_arg12 (by decide)).trans (val35_main_arg12 V)
theorem val36_main_arg13 (V : Valuation τ sig (Elt Ideal)) : val36 V (no_index (Proc.devRef .tc main_arg13)) = V (Proc.devRef .tc main_arg13) :=
  (st35_keep (val35 V) main_arg13 (by decide)).trans (val35_main_arg13 V)
theorem val36_main_arg14 (V : Valuation τ sig (Elt Ideal)) : val36 V (no_index (Proc.devRef .tc main_arg14)) = V (Proc.devRef .tc main_arg14) :=
  (st35_keep (val35 V) main_arg14 (by decide)).trans (val35_main_arg14 V)
theorem val36_main_arg15 (V : Valuation τ sig (Elt Ideal)) : val36 V (no_index (Proc.devRef .tc main_arg15)) = V (Proc.devRef .tc main_arg15) :=
  (st35_keep (val35 V) main_arg15 (by decide)).trans (val35_main_arg15 V)
theorem val36_main_arg16 (V : Valuation τ sig (Elt Ideal)) : val36 V (no_index (Proc.devRef .tc main_arg16)) = V (Proc.devRef .tc main_arg16) :=
  (st35_keep (val35 V) main_arg16 (by decide)).trans (val35_main_arg16 V)
theorem val36_main_arg17 (V : Valuation τ sig (Elt Ideal)) : val36 V (no_index (Proc.devRef .tc main_arg17)) = V (Proc.devRef .tc main_arg17) :=
  (st35_keep (val35 V) main_arg17 (by decide)).trans (val35_main_arg17 V)
theorem val36_main_arg18 (V : Valuation τ sig (Elt Ideal)) : val36 V (no_index (Proc.devRef .tc main_arg18)) = V (Proc.devRef .tc main_arg18) :=
  (st35_keep (val35 V) main_arg18 (by decide)).trans (val35_main_arg18 V)
theorem val36_main_arg19 (V : Valuation τ sig (Elt Ideal)) : val36 V (no_index (Proc.devRef .tc main_arg19)) = V (Proc.devRef .tc main_arg19) :=
  (st35_keep (val35 V) main_arg19 (by decide)).trans (val35_main_arg19 V)
theorem val36_main_arg20 (V : Valuation τ sig (Elt Ideal)) : val36 V (no_index (Proc.devRef .tc main_arg20)) = V (Proc.devRef .tc main_arg20) :=
  (st35_keep (val35 V) main_arg20 (by decide)).trans (val35_main_arg20 V)
theorem val36_main_arg21 (V : Valuation τ sig (Elt Ideal)) : val36 V (no_index (Proc.devRef .tc main_arg21)) = V (Proc.devRef .tc main_arg21) :=
  (st35_keep (val35 V) main_arg21 (by decide)).trans (val35_main_arg21 V)
theorem val36_main_arg22 (V : Valuation τ sig (Elt Ideal)) : val36 V (no_index (Proc.devRef .tc main_arg22)) = V (Proc.devRef .tc main_arg22) :=
  (st35_keep (val35 V) main_arg22 (by decide)).trans (val35_main_arg22 V)
theorem val36_main_arg23 (V : Valuation τ sig (Elt Ideal)) : val36 V (no_index (Proc.devRef .tc main_arg23)) = V (Proc.devRef .tc main_arg23) :=
  (st35_keep (val35 V) main_arg23 (by decide)).trans (val35_main_arg23 V)
theorem val36_main_arg24 (V : Valuation τ sig (Elt Ideal)) : val36 V (no_index (Proc.devRef .tc main_arg24)) = V (Proc.devRef .tc main_arg24) :=
  (st35_keep (val35 V) main_arg24 (by decide)).trans (val35_main_arg24 V)
theorem val36_main_v249 (V : Valuation τ sig (Elt Ideal)) : val36 V (no_index (Proc.devRef .tc main_v249)) = at25 (res_main_v249 (F := Ideal)) V := by
  unfold val36
  rw [st35_main_v249]
  rw [val35_main_v245 V, val35_main_arg23 V, val35_main_arg24 V]
  rfl

/-- The contents after the first 37 parts. -/
def val37 (V : Valuation τ sig (Elt Ideal)) : Valuation τ sig (Elt Ideal) := after (st36 (F := Ideal)) (val36 V)
theorem val37_main_arg0 (V : Valuation τ sig (Elt Ideal)) : val37 V (no_index (Proc.devRef .tc main_arg0)) = V (Proc.devRef .tc main_arg0) :=
  (st36_keep (val36 V) main_arg0 (by decide)).trans (val36_main_arg0 V)
theorem val37_main_arg1 (V : Valuation τ sig (Elt Ideal)) : val37 V (no_index (Proc.devRef .tc main_arg1)) = V (Proc.devRef .tc main_arg1) :=
  (st36_keep (val36 V) main_arg1 (by decide)).trans (val36_main_arg1 V)
theorem val37_main_arg2 (V : Valuation τ sig (Elt Ideal)) : val37 V (no_index (Proc.devRef .tc main_arg2)) = V (Proc.devRef .tc main_arg2) :=
  (st36_keep (val36 V) main_arg2 (by decide)).trans (val36_main_arg2 V)
theorem val37_main_arg3 (V : Valuation τ sig (Elt Ideal)) : val37 V (no_index (Proc.devRef .tc main_arg3)) = V (Proc.devRef .tc main_arg3) :=
  (st36_keep (val36 V) main_arg3 (by decide)).trans (val36_main_arg3 V)
theorem val37_main_arg4 (V : Valuation τ sig (Elt Ideal)) : val37 V (no_index (Proc.devRef .tc main_arg4)) = V (Proc.devRef .tc main_arg4) :=
  (st36_keep (val36 V) main_arg4 (by decide)).trans (val36_main_arg4 V)
theorem val37_main_arg5 (V : Valuation τ sig (Elt Ideal)) : val37 V (no_index (Proc.devRef .tc main_arg5)) = V (Proc.devRef .tc main_arg5) :=
  (st36_keep (val36 V) main_arg5 (by decide)).trans (val36_main_arg5 V)
theorem val37_main_arg6 (V : Valuation τ sig (Elt Ideal)) : val37 V (no_index (Proc.devRef .tc main_arg6)) = V (Proc.devRef .tc main_arg6) :=
  (st36_keep (val36 V) main_arg6 (by decide)).trans (val36_main_arg6 V)
theorem val37_main_arg7 (V : Valuation τ sig (Elt Ideal)) : val37 V (no_index (Proc.devRef .tc main_arg7)) = V (Proc.devRef .tc main_arg7) :=
  (st36_keep (val36 V) main_arg7 (by decide)).trans (val36_main_arg7 V)
theorem val37_main_arg8 (V : Valuation τ sig (Elt Ideal)) : val37 V (no_index (Proc.devRef .tc main_arg8)) = V (Proc.devRef .tc main_arg8) :=
  (st36_keep (val36 V) main_arg8 (by decide)).trans (val36_main_arg8 V)
theorem val37_main_arg9 (V : Valuation τ sig (Elt Ideal)) : val37 V (no_index (Proc.devRef .tc main_arg9)) = V (Proc.devRef .tc main_arg9) :=
  (st36_keep (val36 V) main_arg9 (by decide)).trans (val36_main_arg9 V)
theorem val37_main_arg10 (V : Valuation τ sig (Elt Ideal)) : val37 V (no_index (Proc.devRef .tc main_arg10)) = V (Proc.devRef .tc main_arg10) :=
  (st36_keep (val36 V) main_arg10 (by decide)).trans (val36_main_arg10 V)
theorem val37_main_arg11 (V : Valuation τ sig (Elt Ideal)) : val37 V (no_index (Proc.devRef .tc main_arg11)) = V (Proc.devRef .tc main_arg11) :=
  (st36_keep (val36 V) main_arg11 (by decide)).trans (val36_main_arg11 V)
theorem val37_main_arg12 (V : Valuation τ sig (Elt Ideal)) : val37 V (no_index (Proc.devRef .tc main_arg12)) = V (Proc.devRef .tc main_arg12) :=
  (st36_keep (val36 V) main_arg12 (by decide)).trans (val36_main_arg12 V)
theorem val37_main_arg13 (V : Valuation τ sig (Elt Ideal)) : val37 V (no_index (Proc.devRef .tc main_arg13)) = V (Proc.devRef .tc main_arg13) :=
  (st36_keep (val36 V) main_arg13 (by decide)).trans (val36_main_arg13 V)
theorem val37_main_arg14 (V : Valuation τ sig (Elt Ideal)) : val37 V (no_index (Proc.devRef .tc main_arg14)) = V (Proc.devRef .tc main_arg14) :=
  (st36_keep (val36 V) main_arg14 (by decide)).trans (val36_main_arg14 V)
theorem val37_main_arg15 (V : Valuation τ sig (Elt Ideal)) : val37 V (no_index (Proc.devRef .tc main_arg15)) = V (Proc.devRef .tc main_arg15) :=
  (st36_keep (val36 V) main_arg15 (by decide)).trans (val36_main_arg15 V)
theorem val37_main_arg16 (V : Valuation τ sig (Elt Ideal)) : val37 V (no_index (Proc.devRef .tc main_arg16)) = V (Proc.devRef .tc main_arg16) :=
  (st36_keep (val36 V) main_arg16 (by decide)).trans (val36_main_arg16 V)
theorem val37_main_arg17 (V : Valuation τ sig (Elt Ideal)) : val37 V (no_index (Proc.devRef .tc main_arg17)) = V (Proc.devRef .tc main_arg17) :=
  (st36_keep (val36 V) main_arg17 (by decide)).trans (val36_main_arg17 V)
theorem val37_main_arg18 (V : Valuation τ sig (Elt Ideal)) : val37 V (no_index (Proc.devRef .tc main_arg18)) = V (Proc.devRef .tc main_arg18) :=
  (st36_keep (val36 V) main_arg18 (by decide)).trans (val36_main_arg18 V)
theorem val37_main_arg19 (V : Valuation τ sig (Elt Ideal)) : val37 V (no_index (Proc.devRef .tc main_arg19)) = V (Proc.devRef .tc main_arg19) :=
  (st36_keep (val36 V) main_arg19 (by decide)).trans (val36_main_arg19 V)
theorem val37_main_arg20 (V : Valuation τ sig (Elt Ideal)) : val37 V (no_index (Proc.devRef .tc main_arg20)) = V (Proc.devRef .tc main_arg20) :=
  (st36_keep (val36 V) main_arg20 (by decide)).trans (val36_main_arg20 V)
theorem val37_main_arg21 (V : Valuation τ sig (Elt Ideal)) : val37 V (no_index (Proc.devRef .tc main_arg21)) = V (Proc.devRef .tc main_arg21) :=
  (st36_keep (val36 V) main_arg21 (by decide)).trans (val36_main_arg21 V)
theorem val37_main_arg22 (V : Valuation τ sig (Elt Ideal)) : val37 V (no_index (Proc.devRef .tc main_arg22)) = V (Proc.devRef .tc main_arg22) :=
  (st36_keep (val36 V) main_arg22 (by decide)).trans (val36_main_arg22 V)
theorem val37_main_arg23 (V : Valuation τ sig (Elt Ideal)) : val37 V (no_index (Proc.devRef .tc main_arg23)) = V (Proc.devRef .tc main_arg23) :=
  (st36_keep (val36 V) main_arg23 (by decide)).trans (val36_main_arg23 V)
theorem val37_main_arg24 (V : Valuation τ sig (Elt Ideal)) : val37 V (no_index (Proc.devRef .tc main_arg24)) = V (Proc.devRef .tc main_arg24) :=
  (st36_keep (val36 V) main_arg24 (by decide)).trans (val36_main_arg24 V)
theorem val37_main_v250 (V : Valuation τ sig (Elt Ideal)) : val37 V (no_index (Proc.devRef .tc main_v250)) = at25 (res_main_v250 (F := Ideal)) V := by
  unfold val37
  rw [st36_main_v250]
  rw [val36_main_v249 V]
  rfl

end Cert.ReferenceIdeal.RefRun

end
-- ==== Proof.RefRunMain.lean ====
/- The reference's @main as a list of its host operations, the outlined functions' operations listed at their calls
   over the calls' buffers: the program is the list run in order, every operation's buffers are TensorCore buffers, and
   nothing is scoped. -/
import proofs.«168812_j9088150798767_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of statements window 0 of @main. -/
abbrev part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.nullary main_cst (constant S_ .f32 0x00000000#32),
    StableHlo.unary main_cst main_v11 (broadcastInDim S100000x16 ![] bcast_S_S100000x16 : (⟨S_, .f32⟩ : BufTy).Contents (Elt F) → (⟨S100000x16, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    StableHlo.nullary main_cst_1 (constant S_ .f32 0x3F800000#32),
    StableHlo.binary main_cst_1 main_arg9 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S100000x16 ![] bcast_S_S100000x16 : (⟨S_, .f32⟩ : BufTy).Contents (Elt F) → (⟨S100000x16, .f32⟩ : BufTy).Contents (Elt F)),
    StableHlo.binary main_v15 main_arg0 main_v16 (mulf : (⟨S100000x16, .f32⟩ : BufTy).Contents (Elt F) → (⟨S100000x16, .f32⟩ : BufTy).Contents (Elt F) → (⟨S100000x16, .f32⟩ : BufTy).Contents (Elt F)),
    StableHlo.binary main_v16 main_v13 main_v17 (addf : (⟨S100000x16, .f32⟩ : BufTy).Contents (Elt F) → (⟨S100000x16, .f32⟩ : BufTy).Contents (Elt F) → (⟨S100000x16, .f32⟩ : BufTy).Contents (Elt F)),
    StableHlo.binary main_v17 main_arg3 main_v18 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v21 : StableHlo.TRef sig ⟨S100000x128, .f32⟩) main_call0.v0 main_call0.v1 maximumf,
    StableHlo.binary main_v22 main_arg5 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v26 : StableHlo.TRef sig ⟨S100000x128, .f32⟩) main_call1.v0 main_call1.v1 maximumf,
    StableHlo.nullary main_cst_2 (constant S_ .f32 0x00000000#32),
    StableHlo.binary main_v27 main_cst_2 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (.of main_v27 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v27 : StableHlo.TRef sig ⟨S100000x128, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v33 main_v34 (subf : (⟨S100000x128, .f32⟩ : BufTy).Contents (Elt F) → (⟨S100000x128, .f32⟩ : BufTy).Contents (Elt F) → (⟨S100000x128, .f32⟩ : BufTy).Contents (Elt F)),
    StableHlo.unary main_arg7 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v34 main_v37 (mulf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v38 (broadcastInDim S128 ![] bcast_S_S128 : (⟨S_, .f32⟩ : BufTy).Contents (Elt F) → (⟨S128, .f32⟩ : BufTy).Contents (Elt F)),
    StableHlo.binary main_v31 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_arg8 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.unary main_arg16 main_v47 ((extractStridedSlice S1 ![0] · slices_S3_S1_0) : (⟨S3, .f32⟩ : BufTy).Contents (Elt F) → (⟨S1, .f32⟩ : BufTy).Contents (Elt F)),
    StableHlo.reshape main_v47 main_v48 rfl shapeCasts_S1_S_,
    StableHlo.unary main_arg10 main_v49 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v49 main_v50 rfl shapeCasts_S1x128x128_S128x128,
    StableHlo.unary main_arg11 main_v51 ((extractStridedSlice S1x128 ![0, 0] · slices_S3x128_S1x128_0_0) : (⟨S3x128, .f32⟩ : BufTy).Contents (Elt F) → (⟨S1x128, .f32⟩ : BufTy).Contents (Elt F)) ]

set_option maxRecDepth 8192 in
theorem part0_sub : (part0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub ..⟩

set_option maxRecDepth 8192 in
set_option maxHeartbeats 4000000 in
theorem main_part0_eq (c : Dev nD) : main_part0 (F := F) c = seq part0 := by
  simp only [main_part0, fn_relu.body, fn_var.body, fn_where.body, fn_relu_0.body, fn_relu_1.body, fn_log_softmax.body, seq, bind_assoc, pure_bind]
  first | done | rfl

/-- The operations of statements window 1 of @main. -/
abbrev part1 : List (HloOp τ sig (Elt F)) :=
  [ StableHlo.reshape main_v51 main_v52 rfl shapeCasts_S1x128_S128,
    StableHlo.unary main_arg12 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v53 main_v54 rfl shapeCasts_S1x128x128_S128x128,
    StableHlo.unary main_arg13 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_arg14 main_v57 ((extractStridedSlice S1x128 ![0, 0] · slices_S3x128_S1x128_0_0) : (⟨S3x128, .f32⟩ : BufTy).Contents (Elt F) → (⟨S1x128, .f32⟩ : BufTy).Contents (Elt F)),
    StableHlo.reshape main_v57 main_v58 rfl shapeCasts_S1x128_S128,
    StableHlo.unary main_arg15 main_v59 ((extractStridedSlice S1x128 ![0, 0] · slices_S3x128_S1x128_0_0) : (⟨S3x128, .f32⟩ : BufTy).Contents (Elt F) → (⟨S1x128, .f32⟩ : BufTy).Contents (Elt F)),
    StableHlo.reshape main_v59 main_v60 rfl shapeCasts_S1x128_S128,
    StableHlo.nullary main_c_6 (constantI S_ 32 0#32),
    StableHlo.unary main_c_6 main_v61 (broadcastInDim S1600000 ![] bcast_S_S1600000 : (⟨S_, .i32⟩ : BufTy).Contents (Elt F) → (⟨S1600000, .i32⟩ : BufTy).Contents (Elt F)),
    StableHlo.binary main_v1 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v63 (broadcastInDim S1600000 ![] bcast_S_S1600000 : (⟨S_, .i32⟩ : BufTy).Contents (Elt F) → (⟨S1600000, .i32⟩ : BufTy).Contents (Elt F)),
    StableHlo.binary main_v1 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.binary main_v46 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v68 (broadcastInDim S100000x128 ![] bcast_S_S100000x128 : (⟨S_, .f32⟩ : BufTy).Contents (Elt F) → (⟨S100000x128, .f32⟩ : BufTy).Contents (Elt F)),
    StableHlo.unary main_v3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_9 (constant S_ .f32 0x3F800000#32),
    StableHlo.binary main_cst_9 main_v48 main_v71 (addf : (⟨S_, .f32⟩ : BufTy).Contents (Elt F) → (⟨S_, .f32⟩ : BufTy).Contents (Elt F) → (⟨S_, .f32⟩ : BufTy).Contents (Elt F)),
    StableHlo.unary main_v71 main_v72 (broadcastInDim S100000x128 ![] bcast_S_S100000x128 : (⟨S_, .f32⟩ : BufTy).Contents (Elt F) → (⟨S100000x128, .f32⟩ : BufTy).Contents (Elt F)),
    StableHlo.binary main_v72 main_v46 main_v73 (mulf : (⟨S100000x128, .f32⟩ : BufTy).Contents (Elt F) → (⟨S100000x128, .f32⟩ : BufTy).Contents (Elt F) → (⟨S100000x128, .f32⟩ : BufTy).Contents (Elt F)),
    StableHlo.binary main_v73 main_v70 main_v74 (addf : (⟨S100000x128, .f32⟩ : BufTy).Contents (Elt F) → (⟨S100000x128, .f32⟩ : BufTy).Contents (Elt F) → (⟨S100000x128, .f32⟩ : BufTy).Contents (Elt F)),
    StableHlo.binary main_v74 main_v50 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v52 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v78 : StableHlo.TRef sig ⟨S100000x128, .f32⟩) main_call3.v0 main_call3.v1 maximumf,
    StableHlo.binary main_v79 main_v54 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v56 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v83 : StableHlo.TRef sig ⟨S100000x128, .f32⟩) main_call4.v0 main_call4.v1 maximumf,
    StableHlo.nullary main_cst_10 (constant S_ .f32 0x00000000#32),
    StableHlo.binary main_v84 main_cst_10 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call5.cst (constant S_ .f32 0x00000000#32),
    StableHlo.TRef.binary (.of main_v84 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v84 : StableHlo.TRef sig ⟨S100000x128, .f32⟩) main_call5.v4 main_call5.v5 subf,
    StableHlo.TRef.binary main_call5.v5 main_call5.v5 main_call5.v6 mulf,
    StableHlo.TRef.unary (.of main_c_12 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v90 main_v91 (subf : (⟨S100000x128, .f32⟩ : BufTy).Contents (Elt F) → (⟨S100000x128, .f32⟩ : BufTy).Contents (Elt F) → (⟨S100000x128, .f32⟩ : BufTy).Contents (Elt F)),
    StableHlo.unary main_v58 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v91 main_v94 (mulf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v95 (broadcastInDim S128 ![] bcast_S_S128 : (⟨S_, .f32⟩ : BufTy).Contents (Elt F) → (⟨S128, .f32⟩ : BufTy).Contents (Elt F)),
    StableHlo.binary main_v88 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v99 main_v100 (mulf : (⟨S100000x128, .f32⟩ : BufTy).Contents (Elt F) → (⟨S100000x128, .f32⟩ : BufTy).Contents (Elt F) → (⟨S100000x128, .f32⟩ : BufTy).Contents (Elt F)),
    StableHlo.unary main_v60 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem part1_sub : (part1 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
set_option maxHeartbeats 4000000 in
theorem main_part1_eq (c : Dev nD) : main_part1 (F := F) c = seq part1 := by
  simp only [main_part1, fn_relu.body, fn_var.body, fn_where.body, fn_relu_0.body, fn_relu_1.body, fn_log_softmax.body, seq, bind_assoc, pure_bind]
  first | done | rfl

/-- The operations of statements window 2 of @main. -/
abbrev part2 : List (HloOp τ sig (Elt F)) :=
  [ StableHlo.unary main_arg16 main_v104 ((extractStridedSlice S1 ![1] · slices_S3_S1_1) : (⟨S3, .f32⟩ : BufTy).Contents (Elt F) → (⟨S1, .f32⟩ : BufTy).Contents (Elt F)),
    StableHlo.reshape main_v104 main_v105 rfl shapeCasts_S1_S_,
    StableHlo.unary main_arg10 main_v106 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v106 main_v107 rfl shapeCasts_S1x128x128_S128x128,
    StableHlo.unary main_arg11 main_v108 ((extractStridedSlice S1x128 ![1, 0] · slices_S3x128_S1x128_1_0) : (⟨S3x128, .f32⟩ : BufTy).Contents (Elt F) → (⟨S1x128, .f32⟩ : BufTy).Contents (Elt F)),
    StableHlo.reshape main_v108 main_v109 rfl shapeCasts_S1x128_S128,
    StableHlo.unary main_arg12 main_v110 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v110 main_v111 rfl shapeCasts_S1x128x128_S128x128,
    StableHlo.unary main_arg13 main_v112 ((extractStridedSlice S1x128 ![1, 0] · slices_S3x128_S1x128_1_0) : (⟨S3x128, .f32⟩ : BufTy).Contents (Elt F) → (⟨S1x128, .f32⟩ : BufTy).Contents (Elt F)),
    StableHlo.reshape main_v112 main_v113 rfl shapeCasts_S1x128_S128,
    StableHlo.unary main_arg14 main_v114 ((extractStridedSlice S1x128 ![1, 0] · slices_S3x128_S1x128_1_0) : (⟨S3x128, .f32⟩ : BufTy).Contents (Elt F) → (⟨S1x128, .f32⟩ : BufTy).Contents (Elt F)),
    StableHlo.reshape main_v114 main_v115 rfl shapeCasts_S1x128_S128,
    StableHlo.unary main_arg15 main_v116 ((extractStridedSlice S1x128 ![1, 0] · slices_S3x128_S1x128_1_0) : (⟨S3x128, .f32⟩ : BufTy).Contents (Elt F) → (⟨S1x128, .f32⟩ : BufTy).Contents (Elt F)),
    StableHlo.reshape main_v116 main_v117 rfl shapeCasts_S1x128_S128,
    StableHlo.nullary main_c_14 (constantI S_ 32 0#32),
    StableHlo.unary main_c_14 main_v118 (broadcastInDim S1600000 ![] bcast_S_S1600000 : (⟨S_, .i32⟩ : BufTy).Contents (Elt F) → (⟨S1600000, .i32⟩ : BufTy).Contents (Elt F)),
    StableHlo.binary main_v1 main_v118 main_v119 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v120 (broadcastInDim S1600000 ![] bcast_S_S1600000 : (⟨S_, .i32⟩ : BufTy).Contents (Elt F) → (⟨S1600000, .i32⟩ : BufTy).Contents (Elt F)),
    StableHlo.binary main_v1 main_v120 main_v121 (addi : (⟨S1600000, .i32⟩ : BufTy).Contents (Elt F) → (⟨S1600000, .i32⟩ : BufTy).Contents (Elt F) → (⟨S1600000, .i32⟩ : BufTy).Contents (Elt F)),
    StableHlo.ternary main_v119 main_v121 main_v1 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v122 main_v123 (broadcastInDim S1600000x1 ![0] bcast_S1600000_S1600000x1_0 : (⟨S1600000, .i32⟩ : BufTy).Contents (Elt F) → (⟨S1600000x1, .i32⟩ : BufTy).Contents (Elt F)),
    StableHlo.binary main_v103 main_v123 main_v124 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v125 (broadcastInDim S100000x128 ![] bcast_S_S100000x128 : (⟨S_, .f32⟩ : BufTy).Contents (Elt F) → (⟨S100000x128, .f32⟩ : BufTy).Contents (Elt F)),
    StableHlo.unary main_v3 main_v126 (broadcastInDim S1600000x1 ![0] bcast_S1600000_S1600000x1_0 : (⟨S1600000, .i32⟩ : BufTy).Contents (Elt F) → (⟨S1600000x1, .i32⟩ : BufTy).Contents (Elt F)),
    StableHlo.ternary main_v125 main_v126 main_v124 main_v127 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_17 (constant S_ .f32 0x3F800000#32),
    StableHlo.binary main_cst_17 main_v105 main_v128 (addf : (⟨S_, .f32⟩ : BufTy).Contents (Elt F) → (⟨S_, .f32⟩ : BufTy).Contents (Elt F) → (⟨S_, .f32⟩ : BufTy).Contents (Elt F)),
    StableHlo.unary main_v128 main_v129 (broadcastInDim S100000x128 ![] bcast_S_S100000x128 : (⟨S_, .f32⟩ : BufTy).Contents (Elt F) → (⟨S100000x128, .f32⟩ : BufTy).Contents (Elt F)),
    StableHlo.binary main_v129 main_v103 main_v130 (mulf : (⟨S100000x128, .f32⟩ : BufTy).Contents (Elt F) → (⟨S100000x128, .f32⟩ : BufTy).Contents (Elt F) → (⟨S100000x128, .f32⟩ : BufTy).Contents (Elt F)),
    StableHlo.binary main_v130 main_v127 main_v131 (addf : (⟨S100000x128, .f32⟩ : BufTy).Contents (Elt F) → (⟨S100000x128, .f32⟩ : BufTy).Contents (Elt F) → (⟨S100000x128, .f32⟩ : BufTy).Contents (Elt F)),
    StableHlo.binary main_v131 main_v107 main_v132 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v109 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v134 main_v135 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v135 : StableHlo.TRef sig ⟨S100000x128, .f32⟩) main_call6.v0 main_call6.v1 maximumf,
    StableHlo.binary main_v136 main_v111 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v113 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v139 main_v140 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v140 : StableHlo.TRef sig ⟨S100000x128, .f32⟩) main_call7.v0 main_call7.v1 maximumf,
    StableHlo.nullary main_cst_18 (constant S_ .f32 0x00000000#32),
    StableHlo.binary main_v141 main_cst_18 main_v142 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v143 (broadcastInDim S128 ![] bcast_S_S128 : (⟨S_, .f32⟩ : BufTy).Contents (Elt F) → (⟨S128, .f32⟩ : BufTy).Contents (Elt F)),
    StableHlo.binary main_v142 main_v143 main_v144 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call8.cst (constant S_ .f32 0x00000000#32),
    StableHlo.TRef.binary (.of main_v141 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v141 : StableHlo.TRef sig ⟨S100000x128, .f32⟩) main_call8.v4 main_call8.v5 subf,
    StableHlo.TRef.binary main_call8.v5 main_call8.v5 main_call8.v6 mulf,
    StableHlo.TRef.unary (.of main_c_20 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v144 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v141 main_v147 main_v148 (subf : (⟨S100000x128, .f32⟩ : BufTy).Contents (Elt F) → (⟨S100000x128, .f32⟩ : BufTy).Contents (Elt F) → (⟨S100000x128, .f32⟩ : BufTy).Contents (Elt F)),
    StableHlo.unary main_v115 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v148 main_v151 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v152 (broadcastInDim S128 ![] bcast_S_S128 : (⟨S_, .f32⟩ : BufTy).Contents (Elt F) → (⟨S128, .f32⟩ : BufTy).Contents (Elt F)),
    StableHlo.binary main_v145 main_v152 main_v153 (addf : (⟨S128, .f32⟩ : BufTy).Contents (Elt F) → (⟨S128, .f32⟩ : BufTy).Contents (Elt F) → (⟨S128, .f32⟩ : BufTy).Contents (Elt F)),
    StableHlo.unary main_v153 main_v154 (Host.rsqrt : (⟨S128, .f32⟩ : BufTy).Contents (Elt F) → (⟨S128, .f32⟩ : BufTy).Contents (Elt F)),
    StableHlo.unary main_v154 main_v155 (broadcastInDim S1x128 ![1] bcast_S128_S1x128_1 : (⟨S128, .f32⟩ : BufTy).Contents (Elt F) → (⟨S1x128, .f32⟩ : BufTy).Contents (Elt F)) ]

set_option maxRecDepth 8192 in
theorem part2_sub : (part2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩

set_option maxRecDepth 8192 in
set_option maxHeartbeats 4000000 in
theorem main_part2_eq (c : Dev nD) : main_part2 (F := F) c = seq part2 := by
  simp only [main_part2, fn_relu.body, fn_var.body, fn_where.body, fn_relu_0.body, fn_relu_1.body, fn_log_softmax.body, seq, bind_assoc, pure_bind]
  first | done | rfl

/-- The operations of statements window 3 of @main. -/
abbrev part3 : List (HloOp τ sig (Elt F)) :=
  [ StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v156 main_v157 (mulf : (⟨S100000x128, .f32⟩ : BufTy).Contents (Elt F) → (⟨S100000x128, .f32⟩ : BufTy).Contents (Elt F) → (⟨S100000x128, .f32⟩ : BufTy).Contents (Elt F)),
    StableHlo.unary main_v117 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v159 main_v160 (addf : (⟨S100000x128, .f32⟩ : BufTy).Contents (Elt F) → (⟨S100000x128, .f32⟩ : BufTy).Contents (Elt F) → (⟨S100000x128, .f32⟩ : BufTy).Contents (Elt F)),
    StableHlo.unary main_arg16 main_v161 ((extractStridedSlice S1 ![2] · slices_S3_S1_2) : (⟨S3, .f32⟩ : BufTy).Contents (Elt F) → (⟨S1, .f32⟩ : BufTy).Contents (Elt F)),
    StableHlo.reshape main_v161 main_v162 rfl shapeCasts_S1_S_,
    StableHlo.unary main_arg10 main_v163 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v163 main_v164 rfl shapeCasts_S1x128x128_S128x128,
    StableHlo.unary main_arg11 main_v165 ((extractStridedSlice S1x128 ![2, 0] · slices_S3x128_S1x128_2_0) : (⟨S3x128, .f32⟩ : BufTy).Contents (Elt F) → (⟨S1x128, .f32⟩ : BufTy).Contents (Elt F)),
    StableHlo.reshape main_v165 main_v166 rfl shapeCasts_S1x128_S128,
    StableHlo.unary main_arg12 main_v167 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v167 main_v168 rfl shapeCasts_S1x128x128_S128x128,
    StableHlo.unary main_arg13 main_v169 ((extractStridedSlice S1x128 ![2, 0] · slices_S3x128_S1x128_2_0) : (⟨S3x128, .f32⟩ : BufTy).Contents (Elt F) → (⟨S1x128, .f32⟩ : BufTy).Contents (Elt F)),
    StableHlo.reshape main_v169 main_v170 rfl shapeCasts_S1x128_S128,
    StableHlo.unary main_arg14 main_v171 ((extractStridedSlice S1x128 ![2, 0] · slices_S3x128_S1x128_2_0) : (⟨S3x128, .f32⟩ : BufTy).Contents (Elt F) → (⟨S1x128, .f32⟩ : BufTy).Contents (Elt F)),
    StableHlo.reshape main_v171 main_v172 rfl shapeCasts_S1x128_S128,
    StableHlo.unary main_arg15 main_v173 ((extractStridedSlice S1x128 ![2, 0] · slices_S3x128_S1x128_2_0) : (⟨S3x128, .f32⟩ : BufTy).Contents (Elt F) → (⟨S1x128, .f32⟩ : BufTy).Contents (Elt F)),
    StableHlo.reshape main_v173 main_v174 rfl shapeCasts_S1x128_S128,
    StableHlo.nullary main_c_22 (constantI S_ 32 0#32),
    StableHlo.unary main_c_22 main_v175 (broadcastInDim S1600000 ![] bcast_S_S1600000 : (⟨S_, .i32⟩ : BufTy).Contents (Elt F) → (⟨S1600000, .i32⟩ : BufTy).Contents (Elt F)),
    StableHlo.binary main_v1 main_v175 main_v176 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v177 (broadcastInDim S1600000 ![] bcast_S_S1600000 : (⟨S_, .i32⟩ : BufTy).Contents (Elt F) → (⟨S1600000, .i32⟩ : BufTy).Contents (Elt F)),
    StableHlo.binary main_v1 main_v177 main_v178 (addi : (⟨S1600000, .i32⟩ : BufTy).Contents (Elt F) → (⟨S1600000, .i32⟩ : BufTy).Contents (Elt F) → (⟨S1600000, .i32⟩ : BufTy).Contents (Elt F)),
    StableHlo.ternary main_v176 main_v178 main_v1 main_v179 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v179 main_v180 (broadcastInDim S1600000x1 ![0] bcast_S1600000_S1600000x1_0 : (⟨S1600000, .i32⟩ : BufTy).Contents (Elt F) → (⟨S1600000x1, .i32⟩ : BufTy).Contents (Elt F)),
    StableHlo.binary main_v160 main_v180 main_v181 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v182 (broadcastInDim S100000x128 ![] bcast_S_S100000x128 : (⟨S_, .f32⟩ : BufTy).Contents (Elt F) → (⟨S100000x128, .f32⟩ : BufTy).Contents (Elt F)),
    StableHlo.unary main_v3 main_v183 (broadcastInDim S1600000x1 ![0] bcast_S1600000_S1600000x1_0 : (⟨S1600000, .i32⟩ : BufTy).Contents (Elt F) → (⟨S1600000x1, .i32⟩ : BufTy).Contents (Elt F)),
    StableHlo.ternary main_v182 main_v183 main_v181 main_v184 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_25 (constant S_ .f32 0x3F800000#32),
    StableHlo.binary main_cst_25 main_v162 main_v185 (addf : (⟨S_, .f32⟩ : BufTy).Contents (Elt F) → (⟨S_, .f32⟩ : BufTy).Contents (Elt F) → (⟨S_, .f32⟩ : BufTy).Contents (Elt F)),
    StableHlo.unary main_v185 main_v186 (broadcastInDim S100000x128 ![] bcast_S_S100000x128 : (⟨S_, .f32⟩ : BufTy).Contents (Elt F) → (⟨S100000x128, .f32⟩ : BufTy).Contents (Elt F)),
    StableHlo.binary main_v186 main_v160 main_v187 (mulf : (⟨S100000x128, .f32⟩ : BufTy).Contents (Elt F) → (⟨S100000x128, .f32⟩ : BufTy).Contents (Elt F) → (⟨S100000x128, .f32⟩ : BufTy).Contents (Elt F)),
    StableHlo.binary main_v187 main_v184 main_v188 (addf : (⟨S100000x128, .f32⟩ : BufTy).Contents (Elt F) → (⟨S100000x128, .f32⟩ : BufTy).Contents (Elt F) → (⟨S100000x128, .f32⟩ : BufTy).Contents (Elt F)),
    StableHlo.binary main_v188 main_v164 main_v189 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v166 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v191 main_v192 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v192 : StableHlo.TRef sig ⟨S100000x128, .f32⟩) main_call9.v0 main_call9.v1 maximumf,
    StableHlo.binary main_v193 main_v168 main_v194 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v170 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S100000x128 ![0, 1] bcast_S1x128_S100000x128_0_1 : (⟨S1x128, .f32⟩ : BufTy).Contents (Elt F) → (⟨S100000x128, .f32⟩ : BufTy).Contents (Elt F)),
    StableHlo.binary main_v194 main_v196 main_v197 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v197 : StableHlo.TRef sig ⟨S100000x128, .f32⟩) main_call10.v0 main_call10.v1 maximumf,
    StableHlo.nullary main_cst_26 (constant S_ .f32 0x00000000#32),
    StableHlo.binary main_v198 main_cst_26 main_v199 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v200 (broadcastInDim S128 ![] bcast_S_S128 : (⟨S_, .f32⟩ : BufTy).Contents (Elt F) → (⟨S128, .f32⟩ : BufTy).Contents (Elt F)),
    StableHlo.binary main_v199 main_v200 main_v201 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call11.cst (constant S_ .f32 0x00000000#32),
    StableHlo.TRef.binary (.of main_v198 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v198 : StableHlo.TRef sig ⟨S100000x128, .f32⟩) main_call11.v4 main_call11.v5 subf,
    StableHlo.TRef.binary main_call11.v5 main_call11.v5 main_call11.v6 mulf,
    StableHlo.TRef.unary (.of main_c_28 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v201 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S100000x128 ![0, 1] bcast_S1x128_S100000x128_0_1 : (⟨S1x128, .f32⟩ : BufTy).Contents (Elt F) → (⟨S100000x128, .f32⟩ : BufTy).Contents (Elt F)),
    StableHlo.binary main_v198 main_v204 main_v205 (subf : (⟨S100000x128, .f32⟩ : BufTy).Contents (Elt F) → (⟨S100000x128, .f32⟩ : BufTy).Contents (Elt F) → (⟨S100000x128, .f32⟩ : BufTy).Contents (Elt F)),
    StableHlo.unary main_v172 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v205 main_v208 (mulf : (⟨S100000x128, .f32⟩ : BufTy).Contents (Elt F) → (⟨S100000x128, .f32⟩ : BufTy).Contents (Elt F) → (⟨S100000x128, .f32⟩ : BufTy).Contents (Elt F)) ]

set_option maxRecDepth 8192 in
theorem part3_sub : (part3 : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

set_option maxRecDepth 8192 in
set_option maxHeartbeats 4000000 in
theorem main_part3_eq (c : Dev nD) : main_part3 (F := F) c = seq part3 := by
  simp only [main_part3, fn_relu.body, fn_var.body, fn_where.body, fn_relu_0.body, fn_relu_1.body, fn_log_softmax.body, seq, bind_assoc, pure_bind]
  first | done | rfl

/-- The operations of statements window 4 of @main. -/
abbrev part4 : List (HloOp τ sig (Elt F)) :=
  [ StableHlo.nullary main_cst_29 (constant S_ .f32 0x3727C5AC#32),
    StableHlo.unary main_cst_29 main_v209 (broadcastInDim S128 ![] bcast_S_S128 : (⟨S_, .f32⟩ : BufTy).Contents (Elt F) → (⟨S128, .f32⟩ : BufTy).Contents (Elt F)),
    StableHlo.binary main_v202 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v213 main_v214 (mulf : (⟨S100000x128, .f32⟩ : BufTy).Contents (Elt F) → (⟨S100000x128, .f32⟩ : BufTy).Contents (Elt F) → (⟨S100000x128, .f32⟩ : BufTy).Contents (Elt F)),
    StableHlo.unary main_v174 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S100000x128 ![0, 1] bcast_S1x128_S100000x128_0_1 : (⟨S1x128, .f32⟩ : BufTy).Contents (Elt F) → (⟨S100000x128, .f32⟩ : BufTy).Contents (Elt F)),
    StableHlo.binary main_v214 main_v216 main_v217 (addf : (⟨S100000x128, .f32⟩ : BufTy).Contents (Elt F) → (⟨S100000x128, .f32⟩ : BufTy).Contents (Elt F) → (⟨S100000x128, .f32⟩ : BufTy).Contents (Elt F)),
    StableHlo.nary ![main_v46, main_v103, main_v160, main_v217] main_v218 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.nullary main_cst_30 (constant S_ .f32 0x00000000#32),
    StableHlo.unary main_cst_30 main_v219 (broadcastInDim S64x512 ![] bcast_S_S64x512 : (⟨S_, .f32⟩ : BufTy).Contents (Elt F) → (⟨S64x512, .f32⟩ : BufTy).Contents (Elt F)),
    StableHlo.unary main_arg2 main_v220 (broadcastInDim S100000x1 ![0] bcast_S100000_S100000x1_0 : (⟨S100000, .i32⟩ : BufTy).Contents (Elt F) → (⟨S100000x1, .i32⟩ : BufTy).Contents (Elt F)),
    StableHlo.ternary main_v219 main_v220 main_v218 main_v221 ((fun x i u => Host.scatterAdd scatter_S64x512_S100000x1_S100000x512_1_0_0_1 x i u) : (⟨S64x512, .f32⟩ : BufTy).Contents (Elt F) → (⟨S100000x1, .i32⟩ : BufTy).Contents (Elt F) → (⟨S100000x512, .f32⟩ : BufTy).Contents (Elt F) → (⟨S64x512, .f32⟩ : BufTy).Contents (Elt F)),
    StableHlo.nullary main_cst_31 (constant S_ .f32 0x3F800000#32),
    StableHlo.unary main_cst_31 main_v222 (broadcastInDim S100000 ![] bcast_S_S100000 : (⟨S_, .f32⟩ : BufTy).Contents (Elt F) → (⟨S100000, .f32⟩ : BufTy).Contents (Elt F)),
    StableHlo.nullary main_cst_32 (constant S_ .f32 0x00000000#32),
    StableHlo.unary main_cst_32 main_v223 (broadcastInDim S64 ![] bcast_S_S64 : (⟨S_, .f32⟩ : BufTy).Contents (Elt F) → (⟨S64, .f32⟩ : BufTy).Contents (Elt F)),
    StableHlo.unary main_arg2 main_v224 (broadcastInDim S100000x1 ![0] bcast_S100000_S100000x1_0 : (⟨S100000, .i32⟩ : BufTy).Contents (Elt F) → (⟨S100000x1, .i32⟩ : BufTy).Contents (Elt F)),
    StableHlo.ternary main_v223 main_v224 main_v222 main_v225 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_33 (constant S_ .f32 0x3F800000#32),
    StableHlo.unary main_cst_33 main_v226 (broadcastInDim S64 ![] bcast_S_S64 : (⟨S_, .f32⟩ : BufTy).Contents (Elt F) → (⟨S64, .f32⟩ : BufTy).Contents (Elt F)),
    StableHlo.binary main_v225 main_v226 main_v227 (maximumf : (⟨S64, .f32⟩ : BufTy).Contents (Elt F) → (⟨S64, .f32⟩ : BufTy).Contents (Elt F) → (⟨S64, .f32⟩ : BufTy).Contents (Elt F)),
    StableHlo.unary main_v227 main_v228 (broadcastInDim S64x1 ![0] bcast_S64_S64x1_0 : (⟨S64, .f32⟩ : BufTy).Contents (Elt F) → (⟨S64x1, .f32⟩ : BufTy).Contents (Elt F)),
    StableHlo.unary main_v228 main_v229 (broadcastInDim S64x512 ![0, 1] bcast_S64x1_S64x512_0_1 : (⟨S64x1, .f32⟩ : BufTy).Contents (Elt F) → (⟨S64x512, .f32⟩ : BufTy).Contents (Elt F)),
    StableHlo.binary main_v221 main_v229 main_v230 (Host.divf : (⟨S64x512, .f32⟩ : BufTy).Contents (Elt F) → (⟨S64x512, .f32⟩ : BufTy).Contents (Elt F) → (⟨S64x512, .f32⟩ : BufTy).Contents (Elt F)),
    StableHlo.binary main_v230 main_arg17 main_v231 ((fun l r => Host.dotGeneral dot_S64x512_S512x256_S64x256_1_0_0_1_n_n none l r) : (⟨S64x512, .f32⟩ : BufTy).Contents (Elt F) → (⟨S512x256, .f32⟩ : BufTy).Contents (Elt F) → (⟨S64x256, .f32⟩ : BufTy).Contents (Elt F)),
    StableHlo.unary main_arg18 main_v232 (broadcastInDim S1x256 ![1] bcast_S256_S1x256_1 : (⟨S256, .f32⟩ : BufTy).Contents (Elt F) → (⟨S1x256, .f32⟩ : BufTy).Contents (Elt F)),
    StableHlo.unary main_v232 main_v233 (broadcastInDim S64x256 ![0, 1] bcast_S1x256_S64x256_0_1 : (⟨S1x256, .f32⟩ : BufTy).Contents (Elt F) → (⟨S64x256, .f32⟩ : BufTy).Contents (Elt F)),
    StableHlo.binary main_v231 main_v233 main_v234 (addf : (⟨S64x256, .f32⟩ : BufTy).Contents (Elt F) → (⟨S64x256, .f32⟩ : BufTy).Contents (Elt F) → (⟨S64x256, .f32⟩ : BufTy).Contents (Elt F)),
    StableHlo.TRef.nullary main_call12.cst (constant S_ .f32 0x00000000#32),
    StableHlo.TRef.unary main_call12.cst main_call12.v0 (broadcastInDim S64x256 ![] bcast_S_S64x256),
    StableHlo.TRef.binary (.of main_v234 : StableHlo.TRef sig ⟨S64x256, .f32⟩) main_call12.v0 main_call12.v1 maximumf,
    StableHlo.binary main_v235 main_arg19 main_v236 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    StableHlo.unary main_arg20 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S64x128 ![0, 1] bcast_S1x128_S64x128_0_1 : (⟨S1x128, .f32⟩ : BufTy).Contents (Elt F) → (⟨S64x128, .f32⟩ : BufTy).Contents (Elt F)),
    StableHlo.binary main_v236 main_v238 main_v239 (addf : (⟨S64x128, .f32⟩ : BufTy).Contents (Elt F) → (⟨S64x128, .f32⟩ : BufTy).Contents (Elt F) → (⟨S64x128, .f32⟩ : BufTy).Contents (Elt F)),
    StableHlo.TRef.nullary main_call13.cst (constant S_ .f32 0x00000000#32),
    StableHlo.TRef.unary main_call13.cst main_call13.v0 (broadcastInDim S64x128 ![] bcast_S_S64x128),
    StableHlo.TRef.binary (.of main_v239 : StableHlo.TRef sig ⟨S64x128, .f32⟩) main_call13.v0 main_call13.v1 maximumf,
    StableHlo.binary main_v240 main_arg21 main_v241 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg22 main_v242 (broadcastInDim S1x128 ![1] bcast_S128_S1x128_1 : (⟨S128, .f32⟩ : BufTy).Contents (Elt F) → (⟨S1x128, .f32⟩ : BufTy).Contents (Elt F)),
    StableHlo.unary main_v242 main_v243 (broadcastInDim S64x128 ![0, 1] bcast_S1x128_S64x128_0_1 : (⟨S1x128, .f32⟩ : BufTy).Contents (Elt F) → (⟨S64x128, .f32⟩ : BufTy).Contents (Elt F)),
    StableHlo.binary main_v241 main_v243 main_v244 (addf : (⟨S64x128, .f32⟩ : BufTy).Contents (Elt F) → (⟨S64x128, .f32⟩ : BufTy).Contents (Elt F) → (⟨S64x128, .f32⟩ : BufTy).Contents (Elt F)),
    StableHlo.TRef.nullary main_call14.cst (constant S_ .f32 0x00000000#32),
    StableHlo.TRef.unary main_call14.cst main_call14.v0 (broadcastInDim S64x128 ![] bcast_S_S64x128),
    StableHlo.TRef.binary (.of main_v244 : StableHlo.TRef sig ⟨S64x128, .f32⟩) main_call14.v0 main_call14.v1 maximumf,
    StableHlo.binary main_v245 main_arg23 main_v246 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    StableHlo.unary main_arg24 main_v247 (broadcastInDim S1x10 ![1] bcast_S10_S1x10_1 : (⟨S10, .f32⟩ : BufTy).Contents (Elt F) → (⟨S1x10, .f32⟩ : BufTy).Contents (Elt F)),
    StableHlo.unary main_v247 main_v248 (broadcastInDim S64x10 ![0, 1] bcast_S1x10_S64x10_0_1 : (⟨S1x10, .f32⟩ : BufTy).Contents (Elt F) → (⟨S64x10, .f32⟩ : BufTy).Contents (Elt F)),
    StableHlo.binary main_v246 main_v248 main_v249 (addf : (⟨S64x10, .f32⟩ : BufTy).Contents (Elt F) → (⟨S64x10, .f32⟩ : BufTy).Contents (Elt F) → (⟨S64x10, .f32⟩ : BufTy).Contents (Elt F)),
    StableHlo.TRef.nullary main_call15.cst (constant S_ .f32 0xFF800000#32),
    StableHlo.TRef.binary (.of main_v249 : StableHlo.TRef sig ⟨S64x10, .f32⟩) main_call15.cst main_call15.v0 (fun x v => Host.reduce FloatOps.maximumf x v reducesTo_S64x10_S64_d1 h_S_),
    StableHlo.TRef.nullary main_call15.cst_0 (constant S_ .f32 0xFF800000#32),
    StableHlo.TRef.unary main_call15.cst_0 main_call15.v1 (broadcastInDim S64 ![] bcast_S_S64),
    StableHlo.TRef.binary main_call15.v1 main_call15.v0 main_call15.v2 maximumf,
    StableHlo.TRef.unary main_call15.v2 main_call15.v3 (broadcastInDim S64x1 ![0] bcast_S64_S64x1_0),
    StableHlo.TRef.unary main_call15.v3 main_call15.v4 (broadcastInDim S64x10 ![0, 1] bcast_S64x1_S64x10_0_1),
    StableHlo.TRef.binary (.of main_v249 : StableHlo.TRef sig ⟨S64x10, .f32⟩) main_call15.v4 main_call15.v5 subf,
    StableHlo.TRef.unary main_call15.v5 main_call15.v6 Host.exp,
    StableHlo.TRef.nullary main_call15.cst_1 (constant S_ .f32 0x00000000#32),
    StableHlo.TRef.binary main_call15.v6 main_call15.cst_1 main_call15.v7 (fun x v => Host.reduceAdd x v reducesTo_S64x10_S64_d1 h_S_),
    StableHlo.TRef.unary main_call15.v7 main_call15.v8 (broadcastInDim S64x1 ![0] bcast_S64_S64x1_0),
    StableHlo.TRef.unary main_call15.v8 main_call15.v9 Host.log,
    StableHlo.TRef.unary main_call15.v9 main_call15.v10 (broadcastInDim S64x10 ![0, 1] bcast_S64x1_S64x10_0_1),
    StableHlo.TRef.binary main_call15.v5 main_call15.v10 main_call15.v11 subf ]

set_option maxRecDepth 8192 in
theorem part4_sub : (part4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., nary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
theorem main_part4_eq (c : Dev nD) : main_part4 (F := F) c = seq part4 := by
  simp only [main_part4, fn_relu.body, fn_var.body, fn_where.body, fn_relu_0.body, fn_relu_1.body, fn_log_softmax.body, seq, bind_assoc, pure_bind]
  first | done | rfl

/-- @main's 407 operations, in order. -/
abbrev ops : List (HloOp τ sig (Elt F)) :=
  part0 ++ (part1 ++ (part2 ++ (part3 ++ (part4))))

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp part0_sub op h, List.forall_iff_forall_mem.mp part1_sub op h, List.forall_iff_forall_mem.mp part2_sub op h, List.forall_iff_forall_mem.mp part3_sub op h, List.forall_iff_forall_mem.mp part4_sub op h]

set_option maxRecDepth 8192 in
theorem main_eq (c : Dev nD) : main (F := F) c = seq ops := by
  simp only [ops, seq_append, main, main_part0_eq, main_part1_eq, main_part2_eq, main_part3_eq, main_part4_eq]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRun.lean ====
/- The reference's run: every weakly fair execution of @main terminates with the result buffer at `result` of the
   arguments' launch contents and the arguments unchanged. The operation list is cut into the network's parts; the
   contents after all of them are read part by part. -/
import proofs.«168812_j9088150798767_1_alg».proof.Proof.RefRunChain
import proofs.«168812_j9088150798767_1_alg».proof.Proof.RefRunMain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 65536 in
/-- @main's operations are the parts' in order. -/
theorem ops_cut : (ops : List (HloOp τ sig (Elt F))) = st0 ++ (st1 ++ (st2 ++ (st3 ++ (st4 ++ (st5 ++ (st6 ++ (st7 ++ (st8 ++ (st9 ++ (st10 ++ (st11 ++ (st12 ++ (st13 ++ (st14 ++ (st15 ++ (st16 ++ (st17 ++ (st18 ++ (st19 ++ (st20 ++ (st21 ++ (st22 ++ (st23 ++ (st24 ++ (st25 ++ (st26 ++ (st27 ++ (st28 ++ (st29 ++ (st30 ++ (st31 ++ (st32 ++ (st33 ++ (st34 ++ (st35 ++ (st36)))))))))))))))))))))))))))))))))))) := rfl

/-- The contents after @main's operations are the contents after the last part. -/
theorem after_ops (V : Valuation τ sig (Elt Ideal)) : after (ops (F := Ideal)) V = val37 V := by
  rw [ops_cut]
  simp only [after_append]
  rfl

set_option maxRecDepth 65536 in
set_option maxHeartbeats 4000000 in
/-- On every device, from any memory with zero counters: every weakly fair execution of @main terminates with the
    result at `result` of the arguments' launch contents and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v250) = result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)) :=
  (θ_run defs _ _).mono (fun _ h c => ⟨(h c main_v250).trans ((congrFun (after_ops _) _).trans (val37_main_v250 _)),
      (h c main_arg0).trans ((congrFun (after_ops _) _).trans (val37_main_arg0 _)),
      (h c main_arg1).trans ((congrFun (after_ops _) _).trans (val37_main_arg1 _)),
      (h c main_arg2).trans ((congrFun (after_ops _) _).trans (val37_main_arg2 _)),
      (h c main_arg3).trans ((congrFun (after_ops _) _).trans (val37_main_arg3 _)),
      (h c main_arg4).trans ((congrFun (after_ops _) _).trans (val37_main_arg4 _)),
      (h c main_arg5).trans ((congrFun (after_ops _) _).trans (val37_main_arg5 _)),
      (h c main_arg6).trans ((congrFun (after_ops _) _).trans (val37_main_arg6 _)),
      (h c main_arg7).trans ((congrFun (after_ops _) _).trans (val37_main_arg7 _)),
      (h c main_arg8).trans ((congrFun (after_ops _) _).trans (val37_main_arg8 _)),
      (h c main_arg9).trans ((congrFun (after_ops _) _).trans (val37_main_arg9 _)),
      (h c main_arg10).trans ((congrFun (after_ops _) _).trans (val37_main_arg10 _)),
      (h c main_arg11).trans ((congrFun (after_ops _) _).trans (val37_main_arg11 _)),
      (h c main_arg12).trans ((congrFun (after_ops _) _).trans (val37_main_arg12 _)),
      (h c main_arg13).trans ((congrFun (after_ops _) _).trans (val37_main_arg13 _)),
      (h c main_arg14).trans ((congrFun (after_ops _) _).trans (val37_main_arg14 _)),
      (h c main_arg15).trans ((congrFun (after_ops _) _).trans (val37_main_arg15 _)),
      (h c main_arg16).trans ((congrFun (after_ops _) _).trans (val37_main_arg16 _)),
      (h c main_arg17).trans ((congrFun (after_ops _) _).trans (val37_main_arg17 _)),
      (h c main_arg18).trans ((congrFun (after_ops _) _).trans (val37_main_arg18 _)),
      (h c main_arg19).trans ((congrFun (after_ops _) _).trans (val37_main_arg19 _)),
      (h c main_arg20).trans ((congrFun (after_ops _) _).trans (val37_main_arg20 _)),
      (h c main_arg21).trans ((congrFun (after_ops _) _).trans (val37_main_arg21 _)),
      (h c main_arg22).trans ((congrFun (after_ops _) _).trans (val37_main_arg22 _)),
      (h c main_arg23).trans ((congrFun (after_ops _) _).trans (val37_main_arg23 _)),
      (h c main_arg24).trans ((congrFun (after_ops _) _).trans (val37_main_arg24 _))⟩)
    (run_seq scopedRefs_eq scopedSems_eq defs main (fun _ => ops) main_eq (fun _ => ops_sub) m ρ)

end Cert.ReferenceIdeal.RefRun

end
-- ==== Proof.LibDense.lean ====
/-
  A dense layer on the extended reals, for any extents, and the one fact a blocked computation of it needs.

  A layer takes a matrix `h` of `n` rows and `K` columns, a `K` × `M` matrix `wt` and a bias row `b` (stored as a
  1 × `M` matrix) and returns the `n` × `M` matrix whose entry (p, q) is the dot product of row p of `h` with column q of
  `wt`, plus `b` at q. The rectifier keeps the larger of an entry and zero. Nothing here depends on a program: a block of
  rows and the whole array are the same definition at two values of `n`, and the fact that joins them is that an entry
  of a layer depends on one row of `h`, one column of `wt` and one entry of `b` (`lin_congr`) — so a block of rows of the
  layer of an array is the layer of the same block of rows of the array.
-/
import Idealize.ShloMosaic.Lib.ValueIdx
import Idealize.ShloMosaic.PureOps.Ideal

noncomputable section

open scoped BigOperators

namespace Cert.Dense

open Idealize.ShloMosaic Idealize.ShloMosaic.ValueIdx

/-- One dense layer `h · wt + b`: entry (p, q) is `∑ k, h (p, k) · wt (k, q) + b (0, q)`, for an `n` × `K` matrix `h`, a
    `K` × `M` matrix `wt` and a bias row `b` stored as a 1 × `M` matrix. -/
def lin {n K M : Nat} (h : (⟨2, ![n, K]⟩ : Shape).Idx → EReal) (wt : (⟨2, ![K, M]⟩ : Shape).Idx → EReal)
    (b : (⟨2, ![1, M]⟩ : Shape).Idx → EReal) : (⟨2, ![n, M]⟩ : Shape).Idx → EReal :=
  fun i => (∑ k : Fin K, h (ix2 (i 0) k) * wt (ix2 k (i 1))) + b (ix2 (0 : Fin 1) (i 1))

/-- The rectifier of a matrix, entry by entry: the larger of the entry and zero. -/
def relu {n M : Nat} (x : (⟨2, ![n, M]⟩ : Shape).Idx → EReal) : (⟨2, ![n, M]⟩ : Shape).Idx → EReal :=
  fun i => max (x i) 0

/-- The layer at explicit coordinates. -/
theorem lin_apply {n K M : Nat} (h : (⟨2, ![n, K]⟩ : Shape).Idx → EReal) (wt : (⟨2, ![K, M]⟩ : Shape).Idx → EReal)
    (b : (⟨2, ![1, M]⟩ : Shape).Idx → EReal) (p : Fin n) (q : Fin M) :
    lin h wt b (ix2 p q) = (∑ k : Fin K, h (ix2 p k) * wt (ix2 k q)) + b (ix2 (0 : Fin 1) q) := rfl

/-- The rectifier at an index. -/
theorem relu_apply {n M : Nat} (x : (⟨2, ![n, M]⟩ : Shape).Idx → EReal) (i : (⟨2, ![n, M]⟩ : Shape).Idx) :
    relu x i = max (x i) 0 := rfl

/-- An entry of a layer depends on one row of `h`, one column of `wt` and one entry of `b`: two layers, of matrices
    with any numbers of rows, agree at entries `i'` and `i` as soon as row `i' 0` of one input is row `i 0` of the other,
    column `i' 1` of one weight matrix is column `i 1` of the other, and the bias entries agree. (A block of rows of
    the output is the layer of the same block of rows of the input.) -/
theorem lin_congr {n n' K M : Nat} (h : (⟨2, ![n, K]⟩ : Shape).Idx → EReal) (wt : (⟨2, ![K, M]⟩ : Shape).Idx → EReal)
    (b : (⟨2, ![1, M]⟩ : Shape).Idx → EReal) (h' : (⟨2, ![n', K]⟩ : Shape).Idx → EReal)
    (wt' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (hrow : ∀ k : Fin K, h' (ix2 (i' 0) k) = h (ix2 (i 0) k))
    (hcol : ∀ k : Fin K, wt' (ix2 k (i' 1)) = wt (ix2 k (i 1)))
    (hb : b' (ix2 (0 : Fin 1) (i' 1)) = b (ix2 (0 : Fin 1) (i 1))) :
    lin h' wt' b' i' = lin h wt b i := by
  unfold lin
  rw [hb]
  exact congrArg (· + b (ix2 (0 : Fin 1) (i 1))) (Finset.sum_congr rfl fun k _ => by rw [hrow k, hcol k])

end Cert.Dense

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibDenseOps.lean ====
/-
  A dense layer as vector operations spell it, read as the layer of `LibDense` — general in the extents.

  Two spellings occur. A layer with many output columns is a matrix product into a zero accumulator, plus the bias row
  spread over the rows, and the rectifier is the entrywise maximum with a splat zero: over the extended reals this is
  `relu (lin h w b)`. A layer with ONE output column is often computed without a matrix product: every row of `h` is
  multiplied entrywise by the weights laid out as a row, the products are summed along the row, the sums are recast as
  a column and the one bias entry is added; when the row of weights is the transpose of the column `w` this is
  `lin h w b` with one output column.
-/
import proofs.«168812_j9088150798767_1_alg».proof.Proof.LibDense
import proofs.«168812_j9088150798767_1_alg».proof.Proof.LibPlainDot
import proofs.«168812_j9088150798767_1_alg».proof.Proof.LibColumns
import Idealize.ShloMosaic.Lib.ValueLayout

noncomputable section

open scoped BigOperators

namespace Cert.DenseOps

open Idealize.ShloMosaic Idealize.ShloMosaic.ValueIdx Cert.Dense

/-- A matrix product into the zero accumulator, plus a bias row spread over the rows, then the maximum with zero, is
    the rectified layer: entry (p, q) is `max (∑ k, h (p, k) · w (k, q) + b (0, q)) 0`. The four coordinate facts and the
    contraction's one axis are what a program's literal dimension numbers decide. -/
theorem matmul_bias_relu_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨2, ![1, M]⟩ : Shape) .f32) (hb : (⟨2, ![1, M]⟩ : Shape).Broadcasts ⟨2, ![n, M]⟩) :
    maximumf (addf (FloatOps.matmul D prec h w (constant (⟨2, ![n, M]⟩ : Shape) .f32 0x00000000#32))
        (broadcastTo (⟨2, ![n, M]⟩ : Shape) b hb))
      (broadcast (⟨2, ![n, M]⟩ : Shape) (Scalar.ofBits (F := Ideal) .f32 0x00000000#32))
      = relu (lin h w b) := by
  funext i
  obtain ⟨p, q, rfl⟩ : ∃ (p : Fin n) (q : Fin M), i = ix2 p q := ⟨i 0, i 1, eq_ix2 i⟩
  rw [relu_apply, lin_apply, maximumf_apply, addf_apply, broadcast_apply,
    PlainDot.matmul_zero_apply D hr hs l0 l1 r0 r1 prec h w p q, broadcastTo_1b_ab_apply b hb p q]
  show max _ (Ideal.ofBits .f32 0x00000000#32) = _
  rw [Ideal.ofBits_zero_f32]

/-- A layer with one output column computed on the vector unit: the rows of `h` times the weights laid out as a row
    `wrow`, summed along each row, recast as a column, plus the one bias entry. With `wrow (0, k) = w (k, 0)` it is
    `lin h w b`: entry (p, 0) is `∑ k, h (p, k) · w (k, 0) + b (0, 0)`. -/
theorem mulrow_sum_bias_eq {n K : Nat} (h : FVec Ideal (⟨2, ![n, K]⟩ : Shape) .f32)
    (wrow : FVec Ideal (⟨2, ![1, K]⟩ : Shape) .f32) (b : FVec Ideal (⟨2, ![1, 1]⟩ : Shape) .f32)
    (w : (⟨2, ![K, 1]⟩ : Shape).Idx → EReal)
    (hw : ∀ k : Fin K, wrow (ix2 (0 : Fin 1) k) = w (ix2 k (0 : Fin 1)))
    (hbk : (⟨2, ![1, K]⟩ : Shape).Broadcasts ⟨2, ![n, K]⟩) (acc : BitVec (FTy.f32).bits)
    (hred : (⟨2, ![n, K]⟩ : Shape).Reduces [1] ⟨1, ![n]⟩) (hφ : FKind.Formats .f32) (hacc : acc = FKind.add.neutral .f32 hφ)
    (hsc : (⟨1, ![n]⟩ : Shape).ShapeCasts ⟨2, ![n, 1]⟩) (hb : (⟨2, ![1, 1]⟩ : Shape).Broadcasts ⟨2, ![n, 1]⟩) :
    addf (shapeCast (⟨2, ![n, 1]⟩ : Shape)
          (multiReduction .add [1] (⟨1, ![n]⟩ : Shape) (mulf h (broadcastTo (⟨2, ![n, K]⟩ : Shape) wrow hbk)) acc hred hφ hacc) hsc)
        (broadcastTo (⟨2, ![n, 1]⟩ : Shape) b hb)
      = lin h w b := by
  funext i
  obtain ⟨p, z, rfl⟩ : ∃ (p : Fin n) (z : Fin 1), i = ix2 p z := ⟨i 0, i 1, eq_ix2 i⟩
  obtain rfl : z = 0 := Subsingleton.elim _ _
  rw [lin_apply, addf_apply, LibColumns.shapeCast_a_a1_apply _ hsc p 0,
    LibColumns.rowSum_apply _ acc hred hφ hacc p, broadcastTo_1b_ab_apply b hb p 0]
  refine congrArg (· + b (ix2 (0 : Fin 1) (0 : Fin 1))) (Finset.sum_congr rfl fun k _ => ?_)
  rw [mulf_apply, broadcastTo_1b_ab_apply wrow hbk p k, hw k]

end Cert.DenseOps

end
-- ==== Proof.LibHostDense.lean ====
/-
  A dense layer and the rectifier as the host spells them, read as the layer of `LibDense` — general in the extents.

  On the host a layer is a `dot_general` that contracts the left operand's columns against the right's rows, plus the
  bias vector spread first to a 1 × `M` row and then over the `n` rows; the rectifier is the entrywise maximum with a
  scalar zero spread over the whole array. Over the extended reals the first is `lin h w (row b)` — entry (p, q) is
  `∑ k, h (p, k) · w (k, q) + b q` — and the second is `relu`.
-/
import proofs.«168812_j9088150798767_1_alg».proof.Proof.LibDense
import proofs.«168812_j9088150798767_1_alg».proof.Proof.LibPlainDot
import Idealize.ShloMosaic.Lib.Pipeline.Value

noncomputable section

open scoped BigOperators

namespace Cert.HostDense

open Idealize.ShloMosaic Idealize.ShloMosaic.ValueIdx Cert.Dense

/-- A bias vector of `M` entries as a 1 × `M` row. -/
def row {M : Nat} (b : (⟨1, ![M]⟩ : Shape).Idx → EReal) : (⟨2, ![1, M]⟩ : Shape).Idx → EReal := fun i => b (ix1 (i 1))

/-- The host's `dot_general` plus the bias vector spread over the rows is the layer: entry (p, q) is
    `∑ k, h (p, k) · w (k, q) + b q`. The four coordinate facts and the contraction's one axis are what a program's
    literal dimension numbers decide. -/
theorem dot_bias_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨1, ![M]⟩ : Shape) .f32)
    (hb1 : (⟨1, ![M]⟩ : Shape).BroadcastsInDim (⟨2, ![1, M]⟩ : Shape) (![1] : Fin 1 → Fin 2))
    (hb2 : (⟨2, ![1, M]⟩ : Shape).BroadcastsInDim (⟨2, ![n, M]⟩ : Shape) (![0, 1] : Fin 2 → Fin 2)) :
    (addf (Host.dotGeneral D prec h w)
        (broadcastInDim (⟨2, ![n, M]⟩ : Shape) ![0, 1] hb2 (broadcastInDim (⟨2, ![1, M]⟩ : Shape) ![1] hb1 b)) :
        FVec Ideal (⟨2, ![n, M]⟩ : Shape) .f32)
      = lin h w (row b) := by
  funext i
  obtain ⟨p, q, rfl⟩ : ∃ (p : Fin n) (q : Fin M), i = ix2 p q := ⟨i 0, i 1, eq_ix2 i⟩
  rw [lin_apply, addf_apply]
  have hdot : Host.dotGeneral D prec h w (ix2 p q) = ∑ k : Fin K, (h (ix2 p k) : EReal) * (w (ix2 k q) : EReal) := by
    simp only [Host.dotGeneral]
    exact PlainDot.dotGeneral_apply D hr hs l0 l1 r0 r1 prec _ h w p q
  have hbias : broadcastInDim (⟨2, ![n, M]⟩ : Shape) ![0, 1] hb2 (broadcastInDim (⟨2, ![1, M]⟩ : Shape) ![1] hb1 b) (ix2 p q)
      = b (ix1 q) := by
    rw [broadcastInDim_apply ![0, 1] hb2 _ (ix2 p q) (ix2 (0 : Fin 1) q) (fun a => by
      match a with
      | ⟨0, _⟩ => show 0 = if (1 : Nat) = 1 then 0 else p.val; rw [if_pos rfl]
      | ⟨1, _⟩ =>
        show q.val = if M = 1 then 0 else q.val
        split
        · have := q.isLt; omega
        · rfl)]
    exact broadcastInDim_apply ![1] hb1 b (ix2 (0 : Fin 1) q) (ix1 q) (fun a => by
      match a with
      | ⟨0, _⟩ =>
        show q.val = if M = 1 then 0 else q.val
        split
        · have := q.isLt; omega
        · rfl)
  rw [hdot, hbias]
  rfl

/-- The entrywise maximum with a scalar zero spread over the array is the rectifier. -/
theorem max_zero_eq {n M : Nat} (y : FVec Ideal (⟨2, ![n, M]⟩ : Shape) .f32)
    (hb0 : (⟨0, ![]⟩ : Shape).BroadcastsInDim (⟨2, ![n, M]⟩ : Shape) (![] : Fin 0 → Fin 2)) :
    (maximumf y (broadcastInDim (⟨2, ![n, M]⟩ : Shape) ![] hb0 (constant (F := Ideal) (⟨0, ![]⟩ : Shape) .f32 0x00000000#32)) :
        FVec Ideal (⟨2, ![n, M]⟩ : Shape) .f32)
      = relu y := by
  funext i
  rw [relu_apply, maximumf_apply]
  refine congrArg (max (y i)) ?_
  refine (broadcastInDim_apply (s := (⟨0, ![]⟩ : Shape)) (t := (⟨2, ![n, M]⟩ : Shape)) (![] : Fin 0 → Fin 2) hb0 _ i ix0
    (fun a => Fin.elim0 a)).trans ?_
  show Ideal.ofBits .f32 0x00000000#32 = 0
  exact Ideal.ofBits_zero_f32

end Cert.HostDense

end
-- ==== Proof.ValMlp.lean ====
/-
  The two-layer perceptron of a graph-isomorphism layer as one function of whole arrays, on the extended reals:
  mlp2 x w1 b1 w2 b2 = relu (relu (x · w1 + b1) · w2 + b2), with x of n rows. Three readings of it:
  the vector unit's computation on a block of 5000 rows (two matrix products into zero accumulators, each plus its bias
  row and the maximum with zero; the narrowing of the operands' float format changes nothing on the extended reals),
  the host's computation on all 100000 rows (two contractions, each plus its bias spread over the rows and the maximum
  with a spread scalar zero), and the fact that joins blocks to the whole: an entry depends on its row of x only.
-/
import proofs.«168812_j9088150798767_1_alg».proof.Proof.Gen.KernelIdeal.Skeleton
import proofs.«168812_j9088150798767_1_alg».proof.Proof.Gen.ReferenceIdeal
import proofs.«168812_j9088150798767_1_alg».proof.Proof.LibDenseOps
import proofs.«168812_j9088150798767_1_alg».proof.Proof.LibHostDense

noncomputable section

namespace Cert.Val

open Idealize.ShloMosaic Idealize.ShloMosaic.ValueIdx Cert.Dense

/-- Two dense layers, each followed by the rectifier: relu (relu (x · w1 + b1) · w2 + b2), for an n × K matrix x, a
    K × 128 matrix w1, a 128 × 128 matrix w2 and bias vectors b1, b2 of 128 entries. -/
def mlp2 {n K : Nat} (x : (⟨2, ![n, K]⟩ : Shape).Idx → EReal) (w1 : (⟨2, ![K, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![n, 128]⟩ : Shape).Idx → EReal :=
  Cert.Dense.relu (Cert.Dense.lin (Cert.Dense.relu (Cert.Dense.lin x w1 (Cert.HostDense.row b1))) w2 (Cert.HostDense.row b2))

/-- On the extended reals a narrowing of the float format changes no value. -/
theorem truncf_id {s : Shape} {φ ψ : FTy} (a : FVec Ideal s φ) (h : ψ.bits < φ.bits) :
    (truncf ψ a h : FVec Ideal s ψ) = a := rfl

/-- A vector of M entries recast as a 1 × M matrix is that vector laid out as a row. -/
theorem shapeCast_row {M : Nat} (b : (⟨1, ![M]⟩ : Shape).Idx → EReal)
    (h : (⟨1, ![M]⟩ : Shape).ShapeCasts ⟨2, ![1, M]⟩) :
    shapeCast ⟨2, ![1, M]⟩ b h = Cert.HostDense.row b := by
  funext i
  obtain ⟨u, q, rfl⟩ : ∃ (u : Fin 1) (q : Fin M), i = ix2 u q := ⟨i 0, i 1, eq_ix2 i⟩
  exact shapeCast_a_1a_apply b h u q

/-! ### The two products' dimension numbers: rows of the left matrix against columns of the right -/

section K
open Cert.KernelIdeal

theorem dk16_rank : dot_S5000x16_S16x128_S5000x128_1_0_0_1_n_n.contr.rank = 1 := rfl
theorem dk16_size : dot_S5000x16_S16x128_S5000x128_1_0_0_1_n_n.contr.size ⟨0, by rw [dk16_rank]; omega⟩ = 16 := rfl
theorem dk16_l0 (i : S5000x128.Idx) (q : dot_S5000x16_S16x128_S5000x128_1_0_0_1_n_n.contr.Idx) :
    (dot_S5000x16_S16x128_S5000x128_1_0_0_1_n_n.lhsIdx i q 0).val = (i 0).val := by
  simp [DotDims.lhsIdx, dot_S5000x16_S16x128_S5000x128_1_0_0_1_n_n]; rfl
theorem dk16_l1 (i : S5000x128.Idx) (q : dot_S5000x16_S16x128_S5000x128_1_0_0_1_n_n.contr.Idx) :
    (dot_S5000x16_S16x128_S5000x128_1_0_0_1_n_n.lhsIdx i q 1).val = (q ⟨0, by rw [dk16_rank]; omega⟩).val := by
  simp [DotDims.lhsIdx, dot_S5000x16_S16x128_S5000x128_1_0_0_1_n_n]; rfl
theorem dk16_r0 (i : S5000x128.Idx) (q : dot_S5000x16_S16x128_S5000x128_1_0_0_1_n_n.contr.Idx) :
    (dot_S5000x16_S16x128_S5000x128_1_0_0_1_n_n.rhsIdx i q 0).val = (q ⟨0, by rw [dk16_rank]; omega⟩).val := by
  simp [DotDims.rhsIdx, dot_S5000x16_S16x128_S5000x128_1_0_0_1_n_n]; rfl
theorem dk16_r1 (i : S5000x128.Idx) (q : dot_S5000x16_S16x128_S5000x128_1_0_0_1_n_n.contr.Idx) :
    (dot_S5000x16_S16x128_S5000x128_1_0_0_1_n_n.rhsIdx i q 1).val = (i 1).val := by
  simp [DotDims.rhsIdx, dot_S5000x16_S16x128_S5000x128_1_0_0_1_n_n]; rfl

theorem dk128_rank : dot_S5000x128_S128x128_S5000x128_1_0_0_1_n_n.contr.rank = 1 := rfl
theorem dk128_size : dot_S5000x128_S128x128_S5000x128_1_0_0_1_n_n.contr.size ⟨0, by rw [dk128_rank]; omega⟩ = 128 := rfl
theorem dk128_l0 (i : S5000x128.Idx) (q : dot_S5000x128_S128x128_S5000x128_1_0_0_1_n_n.contr.Idx) :
    (dot_S5000x128_S128x128_S5000x128_1_0_0_1_n_n.lhsIdx i q 0).val = (i 0).val := by
  simp [DotDims.lhsIdx, dot_S5000x128_S128x128_S5000x128_1_0_0_1_n_n]; rfl
theorem dk128_l1 (i : S5000x128.Idx) (q : dot_S5000x128_S128x128_S5000x128_1_0_0_1_n_n.contr.Idx) :
    (dot_S5000x128_S128x128_S5000x128_1_0_0_1_n_n.lhsIdx i q 1).val = (q ⟨0, by rw [dk128_rank]; omega⟩).val := by
  simp [DotDims.lhsIdx, dot_S5000x128_S128x128_S5000x128_1_0_0_1_n_n]; rfl
theorem dk128_r0 (i : S5000x128.Idx) (q : dot_S5000x128_S128x128_S5000x128_1_0_0_1_n_n.contr.Idx) :
    (dot_S5000x128_S128x128_S5000x128_1_0_0_1_n_n.rhsIdx i q 0).val = (q ⟨0, by rw [dk128_rank]; omega⟩).val := by
  simp [DotDims.rhsIdx, dot_S5000x128_S128x128_S5000x128_1_0_0_1_n_n]; rfl
theorem dk128_r1 (i : S5000x128.Idx) (q : dot_S5000x128_S128x128_S5000x128_1_0_0_1_n_n.contr.Idx) :
    (dot_S5000x128_S128x128_S5000x128_1_0_0_1_n_n.rhsIdx i q 1).val = (i 1).val := by
  simp [DotDims.rhsIdx, dot_S5000x128_S128x128_S5000x128_1_0_0_1_n_n]; rfl

/-- The first layer's block computation: the two products into zero accumulators, each plus its bias row and rectified,
    are the two-layer function of the block of rows. -/
theorem k0_pay1_eq (v0 : Vec Ideal S5000x16 .f32) (v3 : Vec Ideal S16x128 .f32) (v6 : Vec Ideal S128 .f32)
    (v13 : Vec Ideal S128x128 .f32) (v16 : Vec Ideal S128 .f32) :
    Gen.k0_pay1 (F := Ideal) v0 v3 v6 v13 v16 = mlp2 v0 v3 v6 v13 v16 := by
  unfold Gen.k0_pay1 mlp2
  dsimp only
  simp only [shapeCast_self, truncf_id, shapeCast_row]
  rw [DenseOps.matmul_bias_relu_eq dot_S5000x16_S16x128_S5000x128_1_0_0_1_n_n dk16_rank dk16_size dk16_l0 dk16_l1 dk16_r0 dk16_r1,
    DenseOps.matmul_bias_relu_eq dot_S5000x128_S128x128_S5000x128_1_0_0_1_n_n dk128_rank dk128_size dk128_l0 dk128_l1 dk128_r0 dk128_r1]

/-- The later layers' block computation (128 input columns): the same two-layer function. -/
theorem k2_pay1_eq (v0 : Vec Ideal S5000x128 .f32) (v3 : Vec Ideal S128x128 .f32) (v7 : Vec Ideal S128 .f32)
    (v15 : Vec Ideal S128x128 .f32) (v19 : Vec Ideal S128 .f32) :
    Gen.k2_pay1 (F := Ideal) v0 v3 v7 v15 v19 = mlp2 v0 v3 v7 v15 v19 := by
  unfold Gen.k2_pay1 mlp2
  dsimp only
  simp only [shapeCast_self, truncf_id, shapeCast_row]
  rw [DenseOps.matmul_bias_relu_eq dot_S5000x128_S128x128_S5000x128_1_0_0_1_n_n dk128_rank dk128_size dk128_l0 dk128_l1 dk128_r0 dk128_r1,
    DenseOps.matmul_bias_relu_eq dot_S5000x128_S128x128_S5000x128_1_0_0_1_n_n dk128_rank dk128_size dk128_l0 dk128_l1 dk128_r0 dk128_r1]

/-- The third and fourth layers' block computations are, operation by operation, the second's. -/
theorem k4_pay1_eq (v0 : Vec Ideal S5000x128 .f32) (v3 : Vec Ideal S128x128 .f32) (v7 : Vec Ideal S128 .f32)
    (v15 : Vec Ideal S128x128 .f32) (v19 : Vec Ideal S128 .f32) :
    Gen.k4_pay1 (F := Ideal) v0 v3 v7 v15 v19 = mlp2 v0 v3 v7 v15 v19 :=
  k2_pay1_eq v0 v3 v7 v15 v19

theorem k6_pay1_eq (v0 : Vec Ideal S5000x128 .f32) (v3 : Vec Ideal S128x128 .f32) (v7 : Vec Ideal S128 .f32)
    (v15 : Vec Ideal S128x128 .f32) (v19 : Vec Ideal S128 .f32) :
    Gen.k6_pay1 (F := Ideal) v0 v3 v7 v15 v19 = mlp2 v0 v3 v7 v15 v19 :=
  k2_pay1_eq v0 v3 v7 v15 v19

end K

section R
open Cert.ReferenceIdeal

theorem dr16_rank : dot_S100000x16_S16x128_S100000x128_1_0_0_1_n_n.contr.rank = 1 := rfl
theorem dr16_size : dot_S100000x16_S16x128_S100000x128_1_0_0_1_n_n.contr.size ⟨0, by rw [dr16_rank]; omega⟩ = 16 := rfl
theorem dr16_l0 (i : S100000x128.Idx) (q : dot_S100000x16_S16x128_S100000x128_1_0_0_1_n_n.contr.Idx) :
    (dot_S100000x16_S16x128_S100000x128_1_0_0_1_n_n.lhsIdx i q 0).val = (i 0).val := by
  simp [DotDims.lhsIdx, dot_S100000x16_S16x128_S100000x128_1_0_0_1_n_n]; rfl
theorem dr16_l1 (i : S100000x128.Idx) (q : dot_S100000x16_S16x128_S100000x128_1_0_0_1_n_n.contr.Idx) :
    (dot_S100000x16_S16x128_S100000x128_1_0_0_1_n_n.lhsIdx i q 1).val = (q ⟨0, by rw [dr16_rank]; omega⟩).val := by
  simp [DotDims.lhsIdx, dot_S100000x16_S16x128_S100000x128_1_0_0_1_n_n]; rfl
theorem dr16_r0 (i : S100000x128.Idx) (q : dot_S100000x16_S16x128_S100000x128_1_0_0_1_n_n.contr.Idx) :
    (dot_S100000x16_S16x128_S100000x128_1_0_0_1_n_n.rhsIdx i q 0).val = (q ⟨0, by rw [dr16_rank]; omega⟩).val := by
  simp [DotDims.rhsIdx, dot_S100000x16_S16x128_S100000x128_1_0_0_1_n_n]; rfl
theorem dr16_r1 (i : S100000x128.Idx) (q : dot_S100000x16_S16x128_S100000x128_1_0_0_1_n_n.contr.Idx) :
    (dot_S100000x16_S16x128_S100000x128_1_0_0_1_n_n.rhsIdx i q 1).val = (i 1).val := by
  simp [DotDims.rhsIdx, dot_S100000x16_S16x128_S100000x128_1_0_0_1_n_n]; rfl

theorem dr128_rank : dot_S100000x128_S128x128_S100000x128_1_0_0_1_n_n.contr.rank = 1 := rfl
theorem dr128_size : dot_S100000x128_S128x128_S100000x128_1_0_0_1_n_n.contr.size ⟨0, by rw [dr128_rank]; omega⟩ = 128 := rfl
theorem dr128_l0 (i : S100000x128.Idx) (q : dot_S100000x128_S128x128_S100000x128_1_0_0_1_n_n.contr.Idx) :
    (dot_S100000x128_S128x128_S100000x128_1_0_0_1_n_n.lhsIdx i q 0).val = (i 0).val := by
  simp [DotDims.lhsIdx, dot_S100000x128_S128x128_S100000x128_1_0_0_1_n_n]; rfl
theorem dr128_l1 (i : S100000x128.Idx) (q : dot_S100000x128_S128x128_S100000x128_1_0_0_1_n_n.contr.Idx) :
    (dot_S100000x128_S128x128_S100000x128_1_0_0_1_n_n.lhsIdx i q 1).val = (q ⟨0, by rw [dr128_rank]; omega⟩).val := by
  simp [DotDims.lhsIdx, dot_S100000x128_S128x128_S100000x128_1_0_0_1_n_n]; rfl
theorem dr128_r0 (i : S100000x128.Idx) (q : dot_S100000x128_S128x128_S100000x128_1_0_0_1_n_n.contr.Idx) :
    (dot_S100000x128_S128x128_S100000x128_1_0_0_1_n_n.rhsIdx i q 0).val = (q ⟨0, by rw [dr128_rank]; omega⟩).val := by
  simp [DotDims.rhsIdx, dot_S100000x128_S128x128_S100000x128_1_0_0_1_n_n]; rfl
theorem dr128_r1 (i : S100000x128.Idx) (q : dot_S100000x128_S128x128_S100000x128_1_0_0_1_n_n.contr.Idx) :
    (dot_S100000x128_S128x128_S100000x128_1_0_0_1_n_n.rhsIdx i q 1).val = (i 1).val := by
  simp [DotDims.rhsIdx, dot_S100000x128_S128x128_S100000x128_1_0_0_1_n_n]; rfl

/-- The host's spelling of the first layer's two dense layers (16 input columns): each a contraction of the left
    matrix's columns against the right's rows, plus the bias vector spread to a row and then over all rows, then the
    maximum with a scalar zero spread over the array. It is the two-layer function of the whole array. -/
theorem mlp2_host16 (x : FVec Ideal S100000x16 .f32) (w1 : FVec Ideal S16x128 .f32) (b1 : FVec Ideal S128 .f32)
    (w2 : FVec Ideal S128x128 .f32) (b2 : FVec Ideal S128 .f32)
    (hb1 : S128.BroadcastsInDim S1x128 (![1] : Fin 1 → Fin S1x128.rank))
    (hb2 : S1x128.BroadcastsInDim S100000x128 (![0, 1] : Fin 2 → Fin S100000x128.rank))
    (hb0 : S_.BroadcastsInDim S100000x128 (![] : Fin 0 → Fin S100000x128.rank)) :
    (maximumf
      (addf
        (Host.dotGeneral dot_S100000x128_S128x128_S100000x128_1_0_0_1_n_n none
          (maximumf
            (addf (Host.dotGeneral dot_S100000x16_S16x128_S100000x128_1_0_0_1_n_n none x w1)
              (broadcastInDim S100000x128 ![0, 1] hb2 (broadcastInDim S1x128 ![1] hb1 b1)))
            (broadcastInDim S100000x128 ![] hb0 (constant (F := Ideal) S_ .f32 0x00000000#32)))
          w2)
        (broadcastInDim S100000x128 ![0, 1] hb2 (broadcastInDim S1x128 ![1] hb1 b2)))
      (broadcastInDim S100000x128 ![] hb0 (constant (F := Ideal) S_ .f32 0x00000000#32)) : FVec Ideal S100000x128 .f32)
      = mlp2 x w1 b1 w2 b2 := by
  unfold mlp2
  rw [HostDense.dot_bias_eq dot_S100000x16_S16x128_S100000x128_1_0_0_1_n_n dr16_rank dr16_size dr16_l0 dr16_l1 dr16_r0 dr16_r1 none x w1 b1 hb1 hb2,
    HostDense.max_zero_eq _ hb0,
    HostDense.dot_bias_eq dot_S100000x128_S128x128_S100000x128_1_0_0_1_n_n dr128_rank dr128_size dr128_l0 dr128_l1 dr128_r0 dr128_r1 none _ w2 b2 hb1 hb2,
    HostDense.max_zero_eq _ hb0]

/-- The same for the later layers (128 input columns). -/
theorem mlp2_host128 (x : FVec Ideal S100000x128 .f32) (w1 : FVec Ideal S128x128 .f32) (b1 : FVec Ideal S128 .f32)
    (w2 : FVec Ideal S128x128 .f32) (b2 : FVec Ideal S128 .f32)
    (hb1 : S128.BroadcastsInDim S1x128 (![1] : Fin 1 → Fin S1x128.rank))
    (hb2 : S1x128.BroadcastsInDim S100000x128 (![0, 1] : Fin 2 → Fin S100000x128.rank))
    (hb0 : S_.BroadcastsInDim S100000x128 (![] : Fin 0 → Fin S100000x128.rank)) :
    (maximumf
      (addf
        (Host.dotGeneral dot_S100000x128_S128x128_S100000x128_1_0_0_1_n_n none
          (maximumf
            (addf (Host.dotGeneral dot_S100000x128_S128x128_S100000x128_1_0_0_1_n_n none x w1)
              (broadcastInDim S100000x128 ![0, 1] hb2 (broadcastInDim S1x128 ![1] hb1 b1)))
            (broadcastInDim S100000x128 ![] hb0 (constant (F := Ideal) S_ .f32 0x00000000#32)))
          w2)
        (broadcastInDim S100000x128 ![0, 1] hb2 (broadcastInDim S1x128 ![1] hb1 b2)))
      (broadcastInDim S100000x128 ![] hb0 (constant (F := Ideal) S_ .f32 0x00000000#32)) : FVec Ideal S100000x128 .f32)
      = mlp2 x w1 b1 w2 b2 := by
  unfold mlp2
  rw [HostDense.dot_bias_eq dot_S100000x128_S128x128_S100000x128_1_0_0_1_n_n dr128_rank dr128_size dr128_l0 dr128_l1 dr128_r0 dr128_r1 none x w1 b1 hb1 hb2,
    HostDense.max_zero_eq _ hb0,
    HostDense.dot_bias_eq dot_S100000x128_S128x128_S100000x128_1_0_0_1_n_n dr128_rank dr128_size dr128_l0 dr128_l1 dr128_r0 dr128_r1 none _ w2 b2 hb1 hb2,
    HostDense.max_zero_eq _ hb0]

end R

/-- An entry of the two-layer function depends on its row of the input only: if row r of x' is row r' of x then row r of
    the result on x' is row r' of the result on x (so a block of rows of the result is the result of that block). -/
theorem mlp2_rows {n n' K : Nat} (x : (⟨2, ![n, K]⟩ : Shape).Idx → EReal) (x' : (⟨2, ![n', K]⟩ : Shape).Idx → EReal)
    (w1 : (⟨2, ![K, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (r : Fin n') (r' : Fin n) (hrow : ∀ k : Fin K, x' (ix2 r k) = x (ix2 r' k)) (q : Fin 128) :
    mlp2 x' w1 b1 w2 b2 (ix2 r q) = mlp2 x w1 b1 w2 b2 (ix2 r' q) := by
  unfold mlp2
  rw [relu_apply, relu_apply]
  refine congrArg (max · 0) ?_
  refine lin_congr _ w2 _ _ w2 _ (ix2 r' q) (ix2 r q) (fun k => ?_) (fun _ => rfl) rfl
  rw [relu_apply, relu_apply]
  refine congrArg (max · 0) ?_
  exact lin_congr x w1 _ x' w1 _ (ix2 r' k) (ix2 r k) hrow (fun _ => rfl) rfl

end Cert.Val

end
-- ==== Proof.ValBn.lean ====
/-
  The normalisation that follows each layer's perceptron, as one function of whole arrays, on the extended reals:
  bnorm h mean var gamma beta at entry (r, q) is gamma q · (h (r, q) − mean q) · rsqrt (var q + ε) + beta q, with ε the
  float 9.99999974e-6 kept as its word. Two readings of it — the vector unit's computation on a block of 5000 rows and the
  host's on all 100000 rows (both spread the four vectors of 128 entries over the rows, one as a cast to a row followed
  by a spread, the other as two spreads) — and the fact that an entry depends on its own entry of h only.
-/
import proofs.«168812_j9088150798767_1_alg».proof.Proof.Gen.KernelIdeal.Skeleton
import proofs.«168812_j9088150798767_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal

noncomputable section

namespace Cert.Val

open Idealize.ShloMosaic Idealize.ShloMosaic.ValueIdx

/-- The normalisation of an n × 128 array by per-column mean and variance, scaled by gamma and shifted by beta: entry
    (r, q) is gamma q · (h (r, q) − mean q) · rsqrt (var q + ε) + beta q, the product associated as written. -/
def bnorm {n : Nat} (h : (⟨2, ![n, 128]⟩ : Shape).Idx → EReal) (mean var gamma beta : (⟨1, ![128]⟩ : Shape).Idx → EReal) :
    (⟨2, ![n, 128]⟩ : Shape).Idx → EReal :=
  fun i => gamma (ix1 (i 1)) * (h i - mean (ix1 (i 1))) * Ideal.rsqrt (var (ix1 (i 1)) + Ideal.ofBits .f32 0x3727C5AC#32)
    + beta (ix1 (i 1))

/-- The normalisation at explicit coordinates. -/
theorem bnorm_apply {n : Nat} (h : (⟨2, ![n, 128]⟩ : Shape).Idx → EReal) (mean var gamma beta : (⟨1, ![128]⟩ : Shape).Idx → EReal)
    (r : Fin n) (q : Fin 128) :
    bnorm h mean var gamma beta (ix2 r q)
      = gamma (ix1 q) * (h (ix2 r q) - mean (ix1 q)) * Ideal.rsqrt (var (ix1 q) + Ideal.ofBits .f32 0x3727C5AC#32) + beta (ix1 q) := rfl

/-- A vector of M entries recast as a 1 × M row and spread over n rows reads, at (p, q), the vector's entry q. -/
theorem castRow_spread_apply {n M : Nat} (b : (⟨1, ![M]⟩ : Shape).Idx → EReal)
    (hsc : (⟨1, ![M]⟩ : Shape).ShapeCasts ⟨2, ![1, M]⟩) (hb : (⟨2, ![1, M]⟩ : Shape).Broadcasts ⟨2, ![n, M]⟩)
    (p : Fin n) (q : Fin M) :
    broadcastTo (⟨2, ![n, M]⟩ : Shape) (shapeCast (⟨2, ![1, M]⟩ : Shape) b hsc) hb (ix2 p q) = b (ix1 q) := by
  rw [broadcastTo_1b_ab_apply _ hb p q, shapeCast_a_1a_apply b hsc 0 q]

/-- A vector of M entries spread to a 1 × M row and then over n rows reads, at (p, q), the vector's entry q. -/
theorem spreadRow_spread_apply {n M : Nat} (b : (⟨1, ![M]⟩ : Shape).Idx → EReal)
    (hb1 : (⟨1, ![M]⟩ : Shape).BroadcastsInDim (⟨2, ![1, M]⟩ : Shape) (![1] : Fin 1 → Fin 2))
    (hb2 : (⟨2, ![1, M]⟩ : Shape).BroadcastsInDim (⟨2, ![n, M]⟩ : Shape) (![0, 1] : Fin 2 → Fin 2))
    (p : Fin n) (q : Fin M) :
    broadcastInDim (⟨2, ![n, M]⟩ : Shape) ![0, 1] hb2 (broadcastInDim (⟨2, ![1, M]⟩ : Shape) ![1] hb1 b) (ix2 p q) = b (ix1 q) := by
  rw [broadcastInDim_apply ![0, 1] hb2 _ (ix2 p q) (ix2 (0 : Fin 1) q) (fun a => by
    match a with
    | ⟨0, _⟩ => show 0 = if (1 : Nat) = 1 then 0 else p.val; rw [if_pos rfl]
    | ⟨1, _⟩ =>
      show q.val = if M = 1 then 0 else q.val
      split
      · have := q.isLt; omega
      · rfl)]
  exact broadcastInDim_apply ![1] hb1 b (ix2 (0 : Fin 1) q) (ix1 q) (fun a => by
    match a with
    | ⟨0, _⟩ =>
      show q.val = if M = 1 then 0 else q.val
      split
      · have := q.isLt; omega
      · rfl)

/-- A scalar spread over a vector of M entries reads the scalar at every entry. -/
theorem spreadScalar_apply {M : Nat} (c : (⟨0, ![]⟩ : Shape).Idx → EReal)
    (hb0 : (⟨0, ![]⟩ : Shape).BroadcastsInDim (⟨1, ![M]⟩ : Shape) (![] : Fin 0 → Fin 1)) (i : (⟨1, ![M]⟩ : Shape).Idx) :
    broadcastInDim (⟨1, ![M]⟩ : Shape) ![] hb0 c i = c ix0 :=
  broadcastInDim_apply (s := (⟨0, ![]⟩ : Shape)) (t := (⟨1, ![M]⟩ : Shape)) (![] : Fin 0 → Fin 1) hb0 c i ix0 (fun a => Fin.elim0 a)

/-- The vector unit's normalisation of a block of n rows, for any n: with the four vectors each recast as a row and spread
    over the rows, gamma times (h − mean), times the spread reciprocal square root of var + ε, plus beta. -/
theorem vec_bnorm_eq {n : Nat} (h : FVec Ideal (⟨2, ![n, 128]⟩ : Shape) .f32) (mean var gamma beta : FVec Ideal (⟨1, ![128]⟩ : Shape) .f32)
    (hsc : (⟨1, ![128]⟩ : Shape).ShapeCasts ⟨2, ![1, 128]⟩) (hb : (⟨2, ![1, 128]⟩ : Shape).Broadcasts ⟨2, ![n, 128]⟩) :
    addf
      (mulf
        (mulf (broadcastTo (⟨2, ![n, 128]⟩ : Shape) (shapeCast (⟨2, ![1, 128]⟩ : Shape) gamma hsc) hb)
          (subf h (broadcastTo (⟨2, ![n, 128]⟩ : Shape) (shapeCast (⟨2, ![1, 128]⟩ : Shape) mean hsc) hb)))
        (broadcastTo (⟨2, ![n, 128]⟩ : Shape)
          (shapeCast (⟨2, ![1, 128]⟩ : Shape)
            (rsqrt (addf var (broadcast (⟨1, ![128]⟩ : Shape) (Scalar.ofBits (F := Ideal) .f32 0x3727C5AC#32)))) hsc) hb))
      (broadcastTo (⟨2, ![n, 128]⟩ : Shape) (shapeCast (⟨2, ![1, 128]⟩ : Shape) beta hsc) hb)
      = bnorm h mean var gamma beta := by
  funext i
  obtain ⟨p, q, rfl⟩ : ∃ (p : Fin n) (q : Fin 128), i = ix2 p q := ⟨i 0, i 1, eq_ix2 i⟩
  rw [bnorm_apply, addf_apply, mulf_apply, mulf_apply, subf_apply, castRow_spread_apply gamma hsc hb p q,
    castRow_spread_apply mean hsc hb p q, castRow_spread_apply _ hsc hb p q, castRow_spread_apply beta hsc hb p q]
  rfl

section K
open Cert.KernelIdeal

/-- The first layer's normalisation of a block: operands in the order mean, var, gamma, beta. -/
theorem k1_pay1_eq (v0 : Vec Ideal S5000x128 .f32) (v2 : Vec Ideal S128 .f32) (v4 : Vec Ideal S128 .f32)
    (v6 : Vec Ideal S128 .f32) (v7 : Vec Ideal S128 .f32) :
    Gen.k1_pay1 (F := Ideal) v0 v2 v4 v6 v7 = bnorm v0 v2 v4 v6 v7 := by
  unfold Gen.k1_pay1
  dsimp only
  simp only [shapeCast_self]
  exact vec_bnorm_eq v0 v2 v4 v6 v7 _ _

/-- The later layers' normalisation of a block: the same computation. -/
theorem k3_pay1_eq (v0 : Vec Ideal S5000x128 .f32) (v2 : Vec Ideal S128 .f32) (v4 : Vec Ideal S128 .f32)
    (v6 : Vec Ideal S128 .f32) (v8 : Vec Ideal S128 .f32) :
    Gen.k3_pay1 (F := Ideal) v0 v2 v4 v6 v8 = bnorm v0 v2 v4 v6 v8 := by
  unfold Gen.k3_pay1
  dsimp only
  simp only [shapeCast_self]
  exact vec_bnorm_eq v0 v2 v4 v6 v8 _ _

theorem k5_pay1_eq (v0 : Vec Ideal S5000x128 .f32) (v2 : Vec Ideal S128 .f32) (v4 : Vec Ideal S128 .f32)
    (v6 : Vec Ideal S128 .f32) (v8 : Vec Ideal S128 .f32) :
    Gen.k5_pay1 (F := Ideal) v0 v2 v4 v6 v8 = bnorm v0 v2 v4 v6 v8 :=
  k3_pay1_eq v0 v2 v4 v6 v8

theorem k7_pay1_eq (v0 : Vec Ideal S5000x128 .f32) (v2 : Vec Ideal S128 .f32) (v4 : Vec Ideal S128 .f32)
    (v6 : Vec Ideal S128 .f32) (v8 : Vec Ideal S128 .f32) :
    Gen.k7_pay1 (F := Ideal) v0 v2 v4 v6 v8 = bnorm v0 v2 v4 v6 v8 :=
  k3_pay1_eq v0 v2 v4 v6 v8

end K

/-- The host's normalisation of an array of n rows, for any n: with the four vectors each spread to a row and then over
    the rows, gamma times (h − mean), times the spread reciprocal square root of var + ε (ε a scalar spread over the
    128 entries), plus beta. -/
theorem host_bnorm_eq {n : Nat} (h : FVec Ideal (⟨2, ![n, 128]⟩ : Shape) .f32) (mean var gamma beta : FVec Ideal (⟨1, ![128]⟩ : Shape) .f32)
    (hb1 : (⟨1, ![128]⟩ : Shape).BroadcastsInDim (⟨2, ![1, 128]⟩ : Shape) (![1] : Fin 1 → Fin 2))
    (hb2 : (⟨2, ![1, 128]⟩ : Shape).BroadcastsInDim (⟨2, ![n, 128]⟩ : Shape) (![0, 1] : Fin 2 → Fin 2))
    (hbs : (⟨0, ![]⟩ : Shape).BroadcastsInDim (⟨1, ![128]⟩ : Shape) (![] : Fin 0 → Fin 1)) :
    (addf
      (mulf
        (mulf (broadcastInDim (⟨2, ![n, 128]⟩ : Shape) ![0, 1] hb2 (broadcastInDim (⟨2, ![1, 128]⟩ : Shape) ![1] hb1 gamma))
          (subf h (broadcastInDim (⟨2, ![n, 128]⟩ : Shape) ![0, 1] hb2 (broadcastInDim (⟨2, ![1, 128]⟩ : Shape) ![1] hb1 mean))))
        (broadcastInDim (⟨2, ![n, 128]⟩ : Shape) ![0, 1] hb2
          (broadcastInDim (⟨2, ![1, 128]⟩ : Shape) ![1] hb1
            (Host.rsqrt (addf var
              (broadcastInDim (⟨1, ![128]⟩ : Shape) ![] hbs (constant (F := Ideal) (⟨0, ![]⟩ : Shape) .f32 0x3727C5AC#32)))))))
      (broadcastInDim (⟨2, ![n, 128]⟩ : Shape) ![0, 1] hb2 (broadcastInDim (⟨2, ![1, 128]⟩ : Shape) ![1] hb1 beta)) :
        FVec Ideal (⟨2, ![n, 128]⟩ : Shape) .f32)
      = bnorm h mean var gamma beta := by
  funext i
  obtain ⟨p, q, rfl⟩ : ∃ (p : Fin n) (q : Fin 128), i = ix2 p q := ⟨i 0, i 1, eq_ix2 i⟩
  rw [bnorm_apply, addf_apply, mulf_apply, mulf_apply, subf_apply, spreadRow_spread_apply gamma hb1 hb2 p q,
    spreadRow_spread_apply mean hb1 hb2 p q, spreadRow_spread_apply _ hb1 hb2 p q, spreadRow_spread_apply beta hb1 hb2 p q]
  have e : Host.rsqrt (addf var
        (broadcastInDim (⟨1, ![128]⟩ : Shape) ![] hbs (constant (F := Ideal) (⟨0, ![]⟩ : Shape) .f32 0x3727C5AC#32))) (ix1 q)
      = Ideal.rsqrt (var (ix1 q) + Ideal.ofBits .f32 0x3727C5AC#32) := by
    show Ideal.rsqrt (var (ix1 q)
      + broadcastInDim (⟨1, ![128]⟩ : Shape) ![] hbs (constant (F := Ideal) (⟨0, ![]⟩ : Shape) .f32 0x3727C5AC#32) (ix1 q)) = _
    rw [spreadScalar_apply]
    rfl
  rw [e]

section R
open Cert.ReferenceIdeal

/-- The host's normalisation of the whole array of 100000 rows, as the reference spells it. -/
theorem bnorm_host (h : FVec Ideal S100000x128 .f32) (mean var gamma beta : FVec Ideal S128 .f32)
    (hb1 : S128.BroadcastsInDim S1x128 (![1] : Fin 1 → Fin S1x128.rank))
    (hb2 : S1x128.BroadcastsInDim S100000x128 (![0, 1] : Fin 2 → Fin S100000x128.rank))
    (hbs : S_.BroadcastsInDim S128 (![] : Fin 0 → Fin S128.rank)) :
    (addf
      (mulf
        (mulf (broadcastInDim S100000x128 ![0, 1] hb2 (broadcastInDim S1x128 ![1] hb1 gamma))
          (subf h (broadcastInDim S100000x128 ![0, 1] hb2 (broadcastInDim S1x128 ![1] hb1 mean))))
        (broadcastInDim S100000x128 ![0, 1] hb2
          (broadcastInDim S1x128 ![1] hb1
            (Host.rsqrt (addf var (broadcastInDim S128 ![] hbs (constant (F := Ideal) S_ .f32 0x3727C5AC#32)))))))
      (broadcastInDim S100000x128 ![0, 1] hb2 (broadcastInDim S1x128 ![1] hb1 beta)) : FVec Ideal S100000x128 .f32)
      = bnorm h mean var gamma beta :=
  host_bnorm_eq h mean var gamma beta hb1 hb2 hbs

end R

/-- An entry of the normalisation depends on its own entry of h only. -/
theorem bnorm_entry {n n' : Nat} (h : (⟨2, ![n, 128]⟩ : Shape).Idx → EReal) (h' : (⟨2, ![n', 128]⟩ : Shape).Idx → EReal)
    (mean var gamma beta : (⟨1, ![128]⟩ : Shape).Idx → EReal) (r : Fin n') (r' : Fin n) (q : Fin 128)
    (hq : h' (ix2 r q) = h (ix2 r' q)) :
    bnorm h' mean var gamma beta (ix2 r q) = bnorm h mean var gamma beta (ix2 r' q) := by
  rw [bnorm_apply, bnorm_apply, hq]

/-- So a row of the normalisation depends on that row of h only: if row r of h' is row r' of h then row r of the
    result on h' is row r' of the result on h. -/
theorem bnorm_rows {n n' : Nat} (h : (⟨2, ![n, 128]⟩ : Shape).Idx → EReal) (h' : (⟨2, ![n', 128]⟩ : Shape).Idx → EReal)
    (mean var gamma beta : (⟨1, ![128]⟩ : Shape).Idx → EReal) (r : Fin n') (r' : Fin n)
    (hrow : ∀ k : Fin 128, h' (ix2 r k) = h (ix2 r' k)) (q : Fin 128) :
    bnorm h' mean var gamma beta (ix2 r q) = bnorm h mean var gamma beta (ix2 r' q) :=
  bnorm_entry h h' mean var gamma beta r r' q (hrow q)

end Cert.Val

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibLogSoftmax.lean ====
/-
  A row-wise log-softmax, read at an index — general in the extents.

  For a row `f` of scores its log-softmax at column `c` is (f c − M) − log ∑ₖ exp (f k − M), with M the row's largest
  score. A vector unit spells it with a lane maximum, a keepdims recast, a broadcast along the lanes, a lane sum; the host
  spells it with a reduce by maximum from −∞, a further maximum against −∞ (which changes nothing: the fold already starts
  there), a sum started from zero, and two broadcasts by dimension for each column. Over the extended reals both read, at
  entry (p, c) of an n × m matrix, the row formula at row p: subtraction, `exp` and `log` act entry by entry, and the
  row's maximum and the row's sum are the same fold and the same finite sum whichever unit takes them.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«168812_j9088150798767_1_alg».proof.Proof.LibColumns
import proofs.«168812_j9088150798767_1_alg».proof.Proof.LibRowMax

noncomputable section

open scoped BigOperators

namespace Cert.LibLogSoftmax

open Idealize.ShloMosaic Idealize.ShloMosaic.ValueIdx

/-- The largest entry of a row, folded from the float word of −∞. -/
def rowTop {m : ℕ} (f : Fin m → EReal) : EReal :=
  (Finset.univ : Finset (Fin m)).fold max (Ideal.ofBits .f32 0xFF800000#32) f

/-- A row's log-softmax at column `c`. -/
def lsmEntry {m : ℕ} (f : Fin m → EReal) (c : Fin m) : EReal :=
  (f c - rowTop f) - Ideal.log (∑ k : Fin m, Ideal.exp (f k - rowTop f))

/-- The log-softmax of every row of an n × m matrix. -/
def logSoftmax {n m : ℕ} (h : (⟨2, ![n, m]⟩ : Shape).Idx → EReal) : (⟨2, ![n, m]⟩ : Shape).Idx → EReal :=
  fun i => lsmEntry (fun k => h (ix2 (i 0) k)) (i 1)

/-- The row's top is at least the word it is folded from, so taking the larger of the two changes nothing. -/
theorem max_word_rowTop {m : ℕ} (f : Fin m → EReal) : max (Ideal.ofBits .f32 0xFF800000#32) (rowTop f) = rowTop f :=
  max_eq_right ((Finset.le_fold_max (Ideal.ofBits .f32 0xFF800000#32)).mpr (Or.inl le_rfl))

variable {α : Type}

/-- A vector of `a` entries broadcast by dimension to an `a × 1` column reads, at `(p, z)`, entry `p`. -/
theorem bcastInDim_a_a1_apply {a : ℕ} (h : (⟨1, ![a]⟩ : Shape).BroadcastsInDim ⟨2, ![a, 1]⟩ ![0])
    (v : (⟨1, ![a]⟩ : Shape).Idx → α) (p : Fin a) (z : Fin 1) :
    broadcastInDim ⟨2, ![a, 1]⟩ ![0] h v (ix2 p z) = v (ix1 p) := by
  refine broadcastInDim_apply ![0] h v (ix2 p z) (ix1 p) fun ax => ?_
  match ax with
  | ⟨0, _⟩ =>
    show p.val = if a = 1 then 0 else p.val
    split
    · have := p.isLt; omega
    · rfl

/-- An `a × 1` column broadcast by dimension to `a × b` reads, at `(p, c)`, the column's entry `p`. -/
theorem bcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The host's reduce by maximum of an `n × m` matrix along its second axis, from the float word of −∞, reads at `p`
    the row's top. -/
theorem hostRowMax_apply {n m : ℕ} (x : FVec Ideal ⟨2, ![n, m]⟩ .f32)
    (hrt : (⟨2, ![n, m]⟩ : Shape).ReducesTo [1] ⟨1, ![n]⟩) (hr : (⟨2, ![n, m]⟩ : Shape).Reduces [1] ⟨1, ![n]⟩)
    (hu : 0 < (⟨0, ![]⟩ : Shape).numel) (p : Fin n) :
    Host.reduce FloatOps.maximumf x (constant (F := Ideal) (⟨0, ![]⟩ : Shape) .f32 0xFF800000#32) hrt hu (ix1 p)
      = rowTop (fun k : Fin m => x (ix2 p k)) := by
  rw [Host.reduce_eq_fold_single FloatOps.maximumf x _ hrt hr hu]
  have hf : (x ∘ hr.lift (ix1 p)) = fun k : Fin m => x (ix2 p k) := funext fun k => congrArg x
    (funext fun c => Fin.ext (by match c with | ⟨0, _⟩ => rfl | ⟨1, _⟩ => rfl))
  exact congrArg (fun f => Finset.fold max (Ideal.ofBits .f32 0xFF800000#32) f (Finset.univ : Finset (Fin m))) hf

/-- The host's sum of an `n × m` matrix along its second axis, started from the zero word, reads at `p` the row's sum. -/
theorem hostRowSum_apply {n m : ℕ} (x : FVec Ideal ⟨2, ![n, m]⟩ .f32)
    (hrt : (⟨2, ![n, m]⟩ : Shape).ReducesTo [1] ⟨1, ![n]⟩) (hr : (⟨2, ![n, m]⟩ : Shape).Reduces [1] ⟨1, ![n]⟩)
    (hu : 0 < (⟨0, ![]⟩ : Shape).numel) (p : Fin n) :
    Host.reduceAdd x (constant (F := Ideal) (⟨0, ![]⟩ : Shape) .f32 0x00000000#32) hrt hu (ix1 p)
      = ∑ k : Fin m, x (ix2 p k) := by
  rw [hostReduceAdd_apply, Ideal.hostReduceAdd_single hrt hr]
  show Ideal.ofBits .f32 0x00000000#32 + _ = _
  rw [Ideal.ofBits_zero_f32, zero_add]
  refine Finset.sum_congr rfl fun k _ => congrArg x ?_
  funext c
  apply Fin.ext
  match c with
  | ⟨0, _⟩ => rfl
  | ⟨1, _⟩ => rfl

/-- The vector unit's spelling, at entry (p, c): the row formula at row p. -/
theorem vector_apply {n m : ℕ} (x : FVec Ideal ⟨2, ![n, m]⟩ .f32)
    (hred : (⟨2, ![n, m]⟩ : Shape).Reduces [1] ⟨1, ![n]⟩) (hc : (⟨1, ![n]⟩ : Shape).ShapeCasts ⟨2, ![n, 1]⟩)
    (hb : (⟨2, ![n, 1]⟩ : Shape).Broadcasts ⟨2, ![n, m]⟩) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin n) (c : Fin m) :
    subf (subf x (broadcastTo ⟨2, ![n, m]⟩ (shapeCast ⟨2, ![n, 1]⟩ (multiReduction .maximumf [1] ⟨1, ![n]⟩ x 0xFF800000#32 hred hφ hmax) hc) hb))
      (broadcastTo ⟨2, ![n, m]⟩ (log (shapeCast ⟨2, ![n, 1]⟩ (multiReduction .add [1] ⟨1, ![n]⟩
        (exp (subf x (broadcastTo ⟨2, ![n, m]⟩ (shapeCast ⟨2, ![n, 1]⟩ (multiReduction .maximumf [1] ⟨1, ![n]⟩ x 0xFF800000#32 hred hφ hmax) hc) hb)))
        0x00000000#32 hred hφ hadd) hc)) hb) (ix2 p c)
      = lsmEntry (fun k : Fin m => x (ix2 p k)) c := by
  have hM : ∀ q : Fin m, broadcastTo ⟨2, ![n, m]⟩ (shapeCast ⟨2, ![n, 1]⟩ (multiReduction .maximumf [1] ⟨1, ![n]⟩ x 0xFF800000#32 hred hφ hmax) hc) hb (ix2 p q)
      = rowTop (fun k : Fin m => x (ix2 p k)) := fun q => by
    rw [Cert.LibColumns.broadcastTo_a1_ab_apply, Cert.LibColumns.shapeCast_a_a1_apply]
    exact Cert.LibRowMax.rowMax_apply x _ hred hφ hmax p
  generalize broadcastTo ⟨2, ![n, m]⟩ (shapeCast ⟨2, ![n, 1]⟩ (multiReduction .maximumf [1] ⟨1, ![n]⟩ x 0xFF800000#32 hred hφ hmax) hc) hb = B at hM ⊢
  have hS : broadcastTo ⟨2, ![n, m]⟩ (log (shapeCast ⟨2, ![n, 1]⟩ (multiReduction .add [1] ⟨1, ![n]⟩ (exp (subf x B)) 0x00000000#32 hred hφ hadd) hc)) hb (ix2 p c)
      = Ideal.log (∑ k : Fin m, Ideal.exp (x (ix2 p k) - rowTop (fun k : Fin m => x (ix2 p k)))) := by
    rw [Cert.LibColumns.broadcastTo_a1_ab_apply]
    show Ideal.log (shapeCast ⟨2, ![n, 1]⟩ (multiReduction .add [1] ⟨1, ![n]⟩ (exp (subf x B)) 0x00000000#32 hred hφ hadd) hc (ix2 p (0 : Fin 1))) = _
    rw [Cert.LibColumns.shapeCast_a_a1_apply, Cert.LibColumns.rowSum_apply]
    refine congrArg Ideal.log (Finset.sum_congr rfl fun k _ => ?_)
    show Ideal.exp (x (ix2 p k) - B (ix2 p k)) = _
    rw [hM k]
  show (x (ix2 p c) - B (ix2 p c)) - _ = _
  rw [hS, hM c]
  rfl

/-- The host's spelling, at entry (p, c): the same row formula at row p. -/
theorem host_apply {n m : ℕ} (x : FVec Ideal ⟨2, ![n, m]⟩ .f32)
    (hrt : (⟨2, ![n, m]⟩ : Shape).ReducesTo [1] ⟨1, ![n]⟩) (hr : (⟨2, ![n, m]⟩ : Shape).Reduces [1] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, m]⟩ ![0, 1]) (p : Fin n) (c : Fin m) :
    subf (subf x (broadcastInDim ⟨2, ![n, m]⟩ ![0, 1] hb2 (broadcastInDim ⟨2, ![n, 1]⟩ ![0] hb1
        (maximumf (broadcastInDim ⟨1, ![n]⟩ ![] hb0 (constant (F := Ideal) (⟨0, ![]⟩ : Shape) .f32 0xFF800000#32))
          (Host.reduce FloatOps.maximumf x (constant (F := Ideal) (⟨0, ![]⟩ : Shape) .f32 0xFF800000#32) hrt hu)))))
      (broadcastInDim ⟨2, ![n, m]⟩ ![0, 1] hb2 (Host.log (broadcastInDim ⟨2, ![n, 1]⟩ ![0] hb1
        (Host.reduceAdd (Host.exp (subf x (broadcastInDim ⟨2, ![n, m]⟩ ![0, 1] hb2 (broadcastInDim ⟨2, ![n, 1]⟩ ![0] hb1
          (maximumf (broadcastInDim ⟨1, ![n]⟩ ![] hb0 (constant (F := Ideal) (⟨0, ![]⟩ : Shape) .f32 0xFF800000#32))
            (Host.reduce FloatOps.maximumf x (constant (F := Ideal) (⟨0, ![]⟩ : Shape) .f32 0xFF800000#32) hrt hu))))))
          (constant (F := Ideal) (⟨0, ![]⟩ : Shape) .f32 0x00000000#32) hrt hu)))) (ix2 p c)
      = lsmEntry (fun k : Fin m => x (ix2 p k)) c := by
  have hM : ∀ q : Fin m, broadcastInDim ⟨2, ![n, m]⟩ ![0, 1] hb2 (broadcastInDim ⟨2, ![n, 1]⟩ ![0] hb1
        (maximumf (broadcastInDim ⟨1, ![n]⟩ ![] hb0 (constant (F := Ideal) (⟨0, ![]⟩ : Shape) .f32 0xFF800000#32))
          (Host.reduce FloatOps.maximumf x (constant (F := Ideal) (⟨0, ![]⟩ : Shape) .f32 0xFF800000#32) hrt hu))) (ix2 p q)
      = rowTop (fun k : Fin m => x (ix2 p k)) := fun q => by
    rw [bcastInDim_a1_ab_apply, bcastInDim_a_a1_apply]
    show max (broadcastInDim ⟨1, ![n]⟩ ![] hb0 (constant (F := Ideal) (⟨0, ![]⟩ : Shape) .f32 0xFF800000#32) (ix1 p))
      (Host.reduce FloatOps.maximumf x (constant (F := Ideal) (⟨0, ![]⟩ : Shape) .f32 0xFF800000#32) hrt hu (ix1 p)) = _
    rw [broadcastInDim_scalar_apply, hostRowMax_apply x hrt hr hu p]
    exact max_word_rowTop _
  generalize broadcastInDim ⟨2, ![n, m]⟩ ![0, 1] hb2 (broadcastInDim ⟨2, ![n, 1]⟩ ![0] hb1
        (maximumf (broadcastInDim ⟨1, ![n]⟩ ![] hb0 (constant (F := Ideal) (⟨0, ![]⟩ : Shape) .f32 0xFF800000#32))
          (Host.reduce FloatOps.maximumf x (constant (F := Ideal) (⟨0, ![]⟩ : Shape) .f32 0xFF800000#32) hrt hu))) = B at hM ⊢
  have hS : broadcastInDim ⟨2, ![n, m]⟩ ![0, 1] hb2 (Host.log (broadcastInDim ⟨2, ![n, 1]⟩ ![0] hb1
        (Host.reduceAdd (Host.exp (subf x B)) (constant (F := Ideal) (⟨0, ![]⟩ : Shape) .f32 0x00000000#32) hrt hu))) (ix2 p c)
      = Ideal.log (∑ k : Fin m, Ideal.exp (x (ix2 p k) - rowTop (fun k : Fin m => x (ix2 p k)))) := by
    rw [bcastInDim_a1_ab_apply]
    show Ideal.log (broadcastInDim ⟨2, ![n, 1]⟩ ![0] hb1
        (Host.reduceAdd (Host.exp (subf x B)) (constant (F := Ideal) (⟨0, ![]⟩ : Shape) .f32 0x00000000#32) hrt hu) (ix2 p (0 : Fin 1))) = _
    rw [bcastInDim_a_a1_apply, hostRowSum_apply _ hrt hr hu p]
    refine congrArg Ideal.log (Finset.sum_congr rfl fun k _ => ?_)
    show Ideal.exp (x (ix2 p k) - B (ix2 p k)) = _
    rw [hM k]
  show (x (ix2 p c) - B (ix2 p c)) - _ = _
  rw [hS, hM c]
  rfl

end Cert.LibLogSoftmax

end
-- ==== Proof.ValCls.lean ====
/-
  The classifier at the end of the network, as one function of whole arrays, and its two spellings.

  The classifier takes the 64 × 512 matrix of pooled features through three dense layers, each followed by the
  rectifier, a fourth dense layer without rectifier, and the log-softmax of every row of the resulting 64 × 10 matrix of
  scores: `cls g w1 b1 w2 b2 w3 b3 w4 b4`, built from `Cert.Dense.lin`, `Cert.Dense.relu` and
  `Cert.LibLogSoftmax.logSoftmax`, each bias vector read as a one-row matrix.

  The vector unit computes it in one block: every matrix product rounds both operands to a narrower format first (the
  identity on the extended reals) and accumulates into zero, the bias vector is recast as a row and spread over the rows,
  the rectifier is the maximum with a splat zero, and the log-softmax takes the row's largest entry once more against
  the word of −∞ before spreading it (which changes nothing: the fold already starts there). `k8_pay_eq` says the stored
  value, as a function of the nine loaded blocks, is `cls` of them.

  The host computes it with `dot_general`, the bias spread by dimension twice, the maximum with a scalar zero spread
  over the array, and the reduce / broadcast-by-dimension form of the log-softmax. `cls_host_l1` … `cls_host_l4` and
  `cls_host_logSoftmax` read each stage for any input of the stage; `cls_host` reads their composition.

  The four products' dimension numbers all contract the left operand's columns against the right operand's rows; the
  coordinate facts the layer lemmas ask for are proved once for that form (`cls_plain_l0`, `cls_plain_r1`; the two
  contracted coordinates are the library's `lhsIdx_val_of_single` / `rhsIdx_val_of_single`).
-/
import proofs.«168812_j9088150798767_1_alg».proof.Proof.Gen.KernelIdeal.Skeleton
import proofs.«168812_j9088150798767_1_alg».proof.Proof.Gen.ReferenceIdeal
import proofs.«168812_j9088150798767_1_alg».proof.Proof.LibDenseOps
import proofs.«168812_j9088150798767_1_alg».proof.Proof.LibHostDense
import proofs.«168812_j9088150798767_1_alg».proof.Proof.LibLogSoftmax

noncomputable section

open scoped BigOperators

namespace Cert.Val

open Idealize.ShloMosaic Idealize.ShloMosaic.ValueIdx Cert.Dense Cert.HostDense

/-- The classifier: three rectified dense layers, a fourth dense layer without rectifier, and the log-softmax of every
    row of the 64 × 10 matrix of scores. -/
def cls (g : (⟨2, ![64, 512]⟩ : Shape).Idx → EReal)
    (w1 : (⟨2, ![512, 256]⟩ : Shape).Idx → EReal) (b1 : (⟨1, ![256]⟩ : Shape).Idx → EReal)
    (w2 : (⟨2, ![256, 128]⟩ : Shape).Idx → EReal) (b2 : (⟨1, ![128]⟩ : Shape).Idx → EReal)
    (w3 : (⟨2, ![128, 128]⟩ : Shape).Idx → EReal) (b3 : (⟨1, ![128]⟩ : Shape).Idx → EReal)
    (w4 : (⟨2, ![128, 10]⟩ : Shape).Idx → EReal) (b4 : (⟨1, ![10]⟩ : Shape).Idx → EReal) :
    (⟨2, ![64, 10]⟩ : Shape).Idx → EReal :=
  Cert.LibLogSoftmax.logSoftmax
    (lin (relu (lin (relu (lin (relu (lin g w1 (row b1))) w2 (row b2))) w3 (row b3))) w4 (row b4))

/-! ## The coordinate facts of a plain product's dimension numbers -/

section plain

variable {n K M : Nat}
  (w : DotDims.WF (⟨2, ![n, K]⟩ : Shape) (⟨2, ![K, M]⟩ : Shape) (⟨2, ![n, M]⟩ : Shape) [1] [0] [0] [1] [] [])

/-- Row coordinate of the left operand's index: the output's row. -/
theorem cls_plain_l0 (i : (⟨2, ![n, M]⟩ : Shape).Idx)
    (q : (⟨[1], [0], [0], [1], [], [], w⟩ : DotDims (⟨2, ![n, K]⟩ : Shape) ⟨2, ![K, M]⟩ ⟨2, ![n, M]⟩).contr.Idx) :
    ((⟨[1], [0], [0], [1], [], [], w⟩ : DotDims (⟨2, ![n, K]⟩ : Shape) ⟨2, ![K, M]⟩ ⟨2, ![n, M]⟩).lhsIdx i q 0).val = (i 0).val := by
  simp [DotDims.lhsIdx]; rfl

/-- Column coordinate of the right operand's index: the output's column. -/
theorem cls_plain_r1 (i : (⟨2, ![n, M]⟩ : Shape).Idx)
    (q : (⟨[1], [0], [0], [1], [], [], w⟩ : DotDims (⟨2, ![n, K]⟩ : Shape) ⟨2, ![K, M]⟩ ⟨2, ![n, M]⟩).contr.Idx) :
    ((⟨[1], [0], [0], [1], [], [], w⟩ : DotDims (⟨2, ![n, K]⟩ : Shape) ⟨2, ![K, M]⟩ ⟨2, ![n, M]⟩).rhsIdx i q 1).val = (i 1).val := by
  simp [DotDims.rhsIdx]; rfl

end plain

/-! ## The vector unit's spellings -/

/-- Rounding to a narrower format is the identity on the extended reals. -/
theorem cls_truncf_id {s : Shape} {φ ψ : FTy} (a : FVec Ideal s φ) (h : ψ.bits < φ.bits) :
    (truncf ψ a h : FVec Ideal s ψ) = a := rfl

/-- A bias vector recast as a one-row matrix is `row` of it. -/
theorem cls_shapeCast_row {M : Nat} (b : (⟨1, ![M]⟩ : Shape).Idx → EReal)
    (h : (⟨1, ![M]⟩ : Shape).ShapeCasts ⟨2, ![1, M]⟩) : shapeCast (⟨2, ![1, M]⟩ : Shape) b h = row b := by
  funext i
  obtain ⟨u, c, rfl⟩ : ∃ (u : Fin 1) (c : Fin M), i = ix2 u c := ⟨i 0, i 1, eq_ix2 i⟩
  exact shapeCast_a_1a_apply b h u c

/-- A dense layer without rectifier as the vector unit spells it: both operands rounded to a narrower format (the
    identity here), a matrix product into the zero accumulator, plus the bias vector recast as a row and spread over
    the rows. -/
theorem cls_vec_lin {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (h : FVec Ideal (⟨2, ![n, K]⟩ : Shape) .f32) (wt : FVec Ideal (⟨2, ![K, M]⟩ : Shape) .f32)
    (b : FVec Ideal (⟨1, ![M]⟩ : Shape) .f32) (hlt : FTy.bits .bf16 < FTy.bits .f32)
    (hsc : (⟨1, ![M]⟩ : Shape).ShapeCasts ⟨2, ![1, M]⟩) (hb : (⟨2, ![1, M]⟩ : Shape).Broadcasts ⟨2, ![n, M]⟩) :
    addf (matmul D none (truncf .bf16 h hlt) (truncf .bf16 wt hlt) (constant (⟨2, ![n, M]⟩ : Shape) .f32 0x00000000#32))
        (broadcastTo (⟨2, ![n, M]⟩ : Shape) (shapeCast (⟨2, ![1, M]⟩ : Shape) b hsc) hb)
      = lin h wt (row b) := by
  funext i
  obtain ⟨p, q, rfl⟩ : ∃ (p : Fin n) (q : Fin M), i = ix2 p q := ⟨i 0, i 1, eq_ix2 i⟩
  rw [lin_apply, addf_apply, broadcastTo_1b_ab_apply _ hb p q, cls_shapeCast_row b hsc]
  exact congrArg (· + row b (ix2 (0 : Fin 1) q))
    (Cert.PlainDot.matmul_zero_apply D hr hs l0 l1 r0 r1 none (truncf .bf16 h hlt) (truncf .bf16 wt hlt) p q)

/-- The same layer followed by the rectifier (the entrywise maximum with a splat zero). -/
theorem cls_vec_relu_lin {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (h : FVec Ideal (⟨2, ![n, K]⟩ : Shape) .f32) (wt : FVec Ideal (⟨2, ![K, M]⟩ : Shape) .f32)
    (b : FVec Ideal (⟨1, ![M]⟩ : Shape) .f32) (hlt : FTy.bits .bf16 < FTy.bits .f32)
    (hsc : (⟨1, ![M]⟩ : Shape).ShapeCasts ⟨2, ![1, M]⟩) (hb : (⟨2, ![1, M]⟩ : Shape).Broadcasts ⟨2, ![n, M]⟩) :
    maximumf (addf (matmul D none (truncf .bf16 h hlt) (truncf .bf16 wt hlt) (constant (⟨2, ![n, M]⟩ : Shape) .f32 0x00000000#32))
        (broadcastTo (⟨2, ![n, M]⟩ : Shape) (shapeCast (⟨2, ![1, M]⟩ : Shape) b hsc) hb))
      (broadcast (⟨2, ![n, M]⟩ : Shape) (Scalar.ofBits (F := Ideal) .f32 0x00000000#32))
      = relu (lin h wt (row b)) := by
  rw [cls_vec_lin D hr hs l0 l1 r0 r1 h wt b hlt hsc hb]
  funext i
  rw [relu_apply, maximumf_apply, broadcast_apply]
  show max _ (Ideal.ofBits .f32 0x00000000#32) = _
  rw [Ideal.ofBits_zero_f32]

/-- The larger of the float word of −∞ and a row's largest entry folded from that word is the latter. -/
theorem cls_max_word_rowMax {n m : ℕ} (x : FVec Ideal ⟨2, ![n, m]⟩ .f32)
    (hred : (⟨2, ![n, m]⟩ : Shape).Reduces [1] ⟨1, ![n]⟩) (hφ : FKind.Formats .f32)
    (hmax : (0xFF800000#32 : BitVec FTy.f32.bits) = FKind.maximumf.neutral .f32 hφ) :
    maximumf (broadcast (⟨1, ![n]⟩ : Shape) (Scalar.ofBits (F := Ideal) .f32 0xFF800000#32))
        (multiReduction .maximumf [1] ⟨1, ![n]⟩ x 0xFF800000#32 hred hφ hmax)
      = multiReduction .maximumf [1] ⟨1, ![n]⟩ x 0xFF800000#32 hred hφ hmax := by
  funext j
  obtain ⟨p, rfl⟩ : ∃ p : Fin n, j = ix1 p := ⟨j 0, eq_ix1 j⟩
  rw [maximumf_apply, broadcast_apply, Cert.LibRowMax.rowMax_apply x _ hred hφ hmax p]
  exact Cert.LibLogSoftmax.max_word_rowTop _

/-- The vector unit's log-softmax with its extra maximum against the word of −∞ before the row's largest entry is
    spread: at entry (p, c), the row formula at row p. -/
theorem cls_vector_lsm {n m : ℕ} (x : FVec Ideal ⟨2, ![n, m]⟩ .f32)
    (hred : (⟨2, ![n, m]⟩ : Shape).Reduces [1] ⟨1, ![n]⟩) (hc : (⟨1, ![n]⟩ : Shape).ShapeCasts ⟨2, ![n, 1]⟩)
    (hb : (⟨2, ![n, 1]⟩ : Shape).Broadcasts ⟨2, ![n, m]⟩) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin n) (c : Fin m) :
    subf (subf x (broadcastTo ⟨2, ![n, m]⟩ (shapeCast ⟨2, ![n, 1]⟩
        (maximumf (broadcast (⟨1, ![n]⟩ : Shape) (Scalar.ofBits (F := Ideal) .f32 0xFF800000#32))
          (multiReduction .maximumf [1] ⟨1, ![n]⟩ x 0xFF800000#32 hred hφ hmax)) hc) hb))
      (broadcastTo ⟨2, ![n, m]⟩ (log (shapeCast ⟨2, ![n, 1]⟩ (multiReduction .add [1] ⟨1, ![n]⟩
        (exp (subf x (broadcastTo ⟨2, ![n, m]⟩ (shapeCast ⟨2, ![n, 1]⟩
          (maximumf (broadcast (⟨1, ![n]⟩ : Shape) (Scalar.ofBits (F := Ideal) .f32 0xFF800000#32))
            (multiReduction .maximumf [1] ⟨1, ![n]⟩ x 0xFF800000#32 hred hφ hmax)) hc) hb)))
        0x00000000#32 hred hφ hadd) hc)) hb) (ix2 p c)
      = Cert.LibLogSoftmax.lsmEntry (fun k : Fin m => x (ix2 p k)) c := by
  rw [cls_max_word_rowMax x hred hφ hmax]
  exact Cert.LibLogSoftmax.vector_apply x hred hc hb hφ hmax hadd p c

section kernel

open Cert.KernelIdeal Cert.KernelIdeal.Gen

/-- What the one-block classifier kernel stores, as a function of the nine blocks it loads: the classifier of them. -/
theorem k8_pay_eq (v0 : Vec Ideal S64x512 .f32) (v3 : Vec Ideal S512x256 .f32) (v6 : Vec Ideal S256 .f32)
    (v13 : Vec Ideal S256x128 .f32) (v16 : Vec Ideal S128 .f32) (v23 : Vec Ideal S128x128 .f32)
    (v26 : Vec Ideal S128 .f32) (v33 : Vec Ideal S128x10 .f32) (v36 : Vec Ideal S10 .f32) :
    k8_pay1 (F := Ideal) (k8_pay2 v0 v3 v6 v13 v16 v23 v26 v33) (k8_pay3 v36)
      = cls v0 v3 v6 v13 v16 v23 v26 v33 v36 := by
  have hx : addf (k8_pay2 (F := Ideal) v0 v3 v6 v13 v16 v23 v26 v33)
        (broadcastTo S64x10 (k8_pay3 (F := Ideal) v36) broadcasts_S1x10_S64x10)
      = lin (relu (lin (relu (lin (relu (lin v0 v3 (row v6))) v13 (row v16))) v23 (row v26))) v33 (row v36) := by
    unfold k8_pay2 k8_pay3
    dsimp only
    rw [shapeCast_self,
      cls_vec_relu_lin dot_S64x512_S512x256_S64x256_1_0_0_1_n_n rfl rfl
        (cls_plain_l0 dot_S64x512_S512x256_S64x256_1_0_0_1_n_n_wf)
        (fun i q => DotDims.lhsIdx_val_of_single _ rfl i q) (fun i q => DotDims.rhsIdx_val_of_single _ rfl i q)
        (cls_plain_r1 dot_S64x512_S512x256_S64x256_1_0_0_1_n_n_wf),
      cls_vec_relu_lin dot_S64x256_S256x128_S64x128_1_0_0_1_n_n rfl rfl
        (cls_plain_l0 dot_S64x256_S256x128_S64x128_1_0_0_1_n_n_wf)
        (fun i q => DotDims.lhsIdx_val_of_single _ rfl i q) (fun i q => DotDims.rhsIdx_val_of_single _ rfl i q)
        (cls_plain_r1 dot_S64x256_S256x128_S64x128_1_0_0_1_n_n_wf),
      cls_vec_relu_lin dot_S64x128_S128x128_S64x128_1_0_0_1_n_n rfl rfl
        (cls_plain_l0 dot_S64x128_S128x128_S64x128_1_0_0_1_n_n_wf)
        (fun i q => DotDims.lhsIdx_val_of_single _ rfl i q) (fun i q => DotDims.rhsIdx_val_of_single _ rfl i q)
        (cls_plain_r1 dot_S64x128_S128x128_S64x128_1_0_0_1_n_n_wf),
      cls_vec_lin dot_S64x128_S128x10_S64x10_1_0_0_1_n_n rfl rfl
        (cls_plain_l0 dot_S64x128_S128x10_S64x10_1_0_0_1_n_n_wf)
        (fun i q => DotDims.lhsIdx_val_of_single _ rfl i q) (fun i q => DotDims.rhsIdx_val_of_single _ rfl i q)
        (cls_plain_r1 dot_S64x128_S128x10_S64x10_1_0_0_1_n_n_wf)]
  unfold k8_pay1
  dsimp only
  rw [hx]
  funext i
  obtain ⟨p, c, rfl⟩ : ∃ (p : Fin 64) (c : Fin 10), i = ix2 p c := ⟨i 0, i 1, eq_ix2 i⟩
  exact cls_vector_lsm _ _ _ _ _ _ _ p c

end kernel

/-! ## The host's spellings -/

/-- A rectified dense layer as the host spells it: `dot_general`, the bias vector spread to a row and then over the
    rows, and the maximum with a scalar zero spread over the array. -/
theorem cls_host_relu_lin {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) .f32) (w : FVec Ideal (⟨2, ![K, M]⟩ : Shape) .f32)
    (b : FVec Ideal (⟨1, ![M]⟩ : Shape) .f32)
    (hb1 : (⟨1, ![M]⟩ : Shape).BroadcastsInDim (⟨2, ![1, M]⟩ : Shape) (![1] : Fin 1 → Fin 2))
    (hb2 : (⟨2, ![1, M]⟩ : Shape).BroadcastsInDim (⟨2, ![n, M]⟩ : Shape) (![0, 1] : Fin 2 → Fin 2))
    (hb0 : (⟨0, ![]⟩ : Shape).BroadcastsInDim (⟨2, ![n, M]⟩ : Shape) (![] : Fin 0 → Fin 2)) :
    (maximumf (addf (Host.dotGeneral D prec h w)
          (broadcastInDim (⟨2, ![n, M]⟩ : Shape) ![0, 1] hb2 (broadcastInDim (⟨2, ![1, M]⟩ : Shape) ![1] hb1 b)))
        (broadcastInDim (⟨2, ![n, M]⟩ : Shape) ![] hb0 (constant (F := Ideal) (⟨0, ![]⟩ : Shape) .f32 0x00000000#32)) :
        FVec Ideal (⟨2, ![n, M]⟩ : Shape) .f32)
      = relu (lin h w (row b)) := by
  rw [Cert.HostDense.dot_bias_eq D hr hs l0 l1 r0 r1 prec h w b hb1 hb2]
  exact Cert.HostDense.max_zero_eq _ hb0

/-- The host's log-softmax of an n × m matrix, as a whole array. -/
theorem cls_host_lsm {n m : ℕ} (x : FVec Ideal ⟨2, ![n, m]⟩ .f32)
    (hrt : (⟨2, ![n, m]⟩ : Shape).ReducesTo [1] ⟨1, ![n]⟩) (hr : (⟨2, ![n, m]⟩ : Shape).Reduces [1] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, m]⟩ ![0, 1]) :
    subf (subf x (broadcastInDim ⟨2, ![n, m]⟩ ![0, 1] hb2 (broadcastInDim ⟨2, ![n, 1]⟩ ![0] hb1
        (maximumf (broadcastInDim ⟨1, ![n]⟩ ![] hb0 (constant (F := Ideal) (⟨0, ![]⟩ : Shape) .f32 0xFF800000#32))
          (Host.reduce FloatOps.maximumf x (constant (F := Ideal) (⟨0, ![]⟩ : Shape) .f32 0xFF800000#32) hrt hu)))))
      (broadcastInDim ⟨2, ![n, m]⟩ ![0, 1] hb2 (Host.log (broadcastInDim ⟨2, ![n, 1]⟩ ![0] hb1
        (Host.reduceAdd (Host.exp (subf x (broadcastInDim ⟨2, ![n, m]⟩ ![0, 1] hb2 (broadcastInDim ⟨2, ![n, 1]⟩ ![0] hb1
          (maximumf (broadcastInDim ⟨1, ![n]⟩ ![] hb0 (constant (F := Ideal) (⟨0, ![]⟩ : Shape) .f32 0xFF800000#32))
            (Host.reduce FloatOps.maximumf x (constant (F := Ideal) (⟨0, ![]⟩ : Shape) .f32 0xFF800000#32) hrt hu))))))
          (constant (F := Ideal) (⟨0, ![]⟩ : Shape) .f32 0x00000000#32) hrt hu))))
      = Cert.LibLogSoftmax.logSoftmax x := by
  funext i
  obtain ⟨p, c, rfl⟩ : ∃ (p : Fin n) (c : Fin m), i = ix2 p c := ⟨i 0, i 1, eq_ix2 i⟩
  exact Cert.LibLogSoftmax.host_apply x hrt hr hu hb0 hb1 hb2 p c

section host

open Cert.ReferenceIdeal Cert.ReferenceIdeal.Facts₀

/-- The reference's first classifier layer with its rectifier, as printed. -/
theorem cls_host_l1 (g : FVec Ideal S64x512 .f32) (w1 : FVec Ideal S512x256 .f32) (b1 : FVec Ideal S256 .f32) :
    ((maximumf (addf (Host.dotGeneral (φ₁ := .f32) (φ₂ := .f32) dot_S64x512_S512x256_S64x256_1_0_0_1_n_n none g w1)
        (broadcastInDim S64x256 ![0, 1] bcast_S1x256_S64x256_0_1 (broadcastInDim S1x256 ![1] bcast_S256_S1x256_1 b1)))
      (broadcastInDim S64x256 ![] bcast_S_S64x256 (constant (F := Ideal) S_ .f32 0x00000000#32))) : FVec Ideal S64x256 .f32) = relu (lin g w1 (row b1)) :=
  cls_host_relu_lin dot_S64x512_S512x256_S64x256_1_0_0_1_n_n rfl rfl
        (cls_plain_l0 dot_S64x512_S512x256_S64x256_1_0_0_1_n_n_wf)
        (fun i q => DotDims.lhsIdx_val_of_single _ rfl i q) (fun i q => DotDims.rhsIdx_val_of_single _ rfl i q)
        (cls_plain_r1 dot_S64x512_S512x256_S64x256_1_0_0_1_n_n_wf) none g w1 b1 _ _ _

/-- The reference's second classifier layer with its rectifier, as printed. -/
theorem cls_host_l2 (h : FVec Ideal S64x256 .f32) (w2 : FVec Ideal S256x128 .f32) (b2 : FVec Ideal S128 .f32) :
    ((maximumf (addf (Host.dotGeneral (φ₁ := .f32) (φ₂ := .f32) dot_S64x256_S256x128_S64x128_1_0_0_1_n_n none h w2)
        (broadcastInDim S64x128 ![0, 1] bcast_S1x128_S64x128_0_1 (broadcastInDim S1x128 ![1] bcast_S128_S1x128_1 b2)))
      (broadcastInDim S64x128 ![] bcast_S_S64x128 (constant (F := Ideal) S_ .f32 0x00000000#32))) : FVec Ideal S64x128 .f32) = relu (lin h w2 (row b2)) :=
  cls_host_relu_lin dot_S64x256_S256x128_S64x128_1_0_0_1_n_n rfl rfl
        (cls_plain_l0 dot_S64x256_S256x128_S64x128_1_0_0_1_n_n_wf)
        (fun i q => DotDims.lhsIdx_val_of_single _ rfl i q) (fun i q => DotDims.rhsIdx_val_of_single _ rfl i q)
        (cls_plain_r1 dot_S64x256_S256x128_S64x128_1_0_0_1_n_n_wf) none h w2 b2 _ _ _

/-- The reference's third classifier layer with its rectifier, as printed. -/
theorem cls_host_l3 (h : FVec Ideal S64x128 .f32) (w3 : FVec Ideal S128x128 .f32) (b3 : FVec Ideal S128 .f32) :
    ((maximumf (addf (Host.dotGeneral (φ₁ := .f32) (φ₂ := .f32) dot_S64x128_S128x128_S64x128_1_0_0_1_n_n none h w3)
        (broadcastInDim S64x128 ![0, 1] bcast_S1x128_S64x128_0_1 (broadcastInDim S1x128 ![1] bcast_S128_S1x128_1 b3)))
      (broadcastInDim S64x128 ![] bcast_S_S64x128 (constant (F := Ideal) S_ .f32 0x00000000#32))) : FVec Ideal S64x128 .f32) = relu (lin h w3 (row b3)) :=
  cls_host_relu_lin dot_S64x128_S128x128_S64x128_1_0_0_1_n_n rfl rfl
        (cls_plain_l0 dot_S64x128_S128x128_S64x128_1_0_0_1_n_n_wf)
        (fun i q => DotDims.lhsIdx_val_of_single _ rfl i q) (fun i q => DotDims.rhsIdx_val_of_single _ rfl i q)
        (cls_plain_r1 dot_S64x128_S128x128_S64x128_1_0_0_1_n_n_wf) none h w3 b3 _ _ _

/-- The reference's last classifier layer (no rectifier), as printed. -/
theorem cls_host_l4 (h : FVec Ideal S64x128 .f32) (w4 : FVec Ideal S128x10 .f32) (b4 : FVec Ideal S10 .f32) :
    ((addf (Host.dotGeneral (φ₁ := .f32) (φ₂ := .f32) dot_S64x128_S128x10_S64x10_1_0_0_1_n_n none h w4)
        (broadcastInDim S64x10 ![0, 1] bcast_S1x10_S64x10_0_1 (broadcastInDim S1x10 ![1] bcast_S10_S1x10_1 b4))) : FVec Ideal S64x10 .f32) = lin h w4 (row b4) :=
  Cert.HostDense.dot_bias_eq dot_S64x128_S128x10_S64x10_1_0_0_1_n_n rfl rfl
        (cls_plain_l0 dot_S64x128_S128x10_S64x10_1_0_0_1_n_n_wf)
        (fun i q => DotDims.lhsIdx_val_of_single _ rfl i q) (fun i q => DotDims.rhsIdx_val_of_single _ rfl i q)
        (cls_plain_r1 dot_S64x128_S128x10_S64x10_1_0_0_1_n_n_wf) none h w4 b4 _ _

/-- The reference's log-softmax of the 64 × 10 scores, as its operations compose. -/
theorem cls_host_logSoftmax (x : FVec Ideal S64x10 .f32) :
    ((subf (subf x (broadcastInDim S64x10 ![0, 1] bcast_S64x1_S64x10_0_1 (broadcastInDim S64x1 ![0] bcast_S64_S64x1_0
        (maximumf (broadcastInDim S64 ![] bcast_S_S64 (constant (F := Ideal) S_ .f32 0xFF800000#32))
          (Host.reduce FloatOps.maximumf x (constant (F := Ideal) S_ .f32 0xFF800000#32) reducesTo_S64x10_S64_d1 h_S_)))))
      (broadcastInDim S64x10 ![0, 1] bcast_S64x1_S64x10_0_1 (Host.log (broadcastInDim S64x1 ![0] bcast_S64_S64x1_0
        (Host.reduceAdd (Host.exp (subf x (broadcastInDim S64x10 ![0, 1] bcast_S64x1_S64x10_0_1 (broadcastInDim S64x1 ![0] bcast_S64_S64x1_0
        (maximumf (broadcastInDim S64 ![] bcast_S_S64 (constant (F := Ideal) S_ .f32 0xFF800000#32))
          (Host.reduce FloatOps.maximumf x (constant (F := Ideal) S_ .f32 0xFF800000#32) reducesTo_S64x10_S64_d1 h_S_)))))) (constant (F := Ideal) S_ .f32 0x00000000#32) reducesTo_S64x10_S64_d1 h_S_))))) : FVec Ideal S64x10 .f32) = Cert.LibLogSoftmax.logSoftmax x :=
  cls_host_lsm x reducesTo_S64x10_S64_d1 Cert.KernelIdeal.Gen.reduces_S64x10_S64 h_S_ bcast_S_S64 bcast_S64_S64x1_0
    bcast_S64x1_S64x10_0_1

/-- The reference's classifier, from its first `dot_general` to the result of its log-softmax, as the printed operations
    compose: the classifier of the pooled features, the four weight matrices and the four bias vectors. -/
theorem cls_host (g : FVec Ideal S64x512 .f32) (w1 : FVec Ideal S512x256 .f32) (b1 : FVec Ideal S256 .f32)
    (w2 : FVec Ideal S256x128 .f32) (b2 : FVec Ideal S128 .f32) (w3 : FVec Ideal S128x128 .f32) (b3 : FVec Ideal S128 .f32)
    (w4 : FVec Ideal S128x10 .f32) (b4 : FVec Ideal S10 .f32) :
    ((subf (subf (addf (Host.dotGeneral (φ₁ := .f32) (φ₂ := .f32) dot_S64x128_S128x10_S64x10_1_0_0_1_n_n none (maximumf (addf (Host.dotGeneral (φ₁ := .f32) (φ₂ := .f32) dot_S64x128_S128x128_S64x128_1_0_0_1_n_n none (maximumf (addf (Host.dotGeneral (φ₁ := .f32) (φ₂ := .f32) dot_S64x256_S256x128_S64x128_1_0_0_1_n_n none (maximumf (addf (Host.dotGeneral (φ₁ := .f32) (φ₂ := .f32) dot_S64x512_S512x256_S64x256_1_0_0_1_n_n none g w1)
        (broadcastInDim S64x256 ![0, 1] bcast_S1x256_S64x256_0_1 (broadcastInDim S1x256 ![1] bcast_S256_S1x256_1 b1)))
      (broadcastInDim S64x256 ![] bcast_S_S64x256 (constant (F := Ideal) S_ .f32 0x00000000#32))) w2)
        (broadcastInDim S64x128 ![0, 1] bcast_S1x128_S64x128_0_1 (broadcastInDim S1x128 ![1] bcast_S128_S1x128_1 b2)))
      (broadcastInDim S64x128 ![] bcast_S_S64x128 (constant (F := Ideal) S_ .f32 0x00000000#32))) w3)
        (broadcastInDim S64x128 ![0, 1] bcast_S1x128_S64x128_0_1 (broadcastInDim S1x128 ![1] bcast_S128_S1x128_1 b3)))
      (broadcastInDim S64x128 ![] bcast_S_S64x128 (constant (F := Ideal) S_ .f32 0x00000000#32))) w4)
        (broadcastInDim S64x10 ![0, 1] bcast_S1x10_S64x10_0_1 (broadcastInDim S1x10 ![1] bcast_S10_S1x10_1 b4))) (broadcastInDim S64x10 ![0, 1] bcast_S64x1_S64x10_0_1 (broadcastInDim S64x1 ![0] bcast_S64_S64x1_0
        (maximumf (broadcastInDim S64 ![] bcast_S_S64 (constant (F := Ideal) S_ .f32 0xFF800000#32))
          (Host.reduce FloatOps.maximumf (addf (Host.dotGeneral (φ₁ := .f32) (φ₂ := .f32) dot_S64x128_S128x10_S64x10_1_0_0_1_n_n none (maximumf (addf (Host.dotGeneral (φ₁ := .f32) (φ₂ := .f32) dot_S64x128_S128x128_S64x128_1_0_0_1_n_n none (maximumf (addf (Host.dotGeneral (φ₁ := .f32) (φ₂ := .f32) dot_S64x256_S256x128_S64x128_1_0_0_1_n_n none (maximumf (addf (Host.dotGeneral (φ₁ := .f32) (φ₂ := .f32) dot_S64x512_S512x256_S64x256_1_0_0_1_n_n none g w1)
        (broadcastInDim S64x256 ![0, 1] bcast_S1x256_S64x256_0_1 (broadcastInDim S1x256 ![1] bcast_S256_S1x256_1 b1)))
      (broadcastInDim S64x256 ![] bcast_S_S64x256 (constant (F := Ideal) S_ .f32 0x00000000#32))) w2)
        (broadcastInDim S64x128 ![0, 1] bcast_S1x128_S64x128_0_1 (broadcastInDim S1x128 ![1] bcast_S128_S1x128_1 b2)))
      (broadcastInDim S64x128 ![] bcast_S_S64x128 (constant (F := Ideal) S_ .f32 0x00000000#32))) w3)
        (broadcastInDim S64x128 ![0, 1] bcast_S1x128_S64x128_0_1 (broadcastInDim S1x128 ![1] bcast_S128_S1x128_1 b3)))
      (broadcastInDim S64x128 ![] bcast_S_S64x128 (constant (F := Ideal) S_ .f32 0x00000000#32))) w4)
        (broadcastInDim S64x10 ![0, 1] bcast_S1x10_S64x10_0_1 (broadcastInDim S1x10 ![1] bcast_S10_S1x10_1 b4))) (constant (F := Ideal) S_ .f32 0xFF800000#32) reducesTo_S64x10_S64_d1 h_S_)))))
      (broadcastInDim S64x10 ![0, 1] bcast_S64x1_S64x10_0_1 (Host.log (broadcastInDim S64x1 ![0] bcast_S64_S64x1_0
        (Host.reduceAdd (Host.exp (subf (addf (Host.dotGeneral (φ₁ := .f32) (φ₂ := .f32) dot_S64x128_S128x10_S64x10_1_0_0_1_n_n none (maximumf (addf (Host.dotGeneral (φ₁ := .f32) (φ₂ := .f32) dot_S64x128_S128x128_S64x128_1_0_0_1_n_n none (maximumf (addf (Host.dotGeneral (φ₁ := .f32) (φ₂ := .f32) dot_S64x256_S256x128_S64x128_1_0_0_1_n_n none (maximumf (addf (Host.dotGeneral (φ₁ := .f32) (φ₂ := .f32) dot_S64x512_S512x256_S64x256_1_0_0_1_n_n none g w1)
        (broadcastInDim S64x256 ![0, 1] bcast_S1x256_S64x256_0_1 (broadcastInDim S1x256 ![1] bcast_S256_S1x256_1 b1)))
      (broadcastInDim S64x256 ![] bcast_S_S64x256 (constant (F := Ideal) S_ .f32 0x00000000#32))) w2)
        (broadcastInDim S64x128 ![0, 1] bcast_S1x128_S64x128_0_1 (broadcastInDim S1x128 ![1] bcast_S128_S1x128_1 b2)))
      (broadcastInDim S64x128 ![] bcast_S_S64x128 (constant (F := Ideal) S_ .f32 0x00000000#32))) w3)
        (broadcastInDim S64x128 ![0, 1] bcast_S1x128_S64x128_0_1 (broadcastInDim S1x128 ![1] bcast_S128_S1x128_1 b3)))
      (broadcastInDim S64x128 ![] bcast_S_S64x128 (constant (F := Ideal) S_ .f32 0x00000000#32))) w4)
        (broadcastInDim S64x10 ![0, 1] bcast_S1x10_S64x10_0_1 (broadcastInDim S1x10 ![1] bcast_S10_S1x10_1 b4))) (broadcastInDim S64x10 ![0, 1] bcast_S64x1_S64x10_0_1 (broadcastInDim S64x1 ![0] bcast_S64_S64x1_0
        (maximumf (broadcastInDim S64 ![] bcast_S_S64 (constant (F := Ideal) S_ .f32 0xFF800000#32))
          (Host.reduce FloatOps.maximumf (addf (Host.dotGeneral (φ₁ := .f32) (φ₂ := .f32) dot_S64x128_S128x10_S64x10_1_0_0_1_n_n none (maximumf (addf (Host.dotGeneral (φ₁ := .f32) (φ₂ := .f32) dot_S64x128_S128x128_S64x128_1_0_0_1_n_n none (maximumf (addf (Host.dotGeneral (φ₁ := .f32) (φ₂ := .f32) dot_S64x256_S256x128_S64x128_1_0_0_1_n_n none (maximumf (addf (Host.dotGeneral (φ₁ := .f32) (φ₂ := .f32) dot_S64x512_S512x256_S64x256_1_0_0_1_n_n none g w1)
        (broadcastInDim S64x256 ![0, 1] bcast_S1x256_S64x256_0_1 (broadcastInDim S1x256 ![1] bcast_S256_S1x256_1 b1)))
      (broadcastInDim S64x256 ![] bcast_S_S64x256 (constant (F := Ideal) S_ .f32 0x00000000#32))) w2)
        (broadcastInDim S64x128 ![0, 1] bcast_S1x128_S64x128_0_1 (broadcastInDim S1x128 ![1] bcast_S128_S1x128_1 b2)))
      (broadcastInDim S64x128 ![] bcast_S_S64x128 (constant (F := Ideal) S_ .f32 0x00000000#32))) w3)
        (broadcastInDim S64x128 ![0, 1] bcast_S1x128_S64x128_0_1 (broadcastInDim S1x128 ![1] bcast_S128_S1x128_1 b3)))
      (broadcastInDim S64x128 ![] bcast_S_S64x128 (constant (F := Ideal) S_ .f32 0x00000000#32))) w4)
        (broadcastInDim S64x10 ![0, 1] bcast_S1x10_S64x10_0_1 (broadcastInDim S1x10 ![1] bcast_S10_S1x10_1 b4))) (constant (F := Ideal) S_ .f32 0xFF800000#32) reducesTo_S64x10_S64_d1 h_S_)))))) (constant (F := Ideal) S_ .f32 0x00000000#32) reducesTo_S64x10_S64_d1 h_S_))))) : FVec Ideal S64x10 .f32)
      = cls g w1 b1 w2 b2 w3 b3 w4 b4 := by
  rw [cls_host_l1, cls_host_l2, cls_host_l3, cls_host_l4, cls_host_logSoftmax]
  rfl

end host

end Cert.Val

end
-- ==== Proof.KIFin0.lean ====
/-
  Region 0, from blocks to the array. The region's grid has 20 points; at point t the input and the output windows hold
  rows 5000·t … 5000·t + 4999 of their arrays (all columns) and the four parameter windows hold their whole arrays. What
  point t writes back is therefore block t of ONE function of the arrays as the region finds them — the two-layer perceptron of the first layer, on 16 input columns —
  because an entry of that function depends on its row of the input only; the 20 blocks tile the 100000 rows, so the
  output array ends holding that function.
-/
import proofs.«168812_j9088150798767_1_alg».proof.Proof.KIReg0
import proofs.«168812_j9088150798767_1_alg».proof.Proof.ValMlp
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a <;> rfl

/-- The printed index maps, decided over the 20 grid points: the input and the output move with the point along the
    rows, the four parameter windows are the whole arrays at every point. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = t.val
    ∧ win0_5.index t (1 : Fin 2) = 0 :=
  (by decide +kernel : ∀ t : Fin grid0.N, _)

/-- Row r of the input's block at point t is row 5000·t + r of the array. -/
theorem iblk0_0_apply (c : Dev nD) (t : Fin cfg0.N) (r : Fin 5000) (k : Fin 16) (R : Fin 100000)
    (hR : R.val = 5000 * t.val + r.val) :
    (iblk0 V c 0 t : Vec Ideal S5000x16 .f32) (ix2 r k)
      = (V c (Pipeline.arrRef spec0 0) : S100000x16.Idx → EReal) (ix2 R k) := by
  obtain ⟨e0_0, e0_1, -⟩ := idx_facts0 t
  unfold iblk0
  rw [View.read_apply]
  show V c main_v17 _ = V c main_v17 _
  congr 1
  funext a
  apply Fin.ext
  match a with
  | ⟨0, _⟩ => show win0_0.index t (0 : Fin 2) * 5000 + 1 * r.val = R.val; rw [e0_0, hR]; omega
  | ⟨1, _⟩ => show win0_0.index t (1 : Fin 2) * 16 + 1 * k.val = k.val; rw [e0_1]; omega

/-- Parameter window 1's block at any point is its whole array. -/
theorem iblk0_1_eq (c : Dev nD) (t : Fin cfg0.N) :
    (iblk0 V c 1 t : Vec Ideal S16x128 .f32) = (V c (Pipeline.arrRef spec0 1) : S16x128.Idx → EReal) := by
  obtain ⟨-, -, e1_0, e1_1, -⟩ := idx_facts0 t
  funext x
  unfold iblk0
  rw [View.read_apply]
  show V c main_arg3 _ = V c main_arg3 x
  congr 1
  funext a
  apply Fin.ext
  match a with
  | ⟨0, _⟩ => show win0_1.index t (0 : Fin 2) * 16 + 1 * (x 0).val = (x 0).val; rw [e1_0]; omega
  | ⟨1, _⟩ => show win0_1.index t (1 : Fin 2) * 128 + 1 * (x 1).val = (x 1).val; rw [e1_1]; omega

/-- Parameter window 2's block at any point is its whole array. -/
theorem iblk0_2_eq (c : Dev nD) (t : Fin cfg0.N) :
    (iblk0 V c 2 t : Vec Ideal S128 .f32) = (V c (Pipeline.arrRef spec0 2) : S128.Idx → EReal) := by
  obtain ⟨-, -, -, -, e2_0, -⟩ := idx_facts0 t
  funext x
  unfold iblk0
  rw [View.read_apply]
  show V c main_arg4 _ = V c main_arg4 x
  congr 1
  funext a
  apply Fin.ext
  match a with
  | ⟨0, _⟩ => show win0_2.index t (0 : Fin 1) * 128 + 1 * (x 0).val = (x 0).val; rw [e2_0]; omega

/-- Parameter window 3's block at any point is its whole array. -/
theorem iblk0_3_eq (c : Dev nD) (t : Fin cfg0.N) :
    (iblk0 V c 3 t : Vec Ideal S128x128 .f32) = (V c (Pipeline.arrRef spec0 3) : S128x128.Idx → EReal) := by
  obtain ⟨-, -, -, -, -, e3_0, e3_1, -⟩ := idx_facts0 t
  funext x
  unfold iblk0
  rw [View.read_apply]
  show V c main_arg5 _ = V c main_arg5 x
  congr 1
  funext a
  apply Fin.ext
  match a with
  | ⟨0, _⟩ => show win0_3.index t (0 : Fin 2) * 128 + 1 * (x 0).val = (x 0).val; rw [e3_0]; omega
  | ⟨1, _⟩ => show win0_3.index t (1 : Fin 2) * 128 + 1 * (x 1).val = (x 1).val; rw [e3_1]; omega

/-- Parameter window 4's block at any point is its whole array. -/
theorem iblk0_4_eq (c : Dev nD) (t : Fin cfg0.N) :
    (iblk0 V c 4 t : Vec Ideal S128 .f32) = (V c (Pipeline.arrRef spec0 4) : S128.Idx → EReal) := by
  obtain ⟨-, -, -, -, -, -, -, e4_0, -⟩ := idx_facts0 t
  funext x
  unfold iblk0
  rw [View.read_apply]
  show V c main_arg6 _ = V c main_arg6 x
  congr 1
  funext a
  apply Fin.ext
  match a with
  | ⟨0, _⟩ => show win0_4.index t (0 : Fin 1) * 128 + 1 * (x 0).val = (x 0).val; rw [e4_0]; omega

/-- Entry (r, q) of the output's block at point t sits at entry (5000·t + r, q) of the array. -/
theorem emb0_5 (t : Fin cfg0.N) (r : Fin 5000) (q : Fin 128) (R : Fin 100000) (hR : R.val = 5000 * t.val + r.val) :
    (((cfg0.win 5).blk t).view.emb (ix2 r q : S5000x128.Idx) : S100000x128.Idx) = ix2 R q := by
  obtain ⟨-, -, -, -, -, -, -, -, e5_0, e5_1⟩ := idx_facts0 t
  funext a
  apply Fin.ext
  match a with
  | ⟨0, _⟩ => show win0_5.index t (0 : Fin 2) * 5000 + 1 * r.val = R.val; rw [e5_0, hR]; omega
  | ⟨1, _⟩ => show win0_5.index t (1 : Fin 2) * 128 + 1 * q.val = q.val; rw [e5_1]; omega

/-- A block X of 5000 rows is block t of an array G of 100000 rows as soon as row r of X is row 5000·t + r of G. -/
theorem blk0_5_eq (t : Fin cfg0.N) (X : S5000x128.Idx → EReal) (G : S100000x128.Idx → EReal)
    (h : ∀ (r : Fin 5000) (q : Fin 128) (R : Fin 100000), R.val = 5000 * t.val + r.val → X (ix2 r q) = G (ix2 R q)) :
    (cfg0.win 5).cut (grid0.coords t) X = ((cfg0.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg0.N = 20 := N_0
  have hR : 5000 * t.val + r.val < 100000 := by have := t.isLt; have := r.isLt; omega
  show X (ix2 r q) = G (((cfg0.win 5).blk t).view.emb (ix2 r q : S5000x128.Idx))
  rw [emb0_5 t r q ⟨5000 * t.val + r.val, hR⟩ rfl]
  exact h r q _ rfl

/-- The body's one store of its value of five loaded blocks, written back at point t, is block t of the two-layer function of
    five arrays as soon as row r of the first block is row 5000·t + r of the first array and the other four blocks are the
    other four arrays: an entry of that function depends on its row of the input only. -/
theorem out0_5_block (t : Fin cfg0.N) (x0 : Vec Ideal S5000x16 .f32) (x1 : Vec Ideal S16x128 .f32)
    (x2 : Vec Ideal S128 .f32) (x3 : Vec Ideal S128x128 .f32) (x4 : Vec Ideal S128 .f32)
    (A0 : S100000x16.Idx → EReal) (A1 : S16x128.Idx → EReal) (A2 : S128.Idx → EReal)
    (A3 : S128x128.Idx → EReal) (A4 : S128.Idx → EReal)
    (h0 : ∀ (r : Fin 5000) (k : Fin 16) (R : Fin 100000), R.val = 5000 * t.val + r.val → x0 (ix2 r k) = A0 (ix2 R k))
    (h1 : x1 = A1) (h2 : x2 = A2) (h3 : x3 = A3) (h4 : x4 = A4) :
    (cfg0.win 5).cut (grid0.coords t) (out0_5 x0 x1 x2 x3 x4)
      = ((cfg0.win 5).blk t).view.read (Elt Ideal) (Cert.Val.mlp2 A0 A1 A2 A3 A4) := by
  subst h1 h2 h3 h4
  unfold out0_5
  rw [View.canon_unit_zero hz2_0]
  simp only [View.ld_unit_zero (S := S5000x16) hz2_0, View.ld_unit_zero (S := S16x128) hz2_0, View.ld_unit_zero (S := S128) hz1_0, View.ld_unit_zero (S := S128x128) hz2_0]
  rw [Cert.Val.k0_pay1_eq]
  exact blk0_5_eq t _ _ fun r q R hR => Cert.Val.mlp2_rows _ _ _ _ _ _ r R (fun k => h0 r k R hR) q

/-- What point t writes back is block t — rows 5000·t … 5000·t + 4999 — of the two-layer function of the arrays as the
    region finds them. -/
theorem flushed0_eq (c : Dev nD) (t : Fin cfg0.N) :
    (dat0 V c).flushed 5 t = ((cfg0.win 5).blk t).view.read (Elt Ideal)
      (Cert.Val.mlp2 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  exact out0_5_block t _ _ _ _ _ _ _ _ _ _ (fun r k R hR => iblk0_0_apply V c t r k R hR)
    (iblk0_1_eq V c t) (iblk0_2_eq V c t) (iblk0_3_eq V c t) (iblk0_4_eq V c t)

/-- An entry of the array is in point t's block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

/-- Every entry of the array is in some point's block: row R is in block R / 5000. -/
theorem cover0_5_all (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, e5_0, e5_1⟩ := idx_facts0 ⟨(i 0).val / 5000, ht⟩
  refine ⟨⟨(i 0).val / 5000, ht⟩, flush0_5 _, ?_⟩
  rw [mem_blk0_5]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e5_1]; omega

/-- THE ARRAY after the region: the two-layer function of the arrays as the region finds them. -/
theorem final0 (c : Dev nD) :
    (dat0 (F := Ideal) V c).arrAt 5 cfg0.N
      = Cert.Val.mlp2 (V c (Pipeline.arrRef spec0 0)) (V c (Pipeline.arrRef spec0 1)) (V c (Pipeline.arrRef spec0 2))
        (V c (Pipeline.arrRef spec0 3)) (V c (Pipeline.arrRef spec0 4)) :=
  (dat0 (F := Ideal) V c).arrAt_eq_of_cover 5 _ (fun t _ => flushed0_eq V c t) cover0_5_all

end Cert.KernelIdeal.Hand

end
-- ==== Proof.KIFin1.lean ====
/-
  Region 1, from blocks to the array. The region's grid has 20 points; at point t the input and the output windows hold
  rows 5000·t … 5000·t + 4999 of their arrays (all columns) and the four parameter windows hold their whole arrays. What
  point t writes back is therefore block t of ONE function of the arrays as the region finds them — the normalisation by the columns' mean and variance, scaled and shifted —
  because an entry of that function depends on its row of the input only; the 20 blocks tile the 100000 rows, so the
  output array ends holding that function.
-/
import proofs.«168812_j9088150798767_1_alg».proof.Proof.KIReg1
import proofs.«168812_j9088150798767_1_alg».proof.Proof.ValBn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The printed index maps, decided over the 20 grid points: the input and the output move with the point along the
    rows, the four parameter windows are the whole arrays at every point. -/
theorem idx_facts1 : ∀ t : Fin cfg1.N, win1_0.index t (0 : Fin 2) = t.val
    ∧ win1_0.index t (1 : Fin 2) = 0
    ∧ win1_1.index t (0 : Fin 1) = 0
    ∧ win1_2.index t (0 : Fin 1) = 0
    ∧ win1_3.index t (0 : Fin 1) = 0
    ∧ win1_4.index t (0 : Fin 1) = 0
    ∧ win1_5.index t (0 : Fin 2) = t.val
    ∧ win1_5.index t (1 : Fin 2) = 0 :=
  (by decide +kernel : ∀ t : Fin grid1.N, _)

/-- Row r of the input's block at point t is row 5000·t + r of the array. -/
theorem iblk1_0_apply (c : Dev nD) (t : Fin cfg1.N) (r : Fin 5000) (k : Fin 128) (R : Fin 100000)
    (hR : R.val = 5000 * t.val + r.val) :
    (iblk1 V c 0 t : Vec Ideal S5000x128 .f32) (ix2 r k)
      = (V c (Pipeline.arrRef spec1 0) : S100000x128.Idx → EReal) (ix2 R k) := by
  obtain ⟨e0_0, e0_1, -⟩ := idx_facts1 t
  unfold iblk1
  rw [View.read_apply]
  show V c main_v18 _ = V c main_v18 _
  congr 1
  funext a
  apply Fin.ext
  match a with
  | ⟨0, _⟩ => show win1_0.index t (0 : Fin 2) * 5000 + 1 * r.val = R.val; rw [e0_0, hR]; omega
  | ⟨1, _⟩ => show win1_0.index t (1 : Fin 2) * 128 + 1 * k.val = k.val; rw [e0_1]; omega

/-- Parameter window 1's block at any point is its whole array. -/
theorem iblk1_1_eq (c : Dev nD) (t : Fin cfg1.N) :
    (iblk1 V c 1 t : Vec Ideal S128 .f32) = (V c (Pipeline.arrRef spec1 1) : S128.Idx → EReal) := by
  obtain ⟨-, -, e1_0, -⟩ := idx_facts1 t
  funext x
  unfold iblk1
  rw [View.read_apply]
  show V c main_v21 _ = V c main_v21 x
  congr 1
  funext a
  apply Fin.ext
  match a with
  | ⟨0, _⟩ => show win1_1.index t (0 : Fin 1) * 128 + 1 * (x 0).val = (x 0).val; rw [e1_0]; omega

/-- Parameter window 2's block at any point is its whole array. -/
theorem iblk1_2_eq (c : Dev nD) (t : Fin cfg1.N) :
    (iblk1 V c 2 t : Vec Ideal S128 .f32) = (V c (Pipeline.arrRef spec1 2) : S128.Idx → EReal) := by
  obtain ⟨-, -, -, e2_0, -⟩ := idx_facts1 t
  funext x
  unfold iblk1
  rw [View.read_apply]
  show V c main_v22 _ = V c main_v22 x
  congr 1
  funext a
  apply Fin.ext
  match a with
  | ⟨0, _⟩ => show win1_2.index t (0 : Fin 1) * 128 + 1 * (x 0).val = (x 0).val; rw [e2_0]; omega

/-- Parameter window 3's block at any point is its whole array. -/
theorem iblk1_3_eq (c : Dev nD) (t : Fin cfg1.N) :
    (iblk1 V c 3 t : Vec Ideal S128 .f32) = (V c (Pipeline.arrRef spec1 3) : S128.Idx → EReal) := by
  obtain ⟨-, -, -, -, e3_0, -⟩ := idx_facts1 t
  funext x
  unfold iblk1
  rw [View.read_apply]
  show V c main_arg7 _ = V c main_arg7 x
  congr 1
  funext a
  apply Fin.ext
  match a with
  | ⟨0, _⟩ => show win1_3.index t (0 : Fin 1) * 128 + 1 * (x 0).val = (x 0).val; rw [e3_0]; omega

/-- Parameter window 4's block at any point is its whole array. -/
theorem iblk1_4_eq (c : Dev nD) (t : Fin cfg1.N) :
    (iblk1 V c 4 t : Vec Ideal S128 .f32) = (V c (Pipeline.arrRef spec1 4) : S128.Idx → EReal) := by
  obtain ⟨-, -, -, -, -, e4_0, -⟩ := idx_facts1 t
  funext x
  unfold iblk1
  rw [View.read_apply]
  show V c main_arg8 _ = V c main_arg8 x
  congr 1
  funext a
  apply Fin.ext
  match a with
  | ⟨0, _⟩ => show win1_4.index t (0 : Fin 1) * 128 + 1 * (x 0).val = (x 0).val; rw [e4_0]; omega

/-- Entry (r, q) of the output's block at point t sits at entry (5000·t + r, q) of the array. -/
theorem emb1_5 (t : Fin cfg1.N) (r : Fin 5000) (q : Fin 128) (R : Fin 100000) (hR : R.val = 5000 * t.val + r.val) :
    (((cfg1.win 5).blk t).view.emb (ix2 r q : S5000x128.Idx) : S100000x128.Idx) = ix2 R q := by
  obtain ⟨-, -, -, -, -, -, e5_0, e5_1⟩ := idx_facts1 t
  funext a
  apply Fin.ext
  match a with
  | ⟨0, _⟩ => show win1_5.index t (0 : Fin 2) * 5000 + 1 * r.val = R.val; rw [e5_0, hR]; omega
  | ⟨1, _⟩ => show win1_5.index t (1 : Fin 2) * 128 + 1 * q.val = q.val; rw [e5_1]; omega

/-- A block X of 5000 rows is block t of an array G of 100000 rows as soon as row r of X is row 5000·t + r of G. -/
theorem blk1_5_eq (t : Fin cfg1.N) (X : S5000x128.Idx → EReal) (G : S100000x128.Idx → EReal)
    (h : ∀ (r : Fin 5000) (q : Fin 128) (R : Fin 100000), R.val = 5000 * t.val + r.val → X (ix2 r q) = G (ix2 R q)) :
    (cfg1.win 5).cut (grid1.coords t) X = ((cfg1.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg1.N = 20 := N_1
  have hR : 5000 * t.val + r.val < 100000 := by have := t.isLt; have := r.isLt; omega
  show X (ix2 r q) = G (((cfg1.win 5).blk t).view.emb (ix2 r q : S5000x128.Idx))
  rw [emb1_5 t r q ⟨5000 * t.val + r.val, hR⟩ rfl]
  exact h r q _ rfl

/-- The body's one store of its value of five loaded blocks, written back at point t, is block t of the normalisation of
    five arrays as soon as row r of the first block is row 5000·t + r of the first array and the other four blocks are the
    other four arrays: an entry of that function depends on its row of the input only. -/
theorem out1_5_block (t : Fin cfg1.N) (x0 : Vec Ideal S5000x128 .f32) (x1 : Vec Ideal S128 .f32)
    (x2 : Vec Ideal S128 .f32) (x3 : Vec Ideal S128 .f32) (x4 : Vec Ideal S128 .f32)
    (A0 : S100000x128.Idx → EReal) (A1 : S128.Idx → EReal) (A2 : S128.Idx → EReal)
    (A3 : S128.Idx → EReal) (A4 : S128.Idx → EReal)
    (h0 : ∀ (r : Fin 5000) (k : Fin 128) (R : Fin 100000), R.val = 5000 * t.val + r.val → x0 (ix2 r k) = A0 (ix2 R k))
    (h1 : x1 = A1) (h2 : x2 = A2) (h3 : x3 = A3) (h4 : x4 = A4) :
    (cfg1.win 5).cut (grid1.coords t) (out1_5 x0 x1 x2 x3 x4)
      = ((cfg1.win 5).blk t).view.read (Elt Ideal) (Cert.Val.bnorm A0 A1 A2 A3 A4) := by
  subst h1 h2 h3 h4
  unfold out1_5
  rw [View.canon_unit_zero hz2_1]
  simp only [View.ld_unit_zero (S := S5000x128) hz2_1, View.ld_unit_zero (S := S128) hz1_1]
  rw [Cert.Val.k1_pay1_eq]
  exact blk1_5_eq t _ _ fun r q R hR => Cert.Val.bnorm_rows _ _ _ _ _ _ r R (fun k => h0 r k R hR) q

/-- What point t writes back is block t — rows 5000·t … 5000·t + 4999 — of the normalisation of the arrays as the
    region finds them. -/
theorem flushed1_eq (c : Dev nD) (t : Fin cfg1.N) :
    (dat1 V c).flushed 5 t = ((cfg1.win 5).blk t).view.read (Elt Ideal)
      (Cert.Val.bnorm (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  exact out1_5_block t _ _ _ _ _ _ _ _ _ _ (fun r k R hR => iblk1_0_apply V c t r k R hR)
    (iblk1_1_eq V c t) (iblk1_2_eq V c t) (iblk1_3_eq V c t) (iblk1_4_eq V c t)

/-- An entry of the array is in point t's block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v23).slice (win1_5.rect t)).set ↔ _
  rw [View.set_slice_whole, Rect.mem_set_unit]
  exact Iff.rfl

/-- Every entry of the array is in some point's block: row R is in block R / 5000. -/
theorem cover1_5_all (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, e5_0, e5_1⟩ := idx_facts1 ⟨(i 0).val / 5000, ht⟩
  refine ⟨⟨(i 0).val / 5000, ht⟩, flush1_5 _, ?_⟩
  rw [mem_blk1_5]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e5_1]; omega

/-- THE ARRAY after the region: the normalisation of the arrays as the region finds them. -/
theorem final1 (c : Dev nD) :
    (dat1 (F := Ideal) V c).arrAt 5 cfg1.N
      = Cert.Val.bnorm (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5 _ (fun t _ => flushed1_eq V c t) cover1_5_all

end Cert.KernelIdeal.Hand

end
-- ==== Proof.KIValA.lean ====
import proofs.«168812_j9088150798767_1_alg».proof.Proof.KIFold
import proofs.«168812_j9088150798767_1_alg».proof.Proof.RefRunDefs
import proofs.«168812_j9088150798767_1_alg».proof.Proof.ValMlp
import proofs.«168812_j9088150798767_1_alg».proof.Proof.ValBn
import proofs.«168812_j9088150798767_1_alg».proof.Proof.ValCls
import proofs.«168812_j9088150798767_1_alg».proof.Proof.KIFin0
import proofs.«168812_j9088150798767_1_alg».proof.Proof.KIFin1
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

set_option maxHeartbeats 2000000 in
/-- `main_v1` after the host operations `hostOps0` is the reference's `res_main_v1` of the arguments: the same operations in the same order. -/
theorem val_main_v1 (c : Dev nD) : W1 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps0 (W0 m c) (Proc.devRef .tc main_v1) = _
  after_results_simp
  rfl

set_option maxHeartbeats 2000000 in
/-- `main_v3` after the host operations `hostOps0` is the reference's `res_main_v3` of the arguments: the same operations in the same order. -/
theorem val_main_v3 (c : Dev nD) : W1 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps0 (W0 m c) (Proc.devRef .tc main_v3) = _
  after_results_simp
  rfl

set_option maxHeartbeats 2000000 in
/-- `main_v17` after the host operations `hostOps0` is the reference's `res_main_v17` of the arguments: the same operations in the same order. -/
theorem val_main_v17 (c : Dev nD) : W1 m c (Proc.devRef .tc main_v17) = Cert.ReferenceIdeal.RefRun.res_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps0 (W0 m c) (Proc.devRef .tc main_v17) = _
  after_results_simp
  rfl

set_option maxHeartbeats 2000000 in
/-- Region 0 leaves in `main_v18` the reference's `res_main_v27` of the arguments: its blocks are the rows of one whole-array function of
    its operands, which is the reference's composition of host operations on the same operands. -/
theorem val_main_v18 (c : Dev nD) : W2 m c (Proc.devRef .tc main_v18) = Cert.ReferenceIdeal.RefRun.res_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W2_arr m c 5).trans ((final0 (U1 m) c).trans ?_)
  rw [show U1 m c (Pipeline.arrRef spec0 0) = Cert.ReferenceIdeal.RefRun.res_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v17 m c,
    show U1 m c (Pipeline.arrRef spec0 1) = m ((c : Thread nD τ).loc main_arg3) from ((W1_keep m c main_arg3 (by decide))),
    show U1 m c (Pipeline.arrRef spec0 2) = m ((c : Thread nD τ).loc main_arg4) from ((W1_keep m c main_arg4 (by decide))),
    show U1 m c (Pipeline.arrRef spec0 3) = m ((c : Thread nD τ).loc main_arg5) from ((W1_keep m c main_arg5 (by decide))),
    show U1 m c (Pipeline.arrRef spec0 4) = m ((c : Thread nD τ).loc main_arg6) from ((W1_keep m c main_arg6 (by decide)))]
  exact (Cert.Val.mlp2_host16 _ _ _ _ _ _ _ _).symm

set_option maxHeartbeats 2000000 in
/-- `main_v21` after the host operations `hostOps1` is the reference's `res_main_v30` of the arguments: the same operations in the same order. -/
theorem val_main_v21 (c : Dev nD) : W3 m c (Proc.devRef .tc main_v21) = Cert.ReferenceIdeal.RefRun.res_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps1 (W2 m c) (Proc.devRef .tc main_v21) = _
  after_results_simp
  try rw [show W2 m c (Proc.devRef .tc main_v18) = Cert.ReferenceIdeal.RefRun.res_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v18 m c]
  rfl

set_option maxHeartbeats 2000000 in
/-- `main_v22` after the host operations `hostOps1_1` is the reference's `res_main_v31` of the arguments: the same operations in the same order. -/
theorem val_main_v22 (c : Dev nD) : W4 m c (Proc.devRef .tc main_v22) = Cert.ReferenceIdeal.RefRun.res_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps1_1 (StableHlo.after hostOps1 (W2 m c)) (Proc.devRef .tc main_v22) = _
  after_results_simp
  try rw [show W2 m c (Proc.devRef .tc main_v18) = Cert.ReferenceIdeal.RefRun.res_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v18 m c]
  rfl

set_option maxHeartbeats 2000000 in
/-- Region 1 leaves in `main_v23` the reference's `res_main_v46` of the arguments: its blocks are the rows of one whole-array function of
    its operands, which is the reference's composition of host operations on the same operands. -/
theorem val_main_v23 (c : Dev nD) : W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W5_arr m c 5).trans ((final1 (U4 m) c).trans ?_)
  rw [show U4 m c (Pipeline.arrRef spec1 0) = Cert.ReferenceIdeal.RefRun.res_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W4_keep m c main_v18 (by decide)).trans <| (W3_keep m c main_v18 (by decide))).trans (val_main_v18 m c)),
    show U4 m c (Pipeline.arrRef spec1 1) = Cert.ReferenceIdeal.RefRun.res_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W4_keep m c main_v21 (by decide))).trans (val_main_v21 m c)),
    show U4 m c (Pipeline.arrRef spec1 2) = Cert.ReferenceIdeal.RefRun.res_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v22 m c,
    show U4 m c (Pipeline.arrRef spec1 3) = m ((c : Thread nD τ).loc main_arg7) from ((W4_keep m c main_arg7 (by decide)).trans <| (W3_keep m c main_arg7 (by decide)).trans <| (W2_keep m c main_arg7 (by decide)).trans <| (W1_keep m c main_arg7 (by decide))),
    show U4 m c (Pipeline.arrRef spec1 4) = m ((c : Thread nD τ).loc main_arg8) from ((W4_keep m c main_arg8 (by decide)).trans <| (W3_keep m c main_arg8 (by decide)).trans <| (W2_keep m c main_arg8 (by decide)).trans <| (W1_keep m c main_arg8 (by decide)))]
  exact (Cert.Val.bnorm_host _ _ _ _ _ _ _ _).symm

end Cert.KernelIdeal.Hand

end
-- ==== Proof.KIFin2.lean ====
/-
  Region 2, from blocks to the array. The region's grid has 20 points; at point t the input and the output windows hold
  rows 5000·t … 5000·t + 4999 of their arrays (all columns) and the four parameter windows hold their whole arrays. What
  point t writes back is therefore block t of ONE function of the arrays as the region finds them — the two-layer perceptron of this layer, on 128 input columns —
  because an entry of that function depends on its row of the input only; the 20 blocks tile the 100000 rows, so the
  output array ends holding that function.
-/
import proofs.«168812_j9088150798767_1_alg».proof.Proof.KIReg2
import proofs.«168812_j9088150798767_1_alg».proof.Proof.ValMlp
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a <;> rfl

/-- The printed index maps, decided over the 20 grid points: the input and the output move with the point along the
    rows, the four parameter windows are the whole arrays at every point. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 2) = t.val
    ∧ win2_5.index t (1 : Fin 2) = 0 :=
  (by decide +kernel : ∀ t : Fin grid2.N, _)

/-- Row r of the input's block at point t is row 5000·t + r of the array. -/
theorem iblk2_0_apply (c : Dev nD) (t : Fin cfg2.N) (r : Fin 5000) (k : Fin 128) (R : Fin 100000)
    (hR : R.val = 5000 * t.val + r.val) :
    (iblk2 V c 0 t : Vec Ideal S5000x128 .f32) (ix2 r k)
      = (V c (Pipeline.arrRef spec2 0) : S100000x128.Idx → EReal) (ix2 R k) := by
  obtain ⟨e0_0, e0_1, -⟩ := idx_facts2 t
  unfold iblk2
  rw [View.read_apply]
  show V c main_v51 _ = V c main_v51 _
  congr 1
  funext a
  apply Fin.ext
  match a with
  | ⟨0, _⟩ => show win2_0.index t (0 : Fin 2) * 5000 + 1 * r.val = R.val; rw [e0_0, hR]; omega
  | ⟨1, _⟩ => show win2_0.index t (1 : Fin 2) * 128 + 1 * k.val = k.val; rw [e0_1]; omega

/-- Parameter window 1's block at any point is its whole array. -/
theorem iblk2_1_eq (c : Dev nD) (t : Fin cfg2.N) :
    (iblk2 V c 1 t : Vec Ideal S128x128 .f32) = (V c (Pipeline.arrRef spec2 1) : S128x128.Idx → EReal) := by
  obtain ⟨-, -, e1_0, e1_1, -⟩ := idx_facts2 t
  funext x
  unfold iblk2
  rw [View.read_apply]
  show V c main_v27 _ = V c main_v27 x
  congr 1
  funext a
  apply Fin.ext
  match a with
  | ⟨0, _⟩ => show win2_1.index t (0 : Fin 2) * 128 + 1 * (x 0).val = (x 0).val; rw [e1_0]; omega
  | ⟨1, _⟩ => show win2_1.index t (1 : Fin 2) * 128 + 1 * (x 1).val = (x 1).val; rw [e1_1]; omega

/-- Parameter window 2's block at any point is its whole array. -/
theorem iblk2_2_eq (c : Dev nD) (t : Fin cfg2.N) :
    (iblk2 V c 2 t : Vec Ideal S128 .f32) = (V c (Pipeline.arrRef spec2 2) : S128.Idx → EReal) := by
  obtain ⟨-, -, -, -, e2_0, -⟩ := idx_facts2 t
  funext x
  unfold iblk2
  rw [View.read_apply]
  show V c main_v29 _ = V c main_v29 x
  congr 1
  funext a
  apply Fin.ext
  match a with
  | ⟨0, _⟩ => show win2_2.index t (0 : Fin 1) * 128 + 1 * (x 0).val = (x 0).val; rw [e2_0]; omega

/-- Parameter window 3's block at any point is its whole array. -/
theorem iblk2_3_eq (c : Dev nD) (t : Fin cfg2.N) :
    (iblk2 V c 3 t : Vec Ideal S128x128 .f32) = (V c (Pipeline.arrRef spec2 3) : S128x128.Idx → EReal) := by
  obtain ⟨-, -, -, -, -, e3_0, e3_1, -⟩ := idx_facts2 t
  funext x
  unfold iblk2
  rw [View.read_apply]
  show V c main_v31 _ = V c main_v31 x
  congr 1
  funext a
  apply Fin.ext
  match a with
  | ⟨0, _⟩ => show win2_3.index t (0 : Fin 2) * 128 + 1 * (x 0).val = (x 0).val; rw [e3_0]; omega
  | ⟨1, _⟩ => show win2_3.index t (1 : Fin 2) * 128 + 1 * (x 1).val = (x 1).val; rw [e3_1]; omega

/-- Parameter window 4's block at any point is its whole array. -/
theorem iblk2_4_eq (c : Dev nD) (t : Fin cfg2.N) :
    (iblk2 V c 4 t : Vec Ideal S128 .f32) = (V c (Pipeline.arrRef spec2 4) : S128.Idx → EReal) := by
  obtain ⟨-, -, -, -, -, -, -, e4_0, -⟩ := idx_facts2 t
  funext x
  unfold iblk2
  rw [View.read_apply]
  show V c main_v33 _ = V c main_v33 x
  congr 1
  funext a
  apply Fin.ext
  match a with
  | ⟨0, _⟩ => show win2_4.index t (0 : Fin 1) * 128 + 1 * (x 0).val = (x 0).val; rw [e4_0]; omega

/-- Entry (r, q) of the output's block at point t sits at entry (5000·t + r, q) of the array. -/
theorem emb2_5 (t : Fin cfg2.N) (r : Fin 5000) (q : Fin 128) (R : Fin 100000) (hR : R.val = 5000 * t.val + r.val) :
    (((cfg2.win 5).blk t).view.emb (ix2 r q : S5000x128.Idx) : S100000x128.Idx) = ix2 R q := by
  obtain ⟨-, -, -, -, -, -, -, -, e5_0, e5_1⟩ := idx_facts2 t
  funext a
  apply Fin.ext
  match a with
  | ⟨0, _⟩ => show win2_5.index t (0 : Fin 2) * 5000 + 1 * r.val = R.val; rw [e5_0, hR]; omega
  | ⟨1, _⟩ => show win2_5.index t (1 : Fin 2) * 128 + 1 * q.val = q.val; rw [e5_1]; omega

/-- A block X of 5000 rows is block t of an array G of 100000 rows as soon as row r of X is row 5000·t + r of G. -/
theorem blk2_5_eq (t : Fin cfg2.N) (X : S5000x128.Idx → EReal) (G : S100000x128.Idx → EReal)
    (h : ∀ (r : Fin 5000) (q : Fin 128) (R : Fin 100000), R.val = 5000 * t.val + r.val → X (ix2 r q) = G (ix2 R q)) :
    (cfg2.win 5).cut (grid2.coords t) X = ((cfg2.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg2.N = 20 := N_2
  have hR : 5000 * t.val + r.val < 100000 := by have := t.isLt; have := r.isLt; omega
  show X (ix2 r q) = G (((cfg2.win 5).blk t).view.emb (ix2 r q : S5000x128.Idx))
  rw [emb2_5 t r q ⟨5000 * t.val + r.val, hR⟩ rfl]
  exact h r q _ rfl

/-- The body's one store of its value of five loaded blocks, written back at point t, is block t of the two-layer function of
    five arrays as soon as row r of the first block is row 5000·t + r of the first array and the other four blocks are the
    other four arrays: an entry of that function depends on its row of the input only. -/
theorem out2_5_block (t : Fin cfg2.N) (x0 : Vec Ideal S5000x128 .f32) (x1 : Vec Ideal S128x128 .f32)
    (x2 : Vec Ideal S128 .f32) (x3 : Vec Ideal S128x128 .f32) (x4 : Vec Ideal S128 .f32)
    (A0 : S100000x128.Idx → EReal) (A1 : S128x128.Idx → EReal) (A2 : S128.Idx → EReal)
    (A3 : S128x128.Idx → EReal) (A4 : S128.Idx → EReal)
    (h0 : ∀ (r : Fin 5000) (k : Fin 128) (R : Fin 100000), R.val = 5000 * t.val + r.val → x0 (ix2 r k) = A0 (ix2 R k))
    (h1 : x1 = A1) (h2 : x2 = A2) (h3 : x3 = A3) (h4 : x4 = A4) :
    (cfg2.win 5).cut (grid2.coords t) (out2_5 x0 x1 x2 x3 x4)
      = ((cfg2.win 5).blk t).view.read (Elt Ideal) (Cert.Val.mlp2 A0 A1 A2 A3 A4) := by
  subst h1 h2 h3 h4
  unfold out2_5
  rw [View.canon_unit_zero hz2_2]
  simp only [View.ld_unit_zero (S := S5000x128) hz2_2, View.ld_unit_zero (S := S128x128) hz2_2, View.ld_unit_zero (S := S128) hz1_2]
  rw [Cert.Val.k2_pay1_eq]
  exact blk2_5_eq t _ _ fun r q R hR => Cert.Val.mlp2_rows _ _ _ _ _ _ r R (fun k => h0 r k R hR) q

/-- What point t writes back is block t — rows 5000·t … 5000·t + 4999 — of the two-layer function of the arrays as the
    region finds them. -/
theorem flushed2_eq (c : Dev nD) (t : Fin cfg2.N) :
    (dat2 V c).flushed 5 t = ((cfg2.win 5).blk t).view.read (Elt Ideal)
      (Cert.Val.mlp2 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  exact out2_5_block t _ _ _ _ _ _ _ _ _ _ (fun r k R hR => iblk2_0_apply V c t r k R hR)
    (iblk2_1_eq V c t) (iblk2_2_eq V c t) (iblk2_3_eq V c t) (iblk2_4_eq V c t)

/-- An entry of the array is in point t's block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v52).slice (win2_5.rect t)).set ↔ _
  rw [View.set_slice_whole, Rect.mem_set_unit]
  exact Iff.rfl

/-- Every entry of the array is in some point's block: row R is in block R / 5000. -/
theorem cover2_5_all (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, e5_0, e5_1⟩ := idx_facts2 ⟨(i 0).val / 5000, ht⟩
  refine ⟨⟨(i 0).val / 5000, ht⟩, flush2_5 _, ?_⟩
  rw [mem_blk2_5]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e5_1]; omega

/-- THE ARRAY after the region: the two-layer function of the arrays as the region finds them. -/
theorem final2 (c : Dev nD) :
    (dat2 (F := Ideal) V c).arrAt 5 cfg2.N
      = Cert.Val.mlp2 (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5 _ (fun t _ => flushed2_eq V c t) cover2_5_all

end Cert.KernelIdeal.Hand

end
-- ==== Proof.KIFin3.lean ====
/-
  Region 3, from blocks to the array. The region's grid has 20 points; at point t the input and the output windows hold
  rows 5000·t … 5000·t + 4999 of their arrays (all columns) and the four parameter windows hold their whole arrays. What
  point t writes back is therefore block t of ONE function of the arrays as the region finds them — the normalisation by the columns' mean and variance, scaled and shifted —
  because an entry of that function depends on its row of the input only; the 20 blocks tile the 100000 rows, so the
  output array ends holding that function.
-/
import proofs.«168812_j9088150798767_1_alg».proof.Proof.KIReg3
import proofs.«168812_j9088150798767_1_alg».proof.Proof.ValBn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a <;> rfl

/-- The printed index maps, decided over the 20 grid points: the input and the output move with the point along the
    rows, the four parameter windows are the whole arrays at every point. -/
theorem idx_facts3 : ∀ t : Fin cfg3.N, win3_0.index t (0 : Fin 2) = t.val
    ∧ win3_0.index t (1 : Fin 2) = 0
    ∧ win3_1.index t (0 : Fin 1) = 0
    ∧ win3_2.index t (0 : Fin 1) = 0
    ∧ win3_3.index t (0 : Fin 1) = 0
    ∧ win3_4.index t (0 : Fin 1) = 0
    ∧ win3_5.index t (0 : Fin 2) = t.val
    ∧ win3_5.index t (1 : Fin 2) = 0 :=
  (by decide +kernel : ∀ t : Fin grid3.N, _)

/-- Row r of the input's block at point t is row 5000·t + r of the array. -/
theorem iblk3_0_apply (c : Dev nD) (t : Fin cfg3.N) (r : Fin 5000) (k : Fin 128) (R : Fin 100000)
    (hR : R.val = 5000 * t.val + r.val) :
    (iblk3 V c 0 t : Vec Ideal S5000x128 .f32) (ix2 r k)
      = (V c (Pipeline.arrRef spec3 0) : S100000x128.Idx → EReal) (ix2 R k) := by
  obtain ⟨e0_0, e0_1, -⟩ := idx_facts3 t
  unfold iblk3
  rw [View.read_apply]
  show V c main_v52 _ = V c main_v52 _
  congr 1
  funext a
  apply Fin.ext
  match a with
  | ⟨0, _⟩ => show win3_0.index t (0 : Fin 2) * 5000 + 1 * r.val = R.val; rw [e0_0, hR]; omega
  | ⟨1, _⟩ => show win3_0.index t (1 : Fin 2) * 128 + 1 * k.val = k.val; rw [e0_1]; omega

/-- Parameter window 1's block at any point is its whole array. -/
theorem iblk3_1_eq (c : Dev nD) (t : Fin cfg3.N) :
    (iblk3 V c 1 t : Vec Ideal S128 .f32) = (V c (Pipeline.arrRef spec3 1) : S128.Idx → EReal) := by
  obtain ⟨-, -, e1_0, -⟩ := idx_facts3 t
  funext x
  unfold iblk3
  rw [View.read_apply]
  show V c main_v55 _ = V c main_v55 x
  congr 1
  funext a
  apply Fin.ext
  match a with
  | ⟨0, _⟩ => show win3_1.index t (0 : Fin 1) * 128 + 1 * (x 0).val = (x 0).val; rw [e1_0]; omega

/-- Parameter window 2's block at any point is its whole array. -/
theorem iblk3_2_eq (c : Dev nD) (t : Fin cfg3.N) :
    (iblk3 V c 2 t : Vec Ideal S128 .f32) = (V c (Pipeline.arrRef spec3 2) : S128.Idx → EReal) := by
  obtain ⟨-, -, -, e2_0, -⟩ := idx_facts3 t
  funext x
  unfold iblk3
  rw [View.read_apply]
  show V c main_v56 _ = V c main_v56 x
  congr 1
  funext a
  apply Fin.ext
  match a with
  | ⟨0, _⟩ => show win3_2.index t (0 : Fin 1) * 128 + 1 * (x 0).val = (x 0).val; rw [e2_0]; omega

/-- Parameter window 3's block at any point is its whole array. -/
theorem iblk3_3_eq (c : Dev nD) (t : Fin cfg3.N) :
    (iblk3 V c 3 t : Vec Ideal S128 .f32) = (V c (Pipeline.arrRef spec3 3) : S128.Idx → EReal) := by
  obtain ⟨-, -, -, -, e3_0, -⟩ := idx_facts3 t
  funext x
  unfold iblk3
  rw [View.read_apply]
  show V c main_v35 _ = V c main_v35 x
  congr 1
  funext a
  apply Fin.ext
  match a with
  | ⟨0, _⟩ => show win3_3.index t (0 : Fin 1) * 128 + 1 * (x 0).val = (x 0).val; rw [e3_0]; omega

/-- Parameter window 4's block at any point is its whole array. -/
theorem iblk3_4_eq (c : Dev nD) (t : Fin cfg3.N) :
    (iblk3 V c 4 t : Vec Ideal S128 .f32) = (V c (Pipeline.arrRef spec3 4) : S128.Idx → EReal) := by
  obtain ⟨-, -, -, -, -, e4_0, -⟩ := idx_facts3 t
  funext x
  unfold iblk3
  rw [View.read_apply]
  show V c main_v37 _ = V c main_v37 x
  congr 1
  funext a
  apply Fin.ext
  match a with
  | ⟨0, _⟩ => show win3_4.index t (0 : Fin 1) * 128 + 1 * (x 0).val = (x 0).val; rw [e4_0]; omega

/-- Entry (r, q) of the output's block at point t sits at entry (5000·t + r, q) of the array. -/
theorem emb3_5 (t : Fin cfg3.N) (r : Fin 5000) (q : Fin 128) (R : Fin 100000) (hR : R.val = 5000 * t.val + r.val) :
    (((cfg3.win 5).blk t).view.emb (ix2 r q : S5000x128.Idx) : S100000x128.Idx) = ix2 R q := by
  obtain ⟨-, -, -, -, -, -, e5_0, e5_1⟩ := idx_facts3 t
  funext a
  apply Fin.ext
  match a with
  | ⟨0, _⟩ => show win3_5.index t (0 : Fin 2) * 5000 + 1 * r.val = R.val; rw [e5_0, hR]; omega
  | ⟨1, _⟩ => show win3_5.index t (1 : Fin 2) * 128 + 1 * q.val = q.val; rw [e5_1]; omega

/-- A block X of 5000 rows is block t of an array G of 100000 rows as soon as row r of X is row 5000·t + r of G. -/
theorem blk3_5_eq (t : Fin cfg3.N) (X : S5000x128.Idx → EReal) (G : S100000x128.Idx → EReal)
    (h : ∀ (r : Fin 5000) (q : Fin 128) (R : Fin 100000), R.val = 5000 * t.val + r.val → X (ix2 r q) = G (ix2 R q)) :
    (cfg3.win 5).cut (grid3.coords t) X = ((cfg3.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg3.N = 20 := N_3
  have hR : 5000 * t.val + r.val < 100000 := by have := t.isLt; have := r.isLt; omega
  show X (ix2 r q) = G (((cfg3.win 5).blk t).view.emb (ix2 r q : S5000x128.Idx))
  rw [emb3_5 t r q ⟨5000 * t.val + r.val, hR⟩ rfl]
  exact h r q _ rfl

/-- The body's one store of its value of five loaded blocks, written back at point t, is block t of the normalisation of
    five arrays as soon as row r of the first block is row 5000·t + r of the first array and the other four blocks are the
    other four arrays: an entry of that function depends on its row of the input only. -/
theorem out3_5_block (t : Fin cfg3.N) (x0 : Vec Ideal S5000x128 .f32) (x1 : Vec Ideal S128 .f32)
    (x2 : Vec Ideal S128 .f32) (x3 : Vec Ideal S128 .f32) (x4 : Vec Ideal S128 .f32)
    (A0 : S100000x128.Idx → EReal) (A1 : S128.Idx → EReal) (A2 : S128.Idx → EReal)
    (A3 : S128.Idx → EReal) (A4 : S128.Idx → EReal)
    (h0 : ∀ (r : Fin 5000) (k : Fin 128) (R : Fin 100000), R.val = 5000 * t.val + r.val → x0 (ix2 r k) = A0 (ix2 R k))
    (h1 : x1 = A1) (h2 : x2 = A2) (h3 : x3 = A3) (h4 : x4 = A4) :
    (cfg3.win 5).cut (grid3.coords t) (out3_5 x0 x1 x2 x3 x4)
      = ((cfg3.win 5).blk t).view.read (Elt Ideal) (Cert.Val.bnorm A0 A1 A2 A3 A4) := by
  subst h1 h2 h3 h4
  unfold out3_5
  rw [View.canon_unit_zero hz2_3]
  simp only [View.ld_unit_zero (S := S5000x128) hz2_3, View.ld_unit_zero (S := S128) hz1_3]
  rw [Cert.Val.k3_pay1_eq]
  exact blk3_5_eq t _ _ fun r q R hR => Cert.Val.bnorm_rows _ _ _ _ _ _ r R (fun k => h0 r k R hR) q

/-- What point t writes back is block t — rows 5000·t … 5000·t + 4999 — of the normalisation of the arrays as the
    region finds them. -/
theorem flushed3_eq (c : Dev nD) (t : Fin cfg3.N) :
    (dat3 V c).flushed 5 t = ((cfg3.win 5).blk t).view.read (Elt Ideal)
      (Cert.Val.bnorm (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  exact out3_5_block t _ _ _ _ _ _ _ _ _ _ (fun r k R hR => iblk3_0_apply V c t r k R hR)
    (iblk3_1_eq V c t) (iblk3_2_eq V c t) (iblk3_3_eq V c t) (iblk3_4_eq V c t)

/-- An entry of the array is in point t's block iff each coordinate is in the block's range on its axis. -/
theorem mem_blk3_5 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v57).slice (win3_5.rect t)).set ↔ _
  rw [View.set_slice_whole, Rect.mem_set_unit]
  exact Iff.rfl

/-- Every entry of the array is in some point's block: row R is in block R / 5000. -/
theorem cover3_5_all (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, e5_0, e5_1⟩ := idx_facts3 ⟨(i 0).val / 5000, ht⟩
  refine ⟨⟨(i 0).val / 5000, ht⟩, flush3_5 _, ?_⟩
  rw [mem_blk3_5]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e5_1]; omega

/-- THE ARRAY after the region: the normalisation of the arrays as the region finds them. -/
theorem final3 (c : Dev nD) :
    (dat3 (F := Ideal) V c).arrAt 5 cfg3.N
      = Cert.Val.bnorm (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 5 _ (fun t _ => flushed3_eq V c t) cover3_5_all

end Cert.KernelIdeal.Hand

end
-- ==== Proof.KIValB.lean ====
import proofs.«168812_j9088150798767_1_alg».proof.Proof.KIValA
import proofs.«168812_j9088150798767_1_alg».proof.Proof.KIFin2
import proofs.«168812_j9088150798767_1_alg».proof.Proof.KIFin3
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

set_option maxHeartbeats 2000000 in
/-- `main_v25` after the host operations `hostOps2` is the reference's `res_main_v48` of the arguments: the same operations in the same order. -/
theorem val_main_v25 (c : Dev nD) : W6 m c (Proc.devRef .tc main_v25) = Cert.ReferenceIdeal.RefRun.res_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v25) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v27` after the host operations `hostOps2` is the reference's `res_main_v50` of the arguments: the same operations in the same order. -/
theorem val_main_v27 (c : Dev nD) : W6 m c (Proc.devRef .tc main_v27) = Cert.ReferenceIdeal.RefRun.res_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v27) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v29` after the host operations `hostOps2` is the reference's `res_main_v52` of the arguments: the same operations in the same order. -/
theorem val_main_v29 (c : Dev nD) : W6 m c (Proc.devRef .tc main_v29) = Cert.ReferenceIdeal.RefRun.res_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v29) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v31` after the host operations `hostOps2` is the reference's `res_main_v54` of the arguments: the same operations in the same order. -/
theorem val_main_v31 (c : Dev nD) : W6 m c (Proc.devRef .tc main_v31) = Cert.ReferenceIdeal.RefRun.res_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v31) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v33` after the host operations `hostOps2` is the reference's `res_main_v56` of the arguments: the same operations in the same order. -/
theorem val_main_v33 (c : Dev nD) : W6 m c (Proc.devRef .tc main_v33) = Cert.ReferenceIdeal.RefRun.res_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v33) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v35` after the host operations `hostOps2` is the reference's `res_main_v58` of the arguments: the same operations in the same order. -/
theorem val_main_v35 (c : Dev nD) : W6 m c (Proc.devRef .tc main_v35) = Cert.ReferenceIdeal.RefRun.res_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v35) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v37` after the host operations `hostOps2` is the reference's `res_main_v60` of the arguments: the same operations in the same order. -/
theorem val_main_v37 (c : Dev nD) : W6 m c (Proc.devRef .tc main_v37) = Cert.ReferenceIdeal.RefRun.res_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v37) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v51` after the host operations `hostOps2` is the reference's `res_main_v74` of the arguments: the same operations in the same order. -/
theorem val_main_v51 (c : Dev nD) : W6 m c (Proc.devRef .tc main_v51) = Cert.ReferenceIdeal.RefRun.res_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps2 (W5 m c) (Proc.devRef .tc main_v51) = _
  after_results_simp
  try rw [show W5 m c (Proc.devRef .tc main_arg16) = m ((c : Thread nD τ).loc main_arg16) from ((W5_keep m c main_arg16 (by decide)).trans <| (W4_keep m c main_arg16 (by decide)).trans <| (W3_keep m c main_arg16 (by decide)).trans <| (W2_keep m c main_arg16 (by decide)).trans <| (W1_keep m c main_arg16 (by decide)))]
  try rw [show W5 m c (Proc.devRef .tc main_arg10) = m ((c : Thread nD τ).loc main_arg10) from ((W5_keep m c main_arg10 (by decide)).trans <| (W4_keep m c main_arg10 (by decide)).trans <| (W3_keep m c main_arg10 (by decide)).trans <| (W2_keep m c main_arg10 (by decide)).trans <| (W1_keep m c main_arg10 (by decide)))]
  try rw [show W5 m c (Proc.devRef .tc main_arg11) = m ((c : Thread nD τ).loc main_arg11) from ((W5_keep m c main_arg11 (by decide)).trans <| (W4_keep m c main_arg11 (by decide)).trans <| (W3_keep m c main_arg11 (by decide)).trans <| (W2_keep m c main_arg11 (by decide)).trans <| (W1_keep m c main_arg11 (by decide)))]
  try rw [show W5 m c (Proc.devRef .tc main_arg12) = m ((c : Thread nD τ).loc main_arg12) from ((W5_keep m c main_arg12 (by decide)).trans <| (W4_keep m c main_arg12 (by decide)).trans <| (W3_keep m c main_arg12 (by decide)).trans <| (W2_keep m c main_arg12 (by decide)).trans <| (W1_keep m c main_arg12 (by decide)))]
  try rw [show W5 m c (Proc.devRef .tc main_arg13) = m ((c : Thread nD τ).loc main_arg13) from ((W5_keep m c main_arg13 (by decide)).trans <| (W4_keep m c main_arg13 (by decide)).trans <| (W3_keep m c main_arg13 (by decide)).trans <| (W2_keep m c main_arg13 (by decide)).trans <| (W1_keep m c main_arg13 (by decide)))]
  try rw [show W5 m c (Proc.devRef .tc main_arg14) = m ((c : Thread nD τ).loc main_arg14) from ((W5_keep m c main_arg14 (by decide)).trans <| (W4_keep m c main_arg14 (by decide)).trans <| (W3_keep m c main_arg14 (by decide)).trans <| (W2_keep m c main_arg14 (by decide)).trans <| (W1_keep m c main_arg14 (by decide)))]
  try rw [show W5 m c (Proc.devRef .tc main_arg15) = m ((c : Thread nD τ).loc main_arg15) from ((W5_keep m c main_arg15 (by decide)).trans <| (W4_keep m c main_arg15 (by decide)).trans <| (W3_keep m c main_arg15 (by decide)).trans <| (W2_keep m c main_arg15 (by decide)).trans <| (W1_keep m c main_arg15 (by decide)))]
  try rw [show W5 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v23 m c]
  try rw [show W5 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v1 (by decide)).trans <| (W4_keep m c main_v1 (by decide)).trans <| (W3_keep m c main_v1 (by decide)).trans <| (W2_keep m c main_v1 (by decide))).trans (val_main_v1 m c))]
  try rw [show W5 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- Region 2 leaves in `main_v52` the reference's `res_main_v84` of the arguments: its blocks are the rows of one whole-array function of
    its operands, which is the reference's composition of host operations on the same operands. -/
theorem val_main_v52 (c : Dev nD) : W7 m c (Proc.devRef .tc main_v52) = Cert.ReferenceIdeal.RefRun.res_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W7_arr m c 5).trans ((final2 (U6 m) c).trans ?_)
  rw [show U6 m c (Pipeline.arrRef spec2 0) = Cert.ReferenceIdeal.RefRun.res_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v51 m c,
    show U6 m c (Pipeline.arrRef spec2 1) = Cert.ReferenceIdeal.RefRun.res_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v27 m c,
    show U6 m c (Pipeline.arrRef spec2 2) = Cert.ReferenceIdeal.RefRun.res_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v29 m c,
    show U6 m c (Pipeline.arrRef spec2 3) = Cert.ReferenceIdeal.RefRun.res_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v31 m c,
    show U6 m c (Pipeline.arrRef spec2 4) = Cert.ReferenceIdeal.RefRun.res_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v33 m c]
  exact (Cert.Val.mlp2_host128 _ _ _ _ _ _ _ _).symm

set_option maxHeartbeats 2000000 in
/-- `main_v55` after the host operations `hostOps3` is the reference's `res_main_v87` of the arguments: the same operations in the same order. -/
theorem val_main_v55 (c : Dev nD) : W8 m c (Proc.devRef .tc main_v55) = Cert.ReferenceIdeal.RefRun.res_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps3 (W7 m c) (Proc.devRef .tc main_v55) = _
  after_results_simp
  try rw [show W7 m c (Proc.devRef .tc main_v52) = Cert.ReferenceIdeal.RefRun.res_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v52 m c]
  rfl

set_option maxHeartbeats 2000000 in
/-- `main_v56` after the host operations `hostOps3_1` is the reference's `res_main_v88` of the arguments: the same operations in the same order. -/
theorem val_main_v56 (c : Dev nD) : W9 m c (Proc.devRef .tc main_v56) = Cert.ReferenceIdeal.RefRun.res_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps3_1 (StableHlo.after hostOps3 (W7 m c)) (Proc.devRef .tc main_v56) = _
  after_results_simp
  try rw [show W7 m c (Proc.devRef .tc main_v52) = Cert.ReferenceIdeal.RefRun.res_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v52 m c]
  rfl

set_option maxHeartbeats 2000000 in
/-- Region 3 leaves in `main_v57` the reference's `res_main_v103` of the arguments: its blocks are the rows of one whole-array function of
    its operands, which is the reference's composition of host operations on the same operands. -/
theorem val_main_v57 (c : Dev nD) : W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W10_arr m c 5).trans ((final3 (U9 m) c).trans ?_)
  rw [show U9 m c (Pipeline.arrRef spec3 0) = Cert.ReferenceIdeal.RefRun.res_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W9_keep m c main_v52 (by decide)).trans <| (W8_keep m c main_v52 (by decide))).trans (val_main_v52 m c)),
    show U9 m c (Pipeline.arrRef spec3 1) = Cert.ReferenceIdeal.RefRun.res_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W9_keep m c main_v55 (by decide))).trans (val_main_v55 m c)),
    show U9 m c (Pipeline.arrRef spec3 2) = Cert.ReferenceIdeal.RefRun.res_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v56 m c,
    show U9 m c (Pipeline.arrRef spec3 3) = Cert.ReferenceIdeal.RefRun.res_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W9_keep m c main_v35 (by decide)).trans <| (W8_keep m c main_v35 (by decide)).trans <| (W7_keep m c main_v35 (by decide))).trans (val_main_v35 m c)),
    show U9 m c (Pipeline.arrRef spec3 4) = Cert.ReferenceIdeal.RefRun.res_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W9_keep m c main_v37 (by decide)).trans <| (W8_keep m c main_v37 (by decide)).trans <| (W7_keep m c main_v37 (by decide))).trans (val_main_v37 m c))]
  exact (Cert.Val.bnorm_host _ _ _ _ _ _ _ _).symm

end Cert.KernelIdeal.Hand

end
-- ==== Proof.KIFin4.lean ====
/-
  Region 4, from blocks to the array. The region's grid has 20 points; at point t the input and the output windows hold
  rows 5000·t … 5000·t + 4999 of their arrays (all columns) and the four parameter windows hold their whole arrays. What
  point t writes back is therefore block t of ONE function of the arrays as the region finds them — the two-layer perceptron of this layer, on 128 input columns —
  because an entry of that function depends on its row of the input only; the 20 blocks tile the 100000 rows, so the
  output array ends holding that function.
-/
import proofs.«168812_j9088150798767_1_alg».proof.Proof.KIReg4
import proofs.«168812_j9088150798767_1_alg».proof.Proof.ValMlp
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_4 : (![0, 0] : Fin 2 → Nat) = fun _ => 0 := funext fun a => by fin_cases a <;> rfl
theorem hz1_4 : (![0] : Fin 1 → Nat) = fun _ => 0 := funext fun a => by fin_cases a <;> rfl

/-- The printed index maps, decided over the 20 grid points: the input and the output move with the point along the
    rows, the four parameter windows are the whole arrays at every point. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = 0
    ∧ win4_3.index t (1 : Fin 2) = 0
    ∧ win4_4.index t (0 : Fin 1) = 0
    ∧ win4_5.index t (0 : Fin 2) = t.val
    ∧ win4_5.index t (1 : Fin 2) = 0 :=
  (by decide +kernel : ∀ t : Fin grid4.N, _)

/-- Row r of the input's block at point t is row 5000·t + r of the array. -/
theorem iblk4_0_apply (c : Dev nD) (t : Fin cfg4.N) (r : Fin 5000) (k : Fin 128) (R : Fin 100000)
    (hR : R.val = 5000 * t.val + r.val) :
    (iblk4 V c 0 t : Vec Ideal S5000x128 .f32) (ix2 r k)
      = (V c (Pipeline.arrRef spec4 0) : S100000x128.Idx → EReal) (ix2 R k) := by
  obtain ⟨e0_0, e0_1, -⟩ := idx_facts4 t
  unfold iblk4
  rw [View.read_apply]
  show V c main_v85 _ = V c main_v85 _
  congr 1
  funext a
  apply Fin.ext
  match a with
  | ⟨0, _⟩ => show win4_0.index t (0 : Fin 2) * 5000 + 1 * r.val = R.val; rw [e0_0, hR]; omega
  | ⟨1, _⟩ => show win4_0.index t (1 : Fin 2) * 128 + 1 * k.val = k.val; rw [e0_1]; omega

/-- Parameter window 1's block at any point is its whole array. -/
theorem iblk4_1_eq (c : Dev nD) (t : Fin cfg4.N) :
    (iblk4 V c 1 t : Vec Ideal S128x128 .f32) = (V c (Pipeline.arrRef spec4 1) : S128x128.Idx → EReal) := by
  obtain ⟨-, -, e1_0, e1_1, -⟩ := idx_facts4 t
  funext x
  unfold iblk4
  rw [View.read_apply]
  show V c main_v61 _ = V c main_v61 x
  congr 1
  funext a
  apply Fin.ext
  match a with
  | ⟨0, _⟩ => show win4_1.index t (0 : Fin 2) * 128 + 1 * (x 0).val = (x 0).val; rw [e1_0]; omega
  | ⟨1, _⟩ => show win4_1.index t (1 : Fin 2) * 128 + 1 * (x 1).val = (x 1).val; rw [e1_1]; omega

/-- Parameter window 2's block at any point is its whole array. -/
theorem iblk4_2_eq (c : Dev nD) (t : Fin cfg4.N) :
    (iblk4 V c 2 t : Vec Ideal S128 .f32) = (V c (Pipeline.arrRef spec4 2) : S128.Idx → EReal) := by
  obtain ⟨-, -, -, -, e2_0, -⟩ := idx_facts4 t
  funext x
  unfold iblk4
  rw [View.read_apply]
  show V c main_v63 _ = V c main_v63 x
  congr 1
  funext a
  apply Fin.ext
  match a with
  | ⟨0, _⟩ => show win4_2.index t (0 : Fin 1) * 128 + 1 * (x 0).val = (x 0).val; rw [e2_0]; omega

/-- Parameter window 3's block at any point is its whole array. -/
theorem iblk4_3_eq (c : Dev nD) (t : Fin cfg4.N) :
    (iblk4 V c 3 t : Vec Ideal S128x128 .f32) = (V c (Pipeline.arrRef spec4 3) : S128x128.Idx → EReal) := by
  obtain ⟨-, -, -, -, -, e3_0, e3_1, -⟩ := idx_facts4 t
  funext x
  unfold iblk4
  rw [View.read_apply]
  show V c main_v65 _ = V c main_v65 x
  congr 1
  funext a
  apply Fin.ext
  match a with
  | ⟨0, _⟩ => show win4_3.index t (0 : Fin 2) * 128 + 1 * (x 0).val = (x 0).val; rw [e3_0]; omega
  | ⟨1, _⟩ => show win4_3.index t (1 : Fin 2) * 128 + 1 * (x 1).val = (x 1).val; rw [e3_1]; omega

/-- Parameter window 4's block at any point is its whole array. -/
theorem iblk4_4_eq (c : Dev nD) (t : Fin cfg4.N) :
    (iblk4 V c 4 t : Vec Ideal S128 .f32) = (V c (Pipeline.arrRef spec4 4) : S128.Idx → EReal) := by
  obtain ⟨-, -, -, -, -, -, -, e4_0, -⟩ := idx_facts4 t
  funext x
  unfold iblk4
  rw [View.read_apply]
  show V c main_v67 _ = V c main_v67 x
  congr 1
  funext a
  apply Fin.ext
  match a with
  | ⟨0, _⟩ => show win4_4.index t (0 : Fin 1) * 128 + 1 * (x 0).val = (x 0).val; rw [e4_0]; omega

/-- Entry (r, q) of the output's block at point t sits at entry (5000·t + r, q) of the array. -/
theorem emb4_5 (t : Fin cfg4.N) (r : Fin 5000) (q : Fin 128) (R : Fin 100000) (hR : R.val = 5000 * t.val + r.val) :
    (((cfg4.win 5).blk t).view.emb (ix2 r q : S5000x128.Idx) : S100000x128.Idx) = ix2 R q := by
  obtain ⟨-, -, -, -, -, -, -, -, e5_0, e5_1⟩ := idx_facts4 t
  funext a
  apply Fin.ext
  match a with
  | ⟨0, _⟩ => show win4_5.index t (0 : Fin 2) * 5000 + 1 * r.val = R.val; rw [e5_0, hR]; omega
  | ⟨1, _⟩ => show win4_5.index t (1 : Fin 2) * 128 + 1 * q.val = q.val; rw [e5_1]; omega

/-- A block X of 5000 rows is block t of an array G of 100000 rows as soon as row r of X is row 5000·t + r of G. -/
theorem blk4_5_eq (t : Fin cfg4.N) (X : S5000x128.Idx → EReal) (G : S100000x128.Idx → EReal)
    (h : ∀ (r : Fin 5000) (q : Fin 128) (R : Fin 100000), R.val = 5000 * t.val + r.val → X (ix2 r q) = G (ix2 R q)) :
    (cfg4.win 5).cut (grid4.coords t) X = ((cfg4.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg4.N = 20 := N_4
  have hR : 5000 * t.val + r.val < 100000 := by have := t.isLt; have := r.isLt; omega
  show X (ix2 r q) = G (((cfg4.win 5).blk t).view.emb (ix2 r q : S5000x128.Idx))
  rw [emb4_5 t r q ⟨5000 * t.val + r.val, hR⟩ rfl]
  exact h r q _ rfl

/-- The body's one store of its value of five loaded blocks, written back at point t, is block t of the two-layer function of
    five arrays as soon as row r of the first block is row 5000·t + r of the first array and the other four blocks are the
    other four arrays: an entry of that function depends on its row of the input only. -/
theorem out4_5_block (t : Fin cfg4.N) (x0 : Vec Ideal S5000x128 .f32) (x1 : Vec Ideal S128x128 .f32)
    (x2 : Vec Ideal S128 .f32) (x3 : Vec Ideal S128x128 .f32) (x4 : Vec Ideal S128 .f32)
    (A0 : S100000x128.Idx → EReal) (A1 : S128x128.Idx → EReal) (A2 : S128.Idx → EReal)
    (A3 : S128x128.Idx → EReal) (A4 : S128.Idx → EReal)
    (h0 : ∀ (r : Fin 5000) (k : Fin 128) (R : Fin 100000), R.val = 5000 * t.val + r.val → x0 (ix2 r k) = A0 (ix2 R k))
    (h1 : x1 = A1) (h2 : x2 = A2) (h3 : x3 = A3) (h4 : x4 = A4) :
    (cfg4.win 5).cut (grid4.coords t) (out4_5 x0 x1 x2 x3 x4)
      = ((cfg4.win 5).blk t).view.read (Elt Ideal) (Cert.Val.mlp2 A0 A1 A2 A3 A4) := by
  subst h1 h2 h3 h4
  unfold out4_5
  rw [View.canon_unit_zero hz2_4]
  simp only [View.ld_unit_zero (S := S5000x128) hz2_4, View.ld_unit_zero (S := S128x128) hz2_4, View.ld_unit_zero (S := S128) hz1_4]
  rw [Cert.Val.k4_pay1_eq]
  exact blk4_5_eq t _ _ fun r q R hR => Cert.Val.mlp2_rows _ _ _ _ _ _ r R (fun k => h0 r k R hR) q

/-- What point t writes back is block t — rows 5000·t … 5000·t + 4999 — of the two-layer function of the arrays as the
    region finds them. -/
theorem flushed4_eq (c : Dev nD) (t : Fin cfg4.N) :
    (dat4 V c).flushed 5 t = ((cfg4.win 5).blk t).view.read (Elt Ideal)
      (Cert.Val.mlp2 (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  exact out4_5_block t _ _ _ _ _ _ _ _ _ _ (fun r k R hR => iblk4_0_apply V c t r k R hR)
    (iblk4_1_eq V c t) (iblk4_2_eq V c t) (iblk4_3_eq V c t) (iblk4_4_eq V c t)

/-- An entry of the array is in point t's block iff each coordinate is in the block's range on its axis. -/
theorem mem_blk4_5 (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v86).slice (win4_5.rect t)).set ↔ _
  rw [View.set_slice_whole, Rect.mem_set_unit]
  exact Iff.rfl

/-- Every entry of the array is in some point's block: row R is in block R / 5000. -/
theorem cover4_5_all (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨-, -, -, -, -, -, -, -, e5_0, e5_1⟩ := idx_facts4 ⟨(i 0).val / 5000, ht⟩
  refine ⟨⟨(i 0).val / 5000, ht⟩, flush4_5 _, ?_⟩
  rw [mem_blk4_5]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    rw [e5_1]; omega

/-- THE ARRAY after the region: the two-layer function of the arrays as the region finds them. -/
theorem final4 (c : Dev nD) :
    (dat4 (F := Ideal) V c).arrAt 5 cfg4.N
      = Cert.Val.mlp2 (V c (Pipeline.arrRef spec4 0)) (V c (Pipeline.arrRef spec4 1)) (V c (Pipeline.arrRef spec4 2))
        (V c (Pipeline.arrRef spec4 3)) (V c (Pipeline.arrRef spec4 4)) :=
  (dat4 (F := Ideal) V c).arrAt_eq_of_cover 5 _ (fun t _ => flushed4_eq V c t) cover4_5_all

end Cert.KernelIdeal.Hand

end
-- ==== Proof.KIFin5.lean ====
/-
  Region 5, from blocks to the array. The region's grid has 20 points; at point t the input and the output windows hold
  rows 5000·t … 5000·t + 4999 of their arrays (all columns) and the four parameter windows hold their whole arrays. What
  point t writes back is therefore block t of ONE function of the arrays as the region finds them — the normalisation by the columns' mean and variance, scaled and shifted —
  because an entry of that function depends on its row of the input only; the 20 blocks tile the 100000 rows, so the
  output array ends holding that function.
-/
import proofs.«168812_j9088150798767_1_alg».proof.Proof.KIReg5
import proofs.«168812_j9088150798767_1_alg».proof.Proof.ValBn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_5 : (![0, 0] : Fin 2 → Nat) = fun _ => 0 := funext fun a => by fin_cases a <;> rfl
theorem hz1_5 : (![0] : Fin 1 → Nat) = fun _ => 0 := funext fun a => by fin_cases a <;> rfl

/-- The printed index maps, decided over the 20 grid points: the input and the output move with the point along the
    rows, the four parameter windows are the whole arrays at every point. -/
theorem idx_facts5 : ∀ t : Fin cfg5.N, win5_0.index t (0 : Fin 2) = t.val
    ∧ win5_0.index t (1 : Fin 2) = 0
    ∧ win5_1.index t (0 : Fin 1) = 0
    ∧ win5_2.index t (0 : Fin 1) = 0
    ∧ win5_3.index t (0 : Fin 1) = 0
    ∧ win5_4.index t (0 : Fin 1) = 0
    ∧ win5_5.index t (0 : Fin 2) = t.val
    ∧ win5_5.index t (1 : Fin 2) = 0 :=
  (by decide +kernel : ∀ t : Fin grid5.N, _)

/-- Row r of the input's block at point t is row 5000·t + r of the array. -/
theorem iblk5_0_apply (c : Dev nD) (t : Fin cfg5.N) (r : Fin 5000) (k : Fin 128) (R : Fin 100000)
    (hR : R.val = 5000 * t.val + r.val) :
    (iblk5 V c 0 t : Vec Ideal S5000x128 .f32) (ix2 r k)
      = (V c (Pipeline.arrRef spec5 0) : S100000x128.Idx → EReal) (ix2 R k) := by
  obtain ⟨e0_0, e0_1, -⟩ := idx_facts5 t
  unfold iblk5
  rw [View.read_apply]
  show V c main_v86 _ = V c main_v86 _
  congr 1
  funext a
  apply Fin.ext
  match a with
  | ⟨0, _⟩ => show win5_0.index t (0 : Fin 2) * 5000 + 1 * r.val = R.val; rw [e0_0, hR]; omega
  | ⟨1, _⟩ => show win5_0.index t (1 : Fin 2) * 128 + 1 * k.val = k.val; rw [e0_1]; omega

/-- Parameter window 1's block at any point is its whole array. -/
theorem iblk5_1_eq (c : Dev nD) (t : Fin cfg5.N) :
    (iblk5 V c 1 t : Vec Ideal S128 .f32) = (V c (Pipeline.arrRef spec5 1) : S128.Idx → EReal) := by
  obtain ⟨-, -, e1_0, -⟩ := idx_facts5 t
  funext x
  unfold iblk5
  rw [View.read_apply]
  show V c main_v89 _ = V c main_v89 x
  congr 1
  funext a
  apply Fin.ext
  match a with
  | ⟨0, _⟩ => show win5_1.index t (0 : Fin 1) * 128 + 1 * (x 0).val = (x 0).val; rw [e1_0]; omega

/-- Parameter window 2's block at any point is its whole array. -/
theorem iblk5_2_eq (c : Dev nD) (t : Fin cfg5.N) :
    (iblk5 V c 2 t : Vec Ideal S128 .f32) = (V c (Pipeline.arrRef spec5 2) : S128.Idx → EReal) := by
  obtain ⟨-, -, -, e2_0, -⟩ := idx_facts5 t
  funext x
  unfold iblk5
  rw [View.read_apply]
  show V c main_v90 _ = V c main_v90 x
  congr 1
  funext a
  apply Fin.ext
  match a with
  | ⟨0, _⟩ => show win5_2.index t (0 : Fin 1) * 128 + 1 * (x 0).val = (x 0).val; rw [e2_0]; omega

/-- Parameter window 3's block at any point is its whole array. -/
theorem iblk5_3_eq (c : Dev nD) (t : Fin cfg5.N) :
    (iblk5 V c 3 t : Vec Ideal S128 .f32) = (V c (Pipeline.arrRef spec5 3) : S128.Idx → EReal) := by
  obtain ⟨-, -, -, -, e3_0, -⟩ := idx_facts5 t
  funext x
  unfold iblk5
  rw [View.read_apply]
  show V c main_v69 _ = V c main_v69 x
  congr 1
  funext a
  apply Fin.ext
  match a with
  | ⟨0, _⟩ => show win5_3.index t (0 : Fin 1) * 128 + 1 * (x 0).val = (x 0).val; rw [e3_0]; omega

/-- Parameter window 4's block at any point is its whole array. -/
theorem iblk5_4_eq (c : Dev nD) (t : Fin cfg5.N) :
    (iblk5 V c 4 t : Vec Ideal S128 .f32) = (V c (Pipeline.arrRef spec5 4) : S128.Idx → EReal) := by
  obtain ⟨-, -, -, -, -, e4_0, -⟩ := idx_facts5 t
  funext x
  unfold iblk5
  rw [View.read_apply]
  show V c main_v71 _ = V c main_v71 x
  congr 1
  funext a
  apply Fin.ext
  match a with
  | ⟨0, _⟩ => show win5_4.index t (0 : Fin 1) * 128 + 1 * (x 0).val = (x 0).val; rw [e4_0]; omega

/-- Entry (r, q) of the output's block at point t sits at entry (5000·t + r, q) of the array. -/
theorem emb5_5 (t : Fin cfg5.N) (r : Fin 5000) (q : Fin 128) (R : Fin 100000) (hR : R.val = 5000 * t.val + r.val) :
    (((cfg5.win 5).blk t).view.emb (ix2 r q : S5000x128.Idx) : S100000x128.Idx) = ix2 R q := by
  obtain ⟨-, -, -, -, -, -, e5_0, e5_1⟩ := idx_facts5 t
  funext a
  apply Fin.ext
  match a with
  | ⟨0, _⟩ => show win5_5.index t (0 : Fin 2) * 5000 + 1 * r.val = R.val; rw [e5_0, hR]; omega
  | ⟨1, _⟩ => show win5_5.index t (1 : Fin 2) * 128 + 1 * q.val = q.val; rw [e5_1]; omega

/-- A block X of 5000 rows is block t of an array G of 100000 rows as soon as row r of X is row 5000·t + r of G. -/
theorem blk5_5_eq (t : Fin cfg5.N) (X : S5000x128.Idx → EReal) (G : S100000x128.Idx → EReal)
    (h : ∀ (r : Fin 5000) (q : Fin 128) (R : Fin 100000), R.val = 5000 * t.val + r.val → X (ix2 r q) = G (ix2 R q)) :
    (cfg5.win 5).cut (grid5.coords t) X = ((cfg5.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg5.N = 20 := N_5
  have hR : 5000 * t.val + r.val < 100000 := by have := t.isLt; have := r.isLt; omega
  show X (ix2 r q) = G (((cfg5.win 5).blk t).view.emb (ix2 r q : S5000x128.Idx))
  rw [emb5_5 t r q ⟨5000 * t.val + r.val, hR⟩ rfl]
  exact h r q _ rfl

/-- The body's one store of its value of five loaded blocks, written back at point t, is block t of the normalisation of
    five arrays as soon as row r of the first block is row 5000·t + r of the first array and the other four blocks are the
    other four arrays: an entry of that function depends on its row of the input only. -/
theorem out5_5_block (t : Fin cfg5.N) (x0 : Vec Ideal S5000x128 .f32) (x1 : Vec Ideal S128 .f32)
    (x2 : Vec Ideal S128 .f32) (x3 : Vec Ideal S128 .f32) (x4 : Vec Ideal S128 .f32)
    (A0 : S100000x128.Idx → EReal) (A1 : S128.Idx → EReal) (A2 : S128.Idx → EReal)
    (A3 : S128.Idx → EReal) (A4 : S128.Idx → EReal)
    (h0 : ∀ (r : Fin 5000) (k : Fin 128) (R : Fin 100000), R.val = 5000 * t.val + r.val → x0 (ix2 r k) = A0 (ix2 R k))
    (h1 : x1 = A1) (h2 : x2 = A2) (h3 : x3 = A3) (h4 : x4 = A4) :
    (cfg5.win 5).cut (grid5.coords t) (out5_5 x0 x1 x2 x3 x4)
      = ((cfg5.win 5).blk t).view.read (Elt Ideal) (Cert.Val.bnorm A0 A1 A2 A3 A4) := by
  subst h1 h2 h3 h4
  unfold out5_5
  rw [View.canon_unit_zero hz2_5]
  simp only [View.ld_unit_zero (S := S5000x128) hz2_5, View.ld_unit_zero (S := S128) hz1_5]
  rw [Cert.Val.k5_pay1_eq]
  exact blk5_5_eq t _ _ fun r q R hR => Cert.Val.bnorm_rows _ _ _ _ _ _ r R (fun k => h0 r k R hR) q

/-- What point t writes back is block t — rows 5000·t … 5000·t + 4999 — of the normalisation of the arrays as the
    region finds them. -/
theorem flushed5_eq (c : Dev nD) (t : Fin cfg5.N) :
    (dat5 V c).flushed 5 t = ((cfg5.win 5).blk t).view.read (Elt Ideal)
      (Cert.Val.bnorm (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  exact out5_5_block t _ _ _ _ _ _ _ _ _ _ (fun r k R hR => iblk5_0_apply V c t r k R hR)
    (iblk5_1_eq V c t) (iblk5_2_eq V c t) (iblk5_3_eq V c t) (iblk5_4_eq V c t)

/-- An entry of the array is in point t's block iff each coordinate is in the block's range on its axis. -/
theorem mem_blk5_5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v91).slice (win5_5.rect t)).set ↔ _
  rw [View.set_slice_whole, Rect.mem_set_unit]
  exact Iff.rfl

/-- Every entry of the array is in some point's block: row R is in block R / 5000. -/
theorem cover5_5_all (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨-, -, -, -, -, -, e5_0, e5_1⟩ := idx_facts5 ⟨(i 0).val / 5000, ht⟩
  refine ⟨⟨(i 0).val / 5000, ht⟩, flush5_5 _, ?_⟩
  rw [mem_blk5_5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [e5_1]; omega

/-- THE ARRAY after the region: the normalisation of the arrays as the region finds them. -/
theorem final5 (c : Dev nD) :
    (dat5 (F := Ideal) V c).arrAt 5 cfg5.N
      = Cert.Val.bnorm (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5 _ (fun t _ => flushed5_eq V c t) cover5_5_all

end Cert.KernelIdeal.Hand

end
-- ==== Proof.KIValC.lean ====
import proofs.«168812_j9088150798767_1_alg».proof.Proof.KIValB
import proofs.«168812_j9088150798767_1_alg».proof.Proof.KIFin4
import proofs.«168812_j9088150798767_1_alg».proof.Proof.KIFin5
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

set_option maxHeartbeats 2000000 in
/-- `main_v59` after the host operations `hostOps4` is the reference's `res_main_v105` of the arguments: the same operations in the same order. -/
theorem val_main_v59 (c : Dev nD) : W11 m c (Proc.devRef .tc main_v59) = Cert.ReferenceIdeal.RefRun.res_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v59) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v61` after the host operations `hostOps4` is the reference's `res_main_v107` of the arguments: the same operations in the same order. -/
theorem val_main_v61 (c : Dev nD) : W11 m c (Proc.devRef .tc main_v61) = Cert.ReferenceIdeal.RefRun.res_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v61) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v63` after the host operations `hostOps4` is the reference's `res_main_v109` of the arguments: the same operations in the same order. -/
theorem val_main_v63 (c : Dev nD) : W11 m c (Proc.devRef .tc main_v63) = Cert.ReferenceIdeal.RefRun.res_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v63) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v65` after the host operations `hostOps4` is the reference's `res_main_v111` of the arguments: the same operations in the same order. -/
theorem val_main_v65 (c : Dev nD) : W11 m c (Proc.devRef .tc main_v65) = Cert.ReferenceIdeal.RefRun.res_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v65) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v67` after the host operations `hostOps4` is the reference's `res_main_v113` of the arguments: the same operations in the same order. -/
theorem val_main_v67 (c : Dev nD) : W11 m c (Proc.devRef .tc main_v67) = Cert.ReferenceIdeal.RefRun.res_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v67) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v69` after the host operations `hostOps4` is the reference's `res_main_v115` of the arguments: the same operations in the same order. -/
theorem val_main_v69 (c : Dev nD) : W11 m c (Proc.devRef .tc main_v69) = Cert.ReferenceIdeal.RefRun.res_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v69) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v71` after the host operations `hostOps4` is the reference's `res_main_v117` of the arguments: the same operations in the same order. -/
theorem val_main_v71 (c : Dev nD) : W11 m c (Proc.devRef .tc main_v71) = Cert.ReferenceIdeal.RefRun.res_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v71) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v85` after the host operations `hostOps4` is the reference's `res_main_v131` of the arguments: the same operations in the same order. -/
theorem val_main_v85 (c : Dev nD) : W11 m c (Proc.devRef .tc main_v85) = Cert.ReferenceIdeal.RefRun.res_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W10 m c) (Proc.devRef .tc main_v85) = _
  after_results_simp
  try rw [show W10 m c (Proc.devRef .tc main_arg16) = m ((c : Thread nD τ).loc main_arg16) from ((W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W10 m c (Proc.devRef .tc main_arg10) = m ((c : Thread nD τ).loc main_arg10) from ((W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W10 m c (Proc.devRef .tc main_arg11) = m ((c : Thread nD τ).loc main_arg11) from ((W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W10 m c (Proc.devRef .tc main_arg12) = m ((c : Thread nD τ).loc main_arg12) from ((W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W10 m c (Proc.devRef .tc main_arg13) = m ((c : Thread nD τ).loc main_arg13) from ((W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W10 m c (Proc.devRef .tc main_arg14) = m ((c : Thread nD τ).loc main_arg14) from ((W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W10 m c (Proc.devRef .tc main_arg15) = m ((c : Thread nD τ).loc main_arg15) from ((W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W10 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v57 m c]
  try rw [show W10 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W10 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- Region 4 leaves in `main_v86` the reference's `res_main_v141` of the arguments: its blocks are the rows of one whole-array function of
    its operands, which is the reference's composition of host operations on the same operands. -/
theorem val_main_v86 (c : Dev nD) : W12 m c (Proc.devRef .tc main_v86) = Cert.ReferenceIdeal.RefRun.res_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W12_arr m c 5).trans ((final4 (U11 m) c).trans ?_)
  rw [show U11 m c (Pipeline.arrRef spec4 0) = Cert.ReferenceIdeal.RefRun.res_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v85 m c,
    show U11 m c (Pipeline.arrRef spec4 1) = Cert.ReferenceIdeal.RefRun.res_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v61 m c,
    show U11 m c (Pipeline.arrRef spec4 2) = Cert.ReferenceIdeal.RefRun.res_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v63 m c,
    show U11 m c (Pipeline.arrRef spec4 3) = Cert.ReferenceIdeal.RefRun.res_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v65 m c,
    show U11 m c (Pipeline.arrRef spec4 4) = Cert.ReferenceIdeal.RefRun.res_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v67 m c]
  exact (Cert.Val.mlp2_host128 _ _ _ _ _ _ _ _).symm

set_option maxHeartbeats 2000000 in
/-- `main_v89` after the host operations `hostOps5` is the reference's `res_main_v144` of the arguments: the same operations in the same order. -/
theorem val_main_v89 (c : Dev nD) : W13 m c (Proc.devRef .tc main_v89) = Cert.ReferenceIdeal.RefRun.res_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps5 (W12 m c) (Proc.devRef .tc main_v89) = _
  after_results_simp
  try rw [show W12 m c (Proc.devRef .tc main_v86) = Cert.ReferenceIdeal.RefRun.res_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v86 m c]
  rfl

set_option maxHeartbeats 2000000 in
/-- `main_v90` after the host operations `hostOps5_1` is the reference's `res_main_v145` of the arguments: the same operations in the same order. -/
theorem val_main_v90 (c : Dev nD) : W14 m c (Proc.devRef .tc main_v90) = Cert.ReferenceIdeal.RefRun.res_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps5_1 (StableHlo.after hostOps5 (W12 m c)) (Proc.devRef .tc main_v90) = _
  after_results_simp
  try rw [show W12 m c (Proc.devRef .tc main_v86) = Cert.ReferenceIdeal.RefRun.res_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v86 m c]
  rfl

set_option maxHeartbeats 2000000 in
/-- Region 5 leaves in `main_v91` the reference's `res_main_v160` of the arguments: its blocks are the rows of one whole-array function of
    its operands, which is the reference's composition of host operations on the same operands. -/
theorem val_main_v91 (c : Dev nD) : W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W15_arr m c 5).trans ((final5 (U14 m) c).trans ?_)
  rw [show U14 m c (Pipeline.arrRef spec5 0) = Cert.ReferenceIdeal.RefRun.res_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W14_keep m c main_v86 (by decide)).trans <| (W13_keep m c main_v86 (by decide))).trans (val_main_v86 m c)),
    show U14 m c (Pipeline.arrRef spec5 1) = Cert.ReferenceIdeal.RefRun.res_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W14_keep m c main_v89 (by decide))).trans (val_main_v89 m c)),
    show U14 m c (Pipeline.arrRef spec5 2) = Cert.ReferenceIdeal.RefRun.res_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v90 m c,
    show U14 m c (Pipeline.arrRef spec5 3) = Cert.ReferenceIdeal.RefRun.res_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W14_keep m c main_v69 (by decide)).trans <| (W13_keep m c main_v69 (by decide)).trans <| (W12_keep m c main_v69 (by decide))).trans (val_main_v69 m c)),
    show U14 m c (Pipeline.arrRef spec5 4) = Cert.ReferenceIdeal.RefRun.res_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W14_keep m c main_v71 (by decide)).trans <| (W13_keep m c main_v71 (by decide)).trans <| (W12_keep m c main_v71 (by decide))).trans (val_main_v71 m c))]
  exact (Cert.Val.bnorm_host _ _ _ _ _ _ _ _).symm

end Cert.KernelIdeal.Hand

end
-- ==== Proof.KIFin6.lean ====
/-
  Region 6, from blocks to the array. The region's grid has 20 points; at point t the input and the output windows hold
  rows 5000·t … 5000·t + 4999 of their arrays (all columns) and the four parameter windows hold their whole arrays. What
  point t writes back is therefore block t of ONE function of the arrays as the region finds them — the two-layer perceptron of this layer, on 128 input columns —
  because an entry of that function depends on its row of the input only; the 20 blocks tile the 100000 rows, so the
  output array ends holding that function.
-/
import proofs.«168812_j9088150798767_1_alg».proof.Proof.KIReg6
import proofs.«168812_j9088150798767_1_alg».proof.Proof.ValMlp
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_6 : (![0, 0] : Fin 2 → Nat) = fun _ => 0 := funext fun a => by fin_cases a <;> rfl
theorem hz1_6 : (![0] : Fin 1 → Nat) = fun _ => 0 := funext fun a => by fin_cases a <;> rfl

/-- The printed index maps, decided over the 20 grid points: the input and the output move with the point along the
    rows, the four parameter windows are the whole arrays at every point. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 2) = 0
    ∧ win6_3.index t (1 : Fin 2) = 0
    ∧ win6_4.index t (0 : Fin 1) = 0
    ∧ win6_5.index t (0 : Fin 2) = t.val
    ∧ win6_5.index t (1 : Fin 2) = 0 :=
  (by decide +kernel : ∀ t : Fin grid6.N, _)

/-- Row r of the input's block at point t is row 5000·t + r of the array. -/
theorem iblk6_0_apply (c : Dev nD) (t : Fin cfg6.N) (r : Fin 5000) (k : Fin 128) (R : Fin 100000)
    (hR : R.val = 5000 * t.val + r.val) :
    (iblk6 V c 0 t : Vec Ideal S5000x128 .f32) (ix2 r k)
      = (V c (Pipeline.arrRef spec6 0) : S100000x128.Idx → EReal) (ix2 R k) := by
  obtain ⟨e0_0, e0_1, -⟩ := idx_facts6 t
  unfold iblk6
  rw [View.read_apply]
  show V c main_v119 _ = V c main_v119 _
  congr 1
  funext a
  apply Fin.ext
  match a with
  | ⟨0, _⟩ => show win6_0.index t (0 : Fin 2) * 5000 + 1 * r.val = R.val; rw [e0_0, hR]; omega
  | ⟨1, _⟩ => show win6_0.index t (1 : Fin 2) * 128 + 1 * k.val = k.val; rw [e0_1]; omega

/-- Parameter window 1's block at any point is its whole array. -/
theorem iblk6_1_eq (c : Dev nD) (t : Fin cfg6.N) :
    (iblk6 V c 1 t : Vec Ideal S128x128 .f32) = (V c (Pipeline.arrRef spec6 1) : S128x128.Idx → EReal) := by
  obtain ⟨-, -, e1_0, e1_1, -⟩ := idx_facts6 t
  funext x
  unfold iblk6
  rw [View.read_apply]
  show V c main_v95 _ = V c main_v95 x
  congr 1
  funext a
  apply Fin.ext
  match a with
  | ⟨0, _⟩ => show win6_1.index t (0 : Fin 2) * 128 + 1 * (x 0).val = (x 0).val; rw [e1_0]; omega
  | ⟨1, _⟩ => show win6_1.index t (1 : Fin 2) * 128 + 1 * (x 1).val = (x 1).val; rw [e1_1]; omega

/-- Parameter window 2's block at any point is its whole array. -/
theorem iblk6_2_eq (c : Dev nD) (t : Fin cfg6.N) :
    (iblk6 V c 2 t : Vec Ideal S128 .f32) = (V c (Pipeline.arrRef spec6 2) : S128.Idx → EReal) := by
  obtain ⟨-, -, -, -, e2_0, -⟩ := idx_facts6 t
  funext x
  unfold iblk6
  rw [View.read_apply]
  show V c main_v97 _ = V c main_v97 x
  congr 1
  funext a
  apply Fin.ext
  match a with
  | ⟨0, _⟩ => show win6_2.index t (0 : Fin 1) * 128 + 1 * (x 0).val = (x 0).val; rw [e2_0]; omega

/-- Parameter window 3's block at any point is its whole array. -/
theorem iblk6_3_eq (c : Dev nD) (t : Fin cfg6.N) :
    (iblk6 V c 3 t : Vec Ideal S128x128 .f32) = (V c (Pipeline.arrRef spec6 3) : S128x128.Idx → EReal) := by
  obtain ⟨-, -, -, -, -, e3_0, e3_1, -⟩ := idx_facts6 t
  funext x
  unfold iblk6
  rw [View.read_apply]
  show V c main_v99 _ = V c main_v99 x
  congr 1
  funext a
  apply Fin.ext
  match a with
  | ⟨0, _⟩ => show win6_3.index t (0 : Fin 2) * 128 + 1 * (x 0).val = (x 0).val; rw [e3_0]; omega
  | ⟨1, _⟩ => show win6_3.index t (1 : Fin 2) * 128 + 1 * (x 1).val = (x 1).val; rw [e3_1]; omega

/-- Parameter window 4's block at any point is its whole array. -/
theorem iblk6_4_eq (c : Dev nD) (t : Fin cfg6.N) :
    (iblk6 V c 4 t : Vec Ideal S128 .f32) = (V c (Pipeline.arrRef spec6 4) : S128.Idx → EReal) := by
  obtain ⟨-, -, -, -, -, -, -, e4_0, -⟩ := idx_facts6 t
  funext x
  unfold iblk6
  rw [View.read_apply]
  show V c main_v101 _ = V c main_v101 x
  congr 1
  funext a
  apply Fin.ext
  match a with
  | ⟨0, _⟩ => show win6_4.index t (0 : Fin 1) * 128 + 1 * (x 0).val = (x 0).val; rw [e4_0]; omega

/-- Entry (r, q) of the output's block at point t sits at entry (5000·t + r, q) of the array. -/
theorem emb6_5 (t : Fin cfg6.N) (r : Fin 5000) (q : Fin 128) (R : Fin 100000) (hR : R.val = 5000 * t.val + r.val) :
    (((cfg6.win 5).blk t).view.emb (ix2 r q : S5000x128.Idx) : S100000x128.Idx) = ix2 R q := by
  obtain ⟨-, -, -, -, -, -, -, -, e5_0, e5_1⟩ := idx_facts6 t
  funext a
  apply Fin.ext
  match a with
  | ⟨0, _⟩ => show win6_5.index t (0 : Fin 2) * 5000 + 1 * r.val = R.val; rw [e5_0, hR]; omega
  | ⟨1, _⟩ => show win6_5.index t (1 : Fin 2) * 128 + 1 * q.val = q.val; rw [e5_1]; omega

/-- A block X of 5000 rows is block t of an array G of 100000 rows as soon as row r of X is row 5000·t + r of G. -/
theorem blk6_5_eq (t : Fin cfg6.N) (X : S5000x128.Idx → EReal) (G : S100000x128.Idx → EReal)
    (h : ∀ (r : Fin 5000) (q : Fin 128) (R : Fin 100000), R.val = 5000 * t.val + r.val → X (ix2 r q) = G (ix2 R q)) :
    (cfg6.win 5).cut (grid6.coords t) X = ((cfg6.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg6.N = 20 := N_6
  have hR : 5000 * t.val + r.val < 100000 := by have := t.isLt; have := r.isLt; omega
  show X (ix2 r q) = G (((cfg6.win 5).blk t).view.emb (ix2 r q : S5000x128.Idx))
  rw [emb6_5 t r q ⟨5000 * t.val + r.val, hR⟩ rfl]
  exact h r q _ rfl

/-- The body's one store of its value of five loaded blocks, written back at point t, is block t of the two-layer function of
    five arrays as soon as row r of the first block is row 5000·t + r of the first array and the other four blocks are the
    other four arrays: an entry of that function depends on its row of the input only. -/
theorem out6_5_block (t : Fin cfg6.N) (x0 : Vec Ideal S5000x128 .f32) (x1 : Vec Ideal S128x128 .f32)
    (x2 : Vec Ideal S128 .f32) (x3 : Vec Ideal S128x128 .f32) (x4 : Vec Ideal S128 .f32)
    (A0 : S100000x128.Idx → EReal) (A1 : S128x128.Idx → EReal) (A2 : S128.Idx → EReal)
    (A3 : S128x128.Idx → EReal) (A4 : S128.Idx → EReal)
    (h0 : ∀ (r : Fin 5000) (k : Fin 128) (R : Fin 100000), R.val = 5000 * t.val + r.val → x0 (ix2 r k) = A0 (ix2 R k))
    (h1 : x1 = A1) (h2 : x2 = A2) (h3 : x3 = A3) (h4 : x4 = A4) :
    (cfg6.win 5).cut (grid6.coords t) (out6_5 x0 x1 x2 x3 x4)
      = ((cfg6.win 5).blk t).view.read (Elt Ideal) (Cert.Val.mlp2 A0 A1 A2 A3 A4) := by
  subst h1 h2 h3 h4
  unfold out6_5
  rw [View.canon_unit_zero hz2_6]
  simp only [View.ld_unit_zero (S := S5000x128) hz2_6, View.ld_unit_zero (S := S128x128) hz2_6, View.ld_unit_zero (S := S128) hz1_6]
  rw [Cert.Val.k6_pay1_eq]
  exact blk6_5_eq t _ _ fun r q R hR => Cert.Val.mlp2_rows _ _ _ _ _ _ r R (fun k => h0 r k R hR) q

/-- What point t writes back is block t — rows 5000·t … 5000·t + 4999 — of the two-layer function of the arrays as the
    region finds them. -/
theorem flushed6_eq (c : Dev nD) (t : Fin cfg6.N) :
    (dat6 V c).flushed 5 t = ((cfg6.win 5).blk t).view.read (Elt Ideal)
      (Cert.Val.mlp2 (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  exact out6_5_block t _ _ _ _ _ _ _ _ _ _ (fun r k R hR => iblk6_0_apply V c t r k R hR)
    (iblk6_1_eq V c t) (iblk6_2_eq V c t) (iblk6_3_eq V c t) (iblk6_4_eq V c t)

/-- An entry of the array is in point t's block iff each coordinate is in the block's range on its axis. -/
theorem mem_blk6_5 (t : Fin cfg6.N) (i : S100000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v120).slice (win6_5.rect t)).set ↔ _
  rw [View.set_slice_whole, Rect.mem_set_unit]
  exact Iff.rfl

/-- Every entry of the array is in some point's block: row R is in block R / 5000. -/
theorem cover6_5_all (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := N_6
  have ht : (i 0).val / 5000 < cfg6.N := by rw [hN]; omega
  obtain ⟨-, -, -, -, -, -, -, -, e5_0, e5_1⟩ := idx_facts6 ⟨(i 0).val / 5000, ht⟩
  refine ⟨⟨(i 0).val / 5000, ht⟩, flush6_5 _, ?_⟩
  rw [mem_blk6_5]
  intro a
  match a with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win6_5.index ⟨(i 0).val / 5000, ht⟩ (1 : Fin 2) * 128 ≤ (i 1).val
      ∧ (i 1).val < win6_5.index ⟨(i 0).val / 5000, ht⟩ (1 : Fin 2) * 128 + 128
    rw [e5_1]; omega

/-- THE ARRAY after the region: the two-layer function of the arrays as the region finds them. -/
theorem final6 (c : Dev nD) :
    (dat6 (F := Ideal) V c).arrAt 5 cfg6.N
      = Cert.Val.mlp2 (V c (Pipeline.arrRef spec6 0)) (V c (Pipeline.arrRef spec6 1)) (V c (Pipeline.arrRef spec6 2))
        (V c (Pipeline.arrRef spec6 3)) (V c (Pipeline.arrRef spec6 4)) :=
  (dat6 (F := Ideal) V c).arrAt_eq_of_cover 5 _ (fun t _ => flushed6_eq V c t) cover6_5_all

end Cert.KernelIdeal.Hand

end
-- ==== Proof.KIFin7.lean ====
/-
  Region 7, from blocks to the array. The region's grid has 20 points; at point t the input and the output windows hold
  rows 5000·t … 5000·t + 4999 of their arrays (all columns) and the four parameter windows hold their whole arrays. What
  point t writes back is therefore block t of ONE function of the arrays as the region finds them — the normalisation by the columns' mean and variance, scaled and shifted —
  because an entry of that function depends on its row of the input only; the 20 blocks tile the 100000 rows, so the
  output array ends holding that function.
-/
import proofs.«168812_j9088150798767_1_alg».proof.Proof.KIReg7
import proofs.«168812_j9088150798767_1_alg».proof.Proof.ValBn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2_7 : (![0, 0] : Fin 2 → Nat) = fun _ => 0 := funext fun a => by fin_cases a <;> rfl
theorem hz1_7 : (![0] : Fin 1 → Nat) = fun _ => 0 := funext fun a => by fin_cases a <;> rfl

/-- The printed index maps, decided over the 20 grid points: the input and the output move with the point along the
    rows, the four parameter windows are the whole arrays at every point. -/
theorem idx_facts7 : ∀ t : Fin cfg7.N, win7_0.index t (0 : Fin 2) = t.val
    ∧ win7_0.index t (1 : Fin 2) = 0
    ∧ win7_1.index t (0 : Fin 1) = 0
    ∧ win7_2.index t (0 : Fin 1) = 0
    ∧ win7_3.index t (0 : Fin 1) = 0
    ∧ win7_4.index t (0 : Fin 1) = 0
    ∧ win7_5.index t (0 : Fin 2) = t.val
    ∧ win7_5.index t (1 : Fin 2) = 0 :=
  (by decide +kernel : ∀ t : Fin grid7.N, _)

/-- Row r of the input's block at point t is row 5000·t + r of the array. -/
theorem iblk7_0_apply (c : Dev nD) (t : Fin cfg7.N) (r : Fin 5000) (k : Fin 128) (R : Fin 100000)
    (hR : R.val = 5000 * t.val + r.val) :
    (iblk7 V c 0 t : Vec Ideal S5000x128 .f32) (ix2 r k)
      = (V c (Pipeline.arrRef spec7 0) : S100000x128.Idx → EReal) (ix2 R k) := by
  obtain ⟨e0_0, e0_1, -⟩ := idx_facts7 t
  unfold iblk7
  rw [View.read_apply]
  show V c main_v120 _ = V c main_v120 _
  congr 1
  funext a
  apply Fin.ext
  match a with
  | ⟨0, _⟩ => show win7_0.index t (0 : Fin 2) * 5000 + 1 * r.val = R.val; rw [e0_0, hR]; omega
  | ⟨1, _⟩ => show win7_0.index t (1 : Fin 2) * 128 + 1 * k.val = k.val; rw [e0_1]; omega

/-- Parameter window 1's block at any point is its whole array. -/
theorem iblk7_1_eq (c : Dev nD) (t : Fin cfg7.N) :
    (iblk7 V c 1 t : Vec Ideal S128 .f32) = (V c (Pipeline.arrRef spec7 1) : S128.Idx → EReal) := by
  obtain ⟨-, -, e1_0, -⟩ := idx_facts7 t
  funext x
  unfold iblk7
  rw [View.read_apply]
  show V c main_v123 _ = V c main_v123 x
  congr 1
  funext a
  apply Fin.ext
  match a with
  | ⟨0, _⟩ => show win7_1.index t (0 : Fin 1) * 128 + 1 * (x 0).val = (x 0).val; rw [e1_0]; omega

/-- Parameter window 2's block at any point is its whole array. -/
theorem iblk7_2_eq (c : Dev nD) (t : Fin cfg7.N) :
    (iblk7 V c 2 t : Vec Ideal S128 .f32) = (V c (Pipeline.arrRef spec7 2) : S128.Idx → EReal) := by
  obtain ⟨-, -, -, e2_0, -⟩ := idx_facts7 t
  funext x
  unfold iblk7
  rw [View.read_apply]
  show V c main_v124 _ = V c main_v124 x
  congr 1
  funext a
  apply Fin.ext
  match a with
  | ⟨0, _⟩ => show win7_2.index t (0 : Fin 1) * 128 + 1 * (x 0).val = (x 0).val; rw [e2_0]; omega

/-- Parameter window 3's block at any point is its whole array. -/
theorem iblk7_3_eq (c : Dev nD) (t : Fin cfg7.N) :
    (iblk7 V c 3 t : Vec Ideal S128 .f32) = (V c (Pipeline.arrRef spec7 3) : S128.Idx → EReal) := by
  obtain ⟨-, -, -, -, e3_0, -⟩ := idx_facts7 t
  funext x
  unfold iblk7
  rw [View.read_apply]
  show V c main_v103 _ = V c main_v103 x
  congr 1
  funext a
  apply Fin.ext
  match a with
  | ⟨0, _⟩ => show win7_3.index t (0 : Fin 1) * 128 + 1 * (x 0).val = (x 0).val; rw [e3_0]; omega

/-- Parameter window 4's block at any point is its whole array. -/
theorem iblk7_4_eq (c : Dev nD) (t : Fin cfg7.N) :
    (iblk7 V c 4 t : Vec Ideal S128 .f32) = (V c (Pipeline.arrRef spec7 4) : S128.Idx → EReal) := by
  obtain ⟨-, -, -, -, -, e4_0, -⟩ := idx_facts7 t
  funext x
  unfold iblk7
  rw [View.read_apply]
  show V c main_v105 _ = V c main_v105 x
  congr 1
  funext a
  apply Fin.ext
  match a with
  | ⟨0, _⟩ => show win7_4.index t (0 : Fin 1) * 128 + 1 * (x 0).val = (x 0).val; rw [e4_0]; omega

/-- Entry (r, q) of the output's block at point t sits at entry (5000·t + r, q) of the array. -/
theorem emb7_5 (t : Fin cfg7.N) (r : Fin 5000) (q : Fin 128) (R : Fin 100000) (hR : R.val = 5000 * t.val + r.val) :
    (((cfg7.win 5).blk t).view.emb (ix2 r q : S5000x128.Idx) : S100000x128.Idx) = ix2 R q := by
  obtain ⟨-, -, -, -, -, -, e5_0, e5_1⟩ := idx_facts7 t
  funext a
  apply Fin.ext
  match a with
  | ⟨0, _⟩ => show win7_5.index t (0 : Fin 2) * 5000 + 1 * r.val = R.val; rw [e5_0, hR]; omega
  | ⟨1, _⟩ => show win7_5.index t (1 : Fin 2) * 128 + 1 * q.val = q.val; rw [e5_1]; omega

/-- A block X of 5000 rows is block t of an array G of 100000 rows as soon as row r of X is row 5000·t + r of G. -/
theorem blk7_5_eq (t : Fin cfg7.N) (X : S5000x128.Idx → EReal) (G : S100000x128.Idx → EReal)
    (h : ∀ (r : Fin 5000) (q : Fin 128) (R : Fin 100000), R.val = 5000 * t.val + r.val → X (ix2 r q) = G (ix2 R q)) :
    (cfg7.win 5).cut (grid7.coords t) X = ((cfg7.win 5).blk t).view.read (Elt Ideal) G := by
  refine funext fun (j : S5000x128.Idx) => ?_
  obtain ⟨r, q, rfl⟩ : ∃ (r : Fin 5000) (q : Fin 128), j = ix2 r q := ⟨j 0, j 1, eq_ix2 j⟩
  have hN : cfg7.N = 20 := N_7
  have hR : 5000 * t.val + r.val < 100000 := by have := t.isLt; have := r.isLt; omega
  show X (ix2 r q) = G (((cfg7.win 5).blk t).view.emb (ix2 r q : S5000x128.Idx))
  rw [emb7_5 t r q ⟨5000 * t.val + r.val, hR⟩ rfl]
  exact h r q _ rfl

/-- The body's one store of its value of five loaded blocks, written back at point t, is block t of the normalisation of
    five arrays as soon as row r of the first block is row 5000·t + r of the first array and the other four blocks are the
    other four arrays: an entry of that function depends on its row of the input only. -/
theorem out7_5_block (t : Fin cfg7.N) (x0 : Vec Ideal S5000x128 .f32) (x1 : Vec Ideal S128 .f32)
    (x2 : Vec Ideal S128 .f32) (x3 : Vec Ideal S128 .f32) (x4 : Vec Ideal S128 .f32)
    (A0 : S100000x128.Idx → EReal) (A1 : S128.Idx → EReal) (A2 : S128.Idx → EReal)
    (A3 : S128.Idx → EReal) (A4 : S128.Idx → EReal)
    (h0 : ∀ (r : Fin 5000) (k : Fin 128) (R : Fin 100000), R.val = 5000 * t.val + r.val → x0 (ix2 r k) = A0 (ix2 R k))
    (h1 : x1 = A1) (h2 : x2 = A2) (h3 : x3 = A3) (h4 : x4 = A4) :
    (cfg7.win 5).cut (grid7.coords t) (out7_5 x0 x1 x2 x3 x4)
      = ((cfg7.win 5).blk t).view.read (Elt Ideal) (Cert.Val.bnorm A0 A1 A2 A3 A4) := by
  subst h1 h2 h3 h4
  unfold out7_5
  rw [View.canon_unit_zero hz2_7]
  simp only [View.ld_unit_zero (S := S5000x128) hz2_7, View.ld_unit_zero (S := S128) hz1_7]
  rw [Cert.Val.k7_pay1_eq]
  exact blk7_5_eq t _ _ fun r q R hR => Cert.Val.bnorm_rows _ _ _ _ _ _ r R (fun k => h0 r k R hR) q

/-- What point t writes back is block t — rows 5000·t … 5000·t + 4999 — of the normalisation of the arrays as the
    region finds them. -/
theorem flushed7_eq (c : Dev nD) (t : Fin cfg7.N) :
    (dat7 V c).flushed 5 t = ((cfg7.win 5).blk t).view.read (Elt Ideal)
      (Cert.Val.bnorm (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  exact out7_5_block t _ _ _ _ _ _ _ _ _ _ (fun r k R hR => iblk7_0_apply V c t r k R hR)
    (iblk7_1_eq V c t) (iblk7_2_eq V c t) (iblk7_3_eq V c t) (iblk7_4_eq V c t)

/-- An entry of the array is in point t's block iff each coordinate is in the block's range on its axis. -/
theorem mem_blk7_5 (t : Fin cfg7.N) (i : S100000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v125).slice (win7_5.rect t)).set ↔ _
  rw [View.set_slice_whole, Rect.mem_set_unit]
  exact Iff.rfl

/-- Every entry of the array is in some point's block: row R is in block R / 5000. -/
theorem cover7_5_all (i : S100000x128.Idx) :
    ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  have ht : (i 0).val / 5000 < cfg7.N := by rw [hN]; omega
  obtain ⟨-, -, -, -, -, -, e5_0, e5_1⟩ := idx_facts7 ⟨(i 0).val / 5000, ht⟩
  refine ⟨⟨(i 0).val / 5000, ht⟩, flush7_5 _, ?_⟩
  rw [mem_blk7_5]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [e5_0]; show (i 0).val / 5000 * 5000 ≤ (i 0).val ∧ (i 0).val < (i 0).val / 5000 * 5000 + 5000; omega
  | ⟨1, _⟩ =>
    show win7_5.index ⟨(i 0).val / 5000, ht⟩ (1 : Fin 2) * 128 ≤ (i 1).val
      ∧ (i 1).val < win7_5.index ⟨(i 0).val / 5000, ht⟩ (1 : Fin 2) * 128 + 128
    rw [e5_1]; omega

/-- THE ARRAY after the region: the normalisation of the arrays as the region finds them. -/
theorem final7 (c : Dev nD) :
    (dat7 (F := Ideal) V c).arrAt 5 cfg7.N
      = Cert.Val.bnorm (V c (Pipeline.arrRef spec7 0)) (V c (Pipeline.arrRef spec7 1)) (V c (Pipeline.arrRef spec7 2))
        (V c (Pipeline.arrRef spec7 3)) (V c (Pipeline.arrRef spec7 4)) :=
  (dat7 (F := Ideal) V c).arrAt_eq_of_cover 5 _ (fun t _ => flushed7_eq V c t) cover7_5_all

end Cert.KernelIdeal.Hand

end
-- ==== Proof.KIValD.lean ====
import proofs.«168812_j9088150798767_1_alg».proof.Proof.KIValC
import proofs.«168812_j9088150798767_1_alg».proof.Proof.KIFin6
import proofs.«168812_j9088150798767_1_alg».proof.Proof.KIFin7
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

set_option maxHeartbeats 2000000 in
/-- `main_v93` after the host operations `hostOps6` is the reference's `res_main_v162` of the arguments: the same operations in the same order. -/
theorem val_main_v93 (c : Dev nD) : W16 m c (Proc.devRef .tc main_v93) = Cert.ReferenceIdeal.RefRun.res_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v93) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v95` after the host operations `hostOps6` is the reference's `res_main_v164` of the arguments: the same operations in the same order. -/
theorem val_main_v95 (c : Dev nD) : W16 m c (Proc.devRef .tc main_v95) = Cert.ReferenceIdeal.RefRun.res_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v95) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v97` after the host operations `hostOps6` is the reference's `res_main_v166` of the arguments: the same operations in the same order. -/
theorem val_main_v97 (c : Dev nD) : W16 m c (Proc.devRef .tc main_v97) = Cert.ReferenceIdeal.RefRun.res_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v97) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v99` after the host operations `hostOps6` is the reference's `res_main_v168` of the arguments: the same operations in the same order. -/
theorem val_main_v99 (c : Dev nD) : W16 m c (Proc.devRef .tc main_v99) = Cert.ReferenceIdeal.RefRun.res_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v99) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v101` after the host operations `hostOps6` is the reference's `res_main_v170` of the arguments: the same operations in the same order. -/
theorem val_main_v101 (c : Dev nD) : W16 m c (Proc.devRef .tc main_v101) = Cert.ReferenceIdeal.RefRun.res_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v101) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v103` after the host operations `hostOps6` is the reference's `res_main_v172` of the arguments: the same operations in the same order. -/
theorem val_main_v103 (c : Dev nD) : W16 m c (Proc.devRef .tc main_v103) = Cert.ReferenceIdeal.RefRun.res_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v103) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v105` after the host operations `hostOps6` is the reference's `res_main_v174` of the arguments: the same operations in the same order. -/
theorem val_main_v105 (c : Dev nD) : W16 m c (Proc.devRef .tc main_v105) = Cert.ReferenceIdeal.RefRun.res_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v105) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- `main_v119` after the host operations `hostOps6` is the reference's `res_main_v188` of the arguments: the same operations in the same order. -/
theorem val_main_v119 (c : Dev nD) : W16 m c (Proc.devRef .tc main_v119) = Cert.ReferenceIdeal.RefRun.res_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W15 m c) (Proc.devRef .tc main_v119) = _
  after_results_simp
  try rw [show W15 m c (Proc.devRef .tc main_arg16) = m ((c : Thread nD τ).loc main_arg16) from ((W15_keep m c main_arg16 (by decide)).trans <| (W14_keep m c main_arg16 (by decide)).trans <| (W13_keep m c main_arg16 (by decide)).trans <| (W12_keep m c main_arg16 (by decide)).trans <| (W11_keep m c main_arg16 (by decide)).trans <| (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)))]
  try rw [show W15 m c (Proc.devRef .tc main_arg10) = m ((c : Thread nD τ).loc main_arg10) from ((W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)))]
  try rw [show W15 m c (Proc.devRef .tc main_arg11) = m ((c : Thread nD τ).loc main_arg11) from ((W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)))]
  try rw [show W15 m c (Proc.devRef .tc main_arg12) = m ((c : Thread nD τ).loc main_arg12) from ((W15_keep m c main_arg12 (by decide)).trans <| (W14_keep m c main_arg12 (by decide)).trans <| (W13_keep m c main_arg12 (by decide)).trans <| (W12_keep m c main_arg12 (by decide)).trans <| (W11_keep m c main_arg12 (by decide)).trans <| (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)))]
  try rw [show W15 m c (Proc.devRef .tc main_arg13) = m ((c : Thread nD τ).loc main_arg13) from ((W15_keep m c main_arg13 (by decide)).trans <| (W14_keep m c main_arg13 (by decide)).trans <| (W13_keep m c main_arg13 (by decide)).trans <| (W12_keep m c main_arg13 (by decide)).trans <| (W11_keep m c main_arg13 (by decide)).trans <| (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)))]
  try rw [show W15 m c (Proc.devRef .tc main_arg14) = m ((c : Thread nD τ).loc main_arg14) from ((W15_keep m c main_arg14 (by decide)).trans <| (W14_keep m c main_arg14 (by decide)).trans <| (W13_keep m c main_arg14 (by decide)).trans <| (W12_keep m c main_arg14 (by decide)).trans <| (W11_keep m c main_arg14 (by decide)).trans <| (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)))]
  try rw [show W15 m c (Proc.devRef .tc main_arg15) = m ((c : Thread nD τ).loc main_arg15) from ((W15_keep m c main_arg15 (by decide)).trans <| (W14_keep m c main_arg15 (by decide)).trans <| (W13_keep m c main_arg15 (by decide)).trans <| (W12_keep m c main_arg15 (by decide)).trans <| (W11_keep m c main_arg15 (by decide)).trans <| (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)))]
  try rw [show W15 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v91 m c]
  try rw [show W15 m c (Proc.devRef .tc main_v1) = Cert.ReferenceIdeal.RefRun.res_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v1 (by decide)).trans <| (W14_keep m c main_v1 (by decide)).trans <| (W13_keep m c main_v1 (by decide)).trans <| (W12_keep m c main_v1 (by decide)).trans <| (W11_keep m c main_v1 (by decide)).trans <| (W10_keep m c main_v1 (by decide)).trans <| (W9_keep m c main_v1 (by decide)).trans <| (W8_keep m c main_v1 (by decide)).trans <| (W7_keep m c main_v1 (by decide)).trans <| (W6_keep m c main_v1 (by decide)).trans <| (W5_keep m c main_v1 (by decide)).trans <| (W4_keep m c main_v1 (by decide)).trans <| (W3_keep m c main_v1 (by decide)).trans <| (W2_keep m c main_v1 (by decide))).trans (val_main_v1 m c))]
  try rw [show W15 m c (Proc.devRef .tc main_v3) = Cert.ReferenceIdeal.RefRun.res_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W15_keep m c main_v3 (by decide)).trans <| (W14_keep m c main_v3 (by decide)).trans <| (W13_keep m c main_v3 (by decide)).trans <| (W12_keep m c main_v3 (by decide)).trans <| (W11_keep m c main_v3 (by decide)).trans <| (W10_keep m c main_v3 (by decide)).trans <| (W9_keep m c main_v3 (by decide)).trans <| (W8_keep m c main_v3 (by decide)).trans <| (W7_keep m c main_v3 (by decide)).trans <| (W6_keep m c main_v3 (by decide)).trans <| (W5_keep m c main_v3 (by decide)).trans <| (W4_keep m c main_v3 (by decide)).trans <| (W3_keep m c main_v3 (by decide)).trans <| (W2_keep m c main_v3 (by decide))).trans (val_main_v3 m c))]
  rfl

set_option maxHeartbeats 2000000 in
/-- Region 6 leaves in `main_v120` the reference's `res_main_v198` of the arguments: its blocks are the rows of one whole-array function of
    its operands, which is the reference's composition of host operations on the same operands. -/
theorem val_main_v120 (c : Dev nD) : W17 m c (Proc.devRef .tc main_v120) = Cert.ReferenceIdeal.RefRun.res_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W17_arr m c 5).trans ((final6 (U16 m) c).trans ?_)
  rw [show U16 m c (Pipeline.arrRef spec6 0) = Cert.ReferenceIdeal.RefRun.res_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v119 m c,
    show U16 m c (Pipeline.arrRef spec6 1) = Cert.ReferenceIdeal.RefRun.res_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v95 m c,
    show U16 m c (Pipeline.arrRef spec6 2) = Cert.ReferenceIdeal.RefRun.res_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v97 m c,
    show U16 m c (Pipeline.arrRef spec6 3) = Cert.ReferenceIdeal.RefRun.res_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v99 m c,
    show U16 m c (Pipeline.arrRef spec6 4) = Cert.ReferenceIdeal.RefRun.res_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v101 m c]
  exact (Cert.Val.mlp2_host128 _ _ _ _ _ _ _ _).symm

set_option maxHeartbeats 2000000 in
/-- `main_v123` after the host operations `hostOps7` is the reference's `res_main_v201` of the arguments: the same operations in the same order. -/
theorem val_main_v123 (c : Dev nD) : W18 m c (Proc.devRef .tc main_v123) = Cert.ReferenceIdeal.RefRun.res_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps7 (W17 m c) (Proc.devRef .tc main_v123) = _
  after_results_simp
  try rw [show W17 m c (Proc.devRef .tc main_v120) = Cert.ReferenceIdeal.RefRun.res_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v120 m c]
  rfl

set_option maxHeartbeats 2000000 in
/-- `main_v124` after the host operations `hostOps7_1` is the reference's `res_main_v202` of the arguments: the same operations in the same order. -/
theorem val_main_v124 (c : Dev nD) : W19 m c (Proc.devRef .tc main_v124) = Cert.ReferenceIdeal.RefRun.res_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps7_1 (StableHlo.after hostOps7 (W17 m c)) (Proc.devRef .tc main_v124) = _
  after_results_simp
  try rw [show W17 m c (Proc.devRef .tc main_v120) = Cert.ReferenceIdeal.RefRun.res_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v120 m c]
  rfl

set_option maxHeartbeats 2000000 in
/-- Region 7 leaves in `main_v125` the reference's `res_main_v217` of the arguments: its blocks are the rows of one whole-array function of
    its operands, which is the reference's composition of host operations on the same operands. -/
theorem val_main_v125 (c : Dev nD) : W20 m c (Proc.devRef .tc main_v125) = Cert.ReferenceIdeal.RefRun.res_main_v217 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W20_arr m c 5).trans ((final7 (U19 m) c).trans ?_)
  rw [show U19 m c (Pipeline.arrRef spec7 0) = Cert.ReferenceIdeal.RefRun.res_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W19_keep m c main_v120 (by decide)).trans <| (W18_keep m c main_v120 (by decide))).trans (val_main_v120 m c)),
    show U19 m c (Pipeline.arrRef spec7 1) = Cert.ReferenceIdeal.RefRun.res_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W19_keep m c main_v123 (by decide))).trans (val_main_v123 m c)),
    show U19 m c (Pipeline.arrRef spec7 2) = Cert.ReferenceIdeal.RefRun.res_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v124 m c,
    show U19 m c (Pipeline.arrRef spec7 3) = Cert.ReferenceIdeal.RefRun.res_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W19_keep m c main_v103 (by decide)).trans <| (W18_keep m c main_v103 (by decide)).trans <| (W17_keep m c main_v103 (by decide))).trans (val_main_v103 m c)),
    show U19 m c (Pipeline.arrRef spec7 4) = Cert.ReferenceIdeal.RefRun.res_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W19_keep m c main_v105 (by decide)).trans <| (W18_keep m c main_v105 (by decide)).trans <| (W17_keep m c main_v105 (by decide))).trans (val_main_v105 m c))]
  exact (Cert.Val.bnorm_host _ _ _ _ _ _ _ _).symm

end Cert.KernelIdeal.Hand

end
-- ==== Proof.KIFin8.lean ====
/-
  Region 8 (the classifier on the pooled features), from the block to the array.

  The region's grid has one point, and every one of its ten windows moves its whole array as one block. So each input
  block the body reads is the array the region finds at entry, the value the body stores is the classifier
  (`Cert.Val.cls`) of those nine arrays, and the one write-back's block covers the output array: after the region the
  output array holds the classifier of the nine arrays (`final8`).
-/
import proofs.«168812_j9088150798767_1_alg».proof.Proof.KIReg8
import proofs.«168812_j9088150798767_1_alg».proof.Proof.ValCls
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! # Region 8, from the block to the array

The grid has one point and every window's block is its whole array: each block index is zero on every axis, so an
element of a block sits in the array at its own coordinates. The point's one write-back therefore writes the classifier
of the nine arrays as the region finds them, and its block covers the output array. -/

theorem hz8_1 : (![0] : Fin 1 → Nat) = fun _ => 0 := funext fun a => by fin_cases a; rfl
theorem hz8_2 : (![0, 0] : Fin 2 → Nat) = fun _ => 0 := funext fun a => by fin_cases a <;> rfl

/-- The printed index maps, decided over the grid: every window's block index is zero on every axis. -/
theorem idx_facts8 : ∀ t : Fin cfg8.N, win8_0.index t (0 : Fin 2) = 0
    ∧ win8_0.index t (1 : Fin 2) = 0
    ∧ win8_1.index t (0 : Fin 2) = 0
    ∧ win8_1.index t (1 : Fin 2) = 0
    ∧ win8_2.index t (0 : Fin 1) = 0
    ∧ win8_3.index t (0 : Fin 2) = 0
    ∧ win8_3.index t (1 : Fin 2) = 0
    ∧ win8_4.index t (0 : Fin 1) = 0
    ∧ win8_5.index t (0 : Fin 2) = 0
    ∧ win8_5.index t (1 : Fin 2) = 0
    ∧ win8_6.index t (0 : Fin 1) = 0
    ∧ win8_7.index t (0 : Fin 2) = 0
    ∧ win8_7.index t (1 : Fin 2) = 0
    ∧ win8_8.index t (0 : Fin 1) = 0
    ∧ win8_9.index t (0 : Fin 2) = 0
    ∧ win8_9.index t (1 : Fin 2) = 0 :=
  (by decide +kernel : ∀ t : Fin grid8.N, _)

/-- Window 0's block at the one point is its whole array. -/
theorem iblk8_0_eq (c : Dev nD) (t : Fin cfg8.N) :
    (iblk8 V c 0 t : Vec Ideal S64x512 .f32) = V c (Pipeline.arrRef spec8 0) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 0) (((cfg8.win 0).blk t).view.emb j) = V c (Pipeline.arrRef spec8 0) j
  refine congrArg _ (funext fun a => Fin.ext ?_)
  match a with
  | ⟨0, _⟩ => show win8_0.index t (0 : Fin 2) * 64 + 1 * (j 0).val = (j 0).val; omega
  | ⟨1, _⟩ => show win8_0.index t (1 : Fin 2) * 512 + 1 * (j 1).val = (j 1).val; omega

/-- Window 1's block at the one point is its whole array. -/
theorem iblk8_1_eq (c : Dev nD) (t : Fin cfg8.N) :
    (iblk8 V c 1 t : Vec Ideal S512x256 .f32) = V c (Pipeline.arrRef spec8 1) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 1) (((cfg8.win 1).blk t).view.emb j) = V c (Pipeline.arrRef spec8 1) j
  refine congrArg _ (funext fun a => Fin.ext ?_)
  match a with
  | ⟨0, _⟩ => show win8_1.index t (0 : Fin 2) * 512 + 1 * (j 0).val = (j 0).val; omega
  | ⟨1, _⟩ => show win8_1.index t (1 : Fin 2) * 256 + 1 * (j 1).val = (j 1).val; omega

/-- Window 2's block at the one point is its whole array. -/
theorem iblk8_2_eq (c : Dev nD) (t : Fin cfg8.N) :
    (iblk8 V c 2 t : Vec Ideal S256 .f32) = V c (Pipeline.arrRef spec8 2) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 2) (((cfg8.win 2).blk t).view.emb j) = V c (Pipeline.arrRef spec8 2) j
  refine congrArg _ (funext fun a => Fin.ext ?_)
  match a with
  | ⟨0, _⟩ => show win8_2.index t (0 : Fin 1) * 256 + 1 * (j 0).val = (j 0).val; omega

/-- Window 3's block at the one point is its whole array. -/
theorem iblk8_3_eq (c : Dev nD) (t : Fin cfg8.N) :
    (iblk8 V c 3 t : Vec Ideal S256x128 .f32) = V c (Pipeline.arrRef spec8 3) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 3) (((cfg8.win 3).blk t).view.emb j) = V c (Pipeline.arrRef spec8 3) j
  refine congrArg _ (funext fun a => Fin.ext ?_)
  match a with
  | ⟨0, _⟩ => show win8_3.index t (0 : Fin 2) * 256 + 1 * (j 0).val = (j 0).val; omega
  | ⟨1, _⟩ => show win8_3.index t (1 : Fin 2) * 128 + 1 * (j 1).val = (j 1).val; omega

/-- Window 4's block at the one point is its whole array. -/
theorem iblk8_4_eq (c : Dev nD) (t : Fin cfg8.N) :
    (iblk8 V c 4 t : Vec Ideal S128 .f32) = V c (Pipeline.arrRef spec8 4) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 4) (((cfg8.win 4).blk t).view.emb j) = V c (Pipeline.arrRef spec8 4) j
  refine congrArg _ (funext fun a => Fin.ext ?_)
  match a with
  | ⟨0, _⟩ => show win8_4.index t (0 : Fin 1) * 128 + 1 * (j 0).val = (j 0).val; omega

/-- Window 5's block at the one point is its whole array. -/
theorem iblk8_5_eq (c : Dev nD) (t : Fin cfg8.N) :
    (iblk8 V c 5 t : Vec Ideal S128x128 .f32) = V c (Pipeline.arrRef spec8 5) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 5) (((cfg8.win 5).blk t).view.emb j) = V c (Pipeline.arrRef spec8 5) j
  refine congrArg _ (funext fun a => Fin.ext ?_)
  match a with
  | ⟨0, _⟩ => show win8_5.index t (0 : Fin 2) * 128 + 1 * (j 0).val = (j 0).val; omega
  | ⟨1, _⟩ => show win8_5.index t (1 : Fin 2) * 128 + 1 * (j 1).val = (j 1).val; omega

/-- Window 6's block at the one point is its whole array. -/
theorem iblk8_6_eq (c : Dev nD) (t : Fin cfg8.N) :
    (iblk8 V c 6 t : Vec Ideal S128 .f32) = V c (Pipeline.arrRef spec8 6) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 6) (((cfg8.win 6).blk t).view.emb j) = V c (Pipeline.arrRef spec8 6) j
  refine congrArg _ (funext fun a => Fin.ext ?_)
  match a with
  | ⟨0, _⟩ => show win8_6.index t (0 : Fin 1) * 128 + 1 * (j 0).val = (j 0).val; omega

/-- Window 7's block at the one point is its whole array. -/
theorem iblk8_7_eq (c : Dev nD) (t : Fin cfg8.N) :
    (iblk8 V c 7 t : Vec Ideal S128x10 .f32) = V c (Pipeline.arrRef spec8 7) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 7) (((cfg8.win 7).blk t).view.emb j) = V c (Pipeline.arrRef spec8 7) j
  refine congrArg _ (funext fun a => Fin.ext ?_)
  match a with
  | ⟨0, _⟩ => show win8_7.index t (0 : Fin 2) * 128 + 1 * (j 0).val = (j 0).val; omega
  | ⟨1, _⟩ => show win8_7.index t (1 : Fin 2) * 10 + 1 * (j 1).val = (j 1).val; omega

/-- Window 8's block at the one point is its whole array. -/
theorem iblk8_8_eq (c : Dev nD) (t : Fin cfg8.N) :
    (iblk8 V c 8 t : Vec Ideal S10 .f32) = V c (Pipeline.arrRef spec8 8) := by
  obtain ⟨e0_0, e0_1, e1_0, e1_1, e2_0, e3_0, e3_1, e4_0, e5_0, e5_1, e6_0, e7_0, e7_1, e8_0, e9_0, e9_1⟩ := idx_facts8 t
  funext j
  show V c (Pipeline.arrRef spec8 8) (((cfg8.win 8).blk t).view.emb j) = V c (Pipeline.arrRef spec8 8) j
  refine congrArg _ (funext fun a => Fin.ext ?_)
  match a with
  | ⟨0, _⟩ => show win8_8.index t (0 : Fin 1) * 10 + 1 * (j 0).val = (j 0).val; omega

/-- What the region leaves in its output array: the classifier of the nine arrays as the region finds them. -/
abbrev G8 (c : Dev nD) : S64x10.Idx → Elt Ideal .f32 :=
  Cert.Val.cls (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (V c (Pipeline.arrRef spec8 6)) (V c (Pipeline.arrRef spec8 7)) (V c (Pipeline.arrRef spec8 8))

/-- A function of the output array's indices, cut to the one point's block, is that function read through the block. -/
theorem cut8_9_eq (t : Fin cfg8.N) (G : S64x10.Idx → Elt Ideal .f32) :
    (cfg8.win 9).cut (grid8.coords t) G = ((cfg8.win 9).blk t).view.read (Elt Ideal) G := by
  obtain ⟨e0_0, e0_1, e1_0, e1_1, e2_0, e3_0, e3_1, e4_0, e5_0, e5_1, e6_0, e7_0, e7_1, e8_0, e9_0, e9_1⟩ := idx_facts8 t
  funext j
  show G ((cfg8.win 9).xinj (grid8.coords t) j) = G (((cfg8.win 9).blk t).view.emb j)
  refine congrArg G (funext fun a => Fin.ext ?_)
  match a with
  | ⟨0, _⟩ => show (j 0).val = win8_9.index t (0 : Fin 2) * 64 + 1 * (j 0).val; omega
  | ⟨1, _⟩ => show (j 1).val = win8_9.index t (1 : Fin 2) * 10 + 1 * (j 1).val; omega

/-- What the point writes back is its block of `G8`. -/
theorem flushed8_9_eq (c : Dev nD) (t : Fin cfg8.N) :
    (dat8 (F := Ideal) V c).flushed 9 t = ((cfg8.win 9).blk t).view.read (Elt Ideal) (G8 V c) := by
  show (cfg8.win 9).cut (grid8.coords t) ((dat8 V c).after 9 t) = _
  rw [after8_9]
  unfold out8_9
  rw [View.canon_unit_zero hz8_2]
  simp only [View.ld_unit_zero (S := S64x512) hz8_2, View.ld_unit_zero (S := S512x256) hz8_2,
    View.ld_unit_zero (S := S256) hz8_1, View.ld_unit_zero (S := S256x128) hz8_2, View.ld_unit_zero (S := S128) hz8_1,
    View.ld_unit_zero (S := S128x128) hz8_2, View.ld_unit_zero (S := S128x10) hz8_2, View.ld_unit_zero (S := S10) hz8_1]
  rw [Cert.Val.k8_pay_eq, iblk8_0_eq, iblk8_1_eq, iblk8_2_eq, iblk8_3_eq, iblk8_4_eq, iblk8_5_eq, iblk8_6_eq, iblk8_7_eq,
    iblk8_8_eq]
  exact cut8_9_eq t _

/-- An index of the output array is in the point's block iff each coordinate is in the block's range on its axis. -/
theorem mem_blk8_9 (t : Fin cfg8.N) (i : S64x10.Idx) :
    i ∈ ((cfg8.win 9).blk t).view.set ↔ ∀ a : Fin 2, win8_9.index t a * S64x10.size a ≤ (i a).val ∧ (i a).val < win8_9.index t a * S64x10.size a + S64x10.size a := by
  show i ∈ ((View.whole main_v139).slice (win8_9.rect t)).set ↔ _
  rw [View.set_slice_whole, Rect.mem_set_unit]
  exact Iff.rfl

/-- The one point's block covers the output array. -/
theorem cover8_9_all (i : S64x10.Idx) :
    ∃ t : Fin cfg8.N, (cfg8.win 9).flush t = true ∧ i ∈ ((cfg8.win 9).blk t).view.set := by
  refine ⟨t8_0, flush8_9 t8_0, ?_⟩
  have hf := idx_facts8 t8_0
  generalize t8_0 = t at hf ⊢
  obtain ⟨e0_0, e0_1, e1_0, e1_1, e2_0, e3_0, e3_1, e4_0, e5_0, e5_1, e6_0, e7_0, e7_1, e8_0, e9_0, e9_1⟩ := hf
  rw [mem_blk8_9]
  intro a
  have h0 : (i 0).val < 64 := (i 0).isLt
  have h1 : (i 1).val < 10 := (i 1).isLt
  match a with
  | ⟨0, _⟩ => show win8_9.index t (0 : Fin 2) * 64 ≤ (i 0).val ∧ (i 0).val < win8_9.index t (0 : Fin 2) * 64 + 64; omega
  | ⟨1, _⟩ => show win8_9.index t (1 : Fin 2) * 10 ≤ (i 1).val ∧ (i 1).val < win8_9.index t (1 : Fin 2) * 10 + 10; omega

/-- The output array after the region: the classifier of the nine arrays as the region finds them. -/
theorem final8 (c : Dev nD) : (dat8 (F := Ideal) V c).arrAt 9 cfg8.N
    = Cert.Val.cls (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (V c (Pipeline.arrRef spec8 6)) (V c (Pipeline.arrRef spec8 7)) (V c (Pipeline.arrRef spec8 8)) :=
  (dat8 (F := Ideal) V c).arrAt_eq_of_cover 9 (G8 V c) (fun t _ => flushed8_9_eq V c t) cover8_9_all

end Cert.KernelIdeal.Hand

end
-- ==== Proof.KIValE.lean ====
import proofs.«168812_j9088150798767_1_alg».proof.Proof.KIValD
import proofs.«168812_j9088150798767_1_alg».proof.Proof.KIFin8
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

set_option maxHeartbeats 4000000 in
/-- The pooling stretch, from any contents `V` of the buffers before it: the concatenation of the four layer outputs, summed per graph and divided by the
    clamped graph sizes — the reference's `pooled`, `poolSums`, `concat`, `poolCounts` of the same operands. -/
theorem pool_stage (V : Valuation τ sig (Elt Ideal)) :
    StableHlo.after hostOps8 V (Proc.devRef .tc main_v138)
      = Cert.ReferenceIdeal.RefRun.pooled (F := Ideal) (Cert.ReferenceIdeal.RefRun.poolSums (F := Ideal) (V (Proc.devRef .tc main_arg2))
          (Cert.ReferenceIdeal.RefRun.concat (F := Ideal) (V (Proc.devRef .tc main_v23)) (V (Proc.devRef .tc main_v57)) (V (Proc.devRef .tc main_v91)) (V (Proc.devRef .tc main_v125))))
        (Cert.ReferenceIdeal.RefRun.poolCounts (F := Ideal) (V (Proc.devRef .tc main_arg2))) := by
  after_results_simp
  rfl

set_option maxHeartbeats 2000000 in
/-- `main_v138` after the pooling stretch is the reference's `res_main_v230` of the arguments. -/
theorem val_main_v138 (c : Dev nD) : W21 m c (Proc.devRef .tc main_v138) = Cert.ReferenceIdeal.RefRun.res_main_v230 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (pool_stage (W20 m c)).trans ?_
  rw [show W20 m c (Proc.devRef .tc main_v23) = Cert.ReferenceIdeal.RefRun.res_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W20_keep m c main_v23 (by decide)).trans <| (W19_keep m c main_v23 (by decide)).trans <| (W18_keep m c main_v23 (by decide)).trans <| (W17_keep m c main_v23 (by decide)).trans <| (W16_keep m c main_v23 (by decide)).trans <| (W15_keep m c main_v23 (by decide)).trans <| (W14_keep m c main_v23 (by decide)).trans <| (W13_keep m c main_v23 (by decide)).trans <| (W12_keep m c main_v23 (by decide)).trans <| (W11_keep m c main_v23 (by decide)).trans <| (W10_keep m c main_v23 (by decide)).trans <| (W9_keep m c main_v23 (by decide)).trans <| (W8_keep m c main_v23 (by decide)).trans <| (W7_keep m c main_v23 (by decide)).trans <| (W6_keep m c main_v23 (by decide))).trans (val_main_v23 m c))]
  rw [show W20 m c (Proc.devRef .tc main_v57) = Cert.ReferenceIdeal.RefRun.res_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W20_keep m c main_v57 (by decide)).trans <| (W19_keep m c main_v57 (by decide)).trans <| (W18_keep m c main_v57 (by decide)).trans <| (W17_keep m c main_v57 (by decide)).trans <| (W16_keep m c main_v57 (by decide)).trans <| (W15_keep m c main_v57 (by decide)).trans <| (W14_keep m c main_v57 (by decide)).trans <| (W13_keep m c main_v57 (by decide)).trans <| (W12_keep m c main_v57 (by decide)).trans <| (W11_keep m c main_v57 (by decide))).trans (val_main_v57 m c))]
  rw [show W20 m c (Proc.devRef .tc main_v91) = Cert.ReferenceIdeal.RefRun.res_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from (((W20_keep m c main_v91 (by decide)).trans <| (W19_keep m c main_v91 (by decide)).trans <| (W18_keep m c main_v91 (by decide)).trans <| (W17_keep m c main_v91 (by decide)).trans <| (W16_keep m c main_v91 (by decide))).trans (val_main_v91 m c))]
  rw [show W20 m c (Proc.devRef .tc main_v125) = Cert.ReferenceIdeal.RefRun.res_main_v217 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v125 m c]
  rw [show W20 m c (Proc.devRef .tc main_arg2) = m ((c : Thread nD τ).loc main_arg2) from ((W20_keep m c main_arg2 (by decide)).trans <| (W19_keep m c main_arg2 (by decide)).trans <| (W18_keep m c main_arg2 (by decide)).trans <| (W17_keep m c main_arg2 (by decide)).trans <| (W16_keep m c main_arg2 (by decide)).trans <| (W15_keep m c main_arg2 (by decide)).trans <| (W14_keep m c main_arg2 (by decide)).trans <| (W13_keep m c main_arg2 (by decide)).trans <| (W12_keep m c main_arg2 (by decide)).trans <| (W11_keep m c main_arg2 (by decide)).trans <| (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)))]
  rfl

set_option maxHeartbeats 2000000 in
/-- Region 8 leaves in `main_v139` the reference's `res_main_v250` of the arguments: its blocks are the rows of one whole-array function of
    its operands, which is the reference's composition of host operations on the same operands. -/
theorem val_main_v139 (c : Dev nD) : W22 m c (Proc.devRef .tc main_v139) = Cert.ReferenceIdeal.RefRun.res_main_v250 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W22_arr m c 9).trans ((final8 (U21 m) c).trans ?_)
  rw [show U21 m c (Pipeline.arrRef spec8 0) = Cert.ReferenceIdeal.RefRun.res_main_v230 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) from val_main_v138 m c,
    show U21 m c (Pipeline.arrRef spec8 1) = m ((c : Thread nD τ).loc main_arg17) from ((W21_keep m c main_arg17 (by decide)).trans <| (W20_keep m c main_arg17 (by decide)).trans <| (W19_keep m c main_arg17 (by decide)).trans <| (W18_keep m c main_arg17 (by decide)).trans <| (W17_keep m c main_arg17 (by decide)).trans <| (W16_keep m c main_arg17 (by decide)).trans <| (W15_keep m c main_arg17 (by decide)).trans <| (W14_keep m c main_arg17 (by decide)).trans <| (W13_keep m c main_arg17 (by decide)).trans <| (W12_keep m c main_arg17 (by decide)).trans <| (W11_keep m c main_arg17 (by decide)).trans <| (W10_keep m c main_arg17 (by decide)).trans <| (W9_keep m c main_arg17 (by decide)).trans <| (W8_keep m c main_arg17 (by decide)).trans <| (W7_keep m c main_arg17 (by decide)).trans <| (W6_keep m c main_arg17 (by decide)).trans <| (W5_keep m c main_arg17 (by decide)).trans <| (W4_keep m c main_arg17 (by decide)).trans <| (W3_keep m c main_arg17 (by decide)).trans <| (W2_keep m c main_arg17 (by decide)).trans <| (W1_keep m c main_arg17 (by decide))),
    show U21 m c (Pipeline.arrRef spec8 2) = m ((c : Thread nD τ).loc main_arg18) from ((W21_keep m c main_arg18 (by decide)).trans <| (W20_keep m c main_arg18 (by decide)).trans <| (W19_keep m c main_arg18 (by decide)).trans <| (W18_keep m c main_arg18 (by decide)).trans <| (W17_keep m c main_arg18 (by decide)).trans <| (W16_keep m c main_arg18 (by decide)).trans <| (W15_keep m c main_arg18 (by decide)).trans <| (W14_keep m c main_arg18 (by decide)).trans <| (W13_keep m c main_arg18 (by decide)).trans <| (W12_keep m c main_arg18 (by decide)).trans <| (W11_keep m c main_arg18 (by decide)).trans <| (W10_keep m c main_arg18 (by decide)).trans <| (W9_keep m c main_arg18 (by decide)).trans <| (W8_keep m c main_arg18 (by decide)).trans <| (W7_keep m c main_arg18 (by decide)).trans <| (W6_keep m c main_arg18 (by decide)).trans <| (W5_keep m c main_arg18 (by decide)).trans <| (W4_keep m c main_arg18 (by decide)).trans <| (W3_keep m c main_arg18 (by decide)).trans <| (W2_keep m c main_arg18 (by decide)).trans <| (W1_keep m c main_arg18 (by decide))),
    show U21 m c (Pipeline.arrRef spec8 3) = m ((c : Thread nD τ).loc main_arg19) from ((W21_keep m c main_arg19 (by decide)).trans <| (W20_keep m c main_arg19 (by decide)).trans <| (W19_keep m c main_arg19 (by decide)).trans <| (W18_keep m c main_arg19 (by decide)).trans <| (W17_keep m c main_arg19 (by decide)).trans <| (W16_keep m c main_arg19 (by decide)).trans <| (W15_keep m c main_arg19 (by decide)).trans <| (W14_keep m c main_arg19 (by decide)).trans <| (W13_keep m c main_arg19 (by decide)).trans <| (W12_keep m c main_arg19 (by decide)).trans <| (W11_keep m c main_arg19 (by decide)).trans <| (W10_keep m c main_arg19 (by decide)).trans <| (W9_keep m c main_arg19 (by decide)).trans <| (W8_keep m c main_arg19 (by decide)).trans <| (W7_keep m c main_arg19 (by decide)).trans <| (W6_keep m c main_arg19 (by decide)).trans <| (W5_keep m c main_arg19 (by decide)).trans <| (W4_keep m c main_arg19 (by decide)).trans <| (W3_keep m c main_arg19 (by decide)).trans <| (W2_keep m c main_arg19 (by decide)).trans <| (W1_keep m c main_arg19 (by decide))),
    show U21 m c (Pipeline.arrRef spec8 4) = m ((c : Thread nD τ).loc main_arg20) from ((W21_keep m c main_arg20 (by decide)).trans <| (W20_keep m c main_arg20 (by decide)).trans <| (W19_keep m c main_arg20 (by decide)).trans <| (W18_keep m c main_arg20 (by decide)).trans <| (W17_keep m c main_arg20 (by decide)).trans <| (W16_keep m c main_arg20 (by decide)).trans <| (W15_keep m c main_arg20 (by decide)).trans <| (W14_keep m c main_arg20 (by decide)).trans <| (W13_keep m c main_arg20 (by decide)).trans <| (W12_keep m c main_arg20 (by decide)).trans <| (W11_keep m c main_arg20 (by decide)).trans <| (W10_keep m c main_arg20 (by decide)).trans <| (W9_keep m c main_arg20 (by decide)).trans <| (W8_keep m c main_arg20 (by decide)).trans <| (W7_keep m c main_arg20 (by decide)).trans <| (W6_keep m c main_arg20 (by decide)).trans <| (W5_keep m c main_arg20 (by decide)).trans <| (W4_keep m c main_arg20 (by decide)).trans <| (W3_keep m c main_arg20 (by decide)).trans <| (W2_keep m c main_arg20 (by decide)).trans <| (W1_keep m c main_arg20 (by decide))),
    show U21 m c (Pipeline.arrRef spec8 5) = m ((c : Thread nD τ).loc main_arg21) from ((W21_keep m c main_arg21 (by decide)).trans <| (W20_keep m c main_arg21 (by decide)).trans <| (W19_keep m c main_arg21 (by decide)).trans <| (W18_keep m c main_arg21 (by decide)).trans <| (W17_keep m c main_arg21 (by decide)).trans <| (W16_keep m c main_arg21 (by decide)).trans <| (W15_keep m c main_arg21 (by decide)).trans <| (W14_keep m c main_arg21 (by decide)).trans <| (W13_keep m c main_arg21 (by decide)).trans <| (W12_keep m c main_arg21 (by decide)).trans <| (W11_keep m c main_arg21 (by decide)).trans <| (W10_keep m c main_arg21 (by decide)).trans <| (W9_keep m c main_arg21 (by decide)).trans <| (W8_keep m c main_arg21 (by decide)).trans <| (W7_keep m c main_arg21 (by decide)).trans <| (W6_keep m c main_arg21 (by decide)).trans <| (W5_keep m c main_arg21 (by decide)).trans <| (W4_keep m c main_arg21 (by decide)).trans <| (W3_keep m c main_arg21 (by decide)).trans <| (W2_keep m c main_arg21 (by decide)).trans <| (W1_keep m c main_arg21 (by decide))),
    show U21 m c (Pipeline.arrRef spec8 6) = m ((c : Thread nD τ).loc main_arg22) from ((W21_keep m c main_arg22 (by decide)).trans <| (W20_keep m c main_arg22 (by decide)).trans <| (W19_keep m c main_arg22 (by decide)).trans <| (W18_keep m c main_arg22 (by decide)).trans <| (W17_keep m c main_arg22 (by decide)).trans <| (W16_keep m c main_arg22 (by decide)).trans <| (W15_keep m c main_arg22 (by decide)).trans <| (W14_keep m c main_arg22 (by decide)).trans <| (W13_keep m c main_arg22 (by decide)).trans <| (W12_keep m c main_arg22 (by decide)).trans <| (W11_keep m c main_arg22 (by decide)).trans <| (W10_keep m c main_arg22 (by decide)).trans <| (W9_keep m c main_arg22 (by decide)).trans <| (W8_keep m c main_arg22 (by decide)).trans <| (W7_keep m c main_arg22 (by decide)).trans <| (W6_keep m c main_arg22 (by decide)).trans <| (W5_keep m c main_arg22 (by decide)).trans <| (W4_keep m c main_arg22 (by decide)).trans <| (W3_keep m c main_arg22 (by decide)).trans <| (W2_keep m c main_arg22 (by decide)).trans <| (W1_keep m c main_arg22 (by decide))),
    show U21 m c (Pipeline.arrRef spec8 7) = m ((c : Thread nD τ).loc main_arg23) from ((W21_keep m c main_arg23 (by decide)).trans <| (W20_keep m c main_arg23 (by decide)).trans <| (W19_keep m c main_arg23 (by decide)).trans <| (W18_keep m c main_arg23 (by decide)).trans <| (W17_keep m c main_arg23 (by decide)).trans <| (W16_keep m c main_arg23 (by decide)).trans <| (W15_keep m c main_arg23 (by decide)).trans <| (W14_keep m c main_arg23 (by decide)).trans <| (W13_keep m c main_arg23 (by decide)).trans <| (W12_keep m c main_arg23 (by decide)).trans <| (W11_keep m c main_arg23 (by decide)).trans <| (W10_keep m c main_arg23 (by decide)).trans <| (W9_keep m c main_arg23 (by decide)).trans <| (W8_keep m c main_arg23 (by decide)).trans <| (W7_keep m c main_arg23 (by decide)).trans <| (W6_keep m c main_arg23 (by decide)).trans <| (W5_keep m c main_arg23 (by decide)).trans <| (W4_keep m c main_arg23 (by decide)).trans <| (W3_keep m c main_arg23 (by decide)).trans <| (W2_keep m c main_arg23 (by decide)).trans <| (W1_keep m c main_arg23 (by decide))),
    show U21 m c (Pipeline.arrRef spec8 8) = m ((c : Thread nD τ).loc main_arg24) from ((W21_keep m c main_arg24 (by decide)).trans <| (W20_keep m c main_arg24 (by decide)).trans <| (W19_keep m c main_arg24 (by decide)).trans <| (W18_keep m c main_arg24 (by decide)).trans <| (W17_keep m c main_arg24 (by decide)).trans <| (W16_keep m c main_arg24 (by decide)).trans <| (W15_keep m c main_arg24 (by decide)).trans <| (W14_keep m c main_arg24 (by decide)).trans <| (W13_keep m c main_arg24 (by decide)).trans <| (W12_keep m c main_arg24 (by decide)).trans <| (W11_keep m c main_arg24 (by decide)).trans <| (W10_keep m c main_arg24 (by decide)).trans <| (W9_keep m c main_arg24 (by decide)).trans <| (W8_keep m c main_arg24 (by decide)).trans <| (W7_keep m c main_arg24 (by decide)).trans <| (W6_keep m c main_arg24 (by decide)).trans <| (W5_keep m c main_arg24 (by decide)).trans <| (W4_keep m c main_arg24 (by decide)).trans <| (W3_keep m c main_arg24 (by decide)).trans <| (W2_keep m c main_arg24 (by decide)).trans <| (W1_keep m c main_arg24 (by decide)))]
  exact (Cert.Val.cls_host _ _ _ _ _ _ _ _ _).symm

end Cert.KernelIdeal.Hand

end
-- ==== Proof.lean ====
/-
  The proof of the certificate's claims.

  The three programs compute one network on 100000 nodes with 16 features, 1600000 edges and 64 graphs: four layers,
  each summing the features of a node's in-neighbours (a scatter-add of gathered rows), adding (1 + ε) times the node's own
  features, passing the sum through two dense layers each followed by the rectifier, and normalising every column by its
  mean and variance over the nodes with a learned scale and shift; then the four layers' outputs side by side are
  averaged over the nodes of each graph, and the 64 × 512 matrix of averages goes through three rectified dense layers,
  a fourth dense layer, and the log-softmax of every row, a 64 × 10 matrix. The kernel program computes the two dense
  layers of every network layer in twenty row blocks of 5000 nodes on the vector unit, the normalisation in the same
  blocks, and the classifier in one block; everything else it computes with the host operations the reference uses. The
  reference computes all of it with host operations.

  Frames. Each program, run from any memory with zero counters, terminates without fault with its argument arrays
  unchanged: for the two kernel programs (the word-level one and its reading on the extended reals, the same text) that
  is the run of its items in order — a host segment per stretch of host operations, a pipeline region per kernel launch —
  with the result conjunct dropped; for the reference it is the run of its operation list.

  Idealization. The ideal pass rewrote no operation of the kernel program, so that claim is trivially true.

  Equality of the results on the extended reals. On the extended reals a change of float format is the identity and
  every operation is exact, so a block of rows of a dense layer of an array is the dense layer of that block of rows, a
  block of rows of the normalised array is the normalisation of that block with the whole array's column statistics,
  and the blocks written back by a region's grid points tile its output array: after each region its output array is
  the same function of the region's operands that the reference's host operations compute of the same operands. Going
  through the program's items in order, the kernel program's result buffer ends holding the reference's result function
  of the 25 argument arrays. The reference's result buffer ends holding that function of its own argument arrays, which
  agree with the kernel program's by hypothesis. The common value is the witness.
-/
import proofs.«168812_j9088150798767_1_alg».proof.Defs
import proofs.«168812_j9088150798767_1_alg».proof.Proof.Gen.Kernel
import proofs.«168812_j9088150798767_1_alg».proof.Proof.Gen.Kernel.Skeleton
import proofs.«168812_j9088150798767_1_alg».proof.Proof.Gen.Kernel.Launch
import proofs.«168812_j9088150798767_1_alg».proof.Proof.Gen.Kernel.Regions
import proofs.«168812_j9088150798767_1_alg».proof.Proof.Gen.Kernel.Points
import proofs.«168812_j9088150798767_1_alg».proof.Proof.Gen.KernelIdeal
import proofs.«168812_j9088150798767_1_alg».proof.Proof.Gen.KernelIdeal.Skeleton
import proofs.«168812_j9088150798767_1_alg».proof.Proof.Gen.KernelIdeal.Launch
import proofs.«168812_j9088150798767_1_alg».proof.Proof.Gen.KernelIdeal.Regions
import proofs.«168812_j9088150798767_1_alg».proof.Proof.Gen.KernelIdeal.Points
import proofs.«168812_j9088150798767_1_alg».proof.Proof.Gen.ReferenceIdeal
import proofs.«168812_j9088150798767_1_alg».proof.Proof.Gen.Pre_finite_inputs
import proofs.«168812_j9088150798767_1_alg».proof.Proof.KRun
import proofs.«168812_j9088150798767_1_alg».proof.Proof.KIRun
import proofs.«168812_j9088150798767_1_alg».proof.Proof.RefRun
import proofs.«168812_j9088150798767_1_alg».proof.Proof.KIValE
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its argument arrays unchanged: its run, the result conjunct dropped. -/
theorem frame_k : Cert.frame_Kernel := fun m ρ _ =>
  (θ_run Cert.Kernel.defs _ _).mono (fun _ h c => (h c).2) (Cert.Kernel.Hand.run_main (F := Bits) m ρ)

/-- The same program read on the extended reals runs and leaves its argument arrays unchanged. -/
theorem frame_ki : Cert.frame_KernelIdeal := fun m ρ _ =>
  (θ_run Cert.KernelIdeal.defs _ _).mono (fun _ h c => (h c).2) (Cert.KernelIdeal.Hand.run_main (F := Ideal) m ρ)

/-- The reference runs and leaves its argument arrays unchanged. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- On the extended reals, from memories that agree on the arguments, both programs run and end with equal results and
    unchanged arguments: the kernel program's result buffer ends at the reference's result function of the kernel
    program's arguments, the reference's at the same function of its own arguments, which are the same arrays. -/
theorem algebraic : Cert.algebraic_KernelIdeal_ReferenceIdeal := by
  intro m ρ m' ρ' _ hagree
  refine ⟨fun c => Cert.ReferenceIdeal.RefRun.res_main_v250 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono (fun _ h c => ⟨(h c).1.trans (Cert.KernelIdeal.Hand.val_main_v139 m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
